-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v263)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v263) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v353) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x3 : Shape := ⟨2, ![50000, 3]⟩
abbrev S2x800000 : Shape := ⟨2, ![2, 800000]⟩
abbrev S4x3x128 : Shape := ⟨3, ![4, 3, 128]⟩
abbrev S128 : Shape := ⟨1, ![128]⟩
abbrev S4x128x128 : Shape := ⟨3, ![4, 128, 128]⟩
abbrev S_ : Shape := ⟨0, ![]⟩

class Facts : Prop where
  bcast_S_S50000x3 : S_.BroadcastsInDim S50000x3 (![] : Fin 0 → Fin S50000x3.rank)
  reducesTo_S50000x3_S_d0_1 : S50000x3.ReducesTo [0, 1] S_
  h_S_ : 0 < S_.numel
  bcast_S_S4x3x128 : S_.BroadcastsInDim S4x3x128 (![] : Fin 0 → Fin S4x3x128.rank)
  reducesTo_S4x3x128_S_d0_1_2 : S4x3x128.ReducesTo [0, 1, 2] S_
  bcast_S_S128 : S_.BroadcastsInDim S128 (![] : Fin 0 → Fin S128.rank)
  reducesTo_S128_S_d0 : S128.ReducesTo [0] S_
  bcast_S_S4x128x128 : S_.BroadcastsInDim S4x128x128 (![] : Fin 0 → Fin S4x128x128.rank)
  reducesTo_S4x128x128_S_d0_1_2 : S4x128x128.ReducesTo [0, 1, 2] S_

variable [Facts]

def fn_part4 {F : FTy → Type} [FloatOps F] (main_arg15 : FVec F S128 .f32) (main_v63 : IVec S_ 1) (main_v67 : IVec S_ 1) : IVec S_ 1 :=
  let main_v68 : IVec S_ 1 := andi main_v63 main_v67
  let main_v69 : FVec F S128 .f32 := Host.absf main_arg15
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  main_v73

def fn_part3 {F : FTy → Type} [FloatOps F] (main_arg12 : FVec F S128 .f32) (main_arg13 : FVec F S128 .f32) (main_arg14 : FVec F S128 .f32) (main_arg15 : FVec F S128 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128 .f32 := Host.absf main_arg12
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128 .f32 := Host.absf main_arg13
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128 .f32 := Host.absf main_arg14
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg15 main_v63 main_v67

def fn_part2 {F : FTy → Type} [FloatOps F] (main_arg8 : FVec F S4x128x128 .f32) (main_arg9 : FVec F S128 .f32) (main_arg10 : FVec F S128 .f32) (main_arg11 : FVec F S128 .f32) (main_arg12 : FVec F S128 .f32) (main_arg13 : FVec F S128 .f32) (main_arg14 : FVec F S128 .f32) (main_arg15 : FVec F S128 .f32) (main_v33 : IVec S_ 1) : IVec S_ 1 :=
  let main_v34 : FVec F S4x128x128 .f32 := Host.absf main_arg8
  let main_cst_12 : FVec F S_ .f32 := constant S_ .f32 0x7F800000#32
  let main_v35 : FVec F S4x128x128 .f32 := broadcastInDim S4x128x128 ![] bcast_S_S4x128x128 main_cst_12
  let main_v36 : IVec S4x128x128 1 := cmpf .olt main_v34 main_v35
  let main_c_13 : IVec S_ 1 := constantI S_ 1 1#1
  let main_v37 : IVec S_ 1 := (fun x v => Host.reduce IntOp.andi x v reducesTo_S4x128x128_S_d0_1_2 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128 .f32 := Host.absf main_arg11
  let main_cst_18 : FVec F S_ .f32 := constant S_ .f32 0x7F800000#32
  let main_v50 : FVec F S128 .f32 := broadcastInDim S128 ![] bcast_S_S128 main_cst_18
  fn_part3 (F := F) main_arg12 main_arg13 main_arg14 main_arg15 main_v48 main_v49 main_v50

def fn_part1 {F : FTy → Type} [FloatOps F] (main_arg5 : FVec F S128 .f32) (main_arg6 : FVec F S4x128x128 .f32) (main_arg7 : FVec F S128 .f32) (main_arg8 : FVec F S4x128x128 .f32) (main_arg9 : FVec F S128 .f32) (main_arg10 : FVec F S128 .f32) (main_arg11 : FVec F S128 .f32) (main_arg12 : FVec F S128 .f32) (main_arg13 : FVec F S128 .f32) (main_arg14 : FVec F S128 .f32) (main_arg15 : FVec F S128 .f32) (main_v13 : IVec S_ 1) (main_v16 : IVec S4x128x128 1) : IVec S_ 1 :=
  let main_c_5 : IVec S_ 1 := constantI S_ 1 1#1
  let main_v17 : IVec S_ 1 := (fun x v => Host.reduce IntOp.andi x v reducesTo_S4x128x128_S_d0_1_2 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S4x128x128 .f32 := Host.absf main_arg6
  let main_cst_8 : FVec F S_ .f32 := constant S_ .f32 0x7F800000#32
  let main_v25 : FVec F S4x128x128 .f32 := broadcastInDim S4x128x128 ![] bcast_S_S4x128x128 main_cst_8
  let main_v26 : IVec S4x128x128 1 := cmpf .olt main_v24 main_v25
  let main_c_9 : IVec S_ 1 := constantI S_ 1 1#1
  let main_v27 : IVec S_ 1 := (fun x v => Host.reduce IntOp.andi x v reducesTo_S4x128x128_S_d0_1_2 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_arg10 main_arg11 main_arg12 main_arg13 main_arg14 main_arg15 main_v33

def fn {F : FTy → Type} [FloatOps F] (main_arg0 : FVec F S50000x3 .f32) (main_arg1 : IVec S2x800000 32) (main_arg2 : FVec F S4x3x128 .f32) (main_arg3 : FVec F S128 .f32) (main_arg4 : FVec F S4x128x128 .f32) (main_arg5 : FVec F S128 .f32) (main_arg6 : FVec F S4x128x128 .f32) (main_arg7 : FVec F S128 .f32) (main_arg8 : FVec F S4x128x128 .f32) (main_arg9 : FVec F S128 .f32) (main_arg10 : FVec F S128 .f32) (main_arg11 : FVec F S128 .f32) (main_arg12 : FVec F S128 .f32) (main_arg13 : FVec F S128 .f32) (main_arg14 : FVec F S128 .f32) (main_arg15 : FVec F S128 .f32) : IVec S_ 1 :=
  let main_v0 : FVec F S50000x3 .f32 := Host.absf main_arg0
  let main_cst : FVec F S_ .f32 := constant S_ .f32 0x7F800000#32
  let main_v1 : FVec F S50000x3 .f32 := broadcastInDim S50000x3 ![] bcast_S_S50000x3 main_cst
  let main_v2 : IVec S50000x3 1 := cmpf .olt main_v0 main_v1
  let main_c : IVec S_ 1 := constantI S_ 1 1#1
  let main_v3 : IVec S_ 1 := (fun x v => Host.reduce IntOp.andi x v reducesTo_S50000x3_S_d0_1 h_S_) main_v2 main_c
  let main_v4 : FVec F S4x3x128 .f32 := Host.absf main_arg2
  let main_cst_0 : FVec F S_ .f32 := constant S_ .f32 0x7F800000#32
  let main_v5 : FVec F S4x3x128 .f32 := broadcastInDim S4x3x128 ![] bcast_S_S4x3x128 main_cst_0
  let main_v6 : IVec S4x3x128 1 := cmpf .olt main_v4 main_v5
  let main_c_1 : IVec S_ 1 := constantI S_ 1 1#1
  let main_v7 : IVec S_ 1 := (fun x v => Host.reduce IntOp.andi x v reducesTo_S4x3x128_S_d0_1_2 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S4x128x128 .f32 := Host.absf main_arg4
  let main_cst_4 : FVec F S_ .f32 := constant S_ .f32 0x7F800000#32
  let main_v15 : FVec F S4x128x128 .f32 := broadcastInDim S4x128x128 ![] bcast_S_S4x128x128 main_cst_4
  let main_v16 : IVec S4x128x128 1 := cmpf .olt main_v14 main_v15
  fn_part1 (F := F) main_arg5 main_arg6 main_arg7 main_arg8 main_arg9 main_arg10 main_arg11 main_arg12 main_arg13 main_arg14 main_arg15 main_v13 main_v16
-- ==== Kernel.lean ====
abbrev S50000x3 : Shape := ⟨2, ![50000, 3]⟩
abbrev S2x800000 : Shape := ⟨2, ![2, 800000]⟩
abbrev S4x3x128 : Shape := ⟨3, ![4, 3, 128]⟩
abbrev S128 : Shape := ⟨1, ![128]⟩
abbrev S4x128x128 : Shape := ⟨3, ![4, 128, 128]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S800000x3 : Shape := ⟨2, ![800000, 3]⟩
abbrev S1x128 : Shape := ⟨2, ![1, 128]⟩
abbrev S50000x128 : Shape := ⟨2, ![50000, 128]⟩
abbrev S5000x3 : Shape := ⟨2, ![5000, 3]⟩
abbrev S5000x128 : Shape := ⟨2, ![5000, 128]⟩
abbrev S1x3x128 : Shape := ⟨3, ![1, 3, 128]⟩
abbrev S3x128 : Shape := ⟨2, ![3, 128]⟩
abbrev S800000x128 : Shape := ⟨2, ![800000, 128]⟩
abbrev S1x128x128 : Shape := ⟨3, ![1, 128, 128]⟩
abbrev S128x128 : Shape := ⟨2, ![128, 128]⟩
abbrev S5000 : Shape := ⟨1, ![5000]⟩
abbrev S5000x1 : Shape := ⟨2, ![5000, 1]⟩

abbrev nBuf : Space → Nat
  | .hbm => 410
  | .vmem => 78
  | .smem => 0
  | _ => 0

abbrev hbmTy0_0 (i : Nat) : BufTy := match i % 128 with
  | 0 => ⟨S50000x3, .f32⟩
  | 1 => ⟨S2x800000, .i32⟩
  | 2 => ⟨S4x3x128, .f32⟩
  | 3 => ⟨S128, .f32⟩
  | 4 => ⟨S4x128x128, .f32⟩
  | 5 => ⟨S128, .f32⟩
  | 6 => ⟨S4x128x128, .f32⟩
  | 7 => ⟨S128, .f32⟩
  | 8 => ⟨S4x128x128, .f32⟩
  | 9 => ⟨S128, .f32⟩
  | 10 => ⟨S128, .f32⟩
  | 11 => ⟨S128, .f32⟩
  | 12 => ⟨S128, .f32⟩
  | 13 => ⟨S128, .f32⟩
  | 14 => ⟨S128, .f32⟩
  | 15 => ⟨S128, .f32⟩
  | 16 => ⟨S1x800000, .i32⟩
  | 17 => ⟨S800000, .i32⟩
  | 18 => ⟨S1x800000, .i32⟩
  | 19 => ⟨S800000, .i32⟩
  | 20 => ⟨S1x800000, .i32⟩
  | 21 => ⟨S800000, .i32⟩
  | 22 => ⟨S1x800000, .i32⟩
  | 23 => ⟨S800000, .i32⟩
  | 24 => ⟨S_, .f32⟩
  | 25 => ⟨S800000, .f32⟩
  | 26 => ⟨S_, .f32⟩
  | 27 => ⟨S50000, .f32⟩
  | 28 => ⟨S800000x1, .i32⟩
  | 29 => ⟨S50000, .f32⟩
  | 30 => ⟨S_, .f32⟩
  | 31 => ⟨S50000, .f32⟩
  | 32 => ⟨S50000, .i1⟩
  | 33 => ⟨S_, .f32⟩
  | 34 => ⟨S50000, .f32⟩
  | 35 => ⟨S50000, .f32⟩
  | 36 => ⟨S50000, .f32⟩
  | 37 => ⟨S_, .f32⟩
  | 38 => ⟨S_, .f32⟩
  | 39 => ⟨S50000, .f32⟩
  | 40 => ⟨S50000, .f32⟩
  | 41 => ⟨S_, .i32⟩
  | 42 => ⟨S800000, .i32⟩
  | 43 => ⟨S800000, .i1⟩
  | 44 => ⟨S_, .i32⟩
  | 45 => ⟨S800000, .i32⟩
  | 46 => ⟨S800000, .i32⟩
  | 47 => ⟨S800000, .i32⟩
  | 48 => ⟨S800000x1, .i32⟩
  | 49 => ⟨S800000, .f32⟩
  | 50 => ⟨S800000, .f32⟩
  | 51 => ⟨S_, .i32⟩
  | 52 => ⟨S800000, .i32⟩
  | 53 => ⟨S800000, .i1⟩
  | 54 => ⟨S_, .i32⟩
  | 55 => ⟨S800000, .i32⟩
  | 56 => ⟨S800000, .i32⟩
  | 57 => ⟨S800000, .i32⟩
  | 58 => ⟨S800000x1, .i32⟩
  | 59 => ⟨S800000, .f32⟩
  | 60 => ⟨S800000, .f32⟩
  | 61 => ⟨S_, .i32⟩
  | 62 => ⟨S800000, .i32⟩
  | 63 => ⟨S800000, .i1⟩
  | 64 => ⟨S_, .i32⟩
  | 65 => ⟨S800000, .i32⟩
  | 66 => ⟨S800000, .i32⟩
  | 67 => ⟨S800000, .i32⟩
  | 68 => ⟨S800000x1, .i32⟩
  | 69 => ⟨S800000x3, .f32⟩
  | 70 => ⟨S800000x1, .f32⟩
  | 71 => ⟨S800000x3, .f32⟩
  | 72 => ⟨S800000x3, .f32⟩
  | 73 => ⟨S_, .f32⟩
  | 74 => ⟨S50000x3, .f32⟩
  | 75 => ⟨S800000x1, .i32⟩
  | 76 => ⟨S50000x3, .f32⟩
  | 77 => ⟨S_, .i32⟩
  | 78 => ⟨S800000, .i32⟩
  | 79 => ⟨S800000, .i1⟩
  | 80 => ⟨S_, .i32⟩
  | 81 => ⟨S800000, .i32⟩
  | 82 => ⟨S800000, .i32⟩
  | 83 => ⟨S800000, .i32⟩
  | 84 => ⟨S800000x1, .i32⟩
  | 85 => ⟨S800000x3, .f32⟩
  | 86 => ⟨S800000x1, .f32⟩
  | 87 => ⟨S800000x3, .f32⟩
  | 88 => ⟨S800000x3, .f32⟩
  | 89 => ⟨S_, .f32⟩
  | 90 => ⟨S50000x3, .f32⟩
  | 91 => ⟨S800000x1, .i32⟩
  | 92 => ⟨S50000x3, .f32⟩
  | 93 => ⟨S_, .f32⟩
  | 94 => ⟨S50000x3, .f32⟩
  | 95 => ⟨S50000x3, .f32⟩
  | 96 => ⟨S50000x3, .f32⟩
  | 97 => ⟨S_, .i32⟩
  | 98 => ⟨S800000, .i32⟩
  | 99 => ⟨S800000, .i1⟩
  | 100 => ⟨S_, .i32⟩
  | 101 => ⟨S800000, .i32⟩
  | 102 => ⟨S800000, .i32⟩
  | 103 => ⟨S800000, .i32⟩
  | 104 => ⟨S800000x1, .i32⟩
  | 105 => ⟨S800000x3, .f32⟩
  | 106 => ⟨S800000x1, .f32⟩
  | 107 => ⟨S800000x3, .f32⟩
  | 108 => ⟨S800000x3, .f32⟩
  | 109 => ⟨S_, .f32⟩
  | 110 => ⟨S50000x3, .f32⟩
  | 111 => ⟨S800000x1, .i32⟩
  | 112 => ⟨S50000x3, .f32⟩
  | 113 => ⟨S_, .f32⟩
  | 114 => ⟨S50000x3, .f32⟩
  | 115 => ⟨S50000x3, .f32⟩
  | 116 => ⟨S50000x3, .f32⟩
  | 117 => ⟨S1x128, .f32⟩
  | 118 => ⟨S50000x128, .f32⟩
  | 119 => ⟨S_, .f32⟩
  | 120 => ⟨S128, .f32⟩
  | 121 => ⟨S_, .f32⟩
  | 122 => ⟨S128, .f32⟩
  | 123 => ⟨S128, .f32⟩
  | 124 => ⟨S_, .i32⟩
  | 125 => ⟨S_, .f32⟩
  | 126 => ⟨S128, .f32⟩
  | 127 => ⟨S1x128, .f32⟩
  | _ => ⟨S50000x3, .f32⟩

abbrev hbmTy0_1 (i : Nat) : BufTy := match i % 128 with
  | 0 => ⟨S_, .f32⟩
  | 1 => ⟨S1x128, .f32⟩
  | 2 => ⟨S1x128, .f32⟩
  | 3 => ⟨S50000x128, .f32⟩
  | 4 => ⟨S50000x128, .f32⟩
  | 5 => ⟨S50000x128, .f32⟩
  | 6 => ⟨S_, .f32⟩
  | 7 => ⟨S_, .f32⟩
  | 8 => ⟨S_, .f32⟩
  | 9 => ⟨S_, .f32⟩
  | 10 => ⟨S128, .f32⟩
  | 11 => ⟨S128, .f32⟩
  | 12 => ⟨S128, .f32⟩
  | 13 => ⟨S_, .f32⟩
  | 14 => ⟨S_, .i1⟩
  | 15 => ⟨S_, .f32⟩
  | 16 => ⟨S_, .f32⟩
  | 17 => ⟨S128, .f32⟩
  | 18 => ⟨S128, .f32⟩
  | 19 => ⟨S1x128, .f32⟩
  | 20 => ⟨S1x128, .f32⟩
  | 21 => ⟨S1x128, .f32⟩
  | 22 => ⟨S1x128, .f32⟩
  | 23 => ⟨S50000x128, .f32⟩
  | 24 => ⟨S50000x128, .bf16⟩
  | 25 => ⟨S_, .i32⟩
  | 26 => ⟨S800000, .i32⟩
  | 27 => ⟨S800000, .i1⟩
  | 28 => ⟨S_, .i32⟩
  | 29 => ⟨S800000, .i32⟩
  | 30 => ⟨S800000, .i32⟩
  | 31 => ⟨S800000, .i32⟩
  | 32 => ⟨S800000x1, .i32⟩
  | 33 => ⟨S800000x128, .bf16⟩
  | 34 => ⟨S800000x128, .f32⟩
  | 35 => ⟨S800000x1, .f32⟩
  | 36 => ⟨S800000x128, .f32⟩
  | 37 => ⟨S800000x128, .f32⟩
  | 38 => ⟨S_, .f32⟩
  | 39 => ⟨S50000x128, .f32⟩
  | 40 => ⟨S800000x1, .i32⟩
  | 41 => ⟨S50000x128, .f32⟩
  | 42 => ⟨S50000x128, .bf16⟩
  | 43 => ⟨S_, .i32⟩
  | 44 => ⟨S800000, .i32⟩
  | 45 => ⟨S800000, .i1⟩
  | 46 => ⟨S_, .i32⟩
  | 47 => ⟨S800000, .i32⟩
  | 48 => ⟨S800000, .i32⟩
  | 49 => ⟨S800000, .i32⟩
  | 50 => ⟨S800000x1, .i32⟩
  | 51 => ⟨S800000x128, .bf16⟩
  | 52 => ⟨S800000x128, .f32⟩
  | 53 => ⟨S800000x1, .f32⟩
  | 54 => ⟨S800000x128, .f32⟩
  | 55 => ⟨S800000x128, .f32⟩
  | 56 => ⟨S_, .f32⟩
  | 57 => ⟨S50000x128, .f32⟩
  | 58 => ⟨S800000x1, .i32⟩
  | 59 => ⟨S50000x128, .f32⟩
  | 60 => ⟨S_, .f32⟩
  | 61 => ⟨S50000x128, .f32⟩
  | 62 => ⟨S50000x128, .f32⟩
  | 63 => ⟨S50000x128, .f32⟩
  | 64 => ⟨S50000x128, .bf16⟩
  | 65 => ⟨S_, .i32⟩
  | 66 => ⟨S800000, .i32⟩
  | 67 => ⟨S800000, .i1⟩
  | 68 => ⟨S_, .i32⟩
  | 69 => ⟨S800000, .i32⟩
  | 70 => ⟨S800000, .i32⟩
  | 71 => ⟨S800000, .i32⟩
  | 72 => ⟨S800000x1, .i32⟩
  | 73 => ⟨S800000x128, .bf16⟩
  | 74 => ⟨S800000x128, .f32⟩
  | 75 => ⟨S800000x1, .f32⟩
  | 76 => ⟨S800000x128, .f32⟩
  | 77 => ⟨S800000x128, .f32⟩
  | 78 => ⟨S_, .f32⟩
  | 79 => ⟨S50000x128, .f32⟩
  | 80 => ⟨S800000x1, .i32⟩
  | 81 => ⟨S50000x128, .f32⟩
  | 82 => ⟨S_, .f32⟩
  | 83 => ⟨S50000x128, .f32⟩
  | 84 => ⟨S50000x128, .f32⟩
  | 85 => ⟨S50000x128, .f32⟩
  | 86 => ⟨S1x128, .f32⟩
  | 87 => ⟨S50000x128, .f32⟩
  | 88 => ⟨S_, .f32⟩
  | 89 => ⟨S128, .f32⟩
  | 90 => ⟨S_, .f32⟩
  | 91 => ⟨S128, .f32⟩
  | 92 => ⟨S128, .f32⟩
  | 93 => ⟨S_, .i32⟩
  | 94 => ⟨S_, .f32⟩
  | 95 => ⟨S128, .f32⟩
  | 96 => ⟨S1x128, .f32⟩
  | 97 => ⟨S_, .f32⟩
  | 98 => ⟨S1x128, .f32⟩
  | 99 => ⟨S1x128, .f32⟩
  | 100 => ⟨S50000x128, .f32⟩
  | 101 => ⟨S50000x128, .f32⟩
  | 102 => ⟨S50000x128, .f32⟩
  | 103 => ⟨S_, .f32⟩
  | 104 => ⟨S_, .f32⟩
  | 105 => ⟨S_, .f32⟩
  | 106 => ⟨S_, .f32⟩
  | 107 => ⟨S128, .f32⟩
  | 108 => ⟨S128, .f32⟩
  | 109 => ⟨S128, .f32⟩
  | 110 => ⟨S_, .f32⟩
  | 111 => ⟨S_, .i1⟩
  | 112 => ⟨S_, .f32⟩
  | 113 => ⟨S_, .f32⟩
  | 114 => ⟨S128, .f32⟩
  | 115 => ⟨S128, .f32⟩
  | 116 => ⟨S1x128, .f32⟩
  | 117 => ⟨S1x128, .f32⟩
  | 118 => ⟨S1x128, .f32⟩
  | 119 => ⟨S1x128, .f32⟩
  | 120 => ⟨S50000x128, .f32⟩
  | 121 => ⟨S50000x128, .bf16⟩
  | 122 => ⟨S_, .i32⟩
  | 123 => ⟨S800000, .i32⟩
  | 124 => ⟨S800000, .i1⟩
  | 125 => ⟨S_, .i32⟩
  | 126 => ⟨S800000, .i32⟩
  | 127 => ⟨S800000, .i32⟩
  | _ => ⟨S50000x3, .f32⟩

abbrev hbmTy0_2 (i : Nat) : BufTy := match i % 128 with
  | 0 => ⟨S800000, .i32⟩
  | 1 => ⟨S800000x1, .i32⟩
  | 2 => ⟨S800000x128, .bf16⟩
  | 3 => ⟨S800000x128, .f32⟩
  | 4 => ⟨S800000x1, .f32⟩
  | 5 => ⟨S800000x128, .f32⟩
  | 6 => ⟨S800000x128, .f32⟩
  | 7 => ⟨S_, .f32⟩
  | 8 => ⟨S50000x128, .f32⟩
  | 9 => ⟨S800000x1, .i32⟩
  | 10 => ⟨S50000x128, .f32⟩
  | 11 => ⟨S50000x128, .bf16⟩
  | 12 => ⟨S_, .i32⟩
  | 13 => ⟨S800000, .i32⟩
  | 14 => ⟨S800000, .i1⟩
  | 15 => ⟨S_, .i32⟩
  | 16 => ⟨S800000, .i32⟩
  | 17 => ⟨S800000, .i32⟩
  | 18 => ⟨S800000, .i32⟩
  | 19 => ⟨S800000x1, .i32⟩
  | 20 => ⟨S800000x128, .bf16⟩
  | 21 => ⟨S800000x128, .f32⟩
  | 22 => ⟨S800000x1, .f32⟩
  | 23 => ⟨S800000x128, .f32⟩
  | 24 => ⟨S800000x128, .f32⟩
  | 25 => ⟨S_, .f32⟩
  | 26 => ⟨S50000x128, .f32⟩
  | 27 => ⟨S800000x1, .i32⟩
  | 28 => ⟨S50000x128, .f32⟩
  | 29 => ⟨S_, .f32⟩
  | 30 => ⟨S50000x128, .f32⟩
  | 31 => ⟨S50000x128, .f32⟩
  | 32 => ⟨S50000x128, .f32⟩
  | 33 => ⟨S50000x128, .bf16⟩
  | 34 => ⟨S_, .i32⟩
  | 35 => ⟨S800000, .i32⟩
  | 36 => ⟨S800000, .i1⟩
  | 37 => ⟨S_, .i32⟩
  | 38 => ⟨S800000, .i32⟩
  | 39 => ⟨S800000, .i32⟩
  | 40 => ⟨S800000, .i32⟩
  | 41 => ⟨S800000x1, .i32⟩
  | 42 => ⟨S800000x128, .bf16⟩
  | 43 => ⟨S800000x128, .f32⟩
  | 44 => ⟨S800000x1, .f32⟩
  | 45 => ⟨S800000x128, .f32⟩
  | 46 => ⟨S800000x128, .f32⟩
  | 47 => ⟨S_, .f32⟩
  | 48 => ⟨S50000x128, .f32⟩
  | 49 => ⟨S800000x1, .i32⟩
  | 50 => ⟨S50000x128, .f32⟩
  | 51 => ⟨S_, .f32⟩
  | 52 => ⟨S50000x128, .f32⟩
  | 53 => ⟨S50000x128, .f32⟩
  | 54 => ⟨S50000x128, .f32⟩
  | 55 => ⟨S1x128, .f32⟩
  | 56 => ⟨S50000x128, .f32⟩
  | 57 => ⟨S_, .f32⟩
  | 58 => ⟨S128, .f32⟩
  | 59 => ⟨S_, .f32⟩
  | 60 => ⟨S128, .f32⟩
  | 61 => ⟨S128, .f32⟩
  | 62 => ⟨S_, .i32⟩
  | 63 => ⟨S_, .f32⟩
  | 64 => ⟨S128, .f32⟩
  | 65 => ⟨S1x128, .f32⟩
  | 66 => ⟨S_, .f32⟩
  | 67 => ⟨S1x128, .f32⟩
  | 68 => ⟨S1x128, .f32⟩
  | 69 => ⟨S50000x128, .f32⟩
  | 70 => ⟨S50000x128, .f32⟩
  | 71 => ⟨S50000x128, .f32⟩
  | 72 => ⟨S_, .f32⟩
  | 73 => ⟨S_, .f32⟩
  | 74 => ⟨S_, .f32⟩
  | 75 => ⟨S_, .f32⟩
  | 76 => ⟨S128, .f32⟩
  | 77 => ⟨S128, .f32⟩
  | 78 => ⟨S128, .f32⟩
  | 79 => ⟨S_, .f32⟩
  | 80 => ⟨S_, .i1⟩
  | 81 => ⟨S_, .f32⟩
  | 82 => ⟨S_, .f32⟩
  | 83 => ⟨S128, .f32⟩
  | 84 => ⟨S128, .f32⟩
  | 85 => ⟨S1x128, .f32⟩
  | 86 => ⟨S1x128, .f32⟩
  | 87 => ⟨S1x128, .f32⟩
  | 88 => ⟨S1x128, .f32⟩
  | 89 => ⟨S50000x128, .f32⟩
  | 90 => ⟨S50000x128, .bf16⟩
  | 91 => ⟨S_, .i32⟩
  | 92 => ⟨S800000, .i32⟩
  | 93 => ⟨S800000, .i1⟩
  | 94 => ⟨S_, .i32⟩
  | 95 => ⟨S800000, .i32⟩
  | 96 => ⟨S800000, .i32⟩
  | 97 => ⟨S800000, .i32⟩
  | 98 => ⟨S800000x1, .i32⟩
  | 99 => ⟨S800000x128, .bf16⟩
  | 100 => ⟨S800000x128, .f32⟩
  | 101 => ⟨S800000x1, .f32⟩
  | 102 => ⟨S800000x128, .f32⟩
  | 103 => ⟨S800000x128, .f32⟩
  | 104 => ⟨S_, .f32⟩
  | 105 => ⟨S50000x128, .f32⟩
  | 106 => ⟨S800000x1, .i32⟩
  | 107 => ⟨S50000x128, .f32⟩
  | 108 => ⟨S50000x128, .bf16⟩
  | 109 => ⟨S_, .i32⟩
  | 110 => ⟨S800000, .i32⟩
  | 111 => ⟨S800000, .i1⟩
  | 112 => ⟨S_, .i32⟩
  | 113 => ⟨S800000, .i32⟩
  | 114 => ⟨S800000, .i32⟩
  | 115 => ⟨S800000, .i32⟩
  | 116 => ⟨S800000x1, .i32⟩
  | 117 => ⟨S800000x128, .bf16⟩
  | 118 => ⟨S800000x128, .f32⟩
  | 119 => ⟨S800000x1, .f32⟩
  | 120 => ⟨S800000x128, .f32⟩
  | 121 => ⟨S800000x128, .f32⟩
  | 122 => ⟨S_, .f32⟩
  | 123 => ⟨S50000x128, .f32⟩
  | 124 => ⟨S800000x1, .i32⟩
  | 125 => ⟨S50000x128, .f32⟩
  | 126 => ⟨S_, .f32⟩
  | 127 => ⟨S50000x128, .f32⟩
  | _ => ⟨S50000x3, .f32⟩

abbrev hbmTy0_3 (i : Nat) : BufTy := match i % 128 with
  | 0 => ⟨S50000x128, .f32⟩
  | 1 => ⟨S50000x128, .f32⟩
  | 2 => ⟨S50000x128, .bf16⟩
  | 3 => ⟨S_, .i32⟩
  | 4 => ⟨S800000, .i32⟩
  | 5 => ⟨S800000, .i1⟩
  | 6 => ⟨S_, .i32⟩
  | 7 => ⟨S800000, .i32⟩
  | 8 => ⟨S800000, .i32⟩
  | 9 => ⟨S800000, .i32⟩
  | 10 => ⟨S800000x1, .i32⟩
  | 11 => ⟨S800000x128, .bf16⟩
  | 12 => ⟨S800000x128, .f32⟩
  | 13 => ⟨S800000x1, .f32⟩
  | 14 => ⟨S800000x128, .f32⟩
  | 15 => ⟨S800000x128, .f32⟩
  | 16 => ⟨S_, .f32⟩
  | 17 => ⟨S50000x128, .f32⟩
  | 18 => ⟨S800000x1, .i32⟩
  | 19 => ⟨S50000x128, .f32⟩
  | 20 => ⟨S_, .f32⟩
  | 21 => ⟨S50000x128, .f32⟩
  | 22 => ⟨S50000x128, .f32⟩
  | 23 => ⟨S50000x128, .f32⟩
  | 24 => ⟨S1x128, .f32⟩
  | 25 => ⟨S50000x128, .f32⟩
  | _ => ⟨S50000x3, .f32⟩

abbrev hbmTy (i : Nat) : BufTy := match i / 128 with
  | 0 => hbmTy0_0 i
  | 1 => hbmTy0_1 i
  | 2 => hbmTy0_2 i
  | 3 => hbmTy0_3 i
  | _ => ⟨S50000x3, .f32⟩

abbrev bufTy : (tb : Table) → Fin (tcTables nBuf tb) → BufTy
  | .hbm, ⟨i, _⟩ => hbmTy i
  | .local _ .vmem, ⟨0, _⟩ => ⟨S5000x3, .f32⟩
  | .local _ .vmem, ⟨1, _⟩ => ⟨S5000x3, .f32⟩
  | .local _ .vmem, ⟨2, _⟩ => ⟨S5000x3, .f32⟩
  | .local _ .vmem, ⟨3, _⟩ => ⟨S5000x3, .f32⟩
  | .local _ .vmem, ⟨4, _⟩ => ⟨S5000x3, .f32⟩
  | .local _ .vmem, ⟨5, _⟩ => ⟨S5000x3, .f32⟩
  | .local _ .vmem, ⟨6, _⟩ => ⟨S5000x3, .f32⟩
  | .local _ .vmem, ⟨7, _⟩ => ⟨S5000x3, .f32⟩
  | .local _ .vmem, ⟨8, _⟩ => ⟨S4x3x128, .f32⟩
  | .local _ .vmem, ⟨9, _⟩ => ⟨S1x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S1x128, .f32⟩
  | .local _ .vmem, ⟨15, _⟩ => ⟨S1x128, .f32⟩
  | .local _ .vmem, ⟨16, _⟩ => ⟨S1x128, .f32⟩
  | .local _ .vmem, ⟨17, _⟩ => ⟨S1x128, .f32⟩
  | .local _ .vmem, ⟨18, _⟩ => ⟨S5000x128, .f32⟩
  | .local _ .vmem, ⟨19, _⟩ => ⟨S5000x128, .f32⟩
  | .local _ .vmem, ⟨20, _⟩ => ⟨S5000x128, .bf16⟩
  | .local _ .vmem, ⟨21, _⟩ => ⟨S5000x128, .bf16⟩
  | .local _ .vmem, ⟨22, _⟩ => ⟨S5000x128, .f32⟩
  | .local _ .vmem, ⟨23, _⟩ => ⟨S5000x128, .f32⟩
  | .local _ .vmem, ⟨24, _⟩ => ⟨S5000x128, .f32⟩
  | .local _ .vmem, ⟨25, _⟩ => ⟨S5000x128, .f32⟩
  | .local _ .vmem, ⟨26, _⟩ => ⟨S5000x128, .f32⟩
  | .local _ .vmem, ⟨27, _⟩ => ⟨S5000x128, .f32⟩
  | .local _ .vmem, ⟨28, _⟩ => ⟨S5000x128, .f32⟩
  | .local _ .vmem, ⟨29, _⟩ => ⟨S5000x128, .f32⟩
  | .local _ .vmem, ⟨30, _⟩ => ⟨S4x128x128, .f32⟩
  | .local _ .vmem, ⟨31, _⟩ => ⟨S1x128, .f32⟩
  | .local _ .vmem, ⟨32, _⟩ => ⟨S5000x128, .f32⟩
  | .local _ .vmem, ⟨33, _⟩ => ⟨S5000x128, .f32⟩
  | .local _ .vmem, ⟨34, _⟩ => ⟨S5000x128, .f32⟩
  | .local _ .vmem, ⟨35, _⟩ => ⟨S5000x128, .f32⟩
  | .local _ .vmem, ⟨36, _⟩ => ⟨S1x128, .f32⟩
  | .local _ .vmem, ⟨37, _⟩ => ⟨S1x128, .f32⟩
  | .local _ .vmem, ⟨38, _⟩ => ⟨S1x128, .f32⟩
  | .local _ .vmem, ⟨39, _⟩ => ⟨S1x128, .f32⟩
  | .local _ .vmem, ⟨40, _⟩ => ⟨S5000x128, .f32⟩
  | .local _ .vmem, ⟨41, _⟩ => ⟨S5000x128, .f32⟩
  | .local _ .vmem, ⟨42, _⟩ => ⟨S5000x128, .bf16⟩
  | .local _ .vmem, ⟨43, _⟩ => ⟨S5000x128, .bf16⟩
  | .local _ .vmem, ⟨44, _⟩ => ⟨S5000x128, .f32⟩
  | .local _ .vmem, ⟨45, _⟩ => ⟨S5000x128, .f32⟩
  | .local _ .vmem, ⟨46, _⟩ => ⟨S5000x128, .f32⟩
  | .local _ .vmem, ⟨47, _⟩ => ⟨S5000x128, .f32⟩
  | .local _ .vmem, ⟨48, _⟩ => ⟨S5000x128, .f32⟩
  | .local _ .vmem, ⟨49, _⟩ => ⟨S5000x128, .f32⟩
  | .local _ .vmem, ⟨50, _⟩ => ⟨S5000x128, .f32⟩
  | .local _ .vmem, ⟨51, _⟩ => ⟨S5000x128, .f32⟩
  | .local _ .vmem, ⟨52, _⟩ => ⟨S4x128x128, .f32⟩
  | .local _ .vmem, ⟨53, _⟩ => ⟨S1x128, .f32⟩
  | .local _ .vmem, ⟨54, _⟩ => ⟨S5000x128, .f32⟩
  | .local _ .vmem, ⟨55, _⟩ => ⟨S5000x128, .f32⟩
  | .local _ .vmem, ⟨56, _⟩ => ⟨S5000x128, .f32⟩
  | .local _ .vmem, ⟨57, _⟩ => ⟨S5000x128, .f32⟩
  | .local _ .vmem, ⟨58, _⟩ => ⟨S1x128, .f32⟩
  | .local _ .vmem, ⟨59, _⟩ => ⟨S1x128, .f32⟩
  | .local _ .vmem, ⟨60, _⟩ => ⟨S1x128, .f32⟩
  | .local _ .vmem, ⟨61, _⟩ => ⟨S1x128, .f32⟩
  | .local _ .vmem, ⟨62, _⟩ => ⟨S5000x128, .f32⟩
  | .local _ .vmem, ⟨63, _⟩ => ⟨S5000x128, .f32⟩
  | .local _ .vmem, ⟨64, _⟩ => ⟨S5000x128, .bf16⟩
  | .local _ .vmem, ⟨65, _⟩ => ⟨S5000x128, .bf16⟩
  | .local _ .vmem, ⟨66, _⟩ => ⟨S5000x128, .f32⟩
  | .local _ .vmem, ⟨67, _⟩ => ⟨S5000x128, .f32⟩
  | .local _ .vmem, ⟨68, _⟩ => ⟨S5000x128, .f32⟩
  | .local _ .vmem, ⟨69, _⟩ => ⟨S5000x128, .f32⟩
  | .local _ .vmem, ⟨70, _⟩ => ⟨S5000x128, .f32⟩
  | .local _ .vmem, ⟨71, _⟩ => ⟨S5000x128, .f32⟩
  | .local _ .vmem, ⟨72, _⟩ => ⟨S5000x128, .f32⟩
  | .local _ .vmem, ⟨73, _⟩ => ⟨S5000x128, .f32⟩
  | .local _ .vmem, ⟨74, _⟩ => ⟨S4x128x128, .f32⟩
  | .local _ .vmem, ⟨75, _⟩ => ⟨S1x128, .f32⟩
  | .local _ .vmem, ⟨76, _⟩ => ⟨S5000x128, .f32⟩
  | .local _ .vmem, ⟨77, _⟩ => ⟨S5000x128, .f32⟩
  | _, _ => ⟨S50000x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | _, _ => false

abbrev semScoped : Fin 0 → Bool
  | ⟨_, h⟩ => absurd h (Nat.not_lt_zero _)

abbrev dmaSemScoped : Fin 78 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | _ => false

abbrev sig : RefSig :=
  ofTc nBuf bufTy 0 78 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_cst : Ref sig .tc := ⟨.hbm, 24, rfl⟩
abbrev main_v8 : Ref sig .tc := ⟨.hbm, 25, rfl⟩
abbrev main_cst_0 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_cst_1 : Ref sig .tc := ⟨.hbm, 30, rfl⟩
abbrev main_v12 : Ref sig .tc := ⟨.hbm, 31, rfl⟩
abbrev main_v13 : Ref sig .tc := ⟨.hbm, 32, rfl⟩
abbrev main_cst_2 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_cst_3 : Ref sig .tc := ⟨.hbm, 37, rfl⟩
abbrev main_call0_v0 : Ref sig .tc := ⟨.hbm, 38, rfl⟩
abbrev main_call0_v1 : Ref sig .tc := ⟨.hbm, 39, rfl⟩
abbrev main_v17 : Ref sig .tc := ⟨.hbm, 40, rfl⟩
abbrev main_c : Ref sig .tc := ⟨.hbm, 41, rfl⟩
abbrev main_v18 : Ref sig .tc := ⟨.hbm, 42, rfl⟩
abbrev main_v19 : Ref sig .tc := ⟨.hbm, 43, rfl⟩
abbrev main_c_4 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_c_5 : Ref sig .tc := ⟨.hbm, 51, rfl⟩
abbrev main_v26 : Ref sig .tc := ⟨.hbm, 52, rfl⟩
abbrev main_v27 : Ref sig .tc := ⟨.hbm, 53, rfl⟩
abbrev main_c_6 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_c_7 : Ref sig .tc := ⟨.hbm, 61, rfl⟩
abbrev main_v34 : Ref sig .tc := ⟨.hbm, 62, rfl⟩
abbrev main_v35 : Ref sig .tc := ⟨.hbm, 63, rfl⟩
abbrev main_c_8 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_cst_9 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_c_10 : Ref sig .tc := ⟨.hbm, 77, rfl⟩
abbrev main_v47 : Ref sig .tc := ⟨.hbm, 78, rfl⟩
abbrev main_v48 : Ref sig .tc := ⟨.hbm, 79, rfl⟩
abbrev main_c_11 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_cst_12 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_cst_13 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_c_14 : Ref sig .tc := ⟨.hbm, 97, rfl⟩
abbrev main_v63 : Ref sig .tc := ⟨.hbm, 98, rfl⟩
abbrev main_v64 : Ref sig .tc := ⟨.hbm, 99, rfl⟩
abbrev main_c_15 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_cst_16 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_cst_17 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_cst_18 : Ref sig .tc := ⟨.hbm, 119, rfl⟩
abbrev main_v81 : Ref sig .tc := ⟨.hbm, 120, rfl⟩
abbrev main_cst_19 : Ref sig .tc := ⟨.hbm, 121, rfl⟩
abbrev main_v82 : Ref sig .tc := ⟨.hbm, 122, rfl⟩
abbrev main_v83 : Ref sig .tc := ⟨.hbm, 123, rfl⟩
abbrev main_c_20 : Ref sig .tc := ⟨.hbm, 124, rfl⟩
abbrev main_call1_cst : Ref sig .tc := ⟨.hbm, 125, rfl⟩
abbrev main_call1_v0 : Ref sig .tc := ⟨.hbm, 126, rfl⟩
abbrev main_call1_v1 : Ref sig .tc := ⟨.hbm, 127, rfl⟩
abbrev main_call1_cst_0 : Ref sig .tc := ⟨.hbm, 128, rfl⟩
abbrev main_call1_v2 : Ref sig .tc := ⟨.hbm, 129, rfl⟩
abbrev main_call1_v3 : Ref sig .tc := ⟨.hbm, 130, rfl⟩
abbrev main_call1_v4 : Ref sig .tc := ⟨.hbm, 131, rfl⟩
abbrev main_call1_v5 : Ref sig .tc := ⟨.hbm, 132, rfl⟩
abbrev main_call1_v6 : Ref sig .tc := ⟨.hbm, 133, rfl⟩
abbrev main_call1_v7 : Ref sig .tc := ⟨.hbm, 134, rfl⟩
abbrev main_call1_cst_1 : Ref sig .tc := ⟨.hbm, 135, rfl⟩
abbrev main_call1_v8 : Ref sig .tc := ⟨.hbm, 136, rfl⟩
abbrev main_call1_cst_2 : Ref sig .tc := ⟨.hbm, 137, rfl⟩
abbrev main_call1_v9 : Ref sig .tc := ⟨.hbm, 138, rfl⟩
abbrev main_call1_v10 : Ref sig .tc := ⟨.hbm, 139, rfl⟩
abbrev main_call1_v11 : Ref sig .tc := ⟨.hbm, 140, rfl⟩
abbrev main_call1_cst_3 : Ref sig .tc := ⟨.hbm, 141, rfl⟩
abbrev main_call1_v12 : Ref sig .tc := ⟨.hbm, 142, rfl⟩
abbrev main_call1_cst_4 : Ref sig .tc := ⟨.hbm, 143, rfl⟩
abbrev main_call1_call0_v0 : Ref sig .tc := ⟨.hbm, 144, rfl⟩
abbrev main_call1_call0_v1 : Ref sig .tc := ⟨.hbm, 145, rfl⟩
abbrev main_v84 : Ref sig .tc := ⟨.hbm, 146, rfl⟩
abbrev main_v85 : Ref sig .tc := ⟨.hbm, 147, rfl⟩
abbrev main_v86 : Ref sig .tc := ⟨.hbm, 148, rfl⟩
abbrev main_v87 : Ref sig .tc := ⟨.hbm, 149, rfl⟩
abbrev main_v88 : Ref sig .tc := ⟨.hbm, 150, rfl⟩
abbrev main_v89_0 : Ref sig .tc := ⟨.hbm, 151, rfl⟩
abbrev main_v89_1 : Ref sig .tc := ⟨.hbm, 152, rfl⟩
abbrev main_c_21 : Ref sig .tc := ⟨.hbm, 153, rfl⟩
abbrev main_v90 : Ref sig .tc := ⟨.hbm, 154, rfl⟩
abbrev main_v91 : Ref sig .tc := ⟨.hbm, 155, rfl⟩
abbrev main_c_22 : Ref sig .tc := ⟨.hbm, 156, rfl⟩
abbrev main_v92 : Ref sig .tc := ⟨.hbm, 157, rfl⟩
abbrev main_v93 : Ref sig .tc := ⟨.hbm, 158, rfl⟩
abbrev main_v94 : Ref sig .tc := ⟨.hbm, 159, rfl⟩
abbrev main_v95 : Ref sig .tc := ⟨.hbm, 160, rfl⟩
abbrev main_v96 : Ref sig .tc := ⟨.hbm, 161, rfl⟩
abbrev main_v97 : Ref sig .tc := ⟨.hbm, 162, rfl⟩
abbrev main_v98 : Ref sig .tc := ⟨.hbm, 163, rfl⟩
abbrev main_v99 : Ref sig .tc := ⟨.hbm, 164, rfl⟩
abbrev main_v100 : Ref sig .tc := ⟨.hbm, 165, rfl⟩
abbrev main_cst_23 : Ref sig .tc := ⟨.hbm, 166, rfl⟩
abbrev main_v101 : Ref sig .tc := ⟨.hbm, 167, rfl⟩
abbrev main_v102 : Ref sig .tc := ⟨.hbm, 168, rfl⟩
abbrev main_v103 : Ref sig .tc := ⟨.hbm, 169, rfl⟩
abbrev main_v104 : Ref sig .tc := ⟨.hbm, 170, rfl⟩
abbrev main_c_24 : Ref sig .tc := ⟨.hbm, 171, rfl⟩
abbrev main_v105 : Ref sig .tc := ⟨.hbm, 172, rfl⟩
abbrev main_v106 : Ref sig .tc := ⟨.hbm, 173, rfl⟩
abbrev main_c_25 : Ref sig .tc := ⟨.hbm, 174, rfl⟩
abbrev main_v107 : Ref sig .tc := ⟨.hbm, 175, rfl⟩
abbrev main_v108 : Ref sig .tc := ⟨.hbm, 176, rfl⟩
abbrev main_v109 : Ref sig .tc := ⟨.hbm, 177, rfl⟩
abbrev main_v110 : Ref sig .tc := ⟨.hbm, 178, rfl⟩
abbrev main_v111 : Ref sig .tc := ⟨.hbm, 179, rfl⟩
abbrev main_v112 : Ref sig .tc := ⟨.hbm, 180, rfl⟩
abbrev main_v113 : Ref sig .tc := ⟨.hbm, 181, rfl⟩
abbrev main_v114 : Ref sig .tc := ⟨.hbm, 182, rfl⟩
abbrev main_v115 : Ref sig .tc := ⟨.hbm, 183, rfl⟩
abbrev main_cst_26 : Ref sig .tc := ⟨.hbm, 184, rfl⟩
abbrev main_v116 : Ref sig .tc := ⟨.hbm, 185, rfl⟩
abbrev main_v117 : Ref sig .tc := ⟨.hbm, 186, rfl⟩
abbrev main_v118 : Ref sig .tc := ⟨.hbm, 187, rfl⟩
abbrev main_cst_27 : Ref sig .tc := ⟨.hbm, 188, rfl⟩
abbrev main_v119 : Ref sig .tc := ⟨.hbm, 189, rfl⟩
abbrev main_v120 : Ref sig .tc := ⟨.hbm, 190, rfl⟩
abbrev main_v121 : Ref sig .tc := ⟨.hbm, 191, rfl⟩
abbrev main_v122 : Ref sig .tc := ⟨.hbm, 192, rfl⟩
abbrev main_c_28 : Ref sig .tc := ⟨.hbm, 193, rfl⟩
abbrev main_v123 : Ref sig .tc := ⟨.hbm, 194, rfl⟩
abbrev main_v124 : Ref sig .tc := ⟨.hbm, 195, rfl⟩
abbrev main_c_29 : Ref sig .tc := ⟨.hbm, 196, rfl⟩
abbrev main_v125 : Ref sig .tc := ⟨.hbm, 197, rfl⟩
abbrev main_v126 : Ref sig .tc := ⟨.hbm, 198, rfl⟩
abbrev main_v127 : Ref sig .tc := ⟨.hbm, 199, rfl⟩
abbrev main_v128 : Ref sig .tc := ⟨.hbm, 200, rfl⟩
abbrev main_v129 : Ref sig .tc := ⟨.hbm, 201, rfl⟩
abbrev main_v130 : Ref sig .tc := ⟨.hbm, 202, rfl⟩
abbrev main_v131 : Ref sig .tc := ⟨.hbm, 203, rfl⟩
abbrev main_v132 : Ref sig .tc := ⟨.hbm, 204, rfl⟩
abbrev main_v133 : Ref sig .tc := ⟨.hbm, 205, rfl⟩
abbrev main_cst_30 : Ref sig .tc := ⟨.hbm, 206, rfl⟩
abbrev main_v134 : Ref sig .tc := ⟨.hbm, 207, rfl⟩
abbrev main_v135 : Ref sig .tc := ⟨.hbm, 208, rfl⟩
abbrev main_v136 : Ref sig .tc := ⟨.hbm, 209, rfl⟩
abbrev main_cst_31 : Ref sig .tc := ⟨.hbm, 210, rfl⟩
abbrev main_v137 : Ref sig .tc := ⟨.hbm, 211, rfl⟩
abbrev main_v138 : Ref sig .tc := ⟨.hbm, 212, rfl⟩
abbrev main_v139 : Ref sig .tc := ⟨.hbm, 213, rfl⟩
abbrev main_v140 : Ref sig .tc := ⟨.hbm, 214, rfl⟩
abbrev main_v141 : Ref sig .tc := ⟨.hbm, 215, rfl⟩
abbrev main_cst_32 : Ref sig .tc := ⟨.hbm, 216, rfl⟩
abbrev main_v142 : Ref sig .tc := ⟨.hbm, 217, rfl⟩
abbrev main_cst_33 : Ref sig .tc := ⟨.hbm, 218, rfl⟩
abbrev main_v143 : Ref sig .tc := ⟨.hbm, 219, rfl⟩
abbrev main_v144 : Ref sig .tc := ⟨.hbm, 220, rfl⟩
abbrev main_c_34 : Ref sig .tc := ⟨.hbm, 221, rfl⟩
abbrev main_call2_cst : Ref sig .tc := ⟨.hbm, 222, rfl⟩
abbrev main_call2_v0 : Ref sig .tc := ⟨.hbm, 223, rfl⟩
abbrev main_call2_v1 : Ref sig .tc := ⟨.hbm, 224, rfl⟩
abbrev main_call2_cst_0 : Ref sig .tc := ⟨.hbm, 225, rfl⟩
abbrev main_call2_v2 : Ref sig .tc := ⟨.hbm, 226, rfl⟩
abbrev main_call2_v3 : Ref sig .tc := ⟨.hbm, 227, rfl⟩
abbrev main_call2_v4 : Ref sig .tc := ⟨.hbm, 228, rfl⟩
abbrev main_call2_v5 : Ref sig .tc := ⟨.hbm, 229, rfl⟩
abbrev main_call2_v6 : Ref sig .tc := ⟨.hbm, 230, rfl⟩
abbrev main_call2_v7 : Ref sig .tc := ⟨.hbm, 231, rfl⟩
abbrev main_call2_cst_1 : Ref sig .tc := ⟨.hbm, 232, rfl⟩
abbrev main_call2_v8 : Ref sig .tc := ⟨.hbm, 233, rfl⟩
abbrev main_call2_cst_2 : Ref sig .tc := ⟨.hbm, 234, rfl⟩
abbrev main_call2_v9 : Ref sig .tc := ⟨.hbm, 235, rfl⟩
abbrev main_call2_v10 : Ref sig .tc := ⟨.hbm, 236, rfl⟩
abbrev main_call2_v11 : Ref sig .tc := ⟨.hbm, 237, rfl⟩
abbrev main_call2_cst_3 : Ref sig .tc := ⟨.hbm, 238, rfl⟩
abbrev main_call2_v12 : Ref sig .tc := ⟨.hbm, 239, rfl⟩
abbrev main_call2_cst_4 : Ref sig .tc := ⟨.hbm, 240, rfl⟩
abbrev main_call2_call0_v0 : Ref sig .tc := ⟨.hbm, 241, rfl⟩
abbrev main_call2_call0_v1 : Ref sig .tc := ⟨.hbm, 242, rfl⟩
abbrev main_v145 : Ref sig .tc := ⟨.hbm, 243, rfl⟩
abbrev main_v146 : Ref sig .tc := ⟨.hbm, 244, rfl⟩
abbrev main_v147 : Ref sig .tc := ⟨.hbm, 245, rfl⟩
abbrev main_v148 : Ref sig .tc := ⟨.hbm, 246, rfl⟩
abbrev main_v149 : Ref sig .tc := ⟨.hbm, 247, rfl⟩
abbrev main_v150_0 : Ref sig .tc := ⟨.hbm, 248, rfl⟩
abbrev main_v150_1 : Ref sig .tc := ⟨.hbm, 249, rfl⟩
abbrev main_c_35 : Ref sig .tc := ⟨.hbm, 250, rfl⟩
abbrev main_v151 : Ref sig .tc := ⟨.hbm, 251, rfl⟩
abbrev main_v152 : Ref sig .tc := ⟨.hbm, 252, rfl⟩
abbrev main_c_36 : Ref sig .tc := ⟨.hbm, 253, rfl⟩
abbrev main_v153 : Ref sig .tc := ⟨.hbm, 254, rfl⟩
abbrev main_v154 : Ref sig .tc := ⟨.hbm, 255, rfl⟩
abbrev main_v155 : Ref sig .tc := ⟨.hbm, 256, rfl⟩
abbrev main_v156 : Ref sig .tc := ⟨.hbm, 257, rfl⟩
abbrev main_v157 : Ref sig .tc := ⟨.hbm, 258, rfl⟩
abbrev main_v158 : Ref sig .tc := ⟨.hbm, 259, rfl⟩
abbrev main_v159 : Ref sig .tc := ⟨.hbm, 260, rfl⟩
abbrev main_v160 : Ref sig .tc := ⟨.hbm, 261, rfl⟩
abbrev main_v161 : Ref sig .tc := ⟨.hbm, 262, rfl⟩
abbrev main_cst_37 : Ref sig .tc := ⟨.hbm, 263, rfl⟩
abbrev main_v162 : Ref sig .tc := ⟨.hbm, 264, rfl⟩
abbrev main_v163 : Ref sig .tc := ⟨.hbm, 265, rfl⟩
abbrev main_v164 : Ref sig .tc := ⟨.hbm, 266, rfl⟩
abbrev main_v165 : Ref sig .tc := ⟨.hbm, 267, rfl⟩
abbrev main_c_38 : Ref sig .tc := ⟨.hbm, 268, rfl⟩
abbrev main_v166 : Ref sig .tc := ⟨.hbm, 269, rfl⟩
abbrev main_v167 : Ref sig .tc := ⟨.hbm, 270, rfl⟩
abbrev main_c_39 : Ref sig .tc := ⟨.hbm, 271, rfl⟩
abbrev main_v168 : Ref sig .tc := ⟨.hbm, 272, rfl⟩
abbrev main_v169 : Ref sig .tc := ⟨.hbm, 273, rfl⟩
abbrev main_v170 : Ref sig .tc := ⟨.hbm, 274, rfl⟩
abbrev main_v171 : Ref sig .tc := ⟨.hbm, 275, rfl⟩
abbrev main_v172 : Ref sig .tc := ⟨.hbm, 276, rfl⟩
abbrev main_v173 : Ref sig .tc := ⟨.hbm, 277, rfl⟩
abbrev main_v174 : Ref sig .tc := ⟨.hbm, 278, rfl⟩
abbrev main_v175 : Ref sig .tc := ⟨.hbm, 279, rfl⟩
abbrev main_v176 : Ref sig .tc := ⟨.hbm, 280, rfl⟩
abbrev main_cst_40 : Ref sig .tc := ⟨.hbm, 281, rfl⟩
abbrev main_v177 : Ref sig .tc := ⟨.hbm, 282, rfl⟩
abbrev main_v178 : Ref sig .tc := ⟨.hbm, 283, rfl⟩
abbrev main_v179 : Ref sig .tc := ⟨.hbm, 284, rfl⟩
abbrev main_cst_41 : Ref sig .tc := ⟨.hbm, 285, rfl⟩
abbrev main_v180 : Ref sig .tc := ⟨.hbm, 286, rfl⟩
abbrev main_v181 : Ref sig .tc := ⟨.hbm, 287, rfl⟩
abbrev main_v182 : Ref sig .tc := ⟨.hbm, 288, rfl⟩
abbrev main_v183 : Ref sig .tc := ⟨.hbm, 289, rfl⟩
abbrev main_c_42 : Ref sig .tc := ⟨.hbm, 290, rfl⟩
abbrev main_v184 : Ref sig .tc := ⟨.hbm, 291, rfl⟩
abbrev main_v185 : Ref sig .tc := ⟨.hbm, 292, rfl⟩
abbrev main_c_43 : Ref sig .tc := ⟨.hbm, 293, rfl⟩
abbrev main_v186 : Ref sig .tc := ⟨.hbm, 294, rfl⟩
abbrev main_v187 : Ref sig .tc := ⟨.hbm, 295, rfl⟩
abbrev main_v188 : Ref sig .tc := ⟨.hbm, 296, rfl⟩
abbrev main_v189 : Ref sig .tc := ⟨.hbm, 297, rfl⟩
abbrev main_v190 : Ref sig .tc := ⟨.hbm, 298, rfl⟩
abbrev main_v191 : Ref sig .tc := ⟨.hbm, 299, rfl⟩
abbrev main_v192 : Ref sig .tc := ⟨.hbm, 300, rfl⟩
abbrev main_v193 : Ref sig .tc := ⟨.hbm, 301, rfl⟩
abbrev main_v194 : Ref sig .tc := ⟨.hbm, 302, rfl⟩
abbrev main_cst_44 : Ref sig .tc := ⟨.hbm, 303, rfl⟩
abbrev main_v195 : Ref sig .tc := ⟨.hbm, 304, rfl⟩
abbrev main_v196 : Ref sig .tc := ⟨.hbm, 305, rfl⟩
abbrev main_v197 : Ref sig .tc := ⟨.hbm, 306, rfl⟩
abbrev main_cst_45 : Ref sig .tc := ⟨.hbm, 307, rfl⟩
abbrev main_v198 : Ref sig .tc := ⟨.hbm, 308, rfl⟩
abbrev main_v199 : Ref sig .tc := ⟨.hbm, 309, rfl⟩
abbrev main_v200 : Ref sig .tc := ⟨.hbm, 310, rfl⟩
abbrev main_v201 : Ref sig .tc := ⟨.hbm, 311, rfl⟩
abbrev main_v202 : Ref sig .tc := ⟨.hbm, 312, rfl⟩
abbrev main_cst_46 : Ref sig .tc := ⟨.hbm, 313, rfl⟩
abbrev main_v203 : Ref sig .tc := ⟨.hbm, 314, rfl⟩
abbrev main_cst_47 : Ref sig .tc := ⟨.hbm, 315, rfl⟩
abbrev main_v204 : Ref sig .tc := ⟨.hbm, 316, rfl⟩
abbrev main_v205 : Ref sig .tc := ⟨.hbm, 317, rfl⟩
abbrev main_c_48 : Ref sig .tc := ⟨.hbm, 318, rfl⟩
abbrev main_call3_cst : Ref sig .tc := ⟨.hbm, 319, rfl⟩
abbrev main_call3_v0 : Ref sig .tc := ⟨.hbm, 320, rfl⟩
abbrev main_call3_v1 : Ref sig .tc := ⟨.hbm, 321, rfl⟩
abbrev main_call3_cst_0 : Ref sig .tc := ⟨.hbm, 322, rfl⟩
abbrev main_call3_v2 : Ref sig .tc := ⟨.hbm, 323, rfl⟩
abbrev main_call3_v3 : Ref sig .tc := ⟨.hbm, 324, rfl⟩
abbrev main_call3_v4 : Ref sig .tc := ⟨.hbm, 325, rfl⟩
abbrev main_call3_v5 : Ref sig .tc := ⟨.hbm, 326, rfl⟩
abbrev main_call3_v6 : Ref sig .tc := ⟨.hbm, 327, rfl⟩
abbrev main_call3_v7 : Ref sig .tc := ⟨.hbm, 328, rfl⟩
abbrev main_call3_cst_1 : Ref sig .tc := ⟨.hbm, 329, rfl⟩
abbrev main_call3_v8 : Ref sig .tc := ⟨.hbm, 330, rfl⟩
abbrev main_call3_cst_2 : Ref sig .tc := ⟨.hbm, 331, rfl⟩
abbrev main_call3_v9 : Ref sig .tc := ⟨.hbm, 332, rfl⟩
abbrev main_call3_v10 : Ref sig .tc := ⟨.hbm, 333, rfl⟩
abbrev main_call3_v11 : Ref sig .tc := ⟨.hbm, 334, rfl⟩
abbrev main_call3_cst_3 : Ref sig .tc := ⟨.hbm, 335, rfl⟩
abbrev main_call3_v12 : Ref sig .tc := ⟨.hbm, 336, rfl⟩
abbrev main_call3_cst_4 : Ref sig .tc := ⟨.hbm, 337, rfl⟩
abbrev main_call3_call0_v0 : Ref sig .tc := ⟨.hbm, 338, rfl⟩
abbrev main_call3_call0_v1 : Ref sig .tc := ⟨.hbm, 339, rfl⟩
abbrev main_v206 : Ref sig .tc := ⟨.hbm, 340, rfl⟩
abbrev main_v207 : Ref sig .tc := ⟨.hbm, 341, rfl⟩
abbrev main_v208 : Ref sig .tc := ⟨.hbm, 342, rfl⟩
abbrev main_v209 : Ref sig .tc := ⟨.hbm, 343, rfl⟩
abbrev main_v210 : Ref sig .tc := ⟨.hbm, 344, rfl⟩
abbrev main_v211_0 : Ref sig .tc := ⟨.hbm, 345, rfl⟩
abbrev main_v211_1 : Ref sig .tc := ⟨.hbm, 346, rfl⟩
abbrev main_c_49 : Ref sig .tc := ⟨.hbm, 347, rfl⟩
abbrev main_v212 : Ref sig .tc := ⟨.hbm, 348, rfl⟩
abbrev main_v213 : Ref sig .tc := ⟨.hbm, 349, rfl⟩
abbrev main_c_50 : Ref sig .tc := ⟨.hbm, 350, rfl⟩
abbrev main_v214 : Ref sig .tc := ⟨.hbm, 351, rfl⟩
abbrev main_v215 : Ref sig .tc := ⟨.hbm, 352, rfl⟩
abbrev main_v216 : Ref sig .tc := ⟨.hbm, 353, rfl⟩
abbrev main_v217 : Ref sig .tc := ⟨.hbm, 354, rfl⟩
abbrev main_v218 : Ref sig .tc := ⟨.hbm, 355, rfl⟩
abbrev main_v219 : Ref sig .tc := ⟨.hbm, 356, rfl⟩
abbrev main_v220 : Ref sig .tc := ⟨.hbm, 357, rfl⟩
abbrev main_v221 : Ref sig .tc := ⟨.hbm, 358, rfl⟩
abbrev main_v222 : Ref sig .tc := ⟨.hbm, 359, rfl⟩
abbrev main_cst_51 : Ref sig .tc := ⟨.hbm, 360, rfl⟩
abbrev main_v223 : Ref sig .tc := ⟨.hbm, 361, rfl⟩
abbrev main_v224 : Ref sig .tc := ⟨.hbm, 362, rfl⟩
abbrev main_v225 : Ref sig .tc := ⟨.hbm, 363, rfl⟩
abbrev main_v226 : Ref sig .tc := ⟨.hbm, 364, rfl⟩
abbrev main_c_52 : Ref sig .tc := ⟨.hbm, 365, rfl⟩
abbrev main_v227 : Ref sig .tc := ⟨.hbm, 366, rfl⟩
abbrev main_v228 : Ref sig .tc := ⟨.hbm, 367, rfl⟩
abbrev main_c_53 : Ref sig .tc := ⟨.hbm, 368, rfl⟩
abbrev main_v229 : Ref sig .tc := ⟨.hbm, 369, rfl⟩
abbrev main_v230 : Ref sig .tc := ⟨.hbm, 370, rfl⟩
abbrev main_v231 : Ref sig .tc := ⟨.hbm, 371, rfl⟩
abbrev main_v232 : Ref sig .tc := ⟨.hbm, 372, rfl⟩
abbrev main_v233 : Ref sig .tc := ⟨.hbm, 373, rfl⟩
abbrev main_v234 : Ref sig .tc := ⟨.hbm, 374, rfl⟩
abbrev main_v235 : Ref sig .tc := ⟨.hbm, 375, rfl⟩
abbrev main_v236 : Ref sig .tc := ⟨.hbm, 376, rfl⟩
abbrev main_v237 : Ref sig .tc := ⟨.hbm, 377, rfl⟩
abbrev main_cst_54 : Ref sig .tc := ⟨.hbm, 378, rfl⟩
abbrev main_v238 : Ref sig .tc := ⟨.hbm, 379, rfl⟩
abbrev main_v239 : Ref sig .tc := ⟨.hbm, 380, rfl⟩
abbrev main_v240 : Ref sig .tc := ⟨.hbm, 381, rfl⟩
abbrev main_cst_55 : Ref sig .tc := ⟨.hbm, 382, rfl⟩
abbrev main_v241 : Ref sig .tc := ⟨.hbm, 383, rfl⟩
abbrev main_v242 : Ref sig .tc := ⟨.hbm, 384, rfl⟩
abbrev main_v243 : Ref sig .tc := ⟨.hbm, 385, rfl⟩
abbrev main_v244 : Ref sig .tc := ⟨.hbm, 386, rfl⟩
abbrev main_c_56 : Ref sig .tc := ⟨.hbm, 387, rfl⟩
abbrev main_v245 : Ref sig .tc := ⟨.hbm, 388, rfl⟩
abbrev main_v246 : Ref sig .tc := ⟨.hbm, 389, rfl⟩
abbrev main_c_57 : Ref sig .tc := ⟨.hbm, 390, rfl⟩
abbrev main_v247 : Ref sig .tc := ⟨.hbm, 391, rfl⟩
abbrev main_v248 : Ref sig .tc := ⟨.hbm, 392, rfl⟩
abbrev main_v249 : Ref sig .tc := ⟨.hbm, 393, rfl⟩
abbrev main_v250 : Ref sig .tc := ⟨.hbm, 394, rfl⟩
abbrev main_v251 : Ref sig .tc := ⟨.hbm, 395, rfl⟩
abbrev main_v252 : Ref sig .tc := ⟨.hbm, 396, rfl⟩
abbrev main_v253 : Ref sig .tc := ⟨.hbm, 397, rfl⟩
abbrev main_v254 : Ref sig .tc := ⟨.hbm, 398, rfl⟩
abbrev main_v255 : Ref sig .tc := ⟨.hbm, 399, rfl⟩
abbrev main_cst_58 : Ref sig .tc := ⟨.hbm, 400, rfl⟩
abbrev main_v256 : Ref sig .tc := ⟨.hbm, 401, rfl⟩
abbrev main_v257 : Ref sig .tc := ⟨.hbm, 402, rfl⟩
abbrev main_v258 : Ref sig .tc := ⟨.hbm, 403, rfl⟩
abbrev main_cst_59 : Ref sig .tc := ⟨.hbm, 404, rfl⟩
abbrev main_v259 : Ref sig .tc := ⟨.hbm, 405, rfl⟩
abbrev main_v260 : Ref sig .tc := ⟨.hbm, 406, rfl⟩
abbrev main_v261 : Ref sig .tc := ⟨.hbm, 407, rfl⟩
abbrev main_v262 : Ref sig .tc := ⟨.hbm, 408, rfl⟩
abbrev main_v263 : Ref sig .tc := ⟨.hbm, 409, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg5_1 : Ref sig .tc := ⟨.vmem, 19, rfl⟩
abbrev cc1_stg6_0 : Ref sig .tc := ⟨.vmem, 20, rfl⟩
abbrev cc1_stg6_1 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg1_1 : Ref sig .tc := ⟨.vmem, 25, rfl⟩
abbrev cc2_stg2_0 : Ref sig .tc := ⟨.vmem, 26, rfl⟩
abbrev cc2_stg2_1 : Ref sig .tc := ⟨.vmem, 27, rfl⟩
abbrev cc2_stg3_0 : Ref sig .tc := ⟨.vmem, 28, rfl⟩
abbrev cc2_stg3_1 : Ref sig .tc := ⟨.vmem, 29, rfl⟩
abbrev cc2_stg4_0 : Ref sig .tc := ⟨.vmem, 30, rfl⟩
abbrev cc2_stg5_0 : Ref sig .tc := ⟨.vmem, 31, rfl⟩
abbrev cc2_stg6_0 : Ref sig .tc := ⟨.vmem, 32, rfl⟩
abbrev cc2_stg6_1 : Ref sig .tc := ⟨.vmem, 33, rfl⟩
abbrev cc3_stg0_0 : Ref sig .tc := ⟨.vmem, 34, rfl⟩
abbrev cc3_stg0_1 : Ref sig .tc := ⟨.vmem, 35, rfl⟩
abbrev cc3_stg1_0 : Ref sig .tc := ⟨.vmem, 36, rfl⟩
abbrev cc3_stg2_0 : Ref sig .tc := ⟨.vmem, 37, rfl⟩
abbrev cc3_stg3_0 : Ref sig .tc := ⟨.vmem, 38, rfl⟩
abbrev cc3_stg4_0 : Ref sig .tc := ⟨.vmem, 39, rfl⟩
abbrev cc3_stg5_0 : Ref sig .tc := ⟨.vmem, 40, rfl⟩
abbrev cc3_stg5_1 : Ref sig .tc := ⟨.vmem, 41, rfl⟩
abbrev cc3_stg6_0 : Ref sig .tc := ⟨.vmem, 42, rfl⟩
abbrev cc3_stg6_1 : Ref sig .tc := ⟨.vmem, 43, rfl⟩
abbrev cc4_stg0_0 : Ref sig .tc := ⟨.vmem, 44, rfl⟩
abbrev cc4_stg0_1 : Ref sig .tc := ⟨.vmem, 45, rfl⟩
abbrev cc4_stg1_0 : Ref sig .tc := ⟨.vmem, 46, rfl⟩
abbrev cc4_stg1_1 : Ref sig .tc := ⟨.vmem, 47, rfl⟩
abbrev cc4_stg2_0 : Ref sig .tc := ⟨.vmem, 48, rfl⟩
abbrev cc4_stg2_1 : Ref sig .tc := ⟨.vmem, 49, rfl⟩
abbrev cc4_stg3_0 : Ref sig .tc := ⟨.vmem, 50, rfl⟩
abbrev cc4_stg3_1 : Ref sig .tc := ⟨.vmem, 51, rfl⟩
abbrev cc4_stg4_0 : Ref sig .tc := ⟨.vmem, 52, rfl⟩
abbrev cc4_stg5_0 : Ref sig .tc := ⟨.vmem, 53, rfl⟩
abbrev cc4_stg6_0 : Ref sig .tc := ⟨.vmem, 54, rfl⟩
abbrev cc4_stg6_1 : Ref sig .tc := ⟨.vmem, 55, rfl⟩
abbrev cc5_stg0_0 : Ref sig .tc := ⟨.vmem, 56, rfl⟩
abbrev cc5_stg0_1 : Ref sig .tc := ⟨.vmem, 57, rfl⟩
abbrev cc5_stg1_0 : Ref sig .tc := ⟨.vmem, 58, rfl⟩
abbrev cc5_stg2_0 : Ref sig .tc := ⟨.vmem, 59, rfl⟩
abbrev cc5_stg3_0 : Ref sig .tc := ⟨.vmem, 60, rfl⟩
abbrev cc5_stg4_0 : Ref sig .tc := ⟨.vmem, 61, rfl⟩
abbrev cc5_stg5_0 : Ref sig .tc := ⟨.vmem, 62, rfl⟩
abbrev cc5_stg5_1 : Ref sig .tc := ⟨.vmem, 63, rfl⟩
abbrev cc5_stg6_0 : Ref sig .tc := ⟨.vmem, 64, rfl⟩
abbrev cc5_stg6_1 : Ref sig .tc := ⟨.vmem, 65, rfl⟩
abbrev cc6_stg0_0 : Ref sig .tc := ⟨.vmem, 66, rfl⟩
abbrev cc6_stg0_1 : Ref sig .tc := ⟨.vmem, 67, rfl⟩
abbrev cc6_stg1_0 : Ref sig .tc := ⟨.vmem, 68, rfl⟩
abbrev cc6_stg1_1 : Ref sig .tc := ⟨.vmem, 69, rfl⟩
abbrev cc6_stg2_0 : Ref sig .tc := ⟨.vmem, 70, rfl⟩
abbrev cc6_stg2_1 : Ref sig .tc := ⟨.vmem, 71, rfl⟩
abbrev cc6_stg3_0 : Ref sig .tc := ⟨.vmem, 72, rfl⟩
abbrev cc6_stg3_1 : Ref sig .tc := ⟨.vmem, 73, rfl⟩
abbrev cc6_stg4_0 : Ref sig .tc := ⟨.vmem, 74, rfl⟩
abbrev cc6_stg5_0 : Ref sig .tc := ⟨.vmem, 75, rfl⟩
abbrev cc6_stg6_0 : Ref sig .tc := ⟨.vmem, 76, rfl⟩
abbrev cc6_stg6_1 : Ref sig .tc := ⟨.vmem, 77, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc1_sem0_0 : DmaSem sig := 12
abbrev cc1_sem0_1 : DmaSem sig := 13
abbrev cc1_sem1_0 : DmaSem sig := 14
abbrev cc1_sem2_0 : DmaSem sig := 15
abbrev cc1_sem3_0 : DmaSem sig := 16
abbrev cc1_sem4_0 : DmaSem sig := 17
abbrev cc1_sem5_0 : DmaSem sig := 18
abbrev cc1_sem5_1 : DmaSem sig := 19
abbrev cc1_sem6_0 : DmaSem sig := 20
abbrev cc1_sem6_1 : DmaSem sig := 21
abbrev cc2_sem0_0 : DmaSem sig := 22
abbrev cc2_sem0_1 : DmaSem sig := 23
abbrev cc2_sem1_0 : DmaSem sig := 24
abbrev cc2_sem1_1 : DmaSem sig := 25
abbrev cc2_sem2_0 : DmaSem sig := 26
abbrev cc2_sem2_1 : DmaSem sig := 27
abbrev cc2_sem3_0 : DmaSem sig := 28
abbrev cc2_sem3_1 : DmaSem sig := 29
abbrev cc2_sem4_0 : DmaSem sig := 30
abbrev cc2_sem5_0 : DmaSem sig := 31
abbrev cc2_sem6_0 : DmaSem sig := 32
abbrev cc2_sem6_1 : DmaSem sig := 33
abbrev cc3_sem0_0 : DmaSem sig := 34
abbrev cc3_sem0_1 : DmaSem sig := 35
abbrev cc3_sem1_0 : DmaSem sig := 36
abbrev cc3_sem2_0 : DmaSem sig := 37
abbrev cc3_sem3_0 : DmaSem sig := 38
abbrev cc3_sem4_0 : DmaSem sig := 39
abbrev cc3_sem5_0 : DmaSem sig := 40
abbrev cc3_sem5_1 : DmaSem sig := 41
abbrev cc3_sem6_0 : DmaSem sig := 42
abbrev cc3_sem6_1 : DmaSem sig := 43
abbrev cc4_sem0_0 : DmaSem sig := 44
abbrev cc4_sem0_1 : DmaSem sig := 45
abbrev cc4_sem1_0 : DmaSem sig := 46
abbrev cc4_sem1_1 : DmaSem sig := 47
abbrev cc4_sem2_0 : DmaSem sig := 48
abbrev cc4_sem2_1 : DmaSem sig := 49
abbrev cc4_sem3_0 : DmaSem sig := 50
abbrev cc4_sem3_1 : DmaSem sig := 51
abbrev cc4_sem4_0 : DmaSem sig := 52
abbrev cc4_sem5_0 : DmaSem sig := 53
abbrev cc4_sem6_0 : DmaSem sig := 54
abbrev cc4_sem6_1 : DmaSem sig := 55
abbrev cc5_sem0_0 : DmaSem sig := 56
abbrev cc5_sem0_1 : DmaSem sig := 57
abbrev cc5_sem1_0 : DmaSem sig := 58
abbrev cc5_sem2_0 : DmaSem sig := 59
abbrev cc5_sem3_0 : DmaSem sig := 60
abbrev cc5_sem4_0 : DmaSem sig := 61
abbrev cc5_sem5_0 : DmaSem sig := 62
abbrev cc5_sem5_1 : DmaSem sig := 63
abbrev cc5_sem6_0 : DmaSem sig := 64
abbrev cc5_sem6_1 : DmaSem sig := 65
abbrev cc6_sem0_0 : DmaSem sig := 66
abbrev cc6_sem0_1 : DmaSem sig := 67
abbrev cc6_sem1_0 : DmaSem sig := 68
abbrev cc6_sem1_1 : DmaSem sig := 69
abbrev cc6_sem2_0 : DmaSem sig := 70
abbrev cc6_sem2_1 : DmaSem sig := 71
abbrev cc6_sem3_0 : DmaSem sig := 72
abbrev cc6_sem3_1 : DmaSem sig := 73
abbrev cc6_sem4_0 : DmaSem sig := 74
abbrev cc6_sem5_0 : DmaSem sig := 75
abbrev cc6_sem6_0 : DmaSem sig := 76
abbrev cc6_sem6_1 : DmaSem sig := 77

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x3 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x3 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S4x3x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S5000x128 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S5000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 1 → Memref sig .tc .vmem S4x128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S5000x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S5000x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev stage3_6 : Fin 2 → Memref sig .tc .vmem S5000x128 .bf16 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_4 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S5000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 2 → Memref sig .tc .vmem S5000x128 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev stage4_4 : Fin 1 → Memref sig .tc .vmem S4x128x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S1x128 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 2 → Memref sig .tc .vmem S5000x128 .f32 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_6 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S5000x128 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev stage5_6 : Fin 2 → Memref sig .tc .vmem S5000x128 .bf16 := fun | 0 => Memref.whole cc5_stg6_0 | 1 => Memref.whole cc5_stg6_1 | ⟨_ + 2, h⟩ => absurd h (Nat.not_lt.2 (Nat.le_add_left _ _))
abbrev sem5_6 : Fin 2 → DmaSem sig := fun | 0 => cc5_sem6_0 | 1 => cc5_sem6_1 | ⟨_ + 2, h⟩ => absurd h (Nat.not_lt.2 (Nat.le_add_left _ _))
abbrev reads5_6 : Fin grid5.rank → Bool := ![true]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_4 (i : grid6.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc6_transform_5 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_6 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S5000x128 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 2 → Memref sig .tc .vmem S5000x128 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev stage6_3 : Fin 2 → Memref sig .tc .vmem S5000x128 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

abbrev stage6_4 : Fin 1 → Memref sig .tc .vmem S4x128x128 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 1 → Memref sig .tc .vmem S1x128 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false]

abbrev stage6_6 : Fin 2 → Memref sig .tc .vmem S5000x128 .f32 := fun | 0 => Memref.whole cc6_stg6_0 | 1 => Memref.whole cc6_stg6_1 | ⟨_ + 2, h⟩ => absurd h (Nat.not_lt.2 (Nat.le_add_left _ _))
abbrev sem6_6 : Fin 2 → DmaSem sig := fun | 0 => cc6_sem6_0 | 1 => cc6_sem6_1 | ⟨_ + 2, h⟩ => absurd h (Nat.not_lt.2 (Nat.le_add_left _ _))
abbrev reads6_6 : Fin grid6.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S800000x1_S800000x3_0_1 : S800000x1.BroadcastsInDim S800000x3 (![0, 1] : Fin 2 → Fin S800000x3.rank)
  bcast_S_S50000x3 : S_.BroadcastsInDim S50000x3 (![] : Fin 0 → Fin S50000x3.rank)
  shapeCasts_S128_S1x128 : S128.ShapeCasts S1x128
  inb_S5000x3_S5000x3_0_0 : ∀ a, (![0, 0] : Fin 2 → Nat) a + S5000x3.size a ≤ S5000x3.size a
  h_S5000x3 : 0 < S5000x3.numel
  bitsLt_bf16_f32 : FTy.bits .bf16 < FTy.bits .f32
  inb_S4x3x128_S1x3x128_0_0_0 : ∀ a, (![0, 0, 0] : Fin 3 → Nat) a + S1x3x128.size a ≤ S4x3x128.size a
  h_S1x3x128 : 0 < S1x3x128.numel
  shapeCasts_S1x3x128_S3x128 : S1x3x128.ShapeCasts S3x128
  shapeCasts_S5000x3_S5000x3 : S5000x3.ShapeCasts S5000x3
  inb_S4x3x128_S1x3x128_1_0_0 : ∀ a, (![1, 0, 0] : Fin 3 → Nat) a + S1x3x128.size a ≤ S4x3x128.size a
  inb_S4x3x128_S1x3x128_2_0_0 : ∀ a, (![2, 0, 0] : Fin 3 → Nat) a + S1x3x128.size a ≤ S4x3x128.size a
  inb_S4x3x128_S1x3x128_3_0_0 : ∀ a, (![3, 0, 0] : Fin 3 → Nat) a + S1x3x128.size a ≤ S4x3x128.size a
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S5000x128_S5000x128_0_0 : ∀ a, (![0, 0] : Fin 2 → Nat) a + S5000x128.size a ≤ S5000x128.size a
  h_S5000x128 : 0 < S5000x128.numel
  reducesTo_S50000x128_S128_d0 : S50000x128.ReducesTo [0] S128
  h_S_ : 0 < S_.numel
  bcast_S_S128 : S_.BroadcastsInDim S128 (![] : Fin 0 → Fin S128.rank)
  bcast_S128_S1x128_1 : S128.BroadcastsInDim S1x128 (![1] : Fin 1 → Fin S1x128.rank)
  bcast_S_S1x128 : S_.BroadcastsInDim S1x128 (![] : Fin 0 → Fin S1x128.rank)
  bcast_S1x128_S50000x128_0_1 : S1x128.BroadcastsInDim S50000x128 (![0, 1] : Fin 2 → Fin S50000x128.rank)
  shapeCasts_S5000x128_S5000x128 : S5000x128.ShapeCasts S5000x128
  packedbf16_S5000x128_S5000x128_0_0 : (Rect.unit (s := S5000x128) ![0, 0] S5000x128.size inb_S5000x128_S5000x128_0_0).PackedRows (EltTy.packing .bf16)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  inb_S4x128x128_S1x128x128_0_0_0 : ∀ a, (![0, 0, 0] : Fin 3 → Nat) a + S1x128x128.size a ≤ S4x128x128.size a
  h_S1x128x128 : 0 < S1x128x128.numel
  shapeCasts_S1x128x128_S128x128 : S1x128x128.ShapeCasts S128x128
  inb_S4x128x128_S1x128x128_1_0_0 : ∀ a, (![1, 0, 0] : Fin 3 → Nat) a + S1x128x128.size a ≤ S4x128x128.size a
  inb_S4x128x128_S1x128x128_2_0_0 : ∀ a, (![2, 0, 0] : Fin 3 → Nat) a + S1x128x128.size a ≤ S4x128x128.size a
  inb_S4x128x128_S1x128x128_3_0_0 : ∀ a, (![3, 0, 0] : Fin 3 → Nat) a + S1x128x128.size a ≤ S4x128x128.size a
  reduces_S5000x128_S5000 : S5000x128.Reduces [1] S5000
  shapeCasts_S5000_S5000x1 : S5000.ShapeCasts S5000x1
  broadcasts_S5000x1_S5000x128 : S5000x1.Broadcasts S5000x128
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  gather_S50000x3_S800000x1_S800000x3_1_0_n_n_0_1_13_wf : GatherDims.WF S50000x3 S800000x1 S800000x3 [1] [0] [] [0] [] 1 ![1, 3]
  scatter_S50000x3_S800000x1_S800000x3_1_0_0_1_wf : ScatterDims.WF S50000x3 S800000x1 S800000x3 [1] [0] [0] 1
  dot_S5000x3_S3x128_S5000x128_1_0_0_1_n_n_wf : DotDims.WF S5000x3 S3x128 S5000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x3.size a ≤ S50000x3.size a
  hwx0_0 : ∀ i : grid0.Coords, EltTy.bits .f32 = 32 ∨ (Rect.block (s := S50000x3) S5000x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x3.size a ≤ S50000x3.size a
  hwx0_1 : ∀ i : grid0.Coords, EltTy.bits .f32 = 32 ∨ (Rect.block (s := S50000x3) S5000x3.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x3.size a ≤ S50000x3.size a
  hwx0_2 : ∀ i : grid0.Coords, EltTy.bits .f32 = 32 ∨ (Rect.block (s := S50000x3) S5000x3.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x3.size a ≤ S50000x3.size a
  hwx0_3 : ∀ i : grid0.Coords, EltTy.bits .f32 = 32 ∨ (Rect.block (s := S50000x3) S5000x3.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S4x3x128.size a ≤ S4x3x128.size a
  hwx0_4 : ∀ i : grid0.Coords, EltTy.bits .f32 = 32 ∨ (Rect.block (s := S4x3x128) S4x3x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x128.size a ≤ S50000x128.size a
  hwx0_6 : ∀ i : grid0.Coords, EltTy.bits .f32 = 32 ∨ (Rect.block (s := S50000x128) S5000x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S50000x128.size a
  hwx1_5 : ∀ i : grid1.Coords, EltTy.bits .f32 = 32 ∨ (Rect.block (s := S50000x128) S5000x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x128.size a ≤ S50000x128.size a
  hwx1_6 : ∀ i : grid1.Coords, EltTy.bits .bf16 = 32 ∨ (Rect.block (s := S50000x128) S5000x128.size (cc1_transform_6 i) (hinb1_6 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S50000x128.size a
  hwx2_1 : ∀ i : grid2.Coords, EltTy.bits .f32 = 32 ∨ (Rect.block (s := S50000x128) S5000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S50000x128.size a
  hwx2_2 : ∀ i : grid2.Coords, EltTy.bits .f32 = 32 ∨ (Rect.block (s := S50000x128) S5000x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x128.size a ≤ S50000x128.size a
  hwx2_3 : ∀ i : grid2.Coords, EltTy.bits .f32 = 32 ∨ (Rect.block (s := S50000x128) S5000x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S4x128x128.size a ≤ S4x128x128.size a
  hwx2_4 : ∀ i : grid2.Coords, EltTy.bits .f32 = 32 ∨ (Rect.block (s := S4x128x128) S4x128x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S5000x128.size a ≤ S50000x128.size a
  hwx2_6 : ∀ i : grid2.Coords, EltTy.bits .f32 = 32 ∨ (Rect.block (s := S50000x128) S5000x128.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S5000x128.size a ≤ S50000x128.size a
  hwx3_5 : ∀ i : grid3.Coords, EltTy.bits .f32 = 32 ∨ (Rect.block (s := S50000x128) S5000x128.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S5000x128.size a ≤ S50000x128.size a
  hwx3_6 : ∀ i : grid3.Coords, EltTy.bits .bf16 = 32 ∨ (Rect.block (s := S50000x128) S5000x128.size (cc3_transform_6 i) (hinb3_6 i)).WholeWords (EltTy.packing .bf16)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S50000x128.size a
  hwx4_0 : ∀ i : grid4.Coords, EltTy.bits .f32 = 32 ∨ (Rect.block (s := S50000x128) S5000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x128.size a ≤ S50000x128.size a
  hwx4_1 : ∀ i : grid4.Coords, EltTy.bits .f32 = 32 ∨ (Rect.block (s := S50000x128) S5000x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x128.size a ≤ S50000x128.size a
  hwx4_2 : ∀ i : grid4.Coords, EltTy.bits .f32 = 32 ∨ (Rect.block (s := S50000x128) S5000x128.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S5000x128.size a ≤ S50000x128.size a
  hwx4_3 : ∀ i : grid4.Coords, EltTy.bits .f32 = 32 ∨ (Rect.block (s := S50000x128) S5000x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S4x128x128.size a ≤ S4x128x128.size a
  hwx4_4 : ∀ i : grid4.Coords, EltTy.bits .f32 = 32 ∨ (Rect.block (s := S4x128x128) S4x128x128.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S1x128.size a ≤ S1x128.size a
  hwx4_5 : ∀ i : grid4.Coords, EltTy.bits .f32 = 32 ∨ (Rect.block (s := S1x128) S1x128.size (cc4_transform_5 i) (hinb4_5 i)).WholeWords (EltTy.packing .f32)
  hstage4_6 : ∀ j, (stage4_6 j).IsWhole
  nbuf4_6 : grid4.bufCount reads4_6 false = 2
  hreads4_6 : ∀ i i' : grid4.Coords, (∀ a, reads4_6 a = true → i a = i' a) → cc4_transform_6 i = cc4_transform_6 i'
  hinb4_6 : ∀ (i : grid4.Coords) a, (cc4_transform_6 i a + 1) * S5000x128.size a ≤ S50000x128.size a
  hwx4_6 : ∀ i : grid4.Coords, EltTy.bits .f32 = 32 ∨ (Rect.block (s := S50000x128) S5000x128.size (cc4_transform_6 i) (hinb4_6 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S50000x128.size a
  hwx5_0 : ∀ i : grid5.Coords, EltTy.bits .f32 = 32 ∨ (Rect.block (s := S50000x128) S5000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x128.size a ≤ S1x128.size a
  hwx5_1 : ∀ i : grid5.Coords, EltTy.bits .f32 = 32 ∨ (Rect.block (s := S1x128) S1x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x128.size a ≤ S1x128.size a
  hwx5_2 : ∀ i : grid5.Coords, EltTy.bits .f32 = 32 ∨ (Rect.block (s := S1x128) S1x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x128.size a ≤ S1x128.size a
  hwx5_3 : ∀ i : grid5.Coords, EltTy.bits .f32 = 32 ∨ (Rect.block (s := S1x128) S1x128.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x128.size a ≤ S1x128.size a
  hwx5_4 : ∀ i : grid5.Coords, EltTy.bits .f32 = 32 ∨ (Rect.block (s := S1x128) S1x128.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S5000x128.size a ≤ S50000x128.size a
  hwx5_5 : ∀ i : grid5.Coords, EltTy.bits .f32 = 32 ∨ (Rect.block (s := S50000x128) S5000x128.size (cc5_transform_5 i) (hinb5_5 i)).WholeWords (EltTy.packing .f32)
  hstage5_6 : ∀ j, (stage5_6 j).IsWhole
  nbuf5_6 : grid5.bufCount reads5_6 false = 2
  hreads5_6 : ∀ i i' : grid5.Coords, (∀ a, reads5_6 a = true → i a = i' a) → cc5_transform_6 i = cc5_transform_6 i'
  hinb5_6 : ∀ (i : grid5.Coords) a, (cc5_transform_6 i a + 1) * S5000x128.size a ≤ S50000x128.size a
  hwx5_6 : ∀ i : grid5.Coords, EltTy.bits .bf16 = 32 ∨ (Rect.block (s := S50000x128) S5000x128.size (cc5_transform_6 i) (hinb5_6 i)).WholeWords (EltTy.packing .bf16)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x128.size a ≤ S50000x128.size a
  hwx6_0 : ∀ i : grid6.Coords, EltTy.bits .f32 = 32 ∨ (Rect.block (s := S50000x128) S5000x128.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S5000x128.size a ≤ S50000x128.size a
  hwx6_1 : ∀ i : grid6.Coords, EltTy.bits .f32 = 32 ∨ (Rect.block (s := S50000x128) S5000x128.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S5000x128.size a ≤ S50000x128.size a
  hwx6_2 : ∀ i : grid6.Coords, EltTy.bits .f32 = 32 ∨ (Rect.block (s := S50000x128) S5000x128.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S5000x128.size a ≤ S50000x128.size a
  hwx6_3 : ∀ i : grid6.Coords, EltTy.bits .f32 = 32 ∨ (Rect.block (s := S50000x128) S5000x128.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S4x128x128.size a ≤ S4x128x128.size a
  hwx6_4 : ∀ i : grid6.Coords, EltTy.bits .f32 = 32 ∨ (Rect.block (s := S4x128x128) S4x128x128.size (cc6_transform_4 i) (hinb6_4 i)).WholeWords (EltTy.packing .f32)
  hstage6_5 : ∀ j, (stage6_5 j).IsWhole
  nbuf6_5 : grid6.bufCount reads6_5 true = 1
  hreads6_5 : ∀ i i' : grid6.Coords, (∀ a, reads6_5 a = true → i a = i' a) → cc6_transform_5 i = cc6_transform_5 i'
  hinb6_5 : ∀ (i : grid6.Coords) a, (cc6_transform_5 i a + 1) * S1x128.size a ≤ S1x128.size a
  hwx6_5 : ∀ i : grid6.Coords, EltTy.bits .f32 = 32 ∨ (Rect.block (s := S1x128) S1x128.size (cc6_transform_5 i) (hinb6_5 i)).WholeWords (EltTy.packing .f32)
  hstage6_6 : ∀ j, (stage6_6 j).IsWhole
  nbuf6_6 : grid6.bufCount reads6_6 false = 2
  hreads6_6 : ∀ i i' : grid6.Coords, (∀ a, reads6_6 a = true → i a = i' a) → cc6_transform_6 i = cc6_transform_6 i'
  hinb6_6 : ∀ (i : grid6.Coords) a, (cc6_transform_6 i a + 1) * S5000x128.size a ≤ S50000x128.size a
  hwx6_6 : ∀ i : grid6.Coords, EltTy.bits .f32 = 32 ∨ (Rect.block (s := S50000x128) S5000x128.size (cc6_transform_6 i) (hinb6_6 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def gather_S50000x3_S800000x1_S800000x3_1_0_n_n_0_1_13 : GatherDims S50000x3 S800000x1 S800000x3 where
  offsetDims := [1]
  collapsedSliceDims := [0]
  operandBatchingDims := []
  startIndicesBatchingDims := []
  startIndexMap := [0]
  indexVectorDim := 1
  sliceSizes := ![1, 3]
  wf := gather_S50000x3_S800000x1_S800000x3_1_0_n_n_0_1_13_wf
def scatter_S50000x3_S800000x1_S800000x3_1_0_0_1 : ScatterDims S50000x3 S800000x1 S800000x3 where
  updateWindowDims := [1]
  insertedWindowDims := [0]
  scatterDimsToOperandDims := [0]
  indexVectorDim := 1
  wf := scatter_S50000x3_S800000x1_S800000x3_1_0_0_1_wf
def dot_S5000x3_S3x128_S5000x128_1_0_0_1_n_n : DotDims S5000x3 S3x128 S5000x128 where
  lhsContracting := [1]
  rhsContracting := [0]
  lhsNonContracting := [0]
  rhsNonContracting := [1]
  lhsBatch := []
  rhsBatch := []
  wf := dot_S5000x3_S3x128_S5000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_arg0) S5000x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v46) S5000x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v62) S5000x3.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v78) S5000x3.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg2) S4x3x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v79) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v80) S5000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v80) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v85) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v86) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v87) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v88) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v89_0) S5000x128.size cc1_transform_5 reads1_5 true false 2 stage1_5 sem1_5
    hrank1 hreads1_5 hinb1_5 nbuf1_5 (Memref.isWhole_whole _) hwx1_5 hstage1_5

abbrev win1_6 : Pipeline.Window sig grid1 :=
  Pipeline.Window.ofSpec (Memref.whole main_v89_1) S5000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v89_0) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v103) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v121) S5000x128.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v139) S5000x128.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_arg4) S4x128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v140) S1x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v141) S5000x128.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v141) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v146) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v147) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v148) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v149) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v150_0) S5000x128.size cc3_transform_5 reads3_5 true false 2 stage3_5 sem3_5
    hrank3 hreads3_5 hinb3_5 nbuf3_5 (Memref.isWhole_whole _) hwx3_5 hstage3_5

abbrev win3_6 : Pipeline.Window sig grid3 :=
  Pipeline.Window.ofSpec (Memref.whole main_v150_1) S5000x128.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

abbrev win4_0 : Pipeline.Window sig grid4 :=
  Pipeline.Window.ofSpec (Memref.whole main_v150_0) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v164) S5000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v182) S5000x128.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v200) S5000x128.size cc4_transform_3 reads4_3 false false 2 stage4_3 sem4_3
    hrank4 hreads4_3 hinb4_3 nbuf4_3 (Memref.isWhole_whole _) hwx4_3 hstage4_3

abbrev win4_4 : Pipeline.Window sig grid4 :=
  Pipeline.Window.ofSpec (Memref.whole main_arg6) S4x128x128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v201) S1x128.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v202) S5000x128.size cc4_transform_6 reads4_6 true false 2 stage4_6 sem4_6
    hrank4 hreads4_6 hinb4_6 nbuf4_6 (Memref.isWhole_whole _) hwx4_6 hstage4_6

abbrev win4 : Fin 7 → Pipeline.Window sig grid4 := fun | 0 => win4_0 | 1 => win4_1 | 2 => win4_2 | 3 => win4_3 | 4 => win4_4 | 5 => win4_5 | 6 => win4_6 | ⟨_ + 7, h⟩ => absurd h (Nat.not_lt.2 (Nat.le_add_left _ _))
abbrev spec4 : Fin 7 → Pipeline.WinSpec sig grid4.rank := fun w => (win4 w).toWinSpec

abbrev win5_0 : Pipeline.Window sig grid5 :=
  Pipeline.Window.ofSpec (Memref.whole main_v202) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v207) S1x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v208) S1x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v209) S1x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v210) S1x128.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v211_0) S5000x128.size cc5_transform_5 reads5_5 true false 2 stage5_5 sem5_5
    hrank5 hreads5_5 hinb5_5 nbuf5_5 (Memref.isWhole_whole _) hwx5_5 hstage5_5

abbrev win5_6 : Pipeline.Window sig grid5 :=
  Pipeline.Window.ofSpec (Memref.whole main_v211_1) S5000x128.size cc5_transform_6 reads5_6 true false 2 stage5_6 sem5_6
    hrank5 hreads5_6 hinb5_6 nbuf5_6 (Memref.isWhole_whole _) hwx5_6 hstage5_6

abbrev win5 : Fin 7 → Pipeline.Window sig grid5 := fun | 0 => win5_0 | 1 => win5_1 | 2 => win5_2 | 3 => win5_3 | 4 => win5_4 | 5 => win5_5 | 6 => win5_6 | ⟨_ + 7, h⟩ => absurd h (Nat.not_lt.2 (Nat.le_add_left _ _))
abbrev spec5 : Fin 7 → Pipeline.WinSpec sig grid5.rank := fun w => (win5 w).toWinSpec

abbrev win6_0 : Pipeline.Window sig grid6 :=
  Pipeline.Window.ofSpec (Memref.whole main_v211_0) S5000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v225) S5000x128.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v243) S5000x128.size cc6_transform_2 reads6_2 false false 2 stage6_2 sem6_2
    hrank6 hreads6_2 hinb6_2 nbuf6_2 (Memref.isWhole_whole _) hwx6_2 hstage6_2

abbrev win6_3 : Pipeline.Window sig grid6 :=
  Pipeline.Window.ofSpec (Memref.whole main_v261) S5000x128.size cc6_transform_3 reads6_3 false false 2 stage6_3 sem6_3
    hrank6 hreads6_3 hinb6_3 nbuf6_3 (Memref.isWhole_whole _) hwx6_3 hstage6_3

abbrev win6_4 : Pipeline.Window sig grid6 :=
  Pipeline.Window.ofSpec (Memref.whole main_arg8) S4x128x128.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v262) S1x128.size cc6_transform_5 reads6_5 false true 1 stage6_5 sem6_5
    hrank6 hreads6_5 hinb6_5 nbuf6_5 (Memref.isWhole_whole _) hwx6_5 hstage6_5

abbrev win6_6 : Pipeline.Window sig grid6 :=
  Pipeline.Window.ofSpec (Memref.whole main_v263) S5000x128.size cc6_transform_6 reads6_6 true false 2 stage6_6 sem6_6
    hrank6 hreads6_6 hinb6_6 nbuf6_6 (Memref.isWhole_whole _) hwx6_6 hstage6_6

abbrev win6 : Fin 7 → Pipeline.Window sig grid6 := fun | 0 => win6_0 | 1 => win6_1 | 2 => win6_2 | 3 => win6_3 | 4 => win6_4 | 5 => win6_5 | 6 => win6_6 | ⟨_ + 7, h⟩ => absurd h (Nat.not_lt.2 (Nat.le_add_left _ _))
abbrev spec6 : Fin 7 → Pipeline.WinSpec sig grid6.rank := fun w => (win6 w).toWinSpec

class Facts : Prop extends Facts₀ where

variable [Facts]
-- ==== ReferenceIdeal.lean ====
abbrev S50000x3 : Shape := ⟨2, ![50000, 3]⟩
abbrev S2x800000 : Shape := ⟨2, ![2, 800000]⟩
abbrev S4x3x128 : Shape := ⟨3, ![4, 3, 128]⟩
abbrev S128 : Shape := ⟨1, ![128]⟩
abbrev S4x128x128 : Shape := ⟨3, ![4, 128, 128]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S1x3x128 : Shape := ⟨3, ![1, 3, 128]⟩
abbrev S3x128 : Shape := ⟨2, ![3, 128]⟩
abbrev S50000x128 : Shape := ⟨2, ![50000, 128]⟩
abbrev S800000x3 : Shape := ⟨2, ![800000, 3]⟩
abbrev S1x128 : Shape := ⟨2, ![1, 128]⟩
abbrev S1x128x128 : Shape := ⟨3, ![1, 128, 128]⟩
abbrev S128x128 : Shape := ⟨2, ![128, 128]⟩
abbrev S800000x128 : Shape := ⟨2, ![800000, 128]⟩
abbrev S50000x1 : Shape := ⟨2, ![50000, 1]⟩

abbrev nBuf : Space → Nat
  | .hbm => 516
  | .vmem => 0
  | .smem => 0
  | _ => 0

abbrev hbmTy0_0 (i : Nat) : BufTy := match i % 128 with
  | 0 => ⟨S50000x3, .f32⟩
  | 1 => ⟨S2x800000, .i32⟩
  | 2 => ⟨S4x3x128, .f32⟩
  | 3 => ⟨S128, .f32⟩
  | 4 => ⟨S4x128x128, .f32⟩
  | 5 => ⟨S128, .f32⟩
  | 6 => ⟨S4x128x128, .f32⟩
  | 7 => ⟨S128, .f32⟩
  | 8 => ⟨S4x128x128, .f32⟩
  | 9 => ⟨S128, .f32⟩
  | 10 => ⟨S128, .f32⟩
  | 11 => ⟨S128, .f32⟩
  | 12 => ⟨S128, .f32⟩
  | 13 => ⟨S128, .f32⟩
  | 14 => ⟨S128, .f32⟩
  | 15 => ⟨S128, .f32⟩
  | 16 => ⟨S1x800000, .i32⟩
  | 17 => ⟨S800000, .i32⟩
  | 18 => ⟨S1x800000, .i32⟩
  | 19 => ⟨S800000, .i32⟩
  | 20 => ⟨S1x800000, .i32⟩
  | 21 => ⟨S800000, .i32⟩
  | 22 => ⟨S1x800000, .i32⟩
  | 23 => ⟨S800000, .i32⟩
  | 24 => ⟨S_, .f32⟩
  | 25 => ⟨S800000, .f32⟩
  | 26 => ⟨S_, .f32⟩
  | 27 => ⟨S50000, .f32⟩
  | 28 => ⟨S800000x1, .i32⟩
  | 29 => ⟨S50000, .f32⟩
  | 30 => ⟨S_, .f32⟩
  | 31 => ⟨S50000, .f32⟩
  | 32 => ⟨S50000, .i1⟩
  | 33 => ⟨S_, .f32⟩
  | 34 => ⟨S50000, .f32⟩
  | 35 => ⟨S50000, .f32⟩
  | 36 => ⟨S50000, .f32⟩
  | 37 => ⟨S_, .f32⟩
  | 38 => ⟨S_, .f32⟩
  | 39 => ⟨S50000, .f32⟩
  | 40 => ⟨S50000, .f32⟩
  | 41 => ⟨S_, .i32⟩
  | 42 => ⟨S800000, .i32⟩
  | 43 => ⟨S800000, .i1⟩
  | 44 => ⟨S_, .i32⟩
  | 45 => ⟨S800000, .i32⟩
  | 46 => ⟨S800000, .i32⟩
  | 47 => ⟨S800000, .i32⟩
  | 48 => ⟨S800000x1, .i32⟩
  | 49 => ⟨S800000, .f32⟩
  | 50 => ⟨S800000, .f32⟩
  | 51 => ⟨S_, .i32⟩
  | 52 => ⟨S800000, .i32⟩
  | 53 => ⟨S800000, .i1⟩
  | 54 => ⟨S_, .i32⟩
  | 55 => ⟨S800000, .i32⟩
  | 56 => ⟨S800000, .i32⟩
  | 57 => ⟨S800000, .i32⟩
  | 58 => ⟨S800000x1, .i32⟩
  | 59 => ⟨S800000, .f32⟩
  | 60 => ⟨S800000, .f32⟩
  | 61 => ⟨S1x3x128, .f32⟩
  | 62 => ⟨S3x128, .f32⟩
  | 63 => ⟨S50000x128, .f32⟩
  | 64 => ⟨S_, .i32⟩
  | 65 => ⟨S800000, .i32⟩
  | 66 => ⟨S800000, .i1⟩
  | 67 => ⟨S_, .i32⟩
  | 68 => ⟨S800000, .i32⟩
  | 69 => ⟨S800000, .i32⟩
  | 70 => ⟨S800000, .i32⟩
  | 71 => ⟨S800000x1, .i32⟩
  | 72 => ⟨S800000x3, .f32⟩
  | 73 => ⟨S800000x1, .f32⟩
  | 74 => ⟨S800000x3, .f32⟩
  | 75 => ⟨S800000x3, .f32⟩
  | 76 => ⟨S_, .f32⟩
  | 77 => ⟨S50000x3, .f32⟩
  | 78 => ⟨S800000x1, .i32⟩
  | 79 => ⟨S50000x3, .f32⟩
  | 80 => ⟨S1x3x128, .f32⟩
  | 81 => ⟨S3x128, .f32⟩
  | 82 => ⟨S50000x128, .f32⟩
  | 83 => ⟨S50000x128, .f32⟩
  | 84 => ⟨S_, .i32⟩
  | 85 => ⟨S800000, .i32⟩
  | 86 => ⟨S800000, .i1⟩
  | 87 => ⟨S_, .i32⟩
  | 88 => ⟨S800000, .i32⟩
  | 89 => ⟨S800000, .i32⟩
  | 90 => ⟨S800000, .i32⟩
  | 91 => ⟨S800000x1, .i32⟩
  | 92 => ⟨S800000x3, .f32⟩
  | 93 => ⟨S800000x1, .f32⟩
  | 94 => ⟨S800000x3, .f32⟩
  | 95 => ⟨S800000x3, .f32⟩
  | 96 => ⟨S_, .f32⟩
  | 97 => ⟨S50000x3, .f32⟩
  | 98 => ⟨S800000x1, .i32⟩
  | 99 => ⟨S50000x3, .f32⟩
  | 100 => ⟨S_, .f32⟩
  | 101 => ⟨S50000x3, .f32⟩
  | 102 => ⟨S50000x3, .f32⟩
  | 103 => ⟨S50000x3, .f32⟩
  | 104 => ⟨S1x3x128, .f32⟩
  | 105 => ⟨S3x128, .f32⟩
  | 106 => ⟨S50000x128, .f32⟩
  | 107 => ⟨S50000x128, .f32⟩
  | 108 => ⟨S_, .i32⟩
  | 109 => ⟨S800000, .i32⟩
  | 110 => ⟨S800000, .i1⟩
  | 111 => ⟨S_, .i32⟩
  | 112 => ⟨S800000, .i32⟩
  | 113 => ⟨S800000, .i32⟩
  | 114 => ⟨S800000, .i32⟩
  | 115 => ⟨S800000x1, .i32⟩
  | 116 => ⟨S800000x3, .f32⟩
  | 117 => ⟨S800000x1, .f32⟩
  | 118 => ⟨S800000x3, .f32⟩
  | 119 => ⟨S800000x3, .f32⟩
  | 120 => ⟨S_, .f32⟩
  | 121 => ⟨S50000x3, .f32⟩
  | 122 => ⟨S800000x1, .i32⟩
  | 123 => ⟨S50000x3, .f32⟩
  | 124 => ⟨S_, .f32⟩
  | 125 => ⟨S50000x3, .f32⟩
  | 126 => ⟨S50000x3, .f32⟩
  | 127 => ⟨S50000x3, .f32⟩
  | _ => ⟨S50000x3, .f32⟩

abbrev hbmTy0_1 (i : Nat) : BufTy := match i % 128 with
  | 0 => ⟨S1x3x128, .f32⟩
  | 1 => ⟨S3x128, .f32⟩
  | 2 => ⟨S50000x128, .f32⟩
  | 3 => ⟨S50000x128, .f32⟩
  | 4 => ⟨S1x128, .f32⟩
  | 5 => ⟨S50000x128, .f32⟩
  | 6 => ⟨S50000x128, .f32⟩
  | 7 => ⟨S_, .f32⟩
  | 8 => ⟨S50000x128, .f32⟩
  | 9 => ⟨S50000x128, .i1⟩
  | 10 => ⟨S_, .f32⟩
  | 11 => ⟨S50000x128, .f32⟩
  | 12 => ⟨S50000x128, .f32⟩
  | 13 => ⟨S50000x128, .f32⟩
  | 14 => ⟨S_, .f32⟩
  | 15 => ⟨S128, .f32⟩
  | 16 => ⟨S_, .f32⟩
  | 17 => ⟨S128, .f32⟩
  | 18 => ⟨S128, .f32⟩
  | 19 => ⟨S_, .i32⟩
  | 20 => ⟨S_, .f32⟩
  | 21 => ⟨S128, .f32⟩
  | 22 => ⟨S1x128, .f32⟩
  | 23 => ⟨S_, .f32⟩
  | 24 => ⟨S1x128, .f32⟩
  | 25 => ⟨S1x128, .f32⟩
  | 26 => ⟨S50000x128, .f32⟩
  | 27 => ⟨S50000x128, .f32⟩
  | 28 => ⟨S50000x128, .f32⟩
  | 29 => ⟨S_, .f32⟩
  | 30 => ⟨S_, .f32⟩
  | 31 => ⟨S_, .f32⟩
  | 32 => ⟨S_, .f32⟩
  | 33 => ⟨S128, .f32⟩
  | 34 => ⟨S128, .f32⟩
  | 35 => ⟨S128, .f32⟩
  | 36 => ⟨S_, .f32⟩
  | 37 => ⟨S_, .i1⟩
  | 38 => ⟨S_, .f32⟩
  | 39 => ⟨S_, .f32⟩
  | 40 => ⟨S128, .f32⟩
  | 41 => ⟨S128, .f32⟩
  | 42 => ⟨S1x128, .f32⟩
  | 43 => ⟨S50000x128, .f32⟩
  | 44 => ⟨S50000x128, .f32⟩
  | 45 => ⟨S_, .f32⟩
  | 46 => ⟨S128, .f32⟩
  | 47 => ⟨S128, .f32⟩
  | 48 => ⟨S128, .f32⟩
  | 49 => ⟨S1x128, .f32⟩
  | 50 => ⟨S50000x128, .f32⟩
  | 51 => ⟨S50000x128, .f32⟩
  | 52 => ⟨S1x128, .f32⟩
  | 53 => ⟨S50000x128, .f32⟩
  | 54 => ⟨S50000x128, .f32⟩
  | 55 => ⟨S1x128, .f32⟩
  | 56 => ⟨S50000x128, .f32⟩
  | 57 => ⟨S50000x128, .f32⟩
  | 58 => ⟨S1x128x128, .f32⟩
  | 59 => ⟨S128x128, .f32⟩
  | 60 => ⟨S50000x128, .f32⟩
  | 61 => ⟨S_, .i32⟩
  | 62 => ⟨S800000, .i32⟩
  | 63 => ⟨S800000, .i1⟩
  | 64 => ⟨S_, .i32⟩
  | 65 => ⟨S800000, .i32⟩
  | 66 => ⟨S800000, .i32⟩
  | 67 => ⟨S800000, .i32⟩
  | 68 => ⟨S800000x1, .i32⟩
  | 69 => ⟨S800000x128, .f32⟩
  | 70 => ⟨S800000x1, .f32⟩
  | 71 => ⟨S800000x128, .f32⟩
  | 72 => ⟨S800000x128, .f32⟩
  | 73 => ⟨S_, .f32⟩
  | 74 => ⟨S50000x128, .f32⟩
  | 75 => ⟨S800000x1, .i32⟩
  | 76 => ⟨S50000x128, .f32⟩
  | 77 => ⟨S1x128x128, .f32⟩
  | 78 => ⟨S128x128, .f32⟩
  | 79 => ⟨S50000x128, .f32⟩
  | 80 => ⟨S50000x128, .f32⟩
  | 81 => ⟨S_, .i32⟩
  | 82 => ⟨S800000, .i32⟩
  | 83 => ⟨S800000, .i1⟩
  | 84 => ⟨S_, .i32⟩
  | 85 => ⟨S800000, .i32⟩
  | 86 => ⟨S800000, .i32⟩
  | 87 => ⟨S800000, .i32⟩
  | 88 => ⟨S800000x1, .i32⟩
  | 89 => ⟨S800000x128, .f32⟩
  | 90 => ⟨S800000x1, .f32⟩
  | 91 => ⟨S800000x128, .f32⟩
  | 92 => ⟨S800000x128, .f32⟩
  | 93 => ⟨S_, .f32⟩
  | 94 => ⟨S50000x128, .f32⟩
  | 95 => ⟨S800000x1, .i32⟩
  | 96 => ⟨S50000x128, .f32⟩
  | 97 => ⟨S_, .f32⟩
  | 98 => ⟨S50000x128, .f32⟩
  | 99 => ⟨S50000x128, .f32⟩
  | 100 => ⟨S50000x128, .f32⟩
  | 101 => ⟨S1x128x128, .f32⟩
  | 102 => ⟨S128x128, .f32⟩
  | 103 => ⟨S50000x128, .f32⟩
  | 104 => ⟨S50000x128, .f32⟩
  | 105 => ⟨S_, .i32⟩
  | 106 => ⟨S800000, .i32⟩
  | 107 => ⟨S800000, .i1⟩
  | 108 => ⟨S_, .i32⟩
  | 109 => ⟨S800000, .i32⟩
  | 110 => ⟨S800000, .i32⟩
  | 111 => ⟨S800000, .i32⟩
  | 112 => ⟨S800000x1, .i32⟩
  | 113 => ⟨S800000x128, .f32⟩
  | 114 => ⟨S800000x1, .f32⟩
  | 115 => ⟨S800000x128, .f32⟩
  | 116 => ⟨S800000x128, .f32⟩
  | 117 => ⟨S_, .f32⟩
  | 118 => ⟨S50000x128, .f32⟩
  | 119 => ⟨S800000x1, .i32⟩
  | 120 => ⟨S50000x128, .f32⟩
  | 121 => ⟨S_, .f32⟩
  | 122 => ⟨S50000x128, .f32⟩
  | 123 => ⟨S50000x128, .f32⟩
  | 124 => ⟨S50000x128, .f32⟩
  | 125 => ⟨S1x128x128, .f32⟩
  | 126 => ⟨S128x128, .f32⟩
  | 127 => ⟨S50000x128, .f32⟩
  | _ => ⟨S50000x3, .f32⟩

abbrev hbmTy0_2 (i : Nat) : BufTy := match i % 128 with
  | 0 => ⟨S50000x128, .f32⟩
  | 1 => ⟨S1x128, .f32⟩
  | 2 => ⟨S50000x128, .f32⟩
  | 3 => ⟨S50000x128, .f32⟩
  | 4 => ⟨S_, .f32⟩
  | 5 => ⟨S50000x128, .f32⟩
  | 6 => ⟨S50000x128, .i1⟩
  | 7 => ⟨S_, .f32⟩
  | 8 => ⟨S50000x128, .f32⟩
  | 9 => ⟨S50000x128, .f32⟩
  | 10 => ⟨S50000x128, .f32⟩
  | 11 => ⟨S_, .f32⟩
  | 12 => ⟨S128, .f32⟩
  | 13 => ⟨S_, .f32⟩
  | 14 => ⟨S128, .f32⟩
  | 15 => ⟨S128, .f32⟩
  | 16 => ⟨S_, .i32⟩
  | 17 => ⟨S_, .f32⟩
  | 18 => ⟨S128, .f32⟩
  | 19 => ⟨S1x128, .f32⟩
  | 20 => ⟨S_, .f32⟩
  | 21 => ⟨S1x128, .f32⟩
  | 22 => ⟨S1x128, .f32⟩
  | 23 => ⟨S50000x128, .f32⟩
  | 24 => ⟨S50000x128, .f32⟩
  | 25 => ⟨S50000x128, .f32⟩
  | 26 => ⟨S_, .f32⟩
  | 27 => ⟨S_, .f32⟩
  | 28 => ⟨S_, .f32⟩
  | 29 => ⟨S_, .f32⟩
  | 30 => ⟨S128, .f32⟩
  | 31 => ⟨S128, .f32⟩
  | 32 => ⟨S128, .f32⟩
  | 33 => ⟨S_, .f32⟩
  | 34 => ⟨S_, .i1⟩
  | 35 => ⟨S_, .f32⟩
  | 36 => ⟨S_, .f32⟩
  | 37 => ⟨S128, .f32⟩
  | 38 => ⟨S128, .f32⟩
  | 39 => ⟨S1x128, .f32⟩
  | 40 => ⟨S50000x128, .f32⟩
  | 41 => ⟨S50000x128, .f32⟩
  | 42 => ⟨S_, .f32⟩
  | 43 => ⟨S128, .f32⟩
  | 44 => ⟨S128, .f32⟩
  | 45 => ⟨S128, .f32⟩
  | 46 => ⟨S1x128, .f32⟩
  | 47 => ⟨S50000x128, .f32⟩
  | 48 => ⟨S50000x128, .f32⟩
  | 49 => ⟨S1x128, .f32⟩
  | 50 => ⟨S50000x128, .f32⟩
  | 51 => ⟨S50000x128, .f32⟩
  | 52 => ⟨S1x128, .f32⟩
  | 53 => ⟨S50000x128, .f32⟩
  | 54 => ⟨S50000x128, .f32⟩
  | 55 => ⟨S1x128x128, .f32⟩
  | 56 => ⟨S128x128, .f32⟩
  | 57 => ⟨S50000x128, .f32⟩
  | 58 => ⟨S_, .i32⟩
  | 59 => ⟨S800000, .i32⟩
  | 60 => ⟨S800000, .i1⟩
  | 61 => ⟨S_, .i32⟩
  | 62 => ⟨S800000, .i32⟩
  | 63 => ⟨S800000, .i32⟩
  | 64 => ⟨S800000, .i32⟩
  | 65 => ⟨S800000x1, .i32⟩
  | 66 => ⟨S800000x128, .f32⟩
  | 67 => ⟨S800000x1, .f32⟩
  | 68 => ⟨S800000x128, .f32⟩
  | 69 => ⟨S800000x128, .f32⟩
  | 70 => ⟨S_, .f32⟩
  | 71 => ⟨S50000x128, .f32⟩
  | 72 => ⟨S800000x1, .i32⟩
  | 73 => ⟨S50000x128, .f32⟩
  | 74 => ⟨S1x128x128, .f32⟩
  | 75 => ⟨S128x128, .f32⟩
  | 76 => ⟨S50000x128, .f32⟩
  | 77 => ⟨S50000x128, .f32⟩
  | 78 => ⟨S_, .i32⟩
  | 79 => ⟨S800000, .i32⟩
  | 80 => ⟨S800000, .i1⟩
  | 81 => ⟨S_, .i32⟩
  | 82 => ⟨S800000, .i32⟩
  | 83 => ⟨S800000, .i32⟩
  | 84 => ⟨S800000, .i32⟩
  | 85 => ⟨S800000x1, .i32⟩
  | 86 => ⟨S800000x128, .f32⟩
  | 87 => ⟨S800000x1, .f32⟩
  | 88 => ⟨S800000x128, .f32⟩
  | 89 => ⟨S800000x128, .f32⟩
  | 90 => ⟨S_, .f32⟩
  | 91 => ⟨S50000x128, .f32⟩
  | 92 => ⟨S800000x1, .i32⟩
  | 93 => ⟨S50000x128, .f32⟩
  | 94 => ⟨S_, .f32⟩
  | 95 => ⟨S50000x128, .f32⟩
  | 96 => ⟨S50000x128, .f32⟩
  | 97 => ⟨S50000x128, .f32⟩
  | 98 => ⟨S1x128x128, .f32⟩
  | 99 => ⟨S128x128, .f32⟩
  | 100 => ⟨S50000x128, .f32⟩
  | 101 => ⟨S50000x128, .f32⟩
  | 102 => ⟨S_, .i32⟩
  | 103 => ⟨S800000, .i32⟩
  | 104 => ⟨S800000, .i1⟩
  | 105 => ⟨S_, .i32⟩
  | 106 => ⟨S800000, .i32⟩
  | 107 => ⟨S800000, .i32⟩
  | 108 => ⟨S800000, .i32⟩
  | 109 => ⟨S800000x1, .i32⟩
  | 110 => ⟨S800000x128, .f32⟩
  | 111 => ⟨S800000x1, .f32⟩
  | 112 => ⟨S800000x128, .f32⟩
  | 113 => ⟨S800000x128, .f32⟩
  | 114 => ⟨S_, .f32⟩
  | 115 => ⟨S50000x128, .f32⟩
  | 116 => ⟨S800000x1, .i32⟩
  | 117 => ⟨S50000x128, .f32⟩
  | 118 => ⟨S_, .f32⟩
  | 119 => ⟨S50000x128, .f32⟩
  | 120 => ⟨S50000x128, .f32⟩
  | 121 => ⟨S50000x128, .f32⟩
  | 122 => ⟨S1x128x128, .f32⟩
  | 123 => ⟨S128x128, .f32⟩
  | 124 => ⟨S50000x128, .f32⟩
  | 125 => ⟨S50000x128, .f32⟩
  | 126 => ⟨S1x128, .f32⟩
  | 127 => ⟨S50000x128, .f32⟩
  | _ => ⟨S50000x3, .f32⟩

abbrev hbmTy0_3 (i : Nat) : BufTy := match i % 128 with
  | 0 => ⟨S50000x128, .f32⟩
  | 1 => ⟨S_, .f32⟩
  | 2 => ⟨S50000x128, .f32⟩
  | 3 => ⟨S50000x128, .f32⟩
  | 4 => ⟨S_, .f32⟩
  | 5 => ⟨S128, .f32⟩
  | 6 => ⟨S_, .f32⟩
  | 7 => ⟨S128, .f32⟩
  | 8 => ⟨S128, .f32⟩
  | 9 => ⟨S_, .i32⟩
  | 10 => ⟨S_, .f32⟩
  | 11 => ⟨S128, .f32⟩
  | 12 => ⟨S1x128, .f32⟩
  | 13 => ⟨S_, .f32⟩
  | 14 => ⟨S1x128, .f32⟩
  | 15 => ⟨S1x128, .f32⟩
  | 16 => ⟨S50000x128, .f32⟩
  | 17 => ⟨S50000x128, .f32⟩
  | 18 => ⟨S50000x128, .f32⟩
  | 19 => ⟨S_, .f32⟩
  | 20 => ⟨S_, .f32⟩
  | 21 => ⟨S_, .f32⟩
  | 22 => ⟨S_, .f32⟩
  | 23 => ⟨S128, .f32⟩
  | 24 => ⟨S128, .f32⟩
  | 25 => ⟨S128, .f32⟩
  | 26 => ⟨S_, .f32⟩
  | 27 => ⟨S_, .i1⟩
  | 28 => ⟨S_, .f32⟩
  | 29 => ⟨S_, .f32⟩
  | 30 => ⟨S128, .f32⟩
  | 31 => ⟨S128, .f32⟩
  | 32 => ⟨S1x128, .f32⟩
  | 33 => ⟨S50000x128, .f32⟩
  | 34 => ⟨S50000x128, .f32⟩
  | 35 => ⟨S_, .f32⟩
  | 36 => ⟨S128, .f32⟩
  | 37 => ⟨S128, .f32⟩
  | 38 => ⟨S128, .f32⟩
  | 39 => ⟨S1x128, .f32⟩
  | 40 => ⟨S50000x128, .f32⟩
  | 41 => ⟨S50000x128, .f32⟩
  | 42 => ⟨S1x128, .f32⟩
  | 43 => ⟨S50000x128, .f32⟩
  | 44 => ⟨S50000x128, .f32⟩
  | 45 => ⟨S1x128, .f32⟩
  | 46 => ⟨S50000x128, .f32⟩
  | 47 => ⟨S50000x128, .f32⟩
  | 48 => ⟨S1x128x128, .f32⟩
  | 49 => ⟨S128x128, .f32⟩
  | 50 => ⟨S50000x128, .f32⟩
  | 51 => ⟨S_, .i32⟩
  | 52 => ⟨S800000, .i32⟩
  | 53 => ⟨S800000, .i1⟩
  | 54 => ⟨S_, .i32⟩
  | 55 => ⟨S800000, .i32⟩
  | 56 => ⟨S800000, .i32⟩
  | 57 => ⟨S800000, .i32⟩
  | 58 => ⟨S800000x1, .i32⟩
  | 59 => ⟨S800000x128, .f32⟩
  | 60 => ⟨S800000x1, .f32⟩
  | 61 => ⟨S800000x128, .f32⟩
  | 62 => ⟨S800000x128, .f32⟩
  | 63 => ⟨S_, .f32⟩
  | 64 => ⟨S50000x128, .f32⟩
  | 65 => ⟨S800000x1, .i32⟩
  | 66 => ⟨S50000x128, .f32⟩
  | 67 => ⟨S1x128x128, .f32⟩
  | 68 => ⟨S128x128, .f32⟩
  | 69 => ⟨S50000x128, .f32⟩
  | 70 => ⟨S50000x128, .f32⟩
  | 71 => ⟨S_, .i32⟩
  | 72 => ⟨S800000, .i32⟩
  | 73 => ⟨S800000, .i1⟩
  | 74 => ⟨S_, .i32⟩
  | 75 => ⟨S800000, .i32⟩
  | 76 => ⟨S800000, .i32⟩
  | 77 => ⟨S800000, .i32⟩
  | 78 => ⟨S800000x1, .i32⟩
  | 79 => ⟨S800000x128, .f32⟩
  | 80 => ⟨S800000x1, .f32⟩
  | 81 => ⟨S800000x128, .f32⟩
  | 82 => ⟨S800000x128, .f32⟩
  | 83 => ⟨S_, .f32⟩
  | 84 => ⟨S50000x128, .f32⟩
  | 85 => ⟨S800000x1, .i32⟩
  | 86 => ⟨S50000x128, .f32⟩
  | 87 => ⟨S_, .f32⟩
  | 88 => ⟨S50000x128, .f32⟩
  | 89 => ⟨S50000x128, .f32⟩
  | 90 => ⟨S50000x128, .f32⟩
  | 91 => ⟨S1x128x128, .f32⟩
  | 92 => ⟨S128x128, .f32⟩
  | 93 => ⟨S50000x128, .f32⟩
  | 94 => ⟨S50000x128, .f32⟩
  | 95 => ⟨S_, .i32⟩
  | 96 => ⟨S800000, .i32⟩
  | 97 => ⟨S800000, .i1⟩
  | 98 => ⟨S_, .i32⟩
  | 99 => ⟨S800000, .i32⟩
  | 100 => ⟨S800000, .i32⟩
  | 101 => ⟨S800000, .i32⟩
  | 102 => ⟨S800000x1, .i32⟩
  | 103 => ⟨S800000x128, .f32⟩
  | 104 => ⟨S800000x1, .f32⟩
  | 105 => ⟨S800000x128, .f32⟩
  | 106 => ⟨S800000x128, .f32⟩
  | 107 => ⟨S_, .f32⟩
  | 108 => ⟨S50000x128, .f32⟩
  | 109 => ⟨S800000x1, .i32⟩
  | 110 => ⟨S50000x128, .f32⟩
  | 111 => ⟨S_, .f32⟩
  | 112 => ⟨S50000x128, .f32⟩
  | 113 => ⟨S50000x128, .f32⟩
  | 114 => ⟨S50000x128, .f32⟩
  | 115 => ⟨S1x128x128, .f32⟩
  | 116 => ⟨S128x128, .f32⟩
  | 117 => ⟨S50000x128, .f32⟩
  | 118 => ⟨S50000x128, .f32⟩
  | 119 => ⟨S1x128, .f32⟩
  | 120 => ⟨S50000x128, .f32⟩
  | 121 => ⟨S50000x128, .f32⟩
  | 122 => ⟨S50000x128, .f32⟩
  | 123 => ⟨S_, .f32⟩
  | 124 => ⟨S50000, .f32⟩
  | 125 => ⟨S50000x1, .f32⟩
  | 126 => ⟨S50000x1, .f32⟩
  | 127 => ⟨S_, .f32⟩
  | _ => ⟨S50000x3, .f32⟩

abbrev hbmTy0_4 (i : Nat) : BufTy := match i % 128 with
  | 0 => ⟨S50000x1, .f32⟩
  | 1 => ⟨S50000x1, .f32⟩
  | 2 => ⟨S50000x128, .f32⟩
  | 3 => ⟨S50000x128, .f32⟩
  | _ => ⟨S50000x3, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S50000x3, .f32⟩

abbrev bufTy : (tb : Table) → Fin (tcTables nBuf tb) → BufTy
  | .hbm, ⟨i, _⟩ => hbmTy i
  | _, _ => ⟨S50000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_cst : Ref sig .tc := ⟨.hbm, 24, rfl⟩
abbrev main_v8 : Ref sig .tc := ⟨.hbm, 25, rfl⟩
abbrev main_cst_0 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_cst_1 : Ref sig .tc := ⟨.hbm, 30, rfl⟩
abbrev main_v12 : Ref sig .tc := ⟨.hbm, 31, rfl⟩
abbrev main_v13 : Ref sig .tc := ⟨.hbm, 32, rfl⟩
abbrev main_cst_2 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_cst_3 : Ref sig .tc := ⟨.hbm, 37, rfl⟩
abbrev main_call0_v0 : Ref sig .tc := ⟨.hbm, 38, rfl⟩
abbrev main_call0_v1 : Ref sig .tc := ⟨.hbm, 39, rfl⟩
abbrev main_v17 : Ref sig .tc := ⟨.hbm, 40, rfl⟩
abbrev main_c : Ref sig .tc := ⟨.hbm, 41, rfl⟩
abbrev main_v18 : Ref sig .tc := ⟨.hbm, 42, rfl⟩
abbrev main_v19 : Ref sig .tc := ⟨.hbm, 43, rfl⟩
abbrev main_c_4 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_c_5 : Ref sig .tc := ⟨.hbm, 51, rfl⟩
abbrev main_v26 : Ref sig .tc := ⟨.hbm, 52, rfl⟩
abbrev main_v27 : Ref sig .tc := ⟨.hbm, 53, rfl⟩
abbrev main_c_6 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_c_7 : Ref sig .tc := ⟨.hbm, 64, rfl⟩
abbrev main_v37 : Ref sig .tc := ⟨.hbm, 65, rfl⟩
abbrev main_v38 : Ref sig .tc := ⟨.hbm, 66, rfl⟩
abbrev main_c_8 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_cst_9 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_c_10 : Ref sig .tc := ⟨.hbm, 84, rfl⟩
abbrev main_v54 : Ref sig .tc := ⟨.hbm, 85, rfl⟩
abbrev main_v55 : Ref sig .tc := ⟨.hbm, 86, rfl⟩
abbrev main_c_11 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_cst_12 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_cst_13 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_c_14 : Ref sig .tc := ⟨.hbm, 108, rfl⟩
abbrev main_v74 : Ref sig .tc := ⟨.hbm, 109, rfl⟩
abbrev main_v75 : Ref sig .tc := ⟨.hbm, 110, rfl⟩
abbrev main_c_15 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_cst_16 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_cst_17 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_call1_cst : Ref sig .tc := ⟨.hbm, 135, rfl⟩
abbrev main_call1_v0 : Ref sig .tc := ⟨.hbm, 136, rfl⟩
abbrev main_call1_v1 : Ref sig .tc := ⟨.hbm, 137, rfl⟩
abbrev main_call1_cst_0 : Ref sig .tc := ⟨.hbm, 138, rfl⟩
abbrev main_call1_v2 : Ref sig .tc := ⟨.hbm, 139, rfl⟩
abbrev main_call1_v3 : Ref sig .tc := ⟨.hbm, 140, rfl⟩
abbrev main_v97 : Ref sig .tc := ⟨.hbm, 141, rfl⟩
abbrev main_cst_18 : Ref sig .tc := ⟨.hbm, 142, rfl⟩
abbrev main_v98 : Ref sig .tc := ⟨.hbm, 143, rfl⟩
abbrev main_cst_19 : Ref sig .tc := ⟨.hbm, 144, rfl⟩
abbrev main_v99 : Ref sig .tc := ⟨.hbm, 145, rfl⟩
abbrev main_v100 : Ref sig .tc := ⟨.hbm, 146, rfl⟩
abbrev main_c_20 : Ref sig .tc := ⟨.hbm, 147, rfl⟩
abbrev main_call2_cst : Ref sig .tc := ⟨.hbm, 148, rfl⟩
abbrev main_call2_v0 : Ref sig .tc := ⟨.hbm, 149, rfl⟩
abbrev main_call2_v1 : Ref sig .tc := ⟨.hbm, 150, rfl⟩
abbrev main_call2_cst_0 : Ref sig .tc := ⟨.hbm, 151, rfl⟩
abbrev main_call2_v2 : Ref sig .tc := ⟨.hbm, 152, rfl⟩
abbrev main_call2_v3 : Ref sig .tc := ⟨.hbm, 153, rfl⟩
abbrev main_call2_v4 : Ref sig .tc := ⟨.hbm, 154, rfl⟩
abbrev main_call2_v5 : Ref sig .tc := ⟨.hbm, 155, rfl⟩
abbrev main_call2_v6 : Ref sig .tc := ⟨.hbm, 156, rfl⟩
abbrev main_call2_v7 : Ref sig .tc := ⟨.hbm, 157, rfl⟩
abbrev main_call2_cst_1 : Ref sig .tc := ⟨.hbm, 158, rfl⟩
abbrev main_call2_v8 : Ref sig .tc := ⟨.hbm, 159, rfl⟩
abbrev main_call2_cst_2 : Ref sig .tc := ⟨.hbm, 160, rfl⟩
abbrev main_call2_v9 : Ref sig .tc := ⟨.hbm, 161, rfl⟩
abbrev main_call2_v10 : Ref sig .tc := ⟨.hbm, 162, rfl⟩
abbrev main_call2_v11 : Ref sig .tc := ⟨.hbm, 163, rfl⟩
abbrev main_call2_cst_3 : Ref sig .tc := ⟨.hbm, 164, rfl⟩
abbrev main_call2_v12 : Ref sig .tc := ⟨.hbm, 165, rfl⟩
abbrev main_call2_cst_4 : Ref sig .tc := ⟨.hbm, 166, rfl⟩
abbrev main_call2_call0_v0 : Ref sig .tc := ⟨.hbm, 167, rfl⟩
abbrev main_call2_call0_v1 : Ref sig .tc := ⟨.hbm, 168, rfl⟩
abbrev main_v101 : Ref sig .tc := ⟨.hbm, 169, rfl⟩
abbrev main_v102 : Ref sig .tc := ⟨.hbm, 170, rfl⟩
abbrev main_v103 : Ref sig .tc := ⟨.hbm, 171, rfl⟩
abbrev main_v104 : Ref sig .tc := ⟨.hbm, 172, rfl⟩
abbrev main_cst_21 : Ref sig .tc := ⟨.hbm, 173, rfl⟩
abbrev main_v105 : Ref sig .tc := ⟨.hbm, 174, rfl⟩
abbrev main_v106 : Ref sig .tc := ⟨.hbm, 175, rfl⟩
abbrev main_v107 : Ref sig .tc := ⟨.hbm, 176, rfl⟩
abbrev main_v108 : Ref sig .tc := ⟨.hbm, 177, rfl⟩
abbrev main_v109 : Ref sig .tc := ⟨.hbm, 178, rfl⟩
abbrev main_v110 : Ref sig .tc := ⟨.hbm, 179, rfl⟩
abbrev main_v111 : Ref sig .tc := ⟨.hbm, 180, rfl⟩
abbrev main_v112 : Ref sig .tc := ⟨.hbm, 181, rfl⟩
abbrev main_v113 : Ref sig .tc := ⟨.hbm, 182, rfl⟩
abbrev main_v114 : Ref sig .tc := ⟨.hbm, 183, rfl⟩
abbrev main_v115 : Ref sig .tc := ⟨.hbm, 184, rfl⟩
abbrev main_v116 : Ref sig .tc := ⟨.hbm, 185, rfl⟩
abbrev main_v117 : Ref sig .tc := ⟨.hbm, 186, rfl⟩
abbrev main_v118 : Ref sig .tc := ⟨.hbm, 187, rfl⟩
abbrev main_v119 : Ref sig .tc := ⟨.hbm, 188, rfl⟩
abbrev main_c_22 : Ref sig .tc := ⟨.hbm, 189, rfl⟩
abbrev main_v120 : Ref sig .tc := ⟨.hbm, 190, rfl⟩
abbrev main_v121 : Ref sig .tc := ⟨.hbm, 191, rfl⟩
abbrev main_c_23 : Ref sig .tc := ⟨.hbm, 192, rfl⟩
abbrev main_v122 : Ref sig .tc := ⟨.hbm, 193, rfl⟩
abbrev main_v123 : Ref sig .tc := ⟨.hbm, 194, rfl⟩
abbrev main_v124 : Ref sig .tc := ⟨.hbm, 195, rfl⟩
abbrev main_v125 : Ref sig .tc := ⟨.hbm, 196, rfl⟩
abbrev main_v126 : Ref sig .tc := ⟨.hbm, 197, rfl⟩
abbrev main_v127 : Ref sig .tc := ⟨.hbm, 198, rfl⟩
abbrev main_v128 : Ref sig .tc := ⟨.hbm, 199, rfl⟩
abbrev main_v129 : Ref sig .tc := ⟨.hbm, 200, rfl⟩
abbrev main_cst_24 : Ref sig .tc := ⟨.hbm, 201, rfl⟩
abbrev main_v130 : Ref sig .tc := ⟨.hbm, 202, rfl⟩
abbrev main_v131 : Ref sig .tc := ⟨.hbm, 203, rfl⟩
abbrev main_v132 : Ref sig .tc := ⟨.hbm, 204, rfl⟩
abbrev main_v133 : Ref sig .tc := ⟨.hbm, 205, rfl⟩
abbrev main_v134 : Ref sig .tc := ⟨.hbm, 206, rfl⟩
abbrev main_v135 : Ref sig .tc := ⟨.hbm, 207, rfl⟩
abbrev main_v136 : Ref sig .tc := ⟨.hbm, 208, rfl⟩
abbrev main_c_25 : Ref sig .tc := ⟨.hbm, 209, rfl⟩
abbrev main_v137 : Ref sig .tc := ⟨.hbm, 210, rfl⟩
abbrev main_v138 : Ref sig .tc := ⟨.hbm, 211, rfl⟩
abbrev main_c_26 : Ref sig .tc := ⟨.hbm, 212, rfl⟩
abbrev main_v139 : Ref sig .tc := ⟨.hbm, 213, rfl⟩
abbrev main_v140 : Ref sig .tc := ⟨.hbm, 214, rfl⟩
abbrev main_v141 : Ref sig .tc := ⟨.hbm, 215, rfl⟩
abbrev main_v142 : Ref sig .tc := ⟨.hbm, 216, rfl⟩
abbrev main_v143 : Ref sig .tc := ⟨.hbm, 217, rfl⟩
abbrev main_v144 : Ref sig .tc := ⟨.hbm, 218, rfl⟩
abbrev main_v145 : Ref sig .tc := ⟨.hbm, 219, rfl⟩
abbrev main_v146 : Ref sig .tc := ⟨.hbm, 220, rfl⟩
abbrev main_cst_27 : Ref sig .tc := ⟨.hbm, 221, rfl⟩
abbrev main_v147 : Ref sig .tc := ⟨.hbm, 222, rfl⟩
abbrev main_v148 : Ref sig .tc := ⟨.hbm, 223, rfl⟩
abbrev main_v149 : Ref sig .tc := ⟨.hbm, 224, rfl⟩
abbrev main_cst_28 : Ref sig .tc := ⟨.hbm, 225, rfl⟩
abbrev main_v150 : Ref sig .tc := ⟨.hbm, 226, rfl⟩
abbrev main_v151 : Ref sig .tc := ⟨.hbm, 227, rfl⟩
abbrev main_v152 : Ref sig .tc := ⟨.hbm, 228, rfl⟩
abbrev main_v153 : Ref sig .tc := ⟨.hbm, 229, rfl⟩
abbrev main_v154 : Ref sig .tc := ⟨.hbm, 230, rfl⟩
abbrev main_v155 : Ref sig .tc := ⟨.hbm, 231, rfl⟩
abbrev main_v156 : Ref sig .tc := ⟨.hbm, 232, rfl⟩
abbrev main_c_29 : Ref sig .tc := ⟨.hbm, 233, rfl⟩
abbrev main_v157 : Ref sig .tc := ⟨.hbm, 234, rfl⟩
abbrev main_v158 : Ref sig .tc := ⟨.hbm, 235, rfl⟩
abbrev main_c_30 : Ref sig .tc := ⟨.hbm, 236, rfl⟩
abbrev main_v159 : Ref sig .tc := ⟨.hbm, 237, rfl⟩
abbrev main_v160 : Ref sig .tc := ⟨.hbm, 238, rfl⟩
abbrev main_v161 : Ref sig .tc := ⟨.hbm, 239, rfl⟩
abbrev main_v162 : Ref sig .tc := ⟨.hbm, 240, rfl⟩
abbrev main_v163 : Ref sig .tc := ⟨.hbm, 241, rfl⟩
abbrev main_v164 : Ref sig .tc := ⟨.hbm, 242, rfl⟩
abbrev main_v165 : Ref sig .tc := ⟨.hbm, 243, rfl⟩
abbrev main_v166 : Ref sig .tc := ⟨.hbm, 244, rfl⟩
abbrev main_cst_31 : Ref sig .tc := ⟨.hbm, 245, rfl⟩
abbrev main_v167 : Ref sig .tc := ⟨.hbm, 246, rfl⟩
abbrev main_v168 : Ref sig .tc := ⟨.hbm, 247, rfl⟩
abbrev main_v169 : Ref sig .tc := ⟨.hbm, 248, rfl⟩
abbrev main_cst_32 : Ref sig .tc := ⟨.hbm, 249, rfl⟩
abbrev main_v170 : Ref sig .tc := ⟨.hbm, 250, rfl⟩
abbrev main_v171 : Ref sig .tc := ⟨.hbm, 251, rfl⟩
abbrev main_v172 : Ref sig .tc := ⟨.hbm, 252, rfl⟩
abbrev main_v173 : Ref sig .tc := ⟨.hbm, 253, rfl⟩
abbrev main_v174 : Ref sig .tc := ⟨.hbm, 254, rfl⟩
abbrev main_v175 : Ref sig .tc := ⟨.hbm, 255, rfl⟩
abbrev main_v176 : Ref sig .tc := ⟨.hbm, 256, rfl⟩
abbrev main_v177 : Ref sig .tc := ⟨.hbm, 257, rfl⟩
abbrev main_v178 : Ref sig .tc := ⟨.hbm, 258, rfl⟩
abbrev main_v179 : Ref sig .tc := ⟨.hbm, 259, rfl⟩
abbrev main_call3_cst : Ref sig .tc := ⟨.hbm, 260, rfl⟩
abbrev main_call3_v0 : Ref sig .tc := ⟨.hbm, 261, rfl⟩
abbrev main_call3_v1 : Ref sig .tc := ⟨.hbm, 262, rfl⟩
abbrev main_call3_cst_0 : Ref sig .tc := ⟨.hbm, 263, rfl⟩
abbrev main_call3_v2 : Ref sig .tc := ⟨.hbm, 264, rfl⟩
abbrev main_call3_v3 : Ref sig .tc := ⟨.hbm, 265, rfl⟩
abbrev main_v180 : Ref sig .tc := ⟨.hbm, 266, rfl⟩
abbrev main_cst_33 : Ref sig .tc := ⟨.hbm, 267, rfl⟩
abbrev main_v181 : Ref sig .tc := ⟨.hbm, 268, rfl⟩
abbrev main_cst_34 : Ref sig .tc := ⟨.hbm, 269, rfl⟩
abbrev main_v182 : Ref sig .tc := ⟨.hbm, 270, rfl⟩
abbrev main_v183 : Ref sig .tc := ⟨.hbm, 271, rfl⟩
abbrev main_c_35 : Ref sig .tc := ⟨.hbm, 272, rfl⟩
abbrev main_call4_cst : Ref sig .tc := ⟨.hbm, 273, rfl⟩
abbrev main_call4_v0 : Ref sig .tc := ⟨.hbm, 274, rfl⟩
abbrev main_call4_v1 : Ref sig .tc := ⟨.hbm, 275, rfl⟩
abbrev main_call4_cst_0 : Ref sig .tc := ⟨.hbm, 276, rfl⟩
abbrev main_call4_v2 : Ref sig .tc := ⟨.hbm, 277, rfl⟩
abbrev main_call4_v3 : Ref sig .tc := ⟨.hbm, 278, rfl⟩
abbrev main_call4_v4 : Ref sig .tc := ⟨.hbm, 279, rfl⟩
abbrev main_call4_v5 : Ref sig .tc := ⟨.hbm, 280, rfl⟩
abbrev main_call4_v6 : Ref sig .tc := ⟨.hbm, 281, rfl⟩
abbrev main_call4_v7 : Ref sig .tc := ⟨.hbm, 282, rfl⟩
abbrev main_call4_cst_1 : Ref sig .tc := ⟨.hbm, 283, rfl⟩
abbrev main_call4_v8 : Ref sig .tc := ⟨.hbm, 284, rfl⟩
abbrev main_call4_cst_2 : Ref sig .tc := ⟨.hbm, 285, rfl⟩
abbrev main_call4_v9 : Ref sig .tc := ⟨.hbm, 286, rfl⟩
abbrev main_call4_v10 : Ref sig .tc := ⟨.hbm, 287, rfl⟩
abbrev main_call4_v11 : Ref sig .tc := ⟨.hbm, 288, rfl⟩
abbrev main_call4_cst_3 : Ref sig .tc := ⟨.hbm, 289, rfl⟩
abbrev main_call4_v12 : Ref sig .tc := ⟨.hbm, 290, rfl⟩
abbrev main_call4_cst_4 : Ref sig .tc := ⟨.hbm, 291, rfl⟩
abbrev main_call4_call0_v0 : Ref sig .tc := ⟨.hbm, 292, rfl⟩
abbrev main_call4_call0_v1 : Ref sig .tc := ⟨.hbm, 293, rfl⟩
abbrev main_v184 : Ref sig .tc := ⟨.hbm, 294, rfl⟩
abbrev main_v185 : Ref sig .tc := ⟨.hbm, 295, rfl⟩
abbrev main_v186 : Ref sig .tc := ⟨.hbm, 296, rfl⟩
abbrev main_v187 : Ref sig .tc := ⟨.hbm, 297, rfl⟩
abbrev main_cst_36 : Ref sig .tc := ⟨.hbm, 298, rfl⟩
abbrev main_v188 : Ref sig .tc := ⟨.hbm, 299, rfl⟩
abbrev main_v189 : Ref sig .tc := ⟨.hbm, 300, rfl⟩
abbrev main_v190 : Ref sig .tc := ⟨.hbm, 301, rfl⟩
abbrev main_v191 : Ref sig .tc := ⟨.hbm, 302, rfl⟩
abbrev main_v192 : Ref sig .tc := ⟨.hbm, 303, rfl⟩
abbrev main_v193 : Ref sig .tc := ⟨.hbm, 304, rfl⟩
abbrev main_v194 : Ref sig .tc := ⟨.hbm, 305, rfl⟩
abbrev main_v195 : Ref sig .tc := ⟨.hbm, 306, rfl⟩
abbrev main_v196 : Ref sig .tc := ⟨.hbm, 307, rfl⟩
abbrev main_v197 : Ref sig .tc := ⟨.hbm, 308, rfl⟩
abbrev main_v198 : Ref sig .tc := ⟨.hbm, 309, rfl⟩
abbrev main_v199 : Ref sig .tc := ⟨.hbm, 310, rfl⟩
abbrev main_v200 : Ref sig .tc := ⟨.hbm, 311, rfl⟩
abbrev main_v201 : Ref sig .tc := ⟨.hbm, 312, rfl⟩
abbrev main_v202 : Ref sig .tc := ⟨.hbm, 313, rfl⟩
abbrev main_c_37 : Ref sig .tc := ⟨.hbm, 314, rfl⟩
abbrev main_v203 : Ref sig .tc := ⟨.hbm, 315, rfl⟩
abbrev main_v204 : Ref sig .tc := ⟨.hbm, 316, rfl⟩
abbrev main_c_38 : Ref sig .tc := ⟨.hbm, 317, rfl⟩
abbrev main_v205 : Ref sig .tc := ⟨.hbm, 318, rfl⟩
abbrev main_v206 : Ref sig .tc := ⟨.hbm, 319, rfl⟩
abbrev main_v207 : Ref sig .tc := ⟨.hbm, 320, rfl⟩
abbrev main_v208 : Ref sig .tc := ⟨.hbm, 321, rfl⟩
abbrev main_v209 : Ref sig .tc := ⟨.hbm, 322, rfl⟩
abbrev main_v210 : Ref sig .tc := ⟨.hbm, 323, rfl⟩
abbrev main_v211 : Ref sig .tc := ⟨.hbm, 324, rfl⟩
abbrev main_v212 : Ref sig .tc := ⟨.hbm, 325, rfl⟩
abbrev main_cst_39 : Ref sig .tc := ⟨.hbm, 326, rfl⟩
abbrev main_v213 : Ref sig .tc := ⟨.hbm, 327, rfl⟩
abbrev main_v214 : Ref sig .tc := ⟨.hbm, 328, rfl⟩
abbrev main_v215 : Ref sig .tc := ⟨.hbm, 329, rfl⟩
abbrev main_v216 : Ref sig .tc := ⟨.hbm, 330, rfl⟩
abbrev main_v217 : Ref sig .tc := ⟨.hbm, 331, rfl⟩
abbrev main_v218 : Ref sig .tc := ⟨.hbm, 332, rfl⟩
abbrev main_v219 : Ref sig .tc := ⟨.hbm, 333, rfl⟩
abbrev main_c_40 : Ref sig .tc := ⟨.hbm, 334, rfl⟩
abbrev main_v220 : Ref sig .tc := ⟨.hbm, 335, rfl⟩
abbrev main_v221 : Ref sig .tc := ⟨.hbm, 336, rfl⟩
abbrev main_c_41 : Ref sig .tc := ⟨.hbm, 337, rfl⟩
abbrev main_v222 : Ref sig .tc := ⟨.hbm, 338, rfl⟩
abbrev main_v223 : Ref sig .tc := ⟨.hbm, 339, rfl⟩
abbrev main_v224 : Ref sig .tc := ⟨.hbm, 340, rfl⟩
abbrev main_v225 : Ref sig .tc := ⟨.hbm, 341, rfl⟩
abbrev main_v226 : Ref sig .tc := ⟨.hbm, 342, rfl⟩
abbrev main_v227 : Ref sig .tc := ⟨.hbm, 343, rfl⟩
abbrev main_v228 : Ref sig .tc := ⟨.hbm, 344, rfl⟩
abbrev main_v229 : Ref sig .tc := ⟨.hbm, 345, rfl⟩
abbrev main_cst_42 : Ref sig .tc := ⟨.hbm, 346, rfl⟩
abbrev main_v230 : Ref sig .tc := ⟨.hbm, 347, rfl⟩
abbrev main_v231 : Ref sig .tc := ⟨.hbm, 348, rfl⟩
abbrev main_v232 : Ref sig .tc := ⟨.hbm, 349, rfl⟩
abbrev main_cst_43 : Ref sig .tc := ⟨.hbm, 350, rfl⟩
abbrev main_v233 : Ref sig .tc := ⟨.hbm, 351, rfl⟩
abbrev main_v234 : Ref sig .tc := ⟨.hbm, 352, rfl⟩
abbrev main_v235 : Ref sig .tc := ⟨.hbm, 353, rfl⟩
abbrev main_v236 : Ref sig .tc := ⟨.hbm, 354, rfl⟩
abbrev main_v237 : Ref sig .tc := ⟨.hbm, 355, rfl⟩
abbrev main_v238 : Ref sig .tc := ⟨.hbm, 356, rfl⟩
abbrev main_v239 : Ref sig .tc := ⟨.hbm, 357, rfl⟩
abbrev main_c_44 : Ref sig .tc := ⟨.hbm, 358, rfl⟩
abbrev main_v240 : Ref sig .tc := ⟨.hbm, 359, rfl⟩
abbrev main_v241 : Ref sig .tc := ⟨.hbm, 360, rfl⟩
abbrev main_c_45 : Ref sig .tc := ⟨.hbm, 361, rfl⟩
abbrev main_v242 : Ref sig .tc := ⟨.hbm, 362, rfl⟩
abbrev main_v243 : Ref sig .tc := ⟨.hbm, 363, rfl⟩
abbrev main_v244 : Ref sig .tc := ⟨.hbm, 364, rfl⟩
abbrev main_v245 : Ref sig .tc := ⟨.hbm, 365, rfl⟩
abbrev main_v246 : Ref sig .tc := ⟨.hbm, 366, rfl⟩
abbrev main_v247 : Ref sig .tc := ⟨.hbm, 367, rfl⟩
abbrev main_v248 : Ref sig .tc := ⟨.hbm, 368, rfl⟩
abbrev main_v249 : Ref sig .tc := ⟨.hbm, 369, rfl⟩
abbrev main_cst_46 : Ref sig .tc := ⟨.hbm, 370, rfl⟩
abbrev main_v250 : Ref sig .tc := ⟨.hbm, 371, rfl⟩
abbrev main_v251 : Ref sig .tc := ⟨.hbm, 372, rfl⟩
abbrev main_v252 : Ref sig .tc := ⟨.hbm, 373, rfl⟩
abbrev main_cst_47 : Ref sig .tc := ⟨.hbm, 374, rfl⟩
abbrev main_v253 : Ref sig .tc := ⟨.hbm, 375, rfl⟩
abbrev main_v254 : Ref sig .tc := ⟨.hbm, 376, rfl⟩
abbrev main_v255 : Ref sig .tc := ⟨.hbm, 377, rfl⟩
abbrev main_v256 : Ref sig .tc := ⟨.hbm, 378, rfl⟩
abbrev main_v257 : Ref sig .tc := ⟨.hbm, 379, rfl⟩
abbrev main_v258 : Ref sig .tc := ⟨.hbm, 380, rfl⟩
abbrev main_v259 : Ref sig .tc := ⟨.hbm, 381, rfl⟩
abbrev main_v260 : Ref sig .tc := ⟨.hbm, 382, rfl⟩
abbrev main_v261 : Ref sig .tc := ⟨.hbm, 383, rfl⟩
abbrev main_v262 : Ref sig .tc := ⟨.hbm, 384, rfl⟩
abbrev main_call5_cst : Ref sig .tc := ⟨.hbm, 385, rfl⟩
abbrev main_call5_v0 : Ref sig .tc := ⟨.hbm, 386, rfl⟩
abbrev main_v263 : Ref sig .tc := ⟨.hbm, 387, rfl⟩
abbrev main_cst_48 : Ref sig .tc := ⟨.hbm, 388, rfl⟩
abbrev main_v264 : Ref sig .tc := ⟨.hbm, 389, rfl⟩
abbrev main_cst_49 : Ref sig .tc := ⟨.hbm, 390, rfl⟩
abbrev main_v265 : Ref sig .tc := ⟨.hbm, 391, rfl⟩
abbrev main_v266 : Ref sig .tc := ⟨.hbm, 392, rfl⟩
abbrev main_c_50 : Ref sig .tc := ⟨.hbm, 393, rfl⟩
abbrev main_call6_cst : Ref sig .tc := ⟨.hbm, 394, rfl⟩
abbrev main_call6_v0 : Ref sig .tc := ⟨.hbm, 395, rfl⟩
abbrev main_call6_v1 : Ref sig .tc := ⟨.hbm, 396, rfl⟩
abbrev main_call6_cst_0 : Ref sig .tc := ⟨.hbm, 397, rfl⟩
abbrev main_call6_v2 : Ref sig .tc := ⟨.hbm, 398, rfl⟩
abbrev main_call6_v3 : Ref sig .tc := ⟨.hbm, 399, rfl⟩
abbrev main_call6_v4 : Ref sig .tc := ⟨.hbm, 400, rfl⟩
abbrev main_call6_v5 : Ref sig .tc := ⟨.hbm, 401, rfl⟩
abbrev main_call6_v6 : Ref sig .tc := ⟨.hbm, 402, rfl⟩
abbrev main_call6_v7 : Ref sig .tc := ⟨.hbm, 403, rfl⟩
abbrev main_call6_cst_1 : Ref sig .tc := ⟨.hbm, 404, rfl⟩
abbrev main_call6_v8 : Ref sig .tc := ⟨.hbm, 405, rfl⟩
abbrev main_call6_cst_2 : Ref sig .tc := ⟨.hbm, 406, rfl⟩
abbrev main_call6_v9 : Ref sig .tc := ⟨.hbm, 407, rfl⟩
abbrev main_call6_v10 : Ref sig .tc := ⟨.hbm, 408, rfl⟩
abbrev main_call6_v11 : Ref sig .tc := ⟨.hbm, 409, rfl⟩
abbrev main_call6_cst_3 : Ref sig .tc := ⟨.hbm, 410, rfl⟩
abbrev main_call6_v12 : Ref sig .tc := ⟨.hbm, 411, rfl⟩
abbrev main_call6_cst_4 : Ref sig .tc := ⟨.hbm, 412, rfl⟩
abbrev main_call6_call0_v0 : Ref sig .tc := ⟨.hbm, 413, rfl⟩
abbrev main_call6_call0_v1 : Ref sig .tc := ⟨.hbm, 414, rfl⟩
abbrev main_v267 : Ref sig .tc := ⟨.hbm, 415, rfl⟩
abbrev main_v268 : Ref sig .tc := ⟨.hbm, 416, rfl⟩
abbrev main_v269 : Ref sig .tc := ⟨.hbm, 417, rfl⟩
abbrev main_v270 : Ref sig .tc := ⟨.hbm, 418, rfl⟩
abbrev main_cst_51 : Ref sig .tc := ⟨.hbm, 419, rfl⟩
abbrev main_v271 : Ref sig .tc := ⟨.hbm, 420, rfl⟩
abbrev main_v272 : Ref sig .tc := ⟨.hbm, 421, rfl⟩
abbrev main_v273 : Ref sig .tc := ⟨.hbm, 422, rfl⟩
abbrev main_v274 : Ref sig .tc := ⟨.hbm, 423, rfl⟩
abbrev main_v275 : Ref sig .tc := ⟨.hbm, 424, rfl⟩
abbrev main_v276 : Ref sig .tc := ⟨.hbm, 425, rfl⟩
abbrev main_v277 : Ref sig .tc := ⟨.hbm, 426, rfl⟩
abbrev main_v278 : Ref sig .tc := ⟨.hbm, 427, rfl⟩
abbrev main_v279 : Ref sig .tc := ⟨.hbm, 428, rfl⟩
abbrev main_v280 : Ref sig .tc := ⟨.hbm, 429, rfl⟩
abbrev main_v281 : Ref sig .tc := ⟨.hbm, 430, rfl⟩
abbrev main_v282 : Ref sig .tc := ⟨.hbm, 431, rfl⟩
abbrev main_v283 : Ref sig .tc := ⟨.hbm, 432, rfl⟩
abbrev main_v284 : Ref sig .tc := ⟨.hbm, 433, rfl⟩
abbrev main_v285 : Ref sig .tc := ⟨.hbm, 434, rfl⟩
abbrev main_c_52 : Ref sig .tc := ⟨.hbm, 435, rfl⟩
abbrev main_v286 : Ref sig .tc := ⟨.hbm, 436, rfl⟩
abbrev main_v287 : Ref sig .tc := ⟨.hbm, 437, rfl⟩
abbrev main_c_53 : Ref sig .tc := ⟨.hbm, 438, rfl⟩
abbrev main_v288 : Ref sig .tc := ⟨.hbm, 439, rfl⟩
abbrev main_v289 : Ref sig .tc := ⟨.hbm, 440, rfl⟩
abbrev main_v290 : Ref sig .tc := ⟨.hbm, 441, rfl⟩
abbrev main_v291 : Ref sig .tc := ⟨.hbm, 442, rfl⟩
abbrev main_v292 : Ref sig .tc := ⟨.hbm, 443, rfl⟩
abbrev main_v293 : Ref sig .tc := ⟨.hbm, 444, rfl⟩
abbrev main_v294 : Ref sig .tc := ⟨.hbm, 445, rfl⟩
abbrev main_v295 : Ref sig .tc := ⟨.hbm, 446, rfl⟩
abbrev main_cst_54 : Ref sig .tc := ⟨.hbm, 447, rfl⟩
abbrev main_v296 : Ref sig .tc := ⟨.hbm, 448, rfl⟩
abbrev main_v297 : Ref sig .tc := ⟨.hbm, 449, rfl⟩
abbrev main_v298 : Ref sig .tc := ⟨.hbm, 450, rfl⟩
abbrev main_v299 : Ref sig .tc := ⟨.hbm, 451, rfl⟩
abbrev main_v300 : Ref sig .tc := ⟨.hbm, 452, rfl⟩
abbrev main_v301 : Ref sig .tc := ⟨.hbm, 453, rfl⟩
abbrev main_v302 : Ref sig .tc := ⟨.hbm, 454, rfl⟩
abbrev main_c_55 : Ref sig .tc := ⟨.hbm, 455, rfl⟩
abbrev main_v303 : Ref sig .tc := ⟨.hbm, 456, rfl⟩
abbrev main_v304 : Ref sig .tc := ⟨.hbm, 457, rfl⟩
abbrev main_c_56 : Ref sig .tc := ⟨.hbm, 458, rfl⟩
abbrev main_v305 : Ref sig .tc := ⟨.hbm, 459, rfl⟩
abbrev main_v306 : Ref sig .tc := ⟨.hbm, 460, rfl⟩
abbrev main_v307 : Ref sig .tc := ⟨.hbm, 461, rfl⟩
abbrev main_v308 : Ref sig .tc := ⟨.hbm, 462, rfl⟩
abbrev main_v309 : Ref sig .tc := ⟨.hbm, 463, rfl⟩
abbrev main_v310 : Ref sig .tc := ⟨.hbm, 464, rfl⟩
abbrev main_v311 : Ref sig .tc := ⟨.hbm, 465, rfl⟩
abbrev main_v312 : Ref sig .tc := ⟨.hbm, 466, rfl⟩
abbrev main_cst_57 : Ref sig .tc := ⟨.hbm, 467, rfl⟩
abbrev main_v313 : Ref sig .tc := ⟨.hbm, 468, rfl⟩
abbrev main_v314 : Ref sig .tc := ⟨.hbm, 469, rfl⟩
abbrev main_v315 : Ref sig .tc := ⟨.hbm, 470, rfl⟩
abbrev main_cst_58 : Ref sig .tc := ⟨.hbm, 471, rfl⟩
abbrev main_v316 : Ref sig .tc := ⟨.hbm, 472, rfl⟩
abbrev main_v317 : Ref sig .tc := ⟨.hbm, 473, rfl⟩
abbrev main_v318 : Ref sig .tc := ⟨.hbm, 474, rfl⟩
abbrev main_v319 : Ref sig .tc := ⟨.hbm, 475, rfl⟩
abbrev main_v320 : Ref sig .tc := ⟨.hbm, 476, rfl⟩
abbrev main_v321 : Ref sig .tc := ⟨.hbm, 477, rfl⟩
abbrev main_v322 : Ref sig .tc := ⟨.hbm, 478, rfl⟩
abbrev main_c_59 : Ref sig .tc := ⟨.hbm, 479, rfl⟩
abbrev main_v323 : Ref sig .tc := ⟨.hbm, 480, rfl⟩
abbrev main_v324 : Ref sig .tc := ⟨.hbm, 481, rfl⟩
abbrev main_c_60 : Ref sig .tc := ⟨.hbm, 482, rfl⟩
abbrev main_v325 : Ref sig .tc := ⟨.hbm, 483, rfl⟩
abbrev main_v326 : Ref sig .tc := ⟨.hbm, 484, rfl⟩
abbrev main_v327 : Ref sig .tc := ⟨.hbm, 485, rfl⟩
abbrev main_v328 : Ref sig .tc := ⟨.hbm, 486, rfl⟩
abbrev main_v329 : Ref sig .tc := ⟨.hbm, 487, rfl⟩
abbrev main_v330 : Ref sig .tc := ⟨.hbm, 488, rfl⟩
abbrev main_v331 : Ref sig .tc := ⟨.hbm, 489, rfl⟩
abbrev main_v332 : Ref sig .tc := ⟨.hbm, 490, rfl⟩
abbrev main_cst_61 : Ref sig .tc := ⟨.hbm, 491, rfl⟩
abbrev main_v333 : Ref sig .tc := ⟨.hbm, 492, rfl⟩
abbrev main_v334 : Ref sig .tc := ⟨.hbm, 493, rfl⟩
abbrev main_v335 : Ref sig .tc := ⟨.hbm, 494, rfl⟩
abbrev main_cst_62 : Ref sig .tc := ⟨.hbm, 495, rfl⟩
abbrev main_v336 : Ref sig .tc := ⟨.hbm, 496, rfl⟩
abbrev main_v337 : Ref sig .tc := ⟨.hbm, 497, rfl⟩
abbrev main_v338 : Ref sig .tc := ⟨.hbm, 498, rfl⟩
abbrev main_v339 : Ref sig .tc := ⟨.hbm, 499, rfl⟩
abbrev main_v340 : Ref sig .tc := ⟨.hbm, 500, rfl⟩
abbrev main_v341 : Ref sig .tc := ⟨.hbm, 501, rfl⟩
abbrev main_v342 : Ref sig .tc := ⟨.hbm, 502, rfl⟩
abbrev main_v343 : Ref sig .tc := ⟨.hbm, 503, rfl⟩
abbrev main_v344 : Ref sig .tc := ⟨.hbm, 504, rfl⟩
abbrev main_v345 : Ref sig .tc := ⟨.hbm, 505, rfl⟩
abbrev main_v346 : Ref sig .tc := ⟨.hbm, 506, rfl⟩
abbrev main_cst_63 : Ref sig .tc := ⟨.hbm, 507, rfl⟩
abbrev main_v347 : Ref sig .tc := ⟨.hbm, 508, rfl⟩
abbrev main_v348 : Ref sig .tc := ⟨.hbm, 509, rfl⟩
abbrev main_v349 : Ref sig .tc := ⟨.hbm, 510, rfl⟩
abbrev main_cst_64 : Ref sig .tc := ⟨.hbm, 511, rfl⟩
abbrev main_v350 : Ref sig .tc := ⟨.hbm, 512, rfl⟩
abbrev main_v351 : Ref sig .tc := ⟨.hbm, 513, rfl⟩
abbrev main_v352 : Ref sig .tc := ⟨.hbm, 514, rfl⟩
abbrev main_v353 : Ref sig .tc := ⟨.hbm, 515, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  slices_S4x3x128_S1x3x128_0_0_0 : S4x3x128.Slices ![0, 0, 0] S1x3x128
  shapeCasts_S1x3x128_S3x128 : S1x3x128.ShapeCasts S3x128
  bcast_S800000x1_S800000x3_0_1 : S800000x1.BroadcastsInDim S800000x3 (![0, 1] : Fin 2 → Fin S800000x3.rank)
  bcast_S_S50000x3 : S_.BroadcastsInDim S50000x3 (![] : Fin 0 → Fin S50000x3.rank)
  slices_S4x3x128_S1x3x128_1_0_0 : S4x3x128.Slices ![1, 0, 0] S1x3x128
  slices_S4x3x128_S1x3x128_2_0_0 : S4x3x128.Slices ![2, 0, 0] S1x3x128
  slices_S4x3x128_S1x3x128_3_0_0 : S4x3x128.Slices ![3, 0, 0] S1x3x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S50000x128 : S_.BroadcastsInDim S50000x128 (![] : Fin 0 → Fin S50000x128.rank)
  reducesTo_S50000x128_S128_d0 : S50000x128.ReducesTo [0] S128
  h_S_ : 0 < S_.numel
  bcast_S_S128 : S_.BroadcastsInDim S128 (![] : Fin 0 → Fin S128.rank)
  bcast_S_S1x128 : S_.BroadcastsInDim S1x128 (![] : Fin 0 → Fin S1x128.rank)
  slices_S4x128x128_S1x128x128_0_0_0 : S4x128x128.Slices ![0, 0, 0] S1x128x128
  shapeCasts_S1x128x128_S128x128 : S1x128x128.ShapeCasts S128x128
  bcast_S800000x1_S800000x128_0_1 : S800000x1.BroadcastsInDim S800000x128 (![0, 1] : Fin 2 → Fin S800000x128.rank)
  slices_S4x128x128_S1x128x128_1_0_0 : S4x128x128.Slices ![1, 0, 0] S1x128x128
  slices_S4x128x128_S1x128x128_2_0_0 : S4x128x128.Slices ![2, 0, 0] S1x128x128
  slices_S4x128x128_S1x128x128_3_0_0 : S4x128x128.Slices ![3, 0, 0] S1x128x128
  reducesTo_S50000x128_S50000_d1 : S50000x128.ReducesTo [1] S50000
  bcast_S50000_S50000x1_0 : S50000.BroadcastsInDim S50000x1 (![0] : Fin 1 → Fin S50000x1.rank)
  bcast_S_S50000x1 : S_.BroadcastsInDim S50000x1 (![] : Fin 0 → Fin S50000x1.rank)
  bcast_S50000x1_S50000x128_0_1 : S50000x1.BroadcastsInDim S50000x128 (![0, 1] : Fin 2 → Fin S50000x128.rank)
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  dot_S50000x3_S3x128_S50000x128_1_0_0_1_n_n_wf : DotDims.WF S50000x3 S3x128 S50000x128 [1] [0] [0] [1] [] []
  gather_S50000x3_S800000x1_S800000x3_1_0_n_n_0_1_13_wf : GatherDims.WF S50000x3 S800000x1 S800000x3 [1] [0] [] [0] [] 1 ![1, 3]
  scatter_S50000x3_S800000x1_S800000x3_1_0_0_1_wf : ScatterDims.WF S50000x3 S800000x1 S800000x3 [1] [0] [0] 1
  dot_S50000x128_S128x128_S50000x128_1_0_0_1_n_n_wf : DotDims.WF S50000x128 S128x128 S50000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def dot_S50000x3_S3x128_S50000x128_1_0_0_1_n_n : DotDims S50000x3 S3x128 S50000x128 where
  lhsContracting := [1]
  rhsContracting := [0]
  lhsNonContracting := [0]
  rhsNonContracting := [1]
  lhsBatch := []
  rhsBatch := []
  wf := dot_S50000x3_S3x128_S50000x128_1_0_0_1_n_n_wf
def gather_S50000x3_S800000x1_S800000x3_1_0_n_n_0_1_13 : GatherDims S50000x3 S800000x1 S800000x3 where
  offsetDims := [1]
  collapsedSliceDims := [0]
  operandBatchingDims := []
  startIndicesBatchingDims := []
  startIndexMap := [0]
  indexVectorDim := 1
  sliceSizes := ![1, 3]
  wf := gather_S50000x3_S800000x1_S800000x3_1_0_n_n_0_1_13_wf
def scatter_S50000x3_S800000x1_S800000x3_1_0_0_1 : ScatterDims S50000x3 S800000x1 S800000x3 where
  updateWindowDims := [1]
  insertedWindowDims := [0]
  scatterDimsToOperandDims := [0]
  indexVectorDim := 1
  wf := scatter_S50000x3_S800000x1_S800000x3_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf

class Facts : Prop extends Facts₀ where

variable [Facts]
-- ==== Proof.KRun.lean ====
/-
  The kernel program's run with its final buffer contents named. The generated frame proves that the seven regions
  and the stretches of host operations between them run to a state where every unscoped buffer of a core holds the
  last boundary's contents (the fold of the host stretches and of each region's write-backs from the launch memory),
  and then keeps only the argument arrays of that reading. Here the same run is read at EVERY unscoped buffer, so
  that the result array can be followed through the fold.
-/
import proofs.«175070_j35072702939553_2_alg».proof.Proof.Gen.KernelIdeal.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- From any memory with zero counters every weakly fair execution of the kernel program terminates without a fault,
    and in the final state every unscoped buffer of every core holds the last boundary's contents: the fold, from the
    launch memory, of each stretch of host operations and of each region's write-backs. -/
theorem run_valued : θ_run defs (onTc (τ := τ) (main (F := F))) ⟨m, fun _ => 0, ρ⟩ (fun r => ∀ c : Dev nD,
      ∀ b ∈ Pipeline.ucRefs τ sig, r.2.mem (((c : Thread nD τ)).1, b) = W22 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W22 m ρ c b)
    (hfin := fun c s' => by
      iintro ⟨⟨Hh, -⟩, HSI⟩
      unfold StableHlo.held
      imodintro
      iapply (pointsTo_read_all (Pipeline.ucRefs τ sig) (fun b => (((c : Thread nD τ)).1, b)) (W22 m ρ c) s')
      isplitl [Hh] <;> iassumption)
    (hQ := fun s h c => h c)

end Cert.KernelIdeal.Hand

end
-- ==== Proof.RefBase.lean ====
/- Helper facts for reading a long straight line of StableHLO operations chunk by chunk: the fold of the
   operations' results over a concatenation, a predicate over a concatenation, and "this operation writes exactly
   one buffer, whose reference has index at least 16" (so it writes none of the sixteen argument buffers, which are
   the references of index 0 … 15). -/
import proofs.«175070_j35072702939553_2_alg».proof.Proof.Gen.ReferenceIdeal
import Idealize.ShloMosaic.Lib.StableHlo.Run

noncomputable section

namespace Cert.ReferenceIdeal.Hand

open Idealize.ShloMosaic Idealize.ShloMosaic.TcCoe Idealize.SL.Sem

variable {τ : Topo} {sig : RefSig} {Val : EltTy → Type}

/-- The contents after two lines run one after the other: the second line's fold over the first's. -/
theorem after_append (l₁ l₂ : List (HloOp τ sig Val)) (V : Valuation τ sig Val) :
    StableHlo.after (l₁ ++ l₂) V = StableHlo.after l₂ (StableHlo.after l₁ V) := by
  induction l₁ generalizing V with
  | nil => rfl
  | cons op l ih => simp only [List.cons_append, StableHlo.after_cons, ih]

/-- A predicate holding of every element of two lists holds of every element of their concatenation. -/
theorem forall_append {α : Type} {p : α → Prop} {l₁ l₂ : List α} (h₁ : l₁.Forall p) (h₂ : l₂.Forall p) :
    (l₁ ++ l₂).Forall p :=
  List.forall_iff_forall_mem.mpr fun x hx =>
    (List.mem_append.mp hx).elim (List.forall_iff_forall_mem.mp h₁ x) (List.forall_iff_forall_mem.mp h₂ x)

/-- The operation writes exactly one buffer, a TensorCore reference of index at least 16. -/
def WritesHigh (op : HloOp τ sig Val) : Prop :=
  ∃ y : Ref sig .tc, op.writes = {Proc.devRef (τ := τ) .tc y} ∧ 16 ≤ y.idx.val

/-- A reference of index below 16 is not written by such an operation. -/
theorem WritesHigh.not_mem {op : HloOp τ sig Val} (h : WritesHigh op) {r : Ref sig .tc} (hr : r.idx.val < 16) :
    Proc.devRef (τ := τ) .tc r ∉ op.writes := by
  obtain ⟨y, hw, hy⟩ := h
  rw [hw, Finset.mem_singleton]
  intro e
  have := Proc.devRef_injective _ e
  subst this
  omega

/-- A line of such operations leaves every reference of index below 16 at its contents. -/
theorem after_low (ops : List (HloOp τ sig Val)) (h : ops.Forall WritesHigh) (V : Valuation τ sig Val)
    {r : Ref sig .tc} (hr : r.idx.val < 16) :
    StableHlo.after ops V (Proc.devRef (τ := τ) .tc r) = V (Proc.devRef .tc r) :=
  StableHlo.after_of_forall_not_mem ops V fun op hop => (List.forall_iff_forall_mem.mp h op hop).not_mem hr

end Cert.ReferenceIdeal.Hand

end
-- ==== Proof.RefOps0.lean ====
/- The reference program's operations in program order, each call's body written out at its call site over that call's buffers: opsC0, opsC1a, opsC1b. Each list is a transcription of the printed program; that it is the program is what main_eq proves. -/
import proofs.«175070_j35072702939553_2_alg».proof.Proof.RefBase

set_option maxRecDepth 8192

noncomputable section

namespace Cert.ReferenceIdeal.Hand

open Cert.ReferenceIdeal Cert.ReferenceIdeal.Gen Idealize.ShloMosaic Idealize.ShloMosaic.TcCoe Idealize.SL.Sem

variable {F : FTy → Type} [FloatOps F]

set_option maxHeartbeats 40000000 in
/-- Operations main_v0 … main_v33 of the reference program (45), in order. -/
abbrev opsC0 : List (HloOp τ sig (Elt F)) :=
  ( StableHlo.unary main_arg1 main_v0 ((extractStridedSlice S1x800000 ![0, 0] · slices_S2x800000_S1x800000_0_0) : (⟨S2x800000, .i32⟩ : BufTy).Contents (Elt F) → (⟨S1x800000, .i32⟩ : BufTy).Contents (Elt F))
  :: StableHlo.reshape main_v0 main_v1 rfl shapeCasts_S1x800000_S800000
  :: StableHlo.unary main_arg1 main_v2 ((extractStridedSlice S1x800000 ![1, 0] · slices_S2x800000_S1x800000_1_0) : (⟨S2x800000, .i32⟩ : BufTy).Contents (Elt F) → (⟨S1x800000, .i32⟩ : BufTy).Contents (Elt F))
  :: StableHlo.reshape main_v2 main_v3 rfl shapeCasts_S1x800000_S800000
  :: StableHlo.unary main_arg1 main_v4 ((extractStridedSlice S1x800000 ![0, 0] · slices_S2x800000_S1x800000_0_0) : (⟨S2x800000, .i32⟩ : BufTy).Contents (Elt F) → (⟨S1x800000, .i32⟩ : BufTy).Contents (Elt F))
  :: StableHlo.reshape main_v4 main_v5 rfl shapeCasts_S1x800000_S800000
  :: StableHlo.unary main_arg1 main_v6 ((extractStridedSlice S1x800000 ![1, 0] · slices_S2x800000_S1x800000_1_0) : (⟨S2x800000, .i32⟩ : BufTy).Contents (Elt F) → (⟨S1x800000, .i32⟩ : BufTy).Contents (Elt F))
  :: StableHlo.reshape main_v6 main_v7 rfl shapeCasts_S1x800000_S800000
  :: StableHlo.nullary main_cst (constant S_ .f32 0x3F800000#32)
  :: StableHlo.unary main_cst main_v8 (broadcastInDim S800000 ![] bcast_S_S800000 : (⟨S_, .f32⟩ : BufTy).Contents (Elt F) → (⟨S800000, .f32⟩ : BufTy).Contents (Elt F))
  :: StableHlo.nullary main_cst_0 (constant S_ .f32 0x00000000#32)
  :: StableHlo.unary main_cst_0 main_v9 (broadcastInDim S50000 ![] bcast_S_S50000 : (⟨S_, .f32⟩ : BufTy).Contents (Elt F) → (⟨S50000, .f32⟩ : BufTy).Contents (Elt F))
  :: StableHlo.unary main_v5 main_v10 (broadcastInDim S800000x1 ![0] bcast_S800000_S800000x1_0 : (⟨S800000, .i32⟩ : BufTy).Contents (Elt F) → (⟨S800000x1, .i32⟩ : BufTy).Contents (Elt F))
  :: StableHlo.ternary main_v9 main_v10 main_v8 main_v11 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F))
  :: StableHlo.nullary main_cst_1 (constant S_ .f32 0x00000000#32)
  :: StableHlo.unary main_cst_1 main_v12 (broadcastInDim S50000 ![] bcast_S_S50000 : (⟨S_, .f32⟩ : BufTy).Contents (Elt F) → (⟨S50000, .f32⟩ : BufTy).Contents (Elt F))
  :: StableHlo.binary main_v11 main_v12 main_v13 (cmpf .ogt : (⟨S50000, .f32⟩ : BufTy).Contents (Elt F) → (⟨S50000, .f32⟩ : BufTy).Contents (Elt F) → (⟨S50000, .i1⟩ : BufTy).Contents (Elt F))
  :: StableHlo.nullary main_cst_2 (constant S_ .f32 0x3F800000#32)
  :: StableHlo.unary main_cst_2 main_v14 (broadcastInDim S50000 ![] bcast_S_S50000 : (⟨S_, .f32⟩ : BufTy).Contents (Elt F) → (⟨S50000, .f32⟩ : BufTy).Contents (Elt F))
  :: StableHlo.binary main_v11 main_v14 main_v15 (maximumf : (⟨S50000, .f32⟩ : BufTy).Contents (Elt F) → (⟨S50000, .f32⟩ : BufTy).Contents (Elt F) → (⟨S50000, .f32⟩ : BufTy).Contents (Elt F))
  :: StableHlo.unary main_v15 main_v16 (Host.rsqrt : (⟨S50000, .f32⟩ : BufTy).Contents (Elt F) → (⟨S50000, .f32⟩ : BufTy).Contents (Elt F))
  :: StableHlo.nullary main_cst_3 (constant S_ .f32 0x00000000#32)
  :: StableHlo.TRef.unary (.of main_cst_3 : StableHlo.TRef sig ⟨S_, .f32⟩) (.of main_call0_v0 : StableHlo.TRef sig ⟨S_, .f32⟩) id
  :: StableHlo.TRef.unary (.of main_call0_v0 : StableHlo.TRef sig ⟨S_, .f32⟩) (.of main_call0_v1 : StableHlo.TRef sig ⟨S50000, .f32⟩) (broadcastInDim S50000 ![] bcast_S_S50000)
  :: StableHlo.TRef.ternary (.of main_v13 : StableHlo.TRef sig ⟨S50000, .i1⟩) (.of main_v16 : StableHlo.TRef sig ⟨S50000, .f32⟩) (.of main_call0_v1 : StableHlo.TRef sig ⟨S50000, .f32⟩) (.of main_v17 : StableHlo.TRef sig ⟨S50000, .f32⟩) select
  :: StableHlo.nullary main_c (constantI S_ 32 0#32)
  :: StableHlo.unary main_c main_v18 (broadcastInDim S800000 ![] bcast_S_S800000 : (⟨S_, .i32⟩ : BufTy).Contents (Elt F) → (⟨S800000, .i32⟩ : BufTy).Contents (Elt F))
  :: StableHlo.binary main_v5 main_v18 main_v19 (cmpi .slt : (⟨S800000, .i32⟩ : BufTy).Contents (Elt F) → (⟨S800000, .i32⟩ : BufTy).Contents (Elt F) → (⟨S800000, .i1⟩ : BufTy).Contents (Elt F))
  :: StableHlo.nullary main_c_4 (constantI S_ 32 50000#32)
  :: StableHlo.unary main_c_4 main_v20 (broadcastInDim S800000 ![] bcast_S_S800000 : (⟨S_, .i32⟩ : BufTy).Contents (Elt F) → (⟨S800000, .i32⟩ : BufTy).Contents (Elt F))
  :: StableHlo.binary main_v5 main_v20 main_v21 (addi : (⟨S800000, .i32⟩ : BufTy).Contents (Elt F) → (⟨S800000, .i32⟩ : BufTy).Contents (Elt F) → (⟨S800000, .i32⟩ : BufTy).Contents (Elt F))
  :: StableHlo.ternary main_v19 main_v21 main_v5 main_v22 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F))
  :: StableHlo.unary main_v22 main_v23 (broadcastInDim S800000x1 ![0] bcast_S800000_S800000x1_0 : (⟨S800000, .i32⟩ : BufTy).Contents (Elt F) → (⟨S800000x1, .i32⟩ : BufTy).Contents (Elt F))
  :: StableHlo.binary main_v17 main_v23 main_v24 ((fun x i => Host.gather gather_S50000_S800000x1_S800000_n_0_n_n_0_1_1 x i) : (⟨S50000, .f32⟩ : BufTy).Contents (Elt F) → (⟨S800000x1, .i32⟩ : BufTy).Contents (Elt F) → (⟨S800000, .f32⟩ : BufTy).Contents (Elt F))
  :: StableHlo.unary main_v24 main_v25 (Host.negf : (⟨S800000, .f32⟩ : BufTy).Contents (Elt F) → (⟨S800000, .f32⟩ : BufTy).Contents (Elt F))
  :: StableHlo.nullary main_c_5 (constantI S_ 32 0#32)
  :: StableHlo.unary main_c_5 main_v26 (broadcastInDim S800000 ![] bcast_S_S800000 : (⟨S_, .i32⟩ : BufTy).Contents (Elt F) → (⟨S800000, .i32⟩ : BufTy).Contents (Elt F))
  :: StableHlo.binary main_v7 main_v26 main_v27 (cmpi .slt : (⟨S800000, .i32⟩ : BufTy).Contents (Elt F) → (⟨S800000, .i32⟩ : BufTy).Contents (Elt F) → (⟨S800000, .i1⟩ : BufTy).Contents (Elt F))
  :: StableHlo.nullary main_c_6 (constantI S_ 32 50000#32)
  :: StableHlo.unary main_c_6 main_v28 (broadcastInDim S800000 ![] bcast_S_S800000 : (⟨S_, .i32⟩ : BufTy).Contents (Elt F) → (⟨S800000, .i32⟩ : BufTy).Contents (Elt F))
  :: StableHlo.binary main_v7 main_v28 main_v29 (addi : (⟨S800000, .i32⟩ : BufTy).Contents (Elt F) → (⟨S800000, .i32⟩ : BufTy).Contents (Elt F) → (⟨S800000, .i32⟩ : BufTy).Contents (Elt F))
  :: StableHlo.ternary main_v27 main_v29 main_v7 main_v30 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F))
  :: StableHlo.unary main_v30 main_v31 (broadcastInDim S800000x1 ![0] bcast_S800000_S800000x1_0 : (⟨S800000, .i32⟩ : BufTy).Contents (Elt F) → (⟨S800000x1, .i32⟩ : BufTy).Contents (Elt F))
  :: StableHlo.binary main_v17 main_v31 main_v32 ((fun x i => Host.gather gather_S50000_S800000x1_S800000_n_0_n_n_0_1_1 x i) : (⟨S50000, .f32⟩ : BufTy).Contents (Elt F) → (⟨S800000x1, .i32⟩ : BufTy).Contents (Elt F) → (⟨S800000, .f32⟩ : BufTy).Contents (Elt F))
  :: StableHlo.binary main_v25 main_v32 main_v33 (mulf : (⟨S800000, .f32⟩ : BufTy).Contents (Elt F) → (⟨S800000, .f32⟩ : BufTy).Contents (Elt F) → (⟨S800000, .f32⟩ : BufTy).Contents (Elt F))
  :: [] )

/-- Each operation of opsC0 touches TensorCore references only. -/
theorem opsC0_sub : (opsC0 : List (HloOp τ sig (Elt F))).Forall fun op => op.bufs ⊆ StableHlo.tcRefs τ sig :=
  ⟨StableHlo.unary_bufs_sub .., StableHlo.reshape_bufs_sub .., StableHlo.unary_bufs_sub .., StableHlo.reshape_bufs_sub .., StableHlo.unary_bufs_sub .., StableHlo.reshape_bufs_sub ..,
    StableHlo.unary_bufs_sub .., StableHlo.reshape_bufs_sub .., StableHlo.nullary_bufs_sub .., StableHlo.unary_bufs_sub .., StableHlo.nullary_bufs_sub .., StableHlo.unary_bufs_sub ..,
    StableHlo.unary_bufs_sub .., StableHlo.ternary_bufs_sub .., StableHlo.nullary_bufs_sub .., StableHlo.unary_bufs_sub .., StableHlo.binary_bufs_sub .., StableHlo.nullary_bufs_sub ..,
    StableHlo.unary_bufs_sub .., StableHlo.binary_bufs_sub .., StableHlo.unary_bufs_sub .., StableHlo.nullary_bufs_sub .., StableHlo.unary_bufs_sub .., StableHlo.unary_bufs_sub ..,
    StableHlo.ternary_bufs_sub .., StableHlo.nullary_bufs_sub .., StableHlo.unary_bufs_sub .., StableHlo.binary_bufs_sub .., StableHlo.nullary_bufs_sub .., StableHlo.unary_bufs_sub ..,
    StableHlo.binary_bufs_sub .., StableHlo.ternary_bufs_sub .., StableHlo.unary_bufs_sub .., StableHlo.binary_bufs_sub .., StableHlo.unary_bufs_sub .., StableHlo.nullary_bufs_sub ..,
    StableHlo.unary_bufs_sub .., StableHlo.binary_bufs_sub .., StableHlo.nullary_bufs_sub .., StableHlo.unary_bufs_sub .., StableHlo.binary_bufs_sub .., StableHlo.ternary_bufs_sub ..,
    StableHlo.unary_bufs_sub .., StableHlo.binary_bufs_sub .., StableHlo.binary_bufs_sub ..⟩
/-- No operation of opsC0 allocates a buffer. -/
theorem opsC0_fresh : (opsC0 : List (HloOp τ sig (Elt F))).Forall fun op => op.fresh = ∅ := by
  simp only [List.Forall]; repeat' constructor
/-- Each operation of opsC0 writes one buffer, and it is none of the sixteen arguments' (those are the references of index below 16). -/
theorem opsC0_high : (opsC0 : List (HloOp τ sig (Elt F))).Forall WritesHigh :=
  ⟨⟨main_v0, rfl, by decide⟩, ⟨main_v1, rfl, by decide⟩, ⟨main_v2, rfl, by decide⟩, ⟨main_v3, rfl, by decide⟩, ⟨main_v4, rfl, by decide⟩, ⟨main_v5, rfl, by decide⟩,
    ⟨main_v6, rfl, by decide⟩, ⟨main_v7, rfl, by decide⟩, ⟨main_cst, rfl, by decide⟩, ⟨main_v8, rfl, by decide⟩, ⟨main_cst_0, rfl, by decide⟩, ⟨main_v9, rfl, by decide⟩,
    ⟨main_v10, rfl, by decide⟩, ⟨main_v11, rfl, by decide⟩, ⟨main_cst_1, rfl, by decide⟩, ⟨main_v12, rfl, by decide⟩, ⟨main_v13, rfl, by decide⟩, ⟨main_cst_2, rfl, by decide⟩,
    ⟨main_v14, rfl, by decide⟩, ⟨main_v15, rfl, by decide⟩, ⟨main_v16, rfl, by decide⟩, ⟨main_cst_3, rfl, by decide⟩, ⟨main_call0_v0, rfl, by decide⟩, ⟨main_call0_v1, rfl, by decide⟩,
    ⟨main_v17, rfl, by decide⟩, ⟨main_c, rfl, by decide⟩, ⟨main_v18, rfl, by decide⟩, ⟨main_v19, rfl, by decide⟩, ⟨main_c_4, rfl, by decide⟩, ⟨main_v20, rfl, by decide⟩,
    ⟨main_v21, rfl, by decide⟩, ⟨main_v22, rfl, by decide⟩, ⟨main_v23, rfl, by decide⟩, ⟨main_v24, rfl, by decide⟩, ⟨main_v25, rfl, by decide⟩, ⟨main_c_5, rfl, by decide⟩,
    ⟨main_v26, rfl, by decide⟩, ⟨main_v27, rfl, by decide⟩, ⟨main_c_6, rfl, by decide⟩, ⟨main_v28, rfl, by decide⟩, ⟨main_v29, rfl, by decide⟩, ⟨main_v30, rfl, by decide⟩,
    ⟨main_v31, rfl, by decide⟩, ⟨main_v32, rfl, by decide⟩, ⟨main_v33, rfl, by decide⟩⟩

set_option maxHeartbeats 40000000 in
/-- Operations main_v34 … main_v97 of the reference program (81), in order. -/
abbrev opsC1a : List (HloOp τ sig (Elt F)) :=
  ( StableHlo.unary main_arg2 main_v34 ((extractStridedSlice S1x3x128 ![0, 0, 0] · slices_S4x3x128_S1x3x128_0_0_0) : (⟨S4x3x128, .f32⟩ : BufTy).Contents (Elt F) → (⟨S1x3x128, .f32⟩ : BufTy).Contents (Elt F))
  :: StableHlo.reshape main_v34 main_v35 rfl shapeCasts_S1x3x128_S3x128
  :: StableHlo.binary main_arg0 main_v35 main_v36 ((fun l r => Host.dotGeneral dot_S50000x3_S3x128_S50000x128_1_0_0_1_n_n none l r) : (⟨S50000x3, .f32⟩ : BufTy).Contents (Elt F) → (⟨S3x128, .f32⟩ : BufTy).Contents (Elt F) → (⟨S50000x128, .f32⟩ : BufTy).Contents (Elt F))
  :: StableHlo.nullary main_c_7 (constantI S_ 32 0#32)
  :: StableHlo.unary main_c_7 main_v37 (broadcastInDim S800000 ![] bcast_S_S800000 : (⟨S_, .i32⟩ : BufTy).Contents (Elt F) → (⟨S800000, .i32⟩ : BufTy).Contents (Elt F))
  :: StableHlo.binary main_v1 main_v37 main_v38 (cmpi .slt : (⟨S800000, .i32⟩ : BufTy).Contents (Elt F) → (⟨S800000, .i32⟩ : BufTy).Contents (Elt F) → (⟨S800000, .i1⟩ : BufTy).Contents (Elt F))
  :: StableHlo.nullary main_c_8 (constantI S_ 32 50000#32)
  :: StableHlo.unary main_c_8 main_v39 (broadcastInDim S800000 ![] bcast_S_S800000 : (⟨S_, .i32⟩ : BufTy).Contents (Elt F) → (⟨S800000, .i32⟩ : BufTy).Contents (Elt F))
  :: StableHlo.binary main_v1 main_v39 main_v40 (addi : (⟨S800000, .i32⟩ : BufTy).Contents (Elt F) → (⟨S800000, .i32⟩ : BufTy).Contents (Elt F) → (⟨S800000, .i32⟩ : BufTy).Contents (Elt F))
  :: StableHlo.ternary main_v38 main_v40 main_v1 main_v41 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F))
  :: StableHlo.unary main_v41 main_v42 (broadcastInDim S800000x1 ![0] bcast_S800000_S800000x1_0 : (⟨S800000, .i32⟩ : BufTy).Contents (Elt F) → (⟨S800000x1, .i32⟩ : BufTy).Contents (Elt F))
  :: StableHlo.binary main_arg0 main_v42 main_v43 ((fun x i => Host.gather gather_S50000x3_S800000x1_S800000x3_1_0_n_n_0_1_13 x i) : (⟨S50000x3, .f32⟩ : BufTy).Contents (Elt F) → (⟨S800000x1, .i32⟩ : BufTy).Contents (Elt F) → (⟨S800000x3, .f32⟩ : BufTy).Contents (Elt F))
  :: StableHlo.unary main_v33 main_v44 (broadcastInDim S800000x1 ![0] bcast_S800000_S800000x1_0 : (⟨S800000, .f32⟩ : BufTy).Contents (Elt F) → (⟨S800000x1, .f32⟩ : BufTy).Contents (Elt F))
  :: StableHlo.unary main_v44 main_v45 (broadcastInDim S800000x3 ![0, 1] bcast_S800000x1_S800000x3_0_1 : (⟨S800000x1, .f32⟩ : BufTy).Contents (Elt F) → (⟨S800000x3, .f32⟩ : BufTy).Contents (Elt F))
  :: StableHlo.binary main_v43 main_v45 main_v46 (mulf : (⟨S800000x3, .f32⟩ : BufTy).Contents (Elt F) → (⟨S800000x3, .f32⟩ : BufTy).Contents (Elt F) → (⟨S800000x3, .f32⟩ : BufTy).Contents (Elt F))
  :: StableHlo.nullary main_cst_9 (constant S_ .f32 0x00000000#32)
  :: StableHlo.unary main_cst_9 main_v47 (broadcastInDim S50000x3 ![] bcast_S_S50000x3 : (⟨S_, .f32⟩ : BufTy).Contents (Elt F) → (⟨S50000x3, .f32⟩ : BufTy).Contents (Elt F))
  :: StableHlo.unary main_v3 main_v48 (broadcastInDim S800000x1 ![0] bcast_S800000_S800000x1_0 : (⟨S800000, .i32⟩ : BufTy).Contents (Elt F) → (⟨S800000x1, .i32⟩ : BufTy).Contents (Elt F))
  :: StableHlo.ternary main_v47 main_v48 main_v46 main_v49 ((fun x i u => Host.scatterAdd scatter_S50000x3_S800000x1_S800000x3_1_0_0_1 x i u) : (⟨S50000x3, .f32⟩ : BufTy).Contents (Elt F) → (⟨S800000x1, .i32⟩ : BufTy).Contents (Elt F) → (⟨S800000x3, .f32⟩ : BufTy).Contents (Elt F) → (⟨S50000x3, .f32⟩ : BufTy).Contents (Elt F))
  :: StableHlo.unary main_arg2 main_v50 ((extractStridedSlice S1x3x128 ![1, 0, 0] · slices_S4x3x128_S1x3x128_1_0_0) : (⟨S4x3x128, .f32⟩ : BufTy).Contents (Elt F) → (⟨S1x3x128, .f32⟩ : BufTy).Contents (Elt F))
  :: StableHlo.reshape main_v50 main_v51 rfl shapeCasts_S1x3x128_S3x128
  :: StableHlo.binary main_v49 main_v51 main_v52 ((fun l r => Host.dotGeneral dot_S50000x3_S3x128_S50000x128_1_0_0_1_n_n none l r) : (⟨S50000x3, .f32⟩ : BufTy).Contents (Elt F) → (⟨S3x128, .f32⟩ : BufTy).Contents (Elt F) → (⟨S50000x128, .f32⟩ : BufTy).Contents (Elt F))
  :: StableHlo.binary main_v36 main_v52 main_v53 (addf : (⟨S50000x128, .f32⟩ : BufTy).Contents (Elt F) → (⟨S50000x128, .f32⟩ : BufTy).Contents (Elt F) → (⟨S50000x128, .f32⟩ : BufTy).Contents (Elt F))
  :: StableHlo.nullary main_c_10 (constantI S_ 32 0#32)
  :: StableHlo.unary main_c_10 main_v54 (broadcastInDim S800000 ![] bcast_S_S800000 : (⟨S_, .i32⟩ : BufTy).Contents (Elt F) → (⟨S800000, .i32⟩ : BufTy).Contents (Elt F))
  :: StableHlo.binary main_v1 main_v54 main_v55 (cmpi .slt : (⟨S800000, .i32⟩ : BufTy).Contents (Elt F) → (⟨S800000, .i32⟩ : BufTy).Contents (Elt F) → (⟨S800000, .i1⟩ : BufTy).Contents (Elt F))
  :: StableHlo.nullary main_c_11 (constantI S_ 32 50000#32)
  :: StableHlo.unary main_c_11 main_v56 (broadcastInDim S800000 ![] bcast_S_S800000 : (⟨S_, .i32⟩ : BufTy).Contents (Elt F) → (⟨S800000, .i32⟩ : BufTy).Contents (Elt F))
  :: StableHlo.binary main_v1 main_v56 main_v57 (addi : (⟨S800000, .i32⟩ : BufTy).Contents (Elt F) → (⟨S800000, .i32⟩ : BufTy).Contents (Elt F) → (⟨S800000, .i32⟩ : BufTy).Contents (Elt F))
  :: StableHlo.ternary main_v55 main_v57 main_v1 main_v58 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F))
  :: StableHlo.unary main_v58 main_v59 (broadcastInDim S800000x1 ![0] bcast_S800000_S800000x1_0 : (⟨S800000, .i32⟩ : BufTy).Contents (Elt F) → (⟨S800000x1, .i32⟩ : BufTy).Contents (Elt F))
  :: StableHlo.binary main_v49 main_v59 main_v60 ((fun x i => Host.gather gather_S50000x3_S800000x1_S800000x3_1_0_n_n_0_1_13 x i) : (⟨S50000x3, .f32⟩ : BufTy).Contents (Elt F) → (⟨S800000x1, .i32⟩ : BufTy).Contents (Elt F) → (⟨S800000x3, .f32⟩ : BufTy).Contents (Elt F))
  :: StableHlo.unary main_v33 main_v61 (broadcastInDim S800000x1 ![0] bcast_S800000_S800000x1_0 : (⟨S800000, .f32⟩ : BufTy).Contents (Elt F) → (⟨S800000x1, .f32⟩ : BufTy).Contents (Elt F))
  :: StableHlo.unary main_v61 main_v62 (broadcastInDim S800000x3 ![0, 1] bcast_S800000x1_S800000x3_0_1 : (⟨S800000x1, .f32⟩ : BufTy).Contents (Elt F) → (⟨S800000x3, .f32⟩ : BufTy).Contents (Elt F))
  :: StableHlo.binary main_v60 main_v62 main_v63 (mulf : (⟨S800000x3, .f32⟩ : BufTy).Contents (Elt F) → (⟨S800000x3, .f32⟩ : BufTy).Contents (Elt F) → (⟨S800000x3, .f32⟩ : BufTy).Contents (Elt F))
  :: StableHlo.nullary main_cst_12 (constant S_ .f32 0x00000000#32)
  :: StableHlo.unary main_cst_12 main_v64 (broadcastInDim S50000x3 ![] bcast_S_S50000x3 : (⟨S_, .f32⟩ : BufTy).Contents (Elt F) → (⟨S50000x3, .f32⟩ : BufTy).Contents (Elt F))
  :: StableHlo.unary main_v3 main_v65 (broadcastInDim S800000x1 ![0] bcast_S800000_S800000x1_0 : (⟨S800000, .i32⟩ : BufTy).Contents (Elt F) → (⟨S800000x1, .i32⟩ : BufTy).Contents (Elt F))
  :: StableHlo.ternary main_v64 main_v65 main_v63 main_v66 ((fun x i u => Host.scatterAdd scatter_S50000x3_S800000x1_S800000x3_1_0_0_1 x i u) : (⟨S50000x3, .f32⟩ : BufTy).Contents (Elt F) → (⟨S800000x1, .i32⟩ : BufTy).Contents (Elt F) → (⟨S800000x3, .f32⟩ : BufTy).Contents (Elt F) → (⟨S50000x3, .f32⟩ : BufTy).Contents (Elt F))
  :: StableHlo.nullary main_cst_13 (constant S_ .f32 0x40000000#32)
  :: StableHlo.unary main_cst_13 main_v67 (broadcastInDim S50000x3 ![] bcast_S_S50000x3 : (⟨S_, .f32⟩ : BufTy).Contents (Elt F) → (⟨S50000x3, .f32⟩ : BufTy).Contents (Elt F))
  :: StableHlo.binary main_v67 main_v66 main_v68 (mulf : (⟨S50000x3, .f32⟩ : BufTy).Contents (Elt F) → (⟨S50000x3, .f32⟩ : BufTy).Contents (Elt F) → (⟨S50000x3, .f32⟩ : BufTy).Contents (Elt F))
  :: StableHlo.binary main_v68 main_arg0 main_v69 (subf : (⟨S50000x3, .f32⟩ : BufTy).Contents (Elt F) → (⟨S50000x3, .f32⟩ : BufTy).Contents (Elt F) → (⟨S50000x3, .f32⟩ : BufTy).Contents (Elt F))
  :: StableHlo.unary main_arg2 main_v70 ((extractStridedSlice S1x3x128 ![2, 0, 0] · slices_S4x3x128_S1x3x128_2_0_0) : (⟨S4x3x128, .f32⟩ : BufTy).Contents (Elt F) → (⟨S1x3x128, .f32⟩ : BufTy).Contents (Elt F))
  :: StableHlo.reshape main_v70 main_v71 rfl shapeCasts_S1x3x128_S3x128
  :: StableHlo.binary main_v69 main_v71 main_v72 ((fun l r => Host.dotGeneral dot_S50000x3_S3x128_S50000x128_1_0_0_1_n_n none l r) : (⟨S50000x3, .f32⟩ : BufTy).Contents (Elt F) → (⟨S3x128, .f32⟩ : BufTy).Contents (Elt F) → (⟨S50000x128, .f32⟩ : BufTy).Contents (Elt F))
  :: StableHlo.binary main_v53 main_v72 main_v73 (addf : (⟨S50000x128, .f32⟩ : BufTy).Contents (Elt F) → (⟨S50000x128, .f32⟩ : BufTy).Contents (Elt F) → (⟨S50000x128, .f32⟩ : BufTy).Contents (Elt F))
  :: StableHlo.nullary main_c_14 (constantI S_ 32 0#32)
  :: StableHlo.unary main_c_14 main_v74 (broadcastInDim S800000 ![] bcast_S_S800000 : (⟨S_, .i32⟩ : BufTy).Contents (Elt F) → (⟨S800000, .i32⟩ : BufTy).Contents (Elt F))
  :: StableHlo.binary main_v1 main_v74 main_v75 (cmpi .slt : (⟨S800000, .i32⟩ : BufTy).Contents (Elt F) → (⟨S800000, .i32⟩ : BufTy).Contents (Elt F) → (⟨S800000, .i1⟩ : BufTy).Contents (Elt F))
  :: StableHlo.nullary main_c_15 (constantI S_ 32 50000#32)
  :: StableHlo.unary main_c_15 main_v76 (broadcastInDim S800000 ![] bcast_S_S800000 : (⟨S_, .i32⟩ : BufTy).Contents (Elt F) → (⟨S800000, .i32⟩ : BufTy).Contents (Elt F))
  :: StableHlo.binary main_v1 main_v76 main_v77 (addi : (⟨S800000, .i32⟩ : BufTy).Contents (Elt F) → (⟨S800000, .i32⟩ : BufTy).Contents (Elt F) → (⟨S800000, .i32⟩ : BufTy).Contents (Elt F))
  :: StableHlo.ternary main_v75 main_v77 main_v1 main_v78 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F))
  :: StableHlo.unary main_v78 main_v79 (broadcastInDim S800000x1 ![0] bcast_S800000_S800000x1_0 : (⟨S800000, .i32⟩ : BufTy).Contents (Elt F) → (⟨S800000x1, .i32⟩ : BufTy).Contents (Elt F))
  :: StableHlo.binary main_v69 main_v79 main_v80 ((fun x i => Host.gather gather_S50000x3_S800000x1_S800000x3_1_0_n_n_0_1_13 x i) : (⟨S50000x3, .f32⟩ : BufTy).Contents (Elt F) → (⟨S800000x1, .i32⟩ : BufTy).Contents (Elt F) → (⟨S800000x3, .f32⟩ : BufTy).Contents (Elt F))
  :: StableHlo.unary main_v33 main_v81 (broadcastInDim S800000x1 ![0] bcast_S800000_S800000x1_0 : (⟨S800000, .f32⟩ : BufTy).Contents (Elt F) → (⟨S800000x1, .f32⟩ : BufTy).Contents (Elt F))
  :: StableHlo.unary main_v81 main_v82 (broadcastInDim S800000x3 ![0, 1] bcast_S800000x1_S800000x3_0_1 : (⟨S800000x1, .f32⟩ : BufTy).Contents (Elt F) → (⟨S800000x3, .f32⟩ : BufTy).Contents (Elt F))
  :: StableHlo.binary main_v80 main_v82 main_v83 (mulf : (⟨S800000x3, .f32⟩ : BufTy).Contents (Elt F) → (⟨S800000x3, .f32⟩ : BufTy).Contents (Elt F) → (⟨S800000x3, .f32⟩ : BufTy).Contents (Elt F))
  :: StableHlo.nullary main_cst_16 (constant S_ .f32 0x00000000#32)
  :: StableHlo.unary main_cst_16 main_v84 (broadcastInDim S50000x3 ![] bcast_S_S50000x3 : (⟨S_, .f32⟩ : BufTy).Contents (Elt F) → (⟨S50000x3, .f32⟩ : BufTy).Contents (Elt F))
  :: StableHlo.unary main_v3 main_v85 (broadcastInDim S800000x1 ![0] bcast_S800000_S800000x1_0 : (⟨S800000, .i32⟩ : BufTy).Contents (Elt F) → (⟨S800000x1, .i32⟩ : BufTy).Contents (Elt F))
  :: StableHlo.ternary main_v84 main_v85 main_v83 main_v86 ((fun x i u => Host.scatterAdd scatter_S50000x3_S800000x1_S800000x3_1_0_0_1 x i u) : (⟨S50000x3, .f32⟩ : BufTy).Contents (Elt F) → (⟨S800000x1, .i32⟩ : BufTy).Contents (Elt F) → (⟨S800000x3, .f32⟩ : BufTy).Contents (Elt F) → (⟨S50000x3, .f32⟩ : BufTy).Contents (Elt F))
  :: StableHlo.nullary main_cst_17 (constant S_ .f32 0x40000000#32)
  :: StableHlo.unary main_cst_17 main_v87 (broadcastInDim S50000x3 ![] bcast_S_S50000x3 : (⟨S_, .f32⟩ : BufTy).Contents (Elt F) → (⟨S50000x3, .f32⟩ : BufTy).Contents (Elt F))
  :: StableHlo.binary main_v87 main_v86 main_v88 (mulf : (⟨S50000x3, .f32⟩ : BufTy).Contents (Elt F) → (⟨S50000x3, .f32⟩ : BufTy).Contents (Elt F) → (⟨S50000x3, .f32⟩ : BufTy).Contents (Elt F))
  :: StableHlo.binary main_v88 main_v49 main_v89 (subf : (⟨S50000x3, .f32⟩ : BufTy).Contents (Elt F) → (⟨S50000x3, .f32⟩ : BufTy).Contents (Elt F) → (⟨S50000x3, .f32⟩ : BufTy).Contents (Elt F))
  :: StableHlo.unary main_arg2 main_v90 ((extractStridedSlice S1x3x128 ![3, 0, 0] · slices_S4x3x128_S1x3x128_3_0_0) : (⟨S4x3x128, .f32⟩ : BufTy).Contents (Elt F) → (⟨S1x3x128, .f32⟩ : BufTy).Contents (Elt F))
  :: StableHlo.reshape main_v90 main_v91 rfl shapeCasts_S1x3x128_S3x128
  :: StableHlo.binary main_v89 main_v91 main_v92 ((fun l r => Host.dotGeneral dot_S50000x3_S3x128_S50000x128_1_0_0_1_n_n none l r) : (⟨S50000x3, .f32⟩ : BufTy).Contents (Elt F) → (⟨S3x128, .f32⟩ : BufTy).Contents (Elt F) → (⟨S50000x128, .f32⟩ : BufTy).Contents (Elt F))
  :: StableHlo.binary main_v73 main_v92 main_v93 (addf : (⟨S50000x128, .f32⟩ : BufTy).Contents (Elt F) → (⟨S50000x128, .f32⟩ : BufTy).Contents (Elt F) → (⟨S50000x128, .f32⟩ : BufTy).Contents (Elt F))
  :: StableHlo.unary main_arg3 main_v94 (broadcastInDim S1x128 ![1] bcast_S128_S1x128_1 : (⟨S128, .f32⟩ : BufTy).Contents (Elt F) → (⟨S1x128, .f32⟩ : BufTy).Contents (Elt F))
  :: StableHlo.unary main_v94 main_v95 (broadcastInDim S50000x128 ![0, 1] bcast_S1x128_S50000x128_0_1 : (⟨S1x128, .f32⟩ : BufTy).Contents (Elt F) → (⟨S50000x128, .f32⟩ : BufTy).Contents (Elt F))
  :: StableHlo.binary main_v93 main_v95 main_v96 (addf : (⟨S50000x128, .f32⟩ : BufTy).Contents (Elt F) → (⟨S50000x128, .f32⟩ : BufTy).Contents (Elt F) → (⟨S50000x128, .f32⟩ : BufTy).Contents (Elt F))
  :: StableHlo.TRef.nullary (.of main_call1_cst : StableHlo.TRef sig ⟨S_, .f32⟩) (constant S_ .f32 0x00000000#32)
  :: StableHlo.TRef.unary (.of main_call1_cst : StableHlo.TRef sig ⟨S_, .f32⟩) (.of main_call1_v0 : StableHlo.TRef sig ⟨S50000x128, .f32⟩) (broadcastInDim S50000x128 ![] bcast_S_S50000x128)
  :: StableHlo.TRef.binary (.of main_v96 : StableHlo.TRef sig ⟨S50000x128, .f32⟩) (.of main_call1_v0 : StableHlo.TRef sig ⟨S50000x128, .f32⟩) (.of main_call1_v1 : StableHlo.TRef sig ⟨S50000x128, .i1⟩) (cmpf .oge)
  :: StableHlo.TRef.nullary (.of main_call1_cst_0 : StableHlo.TRef sig ⟨S_, .f32⟩) (constant S_ .f32 0x3C23D70A#32)
  :: StableHlo.TRef.unary (.of main_call1_cst_0 : StableHlo.TRef sig ⟨S_, .f32⟩) (.of main_call1_v2 : StableHlo.TRef sig ⟨S50000x128, .f32⟩) (broadcastInDim S50000x128 ![] bcast_S_S50000x128)
  :: StableHlo.TRef.binary (.of main_call1_v2 : StableHlo.TRef sig ⟨S50000x128, .f32⟩) (.of main_v96 : StableHlo.TRef sig ⟨S50000x128, .f32⟩) (.of main_call1_v3 : StableHlo.TRef sig ⟨S50000x128, .f32⟩) mulf
  :: StableHlo.TRef.ternary (.of main_call1_v1 : StableHlo.TRef sig ⟨S50000x128, .i1⟩) (.of main_v96 : StableHlo.TRef sig ⟨S50000x128, .f32⟩) (.of main_call1_v3 : StableHlo.TRef sig ⟨S50000x128, .f32⟩) (.of main_v97 : StableHlo.TRef sig ⟨S50000x128, .f32⟩) select
  :: [] )

/-- Each operation of opsC1a touches TensorCore references only. -/
theorem opsC1a_sub : (opsC1a : List (HloOp τ sig (Elt F))).Forall fun op => op.bufs ⊆ StableHlo.tcRefs τ sig :=
  ⟨StableHlo.unary_bufs_sub .., StableHlo.reshape_bufs_sub .., StableHlo.binary_bufs_sub .., StableHlo.nullary_bufs_sub .., StableHlo.unary_bufs_sub .., StableHlo.binary_bufs_sub ..,
    StableHlo.nullary_bufs_sub .., StableHlo.unary_bufs_sub .., StableHlo.binary_bufs_sub .., StableHlo.ternary_bufs_sub .., StableHlo.unary_bufs_sub .., StableHlo.binary_bufs_sub ..,
    StableHlo.unary_bufs_sub .., StableHlo.unary_bufs_sub .., StableHlo.binary_bufs_sub .., StableHlo.nullary_bufs_sub .., StableHlo.unary_bufs_sub .., StableHlo.unary_bufs_sub ..,
    StableHlo.ternary_bufs_sub .., StableHlo.unary_bufs_sub .., StableHlo.reshape_bufs_sub .., StableHlo.binary_bufs_sub .., StableHlo.binary_bufs_sub .., StableHlo.nullary_bufs_sub ..,
    StableHlo.unary_bufs_sub .., StableHlo.binary_bufs_sub .., StableHlo.nullary_bufs_sub .., StableHlo.unary_bufs_sub .., StableHlo.binary_bufs_sub .., StableHlo.ternary_bufs_sub ..,
    StableHlo.unary_bufs_sub .., StableHlo.binary_bufs_sub .., StableHlo.unary_bufs_sub .., StableHlo.unary_bufs_sub .., StableHlo.binary_bufs_sub .., StableHlo.nullary_bufs_sub ..,
    StableHlo.unary_bufs_sub .., StableHlo.unary_bufs_sub .., StableHlo.ternary_bufs_sub .., StableHlo.nullary_bufs_sub .., StableHlo.unary_bufs_sub .., StableHlo.binary_bufs_sub ..,
    StableHlo.binary_bufs_sub .., StableHlo.unary_bufs_sub .., StableHlo.reshape_bufs_sub .., StableHlo.binary_bufs_sub .., StableHlo.binary_bufs_sub .., StableHlo.nullary_bufs_sub ..,
    StableHlo.unary_bufs_sub .., StableHlo.binary_bufs_sub .., StableHlo.nullary_bufs_sub .., StableHlo.unary_bufs_sub .., StableHlo.binary_bufs_sub .., StableHlo.ternary_bufs_sub ..,
    StableHlo.unary_bufs_sub .., StableHlo.binary_bufs_sub .., StableHlo.unary_bufs_sub .., StableHlo.unary_bufs_sub .., StableHlo.binary_bufs_sub .., StableHlo.nullary_bufs_sub ..,
    StableHlo.unary_bufs_sub .., StableHlo.unary_bufs_sub .., StableHlo.ternary_bufs_sub .., StableHlo.nullary_bufs_sub .., StableHlo.unary_bufs_sub .., StableHlo.binary_bufs_sub ..,
    StableHlo.binary_bufs_sub .., StableHlo.unary_bufs_sub .., StableHlo.reshape_bufs_sub .., StableHlo.binary_bufs_sub .., StableHlo.binary_bufs_sub .., StableHlo.unary_bufs_sub ..,
    StableHlo.unary_bufs_sub .., StableHlo.binary_bufs_sub .., StableHlo.nullary_bufs_sub .., StableHlo.unary_bufs_sub .., StableHlo.binary_bufs_sub .., StableHlo.nullary_bufs_sub ..,
    StableHlo.unary_bufs_sub .., StableHlo.binary_bufs_sub .., StableHlo.ternary_bufs_sub ..⟩
/-- No operation of opsC1a allocates a buffer. -/
theorem opsC1a_fresh : (opsC1a : List (HloOp τ sig (Elt F))).Forall fun op => op.fresh = ∅ := by
  simp only [List.Forall]; repeat' constructor
/-- Each operation of opsC1a writes one buffer, and it is none of the sixteen arguments' (those are the references of index below 16). -/
theorem opsC1a_high : (opsC1a : List (HloOp τ sig (Elt F))).Forall WritesHigh :=
  ⟨⟨main_v34, rfl, by decide⟩, ⟨main_v35, rfl, by decide⟩, ⟨main_v36, rfl, by decide⟩, ⟨main_c_7, rfl, by decide⟩, ⟨main_v37, rfl, by decide⟩, ⟨main_v38, rfl, by decide⟩,
    ⟨main_c_8, rfl, by decide⟩, ⟨main_v39, rfl, by decide⟩, ⟨main_v40, rfl, by decide⟩, ⟨main_v41, rfl, by decide⟩, ⟨main_v42, rfl, by decide⟩, ⟨main_v43, rfl, by decide⟩,
    ⟨main_v44, rfl, by decide⟩, ⟨main_v45, rfl, by decide⟩, ⟨main_v46, rfl, by decide⟩, ⟨main_cst_9, rfl, by decide⟩, ⟨main_v47, rfl, by decide⟩, ⟨main_v48, rfl, by decide⟩,
    ⟨main_v49, rfl, by decide⟩, ⟨main_v50, rfl, by decide⟩, ⟨main_v51, rfl, by decide⟩, ⟨main_v52, rfl, by decide⟩, ⟨main_v53, rfl, by decide⟩, ⟨main_c_10, rfl, by decide⟩,
    ⟨main_v54, rfl, by decide⟩, ⟨main_v55, rfl, by decide⟩, ⟨main_c_11, rfl, by decide⟩, ⟨main_v56, rfl, by decide⟩, ⟨main_v57, rfl, by decide⟩, ⟨main_v58, rfl, by decide⟩,
    ⟨main_v59, rfl, by decide⟩, ⟨main_v60, rfl, by decide⟩, ⟨main_v61, rfl, by decide⟩, ⟨main_v62, rfl, by decide⟩, ⟨main_v63, rfl, by decide⟩, ⟨main_cst_12, rfl, by decide⟩,
    ⟨main_v64, rfl, by decide⟩, ⟨main_v65, rfl, by decide⟩, ⟨main_v66, rfl, by decide⟩, ⟨main_cst_13, rfl, by decide⟩, ⟨main_v67, rfl, by decide⟩, ⟨main_v68, rfl, by decide⟩,
    ⟨main_v69, rfl, by decide⟩, ⟨main_v70, rfl, by decide⟩, ⟨main_v71, rfl, by decide⟩, ⟨main_v72, rfl, by decide⟩, ⟨main_v73, rfl, by decide⟩, ⟨main_c_14, rfl, by decide⟩,
    ⟨main_v74, rfl, by decide⟩, ⟨main_v75, rfl, by decide⟩, ⟨main_c_15, rfl, by decide⟩, ⟨main_v76, rfl, by decide⟩, ⟨main_v77, rfl, by decide⟩, ⟨main_v78, rfl, by decide⟩,
    ⟨main_v79, rfl, by decide⟩, ⟨main_v80, rfl, by decide⟩, ⟨main_v81, rfl, by decide⟩, ⟨main_v82, rfl, by decide⟩, ⟨main_v83, rfl, by decide⟩, ⟨main_cst_16, rfl, by decide⟩,
    ⟨main_v84, rfl, by decide⟩, ⟨main_v85, rfl, by decide⟩, ⟨main_v86, rfl, by decide⟩, ⟨main_cst_17, rfl, by decide⟩, ⟨main_v87, rfl, by decide⟩, ⟨main_v88, rfl, by decide⟩,
    ⟨main_v89, rfl, by decide⟩, ⟨main_v90, rfl, by decide⟩, ⟨main_v91, rfl, by decide⟩, ⟨main_v92, rfl, by decide⟩, ⟨main_v93, rfl, by decide⟩, ⟨main_v94, rfl, by decide⟩,
    ⟨main_v95, rfl, by decide⟩, ⟨main_v96, rfl, by decide⟩, ⟨main_call1_cst, rfl, by decide⟩, ⟨main_call1_v0, rfl, by decide⟩, ⟨main_call1_v1, rfl, by decide⟩, ⟨main_call1_cst_0, rfl, by decide⟩,
    ⟨main_call1_v2, rfl, by decide⟩, ⟨main_call1_v3, rfl, by decide⟩, ⟨main_v97, rfl, by decide⟩⟩

set_option maxHeartbeats 40000000 in
/-- Operations main_cst_18 … main_v116 of the reference program (44), in order. -/
abbrev opsC1b : List (HloOp τ sig (Elt F)) :=
  ( StableHlo.nullary main_cst_18 (constant S_ .f32 0x00000000#32)
  :: StableHlo.binary main_v97 main_cst_18 main_v98 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F))
  :: StableHlo.nullary main_cst_19 (constant S_ .f32 0x47435000#32)
  :: StableHlo.unary main_cst_19 main_v99 (broadcastInDim S128 ![] bcast_S_S128 : (⟨S_, .f32⟩ : BufTy).Contents (Elt F) → (⟨S128, .f32⟩ : BufTy).Contents (Elt F))
  :: StableHlo.binary main_v98 main_v99 main_v100 (Host.divf : (⟨S128, .f32⟩ : BufTy).Contents (Elt F) → (⟨S128, .f32⟩ : BufTy).Contents (Elt F) → (⟨S128, .f32⟩ : BufTy).Contents (Elt F))
  :: StableHlo.nullary main_c_20 (constantI S_ 32 0#32)
  :: StableHlo.TRef.nullary (.of main_call2_cst : StableHlo.TRef sig ⟨S_, .f32⟩) (constant S_ .f32 0x00000000#32)
  :: StableHlo.TRef.binary (.of main_v97 : StableHlo.TRef sig ⟨S50000x128, .f32⟩) (.of main_call2_cst : StableHlo.TRef sig ⟨S_, .f32⟩) (.of main_call2_v0 : StableHlo.TRef sig ⟨S128, .f32⟩) (fun x v => Host.reduceAdd x v reducesTo_S50000x128_S128_d0 h_S_)
  :: StableHlo.TRef.unary (.of main_call2_v0 : StableHlo.TRef sig ⟨S128, .f32⟩) (.of main_call2_v1 : StableHlo.TRef sig ⟨S1x128, .f32⟩) (broadcastInDim S1x128 ![1] bcast_S128_S1x128_1)
  :: StableHlo.TRef.nullary (.of main_call2_cst_0 : StableHlo.TRef sig ⟨S_, .f32⟩) (constant S_ .f32 0x47435000#32)
  :: StableHlo.TRef.unary (.of main_call2_cst_0 : StableHlo.TRef sig ⟨S_, .f32⟩) (.of main_call2_v2 : StableHlo.TRef sig ⟨S1x128, .f32⟩) (broadcastInDim S1x128 ![] bcast_S_S1x128)
  :: StableHlo.TRef.binary (.of main_call2_v1 : StableHlo.TRef sig ⟨S1x128, .f32⟩) (.of main_call2_v2 : StableHlo.TRef sig ⟨S1x128, .f32⟩) (.of main_call2_v3 : StableHlo.TRef sig ⟨S1x128, .f32⟩) Host.divf
  :: StableHlo.TRef.unary (.of main_call2_v3 : StableHlo.TRef sig ⟨S1x128, .f32⟩) (.of main_call2_v4 : StableHlo.TRef sig ⟨S50000x128, .f32⟩) (broadcastInDim S50000x128 ![0, 1] bcast_S1x128_S50000x128_0_1)
  :: StableHlo.TRef.binary (.of main_v97 : StableHlo.TRef sig ⟨S50000x128, .f32⟩) (.of main_call2_v4 : StableHlo.TRef sig ⟨S50000x128, .f32⟩) (.of main_call2_v5 : StableHlo.TRef sig ⟨S50000x128, .f32⟩) subf
  :: StableHlo.TRef.binary (.of main_call2_v5 : StableHlo.TRef sig ⟨S50000x128, .f32⟩) (.of main_call2_v5 : StableHlo.TRef sig ⟨S50000x128, .f32⟩) (.of main_call2_v6 : StableHlo.TRef sig ⟨S50000x128, .f32⟩) mulf
  :: StableHlo.TRef.unary (.of main_c_20 : StableHlo.TRef sig ⟨S_, .i32⟩) (.of main_call2_v7 : StableHlo.TRef sig ⟨S_, .f32⟩) (sitofp .f32)
  :: StableHlo.TRef.nullary (.of main_call2_cst_1 : StableHlo.TRef sig ⟨S_, .f32⟩) (constant S_ .f32 0x47435000#32)
  :: StableHlo.TRef.binary (.of main_call2_cst_1 : StableHlo.TRef sig ⟨S_, .f32⟩) (.of main_call2_v7 : StableHlo.TRef sig ⟨S_, .f32⟩) (.of main_call2_v8 : StableHlo.TRef sig ⟨S_, .f32⟩) subf
  :: StableHlo.TRef.nullary (.of main_call2_cst_2 : StableHlo.TRef sig ⟨S_, .f32⟩) (constant S_ .f32 0x00000000#32)
  :: StableHlo.TRef.binary (.of main_call2_v6 : StableHlo.TRef sig ⟨S50000x128, .f32⟩) (.of main_call2_cst_2 : StableHlo.TRef sig ⟨S_, .f32⟩) (.of main_call2_v9 : StableHlo.TRef sig ⟨S128, .f32⟩) (fun x v => Host.reduceAdd x v reducesTo_S50000x128_S128_d0 h_S_)
  :: StableHlo.TRef.unary (.of main_call2_v8 : StableHlo.TRef sig ⟨S_, .f32⟩) (.of main_call2_v10 : StableHlo.TRef sig ⟨S128, .f32⟩) (broadcastInDim S128 ![] bcast_S_S128)
  :: StableHlo.TRef.binary (.of main_call2_v9 : StableHlo.TRef sig ⟨S128, .f32⟩) (.of main_call2_v10 : StableHlo.TRef sig ⟨S128, .f32⟩) (.of main_call2_v11 : StableHlo.TRef sig ⟨S128, .f32⟩) Host.divf
  :: StableHlo.TRef.nullary (.of main_call2_cst_3 : StableHlo.TRef sig ⟨S_, .f32⟩) (constant S_ .f32 0x00000000#32)
  :: StableHlo.TRef.binary (.of main_call2_v8 : StableHlo.TRef sig ⟨S_, .f32⟩) (.of main_call2_cst_3 : StableHlo.TRef sig ⟨S_, .f32⟩) (.of main_call2_v12 : StableHlo.TRef sig ⟨S_, .i1⟩) (cmpf .ogt)
  :: StableHlo.TRef.nullary (.of main_call2_cst_4 : StableHlo.TRef sig ⟨S_, .f32⟩) (constant S_ .f32 0x7FC00000#32)
  :: StableHlo.TRef.unary (.of main_call2_cst_4 : StableHlo.TRef sig ⟨S_, .f32⟩) (.of main_call2_call0_v0 : StableHlo.TRef sig ⟨S_, .f32⟩) id
  :: StableHlo.TRef.unary (.of main_call2_call0_v0 : StableHlo.TRef sig ⟨S_, .f32⟩) (.of main_call2_call0_v1 : StableHlo.TRef sig ⟨S128, .f32⟩) (broadcastInDim S128 ![] bcast_S_S128)
  :: StableHlo.TRef.ternary (.of main_call2_v12 : StableHlo.TRef sig ⟨S_, .i1⟩) (.of main_call2_v11 : StableHlo.TRef sig ⟨S128, .f32⟩) (.of main_call2_call0_v1 : StableHlo.TRef sig ⟨S128, .f32⟩) (.of main_v101 : StableHlo.TRef sig ⟨S128, .f32⟩) (fun p a b => select (broadcastInDim S128 ![] bcast_S_S128 p) a b)
  :: StableHlo.unary main_v100 main_v102 (broadcastInDim S1x128 ![1] bcast_S128_S1x128_1 : (⟨S128, .f32⟩ : BufTy).Contents (Elt F) → (⟨S1x128, .f32⟩ : BufTy).Contents (Elt F))
  :: StableHlo.unary main_v102 main_v103 (broadcastInDim S50000x128 ![0, 1] bcast_S1x128_S50000x128_0_1 : (⟨S1x128, .f32⟩ : BufTy).Contents (Elt F) → (⟨S50000x128, .f32⟩ : BufTy).Contents (Elt F))
  :: StableHlo.binary main_v97 main_v103 main_v104 (subf : (⟨S50000x128, .f32⟩ : BufTy).Contents (Elt F) → (⟨S50000x128, .f32⟩ : BufTy).Contents (Elt F) → (⟨S50000x128, .f32⟩ : BufTy).Contents (Elt F))
  :: StableHlo.nullary main_cst_21 (constant S_ .f32 0x3727C5AC#32)
  :: StableHlo.unary main_cst_21 main_v105 (broadcastInDim S128 ![] bcast_S_S128 : (⟨S_, .f32⟩ : BufTy).Contents (Elt F) → (⟨S128, .f32⟩ : BufTy).Contents (Elt F))
  :: StableHlo.binary main_v101 main_v105 main_v106 (addf : (⟨S128, .f32⟩ : BufTy).Contents (Elt F) → (⟨S128, .f32⟩ : BufTy).Contents (Elt F) → (⟨S128, .f32⟩ : BufTy).Contents (Elt F))
  :: StableHlo.unary main_v106 main_v107 (Host.rsqrt : (⟨S128, .f32⟩ : BufTy).Contents (Elt F) → (⟨S128, .f32⟩ : BufTy).Contents (Elt F))
  :: StableHlo.unary main_v107 main_v108 (broadcastInDim S1x128 ![1] bcast_S128_S1x128_1 : (⟨S128, .f32⟩ : BufTy).Contents (Elt F) → (⟨S1x128, .f32⟩ : BufTy).Contents (Elt F))
  :: StableHlo.unary main_v108 main_v109 (broadcastInDim S50000x128 ![0, 1] bcast_S1x128_S50000x128_0_1 : (⟨S1x128, .f32⟩ : BufTy).Contents (Elt F) → (⟨S50000x128, .f32⟩ : BufTy).Contents (Elt F))
  :: StableHlo.binary main_v104 main_v109 main_v110 (mulf : (⟨S50000x128, .f32⟩ : BufTy).Contents (Elt F) → (⟨S50000x128, .f32⟩ : BufTy).Contents (Elt F) → (⟨S50000x128, .f32⟩ : BufTy).Contents (Elt F))
  :: StableHlo.unary main_arg10 main_v111 (broadcastInDim S1x128 ![1] bcast_S128_S1x128_1 : (⟨S128, .f32⟩ : BufTy).Contents (Elt F) → (⟨S1x128, .f32⟩ : BufTy).Contents (Elt F))
  :: StableHlo.unary main_v111 main_v112 (broadcastInDim S50000x128 ![0, 1] bcast_S1x128_S50000x128_0_1 : (⟨S1x128, .f32⟩ : BufTy).Contents (Elt F) → (⟨S50000x128, .f32⟩ : BufTy).Contents (Elt F))
  :: StableHlo.binary main_v110 main_v112 main_v113 (mulf : (⟨S50000x128, .f32⟩ : BufTy).Contents (Elt F) → (⟨S50000x128, .f32⟩ : BufTy).Contents (Elt F) → (⟨S50000x128, .f32⟩ : BufTy).Contents (Elt F))
  :: StableHlo.unary main_arg11 main_v114 (broadcastInDim S1x128 ![1] bcast_S128_S1x128_1 : (⟨S128, .f32⟩ : BufTy).Contents (Elt F) → (⟨S1x128, .f32⟩ : BufTy).Contents (Elt F))
  :: StableHlo.unary main_v114 main_v115 (broadcastInDim S50000x128 ![0, 1] bcast_S1x128_S50000x128_0_1 : (⟨S1x128, .f32⟩ : BufTy).Contents (Elt F) → (⟨S50000x128, .f32⟩ : BufTy).Contents (Elt F))
  :: StableHlo.binary main_v113 main_v115 main_v116 (addf : (⟨S50000x128, .f32⟩ : BufTy).Contents (Elt F) → (⟨S50000x128, .f32⟩ : BufTy).Contents (Elt F) → (⟨S50000x128, .f32⟩ : BufTy).Contents (Elt F))
  :: [] )

/-- Each operation of opsC1b touches TensorCore references only. -/
theorem opsC1b_sub : (opsC1b : List (HloOp τ sig (Elt F))).Forall fun op => op.bufs ⊆ StableHlo.tcRefs τ sig :=
  ⟨StableHlo.nullary_bufs_sub .., StableHlo.binary_bufs_sub .., StableHlo.nullary_bufs_sub .., StableHlo.unary_bufs_sub .., StableHlo.binary_bufs_sub .., StableHlo.nullary_bufs_sub ..,
    StableHlo.nullary_bufs_sub .., StableHlo.binary_bufs_sub .., StableHlo.unary_bufs_sub .., StableHlo.nullary_bufs_sub .., StableHlo.unary_bufs_sub .., StableHlo.binary_bufs_sub ..,
    StableHlo.unary_bufs_sub .., StableHlo.binary_bufs_sub .., StableHlo.binary_bufs_sub .., StableHlo.unary_bufs_sub .., StableHlo.nullary_bufs_sub .., StableHlo.binary_bufs_sub ..,
    StableHlo.nullary_bufs_sub .., StableHlo.binary_bufs_sub .., StableHlo.unary_bufs_sub .., StableHlo.binary_bufs_sub .., StableHlo.nullary_bufs_sub .., StableHlo.binary_bufs_sub ..,
    StableHlo.nullary_bufs_sub .., StableHlo.unary_bufs_sub .., StableHlo.unary_bufs_sub .., StableHlo.ternary_bufs_sub .., StableHlo.unary_bufs_sub .., StableHlo.unary_bufs_sub ..,
    StableHlo.binary_bufs_sub .., StableHlo.nullary_bufs_sub .., StableHlo.unary_bufs_sub .., StableHlo.binary_bufs_sub .., StableHlo.unary_bufs_sub .., StableHlo.unary_bufs_sub ..,
    StableHlo.unary_bufs_sub .., StableHlo.binary_bufs_sub .., StableHlo.unary_bufs_sub .., StableHlo.unary_bufs_sub .., StableHlo.binary_bufs_sub .., StableHlo.unary_bufs_sub ..,
    StableHlo.unary_bufs_sub .., StableHlo.binary_bufs_sub ..⟩
/-- No operation of opsC1b allocates a buffer. -/
theorem opsC1b_fresh : (opsC1b : List (HloOp τ sig (Elt F))).Forall fun op => op.fresh = ∅ := by
  simp only [List.Forall]; repeat' constructor
/-- Each operation of opsC1b writes one buffer, and it is none of the sixteen arguments' (those are the references of index below 16). -/
theorem opsC1b_high : (opsC1b : List (HloOp τ sig (Elt F))).Forall WritesHigh :=
  ⟨⟨main_cst_18, rfl, by decide⟩, ⟨main_v98, rfl, by decide⟩, ⟨main_cst_19, rfl, by decide⟩, ⟨main_v99, rfl, by decide⟩, ⟨main_v100, rfl, by decide⟩, ⟨main_c_20, rfl, by decide⟩,
    ⟨main_call2_cst, rfl, by decide⟩, ⟨main_call2_v0, rfl, by decide⟩, ⟨main_call2_v1, rfl, by decide⟩, ⟨main_call2_cst_0, rfl, by decide⟩, ⟨main_call2_v2, rfl, by decide⟩, ⟨main_call2_v3, rfl, by decide⟩,
    ⟨main_call2_v4, rfl, by decide⟩, ⟨main_call2_v5, rfl, by decide⟩, ⟨main_call2_v6, rfl, by decide⟩, ⟨main_call2_v7, rfl, by decide⟩, ⟨main_call2_cst_1, rfl, by decide⟩, ⟨main_call2_v8, rfl, by decide⟩,
    ⟨main_call2_cst_2, rfl, by decide⟩, ⟨main_call2_v9, rfl, by decide⟩, ⟨main_call2_v10, rfl, by decide⟩, ⟨main_call2_v11, rfl, by decide⟩, ⟨main_call2_cst_3, rfl, by decide⟩, ⟨main_call2_v12, rfl, by decide⟩,
    ⟨main_call2_cst_4, rfl, by decide⟩, ⟨main_call2_call0_v0, rfl, by decide⟩, ⟨main_call2_call0_v1, rfl, by decide⟩, ⟨main_v101, rfl, by decide⟩, ⟨main_v102, rfl, by decide⟩, ⟨main_v103, rfl, by decide⟩,
    ⟨main_v104, rfl, by decide⟩, ⟨main_cst_21, rfl, by decide⟩, ⟨main_v105, rfl, by decide⟩, ⟨main_v106, rfl, by decide⟩, ⟨main_v107, rfl, by decide⟩, ⟨main_v108, rfl, by decide⟩,
    ⟨main_v109, rfl, by decide⟩, ⟨main_v110, rfl, by decide⟩, ⟨main_v111, rfl, by decide⟩, ⟨main_v112, rfl, by decide⟩, ⟨main_v113, rfl, by decide⟩, ⟨main_v114, rfl, by decide⟩,
    ⟨main_v115, rfl, by decide⟩, ⟨main_v116, rfl, by decide⟩⟩

end Cert.ReferenceIdeal.Hand

end
-- ==== Proof.RefOps1.lean ====
/- The reference program's operations in program order, each call's body written out at its call site over that call's buffers: opsC2a, opsC2b. Each list is a transcription of the printed program; that it is the program is what main_eq proves. -/
import proofs.«175070_j35072702939553_2_alg».proof.Proof.RefBase

set_option maxRecDepth 8192

noncomputable section

namespace Cert.ReferenceIdeal.Hand

open Cert.ReferenceIdeal Cert.ReferenceIdeal.Gen Idealize.ShloMosaic Idealize.ShloMosaic.TcCoe Idealize.SL.Sem

variable {F : FTy → Type} [FloatOps F]

set_option maxHeartbeats 40000000 in
/-- Operations main_v117 … main_v180 of the reference program (81), in order. -/
abbrev opsC2a : List (HloOp τ sig (Elt F)) :=
  ( StableHlo.unary main_arg4 main_v117 ((extractStridedSlice S1x128x128 ![0, 0, 0] · slices_S4x128x128_S1x128x128_0_0_0) : (⟨S4x128x128, .f32⟩ : BufTy).Contents (Elt F) → (⟨S1x128x128, .f32⟩ : BufTy).Contents (Elt F))
  :: StableHlo.reshape main_v117 main_v118 rfl shapeCasts_S1x128x128_S128x128
  :: StableHlo.binary main_v116 main_v118 main_v119 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F))
  :: StableHlo.nullary main_c_22 (constantI S_ 32 0#32)
  :: StableHlo.unary main_c_22 main_v120 (broadcastInDim S800000 ![] bcast_S_S800000 : (⟨S_, .i32⟩ : BufTy).Contents (Elt F) → (⟨S800000, .i32⟩ : BufTy).Contents (Elt F))
  :: StableHlo.binary main_v1 main_v120 main_v121 (cmpi .slt : (⟨S800000, .i32⟩ : BufTy).Contents (Elt F) → (⟨S800000, .i32⟩ : BufTy).Contents (Elt F) → (⟨S800000, .i1⟩ : BufTy).Contents (Elt F))
  :: StableHlo.nullary main_c_23 (constantI S_ 32 50000#32)
  :: StableHlo.unary main_c_23 main_v122 (broadcastInDim S800000 ![] bcast_S_S800000 : (⟨S_, .i32⟩ : BufTy).Contents (Elt F) → (⟨S800000, .i32⟩ : BufTy).Contents (Elt F))
  :: StableHlo.binary main_v1 main_v122 main_v123 (addi : (⟨S800000, .i32⟩ : BufTy).Contents (Elt F) → (⟨S800000, .i32⟩ : BufTy).Contents (Elt F) → (⟨S800000, .i32⟩ : BufTy).Contents (Elt F))
  :: StableHlo.ternary main_v121 main_v123 main_v1 main_v124 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F))
  :: StableHlo.unary main_v124 main_v125 (broadcastInDim S800000x1 ![0] bcast_S800000_S800000x1_0 : (⟨S800000, .i32⟩ : BufTy).Contents (Elt F) → (⟨S800000x1, .i32⟩ : BufTy).Contents (Elt F))
  :: StableHlo.binary main_v116 main_v125 main_v126 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F))
  :: StableHlo.unary main_v33 main_v127 (broadcastInDim S800000x1 ![0] bcast_S800000_S800000x1_0 : (⟨S800000, .f32⟩ : BufTy).Contents (Elt F) → (⟨S800000x1, .f32⟩ : BufTy).Contents (Elt F))
  :: StableHlo.unary main_v127 main_v128 (broadcastInDim S800000x128 ![0, 1] bcast_S800000x1_S800000x128_0_1 : (⟨S800000x1, .f32⟩ : BufTy).Contents (Elt F) → (⟨S800000x128, .f32⟩ : BufTy).Contents (Elt F))
  :: StableHlo.binary main_v126 main_v128 main_v129 (mulf : (⟨S800000x128, .f32⟩ : BufTy).Contents (Elt F) → (⟨S800000x128, .f32⟩ : BufTy).Contents (Elt F) → (⟨S800000x128, .f32⟩ : BufTy).Contents (Elt F))
  :: StableHlo.nullary main_cst_24 (constant S_ .f32 0x00000000#32)
  :: StableHlo.unary main_cst_24 main_v130 (broadcastInDim S50000x128 ![] bcast_S_S50000x128 : (⟨S_, .f32⟩ : BufTy).Contents (Elt F) → (⟨S50000x128, .f32⟩ : BufTy).Contents (Elt F))
  :: StableHlo.unary main_v3 main_v131 (broadcastInDim S800000x1 ![0] bcast_S800000_S800000x1_0 : (⟨S800000, .i32⟩ : BufTy).Contents (Elt F) → (⟨S800000x1, .i32⟩ : BufTy).Contents (Elt F))
  :: StableHlo.ternary main_v130 main_v131 main_v129 main_v132 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F))
  :: StableHlo.unary main_arg4 main_v133 ((extractStridedSlice S1x128x128 ![1, 0, 0] · slices_S4x128x128_S1x128x128_1_0_0) : (⟨S4x128x128, .f32⟩ : BufTy).Contents (Elt F) → (⟨S1x128x128, .f32⟩ : BufTy).Contents (Elt F))
  :: StableHlo.reshape main_v133 main_v134 rfl shapeCasts_S1x128x128_S128x128
  :: StableHlo.binary main_v132 main_v134 main_v135 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F))
  :: StableHlo.binary main_v119 main_v135 main_v136 (addf : (⟨S50000x128, .f32⟩ : BufTy).Contents (Elt F) → (⟨S50000x128, .f32⟩ : BufTy).Contents (Elt F) → (⟨S50000x128, .f32⟩ : BufTy).Contents (Elt F))
  :: StableHlo.nullary main_c_25 (constantI S_ 32 0#32)
  :: StableHlo.unary main_c_25 main_v137 (broadcastInDim S800000 ![] bcast_S_S800000 : (⟨S_, .i32⟩ : BufTy).Contents (Elt F) → (⟨S800000, .i32⟩ : BufTy).Contents (Elt F))
  :: StableHlo.binary main_v1 main_v137 main_v138 (cmpi .slt : (⟨S800000, .i32⟩ : BufTy).Contents (Elt F) → (⟨S800000, .i32⟩ : BufTy).Contents (Elt F) → (⟨S800000, .i1⟩ : BufTy).Contents (Elt F))
  :: StableHlo.nullary main_c_26 (constantI S_ 32 50000#32)
  :: StableHlo.unary main_c_26 main_v139 (broadcastInDim S800000 ![] bcast_S_S800000 : (⟨S_, .i32⟩ : BufTy).Contents (Elt F) → (⟨S800000, .i32⟩ : BufTy).Contents (Elt F))
  :: StableHlo.binary main_v1 main_v139 main_v140 (addi : (⟨S800000, .i32⟩ : BufTy).Contents (Elt F) → (⟨S800000, .i32⟩ : BufTy).Contents (Elt F) → (⟨S800000, .i32⟩ : BufTy).Contents (Elt F))
  :: StableHlo.ternary main_v138 main_v140 main_v1 main_v141 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F))
  :: StableHlo.unary main_v141 main_v142 (broadcastInDim S800000x1 ![0] bcast_S800000_S800000x1_0 : (⟨S800000, .i32⟩ : BufTy).Contents (Elt F) → (⟨S800000x1, .i32⟩ : BufTy).Contents (Elt F))
  :: StableHlo.binary main_v132 main_v142 main_v143 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F))
  :: StableHlo.unary main_v33 main_v144 (broadcastInDim S800000x1 ![0] bcast_S800000_S800000x1_0 : (⟨S800000, .f32⟩ : BufTy).Contents (Elt F) → (⟨S800000x1, .f32⟩ : BufTy).Contents (Elt F))
  :: StableHlo.unary main_v144 main_v145 (broadcastInDim S800000x128 ![0, 1] bcast_S800000x1_S800000x128_0_1 : (⟨S800000x1, .f32⟩ : BufTy).Contents (Elt F) → (⟨S800000x128, .f32⟩ : BufTy).Contents (Elt F))
  :: StableHlo.binary main_v143 main_v145 main_v146 (mulf : (⟨S800000x128, .f32⟩ : BufTy).Contents (Elt F) → (⟨S800000x128, .f32⟩ : BufTy).Contents (Elt F) → (⟨S800000x128, .f32⟩ : BufTy).Contents (Elt F))
  :: StableHlo.nullary main_cst_27 (constant S_ .f32 0x00000000#32)
  :: StableHlo.unary main_cst_27 main_v147 (broadcastInDim S50000x128 ![] bcast_S_S50000x128 : (⟨S_, .f32⟩ : BufTy).Contents (Elt F) → (⟨S50000x128, .f32⟩ : BufTy).Contents (Elt F))
  :: StableHlo.unary main_v3 main_v148 (broadcastInDim S800000x1 ![0] bcast_S800000_S800000x1_0 : (⟨S800000, .i32⟩ : BufTy).Contents (Elt F) → (⟨S800000x1, .i32⟩ : BufTy).Contents (Elt F))
  :: StableHlo.ternary main_v147 main_v148 main_v146 main_v149 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F))
  :: StableHlo.nullary main_cst_28 (constant S_ .f32 0x40000000#32)
  :: StableHlo.unary main_cst_28 main_v150 (broadcastInDim S50000x128 ![] bcast_S_S50000x128 : (⟨S_, .f32⟩ : BufTy).Contents (Elt F) → (⟨S50000x128, .f32⟩ : BufTy).Contents (Elt F))
  :: StableHlo.binary main_v150 main_v149 main_v151 (mulf : (⟨S50000x128, .f32⟩ : BufTy).Contents (Elt F) → (⟨S50000x128, .f32⟩ : BufTy).Contents (Elt F) → (⟨S50000x128, .f32⟩ : BufTy).Contents (Elt F))
  :: StableHlo.binary main_v151 main_v116 main_v152 (subf : (⟨S50000x128, .f32⟩ : BufTy).Contents (Elt F) → (⟨S50000x128, .f32⟩ : BufTy).Contents (Elt F) → (⟨S50000x128, .f32⟩ : BufTy).Contents (Elt F))
  :: StableHlo.unary main_arg4 main_v153 ((extractStridedSlice S1x128x128 ![2, 0, 0] · slices_S4x128x128_S1x128x128_2_0_0) : (⟨S4x128x128, .f32⟩ : BufTy).Contents (Elt F) → (⟨S1x128x128, .f32⟩ : BufTy).Contents (Elt F))
  :: StableHlo.reshape main_v153 main_v154 rfl shapeCasts_S1x128x128_S128x128
  :: StableHlo.binary main_v152 main_v154 main_v155 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F))
  :: StableHlo.binary main_v136 main_v155 main_v156 (addf : (⟨S50000x128, .f32⟩ : BufTy).Contents (Elt F) → (⟨S50000x128, .f32⟩ : BufTy).Contents (Elt F) → (⟨S50000x128, .f32⟩ : BufTy).Contents (Elt F))
  :: StableHlo.nullary main_c_29 (constantI S_ 32 0#32)
  :: StableHlo.unary main_c_29 main_v157 (broadcastInDim S800000 ![] bcast_S_S800000 : (⟨S_, .i32⟩ : BufTy).Contents (Elt F) → (⟨S800000, .i32⟩ : BufTy).Contents (Elt F))
  :: StableHlo.binary main_v1 main_v157 main_v158 (cmpi .slt : (⟨S800000, .i32⟩ : BufTy).Contents (Elt F) → (⟨S800000, .i32⟩ : BufTy).Contents (Elt F) → (⟨S800000, .i1⟩ : BufTy).Contents (Elt F))
  :: StableHlo.nullary main_c_30 (constantI S_ 32 50000#32)
  :: StableHlo.unary main_c_30 main_v159 (broadcastInDim S800000 ![] bcast_S_S800000 : (⟨S_, .i32⟩ : BufTy).Contents (Elt F) → (⟨S800000, .i32⟩ : BufTy).Contents (Elt F))
  :: StableHlo.binary main_v1 main_v159 main_v160 (addi : (⟨S800000, .i32⟩ : BufTy).Contents (Elt F) → (⟨S800000, .i32⟩ : BufTy).Contents (Elt F) → (⟨S800000, .i32⟩ : BufTy).Contents (Elt F))
  :: StableHlo.ternary main_v158 main_v160 main_v1 main_v161 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F))
  :: StableHlo.unary main_v161 main_v162 (broadcastInDim S800000x1 ![0] bcast_S800000_S800000x1_0 : (⟨S800000, .i32⟩ : BufTy).Contents (Elt F) → (⟨S800000x1, .i32⟩ : BufTy).Contents (Elt F))
  :: StableHlo.binary main_v152 main_v162 main_v163 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F))
  :: StableHlo.unary main_v33 main_v164 (broadcastInDim S800000x1 ![0] bcast_S800000_S800000x1_0 : (⟨S800000, .f32⟩ : BufTy).Contents (Elt F) → (⟨S800000x1, .f32⟩ : BufTy).Contents (Elt F))
  :: StableHlo.unary main_v164 main_v165 (broadcastInDim S800000x128 ![0, 1] bcast_S800000x1_S800000x128_0_1 : (⟨S800000x1, .f32⟩ : BufTy).Contents (Elt F) → (⟨S800000x128, .f32⟩ : BufTy).Contents (Elt F))
  :: StableHlo.binary main_v163 main_v165 main_v166 (mulf : (⟨S800000x128, .f32⟩ : BufTy).Contents (Elt F) → (⟨S800000x128, .f32⟩ : BufTy).Contents (Elt F) → (⟨S800000x128, .f32⟩ : BufTy).Contents (Elt F))
  :: StableHlo.nullary main_cst_31 (constant S_ .f32 0x00000000#32)
  :: StableHlo.unary main_cst_31 main_v167 (broadcastInDim S50000x128 ![] bcast_S_S50000x128 : (⟨S_, .f32⟩ : BufTy).Contents (Elt F) → (⟨S50000x128, .f32⟩ : BufTy).Contents (Elt F))
  :: StableHlo.unary main_v3 main_v168 (broadcastInDim S800000x1 ![0] bcast_S800000_S800000x1_0 : (⟨S800000, .i32⟩ : BufTy).Contents (Elt F) → (⟨S800000x1, .i32⟩ : BufTy).Contents (Elt F))
  :: StableHlo.ternary main_v167 main_v168 main_v166 main_v169 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F))
  :: StableHlo.nullary main_cst_32 (constant S_ .f32 0x40000000#32)
  :: StableHlo.unary main_cst_32 main_v170 (broadcastInDim S50000x128 ![] bcast_S_S50000x128 : (⟨S_, .f32⟩ : BufTy).Contents (Elt F) → (⟨S50000x128, .f32⟩ : BufTy).Contents (Elt F))
  :: StableHlo.binary main_v170 main_v169 main_v171 (mulf : (⟨S50000x128, .f32⟩ : BufTy).Contents (Elt F) → (⟨S50000x128, .f32⟩ : BufTy).Contents (Elt F) → (⟨S50000x128, .f32⟩ : BufTy).Contents (Elt F))
  :: StableHlo.binary main_v171 main_v132 main_v172 (subf : (⟨S50000x128, .f32⟩ : BufTy).Contents (Elt F) → (⟨S50000x128, .f32⟩ : BufTy).Contents (Elt F) → (⟨S50000x128, .f32⟩ : BufTy).Contents (Elt F))
  :: StableHlo.unary main_arg4 main_v173 ((extractStridedSlice S1x128x128 ![3, 0, 0] · slices_S4x128x128_S1x128x128_3_0_0) : (⟨S4x128x128, .f32⟩ : BufTy).Contents (Elt F) → (⟨S1x128x128, .f32⟩ : BufTy).Contents (Elt F))
  :: StableHlo.reshape main_v173 main_v174 rfl shapeCasts_S1x128x128_S128x128
  :: StableHlo.binary main_v172 main_v174 main_v175 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F))
  :: StableHlo.binary main_v156 main_v175 main_v176 (addf : (⟨S50000x128, .f32⟩ : BufTy).Contents (Elt F) → (⟨S50000x128, .f32⟩ : BufTy).Contents (Elt F) → (⟨S50000x128, .f32⟩ : BufTy).Contents (Elt F))
  :: StableHlo.unary main_arg5 main_v177 (broadcastInDim S1x128 ![1] bcast_S128_S1x128_1 : (⟨S128, .f32⟩ : BufTy).Contents (Elt F) → (⟨S1x128, .f32⟩ : BufTy).Contents (Elt F))
  :: StableHlo.unary main_v177 main_v178 (broadcastInDim S50000x128 ![0, 1] bcast_S1x128_S50000x128_0_1 : (⟨S1x128, .f32⟩ : BufTy).Contents (Elt F) → (⟨S50000x128, .f32⟩ : BufTy).Contents (Elt F))
  :: StableHlo.binary main_v176 main_v178 main_v179 (addf : (⟨S50000x128, .f32⟩ : BufTy).Contents (Elt F) → (⟨S50000x128, .f32⟩ : BufTy).Contents (Elt F) → (⟨S50000x128, .f32⟩ : BufTy).Contents (Elt F))
  :: StableHlo.TRef.nullary (.of main_call3_cst : StableHlo.TRef sig ⟨S_, .f32⟩) (constant S_ .f32 0x00000000#32)
  :: StableHlo.TRef.unary (.of main_call3_cst : StableHlo.TRef sig ⟨S_, .f32⟩) (.of main_call3_v0 : StableHlo.TRef sig ⟨S50000x128, .f32⟩) (broadcastInDim S50000x128 ![] bcast_S_S50000x128)
  :: StableHlo.TRef.binary (.of main_v179 : StableHlo.TRef sig ⟨S50000x128, .f32⟩) (.of main_call3_v0 : StableHlo.TRef sig ⟨S50000x128, .f32⟩) (.of main_call3_v1 : StableHlo.TRef sig ⟨S50000x128, .i1⟩) (cmpf .oge)
  :: StableHlo.TRef.nullary (.of main_call3_cst_0 : StableHlo.TRef sig ⟨S_, .f32⟩) (constant S_ .f32 0x3C23D70A#32)
  :: StableHlo.TRef.unary (.of main_call3_cst_0 : StableHlo.TRef sig ⟨S_, .f32⟩) (.of main_call3_v2 : StableHlo.TRef sig ⟨S50000x128, .f32⟩) (broadcastInDim S50000x128 ![] bcast_S_S50000x128)
  :: StableHlo.TRef.binary (.of main_call3_v2 : StableHlo.TRef sig ⟨S50000x128, .f32⟩) (.of main_v179 : StableHlo.TRef sig ⟨S50000x128, .f32⟩) (.of main_call3_v3 : StableHlo.TRef sig ⟨S50000x128, .f32⟩) mulf
  :: StableHlo.TRef.ternary (.of main_call3_v1 : StableHlo.TRef sig ⟨S50000x128, .i1⟩) (.of main_v179 : StableHlo.TRef sig ⟨S50000x128, .f32⟩) (.of main_call3_v3 : StableHlo.TRef sig ⟨S50000x128, .f32⟩) (.of main_v180 : StableHlo.TRef sig ⟨S50000x128, .f32⟩) select
  :: [] )

/-- Each operation of opsC2a touches TensorCore references only. -/
theorem opsC2a_sub : (opsC2a : List (HloOp τ sig (Elt F))).Forall fun op => op.bufs ⊆ StableHlo.tcRefs τ sig :=
  ⟨StableHlo.unary_bufs_sub .., StableHlo.reshape_bufs_sub .., StableHlo.binary_bufs_sub .., StableHlo.nullary_bufs_sub .., StableHlo.unary_bufs_sub .., StableHlo.binary_bufs_sub ..,
    StableHlo.nullary_bufs_sub .., StableHlo.unary_bufs_sub .., StableHlo.binary_bufs_sub .., StableHlo.ternary_bufs_sub .., StableHlo.unary_bufs_sub .., StableHlo.binary_bufs_sub ..,
    StableHlo.unary_bufs_sub .., StableHlo.unary_bufs_sub .., StableHlo.binary_bufs_sub .., StableHlo.nullary_bufs_sub .., StableHlo.unary_bufs_sub .., StableHlo.unary_bufs_sub ..,
    StableHlo.ternary_bufs_sub .., StableHlo.unary_bufs_sub .., StableHlo.reshape_bufs_sub .., StableHlo.binary_bufs_sub .., StableHlo.binary_bufs_sub .., StableHlo.nullary_bufs_sub ..,
    StableHlo.unary_bufs_sub .., StableHlo.binary_bufs_sub .., StableHlo.nullary_bufs_sub .., StableHlo.unary_bufs_sub .., StableHlo.binary_bufs_sub .., StableHlo.ternary_bufs_sub ..,
    StableHlo.unary_bufs_sub .., StableHlo.binary_bufs_sub .., StableHlo.unary_bufs_sub .., StableHlo.unary_bufs_sub .., StableHlo.binary_bufs_sub .., StableHlo.nullary_bufs_sub ..,
    StableHlo.unary_bufs_sub .., StableHlo.unary_bufs_sub .., StableHlo.ternary_bufs_sub .., StableHlo.nullary_bufs_sub .., StableHlo.unary_bufs_sub .., StableHlo.binary_bufs_sub ..,
    StableHlo.binary_bufs_sub .., StableHlo.unary_bufs_sub .., StableHlo.reshape_bufs_sub .., StableHlo.binary_bufs_sub .., StableHlo.binary_bufs_sub .., StableHlo.nullary_bufs_sub ..,
    StableHlo.unary_bufs_sub .., StableHlo.binary_bufs_sub .., StableHlo.nullary_bufs_sub .., StableHlo.unary_bufs_sub .., StableHlo.binary_bufs_sub .., StableHlo.ternary_bufs_sub ..,
    StableHlo.unary_bufs_sub .., StableHlo.binary_bufs_sub .., StableHlo.unary_bufs_sub .., StableHlo.unary_bufs_sub .., StableHlo.binary_bufs_sub .., StableHlo.nullary_bufs_sub ..,
    StableHlo.unary_bufs_sub .., StableHlo.unary_bufs_sub .., StableHlo.ternary_bufs_sub .., StableHlo.nullary_bufs_sub .., StableHlo.unary_bufs_sub .., StableHlo.binary_bufs_sub ..,
    StableHlo.binary_bufs_sub .., StableHlo.unary_bufs_sub .., StableHlo.reshape_bufs_sub .., StableHlo.binary_bufs_sub .., StableHlo.binary_bufs_sub .., StableHlo.unary_bufs_sub ..,
    StableHlo.unary_bufs_sub .., StableHlo.binary_bufs_sub .., StableHlo.nullary_bufs_sub .., StableHlo.unary_bufs_sub .., StableHlo.binary_bufs_sub .., StableHlo.nullary_bufs_sub ..,
    StableHlo.unary_bufs_sub .., StableHlo.binary_bufs_sub .., StableHlo.ternary_bufs_sub ..⟩
/-- No operation of opsC2a allocates a buffer. -/
theorem opsC2a_fresh : (opsC2a : List (HloOp τ sig (Elt F))).Forall fun op => op.fresh = ∅ := by
  simp only [List.Forall]; repeat' constructor
/-- Each operation of opsC2a writes one buffer, and it is none of the sixteen arguments' (those are the references of index below 16). -/
theorem opsC2a_high : (opsC2a : List (HloOp τ sig (Elt F))).Forall WritesHigh :=
  ⟨⟨main_v117, rfl, by decide⟩, ⟨main_v118, rfl, by decide⟩, ⟨main_v119, rfl, by decide⟩, ⟨main_c_22, rfl, by decide⟩, ⟨main_v120, rfl, by decide⟩, ⟨main_v121, rfl, by decide⟩,
    ⟨main_c_23, rfl, by decide⟩, ⟨main_v122, rfl, by decide⟩, ⟨main_v123, rfl, by decide⟩, ⟨main_v124, rfl, by decide⟩, ⟨main_v125, rfl, by decide⟩, ⟨main_v126, rfl, by decide⟩,
    ⟨main_v127, rfl, by decide⟩, ⟨main_v128, rfl, by decide⟩, ⟨main_v129, rfl, by decide⟩, ⟨main_cst_24, rfl, by decide⟩, ⟨main_v130, rfl, by decide⟩, ⟨main_v131, rfl, by decide⟩,
    ⟨main_v132, rfl, by decide⟩, ⟨main_v133, rfl, by decide⟩, ⟨main_v134, rfl, by decide⟩, ⟨main_v135, rfl, by decide⟩, ⟨main_v136, rfl, by decide⟩, ⟨main_c_25, rfl, by decide⟩,
    ⟨main_v137, rfl, by decide⟩, ⟨main_v138, rfl, by decide⟩, ⟨main_c_26, rfl, by decide⟩, ⟨main_v139, rfl, by decide⟩, ⟨main_v140, rfl, by decide⟩, ⟨main_v141, rfl, by decide⟩,
    ⟨main_v142, rfl, by decide⟩, ⟨main_v143, rfl, by decide⟩, ⟨main_v144, rfl, by decide⟩, ⟨main_v145, rfl, by decide⟩, ⟨main_v146, rfl, by decide⟩, ⟨main_cst_27, rfl, by decide⟩,
    ⟨main_v147, rfl, by decide⟩, ⟨main_v148, rfl, by decide⟩, ⟨main_v149, rfl, by decide⟩, ⟨main_cst_28, rfl, by decide⟩, ⟨main_v150, rfl, by decide⟩, ⟨main_v151, rfl, by decide⟩,
    ⟨main_v152, rfl, by decide⟩, ⟨main_v153, rfl, by decide⟩, ⟨main_v154, rfl, by decide⟩, ⟨main_v155, rfl, by decide⟩, ⟨main_v156, rfl, by decide⟩, ⟨main_c_29, rfl, by decide⟩,
    ⟨main_v157, rfl, by decide⟩, ⟨main_v158, rfl, by decide⟩, ⟨main_c_30, rfl, by decide⟩, ⟨main_v159, rfl, by decide⟩, ⟨main_v160, rfl, by decide⟩, ⟨main_v161, rfl, by decide⟩,
    ⟨main_v162, rfl, by decide⟩, ⟨main_v163, rfl, by decide⟩, ⟨main_v164, rfl, by decide⟩, ⟨main_v165, rfl, by decide⟩, ⟨main_v166, rfl, by decide⟩, ⟨main_cst_31, rfl, by decide⟩,
    ⟨main_v167, rfl, by decide⟩, ⟨main_v168, rfl, by decide⟩, ⟨main_v169, rfl, by decide⟩, ⟨main_cst_32, rfl, by decide⟩, ⟨main_v170, rfl, by decide⟩, ⟨main_v171, rfl, by decide⟩,
    ⟨main_v172, rfl, by decide⟩, ⟨main_v173, rfl, by decide⟩, ⟨main_v174, rfl, by decide⟩, ⟨main_v175, rfl, by decide⟩, ⟨main_v176, rfl, by decide⟩, ⟨main_v177, rfl, by decide⟩,
    ⟨main_v178, rfl, by decide⟩, ⟨main_v179, rfl, by decide⟩, ⟨main_call3_cst, rfl, by decide⟩, ⟨main_call3_v0, rfl, by decide⟩, ⟨main_call3_v1, rfl, by decide⟩, ⟨main_call3_cst_0, rfl, by decide⟩,
    ⟨main_call3_v2, rfl, by decide⟩, ⟨main_call3_v3, rfl, by decide⟩, ⟨main_v180, rfl, by decide⟩⟩

set_option maxHeartbeats 40000000 in
/-- Operations main_cst_33 … main_v199 of the reference program (44), in order. -/
abbrev opsC2b : List (HloOp τ sig (Elt F)) :=
  ( StableHlo.nullary main_cst_33 (constant S_ .f32 0x00000000#32)
  :: StableHlo.binary main_v180 main_cst_33 main_v181 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F))
  :: StableHlo.nullary main_cst_34 (constant S_ .f32 0x47435000#32)
  :: StableHlo.unary main_cst_34 main_v182 (broadcastInDim S128 ![] bcast_S_S128 : (⟨S_, .f32⟩ : BufTy).Contents (Elt F) → (⟨S128, .f32⟩ : BufTy).Contents (Elt F))
  :: StableHlo.binary main_v181 main_v182 main_v183 (Host.divf : (⟨S128, .f32⟩ : BufTy).Contents (Elt F) → (⟨S128, .f32⟩ : BufTy).Contents (Elt F) → (⟨S128, .f32⟩ : BufTy).Contents (Elt F))
  :: StableHlo.nullary main_c_35 (constantI S_ 32 0#32)
  :: StableHlo.TRef.nullary (.of main_call4_cst : StableHlo.TRef sig ⟨S_, .f32⟩) (constant S_ .f32 0x00000000#32)
  :: StableHlo.TRef.binary (.of main_v180 : StableHlo.TRef sig ⟨S50000x128, .f32⟩) (.of main_call4_cst : StableHlo.TRef sig ⟨S_, .f32⟩) (.of main_call4_v0 : StableHlo.TRef sig ⟨S128, .f32⟩) (fun x v => Host.reduceAdd x v reducesTo_S50000x128_S128_d0 h_S_)
  :: StableHlo.TRef.unary (.of main_call4_v0 : StableHlo.TRef sig ⟨S128, .f32⟩) (.of main_call4_v1 : StableHlo.TRef sig ⟨S1x128, .f32⟩) (broadcastInDim S1x128 ![1] bcast_S128_S1x128_1)
  :: StableHlo.TRef.nullary (.of main_call4_cst_0 : StableHlo.TRef sig ⟨S_, .f32⟩) (constant S_ .f32 0x47435000#32)
  :: StableHlo.TRef.unary (.of main_call4_cst_0 : StableHlo.TRef sig ⟨S_, .f32⟩) (.of main_call4_v2 : StableHlo.TRef sig ⟨S1x128, .f32⟩) (broadcastInDim S1x128 ![] bcast_S_S1x128)
  :: StableHlo.TRef.binary (.of main_call4_v1 : StableHlo.TRef sig ⟨S1x128, .f32⟩) (.of main_call4_v2 : StableHlo.TRef sig ⟨S1x128, .f32⟩) (.of main_call4_v3 : StableHlo.TRef sig ⟨S1x128, .f32⟩) Host.divf
  :: StableHlo.TRef.unary (.of main_call4_v3 : StableHlo.TRef sig ⟨S1x128, .f32⟩) (.of main_call4_v4 : StableHlo.TRef sig ⟨S50000x128, .f32⟩) (broadcastInDim S50000x128 ![0, 1] bcast_S1x128_S50000x128_0_1)
  :: StableHlo.TRef.binary (.of main_v180 : StableHlo.TRef sig ⟨S50000x128, .f32⟩) (.of main_call4_v4 : StableHlo.TRef sig ⟨S50000x128, .f32⟩) (.of main_call4_v5 : StableHlo.TRef sig ⟨S50000x128, .f32⟩) subf
  :: StableHlo.TRef.binary (.of main_call4_v5 : StableHlo.TRef sig ⟨S50000x128, .f32⟩) (.of main_call4_v5 : StableHlo.TRef sig ⟨S50000x128, .f32⟩) (.of main_call4_v6 : StableHlo.TRef sig ⟨S50000x128, .f32⟩) mulf
  :: StableHlo.TRef.unary (.of main_c_35 : StableHlo.TRef sig ⟨S_, .i32⟩) (.of main_call4_v7 : StableHlo.TRef sig ⟨S_, .f32⟩) (sitofp .f32)
  :: StableHlo.TRef.nullary (.of main_call4_cst_1 : StableHlo.TRef sig ⟨S_, .f32⟩) (constant S_ .f32 0x47435000#32)
  :: StableHlo.TRef.binary (.of main_call4_cst_1 : StableHlo.TRef sig ⟨S_, .f32⟩) (.of main_call4_v7 : StableHlo.TRef sig ⟨S_, .f32⟩) (.of main_call4_v8 : StableHlo.TRef sig ⟨S_, .f32⟩) subf
  :: StableHlo.TRef.nullary (.of main_call4_cst_2 : StableHlo.TRef sig ⟨S_, .f32⟩) (constant S_ .f32 0x00000000#32)
  :: StableHlo.TRef.binary (.of main_call4_v6 : StableHlo.TRef sig ⟨S50000x128, .f32⟩) (.of main_call4_cst_2 : StableHlo.TRef sig ⟨S_, .f32⟩) (.of main_call4_v9 : StableHlo.TRef sig ⟨S128, .f32⟩) (fun x v => Host.reduceAdd x v reducesTo_S50000x128_S128_d0 h_S_)
  :: StableHlo.TRef.unary (.of main_call4_v8 : StableHlo.TRef sig ⟨S_, .f32⟩) (.of main_call4_v10 : StableHlo.TRef sig ⟨S128, .f32⟩) (broadcastInDim S128 ![] bcast_S_S128)
  :: StableHlo.TRef.binary (.of main_call4_v9 : StableHlo.TRef sig ⟨S128, .f32⟩) (.of main_call4_v10 : StableHlo.TRef sig ⟨S128, .f32⟩) (.of main_call4_v11 : StableHlo.TRef sig ⟨S128, .f32⟩) Host.divf
  :: StableHlo.TRef.nullary (.of main_call4_cst_3 : StableHlo.TRef sig ⟨S_, .f32⟩) (constant S_ .f32 0x00000000#32)
  :: StableHlo.TRef.binary (.of main_call4_v8 : StableHlo.TRef sig ⟨S_, .f32⟩) (.of main_call4_cst_3 : StableHlo.TRef sig ⟨S_, .f32⟩) (.of main_call4_v12 : StableHlo.TRef sig ⟨S_, .i1⟩) (cmpf .ogt)
  :: StableHlo.TRef.nullary (.of main_call4_cst_4 : StableHlo.TRef sig ⟨S_, .f32⟩) (constant S_ .f32 0x7FC00000#32)
  :: StableHlo.TRef.unary (.of main_call4_cst_4 : StableHlo.TRef sig ⟨S_, .f32⟩) (.of main_call4_call0_v0 : StableHlo.TRef sig ⟨S_, .f32⟩) id
  :: StableHlo.TRef.unary (.of main_call4_call0_v0 : StableHlo.TRef sig ⟨S_, .f32⟩) (.of main_call4_call0_v1 : StableHlo.TRef sig ⟨S128, .f32⟩) (broadcastInDim S128 ![] bcast_S_S128)
  :: StableHlo.TRef.ternary (.of main_call4_v12 : StableHlo.TRef sig ⟨S_, .i1⟩) (.of main_call4_v11 : StableHlo.TRef sig ⟨S128, .f32⟩) (.of main_call4_call0_v1 : StableHlo.TRef sig ⟨S128, .f32⟩) (.of main_v184 : StableHlo.TRef sig ⟨S128, .f32⟩) (fun p a b => select (broadcastInDim S128 ![] bcast_S_S128 p) a b)
  :: StableHlo.unary main_v183 main_v185 (broadcastInDim S1x128 ![1] bcast_S128_S1x128_1 : (⟨S128, .f32⟩ : BufTy).Contents (Elt F) → (⟨S1x128, .f32⟩ : BufTy).Contents (Elt F))
  :: StableHlo.unary main_v185 main_v186 (broadcastInDim S50000x128 ![0, 1] bcast_S1x128_S50000x128_0_1 : (⟨S1x128, .f32⟩ : BufTy).Contents (Elt F) → (⟨S50000x128, .f32⟩ : BufTy).Contents (Elt F))
  :: StableHlo.binary main_v180 main_v186 main_v187 (subf : (⟨S50000x128, .f32⟩ : BufTy).Contents (Elt F) → (⟨S50000x128, .f32⟩ : BufTy).Contents (Elt F) → (⟨S50000x128, .f32⟩ : BufTy).Contents (Elt F))
  :: StableHlo.nullary main_cst_36 (constant S_ .f32 0x3727C5AC#32)
  :: StableHlo.unary main_cst_36 main_v188 (broadcastInDim S128 ![] bcast_S_S128 : (⟨S_, .f32⟩ : BufTy).Contents (Elt F) → (⟨S128, .f32⟩ : BufTy).Contents (Elt F))
  :: StableHlo.binary main_v184 main_v188 main_v189 (addf : (⟨S128, .f32⟩ : BufTy).Contents (Elt F) → (⟨S128, .f32⟩ : BufTy).Contents (Elt F) → (⟨S128, .f32⟩ : BufTy).Contents (Elt F))
  :: StableHlo.unary main_v189 main_v190 (Host.rsqrt : (⟨S128, .f32⟩ : BufTy).Contents (Elt F) → (⟨S128, .f32⟩ : BufTy).Contents (Elt F))
  :: StableHlo.unary main_v190 main_v191 (broadcastInDim S1x128 ![1] bcast_S128_S1x128_1 : (⟨S128, .f32⟩ : BufTy).Contents (Elt F) → (⟨S1x128, .f32⟩ : BufTy).Contents (Elt F))
  :: StableHlo.unary main_v191 main_v192 (broadcastInDim S50000x128 ![0, 1] bcast_S1x128_S50000x128_0_1 : (⟨S1x128, .f32⟩ : BufTy).Contents (Elt F) → (⟨S50000x128, .f32⟩ : BufTy).Contents (Elt F))
  :: StableHlo.binary main_v187 main_v192 main_v193 (mulf : (⟨S50000x128, .f32⟩ : BufTy).Contents (Elt F) → (⟨S50000x128, .f32⟩ : BufTy).Contents (Elt F) → (⟨S50000x128, .f32⟩ : BufTy).Contents (Elt F))
  :: StableHlo.unary main_arg12 main_v194 (broadcastInDim S1x128 ![1] bcast_S128_S1x128_1 : (⟨S128, .f32⟩ : BufTy).Contents (Elt F) → (⟨S1x128, .f32⟩ : BufTy).Contents (Elt F))
  :: StableHlo.unary main_v194 main_v195 (broadcastInDim S50000x128 ![0, 1] bcast_S1x128_S50000x128_0_1 : (⟨S1x128, .f32⟩ : BufTy).Contents (Elt F) → (⟨S50000x128, .f32⟩ : BufTy).Contents (Elt F))
  :: StableHlo.binary main_v193 main_v195 main_v196 (mulf : (⟨S50000x128, .f32⟩ : BufTy).Contents (Elt F) → (⟨S50000x128, .f32⟩ : BufTy).Contents (Elt F) → (⟨S50000x128, .f32⟩ : BufTy).Contents (Elt F))
  :: StableHlo.unary main_arg13 main_v197 (broadcastInDim S1x128 ![1] bcast_S128_S1x128_1 : (⟨S128, .f32⟩ : BufTy).Contents (Elt F) → (⟨S1x128, .f32⟩ : BufTy).Contents (Elt F))
  :: StableHlo.unary main_v197 main_v198 (broadcastInDim S50000x128 ![0, 1] bcast_S1x128_S50000x128_0_1 : (⟨S1x128, .f32⟩ : BufTy).Contents (Elt F) → (⟨S50000x128, .f32⟩ : BufTy).Contents (Elt F))
  :: StableHlo.binary main_v196 main_v198 main_v199 (addf : (⟨S50000x128, .f32⟩ : BufTy).Contents (Elt F) → (⟨S50000x128, .f32⟩ : BufTy).Contents (Elt F) → (⟨S50000x128, .f32⟩ : BufTy).Contents (Elt F))
  :: [] )

/-- Each operation of opsC2b touches TensorCore references only. -/
theorem opsC2b_sub : (opsC2b : List (HloOp τ sig (Elt F))).Forall fun op => op.bufs ⊆ StableHlo.tcRefs τ sig :=
  ⟨StableHlo.nullary_bufs_sub .., StableHlo.binary_bufs_sub .., StableHlo.nullary_bufs_sub .., StableHlo.unary_bufs_sub .., StableHlo.binary_bufs_sub .., StableHlo.nullary_bufs_sub ..,
    StableHlo.nullary_bufs_sub .., StableHlo.binary_bufs_sub .., StableHlo.unary_bufs_sub .., StableHlo.nullary_bufs_sub .., StableHlo.unary_bufs_sub .., StableHlo.binary_bufs_sub ..,
    StableHlo.unary_bufs_sub .., StableHlo.binary_bufs_sub .., StableHlo.binary_bufs_sub .., StableHlo.unary_bufs_sub .., StableHlo.nullary_bufs_sub .., StableHlo.binary_bufs_sub ..,
    StableHlo.nullary_bufs_sub .., StableHlo.binary_bufs_sub .., StableHlo.unary_bufs_sub .., StableHlo.binary_bufs_sub .., StableHlo.nullary_bufs_sub .., StableHlo.binary_bufs_sub ..,
    StableHlo.nullary_bufs_sub .., StableHlo.unary_bufs_sub .., StableHlo.unary_bufs_sub .., StableHlo.ternary_bufs_sub .., StableHlo.unary_bufs_sub .., StableHlo.unary_bufs_sub ..,
    StableHlo.binary_bufs_sub .., StableHlo.nullary_bufs_sub .., StableHlo.unary_bufs_sub .., StableHlo.binary_bufs_sub .., StableHlo.unary_bufs_sub .., StableHlo.unary_bufs_sub ..,
    StableHlo.unary_bufs_sub .., StableHlo.binary_bufs_sub .., StableHlo.unary_bufs_sub .., StableHlo.unary_bufs_sub .., StableHlo.binary_bufs_sub .., StableHlo.unary_bufs_sub ..,
    StableHlo.unary_bufs_sub .., StableHlo.binary_bufs_sub ..⟩
/-- No operation of opsC2b allocates a buffer. -/
theorem opsC2b_fresh : (opsC2b : List (HloOp τ sig (Elt F))).Forall fun op => op.fresh = ∅ := by
  simp only [List.Forall]; repeat' constructor
/-- Each operation of opsC2b writes one buffer, and it is none of the sixteen arguments' (those are the references of index below 16). -/
theorem opsC2b_high : (opsC2b : List (HloOp τ sig (Elt F))).Forall WritesHigh :=
  ⟨⟨main_cst_33, rfl, by decide⟩, ⟨main_v181, rfl, by decide⟩, ⟨main_cst_34, rfl, by decide⟩, ⟨main_v182, rfl, by decide⟩, ⟨main_v183, rfl, by decide⟩, ⟨main_c_35, rfl, by decide⟩,
    ⟨main_call4_cst, rfl, by decide⟩, ⟨main_call4_v0, rfl, by decide⟩, ⟨main_call4_v1, rfl, by decide⟩, ⟨main_call4_cst_0, rfl, by decide⟩, ⟨main_call4_v2, rfl, by decide⟩, ⟨main_call4_v3, rfl, by decide⟩,
    ⟨main_call4_v4, rfl, by decide⟩, ⟨main_call4_v5, rfl, by decide⟩, ⟨main_call4_v6, rfl, by decide⟩, ⟨main_call4_v7, rfl, by decide⟩, ⟨main_call4_cst_1, rfl, by decide⟩, ⟨main_call4_v8, rfl, by decide⟩,
    ⟨main_call4_cst_2, rfl, by decide⟩, ⟨main_call4_v9, rfl, by decide⟩, ⟨main_call4_v10, rfl, by decide⟩, ⟨main_call4_v11, rfl, by decide⟩, ⟨main_call4_cst_3, rfl, by decide⟩, ⟨main_call4_v12, rfl, by decide⟩,
    ⟨main_call4_cst_4, rfl, by decide⟩, ⟨main_call4_call0_v0, rfl, by decide⟩, ⟨main_call4_call0_v1, rfl, by decide⟩, ⟨main_v184, rfl, by decide⟩, ⟨main_v185, rfl, by decide⟩, ⟨main_v186, rfl, by decide⟩,
    ⟨main_v187, rfl, by decide⟩, ⟨main_cst_36, rfl, by decide⟩, ⟨main_v188, rfl, by decide⟩, ⟨main_v189, rfl, by decide⟩, ⟨main_v190, rfl, by decide⟩, ⟨main_v191, rfl, by decide⟩,
    ⟨main_v192, rfl, by decide⟩, ⟨main_v193, rfl, by decide⟩, ⟨main_v194, rfl, by decide⟩, ⟨main_v195, rfl, by decide⟩, ⟨main_v196, rfl, by decide⟩, ⟨main_v197, rfl, by decide⟩,
    ⟨main_v198, rfl, by decide⟩, ⟨main_v199, rfl, by decide⟩⟩

end Cert.ReferenceIdeal.Hand

end
-- ==== Proof.RefOps2.lean ====
/- The reference program's operations in program order, each call's body written out at its call site over that call's buffers: opsC3a, opsC3b. Each list is a transcription of the printed program; that it is the program is what main_eq proves. -/
import proofs.«175070_j35072702939553_2_alg».proof.Proof.RefBase

set_option maxRecDepth 8192

noncomputable section

namespace Cert.ReferenceIdeal.Hand

open Cert.ReferenceIdeal Cert.ReferenceIdeal.Gen Idealize.ShloMosaic Idealize.ShloMosaic.TcCoe Idealize.SL.Sem

variable {F : FTy → Type} [FloatOps F]

set_option maxHeartbeats 40000000 in
/-- Operations main_v200 … main_v263 of the reference program (77), in order. -/
abbrev opsC3a : List (HloOp τ sig (Elt F)) :=
  ( StableHlo.unary main_arg6 main_v200 ((extractStridedSlice S1x128x128 ![0, 0, 0] · slices_S4x128x128_S1x128x128_0_0_0) : (⟨S4x128x128, .f32⟩ : BufTy).Contents (Elt F) → (⟨S1x128x128, .f32⟩ : BufTy).Contents (Elt F))
  :: StableHlo.reshape main_v200 main_v201 rfl shapeCasts_S1x128x128_S128x128
  :: StableHlo.binary main_v199 main_v201 main_v202 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F))
  :: StableHlo.nullary main_c_37 (constantI S_ 32 0#32)
  :: StableHlo.unary main_c_37 main_v203 (broadcastInDim S800000 ![] bcast_S_S800000 : (⟨S_, .i32⟩ : BufTy).Contents (Elt F) → (⟨S800000, .i32⟩ : BufTy).Contents (Elt F))
  :: StableHlo.binary main_v1 main_v203 main_v204 (cmpi .slt : (⟨S800000, .i32⟩ : BufTy).Contents (Elt F) → (⟨S800000, .i32⟩ : BufTy).Contents (Elt F) → (⟨S800000, .i1⟩ : BufTy).Contents (Elt F))
  :: StableHlo.nullary main_c_38 (constantI S_ 32 50000#32)
  :: StableHlo.unary main_c_38 main_v205 (broadcastInDim S800000 ![] bcast_S_S800000 : (⟨S_, .i32⟩ : BufTy).Contents (Elt F) → (⟨S800000, .i32⟩ : BufTy).Contents (Elt F))
  :: StableHlo.binary main_v1 main_v205 main_v206 (addi : (⟨S800000, .i32⟩ : BufTy).Contents (Elt F) → (⟨S800000, .i32⟩ : BufTy).Contents (Elt F) → (⟨S800000, .i32⟩ : BufTy).Contents (Elt F))
  :: StableHlo.ternary main_v204 main_v206 main_v1 main_v207 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F))
  :: StableHlo.unary main_v207 main_v208 (broadcastInDim S800000x1 ![0] bcast_S800000_S800000x1_0 : (⟨S800000, .i32⟩ : BufTy).Contents (Elt F) → (⟨S800000x1, .i32⟩ : BufTy).Contents (Elt F))
  :: StableHlo.binary main_v199 main_v208 main_v209 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F))
  :: StableHlo.unary main_v33 main_v210 (broadcastInDim S800000x1 ![0] bcast_S800000_S800000x1_0 : (⟨S800000, .f32⟩ : BufTy).Contents (Elt F) → (⟨S800000x1, .f32⟩ : BufTy).Contents (Elt F))
  :: StableHlo.unary main_v210 main_v211 (broadcastInDim S800000x128 ![0, 1] bcast_S800000x1_S800000x128_0_1 : (⟨S800000x1, .f32⟩ : BufTy).Contents (Elt F) → (⟨S800000x128, .f32⟩ : BufTy).Contents (Elt F))
  :: StableHlo.binary main_v209 main_v211 main_v212 (mulf : (⟨S800000x128, .f32⟩ : BufTy).Contents (Elt F) → (⟨S800000x128, .f32⟩ : BufTy).Contents (Elt F) → (⟨S800000x128, .f32⟩ : BufTy).Contents (Elt F))
  :: StableHlo.nullary main_cst_39 (constant S_ .f32 0x00000000#32)
  :: StableHlo.unary main_cst_39 main_v213 (broadcastInDim S50000x128 ![] bcast_S_S50000x128 : (⟨S_, .f32⟩ : BufTy).Contents (Elt F) → (⟨S50000x128, .f32⟩ : BufTy).Contents (Elt F))
  :: StableHlo.unary main_v3 main_v214 (broadcastInDim S800000x1 ![0] bcast_S800000_S800000x1_0 : (⟨S800000, .i32⟩ : BufTy).Contents (Elt F) → (⟨S800000x1, .i32⟩ : BufTy).Contents (Elt F))
  :: StableHlo.ternary main_v213 main_v214 main_v212 main_v215 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F))
  :: StableHlo.unary main_arg6 main_v216 ((extractStridedSlice S1x128x128 ![1, 0, 0] · slices_S4x128x128_S1x128x128_1_0_0) : (⟨S4x128x128, .f32⟩ : BufTy).Contents (Elt F) → (⟨S1x128x128, .f32⟩ : BufTy).Contents (Elt F))
  :: StableHlo.reshape main_v216 main_v217 rfl shapeCasts_S1x128x128_S128x128
  :: StableHlo.binary main_v215 main_v217 main_v218 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F))
  :: StableHlo.binary main_v202 main_v218 main_v219 (addf : (⟨S50000x128, .f32⟩ : BufTy).Contents (Elt F) → (⟨S50000x128, .f32⟩ : BufTy).Contents (Elt F) → (⟨S50000x128, .f32⟩ : BufTy).Contents (Elt F))
  :: StableHlo.nullary main_c_40 (constantI S_ 32 0#32)
  :: StableHlo.unary main_c_40 main_v220 (broadcastInDim S800000 ![] bcast_S_S800000 : (⟨S_, .i32⟩ : BufTy).Contents (Elt F) → (⟨S800000, .i32⟩ : BufTy).Contents (Elt F))
  :: StableHlo.binary main_v1 main_v220 main_v221 (cmpi .slt : (⟨S800000, .i32⟩ : BufTy).Contents (Elt F) → (⟨S800000, .i32⟩ : BufTy).Contents (Elt F) → (⟨S800000, .i1⟩ : BufTy).Contents (Elt F))
  :: StableHlo.nullary main_c_41 (constantI S_ 32 50000#32)
  :: StableHlo.unary main_c_41 main_v222 (broadcastInDim S800000 ![] bcast_S_S800000 : (⟨S_, .i32⟩ : BufTy).Contents (Elt F) → (⟨S800000, .i32⟩ : BufTy).Contents (Elt F))
  :: StableHlo.binary main_v1 main_v222 main_v223 (addi : (⟨S800000, .i32⟩ : BufTy).Contents (Elt F) → (⟨S800000, .i32⟩ : BufTy).Contents (Elt F) → (⟨S800000, .i32⟩ : BufTy).Contents (Elt F))
  :: StableHlo.ternary main_v221 main_v223 main_v1 main_v224 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F))
  :: StableHlo.unary main_v224 main_v225 (broadcastInDim S800000x1 ![0] bcast_S800000_S800000x1_0 : (⟨S800000, .i32⟩ : BufTy).Contents (Elt F) → (⟨S800000x1, .i32⟩ : BufTy).Contents (Elt F))
  :: StableHlo.binary main_v215 main_v225 main_v226 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F))
  :: StableHlo.unary main_v33 main_v227 (broadcastInDim S800000x1 ![0] bcast_S800000_S800000x1_0 : (⟨S800000, .f32⟩ : BufTy).Contents (Elt F) → (⟨S800000x1, .f32⟩ : BufTy).Contents (Elt F))
  :: StableHlo.unary main_v227 main_v228 (broadcastInDim S800000x128 ![0, 1] bcast_S800000x1_S800000x128_0_1 : (⟨S800000x1, .f32⟩ : BufTy).Contents (Elt F) → (⟨S800000x128, .f32⟩ : BufTy).Contents (Elt F))
  :: StableHlo.binary main_v226 main_v228 main_v229 (mulf : (⟨S800000x128, .f32⟩ : BufTy).Contents (Elt F) → (⟨S800000x128, .f32⟩ : BufTy).Contents (Elt F) → (⟨S800000x128, .f32⟩ : BufTy).Contents (Elt F))
  :: StableHlo.nullary main_cst_42 (constant S_ .f32 0x00000000#32)
  :: StableHlo.unary main_cst_42 main_v230 (broadcastInDim S50000x128 ![] bcast_S_S50000x128 : (⟨S_, .f32⟩ : BufTy).Contents (Elt F) → (⟨S50000x128, .f32⟩ : BufTy).Contents (Elt F))
  :: StableHlo.unary main_v3 main_v231 (broadcastInDim S800000x1 ![0] bcast_S800000_S800000x1_0 : (⟨S800000, .i32⟩ : BufTy).Contents (Elt F) → (⟨S800000x1, .i32⟩ : BufTy).Contents (Elt F))
  :: StableHlo.ternary main_v230 main_v231 main_v229 main_v232 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F))
  :: StableHlo.nullary main_cst_43 (constant S_ .f32 0x40000000#32)
  :: StableHlo.unary main_cst_43 main_v233 (broadcastInDim S50000x128 ![] bcast_S_S50000x128 : (⟨S_, .f32⟩ : BufTy).Contents (Elt F) → (⟨S50000x128, .f32⟩ : BufTy).Contents (Elt F))
  :: StableHlo.binary main_v233 main_v232 main_v234 (mulf : (⟨S50000x128, .f32⟩ : BufTy).Contents (Elt F) → (⟨S50000x128, .f32⟩ : BufTy).Contents (Elt F) → (⟨S50000x128, .f32⟩ : BufTy).Contents (Elt F))
  :: StableHlo.binary main_v234 main_v199 main_v235 (subf : (⟨S50000x128, .f32⟩ : BufTy).Contents (Elt F) → (⟨S50000x128, .f32⟩ : BufTy).Contents (Elt F) → (⟨S50000x128, .f32⟩ : BufTy).Contents (Elt F))
  :: StableHlo.unary main_arg6 main_v236 ((extractStridedSlice S1x128x128 ![2, 0, 0] · slices_S4x128x128_S1x128x128_2_0_0) : (⟨S4x128x128, .f32⟩ : BufTy).Contents (Elt F) → (⟨S1x128x128, .f32⟩ : BufTy).Contents (Elt F))
  :: StableHlo.reshape main_v236 main_v237 rfl shapeCasts_S1x128x128_S128x128
  :: StableHlo.binary main_v235 main_v237 main_v238 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F))
  :: StableHlo.binary main_v219 main_v238 main_v239 (addf : (⟨S50000x128, .f32⟩ : BufTy).Contents (Elt F) → (⟨S50000x128, .f32⟩ : BufTy).Contents (Elt F) → (⟨S50000x128, .f32⟩ : BufTy).Contents (Elt F))
  :: StableHlo.nullary main_c_44 (constantI S_ 32 0#32)
  :: StableHlo.unary main_c_44 main_v240 (broadcastInDim S800000 ![] bcast_S_S800000 : (⟨S_, .i32⟩ : BufTy).Contents (Elt F) → (⟨S800000, .i32⟩ : BufTy).Contents (Elt F))
  :: StableHlo.binary main_v1 main_v240 main_v241 (cmpi .slt : (⟨S800000, .i32⟩ : BufTy).Contents (Elt F) → (⟨S800000, .i32⟩ : BufTy).Contents (Elt F) → (⟨S800000, .i1⟩ : BufTy).Contents (Elt F))
  :: StableHlo.nullary main_c_45 (constantI S_ 32 50000#32)
  :: StableHlo.unary main_c_45 main_v242 (broadcastInDim S800000 ![] bcast_S_S800000 : (⟨S_, .i32⟩ : BufTy).Contents (Elt F) → (⟨S800000, .i32⟩ : BufTy).Contents (Elt F))
  :: StableHlo.binary main_v1 main_v242 main_v243 (addi : (⟨S800000, .i32⟩ : BufTy).Contents (Elt F) → (⟨S800000, .i32⟩ : BufTy).Contents (Elt F) → (⟨S800000, .i32⟩ : BufTy).Contents (Elt F))
  :: StableHlo.ternary main_v241 main_v243 main_v1 main_v244 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F))
  :: StableHlo.unary main_v244 main_v245 (broadcastInDim S800000x1 ![0] bcast_S800000_S800000x1_0 : (⟨S800000, .i32⟩ : BufTy).Contents (Elt F) → (⟨S800000x1, .i32⟩ : BufTy).Contents (Elt F))
  :: StableHlo.binary main_v235 main_v245 main_v246 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F))
  :: StableHlo.unary main_v33 main_v247 (broadcastInDim S800000x1 ![0] bcast_S800000_S800000x1_0 : (⟨S800000, .f32⟩ : BufTy).Contents (Elt F) → (⟨S800000x1, .f32⟩ : BufTy).Contents (Elt F))
  :: StableHlo.unary main_v247 main_v248 (broadcastInDim S800000x128 ![0, 1] bcast_S800000x1_S800000x128_0_1 : (⟨S800000x1, .f32⟩ : BufTy).Contents (Elt F) → (⟨S800000x128, .f32⟩ : BufTy).Contents (Elt F))
  :: StableHlo.binary main_v246 main_v248 main_v249 (mulf : (⟨S800000x128, .f32⟩ : BufTy).Contents (Elt F) → (⟨S800000x128, .f32⟩ : BufTy).Contents (Elt F) → (⟨S800000x128, .f32⟩ : BufTy).Contents (Elt F))
  :: StableHlo.nullary main_cst_46 (constant S_ .f32 0x00000000#32)
  :: StableHlo.unary main_cst_46 main_v250 (broadcastInDim S50000x128 ![] bcast_S_S50000x128 : (⟨S_, .f32⟩ : BufTy).Contents (Elt F) → (⟨S50000x128, .f32⟩ : BufTy).Contents (Elt F))
  :: StableHlo.unary main_v3 main_v251 (broadcastInDim S800000x1 ![0] bcast_S800000_S800000x1_0 : (⟨S800000, .i32⟩ : BufTy).Contents (Elt F) → (⟨S800000x1, .i32⟩ : BufTy).Contents (Elt F))
  :: StableHlo.ternary main_v250 main_v251 main_v249 main_v252 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F))
  :: StableHlo.nullary main_cst_47 (constant S_ .f32 0x40000000#32)
  :: StableHlo.unary main_cst_47 main_v253 (broadcastInDim S50000x128 ![] bcast_S_S50000x128 : (⟨S_, .f32⟩ : BufTy).Contents (Elt F) → (⟨S50000x128, .f32⟩ : BufTy).Contents (Elt F))
  :: StableHlo.binary main_v253 main_v252 main_v254 (mulf : (⟨S50000x128, .f32⟩ : BufTy).Contents (Elt F) → (⟨S50000x128, .f32⟩ : BufTy).Contents (Elt F) → (⟨S50000x128, .f32⟩ : BufTy).Contents (Elt F))
  :: StableHlo.binary main_v254 main_v215 main_v255 (subf : (⟨S50000x128, .f32⟩ : BufTy).Contents (Elt F) → (⟨S50000x128, .f32⟩ : BufTy).Contents (Elt F) → (⟨S50000x128, .f32⟩ : BufTy).Contents (Elt F))
  :: StableHlo.unary main_arg6 main_v256 ((extractStridedSlice S1x128x128 ![3, 0, 0] · slices_S4x128x128_S1x128x128_3_0_0) : (⟨S4x128x128, .f32⟩ : BufTy).Contents (Elt F) → (⟨S1x128x128, .f32⟩ : BufTy).Contents (Elt F))
  :: StableHlo.reshape main_v256 main_v257 rfl shapeCasts_S1x128x128_S128x128
  :: StableHlo.binary main_v255 main_v257 main_v258 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F))
  :: StableHlo.binary main_v239 main_v258 main_v259 (addf : (⟨S50000x128, .f32⟩ : BufTy).Contents (Elt F) → (⟨S50000x128, .f32⟩ : BufTy).Contents (Elt F) → (⟨S50000x128, .f32⟩ : BufTy).Contents (Elt F))
  :: StableHlo.unary main_arg7 main_v260 (broadcastInDim S1x128 ![1] bcast_S128_S1x128_1 : (⟨S128, .f32⟩ : BufTy).Contents (Elt F) → (⟨S1x128, .f32⟩ : BufTy).Contents (Elt F))
  :: StableHlo.unary main_v260 main_v261 (broadcastInDim S50000x128 ![0, 1] bcast_S1x128_S50000x128_0_1 : (⟨S1x128, .f32⟩ : BufTy).Contents (Elt F) → (⟨S50000x128, .f32⟩ : BufTy).Contents (Elt F))
  :: StableHlo.binary main_v259 main_v261 main_v262 (addf : (⟨S50000x128, .f32⟩ : BufTy).Contents (Elt F) → (⟨S50000x128, .f32⟩ : BufTy).Contents (Elt F) → (⟨S50000x128, .f32⟩ : BufTy).Contents (Elt F))
  :: StableHlo.TRef.nullary (.of main_call5_cst : StableHlo.TRef sig ⟨S_, .f32⟩) (constant S_ .f32 0x00000000#32)
  :: StableHlo.TRef.unary (.of main_call5_cst : StableHlo.TRef sig ⟨S_, .f32⟩) (.of main_call5_v0 : StableHlo.TRef sig ⟨S50000x128, .f32⟩) (broadcastInDim S50000x128 ![] bcast_S_S50000x128)
  :: StableHlo.TRef.binary (.of main_v262 : StableHlo.TRef sig ⟨S50000x128, .f32⟩) (.of main_call5_v0 : StableHlo.TRef sig ⟨S50000x128, .f32⟩) (.of main_v263 : StableHlo.TRef sig ⟨S50000x128, .f32⟩) maximumf
  :: [] )

/-- Each operation of opsC3a touches TensorCore references only. -/
theorem opsC3a_sub : (opsC3a : List (HloOp τ sig (Elt F))).Forall fun op => op.bufs ⊆ StableHlo.tcRefs τ sig :=
  ⟨StableHlo.unary_bufs_sub .., StableHlo.reshape_bufs_sub .., StableHlo.binary_bufs_sub .., StableHlo.nullary_bufs_sub .., StableHlo.unary_bufs_sub .., StableHlo.binary_bufs_sub ..,
    StableHlo.nullary_bufs_sub .., StableHlo.unary_bufs_sub .., StableHlo.binary_bufs_sub .., StableHlo.ternary_bufs_sub .., StableHlo.unary_bufs_sub .., StableHlo.binary_bufs_sub ..,
    StableHlo.unary_bufs_sub .., StableHlo.unary_bufs_sub .., StableHlo.binary_bufs_sub .., StableHlo.nullary_bufs_sub .., StableHlo.unary_bufs_sub .., StableHlo.unary_bufs_sub ..,
    StableHlo.ternary_bufs_sub .., StableHlo.unary_bufs_sub .., StableHlo.reshape_bufs_sub .., StableHlo.binary_bufs_sub .., StableHlo.binary_bufs_sub .., StableHlo.nullary_bufs_sub ..,
    StableHlo.unary_bufs_sub .., StableHlo.binary_bufs_sub .., StableHlo.nullary_bufs_sub .., StableHlo.unary_bufs_sub .., StableHlo.binary_bufs_sub .., StableHlo.ternary_bufs_sub ..,
    StableHlo.unary_bufs_sub .., StableHlo.binary_bufs_sub .., StableHlo.unary_bufs_sub .., StableHlo.unary_bufs_sub .., StableHlo.binary_bufs_sub .., StableHlo.nullary_bufs_sub ..,
    StableHlo.unary_bufs_sub .., StableHlo.unary_bufs_sub .., StableHlo.ternary_bufs_sub .., StableHlo.nullary_bufs_sub .., StableHlo.unary_bufs_sub .., StableHlo.binary_bufs_sub ..,
    StableHlo.binary_bufs_sub .., StableHlo.unary_bufs_sub .., StableHlo.reshape_bufs_sub .., StableHlo.binary_bufs_sub .., StableHlo.binary_bufs_sub .., StableHlo.nullary_bufs_sub ..,
    StableHlo.unary_bufs_sub .., StableHlo.binary_bufs_sub .., StableHlo.nullary_bufs_sub .., StableHlo.unary_bufs_sub .., StableHlo.binary_bufs_sub .., StableHlo.ternary_bufs_sub ..,
    StableHlo.unary_bufs_sub .., StableHlo.binary_bufs_sub .., StableHlo.unary_bufs_sub .., StableHlo.unary_bufs_sub .., StableHlo.binary_bufs_sub .., StableHlo.nullary_bufs_sub ..,
    StableHlo.unary_bufs_sub .., StableHlo.unary_bufs_sub .., StableHlo.ternary_bufs_sub .., StableHlo.nullary_bufs_sub .., StableHlo.unary_bufs_sub .., StableHlo.binary_bufs_sub ..,
    StableHlo.binary_bufs_sub .., StableHlo.unary_bufs_sub .., StableHlo.reshape_bufs_sub .., StableHlo.binary_bufs_sub .., StableHlo.binary_bufs_sub .., StableHlo.unary_bufs_sub ..,
    StableHlo.unary_bufs_sub .., StableHlo.binary_bufs_sub .., StableHlo.nullary_bufs_sub .., StableHlo.unary_bufs_sub .., StableHlo.binary_bufs_sub ..⟩
/-- No operation of opsC3a allocates a buffer. -/
theorem opsC3a_fresh : (opsC3a : List (HloOp τ sig (Elt F))).Forall fun op => op.fresh = ∅ := by
  simp only [List.Forall]; repeat' constructor
/-- Each operation of opsC3a writes one buffer, and it is none of the sixteen arguments' (those are the references of index below 16). -/
theorem opsC3a_high : (opsC3a : List (HloOp τ sig (Elt F))).Forall WritesHigh :=
  ⟨⟨main_v200, rfl, by decide⟩, ⟨main_v201, rfl, by decide⟩, ⟨main_v202, rfl, by decide⟩, ⟨main_c_37, rfl, by decide⟩, ⟨main_v203, rfl, by decide⟩, ⟨main_v204, rfl, by decide⟩,
    ⟨main_c_38, rfl, by decide⟩, ⟨main_v205, rfl, by decide⟩, ⟨main_v206, rfl, by decide⟩, ⟨main_v207, rfl, by decide⟩, ⟨main_v208, rfl, by decide⟩, ⟨main_v209, rfl, by decide⟩,
    ⟨main_v210, rfl, by decide⟩, ⟨main_v211, rfl, by decide⟩, ⟨main_v212, rfl, by decide⟩, ⟨main_cst_39, rfl, by decide⟩, ⟨main_v213, rfl, by decide⟩, ⟨main_v214, rfl, by decide⟩,
    ⟨main_v215, rfl, by decide⟩, ⟨main_v216, rfl, by decide⟩, ⟨main_v217, rfl, by decide⟩, ⟨main_v218, rfl, by decide⟩, ⟨main_v219, rfl, by decide⟩, ⟨main_c_40, rfl, by decide⟩,
    ⟨main_v220, rfl, by decide⟩, ⟨main_v221, rfl, by decide⟩, ⟨main_c_41, rfl, by decide⟩, ⟨main_v222, rfl, by decide⟩, ⟨main_v223, rfl, by decide⟩, ⟨main_v224, rfl, by decide⟩,
    ⟨main_v225, rfl, by decide⟩, ⟨main_v226, rfl, by decide⟩, ⟨main_v227, rfl, by decide⟩, ⟨main_v228, rfl, by decide⟩, ⟨main_v229, rfl, by decide⟩, ⟨main_cst_42, rfl, by decide⟩,
    ⟨main_v230, rfl, by decide⟩, ⟨main_v231, rfl, by decide⟩, ⟨main_v232, rfl, by decide⟩, ⟨main_cst_43, rfl, by decide⟩, ⟨main_v233, rfl, by decide⟩, ⟨main_v234, rfl, by decide⟩,
    ⟨main_v235, rfl, by decide⟩, ⟨main_v236, rfl, by decide⟩, ⟨main_v237, rfl, by decide⟩, ⟨main_v238, rfl, by decide⟩, ⟨main_v239, rfl, by decide⟩, ⟨main_c_44, rfl, by decide⟩,
    ⟨main_v240, rfl, by decide⟩, ⟨main_v241, rfl, by decide⟩, ⟨main_c_45, rfl, by decide⟩, ⟨main_v242, rfl, by decide⟩, ⟨main_v243, rfl, by decide⟩, ⟨main_v244, rfl, by decide⟩,
    ⟨main_v245, rfl, by decide⟩, ⟨main_v246, rfl, by decide⟩, ⟨main_v247, rfl, by decide⟩, ⟨main_v248, rfl, by decide⟩, ⟨main_v249, rfl, by decide⟩, ⟨main_cst_46, rfl, by decide⟩,
    ⟨main_v250, rfl, by decide⟩, ⟨main_v251, rfl, by decide⟩, ⟨main_v252, rfl, by decide⟩, ⟨main_cst_47, rfl, by decide⟩, ⟨main_v253, rfl, by decide⟩, ⟨main_v254, rfl, by decide⟩,
    ⟨main_v255, rfl, by decide⟩, ⟨main_v256, rfl, by decide⟩, ⟨main_v257, rfl, by decide⟩, ⟨main_v258, rfl, by decide⟩, ⟨main_v259, rfl, by decide⟩, ⟨main_v260, rfl, by decide⟩,
    ⟨main_v261, rfl, by decide⟩, ⟨main_v262, rfl, by decide⟩, ⟨main_call5_cst, rfl, by decide⟩, ⟨main_call5_v0, rfl, by decide⟩, ⟨main_v263, rfl, by decide⟩⟩

set_option maxHeartbeats 40000000 in
/-- Operations main_cst_48 … main_v282 of the reference program (44), in order. -/
abbrev opsC3b : List (HloOp τ sig (Elt F)) :=
  ( StableHlo.nullary main_cst_48 (constant S_ .f32 0x00000000#32)
  :: StableHlo.binary main_v263 main_cst_48 main_v264 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F))
  :: StableHlo.nullary main_cst_49 (constant S_ .f32 0x47435000#32)
  :: StableHlo.unary main_cst_49 main_v265 (broadcastInDim S128 ![] bcast_S_S128 : (⟨S_, .f32⟩ : BufTy).Contents (Elt F) → (⟨S128, .f32⟩ : BufTy).Contents (Elt F))
  :: StableHlo.binary main_v264 main_v265 main_v266 (Host.divf : (⟨S128, .f32⟩ : BufTy).Contents (Elt F) → (⟨S128, .f32⟩ : BufTy).Contents (Elt F) → (⟨S128, .f32⟩ : BufTy).Contents (Elt F))
  :: StableHlo.nullary main_c_50 (constantI S_ 32 0#32)
  :: StableHlo.TRef.nullary (.of main_call6_cst : StableHlo.TRef sig ⟨S_, .f32⟩) (constant S_ .f32 0x00000000#32)
  :: StableHlo.TRef.binary (.of main_v263 : StableHlo.TRef sig ⟨S50000x128, .f32⟩) (.of main_call6_cst : StableHlo.TRef sig ⟨S_, .f32⟩) (.of main_call6_v0 : StableHlo.TRef sig ⟨S128, .f32⟩) (fun x v => Host.reduceAdd x v reducesTo_S50000x128_S128_d0 h_S_)
  :: StableHlo.TRef.unary (.of main_call6_v0 : StableHlo.TRef sig ⟨S128, .f32⟩) (.of main_call6_v1 : StableHlo.TRef sig ⟨S1x128, .f32⟩) (broadcastInDim S1x128 ![1] bcast_S128_S1x128_1)
  :: StableHlo.TRef.nullary (.of main_call6_cst_0 : StableHlo.TRef sig ⟨S_, .f32⟩) (constant S_ .f32 0x47435000#32)
  :: StableHlo.TRef.unary (.of main_call6_cst_0 : StableHlo.TRef sig ⟨S_, .f32⟩) (.of main_call6_v2 : StableHlo.TRef sig ⟨S1x128, .f32⟩) (broadcastInDim S1x128 ![] bcast_S_S1x128)
  :: StableHlo.TRef.binary (.of main_call6_v1 : StableHlo.TRef sig ⟨S1x128, .f32⟩) (.of main_call6_v2 : StableHlo.TRef sig ⟨S1x128, .f32⟩) (.of main_call6_v3 : StableHlo.TRef sig ⟨S1x128, .f32⟩) Host.divf
  :: StableHlo.TRef.unary (.of main_call6_v3 : StableHlo.TRef sig ⟨S1x128, .f32⟩) (.of main_call6_v4 : StableHlo.TRef sig ⟨S50000x128, .f32⟩) (broadcastInDim S50000x128 ![0, 1] bcast_S1x128_S50000x128_0_1)
  :: StableHlo.TRef.binary (.of main_v263 : StableHlo.TRef sig ⟨S50000x128, .f32⟩) (.of main_call6_v4 : StableHlo.TRef sig ⟨S50000x128, .f32⟩) (.of main_call6_v5 : StableHlo.TRef sig ⟨S50000x128, .f32⟩) subf
  :: StableHlo.TRef.binary (.of main_call6_v5 : StableHlo.TRef sig ⟨S50000x128, .f32⟩) (.of main_call6_v5 : StableHlo.TRef sig ⟨S50000x128, .f32⟩) (.of main_call6_v6 : StableHlo.TRef sig ⟨S50000x128, .f32⟩) mulf
  :: StableHlo.TRef.unary (.of main_c_50 : StableHlo.TRef sig ⟨S_, .i32⟩) (.of main_call6_v7 : StableHlo.TRef sig ⟨S_, .f32⟩) (sitofp .f32)
  :: StableHlo.TRef.nullary (.of main_call6_cst_1 : StableHlo.TRef sig ⟨S_, .f32⟩) (constant S_ .f32 0x47435000#32)
  :: StableHlo.TRef.binary (.of main_call6_cst_1 : StableHlo.TRef sig ⟨S_, .f32⟩) (.of main_call6_v7 : StableHlo.TRef sig ⟨S_, .f32⟩) (.of main_call6_v8 : StableHlo.TRef sig ⟨S_, .f32⟩) subf
  :: StableHlo.TRef.nullary (.of main_call6_cst_2 : StableHlo.TRef sig ⟨S_, .f32⟩) (constant S_ .f32 0x00000000#32)
  :: StableHlo.TRef.binary (.of main_call6_v6 : StableHlo.TRef sig ⟨S50000x128, .f32⟩) (.of main_call6_cst_2 : StableHlo.TRef sig ⟨S_, .f32⟩) (.of main_call6_v9 : StableHlo.TRef sig ⟨S128, .f32⟩) (fun x v => Host.reduceAdd x v reducesTo_S50000x128_S128_d0 h_S_)
  :: StableHlo.TRef.unary (.of main_call6_v8 : StableHlo.TRef sig ⟨S_, .f32⟩) (.of main_call6_v10 : StableHlo.TRef sig ⟨S128, .f32⟩) (broadcastInDim S128 ![] bcast_S_S128)
  :: StableHlo.TRef.binary (.of main_call6_v9 : StableHlo.TRef sig ⟨S128, .f32⟩) (.of main_call6_v10 : StableHlo.TRef sig ⟨S128, .f32⟩) (.of main_call6_v11 : StableHlo.TRef sig ⟨S128, .f32⟩) Host.divf
  :: StableHlo.TRef.nullary (.of main_call6_cst_3 : StableHlo.TRef sig ⟨S_, .f32⟩) (constant S_ .f32 0x00000000#32)
  :: StableHlo.TRef.binary (.of main_call6_v8 : StableHlo.TRef sig ⟨S_, .f32⟩) (.of main_call6_cst_3 : StableHlo.TRef sig ⟨S_, .f32⟩) (.of main_call6_v12 : StableHlo.TRef sig ⟨S_, .i1⟩) (cmpf .ogt)
  :: StableHlo.TRef.nullary (.of main_call6_cst_4 : StableHlo.TRef sig ⟨S_, .f32⟩) (constant S_ .f32 0x7FC00000#32)
  :: StableHlo.TRef.unary (.of main_call6_cst_4 : StableHlo.TRef sig ⟨S_, .f32⟩) (.of main_call6_call0_v0 : StableHlo.TRef sig ⟨S_, .f32⟩) id
  :: StableHlo.TRef.unary (.of main_call6_call0_v0 : StableHlo.TRef sig ⟨S_, .f32⟩) (.of main_call6_call0_v1 : StableHlo.TRef sig ⟨S128, .f32⟩) (broadcastInDim S128 ![] bcast_S_S128)
  :: StableHlo.TRef.ternary (.of main_call6_v12 : StableHlo.TRef sig ⟨S_, .i1⟩) (.of main_call6_v11 : StableHlo.TRef sig ⟨S128, .f32⟩) (.of main_call6_call0_v1 : StableHlo.TRef sig ⟨S128, .f32⟩) (.of main_v267 : StableHlo.TRef sig ⟨S128, .f32⟩) (fun p a b => select (broadcastInDim S128 ![] bcast_S_S128 p) a b)
  :: StableHlo.unary main_v266 main_v268 (broadcastInDim S1x128 ![1] bcast_S128_S1x128_1 : (⟨S128, .f32⟩ : BufTy).Contents (Elt F) → (⟨S1x128, .f32⟩ : BufTy).Contents (Elt F))
  :: StableHlo.unary main_v268 main_v269 (broadcastInDim S50000x128 ![0, 1] bcast_S1x128_S50000x128_0_1 : (⟨S1x128, .f32⟩ : BufTy).Contents (Elt F) → (⟨S50000x128, .f32⟩ : BufTy).Contents (Elt F))
  :: StableHlo.binary main_v263 main_v269 main_v270 (subf : (⟨S50000x128, .f32⟩ : BufTy).Contents (Elt F) → (⟨S50000x128, .f32⟩ : BufTy).Contents (Elt F) → (⟨S50000x128, .f32⟩ : BufTy).Contents (Elt F))
  :: StableHlo.nullary main_cst_51 (constant S_ .f32 0x3727C5AC#32)
  :: StableHlo.unary main_cst_51 main_v271 (broadcastInDim S128 ![] bcast_S_S128 : (⟨S_, .f32⟩ : BufTy).Contents (Elt F) → (⟨S128, .f32⟩ : BufTy).Contents (Elt F))
  :: StableHlo.binary main_v267 main_v271 main_v272 (addf : (⟨S128, .f32⟩ : BufTy).Contents (Elt F) → (⟨S128, .f32⟩ : BufTy).Contents (Elt F) → (⟨S128, .f32⟩ : BufTy).Contents (Elt F))
  :: StableHlo.unary main_v272 main_v273 (Host.rsqrt : (⟨S128, .f32⟩ : BufTy).Contents (Elt F) → (⟨S128, .f32⟩ : BufTy).Contents (Elt F))
  :: StableHlo.unary main_v273 main_v274 (broadcastInDim S1x128 ![1] bcast_S128_S1x128_1 : (⟨S128, .f32⟩ : BufTy).Contents (Elt F) → (⟨S1x128, .f32⟩ : BufTy).Contents (Elt F))
  :: StableHlo.unary main_v274 main_v275 (broadcastInDim S50000x128 ![0, 1] bcast_S1x128_S50000x128_0_1 : (⟨S1x128, .f32⟩ : BufTy).Contents (Elt F) → (⟨S50000x128, .f32⟩ : BufTy).Contents (Elt F))
  :: StableHlo.binary main_v270 main_v275 main_v276 (mulf : (⟨S50000x128, .f32⟩ : BufTy).Contents (Elt F) → (⟨S50000x128, .f32⟩ : BufTy).Contents (Elt F) → (⟨S50000x128, .f32⟩ : BufTy).Contents (Elt F))
  :: StableHlo.unary main_arg14 main_v277 (broadcastInDim S1x128 ![1] bcast_S128_S1x128_1 : (⟨S128, .f32⟩ : BufTy).Contents (Elt F) → (⟨S1x128, .f32⟩ : BufTy).Contents (Elt F))
  :: StableHlo.unary main_v277 main_v278 (broadcastInDim S50000x128 ![0, 1] bcast_S1x128_S50000x128_0_1 : (⟨S1x128, .f32⟩ : BufTy).Contents (Elt F) → (⟨S50000x128, .f32⟩ : BufTy).Contents (Elt F))
  :: StableHlo.binary main_v276 main_v278 main_v279 (mulf : (⟨S50000x128, .f32⟩ : BufTy).Contents (Elt F) → (⟨S50000x128, .f32⟩ : BufTy).Contents (Elt F) → (⟨S50000x128, .f32⟩ : BufTy).Contents (Elt F))
  :: StableHlo.unary main_arg15 main_v280 (broadcastInDim S1x128 ![1] bcast_S128_S1x128_1 : (⟨S128, .f32⟩ : BufTy).Contents (Elt F) → (⟨S1x128, .f32⟩ : BufTy).Contents (Elt F))
  :: StableHlo.unary main_v280 main_v281 (broadcastInDim S50000x128 ![0, 1] bcast_S1x128_S50000x128_0_1 : (⟨S1x128, .f32⟩ : BufTy).Contents (Elt F) → (⟨S50000x128, .f32⟩ : BufTy).Contents (Elt F))
  :: StableHlo.binary main_v279 main_v281 main_v282 (addf : (⟨S50000x128, .f32⟩ : BufTy).Contents (Elt F) → (⟨S50000x128, .f32⟩ : BufTy).Contents (Elt F) → (⟨S50000x128, .f32⟩ : BufTy).Contents (Elt F))
  :: [] )

/-- Each operation of opsC3b touches TensorCore references only. -/
theorem opsC3b_sub : (opsC3b : List (HloOp τ sig (Elt F))).Forall fun op => op.bufs ⊆ StableHlo.tcRefs τ sig :=
  ⟨StableHlo.nullary_bufs_sub .., StableHlo.binary_bufs_sub .., StableHlo.nullary_bufs_sub .., StableHlo.unary_bufs_sub .., StableHlo.binary_bufs_sub .., StableHlo.nullary_bufs_sub ..,
    StableHlo.nullary_bufs_sub .., StableHlo.binary_bufs_sub .., StableHlo.unary_bufs_sub .., StableHlo.nullary_bufs_sub .., StableHlo.unary_bufs_sub .., StableHlo.binary_bufs_sub ..,
    StableHlo.unary_bufs_sub .., StableHlo.binary_bufs_sub .., StableHlo.binary_bufs_sub .., StableHlo.unary_bufs_sub .., StableHlo.nullary_bufs_sub .., StableHlo.binary_bufs_sub ..,
    StableHlo.nullary_bufs_sub .., StableHlo.binary_bufs_sub .., StableHlo.unary_bufs_sub .., StableHlo.binary_bufs_sub .., StableHlo.nullary_bufs_sub .., StableHlo.binary_bufs_sub ..,
    StableHlo.nullary_bufs_sub .., StableHlo.unary_bufs_sub .., StableHlo.unary_bufs_sub .., StableHlo.ternary_bufs_sub .., StableHlo.unary_bufs_sub .., StableHlo.unary_bufs_sub ..,
    StableHlo.binary_bufs_sub .., StableHlo.nullary_bufs_sub .., StableHlo.unary_bufs_sub .., StableHlo.binary_bufs_sub .., StableHlo.unary_bufs_sub .., StableHlo.unary_bufs_sub ..,
    StableHlo.unary_bufs_sub .., StableHlo.binary_bufs_sub .., StableHlo.unary_bufs_sub .., StableHlo.unary_bufs_sub .., StableHlo.binary_bufs_sub .., StableHlo.unary_bufs_sub ..,
    StableHlo.unary_bufs_sub .., StableHlo.binary_bufs_sub ..⟩
/-- No operation of opsC3b allocates a buffer. -/
theorem opsC3b_fresh : (opsC3b : List (HloOp τ sig (Elt F))).Forall fun op => op.fresh = ∅ := by
  simp only [List.Forall]; repeat' constructor
/-- Each operation of opsC3b writes one buffer, and it is none of the sixteen arguments' (those are the references of index below 16). -/
theorem opsC3b_high : (opsC3b : List (HloOp τ sig (Elt F))).Forall WritesHigh :=
  ⟨⟨main_cst_48, rfl, by decide⟩, ⟨main_v264, rfl, by decide⟩, ⟨main_cst_49, rfl, by decide⟩, ⟨main_v265, rfl, by decide⟩, ⟨main_v266, rfl, by decide⟩, ⟨main_c_50, rfl, by decide⟩,
    ⟨main_call6_cst, rfl, by decide⟩, ⟨main_call6_v0, rfl, by decide⟩, ⟨main_call6_v1, rfl, by decide⟩, ⟨main_call6_cst_0, rfl, by decide⟩, ⟨main_call6_v2, rfl, by decide⟩, ⟨main_call6_v3, rfl, by decide⟩,
    ⟨main_call6_v4, rfl, by decide⟩, ⟨main_call6_v5, rfl, by decide⟩, ⟨main_call6_v6, rfl, by decide⟩, ⟨main_call6_v7, rfl, by decide⟩, ⟨main_call6_cst_1, rfl, by decide⟩, ⟨main_call6_v8, rfl, by decide⟩,
    ⟨main_call6_cst_2, rfl, by decide⟩, ⟨main_call6_v9, rfl, by decide⟩, ⟨main_call6_v10, rfl, by decide⟩, ⟨main_call6_v11, rfl, by decide⟩, ⟨main_call6_cst_3, rfl, by decide⟩, ⟨main_call6_v12, rfl, by decide⟩,
    ⟨main_call6_cst_4, rfl, by decide⟩, ⟨main_call6_call0_v0, rfl, by decide⟩, ⟨main_call6_call0_v1, rfl, by decide⟩, ⟨main_v267, rfl, by decide⟩, ⟨main_v268, rfl, by decide⟩, ⟨main_v269, rfl, by decide⟩,
    ⟨main_v270, rfl, by decide⟩, ⟨main_cst_51, rfl, by decide⟩, ⟨main_v271, rfl, by decide⟩, ⟨main_v272, rfl, by decide⟩, ⟨main_v273, rfl, by decide⟩, ⟨main_v274, rfl, by decide⟩,
    ⟨main_v275, rfl, by decide⟩, ⟨main_v276, rfl, by decide⟩, ⟨main_v277, rfl, by decide⟩, ⟨main_v278, rfl, by decide⟩, ⟨main_v279, rfl, by decide⟩, ⟨main_v280, rfl, by decide⟩,
    ⟨main_v281, rfl, by decide⟩, ⟨main_v282, rfl, by decide⟩⟩

end Cert.ReferenceIdeal.Hand

end
-- ==== Proof.RefOps3.lean ====
/- The reference program's operations in program order, each call's body written out at its call site over that call's buffers: opsC4. Each list is a transcription of the printed program; that it is the program is what main_eq proves. -/
import proofs.«175070_j35072702939553_2_alg».proof.Proof.RefBase

set_option maxRecDepth 8192

noncomputable section

namespace Cert.ReferenceIdeal.Hand

open Cert.ReferenceIdeal Cert.ReferenceIdeal.Gen Idealize.ShloMosaic Idealize.ShloMosaic.TcCoe Idealize.SL.Sem

variable {F : FTy → Type} [FloatOps F]

set_option maxHeartbeats 40000000 in
/-- Operations main_v283 … main_v353 of the reference program (84), in order. -/
abbrev opsC4 : List (HloOp τ sig (Elt F)) :=
  ( StableHlo.unary main_arg8 main_v283 ((extractStridedSlice S1x128x128 ![0, 0, 0] · slices_S4x128x128_S1x128x128_0_0_0) : (⟨S4x128x128, .f32⟩ : BufTy).Contents (Elt F) → (⟨S1x128x128, .f32⟩ : BufTy).Contents (Elt F))
  :: StableHlo.reshape main_v283 main_v284 rfl shapeCasts_S1x128x128_S128x128
  :: StableHlo.binary main_v282 main_v284 main_v285 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F))
  :: StableHlo.nullary main_c_52 (constantI S_ 32 0#32)
  :: StableHlo.unary main_c_52 main_v286 (broadcastInDim S800000 ![] bcast_S_S800000 : (⟨S_, .i32⟩ : BufTy).Contents (Elt F) → (⟨S800000, .i32⟩ : BufTy).Contents (Elt F))
  :: StableHlo.binary main_v1 main_v286 main_v287 (cmpi .slt : (⟨S800000, .i32⟩ : BufTy).Contents (Elt F) → (⟨S800000, .i32⟩ : BufTy).Contents (Elt F) → (⟨S800000, .i1⟩ : BufTy).Contents (Elt F))
  :: StableHlo.nullary main_c_53 (constantI S_ 32 50000#32)
  :: StableHlo.unary main_c_53 main_v288 (broadcastInDim S800000 ![] bcast_S_S800000 : (⟨S_, .i32⟩ : BufTy).Contents (Elt F) → (⟨S800000, .i32⟩ : BufTy).Contents (Elt F))
  :: StableHlo.binary main_v1 main_v288 main_v289 (addi : (⟨S800000, .i32⟩ : BufTy).Contents (Elt F) → (⟨S800000, .i32⟩ : BufTy).Contents (Elt F) → (⟨S800000, .i32⟩ : BufTy).Contents (Elt F))
  :: StableHlo.ternary main_v287 main_v289 main_v1 main_v290 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F))
  :: StableHlo.unary main_v290 main_v291 (broadcastInDim S800000x1 ![0] bcast_S800000_S800000x1_0 : (⟨S800000, .i32⟩ : BufTy).Contents (Elt F) → (⟨S800000x1, .i32⟩ : BufTy).Contents (Elt F))
  :: StableHlo.binary main_v282 main_v291 main_v292 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F))
  :: StableHlo.unary main_v33 main_v293 (broadcastInDim S800000x1 ![0] bcast_S800000_S800000x1_0 : (⟨S800000, .f32⟩ : BufTy).Contents (Elt F) → (⟨S800000x1, .f32⟩ : BufTy).Contents (Elt F))
  :: StableHlo.unary main_v293 main_v294 (broadcastInDim S800000x128 ![0, 1] bcast_S800000x1_S800000x128_0_1 : (⟨S800000x1, .f32⟩ : BufTy).Contents (Elt F) → (⟨S800000x128, .f32⟩ : BufTy).Contents (Elt F))
  :: StableHlo.binary main_v292 main_v294 main_v295 (mulf : (⟨S800000x128, .f32⟩ : BufTy).Contents (Elt F) → (⟨S800000x128, .f32⟩ : BufTy).Contents (Elt F) → (⟨S800000x128, .f32⟩ : BufTy).Contents (Elt F))
  :: StableHlo.nullary main_cst_54 (constant S_ .f32 0x00000000#32)
  :: StableHlo.unary main_cst_54 main_v296 (broadcastInDim S50000x128 ![] bcast_S_S50000x128 : (⟨S_, .f32⟩ : BufTy).Contents (Elt F) → (⟨S50000x128, .f32⟩ : BufTy).Contents (Elt F))
  :: StableHlo.unary main_v3 main_v297 (broadcastInDim S800000x1 ![0] bcast_S800000_S800000x1_0 : (⟨S800000, .i32⟩ : BufTy).Contents (Elt F) → (⟨S800000x1, .i32⟩ : BufTy).Contents (Elt F))
  :: StableHlo.ternary main_v296 main_v297 main_v295 main_v298 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F))
  :: StableHlo.unary main_arg8 main_v299 ((extractStridedSlice S1x128x128 ![1, 0, 0] · slices_S4x128x128_S1x128x128_1_0_0) : (⟨S4x128x128, .f32⟩ : BufTy).Contents (Elt F) → (⟨S1x128x128, .f32⟩ : BufTy).Contents (Elt F))
  :: StableHlo.reshape main_v299 main_v300 rfl shapeCasts_S1x128x128_S128x128
  :: StableHlo.binary main_v298 main_v300 main_v301 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F))
  :: StableHlo.binary main_v285 main_v301 main_v302 (addf : (⟨S50000x128, .f32⟩ : BufTy).Contents (Elt F) → (⟨S50000x128, .f32⟩ : BufTy).Contents (Elt F) → (⟨S50000x128, .f32⟩ : BufTy).Contents (Elt F))
  :: StableHlo.nullary main_c_55 (constantI S_ 32 0#32)
  :: StableHlo.unary main_c_55 main_v303 (broadcastInDim S800000 ![] bcast_S_S800000 : (⟨S_, .i32⟩ : BufTy).Contents (Elt F) → (⟨S800000, .i32⟩ : BufTy).Contents (Elt F))
  :: StableHlo.binary main_v1 main_v303 main_v304 (cmpi .slt : (⟨S800000, .i32⟩ : BufTy).Contents (Elt F) → (⟨S800000, .i32⟩ : BufTy).Contents (Elt F) → (⟨S800000, .i1⟩ : BufTy).Contents (Elt F))
  :: StableHlo.nullary main_c_56 (constantI S_ 32 50000#32)
  :: StableHlo.unary main_c_56 main_v305 (broadcastInDim S800000 ![] bcast_S_S800000 : (⟨S_, .i32⟩ : BufTy).Contents (Elt F) → (⟨S800000, .i32⟩ : BufTy).Contents (Elt F))
  :: StableHlo.binary main_v1 main_v305 main_v306 (addi : (⟨S800000, .i32⟩ : BufTy).Contents (Elt F) → (⟨S800000, .i32⟩ : BufTy).Contents (Elt F) → (⟨S800000, .i32⟩ : BufTy).Contents (Elt F))
  :: StableHlo.ternary main_v304 main_v306 main_v1 main_v307 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F))
  :: StableHlo.unary main_v307 main_v308 (broadcastInDim S800000x1 ![0] bcast_S800000_S800000x1_0 : (⟨S800000, .i32⟩ : BufTy).Contents (Elt F) → (⟨S800000x1, .i32⟩ : BufTy).Contents (Elt F))
  :: StableHlo.binary main_v298 main_v308 main_v309 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F))
  :: StableHlo.unary main_v33 main_v310 (broadcastInDim S800000x1 ![0] bcast_S800000_S800000x1_0 : (⟨S800000, .f32⟩ : BufTy).Contents (Elt F) → (⟨S800000x1, .f32⟩ : BufTy).Contents (Elt F))
  :: StableHlo.unary main_v310 main_v311 (broadcastInDim S800000x128 ![0, 1] bcast_S800000x1_S800000x128_0_1 : (⟨S800000x1, .f32⟩ : BufTy).Contents (Elt F) → (⟨S800000x128, .f32⟩ : BufTy).Contents (Elt F))
  :: StableHlo.binary main_v309 main_v311 main_v312 (mulf : (⟨S800000x128, .f32⟩ : BufTy).Contents (Elt F) → (⟨S800000x128, .f32⟩ : BufTy).Contents (Elt F) → (⟨S800000x128, .f32⟩ : BufTy).Contents (Elt F))
  :: StableHlo.nullary main_cst_57 (constant S_ .f32 0x00000000#32)
  :: StableHlo.unary main_cst_57 main_v313 (broadcastInDim S50000x128 ![] bcast_S_S50000x128 : (⟨S_, .f32⟩ : BufTy).Contents (Elt F) → (⟨S50000x128, .f32⟩ : BufTy).Contents (Elt F))
  :: StableHlo.unary main_v3 main_v314 (broadcastInDim S800000x1 ![0] bcast_S800000_S800000x1_0 : (⟨S800000, .i32⟩ : BufTy).Contents (Elt F) → (⟨S800000x1, .i32⟩ : BufTy).Contents (Elt F))
  :: StableHlo.ternary main_v313 main_v314 main_v312 main_v315 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F))
  :: StableHlo.nullary main_cst_58 (constant S_ .f32 0x40000000#32)
  :: StableHlo.unary main_cst_58 main_v316 (broadcastInDim S50000x128 ![] bcast_S_S50000x128 : (⟨S_, .f32⟩ : BufTy).Contents (Elt F) → (⟨S50000x128, .f32⟩ : BufTy).Contents (Elt F))
  :: StableHlo.binary main_v316 main_v315 main_v317 (mulf : (⟨S50000x128, .f32⟩ : BufTy).Contents (Elt F) → (⟨S50000x128, .f32⟩ : BufTy).Contents (Elt F) → (⟨S50000x128, .f32⟩ : BufTy).Contents (Elt F))
  :: StableHlo.binary main_v317 main_v282 main_v318 (subf : (⟨S50000x128, .f32⟩ : BufTy).Contents (Elt F) → (⟨S50000x128, .f32⟩ : BufTy).Contents (Elt F) → (⟨S50000x128, .f32⟩ : BufTy).Contents (Elt F))
  :: StableHlo.unary main_arg8 main_v319 ((extractStridedSlice S1x128x128 ![2, 0, 0] · slices_S4x128x128_S1x128x128_2_0_0) : (⟨S4x128x128, .f32⟩ : BufTy).Contents (Elt F) → (⟨S1x128x128, .f32⟩ : BufTy).Contents (Elt F))
  :: StableHlo.reshape main_v319 main_v320 rfl shapeCasts_S1x128x128_S128x128
  :: StableHlo.binary main_v318 main_v320 main_v321 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F))
  :: StableHlo.binary main_v302 main_v321 main_v322 (addf : (⟨S50000x128, .f32⟩ : BufTy).Contents (Elt F) → (⟨S50000x128, .f32⟩ : BufTy).Contents (Elt F) → (⟨S50000x128, .f32⟩ : BufTy).Contents (Elt F))
  :: StableHlo.nullary main_c_59 (constantI S_ 32 0#32)
  :: StableHlo.unary main_c_59 main_v323 (broadcastInDim S800000 ![] bcast_S_S800000 : (⟨S_, .i32⟩ : BufTy).Contents (Elt F) → (⟨S800000, .i32⟩ : BufTy).Contents (Elt F))
  :: StableHlo.binary main_v1 main_v323 main_v324 (cmpi .slt : (⟨S800000, .i32⟩ : BufTy).Contents (Elt F) → (⟨S800000, .i32⟩ : BufTy).Contents (Elt F) → (⟨S800000, .i1⟩ : BufTy).Contents (Elt F))
  :: StableHlo.nullary main_c_60 (constantI S_ 32 50000#32)
  :: StableHlo.unary main_c_60 main_v325 (broadcastInDim S800000 ![] bcast_S_S800000 : (⟨S_, .i32⟩ : BufTy).Contents (Elt F) → (⟨S800000, .i32⟩ : BufTy).Contents (Elt F))
  :: StableHlo.binary main_v1 main_v325 main_v326 (addi : (⟨S800000, .i32⟩ : BufTy).Contents (Elt F) → (⟨S800000, .i32⟩ : BufTy).Contents (Elt F) → (⟨S800000, .i32⟩ : BufTy).Contents (Elt F))
  :: StableHlo.ternary main_v324 main_v326 main_v1 main_v327 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F))
  :: StableHlo.unary main_v327 main_v328 (broadcastInDim S800000x1 ![0] bcast_S800000_S800000x1_0 : (⟨S800000, .i32⟩ : BufTy).Contents (Elt F) → (⟨S800000x1, .i32⟩ : BufTy).Contents (Elt F))
  :: StableHlo.binary main_v318 main_v328 main_v329 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F))
  :: StableHlo.unary main_v33 main_v330 (broadcastInDim S800000x1 ![0] bcast_S800000_S800000x1_0 : (⟨S800000, .f32⟩ : BufTy).Contents (Elt F) → (⟨S800000x1, .f32⟩ : BufTy).Contents (Elt F))
  :: StableHlo.unary main_v330 main_v331 (broadcastInDim S800000x128 ![0, 1] bcast_S800000x1_S800000x128_0_1 : (⟨S800000x1, .f32⟩ : BufTy).Contents (Elt F) → (⟨S800000x128, .f32⟩ : BufTy).Contents (Elt F))
  :: StableHlo.binary main_v329 main_v331 main_v332 (mulf : (⟨S800000x128, .f32⟩ : BufTy).Contents (Elt F) → (⟨S800000x128, .f32⟩ : BufTy).Contents (Elt F) → (⟨S800000x128, .f32⟩ : BufTy).Contents (Elt F))
  :: StableHlo.nullary main_cst_61 (constant S_ .f32 0x00000000#32)
  :: StableHlo.unary main_cst_61 main_v333 (broadcastInDim S50000x128 ![] bcast_S_S50000x128 : (⟨S_, .f32⟩ : BufTy).Contents (Elt F) → (⟨S50000x128, .f32⟩ : BufTy).Contents (Elt F))
  :: StableHlo.unary main_v3 main_v334 (broadcastInDim S800000x1 ![0] bcast_S800000_S800000x1_0 : (⟨S800000, .i32⟩ : BufTy).Contents (Elt F) → (⟨S800000x1, .i32⟩ : BufTy).Contents (Elt F))
  :: StableHlo.ternary main_v333 main_v334 main_v332 main_v335 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F))
  :: StableHlo.nullary main_cst_62 (constant S_ .f32 0x40000000#32)
  :: StableHlo.unary main_cst_62 main_v336 (broadcastInDim S50000x128 ![] bcast_S_S50000x128 : (⟨S_, .f32⟩ : BufTy).Contents (Elt F) → (⟨S50000x128, .f32⟩ : BufTy).Contents (Elt F))
  :: StableHlo.binary main_v336 main_v335 main_v337 (mulf : (⟨S50000x128, .f32⟩ : BufTy).Contents (Elt F) → (⟨S50000x128, .f32⟩ : BufTy).Contents (Elt F) → (⟨S50000x128, .f32⟩ : BufTy).Contents (Elt F))
  :: StableHlo.binary main_v337 main_v298 main_v338 (subf : (⟨S50000x128, .f32⟩ : BufTy).Contents (Elt F) → (⟨S50000x128, .f32⟩ : BufTy).Contents (Elt F) → (⟨S50000x128, .f32⟩ : BufTy).Contents (Elt F))
  :: StableHlo.unary main_arg8 main_v339 ((extractStridedSlice S1x128x128 ![3, 0, 0] · slices_S4x128x128_S1x128x128_3_0_0) : (⟨S4x128x128, .f32⟩ : BufTy).Contents (Elt F) → (⟨S1x128x128, .f32⟩ : BufTy).Contents (Elt F))
  :: StableHlo.reshape main_v339 main_v340 rfl shapeCasts_S1x128x128_S128x128
  :: StableHlo.binary main_v338 main_v340 main_v341 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F))
  :: StableHlo.binary main_v322 main_v341 main_v342 (addf : (⟨S50000x128, .f32⟩ : BufTy).Contents (Elt F) → (⟨S50000x128, .f32⟩ : BufTy).Contents (Elt F) → (⟨S50000x128, .f32⟩ : BufTy).Contents (Elt F))
  :: StableHlo.unary main_arg9 main_v343 (broadcastInDim S1x128 ![1] bcast_S128_S1x128_1 : (⟨S128, .f32⟩ : BufTy).Contents (Elt F) → (⟨S1x128, .f32⟩ : BufTy).Contents (Elt F))
  :: StableHlo.unary main_v343 main_v344 (broadcastInDim S50000x128 ![0, 1] bcast_S1x128_S50000x128_0_1 : (⟨S1x128, .f32⟩ : BufTy).Contents (Elt F) → (⟨S50000x128, .f32⟩ : BufTy).Contents (Elt F))
  :: StableHlo.binary main_v342 main_v344 main_v345 (addf : (⟨S50000x128, .f32⟩ : BufTy).Contents (Elt F) → (⟨S50000x128, .f32⟩ : BufTy).Contents (Elt F) → (⟨S50000x128, .f32⟩ : BufTy).Contents (Elt F))
  :: StableHlo.binary main_v345 main_v345 main_v346 (mulf : (⟨S50000x128, .f32⟩ : BufTy).Contents (Elt F) → (⟨S50000x128, .f32⟩ : BufTy).Contents (Elt F) → (⟨S50000x128, .f32⟩ : BufTy).Contents (Elt F))
  :: StableHlo.nullary main_cst_63 (constant S_ .f32 0x00000000#32)
  :: StableHlo.binary main_v346 main_cst_63 main_v347 ((fun x v => Host.reduceAdd x v reducesTo_S50000x128_S50000_d1 h_S_) : (⟨S50000x128, .f32⟩ : BufTy).Contents (Elt F) → (⟨S_, .f32⟩ : BufTy).Contents (Elt F) → (⟨S50000, .f32⟩ : BufTy).Contents (Elt F))
  :: StableHlo.unary main_v347 main_v348 (broadcastInDim S50000x1 ![0] bcast_S50000_S50000x1_0 : (⟨S50000, .f32⟩ : BufTy).Contents (Elt F) → (⟨S50000x1, .f32⟩ : BufTy).Contents (Elt F))
  :: StableHlo.unary main_v348 main_v349 (Host.sqrt : (⟨S50000x1, .f32⟩ : BufTy).Contents (Elt F) → (⟨S50000x1, .f32⟩ : BufTy).Contents (Elt F))
  :: StableHlo.nullary main_cst_64 (constant S_ .f32 0x2B8CBCCC#32)
  :: StableHlo.unary main_cst_64 main_v350 (broadcastInDim S50000x1 ![] bcast_S_S50000x1 : (⟨S_, .f32⟩ : BufTy).Contents (Elt F) → (⟨S50000x1, .f32⟩ : BufTy).Contents (Elt F))
  :: StableHlo.binary main_v349 main_v350 main_v351 (maximumf : (⟨S50000x1, .f32⟩ : BufTy).Contents (Elt F) → (⟨S50000x1, .f32⟩ : BufTy).Contents (Elt F) → (⟨S50000x1, .f32⟩ : BufTy).Contents (Elt F))
  :: StableHlo.unary main_v351 main_v352 (broadcastInDim S50000x128 ![0, 1] bcast_S50000x1_S50000x128_0_1 : (⟨S50000x1, .f32⟩ : BufTy).Contents (Elt F) → (⟨S50000x128, .f32⟩ : BufTy).Contents (Elt F))
  :: StableHlo.binary main_v345 main_v352 main_v353 (Host.divf : (⟨S50000x128, .f32⟩ : BufTy).Contents (Elt F) → (⟨S50000x128, .f32⟩ : BufTy).Contents (Elt F) → (⟨S50000x128, .f32⟩ : BufTy).Contents (Elt F))
  :: [] )

/-- Each operation of opsC4 touches TensorCore references only. -/
theorem opsC4_sub : (opsC4 : List (HloOp τ sig (Elt F))).Forall fun op => op.bufs ⊆ StableHlo.tcRefs τ sig :=
  ⟨StableHlo.unary_bufs_sub .., StableHlo.reshape_bufs_sub .., StableHlo.binary_bufs_sub .., StableHlo.nullary_bufs_sub .., StableHlo.unary_bufs_sub .., StableHlo.binary_bufs_sub ..,
    StableHlo.nullary_bufs_sub .., StableHlo.unary_bufs_sub .., StableHlo.binary_bufs_sub .., StableHlo.ternary_bufs_sub .., StableHlo.unary_bufs_sub .., StableHlo.binary_bufs_sub ..,
    StableHlo.unary_bufs_sub .., StableHlo.unary_bufs_sub .., StableHlo.binary_bufs_sub .., StableHlo.nullary_bufs_sub .., StableHlo.unary_bufs_sub .., StableHlo.unary_bufs_sub ..,
    StableHlo.ternary_bufs_sub .., StableHlo.unary_bufs_sub .., StableHlo.reshape_bufs_sub .., StableHlo.binary_bufs_sub .., StableHlo.binary_bufs_sub .., StableHlo.nullary_bufs_sub ..,
    StableHlo.unary_bufs_sub .., StableHlo.binary_bufs_sub .., StableHlo.nullary_bufs_sub .., StableHlo.unary_bufs_sub .., StableHlo.binary_bufs_sub .., StableHlo.ternary_bufs_sub ..,
    StableHlo.unary_bufs_sub .., StableHlo.binary_bufs_sub .., StableHlo.unary_bufs_sub .., StableHlo.unary_bufs_sub .., StableHlo.binary_bufs_sub .., StableHlo.nullary_bufs_sub ..,
    StableHlo.unary_bufs_sub .., StableHlo.unary_bufs_sub .., StableHlo.ternary_bufs_sub .., StableHlo.nullary_bufs_sub .., StableHlo.unary_bufs_sub .., StableHlo.binary_bufs_sub ..,
    StableHlo.binary_bufs_sub .., StableHlo.unary_bufs_sub .., StableHlo.reshape_bufs_sub .., StableHlo.binary_bufs_sub .., StableHlo.binary_bufs_sub .., StableHlo.nullary_bufs_sub ..,
    StableHlo.unary_bufs_sub .., StableHlo.binary_bufs_sub .., StableHlo.nullary_bufs_sub .., StableHlo.unary_bufs_sub .., StableHlo.binary_bufs_sub .., StableHlo.ternary_bufs_sub ..,
    StableHlo.unary_bufs_sub .., StableHlo.binary_bufs_sub .., StableHlo.unary_bufs_sub .., StableHlo.unary_bufs_sub .., StableHlo.binary_bufs_sub .., StableHlo.nullary_bufs_sub ..,
    StableHlo.unary_bufs_sub .., StableHlo.unary_bufs_sub .., StableHlo.ternary_bufs_sub .., StableHlo.nullary_bufs_sub .., StableHlo.unary_bufs_sub .., StableHlo.binary_bufs_sub ..,
    StableHlo.binary_bufs_sub .., StableHlo.unary_bufs_sub .., StableHlo.reshape_bufs_sub .., StableHlo.binary_bufs_sub .., StableHlo.binary_bufs_sub .., StableHlo.unary_bufs_sub ..,
    StableHlo.unary_bufs_sub .., StableHlo.binary_bufs_sub .., StableHlo.binary_bufs_sub .., StableHlo.nullary_bufs_sub .., StableHlo.binary_bufs_sub .., StableHlo.unary_bufs_sub ..,
    StableHlo.unary_bufs_sub .., StableHlo.nullary_bufs_sub .., StableHlo.unary_bufs_sub .., StableHlo.binary_bufs_sub .., StableHlo.unary_bufs_sub .., StableHlo.binary_bufs_sub ..⟩
/-- No operation of opsC4 allocates a buffer. -/
theorem opsC4_fresh : (opsC4 : List (HloOp τ sig (Elt F))).Forall fun op => op.fresh = ∅ := by
  simp only [List.Forall]; repeat' constructor
/-- Each operation of opsC4 writes one buffer, and it is none of the sixteen arguments' (those are the references of index below 16). -/
theorem opsC4_high : (opsC4 : List (HloOp τ sig (Elt F))).Forall WritesHigh :=
  ⟨⟨main_v283, rfl, by decide⟩, ⟨main_v284, rfl, by decide⟩, ⟨main_v285, rfl, by decide⟩, ⟨main_c_52, rfl, by decide⟩, ⟨main_v286, rfl, by decide⟩, ⟨main_v287, rfl, by decide⟩,
    ⟨main_c_53, rfl, by decide⟩, ⟨main_v288, rfl, by decide⟩, ⟨main_v289, rfl, by decide⟩, ⟨main_v290, rfl, by decide⟩, ⟨main_v291, rfl, by decide⟩, ⟨main_v292, rfl, by decide⟩,
    ⟨main_v293, rfl, by decide⟩, ⟨main_v294, rfl, by decide⟩, ⟨main_v295, rfl, by decide⟩, ⟨main_cst_54, rfl, by decide⟩, ⟨main_v296, rfl, by decide⟩, ⟨main_v297, rfl, by decide⟩,
    ⟨main_v298, rfl, by decide⟩, ⟨main_v299, rfl, by decide⟩, ⟨main_v300, rfl, by decide⟩, ⟨main_v301, rfl, by decide⟩, ⟨main_v302, rfl, by decide⟩, ⟨main_c_55, rfl, by decide⟩,
    ⟨main_v303, rfl, by decide⟩, ⟨main_v304, rfl, by decide⟩, ⟨main_c_56, rfl, by decide⟩, ⟨main_v305, rfl, by decide⟩, ⟨main_v306, rfl, by decide⟩, ⟨main_v307, rfl, by decide⟩,
    ⟨main_v308, rfl, by decide⟩, ⟨main_v309, rfl, by decide⟩, ⟨main_v310, rfl, by decide⟩, ⟨main_v311, rfl, by decide⟩, ⟨main_v312, rfl, by decide⟩, ⟨main_cst_57, rfl, by decide⟩,
    ⟨main_v313, rfl, by decide⟩, ⟨main_v314, rfl, by decide⟩, ⟨main_v315, rfl, by decide⟩, ⟨main_cst_58, rfl, by decide⟩, ⟨main_v316, rfl, by decide⟩, ⟨main_v317, rfl, by decide⟩,
    ⟨main_v318, rfl, by decide⟩, ⟨main_v319, rfl, by decide⟩, ⟨main_v320, rfl, by decide⟩, ⟨main_v321, rfl, by decide⟩, ⟨main_v322, rfl, by decide⟩, ⟨main_c_59, rfl, by decide⟩,
    ⟨main_v323, rfl, by decide⟩, ⟨main_v324, rfl, by decide⟩, ⟨main_c_60, rfl, by decide⟩, ⟨main_v325, rfl, by decide⟩, ⟨main_v326, rfl, by decide⟩, ⟨main_v327, rfl, by decide⟩,
    ⟨main_v328, rfl, by decide⟩, ⟨main_v329, rfl, by decide⟩, ⟨main_v330, rfl, by decide⟩, ⟨main_v331, rfl, by decide⟩, ⟨main_v332, rfl, by decide⟩, ⟨main_cst_61, rfl, by decide⟩,
    ⟨main_v333, rfl, by decide⟩, ⟨main_v334, rfl, by decide⟩, ⟨main_v335, rfl, by decide⟩, ⟨main_cst_62, rfl, by decide⟩, ⟨main_v336, rfl, by decide⟩, ⟨main_v337, rfl, by decide⟩,
    ⟨main_v338, rfl, by decide⟩, ⟨main_v339, rfl, by decide⟩, ⟨main_v340, rfl, by decide⟩, ⟨main_v341, rfl, by decide⟩, ⟨main_v342, rfl, by decide⟩, ⟨main_v343, rfl, by decide⟩,
    ⟨main_v344, rfl, by decide⟩, ⟨main_v345, rfl, by decide⟩, ⟨main_v346, rfl, by decide⟩, ⟨main_cst_63, rfl, by decide⟩, ⟨main_v347, rfl, by decide⟩, ⟨main_v348, rfl, by decide⟩,
    ⟨main_v349, rfl, by decide⟩, ⟨main_cst_64, rfl, by decide⟩, ⟨main_v350, rfl, by decide⟩, ⟨main_v351, rfl, by decide⟩, ⟨main_v352, rfl, by decide⟩, ⟨main_v353, rfl, by decide⟩⟩

end Cert.ReferenceIdeal.Hand

end
-- ==== Proof.RefParts0.lean ====
/- The reference program's @main window by window (main_part0, main_part1): each window is the straight line of its operations, the calls' bodies written out. -/
import proofs.«175070_j35072702939553_2_alg».proof.Proof.RefBase

set_option maxRecDepth 8192

noncomputable section

namespace Cert.ReferenceIdeal.Hand

open Cert.ReferenceIdeal Cert.ReferenceIdeal.Gen Idealize.ShloMosaic Idealize.ShloMosaic.TcCoe Idealize.SL.Sem

variable {F : FTy → Type} [FloatOps F]

set_option maxHeartbeats 40000000 in
/-- The operations of the window main_part0 (62), in order. -/
abbrev opsP0 : List (HloOp τ sig (Elt F)) :=
  ( StableHlo.unary main_arg1 main_v0 ((extractStridedSlice S1x800000 ![0, 0] · slices_S2x800000_S1x800000_0_0) : (⟨S2x800000, .i32⟩ : BufTy).Contents (Elt F) → (⟨S1x800000, .i32⟩ : BufTy).Contents (Elt F))
  :: StableHlo.reshape main_v0 main_v1 rfl shapeCasts_S1x800000_S800000
  :: StableHlo.unary main_arg1 main_v2 ((extractStridedSlice S1x800000 ![1, 0] · slices_S2x800000_S1x800000_1_0) : (⟨S2x800000, .i32⟩ : BufTy).Contents (Elt F) → (⟨S1x800000, .i32⟩ : BufTy).Contents (Elt F))
  :: StableHlo.reshape main_v2 main_v3 rfl shapeCasts_S1x800000_S800000
  :: StableHlo.unary main_arg1 main_v4 ((extractStridedSlice S1x800000 ![0, 0] · slices_S2x800000_S1x800000_0_0) : (⟨S2x800000, .i32⟩ : BufTy).Contents (Elt F) → (⟨S1x800000, .i32⟩ : BufTy).Contents (Elt F))
  :: StableHlo.reshape main_v4 main_v5 rfl shapeCasts_S1x800000_S800000
  :: StableHlo.unary main_arg1 main_v6 ((extractStridedSlice S1x800000 ![1, 0] · slices_S2x800000_S1x800000_1_0) : (⟨S2x800000, .i32⟩ : BufTy).Contents (Elt F) → (⟨S1x800000, .i32⟩ : BufTy).Contents (Elt F))
  :: StableHlo.reshape main_v6 main_v7 rfl shapeCasts_S1x800000_S800000
  :: StableHlo.nullary main_cst (constant S_ .f32 0x3F800000#32)
  :: StableHlo.unary main_cst main_v8 (broadcastInDim S800000 ![] bcast_S_S800000 : (⟨S_, .f32⟩ : BufTy).Contents (Elt F) → (⟨S800000, .f32⟩ : BufTy).Contents (Elt F))
  :: StableHlo.nullary main_cst_0 (constant S_ .f32 0x00000000#32)
  :: StableHlo.unary main_cst_0 main_v9 (broadcastInDim S50000 ![] bcast_S_S50000 : (⟨S_, .f32⟩ : BufTy).Contents (Elt F) → (⟨S50000, .f32⟩ : BufTy).Contents (Elt F))
  :: StableHlo.unary main_v5 main_v10 (broadcastInDim S800000x1 ![0] bcast_S800000_S800000x1_0 : (⟨S800000, .i32⟩ : BufTy).Contents (Elt F) → (⟨S800000x1, .i32⟩ : BufTy).Contents (Elt F))
  :: StableHlo.ternary main_v9 main_v10 main_v8 main_v11 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F))
  :: StableHlo.nullary main_cst_1 (constant S_ .f32 0x00000000#32)
  :: StableHlo.unary main_cst_1 main_v12 (broadcastInDim S50000 ![] bcast_S_S50000 : (⟨S_, .f32⟩ : BufTy).Contents (Elt F) → (⟨S50000, .f32⟩ : BufTy).Contents (Elt F))
  :: StableHlo.binary main_v11 main_v12 main_v13 (cmpf .ogt : (⟨S50000, .f32⟩ : BufTy).Contents (Elt F) → (⟨S50000, .f32⟩ : BufTy).Contents (Elt F) → (⟨S50000, .i1⟩ : BufTy).Contents (Elt F))
  :: StableHlo.nullary main_cst_2 (constant S_ .f32 0x3F800000#32)
  :: StableHlo.unary main_cst_2 main_v14 (broadcastInDim S50000 ![] bcast_S_S50000 : (⟨S_, .f32⟩ : BufTy).Contents (Elt F) → (⟨S50000, .f32⟩ : BufTy).Contents (Elt F))
  :: StableHlo.binary main_v11 main_v14 main_v15 (maximumf : (⟨S50000, .f32⟩ : BufTy).Contents (Elt F) → (⟨S50000, .f32⟩ : BufTy).Contents (Elt F) → (⟨S50000, .f32⟩ : BufTy).Contents (Elt F))
  :: StableHlo.unary main_v15 main_v16 (Host.rsqrt : (⟨S50000, .f32⟩ : BufTy).Contents (Elt F) → (⟨S50000, .f32⟩ : BufTy).Contents (Elt F))
  :: StableHlo.nullary main_cst_3 (constant S_ .f32 0x00000000#32)
  :: StableHlo.TRef.unary (.of main_cst_3 : StableHlo.TRef sig ⟨S_, .f32⟩) (.of main_call0_v0 : StableHlo.TRef sig ⟨S_, .f32⟩) id
  :: StableHlo.TRef.unary (.of main_call0_v0 : StableHlo.TRef sig ⟨S_, .f32⟩) (.of main_call0_v1 : StableHlo.TRef sig ⟨S50000, .f32⟩) (broadcastInDim S50000 ![] bcast_S_S50000)
  :: StableHlo.TRef.ternary (.of main_v13 : StableHlo.TRef sig ⟨S50000, .i1⟩) (.of main_v16 : StableHlo.TRef sig ⟨S50000, .f32⟩) (.of main_call0_v1 : StableHlo.TRef sig ⟨S50000, .f32⟩) (.of main_v17 : StableHlo.TRef sig ⟨S50000, .f32⟩) select
  :: StableHlo.nullary main_c (constantI S_ 32 0#32)
  :: StableHlo.unary main_c main_v18 (broadcastInDim S800000 ![] bcast_S_S800000 : (⟨S_, .i32⟩ : BufTy).Contents (Elt F) → (⟨S800000, .i32⟩ : BufTy).Contents (Elt F))
  :: StableHlo.binary main_v5 main_v18 main_v19 (cmpi .slt : (⟨S800000, .i32⟩ : BufTy).Contents (Elt F) → (⟨S800000, .i32⟩ : BufTy).Contents (Elt F) → (⟨S800000, .i1⟩ : BufTy).Contents (Elt F))
  :: StableHlo.nullary main_c_4 (constantI S_ 32 50000#32)
  :: StableHlo.unary main_c_4 main_v20 (broadcastInDim S800000 ![] bcast_S_S800000 : (⟨S_, .i32⟩ : BufTy).Contents (Elt F) → (⟨S800000, .i32⟩ : BufTy).Contents (Elt F))
  :: StableHlo.binary main_v5 main_v20 main_v21 (addi : (⟨S800000, .i32⟩ : BufTy).Contents (Elt F) → (⟨S800000, .i32⟩ : BufTy).Contents (Elt F) → (⟨S800000, .i32⟩ : BufTy).Contents (Elt F))
  :: StableHlo.ternary main_v19 main_v21 main_v5 main_v22 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F))
  :: StableHlo.unary main_v22 main_v23 (broadcastInDim S800000x1 ![0] bcast_S800000_S800000x1_0 : (⟨S800000, .i32⟩ : BufTy).Contents (Elt F) → (⟨S800000x1, .i32⟩ : BufTy).Contents (Elt F))
  :: StableHlo.binary main_v17 main_v23 main_v24 ((fun x i => Host.gather gather_S50000_S800000x1_S800000_n_0_n_n_0_1_1 x i) : (⟨S50000, .f32⟩ : BufTy).Contents (Elt F) → (⟨S800000x1, .i32⟩ : BufTy).Contents (Elt F) → (⟨S800000, .f32⟩ : BufTy).Contents (Elt F))
  :: StableHlo.unary main_v24 main_v25 (Host.negf : (⟨S800000, .f32⟩ : BufTy).Contents (Elt F) → (⟨S800000, .f32⟩ : BufTy).Contents (Elt F))
  :: StableHlo.nullary main_c_5 (constantI S_ 32 0#32)
  :: StableHlo.unary main_c_5 main_v26 (broadcastInDim S800000 ![] bcast_S_S800000 : (⟨S_, .i32⟩ : BufTy).Contents (Elt F) → (⟨S800000, .i32⟩ : BufTy).Contents (Elt F))
  :: StableHlo.binary main_v7 main_v26 main_v27 (cmpi .slt : (⟨S800000, .i32⟩ : BufTy).Contents (Elt F) → (⟨S800000, .i32⟩ : BufTy).Contents (Elt F) → (⟨S800000, .i1⟩ : BufTy).Contents (Elt F))
  :: StableHlo.nullary main_c_6 (constantI S_ 32 50000#32)
  :: StableHlo.unary main_c_6 main_v28 (broadcastInDim S800000 ![] bcast_S_S800000 : (⟨S_, .i32⟩ : BufTy).Contents (Elt F) → (⟨S800000, .i32⟩ : BufTy).Contents (Elt F))
  :: StableHlo.binary main_v7 main_v28 main_v29 (addi : (⟨S800000, .i32⟩ : BufTy).Contents (Elt F) → (⟨S800000, .i32⟩ : BufTy).Contents (Elt F) → (⟨S800000, .i32⟩ : BufTy).Contents (Elt F))
  :: StableHlo.ternary main_v27 main_v29 main_v7 main_v30 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F))
  :: StableHlo.unary main_v30 main_v31 (broadcastInDim S800000x1 ![0] bcast_S800000_S800000x1_0 : (⟨S800000, .i32⟩ : BufTy).Contents (Elt F) → (⟨S800000x1, .i32⟩ : BufTy).Contents (Elt F))
  :: StableHlo.binary main_v17 main_v31 main_v32 ((fun x i => Host.gather gather_S50000_S800000x1_S800000_n_0_n_n_0_1_1 x i) : (⟨S50000, .f32⟩ : BufTy).Contents (Elt F) → (⟨S800000x1, .i32⟩ : BufTy).Contents (Elt F) → (⟨S800000, .f32⟩ : BufTy).Contents (Elt F))
  :: StableHlo.binary main_v25 main_v32 main_v33 (mulf : (⟨S800000, .f32⟩ : BufTy).Contents (Elt F) → (⟨S800000, .f32⟩ : BufTy).Contents (Elt F) → (⟨S800000, .f32⟩ : BufTy).Contents (Elt F))
  :: StableHlo.unary main_arg2 main_v34 ((extractStridedSlice S1x3x128 ![0, 0, 0] · slices_S4x3x128_S1x3x128_0_0_0) : (⟨S4x3x128, .f32⟩ : BufTy).Contents (Elt F) → (⟨S1x3x128, .f32⟩ : BufTy).Contents (Elt F))
  :: StableHlo.reshape main_v34 main_v35 rfl shapeCasts_S1x3x128_S3x128
  :: StableHlo.binary main_arg0 main_v35 main_v36 ((fun l r => Host.dotGeneral dot_S50000x3_S3x128_S50000x128_1_0_0_1_n_n none l r) : (⟨S50000x3, .f32⟩ : BufTy).Contents (Elt F) → (⟨S3x128, .f32⟩ : BufTy).Contents (Elt F) → (⟨S50000x128, .f32⟩ : BufTy).Contents (Elt F))
  :: StableHlo.nullary main_c_7 (constantI S_ 32 0#32)
  :: StableHlo.unary main_c_7 main_v37 (broadcastInDim S800000 ![] bcast_S_S800000 : (⟨S_, .i32⟩ : BufTy).Contents (Elt F) → (⟨S800000, .i32⟩ : BufTy).Contents (Elt F))
  :: StableHlo.binary main_v1 main_v37 main_v38 (cmpi .slt : (⟨S800000, .i32⟩ : BufTy).Contents (Elt F) → (⟨S800000, .i32⟩ : BufTy).Contents (Elt F) → (⟨S800000, .i1⟩ : BufTy).Contents (Elt F))
  :: StableHlo.nullary main_c_8 (constantI S_ 32 50000#32)
  :: StableHlo.unary main_c_8 main_v39 (broadcastInDim S800000 ![] bcast_S_S800000 : (⟨S_, .i32⟩ : BufTy).Contents (Elt F) → (⟨S800000, .i32⟩ : BufTy).Contents (Elt F))
  :: StableHlo.binary main_v1 main_v39 main_v40 (addi : (⟨S800000, .i32⟩ : BufTy).Contents (Elt F) → (⟨S800000, .i32⟩ : BufTy).Contents (Elt F) → (⟨S800000, .i32⟩ : BufTy).Contents (Elt F))
  :: StableHlo.ternary main_v38 main_v40 main_v1 main_v41 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F))
  :: StableHlo.unary main_v41 main_v42 (broadcastInDim S800000x1 ![0] bcast_S800000_S800000x1_0 : (⟨S800000, .i32⟩ : BufTy).Contents (Elt F) → (⟨S800000x1, .i32⟩ : BufTy).Contents (Elt F))
  :: StableHlo.binary main_arg0 main_v42 main_v43 ((fun x i => Host.gather gather_S50000x3_S800000x1_S800000x3_1_0_n_n_0_1_13 x i) : (⟨S50000x3, .f32⟩ : BufTy).Contents (Elt F) → (⟨S800000x1, .i32⟩ : BufTy).Contents (Elt F) → (⟨S800000x3, .f32⟩ : BufTy).Contents (Elt F))
  :: StableHlo.unary main_v33 main_v44 (broadcastInDim S800000x1 ![0] bcast_S800000_S800000x1_0 : (⟨S800000, .f32⟩ : BufTy).Contents (Elt F) → (⟨S800000x1, .f32⟩ : BufTy).Contents (Elt F))
  :: StableHlo.unary main_v44 main_v45 (broadcastInDim S800000x3 ![0, 1] bcast_S800000x1_S800000x3_0_1 : (⟨S800000x1, .f32⟩ : BufTy).Contents (Elt F) → (⟨S800000x3, .f32⟩ : BufTy).Contents (Elt F))
  :: StableHlo.binary main_v43 main_v45 main_v46 (mulf : (⟨S800000x3, .f32⟩ : BufTy).Contents (Elt F) → (⟨S800000x3, .f32⟩ : BufTy).Contents (Elt F) → (⟨S800000x3, .f32⟩ : BufTy).Contents (Elt F))
  :: StableHlo.nullary main_cst_9 (constant S_ .f32 0x00000000#32)
  :: StableHlo.unary main_cst_9 main_v47 (broadcastInDim S50000x3 ![] bcast_S_S50000x3 : (⟨S_, .f32⟩ : BufTy).Contents (Elt F) → (⟨S50000x3, .f32⟩ : BufTy).Contents (Elt F))
  :: [] )

set_option maxHeartbeats 40000000 in
/-- The window is that straight line: the functions' definitions unfolded at their calls, sequencing reassociated. -/
theorem part0_eq (c : Dev nD) : main_part0 (F := F) c = StableHlo.seq opsP0 := by
  simp only [main_part0, fn_where.body, StableHlo.seq, bind_assoc, pure_bind]
  rfl

set_option maxHeartbeats 40000000 in
/-- The operations of the window main_part1 (66), in order. -/
abbrev opsP1 : List (HloOp τ sig (Elt F)) :=
  ( StableHlo.unary main_v3 main_v48 (broadcastInDim S800000x1 ![0] bcast_S800000_S800000x1_0 : (⟨S800000, .i32⟩ : BufTy).Contents (Elt F) → (⟨S800000x1, .i32⟩ : BufTy).Contents (Elt F))
  :: StableHlo.ternary main_v47 main_v48 main_v46 main_v49 ((fun x i u => Host.scatterAdd scatter_S50000x3_S800000x1_S800000x3_1_0_0_1 x i u) : (⟨S50000x3, .f32⟩ : BufTy).Contents (Elt F) → (⟨S800000x1, .i32⟩ : BufTy).Contents (Elt F) → (⟨S800000x3, .f32⟩ : BufTy).Contents (Elt F) → (⟨S50000x3, .f32⟩ : BufTy).Contents (Elt F))
  :: StableHlo.unary main_arg2 main_v50 ((extractStridedSlice S1x3x128 ![1, 0, 0] · slices_S4x3x128_S1x3x128_1_0_0) : (⟨S4x3x128, .f32⟩ : BufTy).Contents (Elt F) → (⟨S1x3x128, .f32⟩ : BufTy).Contents (Elt F))
  :: StableHlo.reshape main_v50 main_v51 rfl shapeCasts_S1x3x128_S3x128
  :: StableHlo.binary main_v49 main_v51 main_v52 ((fun l r => Host.dotGeneral dot_S50000x3_S3x128_S50000x128_1_0_0_1_n_n none l r) : (⟨S50000x3, .f32⟩ : BufTy).Contents (Elt F) → (⟨S3x128, .f32⟩ : BufTy).Contents (Elt F) → (⟨S50000x128, .f32⟩ : BufTy).Contents (Elt F))
  :: StableHlo.binary main_v36 main_v52 main_v53 (addf : (⟨S50000x128, .f32⟩ : BufTy).Contents (Elt F) → (⟨S50000x128, .f32⟩ : BufTy).Contents (Elt F) → (⟨S50000x128, .f32⟩ : BufTy).Contents (Elt F))
  :: StableHlo.nullary main_c_10 (constantI S_ 32 0#32)
  :: StableHlo.unary main_c_10 main_v54 (broadcastInDim S800000 ![] bcast_S_S800000 : (⟨S_, .i32⟩ : BufTy).Contents (Elt F) → (⟨S800000, .i32⟩ : BufTy).Contents (Elt F))
  :: StableHlo.binary main_v1 main_v54 main_v55 (cmpi .slt : (⟨S800000, .i32⟩ : BufTy).Contents (Elt F) → (⟨S800000, .i32⟩ : BufTy).Contents (Elt F) → (⟨S800000, .i1⟩ : BufTy).Contents (Elt F))
  :: StableHlo.nullary main_c_11 (constantI S_ 32 50000#32)
  :: StableHlo.unary main_c_11 main_v56 (broadcastInDim S800000 ![] bcast_S_S800000 : (⟨S_, .i32⟩ : BufTy).Contents (Elt F) → (⟨S800000, .i32⟩ : BufTy).Contents (Elt F))
  :: StableHlo.binary main_v1 main_v56 main_v57 (addi : (⟨S800000, .i32⟩ : BufTy).Contents (Elt F) → (⟨S800000, .i32⟩ : BufTy).Contents (Elt F) → (⟨S800000, .i32⟩ : BufTy).Contents (Elt F))
  :: StableHlo.ternary main_v55 main_v57 main_v1 main_v58 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F))
  :: StableHlo.unary main_v58 main_v59 (broadcastInDim S800000x1 ![0] bcast_S800000_S800000x1_0 : (⟨S800000, .i32⟩ : BufTy).Contents (Elt F) → (⟨S800000x1, .i32⟩ : BufTy).Contents (Elt F))
  :: StableHlo.binary main_v49 main_v59 main_v60 ((fun x i => Host.gather gather_S50000x3_S800000x1_S800000x3_1_0_n_n_0_1_13 x i) : (⟨S50000x3, .f32⟩ : BufTy).Contents (Elt F) → (⟨S800000x1, .i32⟩ : BufTy).Contents (Elt F) → (⟨S800000x3, .f32⟩ : BufTy).Contents (Elt F))
  :: StableHlo.unary main_v33 main_v61 (broadcastInDim S800000x1 ![0] bcast_S800000_S800000x1_0 : (⟨S800000, .f32⟩ : BufTy).Contents (Elt F) → (⟨S800000x1, .f32⟩ : BufTy).Contents (Elt F))
  :: StableHlo.unary main_v61 main_v62 (broadcastInDim S800000x3 ![0, 1] bcast_S800000x1_S800000x3_0_1 : (⟨S800000x1, .f32⟩ : BufTy).Contents (Elt F) → (⟨S800000x3, .f32⟩ : BufTy).Contents (Elt F))
  :: StableHlo.binary main_v60 main_v62 main_v63 (mulf : (⟨S800000x3, .f32⟩ : BufTy).Contents (Elt F) → (⟨S800000x3, .f32⟩ : BufTy).Contents (Elt F) → (⟨S800000x3, .f32⟩ : BufTy).Contents (Elt F))
  :: StableHlo.nullary main_cst_12 (constant S_ .f32 0x00000000#32)
  :: StableHlo.unary main_cst_12 main_v64 (broadcastInDim S50000x3 ![] bcast_S_S50000x3 : (⟨S_, .f32⟩ : BufTy).Contents (Elt F) → (⟨S50000x3, .f32⟩ : BufTy).Contents (Elt F))
  :: StableHlo.unary main_v3 main_v65 (broadcastInDim S800000x1 ![0] bcast_S800000_S800000x1_0 : (⟨S800000, .i32⟩ : BufTy).Contents (Elt F) → (⟨S800000x1, .i32⟩ : BufTy).Contents (Elt F))
  :: StableHlo.ternary main_v64 main_v65 main_v63 main_v66 ((fun x i u => Host.scatterAdd scatter_S50000x3_S800000x1_S800000x3_1_0_0_1 x i u) : (⟨S50000x3, .f32⟩ : BufTy).Contents (Elt F) → (⟨S800000x1, .i32⟩ : BufTy).Contents (Elt F) → (⟨S800000x3, .f32⟩ : BufTy).Contents (Elt F) → (⟨S50000x3, .f32⟩ : BufTy).Contents (Elt F))
  :: StableHlo.nullary main_cst_13 (constant S_ .f32 0x40000000#32)
  :: StableHlo.unary main_cst_13 main_v67 (broadcastInDim S50000x3 ![] bcast_S_S50000x3 : (⟨S_, .f32⟩ : BufTy).Contents (Elt F) → (⟨S50000x3, .f32⟩ : BufTy).Contents (Elt F))
  :: StableHlo.binary main_v67 main_v66 main_v68 (mulf : (⟨S50000x3, .f32⟩ : BufTy).Contents (Elt F) → (⟨S50000x3, .f32⟩ : BufTy).Contents (Elt F) → (⟨S50000x3, .f32⟩ : BufTy).Contents (Elt F))
  :: StableHlo.binary main_v68 main_arg0 main_v69 (subf : (⟨S50000x3, .f32⟩ : BufTy).Contents (Elt F) → (⟨S50000x3, .f32⟩ : BufTy).Contents (Elt F) → (⟨S50000x3, .f32⟩ : BufTy).Contents (Elt F))
  :: StableHlo.unary main_arg2 main_v70 ((extractStridedSlice S1x3x128 ![2, 0, 0] · slices_S4x3x128_S1x3x128_2_0_0) : (⟨S4x3x128, .f32⟩ : BufTy).Contents (Elt F) → (⟨S1x3x128, .f32⟩ : BufTy).Contents (Elt F))
  :: StableHlo.reshape main_v70 main_v71 rfl shapeCasts_S1x3x128_S3x128
  :: StableHlo.binary main_v69 main_v71 main_v72 ((fun l r => Host.dotGeneral dot_S50000x3_S3x128_S50000x128_1_0_0_1_n_n none l r) : (⟨S50000x3, .f32⟩ : BufTy).Contents (Elt F) → (⟨S3x128, .f32⟩ : BufTy).Contents (Elt F) → (⟨S50000x128, .f32⟩ : BufTy).Contents (Elt F))
  :: StableHlo.binary main_v53 main_v72 main_v73 (addf : (⟨S50000x128, .f32⟩ : BufTy).Contents (Elt F) → (⟨S50000x128, .f32⟩ : BufTy).Contents (Elt F) → (⟨S50000x128, .f32⟩ : BufTy).Contents (Elt F))
  :: StableHlo.nullary main_c_14 (constantI S_ 32 0#32)
  :: StableHlo.unary main_c_14 main_v74 (broadcastInDim S800000 ![] bcast_S_S800000 : (⟨S_, .i32⟩ : BufTy).Contents (Elt F) → (⟨S800000, .i32⟩ : BufTy).Contents (Elt F))
  :: StableHlo.binary main_v1 main_v74 main_v75 (cmpi .slt : (⟨S800000, .i32⟩ : BufTy).Contents (Elt F) → (⟨S800000, .i32⟩ : BufTy).Contents (Elt F) → (⟨S800000, .i1⟩ : BufTy).Contents (Elt F))
  :: StableHlo.nullary main_c_15 (constantI S_ 32 50000#32)
  :: StableHlo.unary main_c_15 main_v76 (broadcastInDim S800000 ![] bcast_S_S800000 : (⟨S_, .i32⟩ : BufTy).Contents (Elt F) → (⟨S800000, .i32⟩ : BufTy).Contents (Elt F))
  :: StableHlo.binary main_v1 main_v76 main_v77 (addi : (⟨S800000, .i32⟩ : BufTy).Contents (Elt F) → (⟨S800000, .i32⟩ : BufTy).Contents (Elt F) → (⟨S800000, .i32⟩ : BufTy).Contents (Elt F))
  :: StableHlo.ternary main_v75 main_v77 main_v1 main_v78 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F))
  :: StableHlo.unary main_v78 main_v79 (broadcastInDim S800000x1 ![0] bcast_S800000_S800000x1_0 : (⟨S800000, .i32⟩ : BufTy).Contents (Elt F) → (⟨S800000x1, .i32⟩ : BufTy).Contents (Elt F))
  :: StableHlo.binary main_v69 main_v79 main_v80 ((fun x i => Host.gather gather_S50000x3_S800000x1_S800000x3_1_0_n_n_0_1_13 x i) : (⟨S50000x3, .f32⟩ : BufTy).Contents (Elt F) → (⟨S800000x1, .i32⟩ : BufTy).Contents (Elt F) → (⟨S800000x3, .f32⟩ : BufTy).Contents (Elt F))
  :: StableHlo.unary main_v33 main_v81 (broadcastInDim S800000x1 ![0] bcast_S800000_S800000x1_0 : (⟨S800000, .f32⟩ : BufTy).Contents (Elt F) → (⟨S800000x1, .f32⟩ : BufTy).Contents (Elt F))
  :: StableHlo.unary main_v81 main_v82 (broadcastInDim S800000x3 ![0, 1] bcast_S800000x1_S800000x3_0_1 : (⟨S800000x1, .f32⟩ : BufTy).Contents (Elt F) → (⟨S800000x3, .f32⟩ : BufTy).Contents (Elt F))
  :: StableHlo.binary main_v80 main_v82 main_v83 (mulf : (⟨S800000x3, .f32⟩ : BufTy).Contents (Elt F) → (⟨S800000x3, .f32⟩ : BufTy).Contents (Elt F) → (⟨S800000x3, .f32⟩ : BufTy).Contents (Elt F))
  :: StableHlo.nullary main_cst_16 (constant S_ .f32 0x00000000#32)
  :: StableHlo.unary main_cst_16 main_v84 (broadcastInDim S50000x3 ![] bcast_S_S50000x3 : (⟨S_, .f32⟩ : BufTy).Contents (Elt F) → (⟨S50000x3, .f32⟩ : BufTy).Contents (Elt F))
  :: StableHlo.unary main_v3 main_v85 (broadcastInDim S800000x1 ![0] bcast_S800000_S800000x1_0 : (⟨S800000, .i32⟩ : BufTy).Contents (Elt F) → (⟨S800000x1, .i32⟩ : BufTy).Contents (Elt F))
  :: StableHlo.ternary main_v84 main_v85 main_v83 main_v86 ((fun x i u => Host.scatterAdd scatter_S50000x3_S800000x1_S800000x3_1_0_0_1 x i u) : (⟨S50000x3, .f32⟩ : BufTy).Contents (Elt F) → (⟨S800000x1, .i32⟩ : BufTy).Contents (Elt F) → (⟨S800000x3, .f32⟩ : BufTy).Contents (Elt F) → (⟨S50000x3, .f32⟩ : BufTy).Contents (Elt F))
  :: StableHlo.nullary main_cst_17 (constant S_ .f32 0x40000000#32)
  :: StableHlo.unary main_cst_17 main_v87 (broadcastInDim S50000x3 ![] bcast_S_S50000x3 : (⟨S_, .f32⟩ : BufTy).Contents (Elt F) → (⟨S50000x3, .f32⟩ : BufTy).Contents (Elt F))
  :: StableHlo.binary main_v87 main_v86 main_v88 (mulf : (⟨S50000x3, .f32⟩ : BufTy).Contents (Elt F) → (⟨S50000x3, .f32⟩ : BufTy).Contents (Elt F) → (⟨S50000x3, .f32⟩ : BufTy).Contents (Elt F))
  :: StableHlo.binary main_v88 main_v49 main_v89 (subf : (⟨S50000x3, .f32⟩ : BufTy).Contents (Elt F) → (⟨S50000x3, .f32⟩ : BufTy).Contents (Elt F) → (⟨S50000x3, .f32⟩ : BufTy).Contents (Elt F))
  :: StableHlo.unary main_arg2 main_v90 ((extractStridedSlice S1x3x128 ![3, 0, 0] · slices_S4x3x128_S1x3x128_3_0_0) : (⟨S4x3x128, .f32⟩ : BufTy).Contents (Elt F) → (⟨S1x3x128, .f32⟩ : BufTy).Contents (Elt F))
  :: StableHlo.reshape main_v90 main_v91 rfl shapeCasts_S1x3x128_S3x128
  :: StableHlo.binary main_v89 main_v91 main_v92 ((fun l r => Host.dotGeneral dot_S50000x3_S3x128_S50000x128_1_0_0_1_n_n none l r) : (⟨S50000x3, .f32⟩ : BufTy).Contents (Elt F) → (⟨S3x128, .f32⟩ : BufTy).Contents (Elt F) → (⟨S50000x128, .f32⟩ : BufTy).Contents (Elt F))
  :: StableHlo.binary main_v73 main_v92 main_v93 (addf : (⟨S50000x128, .f32⟩ : BufTy).Contents (Elt F) → (⟨S50000x128, .f32⟩ : BufTy).Contents (Elt F) → (⟨S50000x128, .f32⟩ : BufTy).Contents (Elt F))
  :: StableHlo.unary main_arg3 main_v94 (broadcastInDim S1x128 ![1] bcast_S128_S1x128_1 : (⟨S128, .f32⟩ : BufTy).Contents (Elt F) → (⟨S1x128, .f32⟩ : BufTy).Contents (Elt F))
  :: StableHlo.unary main_v94 main_v95 (broadcastInDim S50000x128 ![0, 1] bcast_S1x128_S50000x128_0_1 : (⟨S1x128, .f32⟩ : BufTy).Contents (Elt F) → (⟨S50000x128, .f32⟩ : BufTy).Contents (Elt F))
  :: StableHlo.binary main_v93 main_v95 main_v96 (addf : (⟨S50000x128, .f32⟩ : BufTy).Contents (Elt F) → (⟨S50000x128, .f32⟩ : BufTy).Contents (Elt F) → (⟨S50000x128, .f32⟩ : BufTy).Contents (Elt F))
  :: StableHlo.TRef.nullary (.of main_call1_cst : StableHlo.TRef sig ⟨S_, .f32⟩) (constant S_ .f32 0x00000000#32)
  :: StableHlo.TRef.unary (.of main_call1_cst : StableHlo.TRef sig ⟨S_, .f32⟩) (.of main_call1_v0 : StableHlo.TRef sig ⟨S50000x128, .f32⟩) (broadcastInDim S50000x128 ![] bcast_S_S50000x128)
  :: StableHlo.TRef.binary (.of main_v96 : StableHlo.TRef sig ⟨S50000x128, .f32⟩) (.of main_call1_v0 : StableHlo.TRef sig ⟨S50000x128, .f32⟩) (.of main_call1_v1 : StableHlo.TRef sig ⟨S50000x128, .i1⟩) (cmpf .oge)
  :: StableHlo.TRef.nullary (.of main_call1_cst_0 : StableHlo.TRef sig ⟨S_, .f32⟩) (constant S_ .f32 0x3C23D70A#32)
  :: StableHlo.TRef.unary (.of main_call1_cst_0 : StableHlo.TRef sig ⟨S_, .f32⟩) (.of main_call1_v2 : StableHlo.TRef sig ⟨S50000x128, .f32⟩) (broadcastInDim S50000x128 ![] bcast_S_S50000x128)
  :: StableHlo.TRef.binary (.of main_call1_v2 : StableHlo.TRef sig ⟨S50000x128, .f32⟩) (.of main_v96 : StableHlo.TRef sig ⟨S50000x128, .f32⟩) (.of main_call1_v3 : StableHlo.TRef sig ⟨S50000x128, .f32⟩) mulf
  :: StableHlo.TRef.ternary (.of main_call1_v1 : StableHlo.TRef sig ⟨S50000x128, .i1⟩) (.of main_v96 : StableHlo.TRef sig ⟨S50000x128, .f32⟩) (.of main_call1_v3 : StableHlo.TRef sig ⟨S50000x128, .f32⟩) (.of main_v97 : StableHlo.TRef sig ⟨S50000x128, .f32⟩) select
  :: StableHlo.nullary main_cst_18 (constant S_ .f32 0x00000000#32)
  :: StableHlo.binary main_v97 main_cst_18 main_v98 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F))
  :: [] )

set_option maxHeartbeats 40000000 in
/-- The window is that straight line: the functions' definitions unfolded at their calls, sequencing reassociated. -/
theorem part1_eq (c : Dev nD) : main_part1 (F := F) c = StableHlo.seq opsP1 := by
  simp only [main_part1, fn_leaky_relu.body, fn_where_0.body, StableHlo.seq, bind_assoc, pure_bind]
  rfl

end Cert.ReferenceIdeal.Hand

end
-- ==== Proof.RefParts1.lean ====
/- The reference program's @main window by window (main_part2, main_part3): each window is the straight line of its operations, the calls' bodies written out. -/
import proofs.«175070_j35072702939553_2_alg».proof.Proof.RefBase

set_option maxRecDepth 8192

noncomputable section

namespace Cert.ReferenceIdeal.Hand

open Cert.ReferenceIdeal Cert.ReferenceIdeal.Gen Idealize.ShloMosaic Idealize.ShloMosaic.TcCoe Idealize.SL.Sem

variable {F : FTy → Type} [FloatOps F]

set_option maxHeartbeats 40000000 in
/-- The operations of the window main_part2 (81), in order. -/
abbrev opsP2 : List (HloOp τ sig (Elt F)) :=
  ( StableHlo.nullary main_cst_19 (constant S_ .f32 0x47435000#32)
  :: StableHlo.unary main_cst_19 main_v99 (broadcastInDim S128 ![] bcast_S_S128 : (⟨S_, .f32⟩ : BufTy).Contents (Elt F) → (⟨S128, .f32⟩ : BufTy).Contents (Elt F))
  :: StableHlo.binary main_v98 main_v99 main_v100 (Host.divf : (⟨S128, .f32⟩ : BufTy).Contents (Elt F) → (⟨S128, .f32⟩ : BufTy).Contents (Elt F) → (⟨S128, .f32⟩ : BufTy).Contents (Elt F))
  :: StableHlo.nullary main_c_20 (constantI S_ 32 0#32)
  :: StableHlo.TRef.nullary (.of main_call2_cst : StableHlo.TRef sig ⟨S_, .f32⟩) (constant S_ .f32 0x00000000#32)
  :: StableHlo.TRef.binary (.of main_v97 : StableHlo.TRef sig ⟨S50000x128, .f32⟩) (.of main_call2_cst : StableHlo.TRef sig ⟨S_, .f32⟩) (.of main_call2_v0 : StableHlo.TRef sig ⟨S128, .f32⟩) (fun x v => Host.reduceAdd x v reducesTo_S50000x128_S128_d0 h_S_)
  :: StableHlo.TRef.unary (.of main_call2_v0 : StableHlo.TRef sig ⟨S128, .f32⟩) (.of main_call2_v1 : StableHlo.TRef sig ⟨S1x128, .f32⟩) (broadcastInDim S1x128 ![1] bcast_S128_S1x128_1)
  :: StableHlo.TRef.nullary (.of main_call2_cst_0 : StableHlo.TRef sig ⟨S_, .f32⟩) (constant S_ .f32 0x47435000#32)
  :: StableHlo.TRef.unary (.of main_call2_cst_0 : StableHlo.TRef sig ⟨S_, .f32⟩) (.of main_call2_v2 : StableHlo.TRef sig ⟨S1x128, .f32⟩) (broadcastInDim S1x128 ![] bcast_S_S1x128)
  :: StableHlo.TRef.binary (.of main_call2_v1 : StableHlo.TRef sig ⟨S1x128, .f32⟩) (.of main_call2_v2 : StableHlo.TRef sig ⟨S1x128, .f32⟩) (.of main_call2_v3 : StableHlo.TRef sig ⟨S1x128, .f32⟩) Host.divf
  :: StableHlo.TRef.unary (.of main_call2_v3 : StableHlo.TRef sig ⟨S1x128, .f32⟩) (.of main_call2_v4 : StableHlo.TRef sig ⟨S50000x128, .f32⟩) (broadcastInDim S50000x128 ![0, 1] bcast_S1x128_S50000x128_0_1)
  :: StableHlo.TRef.binary (.of main_v97 : StableHlo.TRef sig ⟨S50000x128, .f32⟩) (.of main_call2_v4 : StableHlo.TRef sig ⟨S50000x128, .f32⟩) (.of main_call2_v5 : StableHlo.TRef sig ⟨S50000x128, .f32⟩) subf
  :: StableHlo.TRef.binary (.of main_call2_v5 : StableHlo.TRef sig ⟨S50000x128, .f32⟩) (.of main_call2_v5 : StableHlo.TRef sig ⟨S50000x128, .f32⟩) (.of main_call2_v6 : StableHlo.TRef sig ⟨S50000x128, .f32⟩) mulf
  :: StableHlo.TRef.unary (.of main_c_20 : StableHlo.TRef sig ⟨S_, .i32⟩) (.of main_call2_v7 : StableHlo.TRef sig ⟨S_, .f32⟩) (sitofp .f32)
  :: StableHlo.TRef.nullary (.of main_call2_cst_1 : StableHlo.TRef sig ⟨S_, .f32⟩) (constant S_ .f32 0x47435000#32)
  :: StableHlo.TRef.binary (.of main_call2_cst_1 : StableHlo.TRef sig ⟨S_, .f32⟩) (.of main_call2_v7 : StableHlo.TRef sig ⟨S_, .f32⟩) (.of main_call2_v8 : StableHlo.TRef sig ⟨S_, .f32⟩) subf
  :: StableHlo.TRef.nullary (.of main_call2_cst_2 : StableHlo.TRef sig ⟨S_, .f32⟩) (constant S_ .f32 0x00000000#32)
  :: StableHlo.TRef.binary (.of main_call2_v6 : StableHlo.TRef sig ⟨S50000x128, .f32⟩) (.of main_call2_cst_2 : StableHlo.TRef sig ⟨S_, .f32⟩) (.of main_call2_v9 : StableHlo.TRef sig ⟨S128, .f32⟩) (fun x v => Host.reduceAdd x v reducesTo_S50000x128_S128_d0 h_S_)
  :: StableHlo.TRef.unary (.of main_call2_v8 : StableHlo.TRef sig ⟨S_, .f32⟩) (.of main_call2_v10 : StableHlo.TRef sig ⟨S128, .f32⟩) (broadcastInDim S128 ![] bcast_S_S128)
  :: StableHlo.TRef.binary (.of main_call2_v9 : StableHlo.TRef sig ⟨S128, .f32⟩) (.of main_call2_v10 : StableHlo.TRef sig ⟨S128, .f32⟩) (.of main_call2_v11 : StableHlo.TRef sig ⟨S128, .f32⟩) Host.divf
  :: StableHlo.TRef.nullary (.of main_call2_cst_3 : StableHlo.TRef sig ⟨S_, .f32⟩) (constant S_ .f32 0x00000000#32)
  :: StableHlo.TRef.binary (.of main_call2_v8 : StableHlo.TRef sig ⟨S_, .f32⟩) (.of main_call2_cst_3 : StableHlo.TRef sig ⟨S_, .f32⟩) (.of main_call2_v12 : StableHlo.TRef sig ⟨S_, .i1⟩) (cmpf .ogt)
  :: StableHlo.TRef.nullary (.of main_call2_cst_4 : StableHlo.TRef sig ⟨S_, .f32⟩) (constant S_ .f32 0x7FC00000#32)
  :: StableHlo.TRef.unary (.of main_call2_cst_4 : StableHlo.TRef sig ⟨S_, .f32⟩) (.of main_call2_call0_v0 : StableHlo.TRef sig ⟨S_, .f32⟩) id
  :: StableHlo.TRef.unary (.of main_call2_call0_v0 : StableHlo.TRef sig ⟨S_, .f32⟩) (.of main_call2_call0_v1 : StableHlo.TRef sig ⟨S128, .f32⟩) (broadcastInDim S128 ![] bcast_S_S128)
  :: StableHlo.TRef.ternary (.of main_call2_v12 : StableHlo.TRef sig ⟨S_, .i1⟩) (.of main_call2_v11 : StableHlo.TRef sig ⟨S128, .f32⟩) (.of main_call2_call0_v1 : StableHlo.TRef sig ⟨S128, .f32⟩) (.of main_v101 : StableHlo.TRef sig ⟨S128, .f32⟩) (fun p a b => select (broadcastInDim S128 ![] bcast_S_S128 p) a b)
  :: StableHlo.unary main_v100 main_v102 (broadcastInDim S1x128 ![1] bcast_S128_S1x128_1 : (⟨S128, .f32⟩ : BufTy).Contents (Elt F) → (⟨S1x128, .f32⟩ : BufTy).Contents (Elt F))
  :: StableHlo.unary main_v102 main_v103 (broadcastInDim S50000x128 ![0, 1] bcast_S1x128_S50000x128_0_1 : (⟨S1x128, .f32⟩ : BufTy).Contents (Elt F) → (⟨S50000x128, .f32⟩ : BufTy).Contents (Elt F))
  :: StableHlo.binary main_v97 main_v103 main_v104 (subf : (⟨S50000x128, .f32⟩ : BufTy).Contents (Elt F) → (⟨S50000x128, .f32⟩ : BufTy).Contents (Elt F) → (⟨S50000x128, .f32⟩ : BufTy).Contents (Elt F))
  :: StableHlo.nullary main_cst_21 (constant S_ .f32 0x3727C5AC#32)
  :: StableHlo.unary main_cst_21 main_v105 (broadcastInDim S128 ![] bcast_S_S128 : (⟨S_, .f32⟩ : BufTy).Contents (Elt F) → (⟨S128, .f32⟩ : BufTy).Contents (Elt F))
  :: StableHlo.binary main_v101 main_v105 main_v106 (addf : (⟨S128, .f32⟩ : BufTy).Contents (Elt F) → (⟨S128, .f32⟩ : BufTy).Contents (Elt F) → (⟨S128, .f32⟩ : BufTy).Contents (Elt F))
  :: StableHlo.unary main_v106 main_v107 (Host.rsqrt : (⟨S128, .f32⟩ : BufTy).Contents (Elt F) → (⟨S128, .f32⟩ : BufTy).Contents (Elt F))
  :: StableHlo.unary main_v107 main_v108 (broadcastInDim S1x128 ![1] bcast_S128_S1x128_1 : (⟨S128, .f32⟩ : BufTy).Contents (Elt F) → (⟨S1x128, .f32⟩ : BufTy).Contents (Elt F))
  :: StableHlo.unary main_v108 main_v109 (broadcastInDim S50000x128 ![0, 1] bcast_S1x128_S50000x128_0_1 : (⟨S1x128, .f32⟩ : BufTy).Contents (Elt F) → (⟨S50000x128, .f32⟩ : BufTy).Contents (Elt F))
  :: StableHlo.binary main_v104 main_v109 main_v110 (mulf : (⟨S50000x128, .f32⟩ : BufTy).Contents (Elt F) → (⟨S50000x128, .f32⟩ : BufTy).Contents (Elt F) → (⟨S50000x128, .f32⟩ : BufTy).Contents (Elt F))
  :: StableHlo.unary main_arg10 main_v111 (broadcastInDim S1x128 ![1] bcast_S128_S1x128_1 : (⟨S128, .f32⟩ : BufTy).Contents (Elt F) → (⟨S1x128, .f32⟩ : BufTy).Contents (Elt F))
  :: StableHlo.unary main_v111 main_v112 (broadcastInDim S50000x128 ![0, 1] bcast_S1x128_S50000x128_0_1 : (⟨S1x128, .f32⟩ : BufTy).Contents (Elt F) → (⟨S50000x128, .f32⟩ : BufTy).Contents (Elt F))
  :: StableHlo.binary main_v110 main_v112 main_v113 (mulf : (⟨S50000x128, .f32⟩ : BufTy).Contents (Elt F) → (⟨S50000x128, .f32⟩ : BufTy).Contents (Elt F) → (⟨S50000x128, .f32⟩ : BufTy).Contents (Elt F))
  :: StableHlo.unary main_arg11 main_v114 (broadcastInDim S1x128 ![1] bcast_S128_S1x128_1 : (⟨S128, .f32⟩ : BufTy).Contents (Elt F) → (⟨S1x128, .f32⟩ : BufTy).Contents (Elt F))
  :: StableHlo.unary main_v114 main_v115 (broadcastInDim S50000x128 ![0, 1] bcast_S1x128_S50000x128_0_1 : (⟨S1x128, .f32⟩ : BufTy).Contents (Elt F) → (⟨S50000x128, .f32⟩ : BufTy).Contents (Elt F))
  :: StableHlo.binary main_v113 main_v115 main_v116 (addf : (⟨S50000x128, .f32⟩ : BufTy).Contents (Elt F) → (⟨S50000x128, .f32⟩ : BufTy).Contents (Elt F) → (⟨S50000x128, .f32⟩ : BufTy).Contents (Elt F))
  :: StableHlo.unary main_arg4 main_v117 ((extractStridedSlice S1x128x128 ![0, 0, 0] · slices_S4x128x128_S1x128x128_0_0_0) : (⟨S4x128x128, .f32⟩ : BufTy).Contents (Elt F) → (⟨S1x128x128, .f32⟩ : BufTy).Contents (Elt F))
  :: StableHlo.reshape main_v117 main_v118 rfl shapeCasts_S1x128x128_S128x128
  :: StableHlo.binary main_v116 main_v118 main_v119 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F))
  :: StableHlo.nullary main_c_22 (constantI S_ 32 0#32)
  :: StableHlo.unary main_c_22 main_v120 (broadcastInDim S800000 ![] bcast_S_S800000 : (⟨S_, .i32⟩ : BufTy).Contents (Elt F) → (⟨S800000, .i32⟩ : BufTy).Contents (Elt F))
  :: StableHlo.binary main_v1 main_v120 main_v121 (cmpi .slt : (⟨S800000, .i32⟩ : BufTy).Contents (Elt F) → (⟨S800000, .i32⟩ : BufTy).Contents (Elt F) → (⟨S800000, .i1⟩ : BufTy).Contents (Elt F))
  :: StableHlo.nullary main_c_23 (constantI S_ 32 50000#32)
  :: StableHlo.unary main_c_23 main_v122 (broadcastInDim S800000 ![] bcast_S_S800000 : (⟨S_, .i32⟩ : BufTy).Contents (Elt F) → (⟨S800000, .i32⟩ : BufTy).Contents (Elt F))
  :: StableHlo.binary main_v1 main_v122 main_v123 (addi : (⟨S800000, .i32⟩ : BufTy).Contents (Elt F) → (⟨S800000, .i32⟩ : BufTy).Contents (Elt F) → (⟨S800000, .i32⟩ : BufTy).Contents (Elt F))
  :: StableHlo.ternary main_v121 main_v123 main_v1 main_v124 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F))
  :: StableHlo.unary main_v124 main_v125 (broadcastInDim S800000x1 ![0] bcast_S800000_S800000x1_0 : (⟨S800000, .i32⟩ : BufTy).Contents (Elt F) → (⟨S800000x1, .i32⟩ : BufTy).Contents (Elt F))
  :: StableHlo.binary main_v116 main_v125 main_v126 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F))
  :: StableHlo.unary main_v33 main_v127 (broadcastInDim S800000x1 ![0] bcast_S800000_S800000x1_0 : (⟨S800000, .f32⟩ : BufTy).Contents (Elt F) → (⟨S800000x1, .f32⟩ : BufTy).Contents (Elt F))
  :: StableHlo.unary main_v127 main_v128 (broadcastInDim S800000x128 ![0, 1] bcast_S800000x1_S800000x128_0_1 : (⟨S800000x1, .f32⟩ : BufTy).Contents (Elt F) → (⟨S800000x128, .f32⟩ : BufTy).Contents (Elt F))
  :: StableHlo.binary main_v126 main_v128 main_v129 (mulf : (⟨S800000x128, .f32⟩ : BufTy).Contents (Elt F) → (⟨S800000x128, .f32⟩ : BufTy).Contents (Elt F) → (⟨S800000x128, .f32⟩ : BufTy).Contents (Elt F))
  :: StableHlo.nullary main_cst_24 (constant S_ .f32 0x00000000#32)
  :: StableHlo.unary main_cst_24 main_v130 (broadcastInDim S50000x128 ![] bcast_S_S50000x128 : (⟨S_, .f32⟩ : BufTy).Contents (Elt F) → (⟨S50000x128, .f32⟩ : BufTy).Contents (Elt F))
  :: StableHlo.unary main_v3 main_v131 (broadcastInDim S800000x1 ![0] bcast_S800000_S800000x1_0 : (⟨S800000, .i32⟩ : BufTy).Contents (Elt F) → (⟨S800000x1, .i32⟩ : BufTy).Contents (Elt F))
  :: StableHlo.ternary main_v130 main_v131 main_v129 main_v132 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F))
  :: StableHlo.unary main_arg4 main_v133 ((extractStridedSlice S1x128x128 ![1, 0, 0] · slices_S4x128x128_S1x128x128_1_0_0) : (⟨S4x128x128, .f32⟩ : BufTy).Contents (Elt F) → (⟨S1x128x128, .f32⟩ : BufTy).Contents (Elt F))
  :: StableHlo.reshape main_v133 main_v134 rfl shapeCasts_S1x128x128_S128x128
  :: StableHlo.binary main_v132 main_v134 main_v135 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F))
  :: StableHlo.binary main_v119 main_v135 main_v136 (addf : (⟨S50000x128, .f32⟩ : BufTy).Contents (Elt F) → (⟨S50000x128, .f32⟩ : BufTy).Contents (Elt F) → (⟨S50000x128, .f32⟩ : BufTy).Contents (Elt F))
  :: StableHlo.nullary main_c_25 (constantI S_ 32 0#32)
  :: StableHlo.unary main_c_25 main_v137 (broadcastInDim S800000 ![] bcast_S_S800000 : (⟨S_, .i32⟩ : BufTy).Contents (Elt F) → (⟨S800000, .i32⟩ : BufTy).Contents (Elt F))
  :: StableHlo.binary main_v1 main_v137 main_v138 (cmpi .slt : (⟨S800000, .i32⟩ : BufTy).Contents (Elt F) → (⟨S800000, .i32⟩ : BufTy).Contents (Elt F) → (⟨S800000, .i1⟩ : BufTy).Contents (Elt F))
  :: StableHlo.nullary main_c_26 (constantI S_ 32 50000#32)
  :: StableHlo.unary main_c_26 main_v139 (broadcastInDim S800000 ![] bcast_S_S800000 : (⟨S_, .i32⟩ : BufTy).Contents (Elt F) → (⟨S800000, .i32⟩ : BufTy).Contents (Elt F))
  :: StableHlo.binary main_v1 main_v139 main_v140 (addi : (⟨S800000, .i32⟩ : BufTy).Contents (Elt F) → (⟨S800000, .i32⟩ : BufTy).Contents (Elt F) → (⟨S800000, .i32⟩ : BufTy).Contents (Elt F))
  :: StableHlo.ternary main_v138 main_v140 main_v1 main_v141 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F))
  :: StableHlo.unary main_v141 main_v142 (broadcastInDim S800000x1 ![0] bcast_S800000_S800000x1_0 : (⟨S800000, .i32⟩ : BufTy).Contents (Elt F) → (⟨S800000x1, .i32⟩ : BufTy).Contents (Elt F))
  :: StableHlo.binary main_v132 main_v142 main_v143 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F))
  :: StableHlo.unary main_v33 main_v144 (broadcastInDim S800000x1 ![0] bcast_S800000_S800000x1_0 : (⟨S800000, .f32⟩ : BufTy).Contents (Elt F) → (⟨S800000x1, .f32⟩ : BufTy).Contents (Elt F))
  :: StableHlo.unary main_v144 main_v145 (broadcastInDim S800000x128 ![0, 1] bcast_S800000x1_S800000x128_0_1 : (⟨S800000x1, .f32⟩ : BufTy).Contents (Elt F) → (⟨S800000x128, .f32⟩ : BufTy).Contents (Elt F))
  :: StableHlo.binary main_v143 main_v145 main_v146 (mulf : (⟨S800000x128, .f32⟩ : BufTy).Contents (Elt F) → (⟨S800000x128, .f32⟩ : BufTy).Contents (Elt F) → (⟨S800000x128, .f32⟩ : BufTy).Contents (Elt F))
  :: StableHlo.nullary main_cst_27 (constant S_ .f32 0x00000000#32)
  :: StableHlo.unary main_cst_27 main_v147 (broadcastInDim S50000x128 ![] bcast_S_S50000x128 : (⟨S_, .f32⟩ : BufTy).Contents (Elt F) → (⟨S50000x128, .f32⟩ : BufTy).Contents (Elt F))
  :: StableHlo.unary main_v3 main_v148 (broadcastInDim S800000x1 ![0] bcast_S800000_S800000x1_0 : (⟨S800000, .i32⟩ : BufTy).Contents (Elt F) → (⟨S800000x1, .i32⟩ : BufTy).Contents (Elt F))
  :: StableHlo.ternary main_v147 main_v148 main_v146 main_v149 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F))
  :: [] )

set_option maxHeartbeats 40000000 in
/-- The window is that straight line: the functions' definitions unfolded at their calls, sequencing reassociated. -/
theorem part2_eq (c : Dev nD) : main_part2 (F := F) c = StableHlo.seq opsP2 := by
  simp only [main_part2, fn_var.body, fn_where_1.body, StableHlo.seq, bind_assoc, pure_bind]
  rfl

set_option maxHeartbeats 40000000 in
/-- The operations of the window main_part3 (87), in order. -/
abbrev opsP3 : List (HloOp τ sig (Elt F)) :=
  ( StableHlo.nullary main_cst_28 (constant S_ .f32 0x40000000#32)
  :: StableHlo.unary main_cst_28 main_v150 (broadcastInDim S50000x128 ![] bcast_S_S50000x128 : (⟨S_, .f32⟩ : BufTy).Contents (Elt F) → (⟨S50000x128, .f32⟩ : BufTy).Contents (Elt F))
  :: StableHlo.binary main_v150 main_v149 main_v151 (mulf : (⟨S50000x128, .f32⟩ : BufTy).Contents (Elt F) → (⟨S50000x128, .f32⟩ : BufTy).Contents (Elt F) → (⟨S50000x128, .f32⟩ : BufTy).Contents (Elt F))
  :: StableHlo.binary main_v151 main_v116 main_v152 (subf : (⟨S50000x128, .f32⟩ : BufTy).Contents (Elt F) → (⟨S50000x128, .f32⟩ : BufTy).Contents (Elt F) → (⟨S50000x128, .f32⟩ : BufTy).Contents (Elt F))
  :: StableHlo.unary main_arg4 main_v153 ((extractStridedSlice S1x128x128 ![2, 0, 0] · slices_S4x128x128_S1x128x128_2_0_0) : (⟨S4x128x128, .f32⟩ : BufTy).Contents (Elt F) → (⟨S1x128x128, .f32⟩ : BufTy).Contents (Elt F))
  :: StableHlo.reshape main_v153 main_v154 rfl shapeCasts_S1x128x128_S128x128
  :: StableHlo.binary main_v152 main_v154 main_v155 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F))
  :: StableHlo.binary main_v136 main_v155 main_v156 (addf : (⟨S50000x128, .f32⟩ : BufTy).Contents (Elt F) → (⟨S50000x128, .f32⟩ : BufTy).Contents (Elt F) → (⟨S50000x128, .f32⟩ : BufTy).Contents (Elt F))
  :: StableHlo.nullary main_c_29 (constantI S_ 32 0#32)
  :: StableHlo.unary main_c_29 main_v157 (broadcastInDim S800000 ![] bcast_S_S800000 : (⟨S_, .i32⟩ : BufTy).Contents (Elt F) → (⟨S800000, .i32⟩ : BufTy).Contents (Elt F))
  :: StableHlo.binary main_v1 main_v157 main_v158 (cmpi .slt : (⟨S800000, .i32⟩ : BufTy).Contents (Elt F) → (⟨S800000, .i32⟩ : BufTy).Contents (Elt F) → (⟨S800000, .i1⟩ : BufTy).Contents (Elt F))
  :: StableHlo.nullary main_c_30 (constantI S_ 32 50000#32)
  :: StableHlo.unary main_c_30 main_v159 (broadcastInDim S800000 ![] bcast_S_S800000 : (⟨S_, .i32⟩ : BufTy).Contents (Elt F) → (⟨S800000, .i32⟩ : BufTy).Contents (Elt F))
  :: StableHlo.binary main_v1 main_v159 main_v160 (addi : (⟨S800000, .i32⟩ : BufTy).Contents (Elt F) → (⟨S800000, .i32⟩ : BufTy).Contents (Elt F) → (⟨S800000, .i32⟩ : BufTy).Contents (Elt F))
  :: StableHlo.ternary main_v158 main_v160 main_v1 main_v161 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F))
  :: StableHlo.unary main_v161 main_v162 (broadcastInDim S800000x1 ![0] bcast_S800000_S800000x1_0 : (⟨S800000, .i32⟩ : BufTy).Contents (Elt F) → (⟨S800000x1, .i32⟩ : BufTy).Contents (Elt F))
  :: StableHlo.binary main_v152 main_v162 main_v163 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F))
  :: StableHlo.unary main_v33 main_v164 (broadcastInDim S800000x1 ![0] bcast_S800000_S800000x1_0 : (⟨S800000, .f32⟩ : BufTy).Contents (Elt F) → (⟨S800000x1, .f32⟩ : BufTy).Contents (Elt F))
  :: StableHlo.unary main_v164 main_v165 (broadcastInDim S800000x128 ![0, 1] bcast_S800000x1_S800000x128_0_1 : (⟨S800000x1, .f32⟩ : BufTy).Contents (Elt F) → (⟨S800000x128, .f32⟩ : BufTy).Contents (Elt F))
  :: StableHlo.binary main_v163 main_v165 main_v166 (mulf : (⟨S800000x128, .f32⟩ : BufTy).Contents (Elt F) → (⟨S800000x128, .f32⟩ : BufTy).Contents (Elt F) → (⟨S800000x128, .f32⟩ : BufTy).Contents (Elt F))
  :: StableHlo.nullary main_cst_31 (constant S_ .f32 0x00000000#32)
  :: StableHlo.unary main_cst_31 main_v167 (broadcastInDim S50000x128 ![] bcast_S_S50000x128 : (⟨S_, .f32⟩ : BufTy).Contents (Elt F) → (⟨S50000x128, .f32⟩ : BufTy).Contents (Elt F))
  :: StableHlo.unary main_v3 main_v168 (broadcastInDim S800000x1 ![0] bcast_S800000_S800000x1_0 : (⟨S800000, .i32⟩ : BufTy).Contents (Elt F) → (⟨S800000x1, .i32⟩ : BufTy).Contents (Elt F))
  :: StableHlo.ternary main_v167 main_v168 main_v166 main_v169 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F))
  :: StableHlo.nullary main_cst_32 (constant S_ .f32 0x40000000#32)
  :: StableHlo.unary main_cst_32 main_v170 (broadcastInDim S50000x128 ![] bcast_S_S50000x128 : (⟨S_, .f32⟩ : BufTy).Contents (Elt F) → (⟨S50000x128, .f32⟩ : BufTy).Contents (Elt F))
  :: StableHlo.binary main_v170 main_v169 main_v171 (mulf : (⟨S50000x128, .f32⟩ : BufTy).Contents (Elt F) → (⟨S50000x128, .f32⟩ : BufTy).Contents (Elt F) → (⟨S50000x128, .f32⟩ : BufTy).Contents (Elt F))
  :: StableHlo.binary main_v171 main_v132 main_v172 (subf : (⟨S50000x128, .f32⟩ : BufTy).Contents (Elt F) → (⟨S50000x128, .f32⟩ : BufTy).Contents (Elt F) → (⟨S50000x128, .f32⟩ : BufTy).Contents (Elt F))
  :: StableHlo.unary main_arg4 main_v173 ((extractStridedSlice S1x128x128 ![3, 0, 0] · slices_S4x128x128_S1x128x128_3_0_0) : (⟨S4x128x128, .f32⟩ : BufTy).Contents (Elt F) → (⟨S1x128x128, .f32⟩ : BufTy).Contents (Elt F))
  :: StableHlo.reshape main_v173 main_v174 rfl shapeCasts_S1x128x128_S128x128
  :: StableHlo.binary main_v172 main_v174 main_v175 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F))
  :: StableHlo.binary main_v156 main_v175 main_v176 (addf : (⟨S50000x128, .f32⟩ : BufTy).Contents (Elt F) → (⟨S50000x128, .f32⟩ : BufTy).Contents (Elt F) → (⟨S50000x128, .f32⟩ : BufTy).Contents (Elt F))
  :: StableHlo.unary main_arg5 main_v177 (broadcastInDim S1x128 ![1] bcast_S128_S1x128_1 : (⟨S128, .f32⟩ : BufTy).Contents (Elt F) → (⟨S1x128, .f32⟩ : BufTy).Contents (Elt F))
  :: StableHlo.unary main_v177 main_v178 (broadcastInDim S50000x128 ![0, 1] bcast_S1x128_S50000x128_0_1 : (⟨S1x128, .f32⟩ : BufTy).Contents (Elt F) → (⟨S50000x128, .f32⟩ : BufTy).Contents (Elt F))
  :: StableHlo.binary main_v176 main_v178 main_v179 (addf : (⟨S50000x128, .f32⟩ : BufTy).Contents (Elt F) → (⟨S50000x128, .f32⟩ : BufTy).Contents (Elt F) → (⟨S50000x128, .f32⟩ : BufTy).Contents (Elt F))
  :: StableHlo.TRef.nullary (.of main_call3_cst : StableHlo.TRef sig ⟨S_, .f32⟩) (constant S_ .f32 0x00000000#32)
  :: StableHlo.TRef.unary (.of main_call3_cst : StableHlo.TRef sig ⟨S_, .f32⟩) (.of main_call3_v0 : StableHlo.TRef sig ⟨S50000x128, .f32⟩) (broadcastInDim S50000x128 ![] bcast_S_S50000x128)
  :: StableHlo.TRef.binary (.of main_v179 : StableHlo.TRef sig ⟨S50000x128, .f32⟩) (.of main_call3_v0 : StableHlo.TRef sig ⟨S50000x128, .f32⟩) (.of main_call3_v1 : StableHlo.TRef sig ⟨S50000x128, .i1⟩) (cmpf .oge)
  :: StableHlo.TRef.nullary (.of main_call3_cst_0 : StableHlo.TRef sig ⟨S_, .f32⟩) (constant S_ .f32 0x3C23D70A#32)
  :: StableHlo.TRef.unary (.of main_call3_cst_0 : StableHlo.TRef sig ⟨S_, .f32⟩) (.of main_call3_v2 : StableHlo.TRef sig ⟨S50000x128, .f32⟩) (broadcastInDim S50000x128 ![] bcast_S_S50000x128)
  :: StableHlo.TRef.binary (.of main_call3_v2 : StableHlo.TRef sig ⟨S50000x128, .f32⟩) (.of main_v179 : StableHlo.TRef sig ⟨S50000x128, .f32⟩) (.of main_call3_v3 : StableHlo.TRef sig ⟨S50000x128, .f32⟩) mulf
  :: StableHlo.TRef.ternary (.of main_call3_v1 : StableHlo.TRef sig ⟨S50000x128, .i1⟩) (.of main_v179 : StableHlo.TRef sig ⟨S50000x128, .f32⟩) (.of main_call3_v3 : StableHlo.TRef sig ⟨S50000x128, .f32⟩) (.of main_v180 : StableHlo.TRef sig ⟨S50000x128, .f32⟩) select
  :: StableHlo.nullary main_cst_33 (constant S_ .f32 0x00000000#32)
  :: StableHlo.binary main_v180 main_cst_33 main_v181 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F))
  :: StableHlo.nullary main_cst_34 (constant S_ .f32 0x47435000#32)
  :: StableHlo.unary main_cst_34 main_v182 (broadcastInDim S128 ![] bcast_S_S128 : (⟨S_, .f32⟩ : BufTy).Contents (Elt F) → (⟨S128, .f32⟩ : BufTy).Contents (Elt F))
  :: StableHlo.binary main_v181 main_v182 main_v183 (Host.divf : (⟨S128, .f32⟩ : BufTy).Contents (Elt F) → (⟨S128, .f32⟩ : BufTy).Contents (Elt F) → (⟨S128, .f32⟩ : BufTy).Contents (Elt F))
  :: StableHlo.nullary main_c_35 (constantI S_ 32 0#32)
  :: StableHlo.TRef.nullary (.of main_call4_cst : StableHlo.TRef sig ⟨S_, .f32⟩) (constant S_ .f32 0x00000000#32)
  :: StableHlo.TRef.binary (.of main_v180 : StableHlo.TRef sig ⟨S50000x128, .f32⟩) (.of main_call4_cst : StableHlo.TRef sig ⟨S_, .f32⟩) (.of main_call4_v0 : StableHlo.TRef sig ⟨S128, .f32⟩) (fun x v => Host.reduceAdd x v reducesTo_S50000x128_S128_d0 h_S_)
  :: StableHlo.TRef.unary (.of main_call4_v0 : StableHlo.TRef sig ⟨S128, .f32⟩) (.of main_call4_v1 : StableHlo.TRef sig ⟨S1x128, .f32⟩) (broadcastInDim S1x128 ![1] bcast_S128_S1x128_1)
  :: StableHlo.TRef.nullary (.of main_call4_cst_0 : StableHlo.TRef sig ⟨S_, .f32⟩) (constant S_ .f32 0x47435000#32)
  :: StableHlo.TRef.unary (.of main_call4_cst_0 : StableHlo.TRef sig ⟨S_, .f32⟩) (.of main_call4_v2 : StableHlo.TRef sig ⟨S1x128, .f32⟩) (broadcastInDim S1x128 ![] bcast_S_S1x128)
  :: StableHlo.TRef.binary (.of main_call4_v1 : StableHlo.TRef sig ⟨S1x128, .f32⟩) (.of main_call4_v2 : StableHlo.TRef sig ⟨S1x128, .f32⟩) (.of main_call4_v3 : StableHlo.TRef sig ⟨S1x128, .f32⟩) Host.divf
  :: StableHlo.TRef.unary (.of main_call4_v3 : StableHlo.TRef sig ⟨S1x128, .f32⟩) (.of main_call4_v4 : StableHlo.TRef sig ⟨S50000x128, .f32⟩) (broadcastInDim S50000x128 ![0, 1] bcast_S1x128_S50000x128_0_1)
  :: StableHlo.TRef.binary (.of main_v180 : StableHlo.TRef sig ⟨S50000x128, .f32⟩) (.of main_call4_v4 : StableHlo.TRef sig ⟨S50000x128, .f32⟩) (.of main_call4_v5 : StableHlo.TRef sig ⟨S50000x128, .f32⟩) subf
  :: StableHlo.TRef.binary (.of main_call4_v5 : StableHlo.TRef sig ⟨S50000x128, .f32⟩) (.of main_call4_v5 : StableHlo.TRef sig ⟨S50000x128, .f32⟩) (.of main_call4_v6 : StableHlo.TRef sig ⟨S50000x128, .f32⟩) mulf
  :: StableHlo.TRef.unary (.of main_c_35 : StableHlo.TRef sig ⟨S_, .i32⟩) (.of main_call4_v7 : StableHlo.TRef sig ⟨S_, .f32⟩) (sitofp .f32)
  :: StableHlo.TRef.nullary (.of main_call4_cst_1 : StableHlo.TRef sig ⟨S_, .f32⟩) (constant S_ .f32 0x47435000#32)
  :: StableHlo.TRef.binary (.of main_call4_cst_1 : StableHlo.TRef sig ⟨S_, .f32⟩) (.of main_call4_v7 : StableHlo.TRef sig ⟨S_, .f32⟩) (.of main_call4_v8 : StableHlo.TRef sig ⟨S_, .f32⟩) subf
  :: StableHlo.TRef.nullary (.of main_call4_cst_2 : StableHlo.TRef sig ⟨S_, .f32⟩) (constant S_ .f32 0x00000000#32)
  :: StableHlo.TRef.binary (.of main_call4_v6 : StableHlo.TRef sig ⟨S50000x128, .f32⟩) (.of main_call4_cst_2 : StableHlo.TRef sig ⟨S_, .f32⟩) (.of main_call4_v9 : StableHlo.TRef sig ⟨S128, .f32⟩) (fun x v => Host.reduceAdd x v reducesTo_S50000x128_S128_d0 h_S_)
  :: StableHlo.TRef.unary (.of main_call4_v8 : StableHlo.TRef sig ⟨S_, .f32⟩) (.of main_call4_v10 : StableHlo.TRef sig ⟨S128, .f32⟩) (broadcastInDim S128 ![] bcast_S_S128)
  :: StableHlo.TRef.binary (.of main_call4_v9 : StableHlo.TRef sig ⟨S128, .f32⟩) (.of main_call4_v10 : StableHlo.TRef sig ⟨S128, .f32⟩) (.of main_call4_v11 : StableHlo.TRef sig ⟨S128, .f32⟩) Host.divf
  :: StableHlo.TRef.nullary (.of main_call4_cst_3 : StableHlo.TRef sig ⟨S_, .f32⟩) (constant S_ .f32 0x00000000#32)
  :: StableHlo.TRef.binary (.of main_call4_v8 : StableHlo.TRef sig ⟨S_, .f32⟩) (.of main_call4_cst_3 : StableHlo.TRef sig ⟨S_, .f32⟩) (.of main_call4_v12 : StableHlo.TRef sig ⟨S_, .i1⟩) (cmpf .ogt)
  :: StableHlo.TRef.nullary (.of main_call4_cst_4 : StableHlo.TRef sig ⟨S_, .f32⟩) (constant S_ .f32 0x7FC00000#32)
  :: StableHlo.TRef.unary (.of main_call4_cst_4 : StableHlo.TRef sig ⟨S_, .f32⟩) (.of main_call4_call0_v0 : StableHlo.TRef sig ⟨S_, .f32⟩) id
  :: StableHlo.TRef.unary (.of main_call4_call0_v0 : StableHlo.TRef sig ⟨S_, .f32⟩) (.of main_call4_call0_v1 : StableHlo.TRef sig ⟨S128, .f32⟩) (broadcastInDim S128 ![] bcast_S_S128)
  :: StableHlo.TRef.ternary (.of main_call4_v12 : StableHlo.TRef sig ⟨S_, .i1⟩) (.of main_call4_v11 : StableHlo.TRef sig ⟨S128, .f32⟩) (.of main_call4_call0_v1 : StableHlo.TRef sig ⟨S128, .f32⟩) (.of main_v184 : StableHlo.TRef sig ⟨S128, .f32⟩) (fun p a b => select (broadcastInDim S128 ![] bcast_S_S128 p) a b)
  :: StableHlo.unary main_v183 main_v185 (broadcastInDim S1x128 ![1] bcast_S128_S1x128_1 : (⟨S128, .f32⟩ : BufTy).Contents (Elt F) → (⟨S1x128, .f32⟩ : BufTy).Contents (Elt F))
  :: StableHlo.unary main_v185 main_v186 (broadcastInDim S50000x128 ![0, 1] bcast_S1x128_S50000x128_0_1 : (⟨S1x128, .f32⟩ : BufTy).Contents (Elt F) → (⟨S50000x128, .f32⟩ : BufTy).Contents (Elt F))
  :: StableHlo.binary main_v180 main_v186 main_v187 (subf : (⟨S50000x128, .f32⟩ : BufTy).Contents (Elt F) → (⟨S50000x128, .f32⟩ : BufTy).Contents (Elt F) → (⟨S50000x128, .f32⟩ : BufTy).Contents (Elt F))
  :: StableHlo.nullary main_cst_36 (constant S_ .f32 0x3727C5AC#32)
  :: StableHlo.unary main_cst_36 main_v188 (broadcastInDim S128 ![] bcast_S_S128 : (⟨S_, .f32⟩ : BufTy).Contents (Elt F) → (⟨S128, .f32⟩ : BufTy).Contents (Elt F))
  :: StableHlo.binary main_v184 main_v188 main_v189 (addf : (⟨S128, .f32⟩ : BufTy).Contents (Elt F) → (⟨S128, .f32⟩ : BufTy).Contents (Elt F) → (⟨S128, .f32⟩ : BufTy).Contents (Elt F))
  :: StableHlo.unary main_v189 main_v190 (Host.rsqrt : (⟨S128, .f32⟩ : BufTy).Contents (Elt F) → (⟨S128, .f32⟩ : BufTy).Contents (Elt F))
  :: StableHlo.unary main_v190 main_v191 (broadcastInDim S1x128 ![1] bcast_S128_S1x128_1 : (⟨S128, .f32⟩ : BufTy).Contents (Elt F) → (⟨S1x128, .f32⟩ : BufTy).Contents (Elt F))
  :: StableHlo.unary main_v191 main_v192 (broadcastInDim S50000x128 ![0, 1] bcast_S1x128_S50000x128_0_1 : (⟨S1x128, .f32⟩ : BufTy).Contents (Elt F) → (⟨S50000x128, .f32⟩ : BufTy).Contents (Elt F))
  :: StableHlo.binary main_v187 main_v192 main_v193 (mulf : (⟨S50000x128, .f32⟩ : BufTy).Contents (Elt F) → (⟨S50000x128, .f32⟩ : BufTy).Contents (Elt F) → (⟨S50000x128, .f32⟩ : BufTy).Contents (Elt F))
  :: StableHlo.unary main_arg12 main_v194 (broadcastInDim S1x128 ![1] bcast_S128_S1x128_1 : (⟨S128, .f32⟩ : BufTy).Contents (Elt F) → (⟨S1x128, .f32⟩ : BufTy).Contents (Elt F))
  :: StableHlo.unary main_v194 main_v195 (broadcastInDim S50000x128 ![0, 1] bcast_S1x128_S50000x128_0_1 : (⟨S1x128, .f32⟩ : BufTy).Contents (Elt F) → (⟨S50000x128, .f32⟩ : BufTy).Contents (Elt F))
  :: StableHlo.binary main_v193 main_v195 main_v196 (mulf : (⟨S50000x128, .f32⟩ : BufTy).Contents (Elt F) → (⟨S50000x128, .f32⟩ : BufTy).Contents (Elt F) → (⟨S50000x128, .f32⟩ : BufTy).Contents (Elt F))
  :: StableHlo.unary main_arg13 main_v197 (broadcastInDim S1x128 ![1] bcast_S128_S1x128_1 : (⟨S128, .f32⟩ : BufTy).Contents (Elt F) → (⟨S1x128, .f32⟩ : BufTy).Contents (Elt F))
  :: StableHlo.unary main_v197 main_v198 (broadcastInDim S50000x128 ![0, 1] bcast_S1x128_S50000x128_0_1 : (⟨S1x128, .f32⟩ : BufTy).Contents (Elt F) → (⟨S50000x128, .f32⟩ : BufTy).Contents (Elt F))
  :: StableHlo.binary main_v196 main_v198 main_v199 (addf : (⟨S50000x128, .f32⟩ : BufTy).Contents (Elt F) → (⟨S50000x128, .f32⟩ : BufTy).Contents (Elt F) → (⟨S50000x128, .f32⟩ : BufTy).Contents (Elt F))
  :: StableHlo.unary main_arg6 main_v200 ((extractStridedSlice S1x128x128 ![0, 0, 0] · slices_S4x128x128_S1x128x128_0_0_0) : (⟨S4x128x128, .f32⟩ : BufTy).Contents (Elt F) → (⟨S1x128x128, .f32⟩ : BufTy).Contents (Elt F))
  :: [] )

set_option maxHeartbeats 40000000 in
/-- The window is that straight line: the functions' definitions unfolded at their calls, sequencing reassociated. -/
theorem part3_eq (c : Dev nD) : main_part3 (F := F) c = StableHlo.seq opsP3 := by
  simp only [main_part3, fn_leaky_relu.body, fn_where_0.body, fn_var.body, fn_where_1.body, StableHlo.seq, bind_assoc, pure_bind]
  rfl

end Cert.ReferenceIdeal.Hand

end
-- ==== Proof.RefParts2.lean ====
/- The reference program's @main window by window (main_part4, main_part5): each window is the straight line of its operations, the calls' bodies written out. -/
import proofs.«175070_j35072702939553_2_alg».proof.Proof.RefBase

set_option maxRecDepth 8192

noncomputable section

namespace Cert.ReferenceIdeal.Hand

open Cert.ReferenceIdeal Cert.ReferenceIdeal.Gen Idealize.ShloMosaic Idealize.ShloMosaic.TcCoe Idealize.SL.Sem

variable {F : FTy → Type} [FloatOps F]

set_option maxHeartbeats 40000000 in
/-- The operations of the window main_part4 (60), in order. -/
abbrev opsP4 : List (HloOp τ sig (Elt F)) :=
  ( StableHlo.reshape main_v200 main_v201 rfl shapeCasts_S1x128x128_S128x128
  :: StableHlo.binary main_v199 main_v201 main_v202 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F))
  :: StableHlo.nullary main_c_37 (constantI S_ 32 0#32)
  :: StableHlo.unary main_c_37 main_v203 (broadcastInDim S800000 ![] bcast_S_S800000 : (⟨S_, .i32⟩ : BufTy).Contents (Elt F) → (⟨S800000, .i32⟩ : BufTy).Contents (Elt F))
  :: StableHlo.binary main_v1 main_v203 main_v204 (cmpi .slt : (⟨S800000, .i32⟩ : BufTy).Contents (Elt F) → (⟨S800000, .i32⟩ : BufTy).Contents (Elt F) → (⟨S800000, .i1⟩ : BufTy).Contents (Elt F))
  :: StableHlo.nullary main_c_38 (constantI S_ 32 50000#32)
  :: StableHlo.unary main_c_38 main_v205 (broadcastInDim S800000 ![] bcast_S_S800000 : (⟨S_, .i32⟩ : BufTy).Contents (Elt F) → (⟨S800000, .i32⟩ : BufTy).Contents (Elt F))
  :: StableHlo.binary main_v1 main_v205 main_v206 (addi : (⟨S800000, .i32⟩ : BufTy).Contents (Elt F) → (⟨S800000, .i32⟩ : BufTy).Contents (Elt F) → (⟨S800000, .i32⟩ : BufTy).Contents (Elt F))
  :: StableHlo.ternary main_v204 main_v206 main_v1 main_v207 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F))
  :: StableHlo.unary main_v207 main_v208 (broadcastInDim S800000x1 ![0] bcast_S800000_S800000x1_0 : (⟨S800000, .i32⟩ : BufTy).Contents (Elt F) → (⟨S800000x1, .i32⟩ : BufTy).Contents (Elt F))
  :: StableHlo.binary main_v199 main_v208 main_v209 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F))
  :: StableHlo.unary main_v33 main_v210 (broadcastInDim S800000x1 ![0] bcast_S800000_S800000x1_0 : (⟨S800000, .f32⟩ : BufTy).Contents (Elt F) → (⟨S800000x1, .f32⟩ : BufTy).Contents (Elt F))
  :: StableHlo.unary main_v210 main_v211 (broadcastInDim S800000x128 ![0, 1] bcast_S800000x1_S800000x128_0_1 : (⟨S800000x1, .f32⟩ : BufTy).Contents (Elt F) → (⟨S800000x128, .f32⟩ : BufTy).Contents (Elt F))
  :: StableHlo.binary main_v209 main_v211 main_v212 (mulf : (⟨S800000x128, .f32⟩ : BufTy).Contents (Elt F) → (⟨S800000x128, .f32⟩ : BufTy).Contents (Elt F) → (⟨S800000x128, .f32⟩ : BufTy).Contents (Elt F))
  :: StableHlo.nullary main_cst_39 (constant S_ .f32 0x00000000#32)
  :: StableHlo.unary main_cst_39 main_v213 (broadcastInDim S50000x128 ![] bcast_S_S50000x128 : (⟨S_, .f32⟩ : BufTy).Contents (Elt F) → (⟨S50000x128, .f32⟩ : BufTy).Contents (Elt F))
  :: StableHlo.unary main_v3 main_v214 (broadcastInDim S800000x1 ![0] bcast_S800000_S800000x1_0 : (⟨S800000, .i32⟩ : BufTy).Contents (Elt F) → (⟨S800000x1, .i32⟩ : BufTy).Contents (Elt F))
  :: StableHlo.ternary main_v213 main_v214 main_v212 main_v215 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F))
  :: StableHlo.unary main_arg6 main_v216 ((extractStridedSlice S1x128x128 ![1, 0, 0] · slices_S4x128x128_S1x128x128_1_0_0) : (⟨S4x128x128, .f32⟩ : BufTy).Contents (Elt F) → (⟨S1x128x128, .f32⟩ : BufTy).Contents (Elt F))
  :: StableHlo.reshape main_v216 main_v217 rfl shapeCasts_S1x128x128_S128x128
  :: StableHlo.binary main_v215 main_v217 main_v218 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F))
  :: StableHlo.binary main_v202 main_v218 main_v219 (addf : (⟨S50000x128, .f32⟩ : BufTy).Contents (Elt F) → (⟨S50000x128, .f32⟩ : BufTy).Contents (Elt F) → (⟨S50000x128, .f32⟩ : BufTy).Contents (Elt F))
  :: StableHlo.nullary main_c_40 (constantI S_ 32 0#32)
  :: StableHlo.unary main_c_40 main_v220 (broadcastInDim S800000 ![] bcast_S_S800000 : (⟨S_, .i32⟩ : BufTy).Contents (Elt F) → (⟨S800000, .i32⟩ : BufTy).Contents (Elt F))
  :: StableHlo.binary main_v1 main_v220 main_v221 (cmpi .slt : (⟨S800000, .i32⟩ : BufTy).Contents (Elt F) → (⟨S800000, .i32⟩ : BufTy).Contents (Elt F) → (⟨S800000, .i1⟩ : BufTy).Contents (Elt F))
  :: StableHlo.nullary main_c_41 (constantI S_ 32 50000#32)
  :: StableHlo.unary main_c_41 main_v222 (broadcastInDim S800000 ![] bcast_S_S800000 : (⟨S_, .i32⟩ : BufTy).Contents (Elt F) → (⟨S800000, .i32⟩ : BufTy).Contents (Elt F))
  :: StableHlo.binary main_v1 main_v222 main_v223 (addi : (⟨S800000, .i32⟩ : BufTy).Contents (Elt F) → (⟨S800000, .i32⟩ : BufTy).Contents (Elt F) → (⟨S800000, .i32⟩ : BufTy).Contents (Elt F))
  :: StableHlo.ternary main_v221 main_v223 main_v1 main_v224 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F))
  :: StableHlo.unary main_v224 main_v225 (broadcastInDim S800000x1 ![0] bcast_S800000_S800000x1_0 : (⟨S800000, .i32⟩ : BufTy).Contents (Elt F) → (⟨S800000x1, .i32⟩ : BufTy).Contents (Elt F))
  :: StableHlo.binary main_v215 main_v225 main_v226 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F))
  :: StableHlo.unary main_v33 main_v227 (broadcastInDim S800000x1 ![0] bcast_S800000_S800000x1_0 : (⟨S800000, .f32⟩ : BufTy).Contents (Elt F) → (⟨S800000x1, .f32⟩ : BufTy).Contents (Elt F))
  :: StableHlo.unary main_v227 main_v228 (broadcastInDim S800000x128 ![0, 1] bcast_S800000x1_S800000x128_0_1 : (⟨S800000x1, .f32⟩ : BufTy).Contents (Elt F) → (⟨S800000x128, .f32⟩ : BufTy).Contents (Elt F))
  :: StableHlo.binary main_v226 main_v228 main_v229 (mulf : (⟨S800000x128, .f32⟩ : BufTy).Contents (Elt F) → (⟨S800000x128, .f32⟩ : BufTy).Contents (Elt F) → (⟨S800000x128, .f32⟩ : BufTy).Contents (Elt F))
  :: StableHlo.nullary main_cst_42 (constant S_ .f32 0x00000000#32)
  :: StableHlo.unary main_cst_42 main_v230 (broadcastInDim S50000x128 ![] bcast_S_S50000x128 : (⟨S_, .f32⟩ : BufTy).Contents (Elt F) → (⟨S50000x128, .f32⟩ : BufTy).Contents (Elt F))
  :: StableHlo.unary main_v3 main_v231 (broadcastInDim S800000x1 ![0] bcast_S800000_S800000x1_0 : (⟨S800000, .i32⟩ : BufTy).Contents (Elt F) → (⟨S800000x1, .i32⟩ : BufTy).Contents (Elt F))
  :: StableHlo.ternary main_v230 main_v231 main_v229 main_v232 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F))
  :: StableHlo.nullary main_cst_43 (constant S_ .f32 0x40000000#32)
  :: StableHlo.unary main_cst_43 main_v233 (broadcastInDim S50000x128 ![] bcast_S_S50000x128 : (⟨S_, .f32⟩ : BufTy).Contents (Elt F) → (⟨S50000x128, .f32⟩ : BufTy).Contents (Elt F))
  :: StableHlo.binary main_v233 main_v232 main_v234 (mulf : (⟨S50000x128, .f32⟩ : BufTy).Contents (Elt F) → (⟨S50000x128, .f32⟩ : BufTy).Contents (Elt F) → (⟨S50000x128, .f32⟩ : BufTy).Contents (Elt F))
  :: StableHlo.binary main_v234 main_v199 main_v235 (subf : (⟨S50000x128, .f32⟩ : BufTy).Contents (Elt F) → (⟨S50000x128, .f32⟩ : BufTy).Contents (Elt F) → (⟨S50000x128, .f32⟩ : BufTy).Contents (Elt F))
  :: StableHlo.unary main_arg6 main_v236 ((extractStridedSlice S1x128x128 ![2, 0, 0] · slices_S4x128x128_S1x128x128_2_0_0) : (⟨S4x128x128, .f32⟩ : BufTy).Contents (Elt F) → (⟨S1x128x128, .f32⟩ : BufTy).Contents (Elt F))
  :: StableHlo.reshape main_v236 main_v237 rfl shapeCasts_S1x128x128_S128x128
  :: StableHlo.binary main_v235 main_v237 main_v238 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F))
  :: StableHlo.binary main_v219 main_v238 main_v239 (addf : (⟨S50000x128, .f32⟩ : BufTy).Contents (Elt F) → (⟨S50000x128, .f32⟩ : BufTy).Contents (Elt F) → (⟨S50000x128, .f32⟩ : BufTy).Contents (Elt F))
  :: StableHlo.nullary main_c_44 (constantI S_ 32 0#32)
  :: StableHlo.unary main_c_44 main_v240 (broadcastInDim S800000 ![] bcast_S_S800000 : (⟨S_, .i32⟩ : BufTy).Contents (Elt F) → (⟨S800000, .i32⟩ : BufTy).Contents (Elt F))
  :: StableHlo.binary main_v1 main_v240 main_v241 (cmpi .slt : (⟨S800000, .i32⟩ : BufTy).Contents (Elt F) → (⟨S800000, .i32⟩ : BufTy).Contents (Elt F) → (⟨S800000, .i1⟩ : BufTy).Contents (Elt F))
  :: StableHlo.nullary main_c_45 (constantI S_ 32 50000#32)
  :: StableHlo.unary main_c_45 main_v242 (broadcastInDim S800000 ![] bcast_S_S800000 : (⟨S_, .i32⟩ : BufTy).Contents (Elt F) → (⟨S800000, .i32⟩ : BufTy).Contents (Elt F))
  :: StableHlo.binary main_v1 main_v242 main_v243 (addi : (⟨S800000, .i32⟩ : BufTy).Contents (Elt F) → (⟨S800000, .i32⟩ : BufTy).Contents (Elt F) → (⟨S800000, .i32⟩ : BufTy).Contents (Elt F))
  :: StableHlo.ternary main_v241 main_v243 main_v1 main_v244 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F))
  :: StableHlo.unary main_v244 main_v245 (broadcastInDim S800000x1 ![0] bcast_S800000_S800000x1_0 : (⟨S800000, .i32⟩ : BufTy).Contents (Elt F) → (⟨S800000x1, .i32⟩ : BufTy).Contents (Elt F))
  :: StableHlo.binary main_v235 main_v245 main_v246 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F))
  :: StableHlo.unary main_v33 main_v247 (broadcastInDim S800000x1 ![0] bcast_S800000_S800000x1_0 : (⟨S800000, .f32⟩ : BufTy).Contents (Elt F) → (⟨S800000x1, .f32⟩ : BufTy).Contents (Elt F))
  :: StableHlo.unary main_v247 main_v248 (broadcastInDim S800000x128 ![0, 1] bcast_S800000x1_S800000x128_0_1 : (⟨S800000x1, .f32⟩ : BufTy).Contents (Elt F) → (⟨S800000x128, .f32⟩ : BufTy).Contents (Elt F))
  :: StableHlo.binary main_v246 main_v248 main_v249 (mulf : (⟨S800000x128, .f32⟩ : BufTy).Contents (Elt F) → (⟨S800000x128, .f32⟩ : BufTy).Contents (Elt F) → (⟨S800000x128, .f32⟩ : BufTy).Contents (Elt F))
  :: StableHlo.nullary main_cst_46 (constant S_ .f32 0x00000000#32)
  :: StableHlo.unary main_cst_46 main_v250 (broadcastInDim S50000x128 ![] bcast_S_S50000x128 : (⟨S_, .f32⟩ : BufTy).Contents (Elt F) → (⟨S50000x128, .f32⟩ : BufTy).Contents (Elt F))
  :: [] )

set_option maxHeartbeats 40000000 in
/-- The window is that straight line: the functions' definitions unfolded at their calls, sequencing reassociated. -/
theorem part4_eq (c : Dev nD) : main_part4 (F := F) c = StableHlo.seq opsP4 := by
  simp only [main_part4, StableHlo.seq, bind_assoc, pure_bind]
  rfl

set_option maxHeartbeats 40000000 in
/-- The operations of the window main_part5 (83), in order. -/
abbrev opsP5 : List (HloOp τ sig (Elt F)) :=
  ( StableHlo.unary main_v3 main_v251 (broadcastInDim S800000x1 ![0] bcast_S800000_S800000x1_0 : (⟨S800000, .i32⟩ : BufTy).Contents (Elt F) → (⟨S800000x1, .i32⟩ : BufTy).Contents (Elt F))
  :: StableHlo.ternary main_v250 main_v251 main_v249 main_v252 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F))
  :: StableHlo.nullary main_cst_47 (constant S_ .f32 0x40000000#32)
  :: StableHlo.unary main_cst_47 main_v253 (broadcastInDim S50000x128 ![] bcast_S_S50000x128 : (⟨S_, .f32⟩ : BufTy).Contents (Elt F) → (⟨S50000x128, .f32⟩ : BufTy).Contents (Elt F))
  :: StableHlo.binary main_v253 main_v252 main_v254 (mulf : (⟨S50000x128, .f32⟩ : BufTy).Contents (Elt F) → (⟨S50000x128, .f32⟩ : BufTy).Contents (Elt F) → (⟨S50000x128, .f32⟩ : BufTy).Contents (Elt F))
  :: StableHlo.binary main_v254 main_v215 main_v255 (subf : (⟨S50000x128, .f32⟩ : BufTy).Contents (Elt F) → (⟨S50000x128, .f32⟩ : BufTy).Contents (Elt F) → (⟨S50000x128, .f32⟩ : BufTy).Contents (Elt F))
  :: StableHlo.unary main_arg6 main_v256 ((extractStridedSlice S1x128x128 ![3, 0, 0] · slices_S4x128x128_S1x128x128_3_0_0) : (⟨S4x128x128, .f32⟩ : BufTy).Contents (Elt F) → (⟨S1x128x128, .f32⟩ : BufTy).Contents (Elt F))
  :: StableHlo.reshape main_v256 main_v257 rfl shapeCasts_S1x128x128_S128x128
  :: StableHlo.binary main_v255 main_v257 main_v258 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F))
  :: StableHlo.binary main_v239 main_v258 main_v259 (addf : (⟨S50000x128, .f32⟩ : BufTy).Contents (Elt F) → (⟨S50000x128, .f32⟩ : BufTy).Contents (Elt F) → (⟨S50000x128, .f32⟩ : BufTy).Contents (Elt F))
  :: StableHlo.unary main_arg7 main_v260 (broadcastInDim S1x128 ![1] bcast_S128_S1x128_1 : (⟨S128, .f32⟩ : BufTy).Contents (Elt F) → (⟨S1x128, .f32⟩ : BufTy).Contents (Elt F))
  :: StableHlo.unary main_v260 main_v261 (broadcastInDim S50000x128 ![0, 1] bcast_S1x128_S50000x128_0_1 : (⟨S1x128, .f32⟩ : BufTy).Contents (Elt F) → (⟨S50000x128, .f32⟩ : BufTy).Contents (Elt F))
  :: StableHlo.binary main_v259 main_v261 main_v262 (addf : (⟨S50000x128, .f32⟩ : BufTy).Contents (Elt F) → (⟨S50000x128, .f32⟩ : BufTy).Contents (Elt F) → (⟨S50000x128, .f32⟩ : BufTy).Contents (Elt F))
  :: StableHlo.TRef.nullary (.of main_call5_cst : StableHlo.TRef sig ⟨S_, .f32⟩) (constant S_ .f32 0x00000000#32)
  :: StableHlo.TRef.unary (.of main_call5_cst : StableHlo.TRef sig ⟨S_, .f32⟩) (.of main_call5_v0 : StableHlo.TRef sig ⟨S50000x128, .f32⟩) (broadcastInDim S50000x128 ![] bcast_S_S50000x128)
  :: StableHlo.TRef.binary (.of main_v262 : StableHlo.TRef sig ⟨S50000x128, .f32⟩) (.of main_call5_v0 : StableHlo.TRef sig ⟨S50000x128, .f32⟩) (.of main_v263 : StableHlo.TRef sig ⟨S50000x128, .f32⟩) maximumf
  :: StableHlo.nullary main_cst_48 (constant S_ .f32 0x00000000#32)
  :: StableHlo.binary main_v263 main_cst_48 main_v264 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F))
  :: StableHlo.nullary main_cst_49 (constant S_ .f32 0x47435000#32)
  :: StableHlo.unary main_cst_49 main_v265 (broadcastInDim S128 ![] bcast_S_S128 : (⟨S_, .f32⟩ : BufTy).Contents (Elt F) → (⟨S128, .f32⟩ : BufTy).Contents (Elt F))
  :: StableHlo.binary main_v264 main_v265 main_v266 (Host.divf : (⟨S128, .f32⟩ : BufTy).Contents (Elt F) → (⟨S128, .f32⟩ : BufTy).Contents (Elt F) → (⟨S128, .f32⟩ : BufTy).Contents (Elt F))
  :: StableHlo.nullary main_c_50 (constantI S_ 32 0#32)
  :: StableHlo.TRef.nullary (.of main_call6_cst : StableHlo.TRef sig ⟨S_, .f32⟩) (constant S_ .f32 0x00000000#32)
  :: StableHlo.TRef.binary (.of main_v263 : StableHlo.TRef sig ⟨S50000x128, .f32⟩) (.of main_call6_cst : StableHlo.TRef sig ⟨S_, .f32⟩) (.of main_call6_v0 : StableHlo.TRef sig ⟨S128, .f32⟩) (fun x v => Host.reduceAdd x v reducesTo_S50000x128_S128_d0 h_S_)
  :: StableHlo.TRef.unary (.of main_call6_v0 : StableHlo.TRef sig ⟨S128, .f32⟩) (.of main_call6_v1 : StableHlo.TRef sig ⟨S1x128, .f32⟩) (broadcastInDim S1x128 ![1] bcast_S128_S1x128_1)
  :: StableHlo.TRef.nullary (.of main_call6_cst_0 : StableHlo.TRef sig ⟨S_, .f32⟩) (constant S_ .f32 0x47435000#32)
  :: StableHlo.TRef.unary (.of main_call6_cst_0 : StableHlo.TRef sig ⟨S_, .f32⟩) (.of main_call6_v2 : StableHlo.TRef sig ⟨S1x128, .f32⟩) (broadcastInDim S1x128 ![] bcast_S_S1x128)
  :: StableHlo.TRef.binary (.of main_call6_v1 : StableHlo.TRef sig ⟨S1x128, .f32⟩) (.of main_call6_v2 : StableHlo.TRef sig ⟨S1x128, .f32⟩) (.of main_call6_v3 : StableHlo.TRef sig ⟨S1x128, .f32⟩) Host.divf
  :: StableHlo.TRef.unary (.of main_call6_v3 : StableHlo.TRef sig ⟨S1x128, .f32⟩) (.of main_call6_v4 : StableHlo.TRef sig ⟨S50000x128, .f32⟩) (broadcastInDim S50000x128 ![0, 1] bcast_S1x128_S50000x128_0_1)
  :: StableHlo.TRef.binary (.of main_v263 : StableHlo.TRef sig ⟨S50000x128, .f32⟩) (.of main_call6_v4 : StableHlo.TRef sig ⟨S50000x128, .f32⟩) (.of main_call6_v5 : StableHlo.TRef sig ⟨S50000x128, .f32⟩) subf
  :: StableHlo.TRef.binary (.of main_call6_v5 : StableHlo.TRef sig ⟨S50000x128, .f32⟩) (.of main_call6_v5 : StableHlo.TRef sig ⟨S50000x128, .f32⟩) (.of main_call6_v6 : StableHlo.TRef sig ⟨S50000x128, .f32⟩) mulf
  :: StableHlo.TRef.unary (.of main_c_50 : StableHlo.TRef sig ⟨S_, .i32⟩) (.of main_call6_v7 : StableHlo.TRef sig ⟨S_, .f32⟩) (sitofp .f32)
  :: StableHlo.TRef.nullary (.of main_call6_cst_1 : StableHlo.TRef sig ⟨S_, .f32⟩) (constant S_ .f32 0x47435000#32)
  :: StableHlo.TRef.binary (.of main_call6_cst_1 : StableHlo.TRef sig ⟨S_, .f32⟩) (.of main_call6_v7 : StableHlo.TRef sig ⟨S_, .f32⟩) (.of main_call6_v8 : StableHlo.TRef sig ⟨S_, .f32⟩) subf
  :: StableHlo.TRef.nullary (.of main_call6_cst_2 : StableHlo.TRef sig ⟨S_, .f32⟩) (constant S_ .f32 0x00000000#32)
  :: StableHlo.TRef.binary (.of main_call6_v6 : StableHlo.TRef sig ⟨S50000x128, .f32⟩) (.of main_call6_cst_2 : StableHlo.TRef sig ⟨S_, .f32⟩) (.of main_call6_v9 : StableHlo.TRef sig ⟨S128, .f32⟩) (fun x v => Host.reduceAdd x v reducesTo_S50000x128_S128_d0 h_S_)
  :: StableHlo.TRef.unary (.of main_call6_v8 : StableHlo.TRef sig ⟨S_, .f32⟩) (.of main_call6_v10 : StableHlo.TRef sig ⟨S128, .f32⟩) (broadcastInDim S128 ![] bcast_S_S128)
  :: StableHlo.TRef.binary (.of main_call6_v9 : StableHlo.TRef sig ⟨S128, .f32⟩) (.of main_call6_v10 : StableHlo.TRef sig ⟨S128, .f32⟩) (.of main_call6_v11 : StableHlo.TRef sig ⟨S128, .f32⟩) Host.divf
  :: StableHlo.TRef.nullary (.of main_call6_cst_3 : StableHlo.TRef sig ⟨S_, .f32⟩) (constant S_ .f32 0x00000000#32)
  :: StableHlo.TRef.binary (.of main_call6_v8 : StableHlo.TRef sig ⟨S_, .f32⟩) (.of main_call6_cst_3 : StableHlo.TRef sig ⟨S_, .f32⟩) (.of main_call6_v12 : StableHlo.TRef sig ⟨S_, .i1⟩) (cmpf .ogt)
  :: StableHlo.TRef.nullary (.of main_call6_cst_4 : StableHlo.TRef sig ⟨S_, .f32⟩) (constant S_ .f32 0x7FC00000#32)
  :: StableHlo.TRef.unary (.of main_call6_cst_4 : StableHlo.TRef sig ⟨S_, .f32⟩) (.of main_call6_call0_v0 : StableHlo.TRef sig ⟨S_, .f32⟩) id
  :: StableHlo.TRef.unary (.of main_call6_call0_v0 : StableHlo.TRef sig ⟨S_, .f32⟩) (.of main_call6_call0_v1 : StableHlo.TRef sig ⟨S128, .f32⟩) (broadcastInDim S128 ![] bcast_S_S128)
  :: StableHlo.TRef.ternary (.of main_call6_v12 : StableHlo.TRef sig ⟨S_, .i1⟩) (.of main_call6_v11 : StableHlo.TRef sig ⟨S128, .f32⟩) (.of main_call6_call0_v1 : StableHlo.TRef sig ⟨S128, .f32⟩) (.of main_v267 : StableHlo.TRef sig ⟨S128, .f32⟩) (fun p a b => select (broadcastInDim S128 ![] bcast_S_S128 p) a b)
  :: StableHlo.unary main_v266 main_v268 (broadcastInDim S1x128 ![1] bcast_S128_S1x128_1 : (⟨S128, .f32⟩ : BufTy).Contents (Elt F) → (⟨S1x128, .f32⟩ : BufTy).Contents (Elt F))
  :: StableHlo.unary main_v268 main_v269 (broadcastInDim S50000x128 ![0, 1] bcast_S1x128_S50000x128_0_1 : (⟨S1x128, .f32⟩ : BufTy).Contents (Elt F) → (⟨S50000x128, .f32⟩ : BufTy).Contents (Elt F))
  :: StableHlo.binary main_v263 main_v269 main_v270 (subf : (⟨S50000x128, .f32⟩ : BufTy).Contents (Elt F) → (⟨S50000x128, .f32⟩ : BufTy).Contents (Elt F) → (⟨S50000x128, .f32⟩ : BufTy).Contents (Elt F))
  :: StableHlo.nullary main_cst_51 (constant S_ .f32 0x3727C5AC#32)
  :: StableHlo.unary main_cst_51 main_v271 (broadcastInDim S128 ![] bcast_S_S128 : (⟨S_, .f32⟩ : BufTy).Contents (Elt F) → (⟨S128, .f32⟩ : BufTy).Contents (Elt F))
  :: StableHlo.binary main_v267 main_v271 main_v272 (addf : (⟨S128, .f32⟩ : BufTy).Contents (Elt F) → (⟨S128, .f32⟩ : BufTy).Contents (Elt F) → (⟨S128, .f32⟩ : BufTy).Contents (Elt F))
  :: StableHlo.unary main_v272 main_v273 (Host.rsqrt : (⟨S128, .f32⟩ : BufTy).Contents (Elt F) → (⟨S128, .f32⟩ : BufTy).Contents (Elt F))
  :: StableHlo.unary main_v273 main_v274 (broadcastInDim S1x128 ![1] bcast_S128_S1x128_1 : (⟨S128, .f32⟩ : BufTy).Contents (Elt F) → (⟨S1x128, .f32⟩ : BufTy).Contents (Elt F))
  :: StableHlo.unary main_v274 main_v275 (broadcastInDim S50000x128 ![0, 1] bcast_S1x128_S50000x128_0_1 : (⟨S1x128, .f32⟩ : BufTy).Contents (Elt F) → (⟨S50000x128, .f32⟩ : BufTy).Contents (Elt F))
  :: StableHlo.binary main_v270 main_v275 main_v276 (mulf : (⟨S50000x128, .f32⟩ : BufTy).Contents (Elt F) → (⟨S50000x128, .f32⟩ : BufTy).Contents (Elt F) → (⟨S50000x128, .f32⟩ : BufTy).Contents (Elt F))
  :: StableHlo.unary main_arg14 main_v277 (broadcastInDim S1x128 ![1] bcast_S128_S1x128_1 : (⟨S128, .f32⟩ : BufTy).Contents (Elt F) → (⟨S1x128, .f32⟩ : BufTy).Contents (Elt F))
  :: StableHlo.unary main_v277 main_v278 (broadcastInDim S50000x128 ![0, 1] bcast_S1x128_S50000x128_0_1 : (⟨S1x128, .f32⟩ : BufTy).Contents (Elt F) → (⟨S50000x128, .f32⟩ : BufTy).Contents (Elt F))
  :: StableHlo.binary main_v276 main_v278 main_v279 (mulf : (⟨S50000x128, .f32⟩ : BufTy).Contents (Elt F) → (⟨S50000x128, .f32⟩ : BufTy).Contents (Elt F) → (⟨S50000x128, .f32⟩ : BufTy).Contents (Elt F))
  :: StableHlo.unary main_arg15 main_v280 (broadcastInDim S1x128 ![1] bcast_S128_S1x128_1 : (⟨S128, .f32⟩ : BufTy).Contents (Elt F) → (⟨S1x128, .f32⟩ : BufTy).Contents (Elt F))
  :: StableHlo.unary main_v280 main_v281 (broadcastInDim S50000x128 ![0, 1] bcast_S1x128_S50000x128_0_1 : (⟨S1x128, .f32⟩ : BufTy).Contents (Elt F) → (⟨S50000x128, .f32⟩ : BufTy).Contents (Elt F))
  :: StableHlo.binary main_v279 main_v281 main_v282 (addf : (⟨S50000x128, .f32⟩ : BufTy).Contents (Elt F) → (⟨S50000x128, .f32⟩ : BufTy).Contents (Elt F) → (⟨S50000x128, .f32⟩ : BufTy).Contents (Elt F))
  :: StableHlo.unary main_arg8 main_v283 ((extractStridedSlice S1x128x128 ![0, 0, 0] · slices_S4x128x128_S1x128x128_0_0_0) : (⟨S4x128x128, .f32⟩ : BufTy).Contents (Elt F) → (⟨S1x128x128, .f32⟩ : BufTy).Contents (Elt F))
  :: StableHlo.reshape main_v283 main_v284 rfl shapeCasts_S1x128x128_S128x128
  :: StableHlo.binary main_v282 main_v284 main_v285 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F))
  :: StableHlo.nullary main_c_52 (constantI S_ 32 0#32)
  :: StableHlo.unary main_c_52 main_v286 (broadcastInDim S800000 ![] bcast_S_S800000 : (⟨S_, .i32⟩ : BufTy).Contents (Elt F) → (⟨S800000, .i32⟩ : BufTy).Contents (Elt F))
  :: StableHlo.binary main_v1 main_v286 main_v287 (cmpi .slt : (⟨S800000, .i32⟩ : BufTy).Contents (Elt F) → (⟨S800000, .i32⟩ : BufTy).Contents (Elt F) → (⟨S800000, .i1⟩ : BufTy).Contents (Elt F))
  :: StableHlo.nullary main_c_53 (constantI S_ 32 50000#32)
  :: StableHlo.unary main_c_53 main_v288 (broadcastInDim S800000 ![] bcast_S_S800000 : (⟨S_, .i32⟩ : BufTy).Contents (Elt F) → (⟨S800000, .i32⟩ : BufTy).Contents (Elt F))
  :: StableHlo.binary main_v1 main_v288 main_v289 (addi : (⟨S800000, .i32⟩ : BufTy).Contents (Elt F) → (⟨S800000, .i32⟩ : BufTy).Contents (Elt F) → (⟨S800000, .i32⟩ : BufTy).Contents (Elt F))
  :: StableHlo.ternary main_v287 main_v289 main_v1 main_v290 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F))
  :: StableHlo.unary main_v290 main_v291 (broadcastInDim S800000x1 ![0] bcast_S800000_S800000x1_0 : (⟨S800000, .i32⟩ : BufTy).Contents (Elt F) → (⟨S800000x1, .i32⟩ : BufTy).Contents (Elt F))
  :: StableHlo.binary main_v282 main_v291 main_v292 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F))
  :: StableHlo.unary main_v33 main_v293 (broadcastInDim S800000x1 ![0] bcast_S800000_S800000x1_0 : (⟨S800000, .f32⟩ : BufTy).Contents (Elt F) → (⟨S800000x1, .f32⟩ : BufTy).Contents (Elt F))
  :: StableHlo.unary main_v293 main_v294 (broadcastInDim S800000x128 ![0, 1] bcast_S800000x1_S800000x128_0_1 : (⟨S800000x1, .f32⟩ : BufTy).Contents (Elt F) → (⟨S800000x128, .f32⟩ : BufTy).Contents (Elt F))
  :: StableHlo.binary main_v292 main_v294 main_v295 (mulf : (⟨S800000x128, .f32⟩ : BufTy).Contents (Elt F) → (⟨S800000x128, .f32⟩ : BufTy).Contents (Elt F) → (⟨S800000x128, .f32⟩ : BufTy).Contents (Elt F))
  :: StableHlo.nullary main_cst_54 (constant S_ .f32 0x00000000#32)
  :: StableHlo.unary main_cst_54 main_v296 (broadcastInDim S50000x128 ![] bcast_S_S50000x128 : (⟨S_, .f32⟩ : BufTy).Contents (Elt F) → (⟨S50000x128, .f32⟩ : BufTy).Contents (Elt F))
  :: StableHlo.unary main_v3 main_v297 (broadcastInDim S800000x1 ![0] bcast_S800000_S800000x1_0 : (⟨S800000, .i32⟩ : BufTy).Contents (Elt F) → (⟨S800000x1, .i32⟩ : BufTy).Contents (Elt F))
  :: StableHlo.ternary main_v296 main_v297 main_v295 main_v298 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F))
  :: StableHlo.unary main_arg8 main_v299 ((extractStridedSlice S1x128x128 ![1, 0, 0] · slices_S4x128x128_S1x128x128_1_0_0) : (⟨S4x128x128, .f32⟩ : BufTy).Contents (Elt F) → (⟨S1x128x128, .f32⟩ : BufTy).Contents (Elt F))
  :: StableHlo.reshape main_v299 main_v300 rfl shapeCasts_S1x128x128_S128x128
  :: StableHlo.binary main_v298 main_v300 main_v301 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F))
  :: StableHlo.binary main_v285 main_v301 main_v302 (addf : (⟨S50000x128, .f32⟩ : BufTy).Contents (Elt F) → (⟨S50000x128, .f32⟩ : BufTy).Contents (Elt F) → (⟨S50000x128, .f32⟩ : BufTy).Contents (Elt F))
  :: [] )

set_option maxHeartbeats 40000000 in
/-- The window is that straight line: the functions' definitions unfolded at their calls, sequencing reassociated. -/
theorem part5_eq (c : Dev nD) : main_part5 (F := F) c = StableHlo.seq opsP5 := by
  simp only [main_part5, fn_relu.body, fn_var.body, fn_where_1.body, StableHlo.seq, bind_assoc, pure_bind]
  rfl

end Cert.ReferenceIdeal.Hand

end
-- ==== Proof.RefParts3.lean ====
/- The reference program's @main window by window (main_part6, main_part7): each window is the straight line of its operations, the calls' bodies written out. -/
import proofs.«175070_j35072702939553_2_alg».proof.Proof.RefBase

set_option maxRecDepth 8192

noncomputable section

namespace Cert.ReferenceIdeal.Hand

open Cert.ReferenceIdeal Cert.ReferenceIdeal.Gen Idealize.ShloMosaic Idealize.ShloMosaic.TcCoe Idealize.SL.Sem

variable {F : FTy → Type} [FloatOps F]

set_option maxHeartbeats 40000000 in
/-- The operations of the window main_part6 (60), in order. -/
abbrev opsP6 : List (HloOp τ sig (Elt F)) :=
  ( StableHlo.nullary main_c_55 (constantI S_ 32 0#32)
  :: StableHlo.unary main_c_55 main_v303 (broadcastInDim S800000 ![] bcast_S_S800000 : (⟨S_, .i32⟩ : BufTy).Contents (Elt F) → (⟨S800000, .i32⟩ : BufTy).Contents (Elt F))
  :: StableHlo.binary main_v1 main_v303 main_v304 (cmpi .slt : (⟨S800000, .i32⟩ : BufTy).Contents (Elt F) → (⟨S800000, .i32⟩ : BufTy).Contents (Elt F) → (⟨S800000, .i1⟩ : BufTy).Contents (Elt F))
  :: StableHlo.nullary main_c_56 (constantI S_ 32 50000#32)
  :: StableHlo.unary main_c_56 main_v305 (broadcastInDim S800000 ![] bcast_S_S800000 : (⟨S_, .i32⟩ : BufTy).Contents (Elt F) → (⟨S800000, .i32⟩ : BufTy).Contents (Elt F))
  :: StableHlo.binary main_v1 main_v305 main_v306 (addi : (⟨S800000, .i32⟩ : BufTy).Contents (Elt F) → (⟨S800000, .i32⟩ : BufTy).Contents (Elt F) → (⟨S800000, .i32⟩ : BufTy).Contents (Elt F))
  :: StableHlo.ternary main_v304 main_v306 main_v1 main_v307 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F))
  :: StableHlo.unary main_v307 main_v308 (broadcastInDim S800000x1 ![0] bcast_S800000_S800000x1_0 : (⟨S800000, .i32⟩ : BufTy).Contents (Elt F) → (⟨S800000x1, .i32⟩ : BufTy).Contents (Elt F))
  :: StableHlo.binary main_v298 main_v308 main_v309 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F))
  :: StableHlo.unary main_v33 main_v310 (broadcastInDim S800000x1 ![0] bcast_S800000_S800000x1_0 : (⟨S800000, .f32⟩ : BufTy).Contents (Elt F) → (⟨S800000x1, .f32⟩ : BufTy).Contents (Elt F))
  :: StableHlo.unary main_v310 main_v311 (broadcastInDim S800000x128 ![0, 1] bcast_S800000x1_S800000x128_0_1 : (⟨S800000x1, .f32⟩ : BufTy).Contents (Elt F) → (⟨S800000x128, .f32⟩ : BufTy).Contents (Elt F))
  :: StableHlo.binary main_v309 main_v311 main_v312 (mulf : (⟨S800000x128, .f32⟩ : BufTy).Contents (Elt F) → (⟨S800000x128, .f32⟩ : BufTy).Contents (Elt F) → (⟨S800000x128, .f32⟩ : BufTy).Contents (Elt F))
  :: StableHlo.nullary main_cst_57 (constant S_ .f32 0x00000000#32)
  :: StableHlo.unary main_cst_57 main_v313 (broadcastInDim S50000x128 ![] bcast_S_S50000x128 : (⟨S_, .f32⟩ : BufTy).Contents (Elt F) → (⟨S50000x128, .f32⟩ : BufTy).Contents (Elt F))
  :: StableHlo.unary main_v3 main_v314 (broadcastInDim S800000x1 ![0] bcast_S800000_S800000x1_0 : (⟨S800000, .i32⟩ : BufTy).Contents (Elt F) → (⟨S800000x1, .i32⟩ : BufTy).Contents (Elt F))
  :: StableHlo.ternary main_v313 main_v314 main_v312 main_v315 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F))
  :: StableHlo.nullary main_cst_58 (constant S_ .f32 0x40000000#32)
  :: StableHlo.unary main_cst_58 main_v316 (broadcastInDim S50000x128 ![] bcast_S_S50000x128 : (⟨S_, .f32⟩ : BufTy).Contents (Elt F) → (⟨S50000x128, .f32⟩ : BufTy).Contents (Elt F))
  :: StableHlo.binary main_v316 main_v315 main_v317 (mulf : (⟨S50000x128, .f32⟩ : BufTy).Contents (Elt F) → (⟨S50000x128, .f32⟩ : BufTy).Contents (Elt F) → (⟨S50000x128, .f32⟩ : BufTy).Contents (Elt F))
  :: StableHlo.binary main_v317 main_v282 main_v318 (subf : (⟨S50000x128, .f32⟩ : BufTy).Contents (Elt F) → (⟨S50000x128, .f32⟩ : BufTy).Contents (Elt F) → (⟨S50000x128, .f32⟩ : BufTy).Contents (Elt F))
  :: StableHlo.unary main_arg8 main_v319 ((extractStridedSlice S1x128x128 ![2, 0, 0] · slices_S4x128x128_S1x128x128_2_0_0) : (⟨S4x128x128, .f32⟩ : BufTy).Contents (Elt F) → (⟨S1x128x128, .f32⟩ : BufTy).Contents (Elt F))
  :: StableHlo.reshape main_v319 main_v320 rfl shapeCasts_S1x128x128_S128x128
  :: StableHlo.binary main_v318 main_v320 main_v321 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F))
  :: StableHlo.binary main_v302 main_v321 main_v322 (addf : (⟨S50000x128, .f32⟩ : BufTy).Contents (Elt F) → (⟨S50000x128, .f32⟩ : BufTy).Contents (Elt F) → (⟨S50000x128, .f32⟩ : BufTy).Contents (Elt F))
  :: StableHlo.nullary main_c_59 (constantI S_ 32 0#32)
  :: StableHlo.unary main_c_59 main_v323 (broadcastInDim S800000 ![] bcast_S_S800000 : (⟨S_, .i32⟩ : BufTy).Contents (Elt F) → (⟨S800000, .i32⟩ : BufTy).Contents (Elt F))
  :: StableHlo.binary main_v1 main_v323 main_v324 (cmpi .slt : (⟨S800000, .i32⟩ : BufTy).Contents (Elt F) → (⟨S800000, .i32⟩ : BufTy).Contents (Elt F) → (⟨S800000, .i1⟩ : BufTy).Contents (Elt F))
  :: StableHlo.nullary main_c_60 (constantI S_ 32 50000#32)
  :: StableHlo.unary main_c_60 main_v325 (broadcastInDim S800000 ![] bcast_S_S800000 : (⟨S_, .i32⟩ : BufTy).Contents (Elt F) → (⟨S800000, .i32⟩ : BufTy).Contents (Elt F))
  :: StableHlo.binary main_v1 main_v325 main_v326 (addi : (⟨S800000, .i32⟩ : BufTy).Contents (Elt F) → (⟨S800000, .i32⟩ : BufTy).Contents (Elt F) → (⟨S800000, .i32⟩ : BufTy).Contents (Elt F))
  :: StableHlo.ternary main_v324 main_v326 main_v1 main_v327 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F))
  :: StableHlo.unary main_v327 main_v328 (broadcastInDim S800000x1 ![0] bcast_S800000_S800000x1_0 : (⟨S800000, .i32⟩ : BufTy).Contents (Elt F) → (⟨S800000x1, .i32⟩ : BufTy).Contents (Elt F))
  :: StableHlo.binary main_v318 main_v328 main_v329 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F))
  :: StableHlo.unary main_v33 main_v330 (broadcastInDim S800000x1 ![0] bcast_S800000_S800000x1_0 : (⟨S800000, .f32⟩ : BufTy).Contents (Elt F) → (⟨S800000x1, .f32⟩ : BufTy).Contents (Elt F))
  :: StableHlo.unary main_v330 main_v331 (broadcastInDim S800000x128 ![0, 1] bcast_S800000x1_S800000x128_0_1 : (⟨S800000x1, .f32⟩ : BufTy).Contents (Elt F) → (⟨S800000x128, .f32⟩ : BufTy).Contents (Elt F))
  :: StableHlo.binary main_v329 main_v331 main_v332 (mulf : (⟨S800000x128, .f32⟩ : BufTy).Contents (Elt F) → (⟨S800000x128, .f32⟩ : BufTy).Contents (Elt F) → (⟨S800000x128, .f32⟩ : BufTy).Contents (Elt F))
  :: StableHlo.nullary main_cst_61 (constant S_ .f32 0x00000000#32)
  :: StableHlo.unary main_cst_61 main_v333 (broadcastInDim S50000x128 ![] bcast_S_S50000x128 : (⟨S_, .f32⟩ : BufTy).Contents (Elt F) → (⟨S50000x128, .f32⟩ : BufTy).Contents (Elt F))
  :: StableHlo.unary main_v3 main_v334 (broadcastInDim S800000x1 ![0] bcast_S800000_S800000x1_0 : (⟨S800000, .i32⟩ : BufTy).Contents (Elt F) → (⟨S800000x1, .i32⟩ : BufTy).Contents (Elt F))
  :: StableHlo.ternary main_v333 main_v334 main_v332 main_v335 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F))
  :: StableHlo.nullary main_cst_62 (constant S_ .f32 0x40000000#32)
  :: StableHlo.unary main_cst_62 main_v336 (broadcastInDim S50000x128 ![] bcast_S_S50000x128 : (⟨S_, .f32⟩ : BufTy).Contents (Elt F) → (⟨S50000x128, .f32⟩ : BufTy).Contents (Elt F))
  :: StableHlo.binary main_v336 main_v335 main_v337 (mulf : (⟨S50000x128, .f32⟩ : BufTy).Contents (Elt F) → (⟨S50000x128, .f32⟩ : BufTy).Contents (Elt F) → (⟨S50000x128, .f32⟩ : BufTy).Contents (Elt F))
  :: StableHlo.binary main_v337 main_v298 main_v338 (subf : (⟨S50000x128, .f32⟩ : BufTy).Contents (Elt F) → (⟨S50000x128, .f32⟩ : BufTy).Contents (Elt F) → (⟨S50000x128, .f32⟩ : BufTy).Contents (Elt F))
  :: StableHlo.unary main_arg8 main_v339 ((extractStridedSlice S1x128x128 ![3, 0, 0] · slices_S4x128x128_S1x128x128_3_0_0) : (⟨S4x128x128, .f32⟩ : BufTy).Contents (Elt F) → (⟨S1x128x128, .f32⟩ : BufTy).Contents (Elt F))
  :: StableHlo.reshape main_v339 main_v340 rfl shapeCasts_S1x128x128_S128x128
  :: StableHlo.binary main_v338 main_v340 main_v341 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F))
  :: StableHlo.binary main_v322 main_v341 main_v342 (addf : (⟨S50000x128, .f32⟩ : BufTy).Contents (Elt F) → (⟨S50000x128, .f32⟩ : BufTy).Contents (Elt F) → (⟨S50000x128, .f32⟩ : BufTy).Contents (Elt F))
  :: StableHlo.unary main_arg9 main_v343 (broadcastInDim S1x128 ![1] bcast_S128_S1x128_1 : (⟨S128, .f32⟩ : BufTy).Contents (Elt F) → (⟨S1x128, .f32⟩ : BufTy).Contents (Elt F))
  :: StableHlo.unary main_v343 main_v344 (broadcastInDim S50000x128 ![0, 1] bcast_S1x128_S50000x128_0_1 : (⟨S1x128, .f32⟩ : BufTy).Contents (Elt F) → (⟨S50000x128, .f32⟩ : BufTy).Contents (Elt F))
  :: StableHlo.binary main_v342 main_v344 main_v345 (addf : (⟨S50000x128, .f32⟩ : BufTy).Contents (Elt F) → (⟨S50000x128, .f32⟩ : BufTy).Contents (Elt F) → (⟨S50000x128, .f32⟩ : BufTy).Contents (Elt F))
  :: StableHlo.binary main_v345 main_v345 main_v346 (mulf : (⟨S50000x128, .f32⟩ : BufTy).Contents (Elt F) → (⟨S50000x128, .f32⟩ : BufTy).Contents (Elt F) → (⟨S50000x128, .f32⟩ : BufTy).Contents (Elt F))
  :: StableHlo.nullary main_cst_63 (constant S_ .f32 0x00000000#32)
  :: StableHlo.binary main_v346 main_cst_63 main_v347 ((fun x v => Host.reduceAdd x v reducesTo_S50000x128_S50000_d1 h_S_) : (⟨S50000x128, .f32⟩ : BufTy).Contents (Elt F) → (⟨S_, .f32⟩ : BufTy).Contents (Elt F) → (⟨S50000, .f32⟩ : BufTy).Contents (Elt F))
  :: StableHlo.unary main_v347 main_v348 (broadcastInDim S50000x1 ![0] bcast_S50000_S50000x1_0 : (⟨S50000, .f32⟩ : BufTy).Contents (Elt F) → (⟨S50000x1, .f32⟩ : BufTy).Contents (Elt F))
  :: StableHlo.unary main_v348 main_v349 (Host.sqrt : (⟨S50000x1, .f32⟩ : BufTy).Contents (Elt F) → (⟨S50000x1, .f32⟩ : BufTy).Contents (Elt F))
  :: StableHlo.nullary main_cst_64 (constant S_ .f32 0x2B8CBCCC#32)
  :: StableHlo.unary main_cst_64 main_v350 (broadcastInDim S50000x1 ![] bcast_S_S50000x1 : (⟨S_, .f32⟩ : BufTy).Contents (Elt F) → (⟨S50000x1, .f32⟩ : BufTy).Contents (Elt F))
  :: StableHlo.binary main_v349 main_v350 main_v351 (maximumf : (⟨S50000x1, .f32⟩ : BufTy).Contents (Elt F) → (⟨S50000x1, .f32⟩ : BufTy).Contents (Elt F) → (⟨S50000x1, .f32⟩ : BufTy).Contents (Elt F))
  :: StableHlo.unary main_v351 main_v352 (broadcastInDim S50000x128 ![0, 1] bcast_S50000x1_S50000x128_0_1 : (⟨S50000x1, .f32⟩ : BufTy).Contents (Elt F) → (⟨S50000x128, .f32⟩ : BufTy).Contents (Elt F))
  :: [] )

set_option maxHeartbeats 40000000 in
/-- The window is that straight line: the functions' definitions unfolded at their calls, sequencing reassociated. -/
theorem part6_eq (c : Dev nD) : main_part6 (F := F) c = StableHlo.seq opsP6 := by
  simp only [main_part6, StableHlo.seq, bind_assoc, pure_bind]
  rfl

set_option maxHeartbeats 40000000 in
/-- The operations of the window main_part7 (1), in order. -/
abbrev opsP7 : List (HloOp τ sig (Elt F)) :=
  ( StableHlo.binary main_v345 main_v352 main_v353 (Host.divf : (⟨S50000x128, .f32⟩ : BufTy).Contents (Elt F) → (⟨S50000x128, .f32⟩ : BufTy).Contents (Elt F) → (⟨S50000x128, .f32⟩ : BufTy).Contents (Elt F))
  :: [] )

set_option maxHeartbeats 40000000 in
/-- The window is that straight line: the functions' definitions unfolded at their calls, sequencing reassociated. -/
theorem part7_eq (c : Dev nD) : main_part7 (F := F) c = StableHlo.seq opsP7 := by
  rfl

end Cert.ReferenceIdeal.Hand

end
-- ==== Proof.RefRun.lean ====
/- The reference program's run. Its @main calls module-local functions that themselves call module-local functions;
   a call means the callee's body on the call's buffers, so @main is one straight line of 500 StableHLO operations
   (`ops`: eight consecutive chunks, the chunk boundaries at the four layers' weight slices and after each layer's
   activation). `main_eq`: the printed @main is that line (window by window, then the windows' lists concatenated are the
   chunks' lists concatenated). `run_main`: from any memory with zero counters every weakly fair execution of @main on
   the TensorCores terminates with every TensorCore buffer at the fold of the operations' results over its launch
   contents. `arg_keptK`: no operation writes an argument buffer. -/
import proofs.«175070_j35072702939553_2_alg».proof.Proof.RefOps0
import proofs.«175070_j35072702939553_2_alg».proof.Proof.RefOps1
import proofs.«175070_j35072702939553_2_alg».proof.Proof.RefOps2
import proofs.«175070_j35072702939553_2_alg».proof.Proof.RefOps3
import proofs.«175070_j35072702939553_2_alg».proof.Proof.RefParts0
import proofs.«175070_j35072702939553_2_alg».proof.Proof.RefParts1
import proofs.«175070_j35072702939553_2_alg».proof.Proof.RefParts2
import proofs.«175070_j35072702939553_2_alg».proof.Proof.RefParts3

set_option maxRecDepth 16384

noncomputable section

namespace Cert.ReferenceIdeal.Hand

open Cert.ReferenceIdeal Cert.ReferenceIdeal.Gen Idealize.ShloMosaic Idealize.ShloMosaic.TcCoe Idealize.SL.Sem

variable {F : FTy → Type} [FloatOps F]

/-- @main's 500 operations in order, the calls' bodies written out: the eight chunks one after the other. -/
abbrev ops : List (HloOp τ sig (Elt F)) :=
  opsC0 ++ opsC1a ++ opsC1b ++ opsC2a ++ opsC2b ++ opsC3a ++ opsC3b ++ opsC4

set_option maxHeartbeats 40000000 in
/-- The windows' lists one after the other are the chunks' lists one after the other: the same 500 operations cut at
    different places. -/
theorem parts_eq :
    (opsP0 ++ (opsP1 ++ (opsP2 ++ (opsP3 ++ (opsP4 ++ (opsP5 ++ (opsP6 ++ opsP7)))))) : List (HloOp τ sig (Elt F))) = ops := rfl

set_option maxHeartbeats 40000000 in
/-- @main is that straight line: it runs its eight windows in order, each window is the line of its operations, and
    two lines run one after the other are their concatenation run as one. -/
theorem main_eq (c : Dev nD) : main (F := F) c = StableHlo.seq ops := by
  have h : main (F := F) c = (main_part0 c >>= fun _ => main_part1 c >>= fun _ => main_part2 c >>= fun _ => main_part3 c >>= fun _ =>
      main_part4 c >>= fun _ => main_part5 c >>= fun _ => main_part6 c >>= fun _ => main_part7 c) := rfl
  rw [h, part0_eq, part1_eq, part2_eq, part3_eq, part4_eq, part5_eq, part6_eq, part7_eq, ← parts_eq]
  simp only [StableHlo.seq_append]

theorem scopedRefs_eq : (Finset.univ.filter fun b : Ref sig .tc => b.isScoped) = ∅ := by decide
theorem scopedSems_eq : (Finset.univ.filter fun sm : SemLoc sig => sm.isScoped .tc) = ∅ := by decide

/-- Every operation touches TensorCore references only. -/
theorem ops_sub : (ops : List (HloOp τ sig (Elt F))).Forall fun op => op.bufs ⊆ StableHlo.tcRefs τ sig :=
  forall_append (forall_append (forall_append (forall_append (forall_append (forall_append (forall_append
    opsC0_sub opsC1a_sub) opsC1b_sub) opsC2a_sub) opsC2b_sub) opsC3a_sub) opsC3b_sub) opsC4_sub

/-- No operation allocates a buffer. -/
theorem ops_fresh : (ops : List (HloOp τ sig (Elt F))).Forall fun op => op.fresh = ∅ :=
  forall_append (forall_append (forall_append (forall_append (forall_append (forall_append (forall_append
    opsC0_fresh opsC1a_fresh) opsC1b_fresh) opsC2a_fresh) opsC2b_fresh) opsC3a_fresh) opsC3b_fresh) opsC4_fresh

/-- Every operation writes one buffer, none of the sixteen arguments'. -/
theorem ops_high : (ops : List (HloOp τ sig (Elt F))).Forall WritesHigh :=
  forall_append (forall_append (forall_append (forall_append (forall_append (forall_append (forall_append
    opsC0_high opsC1a_high) opsC1b_high) opsC2a_high) opsC2b_high) opsC3a_high) opsC3b_high) opsC4_high

/-- On every device, for any float values, from any memory with zero counters: every weakly fair execution of @main on
    the TensorCores terminates, and every final state has each TensorCore buffer at the operations' fold over the
    launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = StableHlo.after ops (StableHlo.launchContents m c) (b : DevRef τ sig) :=
  StableHlo.run_seq scopedRefs_eq scopedSems_eq defs main (fun _ => ops) main_eq (fun _ => ops_sub) m ρ
    (fun _ op hop => List.forall_iff_forall_mem.mp ops_fresh op hop)

/-- No operation writes argument 0's buffer. -/
theorem arg_kept0 (V : Valuation τ sig (Elt F)) :
    StableHlo.after ops V (main_arg0 : DevRef τ sig) = V (main_arg0 : DevRef τ sig) :=
  after_low ops ops_high V (by decide)

/-- No operation writes argument 1's buffer. -/
theorem arg_kept1 (V : Valuation τ sig (Elt F)) :
    StableHlo.after ops V (main_arg1 : DevRef τ sig) = V (main_arg1 : DevRef τ sig) :=
  after_low ops ops_high V (by decide)

/-- No operation writes argument 2's buffer. -/
theorem arg_kept2 (V : Valuation τ sig (Elt F)) :
    StableHlo.after ops V (main_arg2 : DevRef τ sig) = V (main_arg2 : DevRef τ sig) :=
  after_low ops ops_high V (by decide)

/-- No operation writes argument 3's buffer. -/
theorem arg_kept3 (V : Valuation τ sig (Elt F)) :
    StableHlo.after ops V (main_arg3 : DevRef τ sig) = V (main_arg3 : DevRef τ sig) :=
  after_low ops ops_high V (by decide)

/-- No operation writes argument 4's buffer. -/
theorem arg_kept4 (V : Valuation τ sig (Elt F)) :
    StableHlo.after ops V (main_arg4 : DevRef τ sig) = V (main_arg4 : DevRef τ sig) :=
  after_low ops ops_high V (by decide)

/-- No operation writes argument 5's buffer. -/
theorem arg_kept5 (V : Valuation τ sig (Elt F)) :
    StableHlo.after ops V (main_arg5 : DevRef τ sig) = V (main_arg5 : DevRef τ sig) :=
  after_low ops ops_high V (by decide)

/-- No operation writes argument 6's buffer. -/
theorem arg_kept6 (V : Valuation τ sig (Elt F)) :
    StableHlo.after ops V (main_arg6 : DevRef τ sig) = V (main_arg6 : DevRef τ sig) :=
  after_low ops ops_high V (by decide)

/-- No operation writes argument 7's buffer. -/
theorem arg_kept7 (V : Valuation τ sig (Elt F)) :
    StableHlo.after ops V (main_arg7 : DevRef τ sig) = V (main_arg7 : DevRef τ sig) :=
  after_low ops ops_high V (by decide)

/-- No operation writes argument 8's buffer. -/
theorem arg_kept8 (V : Valuation τ sig (Elt F)) :
    StableHlo.after ops V (main_arg8 : DevRef τ sig) = V (main_arg8 : DevRef τ sig) :=
  after_low ops ops_high V (by decide)

/-- No operation writes argument 9's buffer. -/
theorem arg_kept9 (V : Valuation τ sig (Elt F)) :
    StableHlo.after ops V (main_arg9 : DevRef τ sig) = V (main_arg9 : DevRef τ sig) :=
  after_low ops ops_high V (by decide)

/-- No operation writes argument 10's buffer. -/
theorem arg_kept10 (V : Valuation τ sig (Elt F)) :
    StableHlo.after ops V (main_arg10 : DevRef τ sig) = V (main_arg10 : DevRef τ sig) :=
  after_low ops ops_high V (by decide)

/-- No operation writes argument 11's buffer. -/
theorem arg_kept11 (V : Valuation τ sig (Elt F)) :
    StableHlo.after ops V (main_arg11 : DevRef τ sig) = V (main_arg11 : DevRef τ sig) :=
  after_low ops ops_high V (by decide)

/-- No operation writes argument 12's buffer. -/
theorem arg_kept12 (V : Valuation τ sig (Elt F)) :
    StableHlo.after ops V (main_arg12 : DevRef τ sig) = V (main_arg12 : DevRef τ sig) :=
  after_low ops ops_high V (by decide)

/-- No operation writes argument 13's buffer. -/
theorem arg_kept13 (V : Valuation τ sig (Elt F)) :
    StableHlo.after ops V (main_arg13 : DevRef τ sig) = V (main_arg13 : DevRef τ sig) :=
  after_low ops ops_high V (by decide)

/-- No operation writes argument 14's buffer. -/
theorem arg_kept14 (V : Valuation τ sig (Elt F)) :
    StableHlo.after ops V (main_arg14 : DevRef τ sig) = V (main_arg14 : DevRef τ sig) :=
  after_low ops ops_high V (by decide)

/-- No operation writes argument 15's buffer. -/
theorem arg_kept15 (V : Valuation τ sig (Elt F)) :
    StableHlo.after ops V (main_arg15 : DevRef τ sig) = V (main_arg15 : DevRef τ sig) :=
  after_low ops ops_high V (by decide)

end Cert.ReferenceIdeal.Hand

end
-- ==== Proof.BridgeBase.lean ====
/-
  The two programs' buffer contents at matching points of their runs. The kernel program's contents at the boundaries
  of its segments are the generated folds `Gen.W0 … Gen.W22`; the reference program is one straight line of host
  operations, cut into eight consecutive stretches (the edge weights; then, per layer, the Chebyshev projection with
  its activation, and the batch normalization; last the fourth projection with the row normalization), and `RW k` is
  its contents after the first `k` stretches. The propositions `I4 … I20` (plain conjunctions of equations) say which buffers hold the same extended
  reals in both programs at each matching point: the layer's output, the edge weights, the two rows of edge indices,
  and the arguments that are still to be read.
-/
import proofs.«175070_j35072702939553_2_alg».proof.Proof.Gen.KernelIdeal.Frame
import proofs.«175070_j35072702939553_2_alg».proof.Proof.RefRun
import Idealize.ShloMosaic.Lib.StableHlo.Run
import Idealize.ShloMosaic.PureOps.Ideal

noncomputable section

namespace Cert.Bridge

open Idealize.ShloMosaic Idealize.ShloMosaic.TcCoe Idealize.ShloMosaic.StableHlo
open Idealize.SL Idealize.SL.Sem

/-- The kernel program's launch memory. -/
abbrev KMem := (ℓ : Loc Cert.KernelIdeal.nD Cert.KernelIdeal.τ Cert.KernelIdeal.sig) → Buf (Elt Ideal) ℓ
/-- The reference program's launch memory. -/
abbrev RMem := (ℓ : Loc Cert.ReferenceIdeal.nD Cert.ReferenceIdeal.τ Cert.ReferenceIdeal.sig) → Buf (Elt Ideal) ℓ

section
variable (m' : RMem)

/-- The reference's contents once the edge weights are computed. -/
def RW1 (c : Dev Cert.ReferenceIdeal.nD) : Valuation Cert.ReferenceIdeal.τ Cert.ReferenceIdeal.sig (Elt Ideal) :=
  StableHlo.after Cert.ReferenceIdeal.Hand.opsC0 (StableHlo.launchContents m' c)
/-- … after the first layer's projection and activation. -/
def RW2 (c : Dev Cert.ReferenceIdeal.nD) : Valuation Cert.ReferenceIdeal.τ Cert.ReferenceIdeal.sig (Elt Ideal) :=
  StableHlo.after Cert.ReferenceIdeal.Hand.opsC1a (RW1 m' c)
/-- … after the first batch normalization. -/
def RW3 (c : Dev Cert.ReferenceIdeal.nD) : Valuation Cert.ReferenceIdeal.τ Cert.ReferenceIdeal.sig (Elt Ideal) :=
  StableHlo.after Cert.ReferenceIdeal.Hand.opsC1b (RW2 m' c)
/-- … after the second layer's projection and activation. -/
def RW4 (c : Dev Cert.ReferenceIdeal.nD) : Valuation Cert.ReferenceIdeal.τ Cert.ReferenceIdeal.sig (Elt Ideal) :=
  StableHlo.after Cert.ReferenceIdeal.Hand.opsC2a (RW3 m' c)
/-- … after the second batch normalization. -/
def RW5 (c : Dev Cert.ReferenceIdeal.nD) : Valuation Cert.ReferenceIdeal.τ Cert.ReferenceIdeal.sig (Elt Ideal) :=
  StableHlo.after Cert.ReferenceIdeal.Hand.opsC2b (RW4 m' c)
/-- … after the third layer's projection and activation. -/
def RW6 (c : Dev Cert.ReferenceIdeal.nD) : Valuation Cert.ReferenceIdeal.τ Cert.ReferenceIdeal.sig (Elt Ideal) :=
  StableHlo.after Cert.ReferenceIdeal.Hand.opsC3a (RW5 m' c)
/-- … after the third batch normalization. -/
def RW7 (c : Dev Cert.ReferenceIdeal.nD) : Valuation Cert.ReferenceIdeal.τ Cert.ReferenceIdeal.sig (Elt Ideal) :=
  StableHlo.after Cert.ReferenceIdeal.Hand.opsC3b (RW6 m' c)
/-- … at the end: after the fourth projection and the row normalization. -/
def RW8 (c : Dev Cert.ReferenceIdeal.nD) : Valuation Cert.ReferenceIdeal.τ Cert.ReferenceIdeal.sig (Elt Ideal) :=
  StableHlo.after Cert.ReferenceIdeal.Hand.opsC4 (RW7 m' c)

/-- The last of them is the whole line's fold. -/
theorem RW8_eq (c : Dev Cert.ReferenceIdeal.nD) : RW8 m' c = StableHlo.after Cert.ReferenceIdeal.Hand.ops (StableHlo.launchContents m' c) := by
  unfold RW8 RW7 RW6 RW5 RW4 RW3 RW2 RW1 Cert.ReferenceIdeal.Hand.ops
  simp only [Cert.ReferenceIdeal.Hand.after_append]

end

/-- The two launch memories agree on the sixteen arguments (in order). -/
def I0 (m : KMem) (m' : RMem) (c : Dev Cert.KernelIdeal.nD) : Prop :=
  (m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) ∧
  (m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) ∧
  (m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) ∧
  (m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) ∧
  (m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) ∧
  (m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) ∧
  (m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) ∧
  (m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) ∧
  (m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) ∧
  (m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) ∧
  (m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) ∧
  (m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) ∧
  (m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) ∧
  (m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) ∧
  (m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) ∧
  (m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15))

/-- After the first projection: the activated layer output, the edge weights, the two index rows and the arguments still to be read hold the same extended reals in both programs. (In order: h, w, src, dst, a4, a5, a6, a7, a8, a9, a10, a11, a12, a13, a14, a15.) -/
def I4 (m : KMem) (ρ : Dev Cert.KernelIdeal.nD → PrngReg) (m' : RMem) (c : Dev Cert.KernelIdeal.nD) : Prop :=
  (Cert.KernelIdeal.Gen.W4 (F := Ideal) m ρ c (Proc.devRef .tc Cert.KernelIdeal.main_v80) = RW2 m' c (Proc.devRef .tc Cert.ReferenceIdeal.main_v97)) ∧
  (Cert.KernelIdeal.Gen.W4 (F := Ideal) m ρ c (Proc.devRef .tc Cert.KernelIdeal.main_v33) = RW2 m' c (Proc.devRef .tc Cert.ReferenceIdeal.main_v33)) ∧
  (Cert.KernelIdeal.Gen.W4 (F := Ideal) m ρ c (Proc.devRef .tc Cert.KernelIdeal.main_v1) = RW2 m' c (Proc.devRef .tc Cert.ReferenceIdeal.main_v1)) ∧
  (Cert.KernelIdeal.Gen.W4 (F := Ideal) m ρ c (Proc.devRef .tc Cert.KernelIdeal.main_v3) = RW2 m' c (Proc.devRef .tc Cert.ReferenceIdeal.main_v3)) ∧
  (Cert.KernelIdeal.Gen.W4 (F := Ideal) m ρ c (Proc.devRef .tc Cert.KernelIdeal.main_arg4) = RW2 m' c (Proc.devRef .tc Cert.ReferenceIdeal.main_arg4)) ∧
  (Cert.KernelIdeal.Gen.W4 (F := Ideal) m ρ c (Proc.devRef .tc Cert.KernelIdeal.main_arg5) = RW2 m' c (Proc.devRef .tc Cert.ReferenceIdeal.main_arg5)) ∧
  (Cert.KernelIdeal.Gen.W4 (F := Ideal) m ρ c (Proc.devRef .tc Cert.KernelIdeal.main_arg6) = RW2 m' c (Proc.devRef .tc Cert.ReferenceIdeal.main_arg6)) ∧
  (Cert.KernelIdeal.Gen.W4 (F := Ideal) m ρ c (Proc.devRef .tc Cert.KernelIdeal.main_arg7) = RW2 m' c (Proc.devRef .tc Cert.ReferenceIdeal.main_arg7)) ∧
  (Cert.KernelIdeal.Gen.W4 (F := Ideal) m ρ c (Proc.devRef .tc Cert.KernelIdeal.main_arg8) = RW2 m' c (Proc.devRef .tc Cert.ReferenceIdeal.main_arg8)) ∧
  (Cert.KernelIdeal.Gen.W4 (F := Ideal) m ρ c (Proc.devRef .tc Cert.KernelIdeal.main_arg9) = RW2 m' c (Proc.devRef .tc Cert.ReferenceIdeal.main_arg9)) ∧
  (Cert.KernelIdeal.Gen.W4 (F := Ideal) m ρ c (Proc.devRef .tc Cert.KernelIdeal.main_arg10) = RW2 m' c (Proc.devRef .tc Cert.ReferenceIdeal.main_arg10)) ∧
  (Cert.KernelIdeal.Gen.W4 (F := Ideal) m ρ c (Proc.devRef .tc Cert.KernelIdeal.main_arg11) = RW2 m' c (Proc.devRef .tc Cert.ReferenceIdeal.main_arg11)) ∧
  (Cert.KernelIdeal.Gen.W4 (F := Ideal) m ρ c (Proc.devRef .tc Cert.KernelIdeal.main_arg12) = RW2 m' c (Proc.devRef .tc Cert.ReferenceIdeal.main_arg12)) ∧
  (Cert.KernelIdeal.Gen.W4 (F := Ideal) m ρ c (Proc.devRef .tc Cert.KernelIdeal.main_arg13) = RW2 m' c (Proc.devRef .tc Cert.ReferenceIdeal.main_arg13)) ∧
  (Cert.KernelIdeal.Gen.W4 (F := Ideal) m ρ c (Proc.devRef .tc Cert.KernelIdeal.main_arg14) = RW2 m' c (Proc.devRef .tc Cert.ReferenceIdeal.main_arg14)) ∧
  (Cert.KernelIdeal.Gen.W4 (F := Ideal) m ρ c (Proc.devRef .tc Cert.KernelIdeal.main_arg15) = RW2 m' c (Proc.devRef .tc Cert.ReferenceIdeal.main_arg15))

/-- After the first batch normalization: its output (which the kernel program also keeps a second time, in the narrower float format: the same extended reals) and what is still to be read. (In order: hn, hn16, w, src, dst, a4, a5, a6, a7, a8, a9, a12, a13, a14, a15.) -/
def I8 (m : KMem) (ρ : Dev Cert.KernelIdeal.nD → PrngReg) (m' : RMem) (c : Dev Cert.KernelIdeal.nD) : Prop :=
  (Cert.KernelIdeal.Gen.W8 (F := Ideal) m ρ c (Proc.devRef .tc Cert.KernelIdeal.main_v89_0) = RW3 m' c (Proc.devRef .tc Cert.ReferenceIdeal.main_v116)) ∧
  (Cert.KernelIdeal.Gen.W8 (F := Ideal) m ρ c (Proc.devRef .tc Cert.KernelIdeal.main_v89_1) = RW3 m' c (Proc.devRef .tc Cert.ReferenceIdeal.main_v116)) ∧
  (Cert.KernelIdeal.Gen.W8 (F := Ideal) m ρ c (Proc.devRef .tc Cert.KernelIdeal.main_v33) = RW3 m' c (Proc.devRef .tc Cert.ReferenceIdeal.main_v33)) ∧
  (Cert.KernelIdeal.Gen.W8 (F := Ideal) m ρ c (Proc.devRef .tc Cert.KernelIdeal.main_v1) = RW3 m' c (Proc.devRef .tc Cert.ReferenceIdeal.main_v1)) ∧
  (Cert.KernelIdeal.Gen.W8 (F := Ideal) m ρ c (Proc.devRef .tc Cert.KernelIdeal.main_v3) = RW3 m' c (Proc.devRef .tc Cert.ReferenceIdeal.main_v3)) ∧
  (Cert.KernelIdeal.Gen.W8 (F := Ideal) m ρ c (Proc.devRef .tc Cert.KernelIdeal.main_arg4) = RW3 m' c (Proc.devRef .tc Cert.ReferenceIdeal.main_arg4)) ∧
  (Cert.KernelIdeal.Gen.W8 (F := Ideal) m ρ c (Proc.devRef .tc Cert.KernelIdeal.main_arg5) = RW3 m' c (Proc.devRef .tc Cert.ReferenceIdeal.main_arg5)) ∧
  (Cert.KernelIdeal.Gen.W8 (F := Ideal) m ρ c (Proc.devRef .tc Cert.KernelIdeal.main_arg6) = RW3 m' c (Proc.devRef .tc Cert.ReferenceIdeal.main_arg6)) ∧
  (Cert.KernelIdeal.Gen.W8 (F := Ideal) m ρ c (Proc.devRef .tc Cert.KernelIdeal.main_arg7) = RW3 m' c (Proc.devRef .tc Cert.ReferenceIdeal.main_arg7)) ∧
  (Cert.KernelIdeal.Gen.W8 (F := Ideal) m ρ c (Proc.devRef .tc Cert.KernelIdeal.main_arg8) = RW3 m' c (Proc.devRef .tc Cert.ReferenceIdeal.main_arg8)) ∧
  (Cert.KernelIdeal.Gen.W8 (F := Ideal) m ρ c (Proc.devRef .tc Cert.KernelIdeal.main_arg9) = RW3 m' c (Proc.devRef .tc Cert.ReferenceIdeal.main_arg9)) ∧
  (Cert.KernelIdeal.Gen.W8 (F := Ideal) m ρ c (Proc.devRef .tc Cert.KernelIdeal.main_arg12) = RW3 m' c (Proc.devRef .tc Cert.ReferenceIdeal.main_arg12)) ∧
  (Cert.KernelIdeal.Gen.W8 (F := Ideal) m ρ c (Proc.devRef .tc Cert.KernelIdeal.main_arg13) = RW3 m' c (Proc.devRef .tc Cert.ReferenceIdeal.main_arg13)) ∧
  (Cert.KernelIdeal.Gen.W8 (F := Ideal) m ρ c (Proc.devRef .tc Cert.KernelIdeal.main_arg14) = RW3 m' c (Proc.devRef .tc Cert.ReferenceIdeal.main_arg14)) ∧
  (Cert.KernelIdeal.Gen.W8 (F := Ideal) m ρ c (Proc.devRef .tc Cert.KernelIdeal.main_arg15) = RW3 m' c (Proc.devRef .tc Cert.ReferenceIdeal.main_arg15))

/-- After the second projection. (In order: h, w, src, dst, a6, a7, a8, a9, a12, a13, a14, a15.) -/
def I10 (m : KMem) (ρ : Dev Cert.KernelIdeal.nD → PrngReg) (m' : RMem) (c : Dev Cert.KernelIdeal.nD) : Prop :=
  (Cert.KernelIdeal.Gen.W10 (F := Ideal) m ρ c (Proc.devRef .tc Cert.KernelIdeal.main_v141) = RW4 m' c (Proc.devRef .tc Cert.ReferenceIdeal.main_v180)) ∧
  (Cert.KernelIdeal.Gen.W10 (F := Ideal) m ρ c (Proc.devRef .tc Cert.KernelIdeal.main_v33) = RW4 m' c (Proc.devRef .tc Cert.ReferenceIdeal.main_v33)) ∧
  (Cert.KernelIdeal.Gen.W10 (F := Ideal) m ρ c (Proc.devRef .tc Cert.KernelIdeal.main_v1) = RW4 m' c (Proc.devRef .tc Cert.ReferenceIdeal.main_v1)) ∧
  (Cert.KernelIdeal.Gen.W10 (F := Ideal) m ρ c (Proc.devRef .tc Cert.KernelIdeal.main_v3) = RW4 m' c (Proc.devRef .tc Cert.ReferenceIdeal.main_v3)) ∧
  (Cert.KernelIdeal.Gen.W10 (F := Ideal) m ρ c (Proc.devRef .tc Cert.KernelIdeal.main_arg6) = RW4 m' c (Proc.devRef .tc Cert.ReferenceIdeal.main_arg6)) ∧
  (Cert.KernelIdeal.Gen.W10 (F := Ideal) m ρ c (Proc.devRef .tc Cert.KernelIdeal.main_arg7) = RW4 m' c (Proc.devRef .tc Cert.ReferenceIdeal.main_arg7)) ∧
  (Cert.KernelIdeal.Gen.W10 (F := Ideal) m ρ c (Proc.devRef .tc Cert.KernelIdeal.main_arg8) = RW4 m' c (Proc.devRef .tc Cert.ReferenceIdeal.main_arg8)) ∧
  (Cert.KernelIdeal.Gen.W10 (F := Ideal) m ρ c (Proc.devRef .tc Cert.KernelIdeal.main_arg9) = RW4 m' c (Proc.devRef .tc Cert.ReferenceIdeal.main_arg9)) ∧
  (Cert.KernelIdeal.Gen.W10 (F := Ideal) m ρ c (Proc.devRef .tc Cert.KernelIdeal.main_arg12) = RW4 m' c (Proc.devRef .tc Cert.ReferenceIdeal.main_arg12)) ∧
  (Cert.KernelIdeal.Gen.W10 (F := Ideal) m ρ c (Proc.devRef .tc Cert.KernelIdeal.main_arg13) = RW4 m' c (Proc.devRef .tc Cert.ReferenceIdeal.main_arg13)) ∧
  (Cert.KernelIdeal.Gen.W10 (F := Ideal) m ρ c (Proc.devRef .tc Cert.KernelIdeal.main_arg14) = RW4 m' c (Proc.devRef .tc Cert.ReferenceIdeal.main_arg14)) ∧
  (Cert.KernelIdeal.Gen.W10 (F := Ideal) m ρ c (Proc.devRef .tc Cert.KernelIdeal.main_arg15) = RW4 m' c (Proc.devRef .tc Cert.ReferenceIdeal.main_arg15))

/-- After the second batch normalization. (In order: hn, hn16, w, src, dst, a6, a7, a8, a9, a14, a15.) -/
def I14 (m : KMem) (ρ : Dev Cert.KernelIdeal.nD → PrngReg) (m' : RMem) (c : Dev Cert.KernelIdeal.nD) : Prop :=
  (Cert.KernelIdeal.Gen.W14 (F := Ideal) m ρ c (Proc.devRef .tc Cert.KernelIdeal.main_v150_0) = RW5 m' c (Proc.devRef .tc Cert.ReferenceIdeal.main_v199)) ∧
  (Cert.KernelIdeal.Gen.W14 (F := Ideal) m ρ c (Proc.devRef .tc Cert.KernelIdeal.main_v150_1) = RW5 m' c (Proc.devRef .tc Cert.ReferenceIdeal.main_v199)) ∧
  (Cert.KernelIdeal.Gen.W14 (F := Ideal) m ρ c (Proc.devRef .tc Cert.KernelIdeal.main_v33) = RW5 m' c (Proc.devRef .tc Cert.ReferenceIdeal.main_v33)) ∧
  (Cert.KernelIdeal.Gen.W14 (F := Ideal) m ρ c (Proc.devRef .tc Cert.KernelIdeal.main_v1) = RW5 m' c (Proc.devRef .tc Cert.ReferenceIdeal.main_v1)) ∧
  (Cert.KernelIdeal.Gen.W14 (F := Ideal) m ρ c (Proc.devRef .tc Cert.KernelIdeal.main_v3) = RW5 m' c (Proc.devRef .tc Cert.ReferenceIdeal.main_v3)) ∧
  (Cert.KernelIdeal.Gen.W14 (F := Ideal) m ρ c (Proc.devRef .tc Cert.KernelIdeal.main_arg6) = RW5 m' c (Proc.devRef .tc Cert.ReferenceIdeal.main_arg6)) ∧
  (Cert.KernelIdeal.Gen.W14 (F := Ideal) m ρ c (Proc.devRef .tc Cert.KernelIdeal.main_arg7) = RW5 m' c (Proc.devRef .tc Cert.ReferenceIdeal.main_arg7)) ∧
  (Cert.KernelIdeal.Gen.W14 (F := Ideal) m ρ c (Proc.devRef .tc Cert.KernelIdeal.main_arg8) = RW5 m' c (Proc.devRef .tc Cert.ReferenceIdeal.main_arg8)) ∧
  (Cert.KernelIdeal.Gen.W14 (F := Ideal) m ρ c (Proc.devRef .tc Cert.KernelIdeal.main_arg9) = RW5 m' c (Proc.devRef .tc Cert.ReferenceIdeal.main_arg9)) ∧
  (Cert.KernelIdeal.Gen.W14 (F := Ideal) m ρ c (Proc.devRef .tc Cert.KernelIdeal.main_arg14) = RW5 m' c (Proc.devRef .tc Cert.ReferenceIdeal.main_arg14)) ∧
  (Cert.KernelIdeal.Gen.W14 (F := Ideal) m ρ c (Proc.devRef .tc Cert.KernelIdeal.main_arg15) = RW5 m' c (Proc.devRef .tc Cert.ReferenceIdeal.main_arg15))

/-- After the third projection. (In order: h, w, src, dst, a8, a9, a14, a15.) -/
def I16 (m : KMem) (ρ : Dev Cert.KernelIdeal.nD → PrngReg) (m' : RMem) (c : Dev Cert.KernelIdeal.nD) : Prop :=
  (Cert.KernelIdeal.Gen.W16 (F := Ideal) m ρ c (Proc.devRef .tc Cert.KernelIdeal.main_v202) = RW6 m' c (Proc.devRef .tc Cert.ReferenceIdeal.main_v263)) ∧
  (Cert.KernelIdeal.Gen.W16 (F := Ideal) m ρ c (Proc.devRef .tc Cert.KernelIdeal.main_v33) = RW6 m' c (Proc.devRef .tc Cert.ReferenceIdeal.main_v33)) ∧
  (Cert.KernelIdeal.Gen.W16 (F := Ideal) m ρ c (Proc.devRef .tc Cert.KernelIdeal.main_v1) = RW6 m' c (Proc.devRef .tc Cert.ReferenceIdeal.main_v1)) ∧
  (Cert.KernelIdeal.Gen.W16 (F := Ideal) m ρ c (Proc.devRef .tc Cert.KernelIdeal.main_v3) = RW6 m' c (Proc.devRef .tc Cert.ReferenceIdeal.main_v3)) ∧
  (Cert.KernelIdeal.Gen.W16 (F := Ideal) m ρ c (Proc.devRef .tc Cert.KernelIdeal.main_arg8) = RW6 m' c (Proc.devRef .tc Cert.ReferenceIdeal.main_arg8)) ∧
  (Cert.KernelIdeal.Gen.W16 (F := Ideal) m ρ c (Proc.devRef .tc Cert.KernelIdeal.main_arg9) = RW6 m' c (Proc.devRef .tc Cert.ReferenceIdeal.main_arg9)) ∧
  (Cert.KernelIdeal.Gen.W16 (F := Ideal) m ρ c (Proc.devRef .tc Cert.KernelIdeal.main_arg14) = RW6 m' c (Proc.devRef .tc Cert.ReferenceIdeal.main_arg14)) ∧
  (Cert.KernelIdeal.Gen.W16 (F := Ideal) m ρ c (Proc.devRef .tc Cert.KernelIdeal.main_arg15) = RW6 m' c (Proc.devRef .tc Cert.ReferenceIdeal.main_arg15))

/-- After the third batch normalization. (In order: hn, hn16, w, src, dst, a8, a9.) -/
def I20 (m : KMem) (ρ : Dev Cert.KernelIdeal.nD → PrngReg) (m' : RMem) (c : Dev Cert.KernelIdeal.nD) : Prop :=
  (Cert.KernelIdeal.Gen.W20 (F := Ideal) m ρ c (Proc.devRef .tc Cert.KernelIdeal.main_v211_0) = RW7 m' c (Proc.devRef .tc Cert.ReferenceIdeal.main_v282)) ∧
  (Cert.KernelIdeal.Gen.W20 (F := Ideal) m ρ c (Proc.devRef .tc Cert.KernelIdeal.main_v211_1) = RW7 m' c (Proc.devRef .tc Cert.ReferenceIdeal.main_v282)) ∧
  (Cert.KernelIdeal.Gen.W20 (F := Ideal) m ρ c (Proc.devRef .tc Cert.KernelIdeal.main_v33) = RW7 m' c (Proc.devRef .tc Cert.ReferenceIdeal.main_v33)) ∧
  (Cert.KernelIdeal.Gen.W20 (F := Ideal) m ρ c (Proc.devRef .tc Cert.KernelIdeal.main_v1) = RW7 m' c (Proc.devRef .tc Cert.ReferenceIdeal.main_v1)) ∧
  (Cert.KernelIdeal.Gen.W20 (F := Ideal) m ρ c (Proc.devRef .tc Cert.KernelIdeal.main_v3) = RW7 m' c (Proc.devRef .tc Cert.ReferenceIdeal.main_v3)) ∧
  (Cert.KernelIdeal.Gen.W20 (F := Ideal) m ρ c (Proc.devRef .tc Cert.KernelIdeal.main_arg8) = RW7 m' c (Proc.devRef .tc Cert.ReferenceIdeal.main_arg8)) ∧
  (Cert.KernelIdeal.Gen.W20 (F := Ideal) m ρ c (Proc.devRef .tc Cert.KernelIdeal.main_arg9) = RW7 m' c (Proc.devRef .tc Cert.ReferenceIdeal.main_arg9))

end Cert.Bridge

end
-- ==== Proof.RegionLinCore.lean ====
/- The linear part shared by the four matmul layers, read element by element on both sides.

   A layer takes four terms T0..T3 (rows by input channels), a weight of four slabs W[0..3] (input channels by 128
   output channels) and a bias b, and computes, at row i and column j,
       (((Σ_k T0[i,k]·W[0,k,j] + Σ_k T1[i,k]·W[1,k,j]) + Σ_k T2[i,k]·W[2,k,j]) + Σ_k T3[i,k]·W[3,k,j]) + b[j]
   before its activation. The kernel computes it per block of 5000 rows, each product a contraction accumulated into
   zeros, starting from a zero block (0 + x = x on the extended reals) and with the bias as a row broadcast down the
   block; the host computes it on the whole array, each slab sliced out of the weight. Both read, at an index, as the
   same four sums and bias: `lin4`. Nothing here needs finiteness: only 0 + x = x and the reading of each operation
   at an index. -/
import proofs.«175070_j35072702939553_2_alg».proof.Proof.Gen.KernelIdeal.Frame
import proofs.«175070_j35072702939553_2_alg».proof.Proof.Gen.ReferenceIdeal
import Idealize.ShloMosaic.Lib.Pipeline.Value
import Idealize.ShloMosaic.Lib.ValueIdx
import Idealize.ShloMosaic.PureOps.Ideal.Laws

noncomputable section

open Idealize.ShloMosaic Idealize.ShloMosaic.ValueIdx
open scoped BigOperators

namespace Cert.RefForm.Lin

/-! The two operand indices of the contraction `kdot128`: rows by contraction, contraction by columns. -/

theorem kdot128_lhs0 (i : Cert.KernelIdeal.S5000x128.Idx) (q : Cert.KernelIdeal.dot_S5000x128_S128x128_S5000x128_1_0_0_1_n_n.contr.Idx) : (Cert.KernelIdeal.dot_S5000x128_S128x128_S5000x128_1_0_0_1_n_n.lhsIdx i q 0).val = (i 0).val := by
  unfold DotDims.lhsIdx
  rw [dif_neg (show ¬(0 : Fin Cert.KernelIdeal.S5000x128.rank) ∈ Cert.KernelIdeal.dot_S5000x128_S128x128_S5000x128_1_0_0_1_n_n.lhsBatch by decide), dif_pos (show (0 : Fin Cert.KernelIdeal.S5000x128.rank) ∈ Cert.KernelIdeal.dot_S5000x128_S128x128_S5000x128_1_0_0_1_n_n.lhsNonContracting by decide)]
  rfl
theorem kdot128_lhs1 (i : Cert.KernelIdeal.S5000x128.Idx) (q : Cert.KernelIdeal.dot_S5000x128_S128x128_S5000x128_1_0_0_1_n_n.contr.Idx) : (Cert.KernelIdeal.dot_S5000x128_S128x128_S5000x128_1_0_0_1_n_n.lhsIdx i q 1).val = (q ⟨0, by decide⟩).val :=
  Cert.KernelIdeal.dot_S5000x128_S128x128_S5000x128_1_0_0_1_n_n.lhsIdx_val_of_single rfl i q
theorem kdot128_rhs0 (i : Cert.KernelIdeal.S5000x128.Idx) (q : Cert.KernelIdeal.dot_S5000x128_S128x128_S5000x128_1_0_0_1_n_n.contr.Idx) : (Cert.KernelIdeal.dot_S5000x128_S128x128_S5000x128_1_0_0_1_n_n.rhsIdx i q 0).val = (q ⟨0, by decide⟩).val :=
  Cert.KernelIdeal.dot_S5000x128_S128x128_S5000x128_1_0_0_1_n_n.rhsIdx_val_of_single rfl i q
theorem kdot128_rhs1 (i : Cert.KernelIdeal.S5000x128.Idx) (q : Cert.KernelIdeal.dot_S5000x128_S128x128_S5000x128_1_0_0_1_n_n.contr.Idx) : (Cert.KernelIdeal.dot_S5000x128_S128x128_S5000x128_1_0_0_1_n_n.rhsIdx i q 1).val = (i 1).val := by
  unfold DotDims.rhsIdx
  rw [dif_neg (show ¬(1 : Fin Cert.KernelIdeal.S128x128.rank) ∈ Cert.KernelIdeal.dot_S5000x128_S128x128_S5000x128_1_0_0_1_n_n.rhsBatch by decide), dif_pos (show (1 : Fin Cert.KernelIdeal.S128x128.rank) ∈ Cert.KernelIdeal.dot_S5000x128_S128x128_S5000x128_1_0_0_1_n_n.rhsNonContracting by decide)]
  rfl

/-- The contraction's sum over its one axis, the operands read at (row, k) and (k, column). -/
theorem kdot128_sum (L : Cert.KernelIdeal.S5000x128.Idx → EReal) (Rr : Cert.KernelIdeal.S128x128.Idx → EReal) (i : Fin 5000) (j : Fin 128) :
    (∑ k : Cert.KernelIdeal.dot_S5000x128_S128x128_S5000x128_1_0_0_1_n_n.contr.Idx, L (Cert.KernelIdeal.dot_S5000x128_S128x128_S5000x128_1_0_0_1_n_n.lhsIdx (ix2 i j) k) * Rr (Cert.KernelIdeal.dot_S5000x128_S128x128_S5000x128_1_0_0_1_n_n.rhsIdx (ix2 i j) k))
      = ∑ k : Fin 128, L (ix2 i k) * Rr (ix2 k j) := by
  rw [← Equiv.sum_comp (contrEquiv1 Cert.KernelIdeal.dot_S5000x128_S128x128_S5000x128_1_0_0_1_n_n 128 rfl rfl).symm]
  refine Finset.sum_congr rfl fun k _ => ?_
  have hk := contrEquiv1_symm_val Cert.KernelIdeal.dot_S5000x128_S128x128_S5000x128_1_0_0_1_n_n 128 rfl rfl k
  have el : Cert.KernelIdeal.dot_S5000x128_S128x128_S5000x128_1_0_0_1_n_n.lhsIdx (ix2 i j) ((contrEquiv1 Cert.KernelIdeal.dot_S5000x128_S128x128_S5000x128_1_0_0_1_n_n 128 rfl rfl).symm k) = ix2 i k := funext fun a => Fin.ext (by
    match a with
    | ⟨0, _⟩ => exact kdot128_lhs0 _ _
    | ⟨1, _⟩ => exact (kdot128_lhs1 _ _).trans hk)
  have er : Cert.KernelIdeal.dot_S5000x128_S128x128_S5000x128_1_0_0_1_n_n.rhsIdx (ix2 i j) ((contrEquiv1 Cert.KernelIdeal.dot_S5000x128_S128x128_S5000x128_1_0_0_1_n_n 128 rfl rfl).symm k) = ix2 k j := funext fun a => Fin.ext (by
    match a with
    | ⟨0, _⟩ => exact (kdot128_rhs0 _ _).trans hk
    | ⟨1, _⟩ => exact kdot128_rhs1 _ _)
  rw [el, er]

/-! The two operand indices of the contraction `rdot128`: rows by contraction, contraction by columns. -/

theorem rdot128_lhs0 (i : Cert.ReferenceIdeal.S50000x128.Idx) (q : Cert.ReferenceIdeal.dot_S50000x128_S128x128_S50000x128_1_0_0_1_n_n.contr.Idx) : (Cert.ReferenceIdeal.dot_S50000x128_S128x128_S50000x128_1_0_0_1_n_n.lhsIdx i q 0).val = (i 0).val := by
  unfold DotDims.lhsIdx
  rw [dif_neg (show ¬(0 : Fin Cert.ReferenceIdeal.S50000x128.rank) ∈ Cert.ReferenceIdeal.dot_S50000x128_S128x128_S50000x128_1_0_0_1_n_n.lhsBatch by decide), dif_pos (show (0 : Fin Cert.ReferenceIdeal.S50000x128.rank) ∈ Cert.ReferenceIdeal.dot_S50000x128_S128x128_S50000x128_1_0_0_1_n_n.lhsNonContracting by decide)]
  rfl
theorem rdot128_lhs1 (i : Cert.ReferenceIdeal.S50000x128.Idx) (q : Cert.ReferenceIdeal.dot_S50000x128_S128x128_S50000x128_1_0_0_1_n_n.contr.Idx) : (Cert.ReferenceIdeal.dot_S50000x128_S128x128_S50000x128_1_0_0_1_n_n.lhsIdx i q 1).val = (q ⟨0, by decide⟩).val :=
  Cert.ReferenceIdeal.dot_S50000x128_S128x128_S50000x128_1_0_0_1_n_n.lhsIdx_val_of_single rfl i q
theorem rdot128_rhs0 (i : Cert.ReferenceIdeal.S50000x128.Idx) (q : Cert.ReferenceIdeal.dot_S50000x128_S128x128_S50000x128_1_0_0_1_n_n.contr.Idx) : (Cert.ReferenceIdeal.dot_S50000x128_S128x128_S50000x128_1_0_0_1_n_n.rhsIdx i q 0).val = (q ⟨0, by decide⟩).val :=
  Cert.ReferenceIdeal.dot_S50000x128_S128x128_S50000x128_1_0_0_1_n_n.rhsIdx_val_of_single rfl i q
theorem rdot128_rhs1 (i : Cert.ReferenceIdeal.S50000x128.Idx) (q : Cert.ReferenceIdeal.dot_S50000x128_S128x128_S50000x128_1_0_0_1_n_n.contr.Idx) : (Cert.ReferenceIdeal.dot_S50000x128_S128x128_S50000x128_1_0_0_1_n_n.rhsIdx i q 1).val = (i 1).val := by
  unfold DotDims.rhsIdx
  rw [dif_neg (show ¬(1 : Fin Cert.ReferenceIdeal.S128x128.rank) ∈ Cert.ReferenceIdeal.dot_S50000x128_S128x128_S50000x128_1_0_0_1_n_n.rhsBatch by decide), dif_pos (show (1 : Fin Cert.ReferenceIdeal.S128x128.rank) ∈ Cert.ReferenceIdeal.dot_S50000x128_S128x128_S50000x128_1_0_0_1_n_n.rhsNonContracting by decide)]
  rfl

/-- The contraction's sum over its one axis, the operands read at (row, k) and (k, column). -/
theorem rdot128_sum (L : Cert.ReferenceIdeal.S50000x128.Idx → EReal) (Rr : Cert.ReferenceIdeal.S128x128.Idx → EReal) (i : Fin 50000) (j : Fin 128) :
    (∑ k : Cert.ReferenceIdeal.dot_S50000x128_S128x128_S50000x128_1_0_0_1_n_n.contr.Idx, L (Cert.ReferenceIdeal.dot_S50000x128_S128x128_S50000x128_1_0_0_1_n_n.lhsIdx (ix2 i j) k) * Rr (Cert.ReferenceIdeal.dot_S50000x128_S128x128_S50000x128_1_0_0_1_n_n.rhsIdx (ix2 i j) k))
      = ∑ k : Fin 128, L (ix2 i k) * Rr (ix2 k j) := by
  rw [← Equiv.sum_comp (contrEquiv1 Cert.ReferenceIdeal.dot_S50000x128_S128x128_S50000x128_1_0_0_1_n_n 128 rfl rfl).symm]
  refine Finset.sum_congr rfl fun k _ => ?_
  have hk := contrEquiv1_symm_val Cert.ReferenceIdeal.dot_S50000x128_S128x128_S50000x128_1_0_0_1_n_n 128 rfl rfl k
  have el : Cert.ReferenceIdeal.dot_S50000x128_S128x128_S50000x128_1_0_0_1_n_n.lhsIdx (ix2 i j) ((contrEquiv1 Cert.ReferenceIdeal.dot_S50000x128_S128x128_S50000x128_1_0_0_1_n_n 128 rfl rfl).symm k) = ix2 i k := funext fun a => Fin.ext (by
    match a with
    | ⟨0, _⟩ => exact rdot128_lhs0 _ _
    | ⟨1, _⟩ => exact (rdot128_lhs1 _ _).trans hk)
  have er : Cert.ReferenceIdeal.dot_S50000x128_S128x128_S50000x128_1_0_0_1_n_n.rhsIdx (ix2 i j) ((contrEquiv1 Cert.ReferenceIdeal.dot_S50000x128_S128x128_S50000x128_1_0_0_1_n_n 128 rfl rfl).symm k) = ix2 k j := funext fun a => Fin.ext (by
    match a with
    | ⟨0, _⟩ => exact (rdot128_rhs0 _ _).trans hk
    | ⟨1, _⟩ => exact rdot128_rhs1 _ _)
  rw [el, er]

/-! ## The shared value: four inner products and a bias -/

/-- Four inner products and a bias on the extended reals, added in the order ((((s0 + s1) + s2) + s3) + b). -/
def lin4 {n : Nat} (a0 a1 a2 a3 w0 w1 w2 w3 : Fin n → EReal) (b : EReal) : EReal :=
  ((((∑ k, a0 k * w0 k) + (∑ k, a1 k * w1 k)) + (∑ k, a2 k * w2 k)) + (∑ k, a3 k * w3 k)) + b

/-! ## The kernel's side, 128 input channels: one block of 5000 rows -/

/-- One term's product with its weight slab as the kernel body computes it: both operands narrowed (the identity on
    extended reals), the slab's leading unit axis dropped, accumulated into zeros. -/
abbrev kmm128 (x : Vec Ideal Cert.KernelIdeal.S5000x128 .f32) (w : Vec Ideal Cert.KernelIdeal.S1x128x128 .f32) : FVec Ideal Cert.KernelIdeal.S5000x128 .f32 :=
  matmul Cert.KernelIdeal.dot_S5000x128_S128x128_S5000x128_1_0_0_1_n_n none
    (truncf .bf16 (shapeCast Cert.KernelIdeal.S5000x128 x Cert.KernelIdeal.Facts₀.shapeCasts_S5000x128_S5000x128) Cert.KernelIdeal.Facts₀.bitsLt_bf16_f32)
    (truncf .bf16 (shapeCast Cert.KernelIdeal.S128x128 w Cert.KernelIdeal.Facts₀.shapeCasts_S1x128x128_S128x128) Cert.KernelIdeal.Facts₀.bitsLt_bf16_f32)
    (constant Cert.KernelIdeal.S5000x128 .f32 0x00000000#32)

/-- At row r and column j it is the inner product of the term's row r with the slab's column j. -/
theorem kmm128_apply (x : Vec Ideal Cert.KernelIdeal.S5000x128 .f32) (w : Vec Ideal Cert.KernelIdeal.S1x128x128 .f32) (r : Fin 5000) (j : Fin 128) :
    kmm128 x w (ix2 r j) = ∑ k : Fin 128, x (ix2 r k) * w (ix3 (0 : Fin 1) k j) := by
  refine (Ideal.matmul_constant_zero_apply Cert.KernelIdeal.dot_S5000x128_S128x128_S5000x128_1_0_0_1_n_n none _ _ (ix2 r j)).trans ?_
  refine (kdot128_sum _ _ r j).trans ?_
  refine Finset.sum_congr rfl fun k _ => ?_
  show shapeCast Cert.KernelIdeal.S5000x128 x _ (ix2 r k) * shapeCast Cert.KernelIdeal.S128x128 w _ (ix2 k j) = _
  rw [shapeCast_self]
  refine congrArg (x (ix2 r k) * ·) ?_
  refine shapeCast_apply w _ (ix2 k j) (ix3 (0 : Fin 1) k j) ?_
  rw [Shape.rowMajor_val_three, Shape.rowMajor_val_two]
  show ((0 : Nat) * 128 + k.val) * 128 + j.val = k.val * 128 + j.val
  omega

/-- The body's value before its activation: zeros plus the four products in order, plus the bias row on every row. -/
abbrev kpre128 (x0 : Vec Ideal Cert.KernelIdeal.S5000x128 .f32) (w0 : Vec Ideal Cert.KernelIdeal.S1x128x128 .f32)
    (x1 : Vec Ideal Cert.KernelIdeal.S5000x128 .f32) (w1 : Vec Ideal Cert.KernelIdeal.S1x128x128 .f32)
    (x2 : Vec Ideal Cert.KernelIdeal.S5000x128 .f32) (w2 : Vec Ideal Cert.KernelIdeal.S1x128x128 .f32)
    (x3 : Vec Ideal Cert.KernelIdeal.S5000x128 .f32) (w3 : Vec Ideal Cert.KernelIdeal.S1x128x128 .f32)
    (x5 : Vec Ideal Cert.KernelIdeal.S1x128 .f32) : FVec Ideal Cert.KernelIdeal.S5000x128 .f32 :=
  addf (addf (addf (addf (addf (broadcast Cert.KernelIdeal.S5000x128 (Scalar.ofBits (F := Ideal) .f32 0x00000000#32)) (kmm128 x0 w0)) (kmm128 x1 w1)) (kmm128 x2 w2)) (kmm128 x3 w3))
    (broadcastTo Cert.KernelIdeal.S5000x128 (shapeCast Cert.KernelIdeal.S1x128 x5 Cert.KernelIdeal.Facts₀.shapeCasts_S1x128_S1x128) Cert.KernelIdeal.Facts₀.broadcasts_S1x128_S5000x128)

/-- The bias row broadcast down the rows reads the row's column. -/
theorem kbias_apply (x5 : Vec Ideal Cert.KernelIdeal.S1x128 .f32) (r : Fin 5000) (j : Fin 128) :
    broadcastTo Cert.KernelIdeal.S5000x128 (shapeCast Cert.KernelIdeal.S1x128 x5 Cert.KernelIdeal.Facts₀.shapeCasts_S1x128_S1x128) Cert.KernelIdeal.Facts₀.broadcasts_S1x128_S5000x128 (ix2 r j)
      = x5 (ix2 (0 : Fin 1) j) := by
  rw [shapeCast_self]
  refine broadcastTo_apply x5 _ (ix2 r j) (ix2 (0 : Fin 1) j) fun a => ?_
  match a with
  | ⟨0, _⟩ => rfl
  | ⟨1, _⟩ => rfl

theorem kpre128_apply (x0 : Vec Ideal Cert.KernelIdeal.S5000x128 .f32) (w0 : Vec Ideal Cert.KernelIdeal.S1x128x128 .f32)
    (x1 : Vec Ideal Cert.KernelIdeal.S5000x128 .f32) (w1 : Vec Ideal Cert.KernelIdeal.S1x128x128 .f32)
    (x2 : Vec Ideal Cert.KernelIdeal.S5000x128 .f32) (w2 : Vec Ideal Cert.KernelIdeal.S1x128x128 .f32)
    (x3 : Vec Ideal Cert.KernelIdeal.S5000x128 .f32) (w3 : Vec Ideal Cert.KernelIdeal.S1x128x128 .f32)
    (x5 : Vec Ideal Cert.KernelIdeal.S1x128 .f32) (r : Fin 5000) (j : Fin 128) :
    kpre128 x0 w0 x1 w1 x2 w2 x3 w3 x5 (ix2 r j)
      = lin4 (fun k => x0 (ix2 r k)) (fun k => x1 (ix2 r k)) (fun k => x2 (ix2 r k)) (fun k => x3 (ix2 r k))
          (fun k => w0 (ix3 (0 : Fin 1) k j)) (fun k => w1 (ix3 (0 : Fin 1) k j)) (fun k => w2 (ix3 (0 : Fin 1) k j)) (fun k => w3 (ix3 (0 : Fin 1) k j))
          (x5 (ix2 (0 : Fin 1) j)) := by
  show ((((Ideal.ofBits .f32 0x00000000#32 + kmm128 x0 w0 (ix2 r j)) + kmm128 x1 w1 (ix2 r j)) + kmm128 x2 w2 (ix2 r j)) + kmm128 x3 w3 (ix2 r j))
      + broadcastTo Cert.KernelIdeal.S5000x128 (shapeCast Cert.KernelIdeal.S1x128 x5 Cert.KernelIdeal.Facts₀.shapeCasts_S1x128_S1x128) Cert.KernelIdeal.Facts₀.broadcasts_S1x128_S5000x128 (ix2 r j) = _
  rw [Ideal.ofBits_zero_f32, zero_add, kmm128_apply, kmm128_apply, kmm128_apply, kmm128_apply, kbias_apply]
  rfl

/-! ## The host's side, 128 input channels: the whole array of 50000 rows -/

/-- One term's product with one slab of the weight as the host computes it: the slab sliced out of the weight, its
    leading unit axis reshaped away. -/
abbrev rmm128 (T : FVec Ideal Cert.ReferenceIdeal.S50000x128 .f32) (W : FVec Ideal Cert.ReferenceIdeal.S4x128x128 .f32) (off : Fin 3 → Nat)
    (h : Cert.ReferenceIdeal.S4x128x128.Slices off Cert.ReferenceIdeal.S1x128x128) : FVec Ideal Cert.ReferenceIdeal.S50000x128 .f32 :=
  Host.dotGeneral Cert.ReferenceIdeal.dot_S50000x128_S128x128_S50000x128_1_0_0_1_n_n none T
    (shapeCast Cert.ReferenceIdeal.S128x128 (extractStridedSlice Cert.ReferenceIdeal.S1x128x128 off W h) Cert.ReferenceIdeal.Facts₀.shapeCasts_S1x128x128_S128x128)

/-- At row i and column j it is the inner product of the term's row i with column j of slab q. -/
theorem rmm128_apply (T : FVec Ideal Cert.ReferenceIdeal.S50000x128 .f32) (W : FVec Ideal Cert.ReferenceIdeal.S4x128x128 .f32) (q : Fin 4) (off : Fin 3 → Nat)
    (hoff : off = ![q.val, 0, 0]) (h : Cert.ReferenceIdeal.S4x128x128.Slices off Cert.ReferenceIdeal.S1x128x128) (i : Fin 50000) (j : Fin 128) :
    rmm128 T W off h (ix2 i j) = ∑ k : Fin 128, T (ix2 i k) * W (ix3 q k j) := by
  subst hoff
  refine (Ideal.dotGeneral_apply Cert.ReferenceIdeal.dot_S50000x128_S128x128_S50000x128_1_0_0_1_n_n none _ _ _ (ix2 i j)).trans ?_
  refine (rdot128_sum _ _ i j).trans ?_
  refine Finset.sum_congr rfl fun k _ => ?_
  refine congrArg (T (ix2 i k) * ·) ?_
  refine (shapeCast_apply _ _ (ix2 k j) (ix3 (0 : Fin 1) k j) ?_).trans ?_
  · rw [Shape.rowMajor_val_three, Shape.rowMajor_val_two]
    show ((0 : Nat) * 128 + k.val) * 128 + j.val = k.val * 128 + j.val
    omega
  · refine extractStridedSlice_apply _ W h (ix3 (0 : Fin 1) k j) (ix3 q k j) fun a => ?_
    match a with
    | ⟨0, _⟩ => show q.val = q.val + 0; omega
    | ⟨1, _⟩ => show k.val = 0 + k.val; omega
    | ⟨2, _⟩ => show j.val = 0 + j.val; omega

/-- The host's value before its activation: the four products added in order, plus the bias broadcast to every row. -/
abbrev rpre128 (T0 T1 T2 T3 : FVec Ideal Cert.ReferenceIdeal.S50000x128 .f32) (W : FVec Ideal Cert.ReferenceIdeal.S4x128x128 .f32)
    (b : FVec Ideal Cert.ReferenceIdeal.S128 .f32) : FVec Ideal Cert.ReferenceIdeal.S50000x128 .f32 :=
  addf (addf (addf (addf (rmm128 T0 W ![0, 0, 0] Cert.ReferenceIdeal.Facts₀.slices_S4x128x128_S1x128x128_0_0_0)
      (rmm128 T1 W ![1, 0, 0] Cert.ReferenceIdeal.Facts₀.slices_S4x128x128_S1x128x128_1_0_0))
      (rmm128 T2 W ![2, 0, 0] Cert.ReferenceIdeal.Facts₀.slices_S4x128x128_S1x128x128_2_0_0))
      (rmm128 T3 W ![3, 0, 0] Cert.ReferenceIdeal.Facts₀.slices_S4x128x128_S1x128x128_3_0_0))
    (broadcastInDim Cert.ReferenceIdeal.S50000x128 ![0, 1] Cert.ReferenceIdeal.Facts₀.bcast_S1x128_S50000x128_0_1 (broadcastInDim Cert.ReferenceIdeal.S1x128 ![1] Cert.ReferenceIdeal.Facts₀.bcast_S128_S1x128_1 b))

/-- The bias broadcast to a row, then to every row, reads the bias at the column. -/
theorem rbias_apply (b : FVec Ideal Cert.ReferenceIdeal.S128 .f32) (i : Fin 50000) (j : Fin 128) :
    broadcastInDim Cert.ReferenceIdeal.S50000x128 ![0, 1] Cert.ReferenceIdeal.Facts₀.bcast_S1x128_S50000x128_0_1 (broadcastInDim Cert.ReferenceIdeal.S1x128 ![1] Cert.ReferenceIdeal.Facts₀.bcast_S128_S1x128_1 b) (ix2 i j)
      = b (ix1 j) := by
  refine (broadcastInDim_apply _ _ _ (ix2 i j) (ix2 (0 : Fin 1) j) fun a => ?_).trans ?_
  · match a with
    | ⟨0, _⟩ => rfl
    | ⟨1, _⟩ => rfl
  · refine broadcastInDim_apply _ _ _ (ix2 (0 : Fin 1) j) (ix1 j) fun a => ?_
    match a with
    | ⟨0, _⟩ => rfl

theorem rpre128_apply (T0 T1 T2 T3 : FVec Ideal Cert.ReferenceIdeal.S50000x128 .f32) (W : FVec Ideal Cert.ReferenceIdeal.S4x128x128 .f32)
    (b : FVec Ideal Cert.ReferenceIdeal.S128 .f32) (i : Fin 50000) (j : Fin 128) :
    rpre128 T0 T1 T2 T3 W b (ix2 i j)
      = lin4 (fun k => T0 (ix2 i k)) (fun k => T1 (ix2 i k)) (fun k => T2 (ix2 i k)) (fun k => T3 (ix2 i k))
          (fun k => W (ix3 (0 : Fin 4) k j)) (fun k => W (ix3 (1 : Fin 4) k j)) (fun k => W (ix3 (2 : Fin 4) k j)) (fun k => W (ix3 (3 : Fin 4) k j))
          (b (ix1 j)) := by
  show (((rmm128 T0 W ![0, 0, 0] _ (ix2 i j) + rmm128 T1 W ![1, 0, 0] _ (ix2 i j)) + rmm128 T2 W ![2, 0, 0] _ (ix2 i j)) + rmm128 T3 W ![3, 0, 0] _ (ix2 i j))
      + broadcastInDim Cert.ReferenceIdeal.S50000x128 ![0, 1] Cert.ReferenceIdeal.Facts₀.bcast_S1x128_S50000x128_0_1 (broadcastInDim Cert.ReferenceIdeal.S1x128 ![1] Cert.ReferenceIdeal.Facts₀.bcast_S128_S1x128_1 b) (ix2 i j) = _
  rw [rmm128_apply T0 W 0 ![0, 0, 0] rfl, rmm128_apply T1 W 1 ![1, 0, 0] rfl, rmm128_apply T2 W 2 ![2, 0, 0] rfl, rmm128_apply T3 W 3 ![3, 0, 0] rfl, rbias_apply]
  rfl

/-! ## The two sides meet -/

/-- A block's value before the activation is the whole array's at the row the block's row sits at, when the block's
    terms are the arrays' rows, the four loaded slabs the weight's four slabs and the bias row the bias. -/
theorem pre128_eq (x0 : Vec Ideal Cert.KernelIdeal.S5000x128 .f32) (w0 : Vec Ideal Cert.KernelIdeal.S1x128x128 .f32)
    (x1 : Vec Ideal Cert.KernelIdeal.S5000x128 .f32) (w1 : Vec Ideal Cert.KernelIdeal.S1x128x128 .f32)
    (x2 : Vec Ideal Cert.KernelIdeal.S5000x128 .f32) (w2 : Vec Ideal Cert.KernelIdeal.S1x128x128 .f32)
    (x3 : Vec Ideal Cert.KernelIdeal.S5000x128 .f32) (w3 : Vec Ideal Cert.KernelIdeal.S1x128x128 .f32)
    (x5 : Vec Ideal Cert.KernelIdeal.S1x128 .f32)
    (T0 T1 T2 T3 : FVec Ideal Cert.ReferenceIdeal.S50000x128 .f32) (W : FVec Ideal Cert.ReferenceIdeal.S4x128x128 .f32) (b : FVec Ideal Cert.ReferenceIdeal.S128 .f32)
    (r : Fin 5000) (i : Fin 50000) (j : Fin 128)
    (h0 : ∀ k, x0 (ix2 r k) = T0 (ix2 i k)) (h1 : ∀ k, x1 (ix2 r k) = T1 (ix2 i k))
    (h2 : ∀ k, x2 (ix2 r k) = T2 (ix2 i k)) (h3 : ∀ k, x3 (ix2 r k) = T3 (ix2 i k))
    (g0 : ∀ k, w0 (ix3 (0 : Fin 1) k j) = W (ix3 (0 : Fin 4) k j)) (g1 : ∀ k, w1 (ix3 (0 : Fin 1) k j) = W (ix3 (1 : Fin 4) k j))
    (g2 : ∀ k, w2 (ix3 (0 : Fin 1) k j) = W (ix3 (2 : Fin 4) k j)) (g3 : ∀ k, w3 (ix3 (0 : Fin 1) k j) = W (ix3 (3 : Fin 4) k j))
    (hb : x5 (ix2 (0 : Fin 1) j) = b (ix1 j)) :
    kpre128 x0 w0 x1 w1 x2 w2 x3 w3 x5 (ix2 r j) = rpre128 T0 T1 T2 T3 W b (ix2 i j) := by
  rw [kpre128_apply, rpre128_apply, hb]
  simp only [h0, h1, h2, h3, g0, g1, g2, g3]

/-! ## The activations, element by element -/

/-- The leaky rectifier written with a strict comparison and the slope on the right is the one written with a weak
    comparison and the slope on the left: they differ only at zero, where both give zero, and in the order of a product. -/
theorem leaky_eq (p c : EReal) :
    Scalar.select (FloatOps.cmpf (F := Ideal) (φ := .f32) .ogt p (Ideal.ofBits .f32 0x00000000#32)) p (p * c)
      = Scalar.select (FloatOps.cmpf (F := Ideal) (φ := .f32) .oge p (Ideal.ofBits .f32 0x00000000#32)) p (c * p) := by
  rw [Ideal.ofBits_zero_f32]
  show Scalar.select (Ideal.cmp .ogt p 0) p (p * c) = Scalar.select (Ideal.cmp .oge p 0) p (c * p)
  unfold Ideal.cmp Scalar.select
  rcases lt_trichotomy p 0 with h | h | h
  · have h1 : ¬ (0 < p) := not_lt.mpr h.le
    have h2 : ¬ (0 ≤ p) := not_le.mpr h
    simp [h1, h2, mul_comm]
  · subst h
    simp
  · have h2 : (0 : EReal) ≤ p := h.le
    simp [h, h2]

/-! ## A slab of the weight, loaded -/

/-- One slab of the weight loaded through its rectangle reads the weight at the slab's number. -/
theorem ld_slab (x4 : Vec Ideal Cert.KernelIdeal.S4x128x128 .f32) (q : Fin 4) (off : Fin 3 → Nat) (hoff : off = ![q.val, 0, 0])
    (inb : ∀ a, off a + Cert.KernelIdeal.S1x128x128.size a ≤ Cert.KernelIdeal.S4x128x128.size a) (k j : Fin 128) :
    View.ld x4 (Rect.unit (s := Cert.KernelIdeal.S4x128x128) off Cert.KernelIdeal.S1x128x128.size inb) (ix3 (0 : Fin 1) k j) = x4 (ix3 q k j) := by
  subst hoff
  refine congrArg x4 (funext fun a => Fin.ext ?_)
  match a with
  | ⟨0, _⟩ => show q.val + 1 * 0 = q.val; omega
  | ⟨1, _⟩ => show 0 + 1 * k.val = k.val; omega
  | ⟨2, _⟩ => show 0 + 1 * j.val = j.val; omega

/-! ## Small shared facts -/

/-- The zero offsets of a whole-block access at rank two, as a constant function. -/
theorem zeros2 : (![0, 0] : Fin 2 → Nat) = fun _ => 0 := funext fun a => by fin_cases a <;> rfl

/-- The bias reshaped to one row reads the bias at the column. -/
theorem bias_row_apply (bias : FVec Ideal Cert.ReferenceIdeal.S128 .f32) (j : Fin 128) :
    shapeCast Cert.KernelIdeal.S1x128 bias Cert.KernelIdeal.Facts₀.shapeCasts_S128_S1x128 (ix2 (0 : Fin 1) j) = bias (ix1 j) := by
  refine shapeCast_apply bias _ (ix2 (0 : Fin 1) j) (ix1 j) ?_
  rw [Shape.rowMajor_val_one, Shape.rowMajor_val_two]
  show j.val = (0 : Nat) * 128 + j.val
  omega

end Cert.RefForm.Lin

end
-- ==== Proof.RegionLinCore3.lean ====
/- The linear part of the first matmul layer (three input channels), read element by element on both sides: the same
   reading as for the 128-channel layers, over contractions of length three. The kernel's first term enters its product
   as loaded, the other three through a shape cast to their own shape (the identity). -/
import proofs.«175070_j35072702939553_2_alg».proof.Proof.RegionLinCore

noncomputable section

open Idealize.ShloMosaic Idealize.ShloMosaic.ValueIdx
open scoped BigOperators

namespace Cert.RefForm.Lin

/-! The two operand indices of the contraction `kdot3`: rows by contraction, contraction by columns. -/

theorem kdot3_lhs0 (i : Cert.KernelIdeal.S5000x128.Idx) (q : Cert.KernelIdeal.dot_S5000x3_S3x128_S5000x128_1_0_0_1_n_n.contr.Idx) : (Cert.KernelIdeal.dot_S5000x3_S3x128_S5000x128_1_0_0_1_n_n.lhsIdx i q 0).val = (i 0).val := by
  unfold DotDims.lhsIdx
  rw [dif_neg (show ¬(0 : Fin Cert.KernelIdeal.S5000x3.rank) ∈ Cert.KernelIdeal.dot_S5000x3_S3x128_S5000x128_1_0_0_1_n_n.lhsBatch by decide), dif_pos (show (0 : Fin Cert.KernelIdeal.S5000x3.rank) ∈ Cert.KernelIdeal.dot_S5000x3_S3x128_S5000x128_1_0_0_1_n_n.lhsNonContracting by decide)]
  rfl
theorem kdot3_lhs1 (i : Cert.KernelIdeal.S5000x128.Idx) (q : Cert.KernelIdeal.dot_S5000x3_S3x128_S5000x128_1_0_0_1_n_n.contr.Idx) : (Cert.KernelIdeal.dot_S5000x3_S3x128_S5000x128_1_0_0_1_n_n.lhsIdx i q 1).val = (q ⟨0, by decide⟩).val :=
  Cert.KernelIdeal.dot_S5000x3_S3x128_S5000x128_1_0_0_1_n_n.lhsIdx_val_of_single rfl i q
theorem kdot3_rhs0 (i : Cert.KernelIdeal.S5000x128.Idx) (q : Cert.KernelIdeal.dot_S5000x3_S3x128_S5000x128_1_0_0_1_n_n.contr.Idx) : (Cert.KernelIdeal.dot_S5000x3_S3x128_S5000x128_1_0_0_1_n_n.rhsIdx i q 0).val = (q ⟨0, by decide⟩).val :=
  Cert.KernelIdeal.dot_S5000x3_S3x128_S5000x128_1_0_0_1_n_n.rhsIdx_val_of_single rfl i q
theorem kdot3_rhs1 (i : Cert.KernelIdeal.S5000x128.Idx) (q : Cert.KernelIdeal.dot_S5000x3_S3x128_S5000x128_1_0_0_1_n_n.contr.Idx) : (Cert.KernelIdeal.dot_S5000x3_S3x128_S5000x128_1_0_0_1_n_n.rhsIdx i q 1).val = (i 1).val := by
  unfold DotDims.rhsIdx
  rw [dif_neg (show ¬(1 : Fin Cert.KernelIdeal.S3x128.rank) ∈ Cert.KernelIdeal.dot_S5000x3_S3x128_S5000x128_1_0_0_1_n_n.rhsBatch by decide), dif_pos (show (1 : Fin Cert.KernelIdeal.S3x128.rank) ∈ Cert.KernelIdeal.dot_S5000x3_S3x128_S5000x128_1_0_0_1_n_n.rhsNonContracting by decide)]
  rfl

/-- The contraction's sum over its one axis, the operands read at (row, k) and (k, column). -/
theorem kdot3_sum (L : Cert.KernelIdeal.S5000x3.Idx → EReal) (Rr : Cert.KernelIdeal.S3x128.Idx → EReal) (i : Fin 5000) (j : Fin 128) :
    (∑ k : Cert.KernelIdeal.dot_S5000x3_S3x128_S5000x128_1_0_0_1_n_n.contr.Idx, L (Cert.KernelIdeal.dot_S5000x3_S3x128_S5000x128_1_0_0_1_n_n.lhsIdx (ix2 i j) k) * Rr (Cert.KernelIdeal.dot_S5000x3_S3x128_S5000x128_1_0_0_1_n_n.rhsIdx (ix2 i j) k))
      = ∑ k : Fin 3, L (ix2 i k) * Rr (ix2 k j) := by
  rw [← Equiv.sum_comp (contrEquiv1 Cert.KernelIdeal.dot_S5000x3_S3x128_S5000x128_1_0_0_1_n_n 3 rfl rfl).symm]
  refine Finset.sum_congr rfl fun k _ => ?_
  have hk := contrEquiv1_symm_val Cert.KernelIdeal.dot_S5000x3_S3x128_S5000x128_1_0_0_1_n_n 3 rfl rfl k
  have el : Cert.KernelIdeal.dot_S5000x3_S3x128_S5000x128_1_0_0_1_n_n.lhsIdx (ix2 i j) ((contrEquiv1 Cert.KernelIdeal.dot_S5000x3_S3x128_S5000x128_1_0_0_1_n_n 3 rfl rfl).symm k) = ix2 i k := funext fun a => Fin.ext (by
    match a with
    | ⟨0, _⟩ => exact kdot3_lhs0 _ _
    | ⟨1, _⟩ => exact (kdot3_lhs1 _ _).trans hk)
  have er : Cert.KernelIdeal.dot_S5000x3_S3x128_S5000x128_1_0_0_1_n_n.rhsIdx (ix2 i j) ((contrEquiv1 Cert.KernelIdeal.dot_S5000x3_S3x128_S5000x128_1_0_0_1_n_n 3 rfl rfl).symm k) = ix2 k j := funext fun a => Fin.ext (by
    match a with
    | ⟨0, _⟩ => exact (kdot3_rhs0 _ _).trans hk
    | ⟨1, _⟩ => exact kdot3_rhs1 _ _)
  rw [el, er]

/-! The two operand indices of the contraction `rdot3`: rows by contraction, contraction by columns. -/

theorem rdot3_lhs0 (i : Cert.ReferenceIdeal.S50000x128.Idx) (q : Cert.ReferenceIdeal.dot_S50000x3_S3x128_S50000x128_1_0_0_1_n_n.contr.Idx) : (Cert.ReferenceIdeal.dot_S50000x3_S3x128_S50000x128_1_0_0_1_n_n.lhsIdx i q 0).val = (i 0).val := by
  unfold DotDims.lhsIdx
  rw [dif_neg (show ¬(0 : Fin Cert.ReferenceIdeal.S50000x3.rank) ∈ Cert.ReferenceIdeal.dot_S50000x3_S3x128_S50000x128_1_0_0_1_n_n.lhsBatch by decide), dif_pos (show (0 : Fin Cert.ReferenceIdeal.S50000x3.rank) ∈ Cert.ReferenceIdeal.dot_S50000x3_S3x128_S50000x128_1_0_0_1_n_n.lhsNonContracting by decide)]
  rfl
theorem rdot3_lhs1 (i : Cert.ReferenceIdeal.S50000x128.Idx) (q : Cert.ReferenceIdeal.dot_S50000x3_S3x128_S50000x128_1_0_0_1_n_n.contr.Idx) : (Cert.ReferenceIdeal.dot_S50000x3_S3x128_S50000x128_1_0_0_1_n_n.lhsIdx i q 1).val = (q ⟨0, by decide⟩).val :=
  Cert.ReferenceIdeal.dot_S50000x3_S3x128_S50000x128_1_0_0_1_n_n.lhsIdx_val_of_single rfl i q
theorem rdot3_rhs0 (i : Cert.ReferenceIdeal.S50000x128.Idx) (q : Cert.ReferenceIdeal.dot_S50000x3_S3x128_S50000x128_1_0_0_1_n_n.contr.Idx) : (Cert.ReferenceIdeal.dot_S50000x3_S3x128_S50000x128_1_0_0_1_n_n.rhsIdx i q 0).val = (q ⟨0, by decide⟩).val :=
  Cert.ReferenceIdeal.dot_S50000x3_S3x128_S50000x128_1_0_0_1_n_n.rhsIdx_val_of_single rfl i q
theorem rdot3_rhs1 (i : Cert.ReferenceIdeal.S50000x128.Idx) (q : Cert.ReferenceIdeal.dot_S50000x3_S3x128_S50000x128_1_0_0_1_n_n.contr.Idx) : (Cert.ReferenceIdeal.dot_S50000x3_S3x128_S50000x128_1_0_0_1_n_n.rhsIdx i q 1).val = (i 1).val := by
  unfold DotDims.rhsIdx
  rw [dif_neg (show ¬(1 : Fin Cert.ReferenceIdeal.S3x128.rank) ∈ Cert.ReferenceIdeal.dot_S50000x3_S3x128_S50000x128_1_0_0_1_n_n.rhsBatch by decide), dif_pos (show (1 : Fin Cert.ReferenceIdeal.S3x128.rank) ∈ Cert.ReferenceIdeal.dot_S50000x3_S3x128_S50000x128_1_0_0_1_n_n.rhsNonContracting by decide)]
  rfl

/-- The contraction's sum over its one axis, the operands read at (row, k) and (k, column). -/
theorem rdot3_sum (L : Cert.ReferenceIdeal.S50000x3.Idx → EReal) (Rr : Cert.ReferenceIdeal.S3x128.Idx → EReal) (i : Fin 50000) (j : Fin 128) :
    (∑ k : Cert.ReferenceIdeal.dot_S50000x3_S3x128_S50000x128_1_0_0_1_n_n.contr.Idx, L (Cert.ReferenceIdeal.dot_S50000x3_S3x128_S50000x128_1_0_0_1_n_n.lhsIdx (ix2 i j) k) * Rr (Cert.ReferenceIdeal.dot_S50000x3_S3x128_S50000x128_1_0_0_1_n_n.rhsIdx (ix2 i j) k))
      = ∑ k : Fin 3, L (ix2 i k) * Rr (ix2 k j) := by
  rw [← Equiv.sum_comp (contrEquiv1 Cert.ReferenceIdeal.dot_S50000x3_S3x128_S50000x128_1_0_0_1_n_n 3 rfl rfl).symm]
  refine Finset.sum_congr rfl fun k _ => ?_
  have hk := contrEquiv1_symm_val Cert.ReferenceIdeal.dot_S50000x3_S3x128_S50000x128_1_0_0_1_n_n 3 rfl rfl k
  have el : Cert.ReferenceIdeal.dot_S50000x3_S3x128_S50000x128_1_0_0_1_n_n.lhsIdx (ix2 i j) ((contrEquiv1 Cert.ReferenceIdeal.dot_S50000x3_S3x128_S50000x128_1_0_0_1_n_n 3 rfl rfl).symm k) = ix2 i k := funext fun a => Fin.ext (by
    match a with
    | ⟨0, _⟩ => exact rdot3_lhs0 _ _
    | ⟨1, _⟩ => exact (rdot3_lhs1 _ _).trans hk)
  have er : Cert.ReferenceIdeal.dot_S50000x3_S3x128_S50000x128_1_0_0_1_n_n.rhsIdx (ix2 i j) ((contrEquiv1 Cert.ReferenceIdeal.dot_S50000x3_S3x128_S50000x128_1_0_0_1_n_n 3 rfl rfl).symm k) = ix2 k j := funext fun a => Fin.ext (by
    match a with
    | ⟨0, _⟩ => exact (rdot3_rhs0 _ _).trans hk
    | ⟨1, _⟩ => exact rdot3_rhs1 _ _)
  rw [el, er]

/-! ## The kernel's side, three input channels: one block of 5000 rows -/

/-- One term's product with its weight slab as the kernel body computes it: both operands narrowed (the identity on
    extended reals), the slab's leading unit axis dropped, accumulated into zeros. -/
abbrev kmm3 (x : FVec Ideal Cert.KernelIdeal.S5000x3 .f32) (w : Vec Ideal Cert.KernelIdeal.S1x3x128 .f32) : FVec Ideal Cert.KernelIdeal.S5000x128 .f32 :=
  matmul Cert.KernelIdeal.dot_S5000x3_S3x128_S5000x128_1_0_0_1_n_n none
    (truncf .bf16 x Cert.KernelIdeal.Facts₀.bitsLt_bf16_f32)
    (truncf .bf16 (shapeCast Cert.KernelIdeal.S3x128 w Cert.KernelIdeal.Facts₀.shapeCasts_S1x3x128_S3x128) Cert.KernelIdeal.Facts₀.bitsLt_bf16_f32)
    (constant Cert.KernelIdeal.S5000x128 .f32 0x00000000#32)

/-- At row r and column j it is the inner product of the term's row r with the slab's column j. -/
theorem kmm3_apply (x : FVec Ideal Cert.KernelIdeal.S5000x3 .f32) (w : Vec Ideal Cert.KernelIdeal.S1x3x128 .f32) (r : Fin 5000) (j : Fin 128) :
    kmm3 x w (ix2 r j) = ∑ k : Fin 3, x (ix2 r k) * w (ix3 (0 : Fin 1) k j) := by
  refine (Ideal.matmul_constant_zero_apply Cert.KernelIdeal.dot_S5000x3_S3x128_S5000x128_1_0_0_1_n_n none _ _ (ix2 r j)).trans ?_
  refine (kdot3_sum _ _ r j).trans ?_
  refine Finset.sum_congr rfl fun k _ => ?_
  show x (ix2 r k) * shapeCast Cert.KernelIdeal.S3x128 w _ (ix2 k j) = _
  refine congrArg (x (ix2 r k) * ·) ?_
  refine shapeCast_apply w _ (ix2 k j) (ix3 (0 : Fin 1) k j) ?_
  rw [Shape.rowMajor_val_three, Shape.rowMajor_val_two]
  show ((0 : Nat) * 3 + k.val) * 128 + j.val = k.val * 128 + j.val
  omega

/-- The body's value before its activation: zeros plus the four products in order (the first term as loaded, the others
    through a shape cast to their own shape), plus the bias row on every row. -/
abbrev kpre3 (x0 : Vec Ideal Cert.KernelIdeal.S5000x3 .f32) (w0 : Vec Ideal Cert.KernelIdeal.S1x3x128 .f32)
    (x1 : Vec Ideal Cert.KernelIdeal.S5000x3 .f32) (w1 : Vec Ideal Cert.KernelIdeal.S1x3x128 .f32)
    (x2 : Vec Ideal Cert.KernelIdeal.S5000x3 .f32) (w2 : Vec Ideal Cert.KernelIdeal.S1x3x128 .f32)
    (x3 : Vec Ideal Cert.KernelIdeal.S5000x3 .f32) (w3 : Vec Ideal Cert.KernelIdeal.S1x3x128 .f32)
    (x5 : Vec Ideal Cert.KernelIdeal.S1x128 .f32) : FVec Ideal Cert.KernelIdeal.S5000x128 .f32 :=
  addf (addf (addf (addf (addf (broadcast Cert.KernelIdeal.S5000x128 (Scalar.ofBits (F := Ideal) .f32 0x00000000#32)) (kmm3 x0 w0))
      (kmm3 (shapeCast Cert.KernelIdeal.S5000x3 x1 Cert.KernelIdeal.Facts₀.shapeCasts_S5000x3_S5000x3) w1))
      (kmm3 (shapeCast Cert.KernelIdeal.S5000x3 x2 Cert.KernelIdeal.Facts₀.shapeCasts_S5000x3_S5000x3) w2))
      (kmm3 (shapeCast Cert.KernelIdeal.S5000x3 x3 Cert.KernelIdeal.Facts₀.shapeCasts_S5000x3_S5000x3) w3))
    (broadcastTo Cert.KernelIdeal.S5000x128 (shapeCast Cert.KernelIdeal.S1x128 x5 Cert.KernelIdeal.Facts₀.shapeCasts_S1x128_S1x128) Cert.KernelIdeal.Facts₀.broadcasts_S1x128_S5000x128)

theorem kpre3_apply (x0 : Vec Ideal Cert.KernelIdeal.S5000x3 .f32) (w0 : Vec Ideal Cert.KernelIdeal.S1x3x128 .f32)
    (x1 : Vec Ideal Cert.KernelIdeal.S5000x3 .f32) (w1 : Vec Ideal Cert.KernelIdeal.S1x3x128 .f32)
    (x2 : Vec Ideal Cert.KernelIdeal.S5000x3 .f32) (w2 : Vec Ideal Cert.KernelIdeal.S1x3x128 .f32)
    (x3 : Vec Ideal Cert.KernelIdeal.S5000x3 .f32) (w3 : Vec Ideal Cert.KernelIdeal.S1x3x128 .f32)
    (x5 : Vec Ideal Cert.KernelIdeal.S1x128 .f32) (r : Fin 5000) (j : Fin 128) :
    kpre3 x0 w0 x1 w1 x2 w2 x3 w3 x5 (ix2 r j)
      = lin4 (fun k => x0 (ix2 r k)) (fun k => x1 (ix2 r k)) (fun k => x2 (ix2 r k)) (fun k => x3 (ix2 r k))
          (fun k => w0 (ix3 (0 : Fin 1) k j)) (fun k => w1 (ix3 (0 : Fin 1) k j)) (fun k => w2 (ix3 (0 : Fin 1) k j)) (fun k => w3 (ix3 (0 : Fin 1) k j))
          (x5 (ix2 (0 : Fin 1) j)) := by
  show ((((Ideal.ofBits .f32 0x00000000#32 + kmm3 x0 w0 (ix2 r j))
      + kmm3 (shapeCast Cert.KernelIdeal.S5000x3 x1 Cert.KernelIdeal.Facts₀.shapeCasts_S5000x3_S5000x3) w1 (ix2 r j))
      + kmm3 (shapeCast Cert.KernelIdeal.S5000x3 x2 Cert.KernelIdeal.Facts₀.shapeCasts_S5000x3_S5000x3) w2 (ix2 r j))
      + kmm3 (shapeCast Cert.KernelIdeal.S5000x3 x3 Cert.KernelIdeal.Facts₀.shapeCasts_S5000x3_S5000x3) w3 (ix2 r j))
      + broadcastTo Cert.KernelIdeal.S5000x128 (shapeCast Cert.KernelIdeal.S1x128 x5 Cert.KernelIdeal.Facts₀.shapeCasts_S1x128_S1x128) Cert.KernelIdeal.Facts₀.broadcasts_S1x128_S5000x128 (ix2 r j) = _
  rw [shapeCast_self x1, shapeCast_self x2, shapeCast_self x3,
    Ideal.ofBits_zero_f32, zero_add, kmm3_apply, kmm3_apply, kmm3_apply, kmm3_apply, kbias_apply]
  rfl

/-- One slab of the three-channel weight loaded through its rectangle reads the weight at the slab's number. -/
theorem ld_slab3 (x4 : Vec Ideal Cert.KernelIdeal.S4x3x128 .f32) (q : Fin 4) (off : Fin 3 → Nat) (hoff : off = ![q.val, 0, 0])
    (inb : ∀ a, off a + Cert.KernelIdeal.S1x3x128.size a ≤ Cert.KernelIdeal.S4x3x128.size a) (k : Fin 3) (j : Fin 128) :
    View.ld x4 (Rect.unit (s := Cert.KernelIdeal.S4x3x128) off Cert.KernelIdeal.S1x3x128.size inb) (ix3 (0 : Fin 1) k j) = x4 (ix3 q k j) := by
  subst hoff
  refine congrArg x4 (funext fun a => Fin.ext ?_)
  match a with
  | ⟨0, _⟩ => show q.val + 1 * 0 = q.val; omega
  | ⟨1, _⟩ => show 0 + 1 * k.val = k.val; omega
  | ⟨2, _⟩ => show 0 + 1 * j.val = j.val; omega

/-! ## The host's side, three input channels: the whole array of 50000 rows -/

/-- One term's product with one slab of the weight as the host computes it. -/
abbrev rmm3 (T : FVec Ideal Cert.ReferenceIdeal.S50000x3 .f32) (W : FVec Ideal Cert.ReferenceIdeal.S4x3x128 .f32) (off : Fin 3 → Nat)
    (h : Cert.ReferenceIdeal.S4x3x128.Slices off Cert.ReferenceIdeal.S1x3x128) : FVec Ideal Cert.ReferenceIdeal.S50000x128 .f32 :=
  Host.dotGeneral Cert.ReferenceIdeal.dot_S50000x3_S3x128_S50000x128_1_0_0_1_n_n none T
    (shapeCast Cert.ReferenceIdeal.S3x128 (extractStridedSlice Cert.ReferenceIdeal.S1x3x128 off W h) Cert.ReferenceIdeal.Facts₀.shapeCasts_S1x3x128_S3x128)

theorem rmm3_apply (T : FVec Ideal Cert.ReferenceIdeal.S50000x3 .f32) (W : FVec Ideal Cert.ReferenceIdeal.S4x3x128 .f32) (q : Fin 4) (off : Fin 3 → Nat)
    (hoff : off = ![q.val, 0, 0]) (h : Cert.ReferenceIdeal.S4x3x128.Slices off Cert.ReferenceIdeal.S1x3x128) (i : Fin 50000) (j : Fin 128) :
    rmm3 T W off h (ix2 i j) = ∑ k : Fin 3, T (ix2 i k) * W (ix3 q k j) := by
  subst hoff
  refine (Ideal.dotGeneral_apply Cert.ReferenceIdeal.dot_S50000x3_S3x128_S50000x128_1_0_0_1_n_n none _ _ _ (ix2 i j)).trans ?_
  refine (rdot3_sum _ _ i j).trans ?_
  refine Finset.sum_congr rfl fun k _ => ?_
  refine congrArg (T (ix2 i k) * ·) ?_
  refine (shapeCast_apply _ _ (ix2 k j) (ix3 (0 : Fin 1) k j) ?_).trans ?_
  · rw [Shape.rowMajor_val_three, Shape.rowMajor_val_two]
    show ((0 : Nat) * 3 + k.val) * 128 + j.val = k.val * 128 + j.val
    omega
  · refine extractStridedSlice_apply _ W h (ix3 (0 : Fin 1) k j) (ix3 q k j) fun a => ?_
    match a with
    | ⟨0, _⟩ => show q.val = q.val + 0; omega
    | ⟨1, _⟩ => show k.val = 0 + k.val; omega
    | ⟨2, _⟩ => show j.val = 0 + j.val; omega

/-- The host's value before its activation: the four products added in order, plus the bias broadcast to every row. -/
abbrev rpre3 (T0 T1 T2 T3 : FVec Ideal Cert.ReferenceIdeal.S50000x3 .f32) (W : FVec Ideal Cert.ReferenceIdeal.S4x3x128 .f32)
    (b : FVec Ideal Cert.ReferenceIdeal.S128 .f32) : FVec Ideal Cert.ReferenceIdeal.S50000x128 .f32 :=
  addf (addf (addf (addf (rmm3 T0 W ![0, 0, 0] Cert.ReferenceIdeal.Facts₀.slices_S4x3x128_S1x3x128_0_0_0)
      (rmm3 T1 W ![1, 0, 0] Cert.ReferenceIdeal.Facts₀.slices_S4x3x128_S1x3x128_1_0_0))
      (rmm3 T2 W ![2, 0, 0] Cert.ReferenceIdeal.Facts₀.slices_S4x3x128_S1x3x128_2_0_0))
      (rmm3 T3 W ![3, 0, 0] Cert.ReferenceIdeal.Facts₀.slices_S4x3x128_S1x3x128_3_0_0))
    (broadcastInDim Cert.ReferenceIdeal.S50000x128 ![0, 1] Cert.ReferenceIdeal.Facts₀.bcast_S1x128_S50000x128_0_1 (broadcastInDim Cert.ReferenceIdeal.S1x128 ![1] Cert.ReferenceIdeal.Facts₀.bcast_S128_S1x128_1 b))

theorem rpre3_apply (T0 T1 T2 T3 : FVec Ideal Cert.ReferenceIdeal.S50000x3 .f32) (W : FVec Ideal Cert.ReferenceIdeal.S4x3x128 .f32)
    (b : FVec Ideal Cert.ReferenceIdeal.S128 .f32) (i : Fin 50000) (j : Fin 128) :
    rpre3 T0 T1 T2 T3 W b (ix2 i j)
      = lin4 (fun k => T0 (ix2 i k)) (fun k => T1 (ix2 i k)) (fun k => T2 (ix2 i k)) (fun k => T3 (ix2 i k))
          (fun k => W (ix3 (0 : Fin 4) k j)) (fun k => W (ix3 (1 : Fin 4) k j)) (fun k => W (ix3 (2 : Fin 4) k j)) (fun k => W (ix3 (3 : Fin 4) k j))
          (b (ix1 j)) := by
  show (((rmm3 T0 W ![0, 0, 0] _ (ix2 i j) + rmm3 T1 W ![1, 0, 0] _ (ix2 i j)) + rmm3 T2 W ![2, 0, 0] _ (ix2 i j)) + rmm3 T3 W ![3, 0, 0] _ (ix2 i j))
      + broadcastInDim Cert.ReferenceIdeal.S50000x128 ![0, 1] Cert.ReferenceIdeal.Facts₀.bcast_S1x128_S50000x128_0_1 (broadcastInDim Cert.ReferenceIdeal.S1x128 ![1] Cert.ReferenceIdeal.Facts₀.bcast_S128_S1x128_1 b) (ix2 i j) = _
  rw [rmm3_apply T0 W 0 ![0, 0, 0] rfl, rmm3_apply T1 W 1 ![1, 0, 0] rfl, rmm3_apply T2 W 2 ![2, 0, 0] rfl, rmm3_apply T3 W 3 ![3, 0, 0] rfl, rbias_apply]
  rfl

/-! ## The two sides meet -/

theorem pre3_eq (x0 : Vec Ideal Cert.KernelIdeal.S5000x3 .f32) (w0 : Vec Ideal Cert.KernelIdeal.S1x3x128 .f32)
    (x1 : Vec Ideal Cert.KernelIdeal.S5000x3 .f32) (w1 : Vec Ideal Cert.KernelIdeal.S1x3x128 .f32)
    (x2 : Vec Ideal Cert.KernelIdeal.S5000x3 .f32) (w2 : Vec Ideal Cert.KernelIdeal.S1x3x128 .f32)
    (x3 : Vec Ideal Cert.KernelIdeal.S5000x3 .f32) (w3 : Vec Ideal Cert.KernelIdeal.S1x3x128 .f32)
    (x5 : Vec Ideal Cert.KernelIdeal.S1x128 .f32)
    (T0 T1 T2 T3 : FVec Ideal Cert.ReferenceIdeal.S50000x3 .f32) (W : FVec Ideal Cert.ReferenceIdeal.S4x3x128 .f32) (b : FVec Ideal Cert.ReferenceIdeal.S128 .f32)
    (r : Fin 5000) (i : Fin 50000) (j : Fin 128)
    (h0 : ∀ k, x0 (ix2 r k) = T0 (ix2 i k)) (h1 : ∀ k, x1 (ix2 r k) = T1 (ix2 i k))
    (h2 : ∀ k, x2 (ix2 r k) = T2 (ix2 i k)) (h3 : ∀ k, x3 (ix2 r k) = T3 (ix2 i k))
    (g0 : ∀ k, w0 (ix3 (0 : Fin 1) k j) = W (ix3 (0 : Fin 4) k j)) (g1 : ∀ k, w1 (ix3 (0 : Fin 1) k j) = W (ix3 (1 : Fin 4) k j))
    (g2 : ∀ k, w2 (ix3 (0 : Fin 1) k j) = W (ix3 (2 : Fin 4) k j)) (g3 : ∀ k, w3 (ix3 (0 : Fin 1) k j) = W (ix3 (3 : Fin 4) k j))
    (hb : x5 (ix2 (0 : Fin 1) j) = b (ix1 j)) :
    kpre3 x0 w0 x1 w1 x2 w2 x3 w3 x5 (ix2 r j) = rpre3 T0 T1 T2 T3 W b (ix2 i j) := by
  rw [kpre3_apply, rpre3_apply, hb]
  simp only [h0, h1, h2, h3, g0, g1, g2, g3]

end Cert.RefForm.Lin

end
-- ==== Proof.RegionLin0.lean ====
/- The value of matmul region 0 of the kernel program: its output array after the region is the reference's own
   expression for its first layer, of the four three-channel term arrays, the weight and the bias as the region finds them.

   Each grid point t computes, for rows 5000·t … 5000·t + 4999, the four products of the term blocks with the weight's
   slabs, added in order onto a zero block, plus the bias row, then the leaky rectifier. Element by element that is the
   reference's whole-array expression at the same row (RegionLinCore3: both sides are the same four sums of three
   products and bias; RegionLinCore: the two spellings of the leaky rectifier agree). The ten row blocks tile the 50000
   rows, so the array ends as that expression everywhere. -/
import proofs.«175070_j35072702939553_2_alg».proof.Proof.RegionLinCore3

noncomputable section

open Idealize.ShloMosaic Idealize.ShloMosaic.ValueIdx Idealize.ShloMosaic.TcCoe Idealize.SL.Sem
open Idealize.ShloMosaic.Pipeline (Dat)
open scoped BigOperators

namespace Cert.RefForm

open Cert.ReferenceIdeal Cert.ReferenceIdeal.Facts₀ in
/-- The reference's first layer as one expression of its four three-channel terms, its weight and its bias: the four
    products with the weight's slabs added in order, the bias added on every row, then the leaky rectifier (compare with
    zero, multiply by the slope, select). -/
noncomputable def layer0 (T0 T1 T2 T3 : FVec Ideal S50000x3 .f32) (Wt : FVec Ideal S4x3x128 .f32)
    (b : FVec Ideal S128 .f32) : FVec Ideal S50000x128 .f32 :=
  select
    (cmpf .oge
      (addf (addf (addf (addf
        (Host.dotGeneral (F := Ideal) dot_S50000x3_S3x128_S50000x128_1_0_0_1_n_n none T0 (shapeCast S3x128 (extractStridedSlice S1x3x128 ![0, 0, 0] Wt slices_S4x3x128_S1x3x128_0_0_0) shapeCasts_S1x3x128_S3x128))
        (Host.dotGeneral (F := Ideal) dot_S50000x3_S3x128_S50000x128_1_0_0_1_n_n none T1 (shapeCast S3x128 (extractStridedSlice S1x3x128 ![1, 0, 0] Wt slices_S4x3x128_S1x3x128_1_0_0) shapeCasts_S1x3x128_S3x128)))
        (Host.dotGeneral (F := Ideal) dot_S50000x3_S3x128_S50000x128_1_0_0_1_n_n none T2 (shapeCast S3x128 (extractStridedSlice S1x3x128 ![2, 0, 0] Wt slices_S4x3x128_S1x3x128_2_0_0) shapeCasts_S1x3x128_S3x128)))
        (Host.dotGeneral (F := Ideal) dot_S50000x3_S3x128_S50000x128_1_0_0_1_n_n none T3 (shapeCast S3x128 (extractStridedSlice S1x3x128 ![3, 0, 0] Wt slices_S4x3x128_S1x3x128_3_0_0) shapeCasts_S1x3x128_S3x128)))
        (broadcastInDim S50000x128 ![0, 1] bcast_S1x128_S50000x128_0_1 (broadcastInDim S1x128 ![1] bcast_S128_S1x128_1 b)))
      (broadcastInDim S50000x128 ![] bcast_S_S50000x128 (constant (F := Ideal) S_ .f32 0x00000000#32)))
    (addf (addf (addf (addf
      (Host.dotGeneral (F := Ideal) dot_S50000x3_S3x128_S50000x128_1_0_0_1_n_n none T0 (shapeCast S3x128 (extractStridedSlice S1x3x128 ![0, 0, 0] Wt slices_S4x3x128_S1x3x128_0_0_0) shapeCasts_S1x3x128_S3x128))
      (Host.dotGeneral (F := Ideal) dot_S50000x3_S3x128_S50000x128_1_0_0_1_n_n none T1 (shapeCast S3x128 (extractStridedSlice S1x3x128 ![1, 0, 0] Wt slices_S4x3x128_S1x3x128_1_0_0) shapeCasts_S1x3x128_S3x128)))
      (Host.dotGeneral (F := Ideal) dot_S50000x3_S3x128_S50000x128_1_0_0_1_n_n none T2 (shapeCast S3x128 (extractStridedSlice S1x3x128 ![2, 0, 0] Wt slices_S4x3x128_S1x3x128_2_0_0) shapeCasts_S1x3x128_S3x128)))
      (Host.dotGeneral (F := Ideal) dot_S50000x3_S3x128_S50000x128_1_0_0_1_n_n none T3 (shapeCast S3x128 (extractStridedSlice S1x3x128 ![3, 0, 0] Wt slices_S4x3x128_S1x3x128_3_0_0) shapeCasts_S1x3x128_S3x128)))
      (broadcastInDim S50000x128 ![0, 1] bcast_S1x128_S50000x128_0_1 (broadcastInDim S1x128 ![1] bcast_S128_S1x128_1 b)))
    (mulf
      (broadcastInDim S50000x128 ![] bcast_S_S50000x128 (constant (F := Ideal) S_ .f32 0x3C23D70A#32))
      (addf (addf (addf (addf
        (Host.dotGeneral (F := Ideal) dot_S50000x3_S3x128_S50000x128_1_0_0_1_n_n none T0 (shapeCast S3x128 (extractStridedSlice S1x3x128 ![0, 0, 0] Wt slices_S4x3x128_S1x3x128_0_0_0) shapeCasts_S1x3x128_S3x128))
        (Host.dotGeneral (F := Ideal) dot_S50000x3_S3x128_S50000x128_1_0_0_1_n_n none T1 (shapeCast S3x128 (extractStridedSlice S1x3x128 ![1, 0, 0] Wt slices_S4x3x128_S1x3x128_1_0_0) shapeCasts_S1x3x128_S3x128)))
        (Host.dotGeneral (F := Ideal) dot_S50000x3_S3x128_S50000x128_1_0_0_1_n_n none T2 (shapeCast S3x128 (extractStridedSlice S1x3x128 ![2, 0, 0] Wt slices_S4x3x128_S1x3x128_2_0_0) shapeCasts_S1x3x128_S3x128)))
        (Host.dotGeneral (F := Ideal) dot_S50000x3_S3x128_S50000x128_1_0_0_1_n_n none T3 (shapeCast S3x128 (extractStridedSlice S1x3x128 ![3, 0, 0] Wt slices_S4x3x128_S1x3x128_3_0_0) shapeCasts_S1x3x128_S3x128)))
        (broadcastInDim S50000x128 ![0, 1] bcast_S1x128_S50000x128_0_1 (broadcastInDim S1x128 ![1] bcast_S128_S1x128_1 b))))

namespace Lin
/-- It is the leaky rectifier of the shared linear part. -/
theorem layer0_eq (T0 T1 T2 T3 : FVec Ideal Cert.ReferenceIdeal.S50000x3 .f32) (Wt : FVec Ideal Cert.ReferenceIdeal.S4x3x128 .f32) (b : FVec Ideal Cert.ReferenceIdeal.S128 .f32) :
    layer0 T0 T1 T2 T3 Wt b
      = select (cmpf .oge (rpre3 T0 T1 T2 T3 Wt b) (broadcastInDim Cert.ReferenceIdeal.S50000x128 ![] Cert.ReferenceIdeal.Facts₀.bcast_S_S50000x128 (constant (F := Ideal) Cert.ReferenceIdeal.S_ .f32 0x00000000#32)))
          (rpre3 T0 T1 T2 T3 Wt b)
          (mulf (broadcastInDim Cert.ReferenceIdeal.S50000x128 ![] Cert.ReferenceIdeal.Facts₀.bcast_S_S50000x128 (constant (F := Ideal) Cert.ReferenceIdeal.S_ .f32 0x3C23D70A#32)) (rpre3 T0 T1 T2 T3 Wt b)) := rfl

section Kernel
open Cert.KernelIdeal Cert.KernelIdeal.Gen

/-- The kernel body's stored value is the leaky rectifier (strict comparison, slope on the right) of the shared
    linear part of its loaded blocks. -/
theorem pay0_eq (x0 : Vec Ideal S5000x3 .f32) (w0 : Vec Ideal S1x3x128 .f32) (x1 : Vec Ideal S5000x3 .f32) (w1 : Vec Ideal S1x3x128 .f32)
    (x2 : Vec Ideal S5000x3 .f32) (w2 : Vec Ideal S1x3x128 .f32) (x3 : Vec Ideal S5000x3 .f32) (w3 : Vec Ideal S1x3x128 .f32)
    (x5 : Vec Ideal S1x128 .f32) :
    k0_pay1 (F := Ideal) (k0_pay2 x0 w0 x1 w1 x2 w2 x3 w3) x5
      = select (cmpf .ogt (kpre3 x0 w0 x1 w1 x2 w2 x3 w3 x5) (broadcast S5000x128 (Scalar.ofBits (F := Ideal) .f32 0x00000000#32)))
          (kpre3 x0 w0 x1 w1 x2 w2 x3 w3 x5)
          (mulf (kpre3 x0 w0 x1 w1 x2 w2 x3 w3 x5) (broadcast S5000x128 (Scalar.ofBits (F := Ideal) .f32 0x3C23D70A#32))) := rfl

/-- One element of a block the body leaves is the reference layer's element at the row the block's row sits at, when the
    block's terms are the arrays' rows, the loaded weight the weight and the bias row the bias. -/
theorem out0_6_apply (x0 x1 x2 x3 : Vec Ideal S5000x3 .f32) (x4 : Vec Ideal S4x3x128 .f32) (x5 : Vec Ideal S1x128 .f32)
    (T0 T1 T2 T3 : FVec Ideal Cert.ReferenceIdeal.S50000x3 .f32) (W : FVec Ideal Cert.ReferenceIdeal.S4x3x128 .f32) (b : FVec Ideal Cert.ReferenceIdeal.S128 .f32)
    (r : Fin 5000) (i : Fin 50000) (j : Fin 128)
    (h0 : ∀ k, x0 (ix2 r k) = T0 (ix2 i k)) (h1 : ∀ k, x1 (ix2 r k) = T1 (ix2 i k))
    (h2 : ∀ k, x2 (ix2 r k) = T2 (ix2 i k)) (h3 : ∀ k, x3 (ix2 r k) = T3 (ix2 i k))
    (g : ∀ (q : Fin 4) (k : Fin 3), x4 (ix3 q k j) = W (ix3 q k j)) (hb : x5 (ix2 (0 : Fin 1) j) = b (ix1 j)) :
    out0_6 x0 x1 x2 x3 x4 x5 (ix2 r j) = layer0 T0 T1 T2 T3 W b (ix2 i j) := by
  unfold out0_6
  rw [View.canon_unit_zero zeros2]
  simp only [View.ld_unit_zero (S := S5000x3) zeros2, View.ld_unit_zero (S := S1x128) zeros2]
  rw [pay0_eq, layer0_eq]
  show Scalar.select (FloatOps.cmpf (F := Ideal) (φ := .f32) .ogt (kpre3 x0 (View.ld x4 r0_1) x1 (View.ld x4 r0_2) x2 (View.ld x4 r0_3) x3 (View.ld x4 r0_4) x5 (ix2 r j)) (Ideal.ofBits .f32 0x00000000#32))
      (kpre3 x0 (View.ld x4 r0_1) x1 (View.ld x4 r0_2) x2 (View.ld x4 r0_3) x3 (View.ld x4 r0_4) x5 (ix2 r j))
      ((kpre3 x0 (View.ld x4 r0_1) x1 (View.ld x4 r0_2) x2 (View.ld x4 r0_3) x3 (View.ld x4 r0_4) x5 (ix2 r j)) * Ideal.ofBits .f32 0x3C23D70A#32)
    = Scalar.select (FloatOps.cmpf (F := Ideal) (φ := .f32) .oge (rpre3 T0 T1 T2 T3 W b (ix2 i j)) (Ideal.ofBits .f32 0x00000000#32))
      (rpre3 T0 T1 T2 T3 W b (ix2 i j))
      (Ideal.ofBits .f32 0x3C23D70A#32 * rpre3 T0 T1 T2 T3 W b (ix2 i j))
  rw [pre3_eq x0 (View.ld x4 r0_1) x1 (View.ld x4 r0_2) x2 (View.ld x4 r0_3) x3 (View.ld x4 r0_4) x5 T0 T1 T2 T3 W b r i j h0 h1 h2 h3
    (fun k => (ld_slab3 x4 0 ![0, 0, 0] rfl _ k j).trans (g 0 k)) (fun k => (ld_slab3 x4 1 ![1, 0, 0] rfl _ k j).trans (g 1 k))
    (fun k => (ld_slab3 x4 2 ![2, 0, 0] rfl _ k j).trans (g 2 k)) (fun k => (ld_slab3 x4 3 ![3, 0, 0] rfl _ k j).trans (g 3 k)) hb]
  exact leaky_eq _ _

end Kernel

section Blocks
open Cert.KernelIdeal Cert.KernelIdeal.Gen

variable (V : (c : Dev nD) → (b : Ref sig .tc) → Buf (Elt Ideal) ((c : Thread nD τ).loc b))

/-- The printed index maps over the grid: the four term windows and the output window sit at row block t, the weight's
    and the bias's windows at their one block. -/
theorem idx0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 3) = 0 ∧ win0_4.index t (1 : Fin 3) = 0 ∧ win0_4.index t (2 : Fin 3) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- Term window 0's block at point t is rows 5000·t … 5000·t + 4999 of its array. -/
theorem iblk0_0_apply (c : Dev nD) (t : Fin cfg0.N) (r : Fin 5000) (k : Fin 3) (i : Fin 50000) (hi : i.val = t.val * 5000 + r.val) :
    (iblk0 V c 0 t : Vec Ideal S5000x3 .f32) (ix2 r k) = (V c (Pipeline.arrRef spec0 0) : FVec Ideal S50000x3 .f32) (ix2 i k) := by
  have e0 : win0_0.index t (0 : Fin 2) = t.val := (idx0 t).1
  have e1 : win0_0.index t (1 : Fin 2) = 0 := (idx0 t).2.1
  unfold iblk0
  rw [View.read_apply]
  show V c (Pipeline.arrRef spec0 0) _ = V c (Pipeline.arrRef spec0 0) _
  refine congrArg (V c (Pipeline.arrRef spec0 0)) (funext fun a => Fin.ext ?_)
  match a with
  | ⟨0, _⟩ => show win0_0.index t (0 : Fin 2) * 5000 + 1 * r.val = i.val; omega
  | ⟨1, _⟩ => show win0_0.index t (1 : Fin 2) * 3 + 1 * k.val = k.val; omega

/-- Term window 1's block at point t is rows 5000·t … 5000·t + 4999 of its array. -/
theorem iblk0_1_apply (c : Dev nD) (t : Fin cfg0.N) (r : Fin 5000) (k : Fin 3) (i : Fin 50000) (hi : i.val = t.val * 5000 + r.val) :
    (iblk0 V c 1 t : Vec Ideal S5000x3 .f32) (ix2 r k) = (V c (Pipeline.arrRef spec0 1) : FVec Ideal S50000x3 .f32) (ix2 i k) := by
  have e0 : win0_1.index t (0 : Fin 2) = t.val := (idx0 t).2.2.1
  have e1 : win0_1.index t (1 : Fin 2) = 0 := (idx0 t).2.2.2.1
  unfold iblk0
  rw [View.read_apply]
  show V c (Pipeline.arrRef spec0 1) _ = V c (Pipeline.arrRef spec0 1) _
  refine congrArg (V c (Pipeline.arrRef spec0 1)) (funext fun a => Fin.ext ?_)
  match a with
  | ⟨0, _⟩ => show win0_1.index t (0 : Fin 2) * 5000 + 1 * r.val = i.val; omega
  | ⟨1, _⟩ => show win0_1.index t (1 : Fin 2) * 3 + 1 * k.val = k.val; omega

/-- Term window 2's block at point t is rows 5000·t … 5000·t + 4999 of its array. -/
theorem iblk0_2_apply (c : Dev nD) (t : Fin cfg0.N) (r : Fin 5000) (k : Fin 3) (i : Fin 50000) (hi : i.val = t.val * 5000 + r.val) :
    (iblk0 V c 2 t : Vec Ideal S5000x3 .f32) (ix2 r k) = (V c (Pipeline.arrRef spec0 2) : FVec Ideal S50000x3 .f32) (ix2 i k) := by
  have e0 : win0_2.index t (0 : Fin 2) = t.val := (idx0 t).2.2.2.2.1
  have e1 : win0_2.index t (1 : Fin 2) = 0 := (idx0 t).2.2.2.2.2.1
  unfold iblk0
  rw [View.read_apply]
  show V c (Pipeline.arrRef spec0 2) _ = V c (Pipeline.arrRef spec0 2) _
  refine congrArg (V c (Pipeline.arrRef spec0 2)) (funext fun a => Fin.ext ?_)
  match a with
  | ⟨0, _⟩ => show win0_2.index t (0 : Fin 2) * 5000 + 1 * r.val = i.val; omega
  | ⟨1, _⟩ => show win0_2.index t (1 : Fin 2) * 3 + 1 * k.val = k.val; omega

/-- Term window 3's block at point t is rows 5000·t … 5000·t + 4999 of its array. -/
theorem iblk0_3_apply (c : Dev nD) (t : Fin cfg0.N) (r : Fin 5000) (k : Fin 3) (i : Fin 50000) (hi : i.val = t.val * 5000 + r.val) :
    (iblk0 V c 3 t : Vec Ideal S5000x3 .f32) (ix2 r k) = (V c (Pipeline.arrRef spec0 3) : FVec Ideal S50000x3 .f32) (ix2 i k) := by
  have e0 : win0_3.index t (0 : Fin 2) = t.val := (idx0 t).2.2.2.2.2.2.1
  have e1 : win0_3.index t (1 : Fin 2) = 0 := (idx0 t).2.2.2.2.2.2.2.1
  unfold iblk0
  rw [View.read_apply]
  show V c (Pipeline.arrRef spec0 3) _ = V c (Pipeline.arrRef spec0 3) _
  refine congrArg (V c (Pipeline.arrRef spec0 3)) (funext fun a => Fin.ext ?_)
  match a with
  | ⟨0, _⟩ => show win0_3.index t (0 : Fin 2) * 5000 + 1 * r.val = i.val; omega
  | ⟨1, _⟩ => show win0_3.index t (1 : Fin 2) * 3 + 1 * k.val = k.val; omega

/-- The weight's window is the whole weight at every point. -/
theorem iblk0_4_apply (c : Dev nD) (t : Fin cfg0.N) (q : Fin 4) (k : Fin 3) (j : Fin 128) :
    (iblk0 V c 4 t : Vec Ideal S4x3x128 .f32) (ix3 q k j) = (V c (Pipeline.arrRef spec0 4) : FVec Ideal S4x3x128 .f32) (ix3 q k j) := by
  have e0 : win0_4.index t (0 : Fin 3) = 0 := (idx0 t).2.2.2.2.2.2.2.2.1
  have e1 : win0_4.index t (1 : Fin 3) = 0 := (idx0 t).2.2.2.2.2.2.2.2.2.1
  have e2 : win0_4.index t (2 : Fin 3) = 0 := (idx0 t).2.2.2.2.2.2.2.2.2.2.1
  unfold iblk0
  rw [View.read_apply]
  show V c (Pipeline.arrRef spec0 4) _ = V c (Pipeline.arrRef spec0 4) _
  refine congrArg (V c (Pipeline.arrRef spec0 4)) (funext fun a => Fin.ext ?_)
  match a with
  | ⟨0, _⟩ => show win0_4.index t (0 : Fin 3) * 4 + 1 * q.val = q.val; omega
  | ⟨1, _⟩ => show win0_4.index t (1 : Fin 3) * 3 + 1 * k.val = k.val; omega
  | ⟨2, _⟩ => show win0_4.index t (2 : Fin 3) * 128 + 1 * j.val = j.val; omega

/-- The bias row's window is the whole row at every point. -/
theorem iblk0_5_apply (c : Dev nD) (t : Fin cfg0.N) (j : Fin 128) :
    (iblk0 V c 5 t : Vec Ideal S1x128 .f32) (ix2 (0 : Fin 1) j) = (V c (Pipeline.arrRef spec0 5) : FVec Ideal S1x128 .f32) (ix2 (0 : Fin 1) j) := by
  have e0 : win0_5.index t (0 : Fin 2) = 0 := (idx0 t).2.2.2.2.2.2.2.2.2.2.2.1
  have e1 : win0_5.index t (1 : Fin 2) = 0 := (idx0 t).2.2.2.2.2.2.2.2.2.2.2.2.1
  unfold iblk0
  rw [View.read_apply]
  show V c (Pipeline.arrRef spec0 5) _ = V c (Pipeline.arrRef spec0 5) _
  refine congrArg (V c (Pipeline.arrRef spec0 5)) (funext fun a => Fin.ext ?_)
  match a with
  | ⟨0, _⟩ => show win0_5.index t (0 : Fin 2) * 1 + 1 * 0 = 0; omega
  | ⟨1, _⟩ => show win0_5.index t (1 : Fin 2) * 128 + 1 * j.val = j.val; omega

/-- WHAT POINT t WRITES BACK is block t of the reference layer of the arrays as the region finds them. -/
theorem flushed0_6 (c : Dev nD) (bias : FVec Ideal Cert.ReferenceIdeal.S128 .f32)
    (hb : V c (Pipeline.arrRef spec0 5) = shapeCast S1x128 bias Facts₀.shapeCasts_S128_S1x128) (t : Fin cfg0.N) :
    (dat0 V c).flushed 6 t = ((cfg0.win 6).blk t).view.read (Elt Ideal)
      (layer0 (V c (Pipeline.arrRef spec0 0)) (V c (Pipeline.arrRef spec0 1)) (V c (Pipeline.arrRef spec0 2)) (V c (Pipeline.arrRef spec0 3)) (V c (Pipeline.arrRef spec0 4)) bias) := by
  show (cfg0.win 6).cut (grid0.coords t) ((dat0 V c).after 6 t) = _
  rw [after0_6]
  have e0 : win0_6.index t (0 : Fin 2) = t.val := (idx0 t).2.2.2.2.2.2.2.2.2.2.2.2.2.1
  have e1 : win0_6.index t (1 : Fin 2) = 0 := (idx0 t).2.2.2.2.2.2.2.2.2.2.2.2.2.2
  have hN : cfg0.N = 10 := N_0
  have ht : t.val < 10 := by have := t.isLt; omega
  funext y
  have hy0 : (y 0).val < 5000 := (y 0).isLt
  have hy1 : (y 1).val < 128 := (y 1).isLt
  rw [View.read_apply]
  show out0_6 (iblk0 V c 0 t) (iblk0 V c 1 t) (iblk0 V c 2 t) (iblk0 V c 3 t) (iblk0 V c 4 t) (iblk0 V c 5 t) y
    = layer0 (V c (Pipeline.arrRef spec0 0)) (V c (Pipeline.arrRef spec0 1)) (V c (Pipeline.arrRef spec0 2)) (V c (Pipeline.arrRef spec0 3)) (V c (Pipeline.arrRef spec0 4)) bias
        (((cfg0.win 6).blk t).view.emb y)
  have ey : (y : S5000x128.Idx) = ix2 (⟨(y 0).val, hy0⟩ : Fin 5000) (⟨(y 1).val, hy1⟩ : Fin 128) :=
    funext fun a => by match a with | ⟨0, _⟩ => rfl | ⟨1, _⟩ => rfl
  have ee : (((cfg0.win 6).blk t).view.emb y : S50000x128.Idx)
      = ix2 (⟨t.val * 5000 + (y 0).val, by omega⟩ : Fin 50000) (⟨(y 1).val, hy1⟩ : Fin 128) :=
    funext fun a => Fin.ext (by
      match a with
      | ⟨0, _⟩ => show win0_6.index t (0 : Fin 2) * 5000 + 1 * (y 0).val = t.val * 5000 + (y 0).val; omega
      | ⟨1, _⟩ => show win0_6.index t (1 : Fin 2) * 128 + 1 * (y 1).val = (y 1).val; omega)
  rw [ee]
  refine (congrArg (out0_6 (iblk0 V c 0 t) (iblk0 V c 1 t) (iblk0 V c 2 t) (iblk0 V c 3 t) (iblk0 V c 4 t) (iblk0 V c 5 t)) ey).trans ?_
  exact out0_6_apply (iblk0 V c 0 t) (iblk0 V c 1 t) (iblk0 V c 2 t) (iblk0 V c 3 t) (iblk0 V c 4 t) (iblk0 V c 5 t)
    (V c (Pipeline.arrRef spec0 0)) (V c (Pipeline.arrRef spec0 1)) (V c (Pipeline.arrRef spec0 2)) (V c (Pipeline.arrRef spec0 3)) (V c (Pipeline.arrRef spec0 4)) bias
    ⟨(y 0).val, hy0⟩ ⟨t.val * 5000 + (y 0).val, by omega⟩ ⟨(y 1).val, hy1⟩
    (fun k => iblk0_0_apply V c t _ k _ rfl) (fun k => iblk0_1_apply V c t _ k _ rfl)
    (fun k => iblk0_2_apply V c t _ k _ rfl) (fun k => iblk0_3_apply V c t _ k _ rfl)
    (fun q k => iblk0_4_apply V c t q k _)
    ((iblk0_5_apply V c t _).trans ((congrFun hb _).trans (bias_row_apply bias _)))

/-- An index of the output array is in point t's block iff each coordinate is in the block's range on its axis. -/
theorem mem_blk0_6 (t : Fin cfg0.N) (i : S50000x128.Idx) :
    i ∈ ((cfg0.win 6).blk t).view.set ↔ ∀ a : Fin 2, win0_6.index t a * S5000x128.size a ≤ (i a).val ∧ (i a).val < win0_6.index t a * S5000x128.size a + S5000x128.size a := by
  show i ∈ ((View.whole main_v80).slice (win0_6.rect t)).set ↔ _
  rw [View.set_slice_whole, Rect.mem_set_unit]
  exact Iff.rfl

/-- Every row is covered: row r lies in the block of point r / 5000. -/
theorem covered0_6 (i : S50000x128.Idx) :
    ∃ t : Fin cfg0.N, (cfg0.win 6).flush t = true ∧ i ∈ ((cfg0.win 6).blk t).view.set := by
  have hi0 : (i 0).val < 50000 := (i 0).isLt
  have hi1 : (i 1).val < 128 := (i 1).isLt
  have hN : cfg0.N = 10 := N_0
  have hlt : (i 0).val / 5000 < cfg0.N := by rw [hN]; omega
  have e0 : win0_6.index ⟨(i 0).val / 5000, hlt⟩ (0 : Fin 2) = (i 0).val / 5000 := (idx0 ⟨(i 0).val / 5000, hlt⟩).2.2.2.2.2.2.2.2.2.2.2.2.2.1
  have e1 : win0_6.index ⟨(i 0).val / 5000, hlt⟩ (1 : Fin 2) = 0 := (idx0 ⟨(i 0).val / 5000, hlt⟩).2.2.2.2.2.2.2.2.2.2.2.2.2.2
  refine ⟨⟨(i 0).val / 5000, hlt⟩, flush0_6 _, ?_⟩
  rw [mem_blk0_6]
  intro a
  match a with
  | ⟨0, _⟩ =>
    show win0_6.index ⟨(i 0).val / 5000, hlt⟩ (0 : Fin 2) * 5000 ≤ (i 0).val ∧ (i 0).val < win0_6.index ⟨(i 0).val / 5000, hlt⟩ (0 : Fin 2) * 5000 + 5000
    rw [e0]; omega
  | ⟨1, _⟩ =>
    show win0_6.index ⟨(i 0).val / 5000, hlt⟩ (1 : Fin 2) * 128 ≤ (i 1).val ∧ (i 1).val < win0_6.index ⟨(i 0).val / 5000, hlt⟩ (1 : Fin 2) * 128 + 128
    rw [e1]; omega

/-- THE OUTPUT ARRAY after the region is the reference layer of the four term arrays, the weight and the bias as the
    region finds them. -/
theorem _root_.Cert.RefForm.region0_value (c : Dev nD) (bias : FVec Ideal Cert.ReferenceIdeal.S128 .f32)
    (hb : V c (Pipeline.arrRef spec0 5) = shapeCast S1x128 bias Facts₀.shapeCasts_S128_S1x128) :
    (dat0 V c).arrAt 6 cfg0.N
      = layer0 (V c (Pipeline.arrRef spec0 0)) (V c (Pipeline.arrRef spec0 1)) (V c (Pipeline.arrRef spec0 2)) (V c (Pipeline.arrRef spec0 3)) (V c (Pipeline.arrRef spec0 4)) bias :=
  (dat0 V c).arrAt_eq_of_cover 6 _ (fun t _ => flushed0_6 V c bias hb t) (covered0_6)

end Blocks

end Lin

end Cert.RefForm

end
-- ==== Proof.Step1a.lean ====
/-
  The edge weights and the first Chebyshev projection. From launch memories that agree on the arguments, the kernel
  program computes the edge weights (degrees by a scatter-add of ones, their inverse square roots where positive,
  gathered at both ends of every edge and multiplied, negated) and the first layer's four Chebyshev terms by host
  operations, and applies the four stacked matrix products, the bias and the leaky rectifier in its first region,
  block of rows by block of rows; the reference applies the same host operations interleaved with whole-array matrix
  products. After it the two programs agree on the activated layer output, the edge weights, the two index rows and
  the arguments still to be read.
-/
import proofs.«175070_j35072702939553_2_alg».proof.Proof.BridgeBase
import proofs.«175070_j35072702939553_2_alg».proof.Proof.RegionLin0

set_option maxRecDepth 16384

noncomputable section

namespace Cert.Bridge

open Idealize.ShloMosaic Idealize.ShloMosaic.TcCoe Idealize.ShloMosaic.StableHlo
open Idealize.SL Idealize.SL.Sem

set_option maxHeartbeats 4000000 in
theorem step1a (m : KMem) (ρ : Dev Cert.KernelIdeal.nD → PrngReg) (m' : RMem) (c : Dev Cert.KernelIdeal.nD) (h0 : I0 m m' c) : I4 m ρ m' c := by
  obtain ⟨e0, e1, e2, e3, e4, e5, e6, e7, e8, e9, e10, e11, e12, e13, e14, e15⟩ := h0
  refine ⟨?_, ?_, ?_, ?_, ?_, ?_, ?_, ?_, ?_, ?_, ?_, ?_, ?_, ?_, ?_, ?_⟩
  · -- the layer's output: the region's value, its inputs read through the host stretch, the leaves identified
    refine (Cert.KernelIdeal.Gen.W4_arr m ρ c 6).trans ?_
    refine (Cert.RefForm.region0_value (Cert.KernelIdeal.Gen.V3 (F := Ideal) m ρ) c (Cert.KernelIdeal.Gen.W0 m ρ c (Proc.devRef .tc Cert.KernelIdeal.main_arg3)) ?_).trans ?_
    · show Cert.KernelIdeal.Gen.W3 m ρ c (Proc.devRef .tc Cert.KernelIdeal.main_v79) = _
      after_results_simp <;> rfl
    · show Cert.RefForm.layer0 (Cert.KernelIdeal.Gen.W3 m ρ c (Proc.devRef .tc Cert.KernelIdeal.main_arg0)) (Cert.KernelIdeal.Gen.W3 m ρ c (Proc.devRef .tc Cert.KernelIdeal.main_v46)) (Cert.KernelIdeal.Gen.W3 m ρ c (Proc.devRef .tc Cert.KernelIdeal.main_v62)) (Cert.KernelIdeal.Gen.W3 m ρ c (Proc.devRef .tc Cert.KernelIdeal.main_v78)) (Cert.KernelIdeal.Gen.W3 m ρ c (Proc.devRef .tc Cert.KernelIdeal.main_arg2)) _ = _
      unfold RW2 RW1 Cert.RefForm.layer0
      after_results_simp
      simp only [StableHlo.launchContents]
      rw [e0, e1, e2, e3]
      rfl
  · -- w
    refine (Cert.KernelIdeal.Gen.W4_of_ne m ρ c Cert.KernelIdeal.main_v33 (by decide)).trans ?_
    unfold RW2 RW1
    after_results_simp
    simp only [StableHlo.launchContents]
    first | exact e1.symm | (rw [e1]; rfl)
  · -- src
    refine (Cert.KernelIdeal.Gen.W4_of_ne m ρ c Cert.KernelIdeal.main_v1 (by decide)).trans ?_
    unfold RW2 RW1
    after_results_simp
    simp only [StableHlo.launchContents]
    first | exact e1.symm | (rw [e1]; rfl)
  · -- dst
    refine (Cert.KernelIdeal.Gen.W4_of_ne m ρ c Cert.KernelIdeal.main_v3 (by decide)).trans ?_
    unfold RW2 RW1
    after_results_simp
    simp only [StableHlo.launchContents]
    first | exact e1.symm | (rw [e1]; rfl)
  · -- a4
    refine (Cert.KernelIdeal.Gen.W4_of_ne m ρ c Cert.KernelIdeal.main_arg4 (by decide)).trans ?_
    unfold RW2 RW1
    after_results_simp
    simp only [StableHlo.launchContents]
    first | exact e4.symm | (rw [e4]; rfl)
  · -- a5
    refine (Cert.KernelIdeal.Gen.W4_of_ne m ρ c Cert.KernelIdeal.main_arg5 (by decide)).trans ?_
    unfold RW2 RW1
    after_results_simp
    simp only [StableHlo.launchContents]
    first | exact e5.symm | (rw [e5]; rfl)
  · -- a6
    refine (Cert.KernelIdeal.Gen.W4_of_ne m ρ c Cert.KernelIdeal.main_arg6 (by decide)).trans ?_
    unfold RW2 RW1
    after_results_simp
    simp only [StableHlo.launchContents]
    first | exact e6.symm | (rw [e6]; rfl)
  · -- a7
    refine (Cert.KernelIdeal.Gen.W4_of_ne m ρ c Cert.KernelIdeal.main_arg7 (by decide)).trans ?_
    unfold RW2 RW1
    after_results_simp
    simp only [StableHlo.launchContents]
    first | exact e7.symm | (rw [e7]; rfl)
  · -- a8
    refine (Cert.KernelIdeal.Gen.W4_of_ne m ρ c Cert.KernelIdeal.main_arg8 (by decide)).trans ?_
    unfold RW2 RW1
    after_results_simp
    simp only [StableHlo.launchContents]
    first | exact e8.symm | (rw [e8]; rfl)
  · -- a9
    refine (Cert.KernelIdeal.Gen.W4_of_ne m ρ c Cert.KernelIdeal.main_arg9 (by decide)).trans ?_
    unfold RW2 RW1
    after_results_simp
    simp only [StableHlo.launchContents]
    first | exact e9.symm | (rw [e9]; rfl)
  · -- a10
    refine (Cert.KernelIdeal.Gen.W4_of_ne m ρ c Cert.KernelIdeal.main_arg10 (by decide)).trans ?_
    unfold RW2 RW1
    after_results_simp
    simp only [StableHlo.launchContents]
    first | exact e10.symm | (rw [e10]; rfl)
  · -- a11
    refine (Cert.KernelIdeal.Gen.W4_of_ne m ρ c Cert.KernelIdeal.main_arg11 (by decide)).trans ?_
    unfold RW2 RW1
    after_results_simp
    simp only [StableHlo.launchContents]
    first | exact e11.symm | (rw [e11]; rfl)
  · -- a12
    refine (Cert.KernelIdeal.Gen.W4_of_ne m ρ c Cert.KernelIdeal.main_arg12 (by decide)).trans ?_
    unfold RW2 RW1
    after_results_simp
    simp only [StableHlo.launchContents]
    first | exact e12.symm | (rw [e12]; rfl)
  · -- a13
    refine (Cert.KernelIdeal.Gen.W4_of_ne m ρ c Cert.KernelIdeal.main_arg13 (by decide)).trans ?_
    unfold RW2 RW1
    after_results_simp
    simp only [StableHlo.launchContents]
    first | exact e13.symm | (rw [e13]; rfl)
  · -- a14
    refine (Cert.KernelIdeal.Gen.W4_of_ne m ρ c Cert.KernelIdeal.main_arg14 (by decide)).trans ?_
    unfold RW2 RW1
    after_results_simp
    simp only [StableHlo.launchContents]
    first | exact e14.symm | (rw [e14]; rfl)
  · -- a15
    refine (Cert.KernelIdeal.Gen.W4_of_ne m ρ c Cert.KernelIdeal.main_arg15 (by decide)).trans ?_
    unfold RW2 RW1
    after_results_simp
    simp only [StableHlo.launchContents]
    first | exact e15.symm | (rw [e15]; rfl)

end Cert.Bridge

end
-- ==== Proof.BnForm.lean ====
/- Batch normalisation with given statistics, as one function of whole arrays.

   For an activation array h of 50000 rows and 128 columns and four column vectors (mean, variance,
   scale gamma, shift beta), the normalised array has at row r and column q the extended real

       ((h[r,q] - mean[q]) * rsqrt(var[q] + eps)) * gamma[q] + beta[q],

   eps the single-precision word 0x3727C5AC. `bn1` is that array written with the host operations of the
   reference program (each column vector is first made a one-row matrix and then repeated down the rows);
   `bn1_apply` reads it at an index. The kernel bodies compute the same entry of a block of 5000 rows from
   one-row matrices holding the four vectors: `pay1_apply` reads a body's stored value at an index, and
   `block_entry` joins the two. Only the order of the operations matters: the same subtraction, products
   and sum are applied in the same order on both sides, so no law of the extended reals is used. -/
import proofs.«175070_j35072702939553_2_alg».proof.Proof.Gen.KernelIdeal.Skeleton
import proofs.«175070_j35072702939553_2_alg».proof.Proof.Gen.ReferenceIdeal
import Idealize.ShloMosaic.Lib.Pipeline.Value
import Idealize.ShloMosaic.Lib.ValueIdx

noncomputable section

open Idealize.ShloMosaic Idealize.ShloMosaic.ValueIdx

namespace Cert.RefForm

/-- The normalised array in the reference's operations: subtract the mean's row, multiply by the row of
    reciprocal square roots of the variance plus eps, multiply by gamma's row, add beta's row. -/
def bn1 (h : FVec Ideal Cert.ReferenceIdeal.S50000x128 .f32) (mean var gamma beta : FVec Ideal Cert.ReferenceIdeal.S128 .f32) :
    FVec Ideal Cert.ReferenceIdeal.S50000x128 .f32 :=
  addf
    (mulf
      (mulf
        (subf h
          (broadcastInDim Cert.ReferenceIdeal.S50000x128 ![0, 1] Cert.ReferenceIdeal.Gen.bcast_S1x128_S50000x128_0_1
            (broadcastInDim Cert.ReferenceIdeal.S1x128 ![1] Cert.ReferenceIdeal.Gen.bcast_S128_S1x128_1 mean)))
        (broadcastInDim Cert.ReferenceIdeal.S50000x128 ![0, 1] Cert.ReferenceIdeal.Gen.bcast_S1x128_S50000x128_0_1
          (broadcastInDim Cert.ReferenceIdeal.S1x128 ![1] Cert.ReferenceIdeal.Gen.bcast_S128_S1x128_1
            (Host.rsqrt
              (addf var
                (broadcastInDim Cert.ReferenceIdeal.S128 ![] Cert.ReferenceIdeal.Gen.bcast_S_S128
                  (constant (F := Ideal) Cert.ReferenceIdeal.S_ .f32 0x3727C5AC#32)))))))
      (broadcastInDim Cert.ReferenceIdeal.S50000x128 ![0, 1] Cert.ReferenceIdeal.Gen.bcast_S1x128_S50000x128_0_1
        (broadcastInDim Cert.ReferenceIdeal.S1x128 ![1] Cert.ReferenceIdeal.Gen.bcast_S128_S1x128_1 gamma)))
    (broadcastInDim Cert.ReferenceIdeal.S50000x128 ![0, 1] Cert.ReferenceIdeal.Gen.bcast_S1x128_S50000x128_0_1
      (broadcastInDim Cert.ReferenceIdeal.S1x128 ![1] Cert.ReferenceIdeal.Gen.bcast_S128_S1x128_1 beta))

/-- A column vector made a one-row matrix and repeated down 50000 rows reads, at row r and column q, the
    vector's entry q. -/
theorem rows_of_vector_apply (x : FVec Ideal Cert.ReferenceIdeal.S128 .f32) (r : Fin 50000) (q : Fin 128) :
    broadcastInDim Cert.ReferenceIdeal.S50000x128 ![0, 1] Cert.ReferenceIdeal.Gen.bcast_S1x128_S50000x128_0_1
        (broadcastInDim Cert.ReferenceIdeal.S1x128 ![1] Cert.ReferenceIdeal.Gen.bcast_S128_S1x128_1 x) (ix2 r q)
      = x (ix1 q) := by
  refine (broadcastInDim_apply _ _ _ (ix2 r q) (ix2 (0 : Fin 1) q) ?_).trans ?_
  · intro a
    match a with
    | ⟨0, _⟩ => rfl
    | ⟨1, _⟩ => rfl
  · exact broadcastInDim_apply _ _ _ (ix2 (0 : Fin 1) q) (ix1 q) (fun a => match a with | ⟨0, _⟩ => rfl)

/-- The normalised array at row r, column q. -/
theorem bn1_apply (h : FVec Ideal Cert.ReferenceIdeal.S50000x128 .f32) (mean var gamma beta : FVec Ideal Cert.ReferenceIdeal.S128 .f32)
    (r : Fin 50000) (q : Fin 128) :
    bn1 h mean var gamma beta (ix2 r q)
      = (h (ix2 r q) - mean (ix1 q)) * Ideal.rsqrt (var (ix1 q) + Ideal.ofBits .f32 0x3727C5AC#32) * gamma (ix1 q) + beta (ix1 q) := by
  unfold bn1
  rw [addf_apply, mulf_apply, mulf_apply, subf_apply, rows_of_vector_apply, rows_of_vector_apply, rows_of_vector_apply,
    rows_of_vector_apply]
  rfl

open Cert.KernelIdeal Cert.KernelIdeal.Gen

/-- A one-row matrix repeated down the 5000 rows of a block reads, at row p and column q, its entry q. -/
theorem rows_of_row_apply (x : FVec Ideal S1x128 .f32) (p : Fin 5000) (q : Fin 128) :
    broadcastTo S5000x128 x broadcasts_S1x128_S5000x128 (ix2 p q) = x (ix2 (0 : Fin 1) q) :=
  broadcastTo_apply x _ (ix2 p q) (ix2 (0 : Fin 1) q) (fun a => match a with | ⟨0, _⟩ => rfl | ⟨1, _⟩ => rfl)

/-- The first kernel body's stored value at row p, column q of its block, from the block of h (`v5`) and the one-row
    matrices of the variance (`v0`), the mean (`v7`), gamma (`v13`) and beta (`v17`). -/
theorem pay1_apply (v0 : Vec Ideal S1x128 .f32) (v5 : Vec Ideal S5000x128 .f32) (v7 v13 v17 : Vec Ideal S1x128 .f32)
    (p : Fin 5000) (q : Fin 128) :
    k1_pay1 (F := Ideal) v0 v5 v7 v13 v17 (ix2 p q)
      = (v5 (ix2 p q) - v7 (ix2 (0 : Fin 1) q)) * Ideal.rsqrt (v0 (ix2 (0 : Fin 1) q) + Ideal.ofBits .f32 0x3727C5AC#32)
          * v13 (ix2 (0 : Fin 1) q) + v17 (ix2 (0 : Fin 1) q) := by
  unfold k1_pay1
  simp only [shapeCast_self]
  rw [addf_apply, mulf_apply, mulf_apply, subf_apply, rows_of_row_apply, rows_of_row_apply, rows_of_row_apply, rows_of_row_apply]
  rfl

/-- The three normalisation bodies of the kernel program are the same term. -/
theorem k3_pay1_eq : @k3_pay1 Ideal _ = @k1_pay1 Ideal _ := rfl
theorem k5_pay1_eq : @k5_pay1 Ideal _ = @k1_pay1 Ideal _ := rfl

/-- AN ENTRY OF A BLOCK IS THE ENTRY OF THE NORMALISED ARRAY: if row p of the block of h is row r of the array (`h0`)
    and the four one-row matrices hold the four vectors (`h1` … `h4`), the body's stored value at (p, q) is the
    normalised array at (r, q). -/
theorem block_entry (H : FVec Ideal Cert.ReferenceIdeal.S50000x128 .f32) (mean var gamma beta : FVec Ideal Cert.ReferenceIdeal.S128 .f32)
    (b0 : Vec Ideal S5000x128 .f32) (b1 b2 b3 b4 : Vec Ideal S1x128 .f32) (p : Fin 5000) (q : Fin 128) (r : Fin 50000)
    (h0 : b0 (ix2 p q) = H (ix2 r q))
    (h1 : b1 (ix2 (0 : Fin 1) q) = mean (ix1 q)) (h2 : b2 (ix2 (0 : Fin 1) q) = var (ix1 q))
    (h3 : b3 (ix2 (0 : Fin 1) q) = gamma (ix1 q)) (h4 : b4 (ix2 (0 : Fin 1) q) = beta (ix1 q)) :
    k1_pay1 (F := Ideal) b2 b0 b1 b3 b4 (ix2 p q) = bn1 H mean var gamma beta (ix2 r q) := by
  rw [pay1_apply, bn1_apply, h0, h1, h2, h3, h4]

/-- A vector's one-row matrix (its elements in the same order under the shape [1, 128]) reads the vector's entry q
    at column q. -/
theorem row_of_vector_apply (x : FVec Ideal Cert.ReferenceIdeal.S128 .f32) (q : Fin 128) :
    shapeCast S1x128 x shapeCasts_S128_S1x128 (ix2 (0 : Fin 1) q) = x (ix1 q) := by
  refine shapeCast_apply x _ (ix2 (0 : Fin 1) q) (ix1 q) ?_
  rw [Shape.rowMajor_val_one, Shape.rowMajor_val_two]
  show q.val = 0 * 128 + q.val
  omega

/-- Two functions of a block's index agree when they agree at every row and column. -/
theorem block_ext {α : Type} (f g : S5000x128.Idx → α) (h : ∀ (p : Fin 5000) (q : Fin 128), f (ix2 p q) = g (ix2 p q)) : f = g :=
  funext fun j => by rw [eq_ix2 j]; exact h _ _

theorem zero_offsets : (![0, 0] : Fin 2 → Nat) = fun _ => 0 := funext fun a => by fin_cases a <;> rfl

end Cert.RefForm

end
-- ==== Proof.RegionBn1.lean ====
/- The value of the kernel program's first batch-normalisation region.

   The region walks the 50000 rows of the activation array in ten blocks of 5000 rows. At block t it holds rows
   5000·t … 5000·t + 4999 of the array and the four column vectors (mean, variance, gamma, beta) as one-row
   matrices, and writes, to the same rows of both result arrays, the normalised rows. Here: a row of a block is
   row 5000·t + p of the array (`emb_in`, `emb_out`, `emb_out16`), the one-row windows are read whole
   (`emb_row`), so what block t writes back is block t of the normalised array `bn1` (`written_eq`,
   `written16_eq`); row r lies in block r / 5000 (`covered`, `covered16`); hence each result array ends
   holding `bn1` of the region's inputs (`region1_value`, `region1_value_bf16`: the second result is the
   first rounded to another format, which changes no extended real). -/
import proofs.«175070_j35072702939553_2_alg».proof.Proof.Gen.KernelIdeal.Frame
import proofs.«175070_j35072702939553_2_alg».proof.Proof.BnForm
import Idealize.ShloMosaic.Lib.Pipeline.Value

noncomputable section

open Idealize.ShloMosaic Idealize.ShloMosaic.TcCoe Idealize.SL.Sem Idealize.ShloMosaic.ValueIdx
open Idealize.ShloMosaic.Pipeline (Dat)

namespace Cert.RefForm.Region1

open Cert.KernelIdeal Cert.KernelIdeal.Gen Cert.RefForm

/-- The printed index maps over the ten blocks: the activation window and the two result windows are at block t,
    the four one-row windows stay at block 0. -/
theorem idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0
    ∧ win1_6.index t (0 : Fin 2) = t.val ∧ win1_6.index t (1 : Fin 2) = 0 :=
  (by decide +kernel : ∀ t : Fin grid1.N, _)

theorem point_lt (t : Fin cfg1.N) : t.val < 10 := lt_of_lt_of_eq t.isLt N_1

/-- Row p of block t is row 5000·t + p of the array. -/
def rowOf (t : Fin cfg1.N) (p : Fin 5000) : Fin 50000 := ⟨t.val * 5000 + p.val, by have := point_lt t; have := p.isLt; omega⟩

section
variable (V : (c : Dev nD) → (b : Ref sig .tc) → Buf (Elt Ideal) ((c : Thread nD τ).loc b)) (c : Dev nD)

/-- The activation window's block at t sits at rows 5000·t … of its array. -/
theorem emb_in (t : Fin cfg1.N) (p : Fin 5000) (q : Fin 128) :
    ((cfg1.win 0).blk t).view.emb (ix2 p q) = ix2 (rowOf t p) q := by
  obtain ⟨e0, e1, -⟩ := idx_facts t
  funext a; apply Fin.ext
  match a with
  | ⟨0, _⟩ => show win1_0.index t (0 : Fin 2) * 5000 + 1 * p.val = t.val * 5000 + p.val; rw [e0]; omega
  | ⟨1, _⟩ => show win1_0.index t (1 : Fin 2) * 128 + 1 * q.val = q.val; rw [e1]; omega

/-- So does the first result window's … -/
theorem emb_out (t : Fin cfg1.N) (p : Fin 5000) (q : Fin 128) :
    ((cfg1.win 5).blk t).view.emb (ix2 p q) = ix2 (rowOf t p) q := by
  obtain ⟨-, -, -, -, -, -, -, -, -, -, e0, e1, -⟩ := idx_facts t
  funext a; apply Fin.ext
  match a with
  | ⟨0, _⟩ => show win1_5.index t (0 : Fin 2) * 5000 + 1 * p.val = t.val * 5000 + p.val; rw [e0]; omega
  | ⟨1, _⟩ => show win1_5.index t (1 : Fin 2) * 128 + 1 * q.val = q.val; rw [e1]; omega

/-- … and the second's. -/
theorem emb_out16 (t : Fin cfg1.N) (p : Fin 5000) (q : Fin 128) :
    ((cfg1.win 6).blk t).view.emb (ix2 p q) = ix2 (rowOf t p) q := by
  obtain ⟨-, -, -, -, -, -, -, -, -, -, -, -, e0, e1⟩ := idx_facts t
  funext a; apply Fin.ext
  match a with
  | ⟨0, _⟩ => show win1_6.index t (0 : Fin 2) * 5000 + 1 * p.val = t.val * 5000 + p.val; rw [e0]; omega
  | ⟨1, _⟩ => show win1_6.index t (1 : Fin 2) * 128 + 1 * q.val = q.val; rw [e1]; omega

/-- The four one-row windows read their whole array at every block. -/
theorem emb_row (t : Fin cfg1.N) (q : Fin 128) :
    ((cfg1.win 1).blk t).view.emb (ix2 (0 : Fin 1) q) = ix2 (0 : Fin 1) q
    ∧ ((cfg1.win 2).blk t).view.emb (ix2 (0 : Fin 1) q) = ix2 (0 : Fin 1) q
    ∧ ((cfg1.win 3).blk t).view.emb (ix2 (0 : Fin 1) q) = ix2 (0 : Fin 1) q
    ∧ ((cfg1.win 4).blk t).view.emb (ix2 (0 : Fin 1) q) = ix2 (0 : Fin 1) q := by
  obtain ⟨-, -, a0, a1, b0, b1, c0, c1, d0, d1, -⟩ := idx_facts t
  refine ⟨?_, ?_, ?_, ?_⟩ <;> (funext a; apply Fin.ext)
  · match a with
    | ⟨0, _⟩ => show win1_1.index t (0 : Fin 2) * 1 + 1 * 0 = 0; rw [a0]
    | ⟨1, _⟩ => show win1_1.index t (1 : Fin 2) * 128 + 1 * q.val = q.val; rw [a1]; omega
  · match a with
    | ⟨0, _⟩ => show win1_2.index t (0 : Fin 2) * 1 + 1 * 0 = 0; rw [b0]
    | ⟨1, _⟩ => show win1_2.index t (1 : Fin 2) * 128 + 1 * q.val = q.val; rw [b1]; omega
  · match a with
    | ⟨0, _⟩ => show win1_3.index t (0 : Fin 2) * 1 + 1 * 0 = 0; rw [c0]
    | ⟨1, _⟩ => show win1_3.index t (1 : Fin 2) * 128 + 1 * q.val = q.val; rw [c1]; omega
  · match a with
    | ⟨0, _⟩ => show win1_4.index t (0 : Fin 2) * 1 + 1 * 0 = 0; rw [d0]
    | ⟨1, _⟩ => show win1_4.index t (1 : Fin 2) * 128 + 1 * q.val = q.val; rw [d1]; omega

/-- A one-row window's array holding a vector's one-row matrix reads, through its block, the vector. -/
theorem row_read (A : S1x128.Idx → Ideal .f32) (x : FVec Ideal Cert.ReferenceIdeal.S128 .f32)
    (hA : A = shapeCast S1x128 x shapeCasts_S128_S1x128) (i : S1x128.Idx) (q : Fin 128) (hi : i = ix2 (0 : Fin 1) q) :
    A i = x (ix1 q) := by
  subst hA hi; exact row_of_vector_apply x q

variable (mean var gamma beta : FVec Ideal Cert.ReferenceIdeal.S128 .f32)
  (hm : V c (Pipeline.arrRef spec1 1) = shapeCast S1x128 mean shapeCasts_S128_S1x128)
  (hv : V c (Pipeline.arrRef spec1 2) = shapeCast S1x128 var shapeCasts_S128_S1x128)
  (hg : V c (Pipeline.arrRef spec1 3) = shapeCast S1x128 gamma shapeCasts_S128_S1x128)
  (hbeta : V c (Pipeline.arrRef spec1 4) = shapeCast S1x128 beta shapeCasts_S128_S1x128)

set_option maxHeartbeats 2000000 in
include hm hv hg hbeta in
/-- THE BODY AT A POINT OF A BLOCK: what the body stores at row p, column q of block t, from the region's input
    blocks, is the normalised array at row 5000·t + p, column q. -/
theorem body_entry (t : Fin cfg1.N) (p : Fin 5000) (q : Fin 128) :
    k1_pay1 (F := Ideal) (iblk1 V c 2 t) (iblk1 V c 0 t) (iblk1 V c 1 t) (iblk1 V c 3 t) (iblk1 V c 4 t) (ix2 p q)
      = bn1 (V c (Pipeline.arrRef spec1 0)) mean var gamma beta (ix2 (rowOf t p) q) := by
  obtain ⟨r1, r2, r3, r4⟩ := emb_row t q
  refine block_entry (V c (Pipeline.arrRef spec1 0)) mean var gamma beta (iblk1 V c 0 t) (iblk1 V c 1 t) (iblk1 V c 2 t)
    (iblk1 V c 3 t) (iblk1 V c 4 t) p q (rowOf t p) ?_ ?_ ?_ ?_ ?_
  · show V c (Pipeline.arrRef spec1 0) (((cfg1.win 0).blk t).view.emb (ix2 p q)) = _
    rw [emb_in]
  · show V c (Pipeline.arrRef spec1 1) (((cfg1.win 1).blk t).view.emb (ix2 (0 : Fin 1) q)) = _
    exact row_read _ mean hm _ q r1
  · show V c (Pipeline.arrRef spec1 2) (((cfg1.win 2).blk t).view.emb (ix2 (0 : Fin 1) q)) = _
    exact row_read _ var hv _ q r2
  · show V c (Pipeline.arrRef spec1 3) (((cfg1.win 3).blk t).view.emb (ix2 (0 : Fin 1) q)) = _
    exact row_read _ gamma hg _ q r3
  · show V c (Pipeline.arrRef spec1 4) (((cfg1.win 4).blk t).view.emb (ix2 (0 : Fin 1) q)) = _
    exact row_read _ beta hbeta _ q r4

set_option maxHeartbeats 2000000 in
include hm hv hg hbeta in
/-- WHAT BLOCK t WRITES BACK to the first result array is block t of the normalised array. -/
theorem written_eq (t : Fin cfg1.N) :
    (dat1 V c).flushed 5 t
      = ((cfg1.win 5).blk t).view.read (Elt Ideal) (bn1 (V c (Pipeline.arrRef spec1 0)) mean var gamma beta) := by
  show (cfg1.win 5).cut (grid1.coords t) ((dat1 V c).after 5 t) = _
  rw [after1_5]
  unfold out1_5
  rw [View.canon_unit_zero zero_offsets]
  simp only [View.ld_unit_zero (S := S5000x128) zero_offsets, View.ld_unit_zero (S := S1x128) zero_offsets]
  refine block_ext _ _ (fun p q => ?_)
  show k1_pay1 (F := Ideal) (iblk1 V c 2 t) (iblk1 V c 0 t) (iblk1 V c 1 t) (iblk1 V c 3 t) (iblk1 V c 4 t) (ix2 p q)
    = bn1 (V c (Pipeline.arrRef spec1 0)) mean var gamma beta (((cfg1.win 5).blk t).view.emb (ix2 p q))
  rw [emb_out]
  exact body_entry V c mean var gamma beta hm hv hg hbeta t p q

set_option maxHeartbeats 2000000 in
include hm hv hg hbeta in
/-- The same for the second result array: its stored value is the first's in another format. -/
theorem written16_eq (t : Fin cfg1.N) :
    (dat1 V c).flushed 6 t
      = ((cfg1.win 6).blk t).view.read (Elt Ideal) (bn1 (V c (Pipeline.arrRef spec1 0)) mean var gamma beta) := by
  show (cfg1.win 6).cut (grid1.coords t) ((dat1 V c).after 6 t) = _
  rw [after1_6]
  unfold out1_6
  rw [View.canon_unit_zero zero_offsets]
  simp only [View.ld_unit_zero (S := S5000x128) zero_offsets, View.ld_unit_zero (S := S1x128) zero_offsets]
  refine block_ext _ _ (fun p q => ?_)
  show k1_pay1 (F := Ideal) (iblk1 V c 2 t) (iblk1 V c 0 t) (iblk1 V c 1 t) (iblk1 V c 3 t) (iblk1 V c 4 t) (ix2 p q)
    = bn1 (V c (Pipeline.arrRef spec1 0)) mean var gamma beta (((cfg1.win 6).blk t).view.emb (ix2 p q))
  rw [emb_out16]
  exact body_entry V c mean var gamma beta hm hv hg hbeta t p q

end

/-- An index of the first result array is in block t iff its row is one of the block's 5000 rows. -/
theorem mem_blk (t : Fin cfg1.N) (i : S50000x128.Idx) :
    i ∈ ((cfg1.win 5).blk t).view.set ↔ ∀ a : Fin 2, win1_5.index t a * S5000x128.size a ≤ (i a).val ∧ (i a).val < win1_5.index t a * S5000x128.size a + S5000x128.size a := by
  show i ∈ ((View.whole main_v89_0).slice (win1_5.rect t)).set ↔ _
  rw [View.set_slice_whole, Rect.mem_set_unit]
  exact Iff.rfl

theorem mem_blk16 (t : Fin cfg1.N) (i : S50000x128.Idx) :
    i ∈ ((cfg1.win 6).blk t).view.set ↔ ∀ a : Fin 2, win1_6.index t a * S5000x128.size a ≤ (i a).val ∧ (i a).val < win1_6.index t a * S5000x128.size a + S5000x128.size a := by
  show i ∈ ((View.whole main_v89_1).slice (win1_6.rect t)).set ↔ _
  rw [View.set_slice_whole, Rect.mem_set_unit]
  exact Iff.rfl

/-- The block that holds row r is block r / 5000. -/
theorem point_of_row (i : S50000x128.Idx) : ∃ t : Fin cfg1.N, t.val = (i 0).val / 5000 :=
  ⟨⟨(i 0).val / 5000, by have h : (i 0).val < 50000 := (i 0).isLt; show (i 0).val / 5000 < grid1.N; rw [N_1]; omega⟩, rfl⟩

/-- Every index of the first result array is in some block that is written back. -/
theorem covered (i : S50000x128.Idx) : ∃ t : Fin cfg1.N, (cfg1.win 5).flush t = true ∧ i ∈ ((cfg1.win 5).blk t).view.set := by
  have h0 : (i 0).val < 50000 := (i 0).isLt
  have h1 : (i 1).val < 128 := (i 1).isLt
  obtain ⟨t, ht⟩ := point_of_row i
  obtain ⟨-, -, -, -, -, -, -, -, -, -, e0, e1, -⟩ := idx_facts t
  refine ⟨t, flush1_5 t, ?_⟩
  rw [mem_blk]
  intro a
  match a with
  | ⟨0, _⟩ => show win1_5.index t (0 : Fin 2) * 5000 ≤ (i 0).val ∧ (i 0).val < win1_5.index t (0 : Fin 2) * 5000 + 5000; rw [e0, ht]; omega
  | ⟨1, _⟩ => show win1_5.index t (1 : Fin 2) * 128 ≤ (i 1).val ∧ (i 1).val < win1_5.index t (1 : Fin 2) * 128 + 128; rw [e1]; omega

/-- And of the second. -/
theorem covered16 (i : S50000x128.Idx) : ∃ t : Fin cfg1.N, (cfg1.win 6).flush t = true ∧ i ∈ ((cfg1.win 6).blk t).view.set := by
  have h0 : (i 0).val < 50000 := (i 0).isLt
  have h1 : (i 1).val < 128 := (i 1).isLt
  obtain ⟨t, ht⟩ := point_of_row i
  obtain ⟨-, -, -, -, -, -, -, -, -, -, -, -, e0, e1⟩ := idx_facts t
  refine ⟨t, flush1_6 t, ?_⟩
  rw [mem_blk16]
  intro a
  match a with
  | ⟨0, _⟩ => show win1_6.index t (0 : Fin 2) * 5000 ≤ (i 0).val ∧ (i 0).val < win1_6.index t (0 : Fin 2) * 5000 + 5000; rw [e0, ht]; omega
  | ⟨1, _⟩ => show win1_6.index t (1 : Fin 2) * 128 ≤ (i 1).val ∧ (i 1).val < win1_6.index t (1 : Fin 2) * 128 + 128; rw [e1]; omega

end Cert.RefForm.Region1

namespace Cert.RefForm

open Cert.KernelIdeal Cert.KernelIdeal.Gen

set_option maxHeartbeats 2000000 in
/-- THE REGION'S FIRST RESULT: after the ten blocks the array holds the normalised array of the region's activation
    input and of the four vectors whose one-row matrices the region reads. -/
theorem region1_value (V : (c : Dev nD) → (b : Ref sig .tc) → Buf (Elt Ideal) ((c : Thread nD τ).loc b)) (c : Dev nD)
    (mean var gamma beta : FVec Ideal Cert.ReferenceIdeal.S128 .f32)
    (hm : V c (Pipeline.arrRef spec1 1) = shapeCast S1x128 mean shapeCasts_S128_S1x128)
    (hv : V c (Pipeline.arrRef spec1 2) = shapeCast S1x128 var shapeCasts_S128_S1x128)
    (hg : V c (Pipeline.arrRef spec1 3) = shapeCast S1x128 gamma shapeCasts_S128_S1x128)
    (hbeta : V c (Pipeline.arrRef spec1 4) = shapeCast S1x128 beta shapeCasts_S128_S1x128) :
    (dat1 V c).arrAt 5 cfg1.N = bn1 (V c (Pipeline.arrRef spec1 0)) mean var gamma beta :=
  (dat1 V c).arrAt_eq_of_cover 5 (bn1 (V c (Pipeline.arrRef spec1 0)) mean var gamma beta)
    (fun t _ => Region1.written_eq V c mean var gamma beta hm hv hg hbeta t) Region1.covered

set_option maxHeartbeats 2000000 in
/-- THE REGION'S SECOND RESULT holds the same extended reals. -/
theorem region1_value_bf16 (V : (c : Dev nD) → (b : Ref sig .tc) → Buf (Elt Ideal) ((c : Thread nD τ).loc b)) (c : Dev nD)
    (mean var gamma beta : FVec Ideal Cert.ReferenceIdeal.S128 .f32)
    (hm : V c (Pipeline.arrRef spec1 1) = shapeCast S1x128 mean shapeCasts_S128_S1x128)
    (hv : V c (Pipeline.arrRef spec1 2) = shapeCast S1x128 var shapeCasts_S128_S1x128)
    (hg : V c (Pipeline.arrRef spec1 3) = shapeCast S1x128 gamma shapeCasts_S128_S1x128)
    (hbeta : V c (Pipeline.arrRef spec1 4) = shapeCast S1x128 beta shapeCasts_S128_S1x128) :
    (dat1 V c).arrAt 6 cfg1.N = bn1 (V c (Pipeline.arrRef spec1 0)) mean var gamma beta :=
  (dat1 V c).arrAt_eq_of_cover 6 (bn1 (V c (Pipeline.arrRef spec1 0)) mean var gamma beta)
    (fun t _ => Region1.written16_eq V c mean var gamma beta hm hv hg hbeta t) Region1.covered16

end Cert.RefForm

end
-- ==== Proof.Step1b.lean ====
/-
  The first batch normalization. The kernel program computes the column means and variances of the activated layer
  output by host operations, makes them and the two affine parameter vectors one-row matrices, and applies the
  normalization in a region, block of rows by block of rows; the reference applies the same host operations and then
  the normalization as whole-array host operations. Given that the two programs agree before it (`I4`), they agree
  after it (`I8`): each of the region's two output arrays is the normalized array of the region's input arrays (the
  region's value), those input arrays are the same host expressions of buffers on which the programs agree, and every
  other buffer carried along is written by neither program in this stretch.
-/
import proofs.«175070_j35072702939553_2_alg».proof.Proof.BridgeBase
import proofs.«175070_j35072702939553_2_alg».proof.Proof.RegionBn1

set_option maxRecDepth 16384

noncomputable section

namespace Cert.Bridge

open Idealize.ShloMosaic Idealize.ShloMosaic.TcCoe Idealize.ShloMosaic.StableHlo
open Idealize.SL Idealize.SL.Sem

section
variable (m : KMem) (ρ : Dev Cert.KernelIdeal.nD → PrngReg) (m' : RMem) (c : Dev Cert.KernelIdeal.nD)

/-- The region's one-row matrix of the mean vector is that vector's elements in the same order. -/
theorem row1_mean : Cert.KernelIdeal.Gen.W7 (F := Ideal) m ρ c (Proc.devRef .tc Cert.KernelIdeal.main_v85)
    = shapeCast Cert.KernelIdeal.S1x128 (Cert.KernelIdeal.Gen.W6 (F := Ideal) m ρ c (Proc.devRef .tc Cert.KernelIdeal.main_v83)) Cert.KernelIdeal.Gen.shapeCasts_S128_S1x128 := by
  after_results_simp <;> rfl

/-- The region's one-row matrix of the variance vector is that vector's elements in the same order. -/
theorem row1_var : Cert.KernelIdeal.Gen.W7 (F := Ideal) m ρ c (Proc.devRef .tc Cert.KernelIdeal.main_v86)
    = shapeCast Cert.KernelIdeal.S1x128 (Cert.KernelIdeal.Gen.W6 (F := Ideal) m ρ c (Proc.devRef .tc Cert.KernelIdeal.main_v84)) Cert.KernelIdeal.Gen.shapeCasts_S128_S1x128 := by
  after_results_simp <;> rfl

/-- The region's one-row matrix of the scale vector is that vector's elements in the same order. -/
theorem row1_gamma : Cert.KernelIdeal.Gen.W7 (F := Ideal) m ρ c (Proc.devRef .tc Cert.KernelIdeal.main_v87)
    = shapeCast Cert.KernelIdeal.S1x128 (Cert.KernelIdeal.Gen.W6 (F := Ideal) m ρ c (Proc.devRef .tc Cert.KernelIdeal.main_arg10)) Cert.KernelIdeal.Gen.shapeCasts_S128_S1x128 := by
  after_results_simp <;> rfl

/-- The region's one-row matrix of the shift vector is that vector's elements in the same order. -/
theorem row1_beta : Cert.KernelIdeal.Gen.W7 (F := Ideal) m ρ c (Proc.devRef .tc Cert.KernelIdeal.main_v88)
    = shapeCast Cert.KernelIdeal.S1x128 (Cert.KernelIdeal.Gen.W6 (F := Ideal) m ρ c (Proc.devRef .tc Cert.KernelIdeal.main_arg11)) Cert.KernelIdeal.Gen.shapeCasts_S128_S1x128 := by
  after_results_simp <;> rfl

/-- The normalized array of the kernel program's activation array, mean, variance and affine parameters is what the
    reference holds at its normalization's result: both are the same host expression of buffers on which the two
    programs agree (the activation array and the two affine parameter vectors). -/
theorem bn1_ref
    (h_h : Cert.KernelIdeal.Gen.W4 (F := Ideal) m ρ c (Proc.devRef .tc Cert.KernelIdeal.main_v80) = RW2 m' c (Proc.devRef .tc Cert.ReferenceIdeal.main_v97))
    (h_g : Cert.KernelIdeal.Gen.W4 (F := Ideal) m ρ c (Proc.devRef .tc Cert.KernelIdeal.main_arg10) = RW2 m' c (Proc.devRef .tc Cert.ReferenceIdeal.main_arg10))
    (h_b : Cert.KernelIdeal.Gen.W4 (F := Ideal) m ρ c (Proc.devRef .tc Cert.KernelIdeal.main_arg11) = RW2 m' c (Proc.devRef .tc Cert.ReferenceIdeal.main_arg11)) :
    Cert.RefForm.bn1 (Cert.KernelIdeal.Gen.V7 (F := Ideal) m ρ c (Pipeline.arrRef Cert.KernelIdeal.spec1 0))
      (Cert.KernelIdeal.Gen.W6 (F := Ideal) m ρ c (Proc.devRef .tc Cert.KernelIdeal.main_v83)) (Cert.KernelIdeal.Gen.W6 (F := Ideal) m ρ c (Proc.devRef .tc Cert.KernelIdeal.main_v84))
      (Cert.KernelIdeal.Gen.W6 (F := Ideal) m ρ c (Proc.devRef .tc Cert.KernelIdeal.main_arg10)) (Cert.KernelIdeal.Gen.W6 (F := Ideal) m ρ c (Proc.devRef .tc Cert.KernelIdeal.main_arg11))
      = RW3 m' c (Proc.devRef .tc Cert.ReferenceIdeal.main_v116) := by
  show Cert.RefForm.bn1 (Cert.KernelIdeal.Gen.W7 (F := Ideal) m ρ c (Proc.devRef .tc Cert.KernelIdeal.main_v80)) _ _ _ _ = _
  unfold RW3 Cert.RefForm.bn1
  after_results_simp
  rw [h_h, h_g, h_b]

end

set_option maxHeartbeats 4000000 in
theorem step1b (m : KMem) (ρ : Dev Cert.KernelIdeal.nD → PrngReg) (m' : RMem) (c : Dev Cert.KernelIdeal.nD)
    (h : I4 m ρ m' c) : I8 m ρ m' c := by
  unfold I4 at h
  obtain ⟨h_h, h_w, h_src, h_dst, h_a4, h_a5, h_a6, h_a7, h_a8, h_a9, h_a10, h_a11, h_a12, h_a13, h_a14, h_a15⟩ := h
  unfold I8
  refine ⟨?_, ?_, ?_, ?_, ?_, ?_, ?_, ?_, ?_, ?_, ?_, ?_, ?_, ?_, ?_⟩
  · -- hn: the region's value, then the same host expression on both sides
    refine (Cert.KernelIdeal.Gen.W8_arr m ρ c 5).trans ?_
    exact (Cert.RefForm.region1_value (Cert.KernelIdeal.Gen.V7 (F := Ideal) m ρ) c
      (Cert.KernelIdeal.Gen.W6 (F := Ideal) m ρ c (Proc.devRef .tc Cert.KernelIdeal.main_v83)) (Cert.KernelIdeal.Gen.W6 (F := Ideal) m ρ c (Proc.devRef .tc Cert.KernelIdeal.main_v84))
      (Cert.KernelIdeal.Gen.W6 (F := Ideal) m ρ c (Proc.devRef .tc Cert.KernelIdeal.main_arg10)) (Cert.KernelIdeal.Gen.W6 (F := Ideal) m ρ c (Proc.devRef .tc Cert.KernelIdeal.main_arg11))
      (row1_mean m ρ c) (row1_var m ρ c) (row1_gamma m ρ c) (row1_beta m ρ c)).trans (bn1_ref m ρ m' c h_h h_a10 h_a11)
  · -- hn16: the region's value, then the same host expression on both sides
    refine (Cert.KernelIdeal.Gen.W8_arr m ρ c 6).trans ?_
    exact (Cert.RefForm.region1_value_bf16 (Cert.KernelIdeal.Gen.V7 (F := Ideal) m ρ) c
      (Cert.KernelIdeal.Gen.W6 (F := Ideal) m ρ c (Proc.devRef .tc Cert.KernelIdeal.main_v83)) (Cert.KernelIdeal.Gen.W6 (F := Ideal) m ρ c (Proc.devRef .tc Cert.KernelIdeal.main_v84))
      (Cert.KernelIdeal.Gen.W6 (F := Ideal) m ρ c (Proc.devRef .tc Cert.KernelIdeal.main_arg10)) (Cert.KernelIdeal.Gen.W6 (F := Ideal) m ρ c (Proc.devRef .tc Cert.KernelIdeal.main_arg11))
      (row1_mean m ρ c) (row1_var m ρ c) (row1_gamma m ρ c) (row1_beta m ρ c)).trans (bn1_ref m ρ m' c h_h h_a10 h_a11)
  · -- w: written by neither program in this stretch
    refine (Cert.KernelIdeal.Gen.W8_of_ne m ρ c Cert.KernelIdeal.main_v33 (by decide)).trans (Eq.trans ?_ (h_w.trans ?_))
    · after_results_simp
    · unfold RW3; after_results_simp
  · -- src: written by neither program in this stretch
    refine (Cert.KernelIdeal.Gen.W8_of_ne m ρ c Cert.KernelIdeal.main_v1 (by decide)).trans (Eq.trans ?_ (h_src.trans ?_))
    · after_results_simp
    · unfold RW3; after_results_simp
  · -- dst: written by neither program in this stretch
    refine (Cert.KernelIdeal.Gen.W8_of_ne m ρ c Cert.KernelIdeal.main_v3 (by decide)).trans (Eq.trans ?_ (h_dst.trans ?_))
    · after_results_simp
    · unfold RW3; after_results_simp
  · -- a4: written by neither program in this stretch
    refine (Cert.KernelIdeal.Gen.W8_of_ne m ρ c Cert.KernelIdeal.main_arg4 (by decide)).trans (Eq.trans ?_ (h_a4.trans ?_))
    · after_results_simp
    · exact (Cert.ReferenceIdeal.Hand.after_low (Cert.ReferenceIdeal.Hand.opsC1b (F := Ideal)) Cert.ReferenceIdeal.Hand.opsC1b_high (RW2 m' c) (r := Cert.ReferenceIdeal.main_arg4) (by decide)).symm
  · -- a5: written by neither program in this stretch
    refine (Cert.KernelIdeal.Gen.W8_of_ne m ρ c Cert.KernelIdeal.main_arg5 (by decide)).trans (Eq.trans ?_ (h_a5.trans ?_))
    · after_results_simp
    · exact (Cert.ReferenceIdeal.Hand.after_low (Cert.ReferenceIdeal.Hand.opsC1b (F := Ideal)) Cert.ReferenceIdeal.Hand.opsC1b_high (RW2 m' c) (r := Cert.ReferenceIdeal.main_arg5) (by decide)).symm
  · -- a6: written by neither program in this stretch
    refine (Cert.KernelIdeal.Gen.W8_of_ne m ρ c Cert.KernelIdeal.main_arg6 (by decide)).trans (Eq.trans ?_ (h_a6.trans ?_))
    · after_results_simp
    · exact (Cert.ReferenceIdeal.Hand.after_low (Cert.ReferenceIdeal.Hand.opsC1b (F := Ideal)) Cert.ReferenceIdeal.Hand.opsC1b_high (RW2 m' c) (r := Cert.ReferenceIdeal.main_arg6) (by decide)).symm
  · -- a7: written by neither program in this stretch
    refine (Cert.KernelIdeal.Gen.W8_of_ne m ρ c Cert.KernelIdeal.main_arg7 (by decide)).trans (Eq.trans ?_ (h_a7.trans ?_))
    · after_results_simp
    · exact (Cert.ReferenceIdeal.Hand.after_low (Cert.ReferenceIdeal.Hand.opsC1b (F := Ideal)) Cert.ReferenceIdeal.Hand.opsC1b_high (RW2 m' c) (r := Cert.ReferenceIdeal.main_arg7) (by decide)).symm
  · -- a8: written by neither program in this stretch
    refine (Cert.KernelIdeal.Gen.W8_of_ne m ρ c Cert.KernelIdeal.main_arg8 (by decide)).trans (Eq.trans ?_ (h_a8.trans ?_))
    · after_results_simp
    · exact (Cert.ReferenceIdeal.Hand.after_low (Cert.ReferenceIdeal.Hand.opsC1b (F := Ideal)) Cert.ReferenceIdeal.Hand.opsC1b_high (RW2 m' c) (r := Cert.ReferenceIdeal.main_arg8) (by decide)).symm
  · -- a9: written by neither program in this stretch
    refine (Cert.KernelIdeal.Gen.W8_of_ne m ρ c Cert.KernelIdeal.main_arg9 (by decide)).trans (Eq.trans ?_ (h_a9.trans ?_))
    · after_results_simp
    · exact (Cert.ReferenceIdeal.Hand.after_low (Cert.ReferenceIdeal.Hand.opsC1b (F := Ideal)) Cert.ReferenceIdeal.Hand.opsC1b_high (RW2 m' c) (r := Cert.ReferenceIdeal.main_arg9) (by decide)).symm
  · -- a12: written by neither program in this stretch
    refine (Cert.KernelIdeal.Gen.W8_of_ne m ρ c Cert.KernelIdeal.main_arg12 (by decide)).trans (Eq.trans ?_ (h_a12.trans ?_))
    · after_results_simp
    · exact (Cert.ReferenceIdeal.Hand.after_low (Cert.ReferenceIdeal.Hand.opsC1b (F := Ideal)) Cert.ReferenceIdeal.Hand.opsC1b_high (RW2 m' c) (r := Cert.ReferenceIdeal.main_arg12) (by decide)).symm
  · -- a13: written by neither program in this stretch
    refine (Cert.KernelIdeal.Gen.W8_of_ne m ρ c Cert.KernelIdeal.main_arg13 (by decide)).trans (Eq.trans ?_ (h_a13.trans ?_))
    · after_results_simp
    · exact (Cert.ReferenceIdeal.Hand.after_low (Cert.ReferenceIdeal.Hand.opsC1b (F := Ideal)) Cert.ReferenceIdeal.Hand.opsC1b_high (RW2 m' c) (r := Cert.ReferenceIdeal.main_arg13) (by decide)).symm
  · -- a14: written by neither program in this stretch
    refine (Cert.KernelIdeal.Gen.W8_of_ne m ρ c Cert.KernelIdeal.main_arg14 (by decide)).trans (Eq.trans ?_ (h_a14.trans ?_))
    · after_results_simp
    · exact (Cert.ReferenceIdeal.Hand.after_low (Cert.ReferenceIdeal.Hand.opsC1b (F := Ideal)) Cert.ReferenceIdeal.Hand.opsC1b_high (RW2 m' c) (r := Cert.ReferenceIdeal.main_arg14) (by decide)).symm
  · -- a15: written by neither program in this stretch
    refine (Cert.KernelIdeal.Gen.W8_of_ne m ρ c Cert.KernelIdeal.main_arg15 (by decide)).trans (Eq.trans ?_ (h_a15.trans ?_))
    · after_results_simp
    · exact (Cert.ReferenceIdeal.Hand.after_low (Cert.ReferenceIdeal.Hand.opsC1b (F := Ideal)) Cert.ReferenceIdeal.Hand.opsC1b_high (RW2 m' c) (r := Cert.ReferenceIdeal.main_arg15) (by decide)).symm

end Cert.Bridge

end
-- ==== Proof.RegionLin2.lean ====
/- The value of matmul region 2 of the kernel program: its output array after the region is the reference's own
   expression for its second layer, of the four term arrays, the weight and the bias as the region finds them.

   Each grid point t computes, for rows 5000·t … 5000·t + 4999, the four products of the term blocks with the weight's
   slabs, added in order onto a zero block, plus the bias row, then the leaky rectifier (the kernel compares strictly and multiplies by the slope on the right, the reference compares weakly and multiplies on the left: the same function on the extended reals). Element by element that is the reference's
   whole-array expression at the same row (RegionLinCore: both sides are the same four sums and bias).
   The ten row blocks tile the 50000 rows, so the array ends as that expression everywhere. -/
import proofs.«175070_j35072702939553_2_alg».proof.Proof.RegionLinCore

noncomputable section

open Idealize.ShloMosaic Idealize.ShloMosaic.ValueIdx Idealize.ShloMosaic.TcCoe Idealize.SL.Sem
open Idealize.ShloMosaic.Pipeline (Dat)
open scoped BigOperators

namespace Cert.RefForm

open Cert.ReferenceIdeal Cert.ReferenceIdeal.Facts₀ in
/-- The reference's second layer as one expression of its four terms, its weight and its bias: the four products with the
    weight's slabs added in order, the bias added on every row, then the leaky rectifier (compare with zero, multiply by
    the slope, select). -/
noncomputable def layer2 (T0 T1 T2 T3 : FVec Ideal S50000x128 .f32) (Wt : FVec Ideal S4x128x128 .f32)
    (b : FVec Ideal S128 .f32) : FVec Ideal S50000x128 .f32 :=
  select
    (cmpf .oge
      (addf (addf (addf (addf
        (Host.dotGeneral (F := Ideal) dot_S50000x128_S128x128_S50000x128_1_0_0_1_n_n none T0 (shapeCast S128x128 (extractStridedSlice S1x128x128 ![0, 0, 0] Wt slices_S4x128x128_S1x128x128_0_0_0) shapeCasts_S1x128x128_S128x128))
        (Host.dotGeneral (F := Ideal) dot_S50000x128_S128x128_S50000x128_1_0_0_1_n_n none T1 (shapeCast S128x128 (extractStridedSlice S1x128x128 ![1, 0, 0] Wt slices_S4x128x128_S1x128x128_1_0_0) shapeCasts_S1x128x128_S128x128)))
        (Host.dotGeneral (F := Ideal) dot_S50000x128_S128x128_S50000x128_1_0_0_1_n_n none T2 (shapeCast S128x128 (extractStridedSlice S1x128x128 ![2, 0, 0] Wt slices_S4x128x128_S1x128x128_2_0_0) shapeCasts_S1x128x128_S128x128)))
        (Host.dotGeneral (F := Ideal) dot_S50000x128_S128x128_S50000x128_1_0_0_1_n_n none T3 (shapeCast S128x128 (extractStridedSlice S1x128x128 ![3, 0, 0] Wt slices_S4x128x128_S1x128x128_3_0_0) shapeCasts_S1x128x128_S128x128)))
        (broadcastInDim S50000x128 ![0, 1] bcast_S1x128_S50000x128_0_1 (broadcastInDim S1x128 ![1] bcast_S128_S1x128_1 b)))
      (broadcastInDim S50000x128 ![] bcast_S_S50000x128 (constant (F := Ideal) S_ .f32 0x00000000#32)))
    (addf (addf (addf (addf
        (Host.dotGeneral (F := Ideal) dot_S50000x128_S128x128_S50000x128_1_0_0_1_n_n none T0 (shapeCast S128x128 (extractStridedSlice S1x128x128 ![0, 0, 0] Wt slices_S4x128x128_S1x128x128_0_0_0) shapeCasts_S1x128x128_S128x128))
        (Host.dotGeneral (F := Ideal) dot_S50000x128_S128x128_S50000x128_1_0_0_1_n_n none T1 (shapeCast S128x128 (extractStridedSlice S1x128x128 ![1, 0, 0] Wt slices_S4x128x128_S1x128x128_1_0_0) shapeCasts_S1x128x128_S128x128)))
        (Host.dotGeneral (F := Ideal) dot_S50000x128_S128x128_S50000x128_1_0_0_1_n_n none T2 (shapeCast S128x128 (extractStridedSlice S1x128x128 ![2, 0, 0] Wt slices_S4x128x128_S1x128x128_2_0_0) shapeCasts_S1x128x128_S128x128)))
        (Host.dotGeneral (F := Ideal) dot_S50000x128_S128x128_S50000x128_1_0_0_1_n_n none T3 (shapeCast S128x128 (extractStridedSlice S1x128x128 ![3, 0, 0] Wt slices_S4x128x128_S1x128x128_3_0_0) shapeCasts_S1x128x128_S128x128)))
        (broadcastInDim S50000x128 ![0, 1] bcast_S1x128_S50000x128_0_1 (broadcastInDim S1x128 ![1] bcast_S128_S1x128_1 b)))
    (mulf
      (broadcastInDim S50000x128 ![] bcast_S_S50000x128 (constant (F := Ideal) S_ .f32 0x3C23D70A#32))
      (addf (addf (addf (addf
        (Host.dotGeneral (F := Ideal) dot_S50000x128_S128x128_S50000x128_1_0_0_1_n_n none T0 (shapeCast S128x128 (extractStridedSlice S1x128x128 ![0, 0, 0] Wt slices_S4x128x128_S1x128x128_0_0_0) shapeCasts_S1x128x128_S128x128))
        (Host.dotGeneral (F := Ideal) dot_S50000x128_S128x128_S50000x128_1_0_0_1_n_n none T1 (shapeCast S128x128 (extractStridedSlice S1x128x128 ![1, 0, 0] Wt slices_S4x128x128_S1x128x128_1_0_0) shapeCasts_S1x128x128_S128x128)))
        (Host.dotGeneral (F := Ideal) dot_S50000x128_S128x128_S50000x128_1_0_0_1_n_n none T2 (shapeCast S128x128 (extractStridedSlice S1x128x128 ![2, 0, 0] Wt slices_S4x128x128_S1x128x128_2_0_0) shapeCasts_S1x128x128_S128x128)))
        (Host.dotGeneral (F := Ideal) dot_S50000x128_S128x128_S50000x128_1_0_0_1_n_n none T3 (shapeCast S128x128 (extractStridedSlice S1x128x128 ![3, 0, 0] Wt slices_S4x128x128_S1x128x128_3_0_0) shapeCasts_S1x128x128_S128x128)))
        (broadcastInDim S50000x128 ![0, 1] bcast_S1x128_S50000x128_0_1 (broadcastInDim S1x128 ![1] bcast_S128_S1x128_1 b))))

namespace Lin
/-- It is the leaky rectifier of the shared linear part. -/
theorem layer2_eq (T0 T1 T2 T3 : FVec Ideal Cert.ReferenceIdeal.S50000x128 .f32) (Wt : FVec Ideal Cert.ReferenceIdeal.S4x128x128 .f32) (b : FVec Ideal Cert.ReferenceIdeal.S128 .f32) :
    layer2 T0 T1 T2 T3 Wt b
      = select (cmpf .oge (rpre128 T0 T1 T2 T3 Wt b) (broadcastInDim Cert.ReferenceIdeal.S50000x128 ![] Cert.ReferenceIdeal.Facts₀.bcast_S_S50000x128 (constant (F := Ideal) Cert.ReferenceIdeal.S_ .f32 0x00000000#32)))
          (rpre128 T0 T1 T2 T3 Wt b)
          (mulf (broadcastInDim Cert.ReferenceIdeal.S50000x128 ![] Cert.ReferenceIdeal.Facts₀.bcast_S_S50000x128 (constant (F := Ideal) Cert.ReferenceIdeal.S_ .f32 0x3C23D70A#32)) (rpre128 T0 T1 T2 T3 Wt b)) := rfl

section Kernel
open Cert.KernelIdeal Cert.KernelIdeal.Gen

/-- The kernel body's stored value is the leaky rectifier (strict comparison, slope on the right) of the shared
    linear part of its loaded blocks. -/
theorem pay2_eq (x0 : Vec Ideal S5000x128 .f32) (w0 : Vec Ideal S1x128x128 .f32) (x1 : Vec Ideal S5000x128 .f32) (w1 : Vec Ideal S1x128x128 .f32)
    (x2 : Vec Ideal S5000x128 .f32) (w2 : Vec Ideal S1x128x128 .f32) (x3 : Vec Ideal S5000x128 .f32) (w3 : Vec Ideal S1x128x128 .f32)
    (x5 : Vec Ideal S1x128 .f32) :
    k2_pay1 (F := Ideal) (k2_pay2 x0 w0 x1 w1 x2 w2 x3 w3) x5
      = select (cmpf .ogt (kpre128 x0 w0 x1 w1 x2 w2 x3 w3 x5) (broadcast S5000x128 (Scalar.ofBits (F := Ideal) .f32 0x00000000#32)))
          (kpre128 x0 w0 x1 w1 x2 w2 x3 w3 x5)
          (mulf (kpre128 x0 w0 x1 w1 x2 w2 x3 w3 x5) (broadcast S5000x128 (Scalar.ofBits (F := Ideal) .f32 0x3C23D70A#32))) := rfl

/-- One element of a block the body leaves is the reference layer's element at the row the block's row sits at, when the
    block's terms are the arrays' rows, the loaded weight the weight and the bias row the bias. -/
theorem out2_6_apply (x0 x1 x2 x3 : Vec Ideal S5000x128 .f32) (x4 : Vec Ideal S4x128x128 .f32) (x5 : Vec Ideal S1x128 .f32)
    (T0 T1 T2 T3 : FVec Ideal Cert.ReferenceIdeal.S50000x128 .f32) (W : FVec Ideal Cert.ReferenceIdeal.S4x128x128 .f32) (b : FVec Ideal Cert.ReferenceIdeal.S128 .f32)
    (r : Fin 5000) (i : Fin 50000) (j : Fin 128)
    (h0 : ∀ k, x0 (ix2 r k) = T0 (ix2 i k)) (h1 : ∀ k, x1 (ix2 r k) = T1 (ix2 i k))
    (h2 : ∀ k, x2 (ix2 r k) = T2 (ix2 i k)) (h3 : ∀ k, x3 (ix2 r k) = T3 (ix2 i k))
    (g : ∀ (q : Fin 4) (k : Fin 128), x4 (ix3 q k j) = W (ix3 q k j)) (hb : x5 (ix2 (0 : Fin 1) j) = b (ix1 j)) :
    out2_6 x0 x1 x2 x3 x4 x5 (ix2 r j) = layer2 T0 T1 T2 T3 W b (ix2 i j) := by
  unfold out2_6
  rw [View.canon_unit_zero zeros2]
  simp only [View.ld_unit_zero (S := S5000x128) zeros2, View.ld_unit_zero (S := S1x128) zeros2]
  rw [pay2_eq, layer2_eq]
  show Scalar.select (FloatOps.cmpf (F := Ideal) (φ := .f32) .ogt (kpre128 x0 (View.ld x4 r2_1) x1 (View.ld x4 r2_2) x2 (View.ld x4 r2_3) x3 (View.ld x4 r2_4) x5 (ix2 r j)) (Ideal.ofBits .f32 0x00000000#32))
      (kpre128 x0 (View.ld x4 r2_1) x1 (View.ld x4 r2_2) x2 (View.ld x4 r2_3) x3 (View.ld x4 r2_4) x5 (ix2 r j))
      (kpre128 x0 (View.ld x4 r2_1) x1 (View.ld x4 r2_2) x2 (View.ld x4 r2_3) x3 (View.ld x4 r2_4) x5 (ix2 r j) * Ideal.ofBits .f32 0x3C23D70A#32)
    = Scalar.select (FloatOps.cmpf (F := Ideal) (φ := .f32) .oge (rpre128 T0 T1 T2 T3 W b (ix2 i j)) (Ideal.ofBits .f32 0x00000000#32))
      (rpre128 T0 T1 T2 T3 W b (ix2 i j))
      (Ideal.ofBits .f32 0x3C23D70A#32 * rpre128 T0 T1 T2 T3 W b (ix2 i j))
  rw [pre128_eq x0 (View.ld x4 r2_1) x1 (View.ld x4 r2_2) x2 (View.ld x4 r2_3) x3 (View.ld x4 r2_4) x5 T0 T1 T2 T3 W b r i j h0 h1 h2 h3
    (fun k => (ld_slab x4 0 ![0, 0, 0] rfl _ k j).trans (g 0 k)) (fun k => (ld_slab x4 1 ![1, 0, 0] rfl _ k j).trans (g 1 k))
    (fun k => (ld_slab x4 2 ![2, 0, 0] rfl _ k j).trans (g 2 k)) (fun k => (ld_slab x4 3 ![3, 0, 0] rfl _ k j).trans (g 3 k)) hb]
  exact leaky_eq _ _

end Kernel

section Blocks
open Cert.KernelIdeal Cert.KernelIdeal.Gen

variable (V : (c : Dev nD) → (b : Ref sig .tc) → Buf (Elt Ideal) ((c : Thread nD τ).loc b))

/-- The printed index maps over the grid: the four term windows and the output window sit at row block t, the weight's
    and the bias's windows at their one block. -/
theorem idx2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = t.val ∧ win2_3.index t (1 : Fin 2) = 0
    ∧ win2_4.index t (0 : Fin 3) = 0 ∧ win2_4.index t (1 : Fin 3) = 0 ∧ win2_4.index t (2 : Fin 3) = 0
    ∧ win2_5.index t (0 : Fin 2) = 0 ∧ win2_5.index t (1 : Fin 2) = 0
    ∧ win2_6.index t (0 : Fin 2) = t.val ∧ win2_6.index t (1 : Fin 2) = 0 :=
  (by decide +kernel : ∀ t : Fin grid2.N, _)

/-- Term window 0's block at point t is rows 5000·t … 5000·t + 4999 of its array. -/
theorem iblk2_0_apply (c : Dev nD) (t : Fin cfg2.N) (r : Fin 5000) (k : Fin 128) (i : Fin 50000) (hi : i.val = t.val * 5000 + r.val) :
    (iblk2 V c 0 t : Vec Ideal S5000x128 .f32) (ix2 r k) = (V c (Pipeline.arrRef spec2 0) : FVec Ideal S50000x128 .f32) (ix2 i k) := by
  have e0 : win2_0.index t (0 : Fin 2) = t.val := (idx2 t).1
  have e1 : win2_0.index t (1 : Fin 2) = 0 := (idx2 t).2.1
  unfold iblk2
  rw [View.read_apply]
  show V c (Pipeline.arrRef spec2 0) _ = V c (Pipeline.arrRef spec2 0) _
  refine congrArg (V c (Pipeline.arrRef spec2 0)) (funext fun a => Fin.ext ?_)
  match a with
  | ⟨0, _⟩ => show win2_0.index t (0 : Fin 2) * 5000 + 1 * r.val = i.val; omega
  | ⟨1, _⟩ => show win2_0.index t (1 : Fin 2) * 128 + 1 * k.val = k.val; omega

/-- Term window 1's block at point t is rows 5000·t … 5000·t + 4999 of its array. -/
theorem iblk2_1_apply (c : Dev nD) (t : Fin cfg2.N) (r : Fin 5000) (k : Fin 128) (i : Fin 50000) (hi : i.val = t.val * 5000 + r.val) :
    (iblk2 V c 1 t : Vec Ideal S5000x128 .f32) (ix2 r k) = (V c (Pipeline.arrRef spec2 1) : FVec Ideal S50000x128 .f32) (ix2 i k) := by
  have e0 : win2_1.index t (0 : Fin 2) = t.val := (idx2 t).2.2.1
  have e1 : win2_1.index t (1 : Fin 2) = 0 := (idx2 t).2.2.2.1
  unfold iblk2
  rw [View.read_apply]
  show V c (Pipeline.arrRef spec2 1) _ = V c (Pipeline.arrRef spec2 1) _
  refine congrArg (V c (Pipeline.arrRef spec2 1)) (funext fun a => Fin.ext ?_)
  match a with
  | ⟨0, _⟩ => show win2_1.index t (0 : Fin 2) * 5000 + 1 * r.val = i.val; omega
  | ⟨1, _⟩ => show win2_1.index t (1 : Fin 2) * 128 + 1 * k.val = k.val; omega

/-- Term window 2's block at point t is rows 5000·t … 5000·t + 4999 of its array. -/
theorem iblk2_2_apply (c : Dev nD) (t : Fin cfg2.N) (r : Fin 5000) (k : Fin 128) (i : Fin 50000) (hi : i.val = t.val * 5000 + r.val) :
    (iblk2 V c 2 t : Vec Ideal S5000x128 .f32) (ix2 r k) = (V c (Pipeline.arrRef spec2 2) : FVec Ideal S50000x128 .f32) (ix2 i k) := by
  have e0 : win2_2.index t (0 : Fin 2) = t.val := (idx2 t).2.2.2.2.1
  have e1 : win2_2.index t (1 : Fin 2) = 0 := (idx2 t).2.2.2.2.2.1
  unfold iblk2
  rw [View.read_apply]
  show V c (Pipeline.arrRef spec2 2) _ = V c (Pipeline.arrRef spec2 2) _
  refine congrArg (V c (Pipeline.arrRef spec2 2)) (funext fun a => Fin.ext ?_)
  match a with
  | ⟨0, _⟩ => show win2_2.index t (0 : Fin 2) * 5000 + 1 * r.val = i.val; omega
  | ⟨1, _⟩ => show win2_2.index t (1 : Fin 2) * 128 + 1 * k.val = k.val; omega

/-- Term window 3's block at point t is rows 5000·t … 5000·t + 4999 of its array. -/
theorem iblk2_3_apply (c : Dev nD) (t : Fin cfg2.N) (r : Fin 5000) (k : Fin 128) (i : Fin 50000) (hi : i.val = t.val * 5000 + r.val) :
    (iblk2 V c 3 t : Vec Ideal S5000x128 .f32) (ix2 r k) = (V c (Pipeline.arrRef spec2 3) : FVec Ideal S50000x128 .f32) (ix2 i k) := by
  have e0 : win2_3.index t (0 : Fin 2) = t.val := (idx2 t).2.2.2.2.2.2.1
  have e1 : win2_3.index t (1 : Fin 2) = 0 := (idx2 t).2.2.2.2.2.2.2.1
  unfold iblk2
  rw [View.read_apply]
  show V c (Pipeline.arrRef spec2 3) _ = V c (Pipeline.arrRef spec2 3) _
  refine congrArg (V c (Pipeline.arrRef spec2 3)) (funext fun a => Fin.ext ?_)
  match a with
  | ⟨0, _⟩ => show win2_3.index t (0 : Fin 2) * 5000 + 1 * r.val = i.val; omega
  | ⟨1, _⟩ => show win2_3.index t (1 : Fin 2) * 128 + 1 * k.val = k.val; omega

/-- The weight's window is the whole weight at every point. -/
theorem iblk2_4_apply (c : Dev nD) (t : Fin cfg2.N) (q : Fin 4) (k j : Fin 128) :
    (iblk2 V c 4 t : Vec Ideal S4x128x128 .f32) (ix3 q k j) = (V c (Pipeline.arrRef spec2 4) : FVec Ideal S4x128x128 .f32) (ix3 q k j) := by
  have e0 : win2_4.index t (0 : Fin 3) = 0 := (idx2 t).2.2.2.2.2.2.2.2.1
  have e1 : win2_4.index t (1 : Fin 3) = 0 := (idx2 t).2.2.2.2.2.2.2.2.2.1
  have e2 : win2_4.index t (2 : Fin 3) = 0 := (idx2 t).2.2.2.2.2.2.2.2.2.2.1
  unfold iblk2
  rw [View.read_apply]
  show V c (Pipeline.arrRef spec2 4) _ = V c (Pipeline.arrRef spec2 4) _
  refine congrArg (V c (Pipeline.arrRef spec2 4)) (funext fun a => Fin.ext ?_)
  match a with
  | ⟨0, _⟩ => show win2_4.index t (0 : Fin 3) * 4 + 1 * q.val = q.val; omega
  | ⟨1, _⟩ => show win2_4.index t (1 : Fin 3) * 128 + 1 * k.val = k.val; omega
  | ⟨2, _⟩ => show win2_4.index t (2 : Fin 3) * 128 + 1 * j.val = j.val; omega

/-- The bias row's window is the whole row at every point. -/
theorem iblk2_5_apply (c : Dev nD) (t : Fin cfg2.N) (j : Fin 128) :
    (iblk2 V c 5 t : Vec Ideal S1x128 .f32) (ix2 (0 : Fin 1) j) = (V c (Pipeline.arrRef spec2 5) : FVec Ideal S1x128 .f32) (ix2 (0 : Fin 1) j) := by
  have e0 : win2_5.index t (0 : Fin 2) = 0 := (idx2 t).2.2.2.2.2.2.2.2.2.2.2.1
  have e1 : win2_5.index t (1 : Fin 2) = 0 := (idx2 t).2.2.2.2.2.2.2.2.2.2.2.2.1
  unfold iblk2
  rw [View.read_apply]
  show V c (Pipeline.arrRef spec2 5) _ = V c (Pipeline.arrRef spec2 5) _
  refine congrArg (V c (Pipeline.arrRef spec2 5)) (funext fun a => Fin.ext ?_)
  match a with
  | ⟨0, _⟩ => show win2_5.index t (0 : Fin 2) * 1 + 1 * 0 = 0; omega
  | ⟨1, _⟩ => show win2_5.index t (1 : Fin 2) * 128 + 1 * j.val = j.val; omega

/-- WHAT POINT t WRITES BACK is block t of the reference layer of the arrays as the region finds them. -/
theorem flushed2_6 (c : Dev nD) (bias : FVec Ideal Cert.ReferenceIdeal.S128 .f32)
    (hb : V c (Pipeline.arrRef spec2 5) = shapeCast S1x128 bias Facts₀.shapeCasts_S128_S1x128) (t : Fin cfg2.N) :
    (dat2 V c).flushed 6 t = ((cfg2.win 6).blk t).view.read (Elt Ideal)
      (layer2 (V c (Pipeline.arrRef spec2 0)) (V c (Pipeline.arrRef spec2 1)) (V c (Pipeline.arrRef spec2 2)) (V c (Pipeline.arrRef spec2 3)) (V c (Pipeline.arrRef spec2 4)) bias) := by
  show (cfg2.win 6).cut (grid2.coords t) ((dat2 V c).after 6 t) = _
  rw [after2_6]
  have e0 : win2_6.index t (0 : Fin 2) = t.val := (idx2 t).2.2.2.2.2.2.2.2.2.2.2.2.2.1
  have e1 : win2_6.index t (1 : Fin 2) = 0 := (idx2 t).2.2.2.2.2.2.2.2.2.2.2.2.2.2
  have hN : cfg2.N = 10 := N_2
  have ht : t.val < 10 := by have := t.isLt; omega
  funext y
  have hy0 : (y 0).val < 5000 := (y 0).isLt
  have hy1 : (y 1).val < 128 := (y 1).isLt
  rw [View.read_apply]
  show out2_6 (iblk2 V c 0 t) (iblk2 V c 1 t) (iblk2 V c 2 t) (iblk2 V c 3 t) (iblk2 V c 4 t) (iblk2 V c 5 t) y
    = layer2 (V c (Pipeline.arrRef spec2 0)) (V c (Pipeline.arrRef spec2 1)) (V c (Pipeline.arrRef spec2 2)) (V c (Pipeline.arrRef spec2 3)) (V c (Pipeline.arrRef spec2 4)) bias
        (((cfg2.win 6).blk t).view.emb y)
  have ey : (y : S5000x128.Idx) = ix2 (⟨(y 0).val, hy0⟩ : Fin 5000) (⟨(y 1).val, hy1⟩ : Fin 128) :=
    funext fun a => by match a with | ⟨0, _⟩ => rfl | ⟨1, _⟩ => rfl
  have ee : (((cfg2.win 6).blk t).view.emb y : S50000x128.Idx)
      = ix2 (⟨t.val * 5000 + (y 0).val, by omega⟩ : Fin 50000) (⟨(y 1).val, hy1⟩ : Fin 128) :=
    funext fun a => Fin.ext (by
      match a with
      | ⟨0, _⟩ => show win2_6.index t (0 : Fin 2) * 5000 + 1 * (y 0).val = t.val * 5000 + (y 0).val; omega
      | ⟨1, _⟩ => show win2_6.index t (1 : Fin 2) * 128 + 1 * (y 1).val = (y 1).val; omega)
  rw [ee]
  refine (congrArg (out2_6 (iblk2 V c 0 t) (iblk2 V c 1 t) (iblk2 V c 2 t) (iblk2 V c 3 t) (iblk2 V c 4 t) (iblk2 V c 5 t)) ey).trans ?_
  exact out2_6_apply (iblk2 V c 0 t) (iblk2 V c 1 t) (iblk2 V c 2 t) (iblk2 V c 3 t) (iblk2 V c 4 t) (iblk2 V c 5 t)
    (V c (Pipeline.arrRef spec2 0)) (V c (Pipeline.arrRef spec2 1)) (V c (Pipeline.arrRef spec2 2)) (V c (Pipeline.arrRef spec2 3)) (V c (Pipeline.arrRef spec2 4)) bias
    ⟨(y 0).val, hy0⟩ ⟨t.val * 5000 + (y 0).val, by omega⟩ ⟨(y 1).val, hy1⟩
    (fun k => iblk2_0_apply V c t _ k _ rfl) (fun k => iblk2_1_apply V c t _ k _ rfl)
    (fun k => iblk2_2_apply V c t _ k _ rfl) (fun k => iblk2_3_apply V c t _ k _ rfl)
    (fun q k => iblk2_4_apply V c t q k _)
    ((iblk2_5_apply V c t _).trans ((congrFun hb _).trans (bias_row_apply bias _)))

/-- An index of the output array is in point t's block iff each coordinate is in the block's range on its axis. -/
theorem mem_blk2_6 (t : Fin cfg2.N) (i : S50000x128.Idx) :
    i ∈ ((cfg2.win 6).blk t).view.set ↔ ∀ a : Fin 2, win2_6.index t a * S5000x128.size a ≤ (i a).val ∧ (i a).val < win2_6.index t a * S5000x128.size a + S5000x128.size a := by
  show i ∈ ((View.whole main_v141).slice (win2_6.rect t)).set ↔ _
  rw [View.set_slice_whole, Rect.mem_set_unit]
  exact Iff.rfl

/-- Every row is covered: row r lies in the block of point r / 5000. -/
theorem covered2_6 (i : S50000x128.Idx) :
    ∃ t : Fin cfg2.N, (cfg2.win 6).flush t = true ∧ i ∈ ((cfg2.win 6).blk t).view.set := by
  have hi0 : (i 0).val < 50000 := (i 0).isLt
  have hi1 : (i 1).val < 128 := (i 1).isLt
  have hN : cfg2.N = 10 := N_2
  have hlt : (i 0).val / 5000 < cfg2.N := by rw [hN]; omega
  have e0 : win2_6.index ⟨(i 0).val / 5000, hlt⟩ (0 : Fin 2) = (i 0).val / 5000 := (idx2 ⟨(i 0).val / 5000, hlt⟩).2.2.2.2.2.2.2.2.2.2.2.2.2.1
  have e1 : win2_6.index ⟨(i 0).val / 5000, hlt⟩ (1 : Fin 2) = 0 := (idx2 ⟨(i 0).val / 5000, hlt⟩).2.2.2.2.2.2.2.2.2.2.2.2.2.2
  refine ⟨⟨(i 0).val / 5000, hlt⟩, flush2_6 _, ?_⟩
  rw [mem_blk2_6]
  intro a
  match a with
  | ⟨0, _⟩ =>
    show win2_6.index ⟨(i 0).val / 5000, hlt⟩ (0 : Fin 2) * 5000 ≤ (i 0).val ∧ (i 0).val < win2_6.index ⟨(i 0).val / 5000, hlt⟩ (0 : Fin 2) * 5000 + 5000
    rw [e0]; omega
  | ⟨1, _⟩ =>
    show win2_6.index ⟨(i 0).val / 5000, hlt⟩ (1 : Fin 2) * 128 ≤ (i 1).val ∧ (i 1).val < win2_6.index ⟨(i 0).val / 5000, hlt⟩ (1 : Fin 2) * 128 + 128
    rw [e1]; omega

/-- THE OUTPUT ARRAY after the region is the reference layer of the four term arrays, the weight and the bias as the
    region finds them. -/
theorem _root_.Cert.RefForm.region2_value (c : Dev nD) (bias : FVec Ideal Cert.ReferenceIdeal.S128 .f32)
    (hb : V c (Pipeline.arrRef spec2 5) = shapeCast S1x128 bias Facts₀.shapeCasts_S128_S1x128) :
    (dat2 V c).arrAt 6 cfg2.N
      = layer2 (V c (Pipeline.arrRef spec2 0)) (V c (Pipeline.arrRef spec2 1)) (V c (Pipeline.arrRef spec2 2)) (V c (Pipeline.arrRef spec2 3)) (V c (Pipeline.arrRef spec2 4)) bias :=
  (dat2 V c).arrAt_eq_of_cover 6 _ (fun t _ => flushed2_6 V c bias hb t) (covered2_6)

end Blocks

end Lin

end Cert.RefForm

end
-- ==== Proof.Step2a.lean ====
/-
  The second Chebyshev projection. The kernel program computes the layer's four Chebyshev terms by host
  operations (gathers along the edges' sources, products with the edge weights, scatter-adds at the edges' targets;
  in the wide layers through copies rounded to the narrower float format, the identity on the extended reals) and
  applies the four stacked matrix products, the bias and the leaky rectifier in one region, block of rows by block of rows;
  the reference interleaves the same host operations with whole-array matrix products. Given that the two programs
  agree before it, they agree after it: the region's output array is the reference's expression of the region's input
  arrays (the region's value), those input arrays are the same host expressions of buffers on which the programs
  agree, and every other buffer carried along is written by neither program in this stretch.
-/
import proofs.«175070_j35072702939553_2_alg».proof.Proof.BridgeBase
import proofs.«175070_j35072702939553_2_alg».proof.Proof.RegionLin2

set_option maxRecDepth 16384

noncomputable section

namespace Cert.Bridge

open Idealize.ShloMosaic Idealize.ShloMosaic.TcCoe Idealize.ShloMosaic.StableHlo
open Idealize.SL Idealize.SL.Sem

set_option maxHeartbeats 4000000 in
theorem step2a (m : KMem) (ρ : Dev Cert.KernelIdeal.nD → PrngReg) (m' : RMem) (c : Dev Cert.KernelIdeal.nD) (h : I8 m ρ m' c) : I10 m ρ m' c := by
  obtain ⟨h_hn, h_hn16, h_w, h_src, h_dst, h_a4, h_a5, h_a6, h_a7, h_a8, h_a9, h_a12, h_a13, h_a14, h_a15⟩ := h
  refine ⟨?_, ?_, ?_, ?_, ?_, ?_, ?_, ?_, ?_, ?_, ?_, ?_⟩
  · -- the layer's output: the region's value, its inputs read through the host stretch, the leaves identified
    refine (Cert.KernelIdeal.Gen.W10_arr m ρ c 6).trans ?_
    refine (Cert.RefForm.region2_value (Cert.KernelIdeal.Gen.V9 (F := Ideal) m ρ) c (Cert.KernelIdeal.Gen.W8 m ρ c (Proc.devRef .tc Cert.KernelIdeal.main_arg5)) ?_).trans ?_
    · show Cert.KernelIdeal.Gen.W9 m ρ c (Proc.devRef .tc Cert.KernelIdeal.main_v140) = _
      after_results_simp <;> rfl
    · show Cert.RefForm.layer2 (Cert.KernelIdeal.Gen.W9 m ρ c (Proc.devRef .tc Cert.KernelIdeal.main_v89_0)) (Cert.KernelIdeal.Gen.W9 m ρ c (Proc.devRef .tc Cert.KernelIdeal.main_v103)) (Cert.KernelIdeal.Gen.W9 m ρ c (Proc.devRef .tc Cert.KernelIdeal.main_v121)) (Cert.KernelIdeal.Gen.W9 m ρ c (Proc.devRef .tc Cert.KernelIdeal.main_v139)) (Cert.KernelIdeal.Gen.W9 m ρ c (Proc.devRef .tc Cert.KernelIdeal.main_arg4)) _ = _
      unfold RW4 Cert.RefForm.layer2
      after_results_simp
      rw [h_hn, h_hn16, h_w, h_src, h_dst, h_a4, h_a5]
      rfl
  · -- w: written by neither program in this stretch
    refine (Cert.KernelIdeal.Gen.W10_of_ne m ρ c Cert.KernelIdeal.main_v33 (by decide)).trans (Eq.trans ?_ (h_w.trans ?_))
    · after_results_simp
    · unfold RW4; after_results_simp
  · -- src: written by neither program in this stretch
    refine (Cert.KernelIdeal.Gen.W10_of_ne m ρ c Cert.KernelIdeal.main_v1 (by decide)).trans (Eq.trans ?_ (h_src.trans ?_))
    · after_results_simp
    · unfold RW4; after_results_simp
  · -- dst: written by neither program in this stretch
    refine (Cert.KernelIdeal.Gen.W10_of_ne m ρ c Cert.KernelIdeal.main_v3 (by decide)).trans (Eq.trans ?_ (h_dst.trans ?_))
    · after_results_simp
    · unfold RW4; after_results_simp
  · -- a6: written by neither program in this stretch
    refine (Cert.KernelIdeal.Gen.W10_of_ne m ρ c Cert.KernelIdeal.main_arg6 (by decide)).trans (Eq.trans ?_ (h_a6.trans ?_))
    · after_results_simp
    · unfold RW4; after_results_simp
  · -- a7: written by neither program in this stretch
    refine (Cert.KernelIdeal.Gen.W10_of_ne m ρ c Cert.KernelIdeal.main_arg7 (by decide)).trans (Eq.trans ?_ (h_a7.trans ?_))
    · after_results_simp
    · unfold RW4; after_results_simp
  · -- a8: written by neither program in this stretch
    refine (Cert.KernelIdeal.Gen.W10_of_ne m ρ c Cert.KernelIdeal.main_arg8 (by decide)).trans (Eq.trans ?_ (h_a8.trans ?_))
    · after_results_simp
    · unfold RW4; after_results_simp
  · -- a9: written by neither program in this stretch
    refine (Cert.KernelIdeal.Gen.W10_of_ne m ρ c Cert.KernelIdeal.main_arg9 (by decide)).trans (Eq.trans ?_ (h_a9.trans ?_))
    · after_results_simp
    · unfold RW4; after_results_simp
  · -- a12: written by neither program in this stretch
    refine (Cert.KernelIdeal.Gen.W10_of_ne m ρ c Cert.KernelIdeal.main_arg12 (by decide)).trans (Eq.trans ?_ (h_a12.trans ?_))
    · after_results_simp
    · unfold RW4; after_results_simp
  · -- a13: written by neither program in this stretch
    refine (Cert.KernelIdeal.Gen.W10_of_ne m ρ c Cert.KernelIdeal.main_arg13 (by decide)).trans (Eq.trans ?_ (h_a13.trans ?_))
    · after_results_simp
    · unfold RW4; after_results_simp
  · -- a14: written by neither program in this stretch
    refine (Cert.KernelIdeal.Gen.W10_of_ne m ρ c Cert.KernelIdeal.main_arg14 (by decide)).trans (Eq.trans ?_ (h_a14.trans ?_))
    · after_results_simp
    · unfold RW4; after_results_simp
  · -- a15: written by neither program in this stretch
    refine (Cert.KernelIdeal.Gen.W10_of_ne m ρ c Cert.KernelIdeal.main_arg15 (by decide)).trans (Eq.trans ?_ (h_a15.trans ?_))
    · after_results_simp
    · unfold RW4; after_results_simp

end Cert.Bridge

end
-- ==== Proof.RegionBn3.lean ====
/- The value of the kernel program's second batch-normalisation region.

   The region walks the 50000 rows of the activation array in ten blocks of 5000 rows. At block t it holds rows
   5000·t … 5000·t + 4999 of the array and the four column vectors (mean, variance, gamma, beta) as one-row
   matrices, and writes, to the same rows of both result arrays, the normalised rows. Here: a row of a block is
   row 5000·t + p of the array (`emb_in`, `emb_out`, `emb_out16`), the one-row windows are read whole
   (`emb_row`), so what block t writes back is block t of the normalised array `bn1` (`written_eq`,
   `written16_eq`); row r lies in block r / 5000 (`covered`, `covered16`); hence each result array ends
   holding `bn1` of the region's inputs (`region3_value`, `region3_value_bf16`: the second result is the
   first rounded to another format, which changes no extended real). -/
import proofs.«175070_j35072702939553_2_alg».proof.Proof.Gen.KernelIdeal.Frame
import proofs.«175070_j35072702939553_2_alg».proof.Proof.BnForm
import Idealize.ShloMosaic.Lib.Pipeline.Value

noncomputable section

open Idealize.ShloMosaic Idealize.ShloMosaic.TcCoe Idealize.SL.Sem Idealize.ShloMosaic.ValueIdx
open Idealize.ShloMosaic.Pipeline (Dat)

namespace Cert.RefForm.Region3

open Cert.KernelIdeal Cert.KernelIdeal.Gen Cert.RefForm

/-- The printed index maps over the ten blocks: the activation window and the two result windows are at block t,
    the four one-row windows stay at block 0. -/
theorem idx_facts : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0
    ∧ win3_6.index t (0 : Fin 2) = t.val ∧ win3_6.index t (1 : Fin 2) = 0 :=
  (by decide +kernel : ∀ t : Fin grid3.N, _)

theorem point_lt (t : Fin cfg3.N) : t.val < 10 := lt_of_lt_of_eq t.isLt N_3

/-- Row p of block t is row 5000·t + p of the array. -/
def rowOf (t : Fin cfg3.N) (p : Fin 5000) : Fin 50000 := ⟨t.val * 5000 + p.val, by have := point_lt t; have := p.isLt; omega⟩

section
variable (V : (c : Dev nD) → (b : Ref sig .tc) → Buf (Elt Ideal) ((c : Thread nD τ).loc b)) (c : Dev nD)

/-- The activation window's block at t sits at rows 5000·t … of its array. -/
theorem emb_in (t : Fin cfg3.N) (p : Fin 5000) (q : Fin 128) :
    ((cfg3.win 0).blk t).view.emb (ix2 p q) = ix2 (rowOf t p) q := by
  obtain ⟨e0, e1, -⟩ := idx_facts t
  funext a; apply Fin.ext
  match a with
  | ⟨0, _⟩ => show win3_0.index t (0 : Fin 2) * 5000 + 1 * p.val = t.val * 5000 + p.val; rw [e0]; omega
  | ⟨1, _⟩ => show win3_0.index t (1 : Fin 2) * 128 + 1 * q.val = q.val; rw [e1]; omega

/-- So does the first result window's … -/
theorem emb_out (t : Fin cfg3.N) (p : Fin 5000) (q : Fin 128) :
    ((cfg3.win 5).blk t).view.emb (ix2 p q) = ix2 (rowOf t p) q := by
  obtain ⟨-, -, -, -, -, -, -, -, -, -, e0, e1, -⟩ := idx_facts t
  funext a; apply Fin.ext
  match a with
  | ⟨0, _⟩ => show win3_5.index t (0 : Fin 2) * 5000 + 1 * p.val = t.val * 5000 + p.val; rw [e0]; omega
  | ⟨1, _⟩ => show win3_5.index t (1 : Fin 2) * 128 + 1 * q.val = q.val; rw [e1]; omega

/-- … and the second's. -/
theorem emb_out16 (t : Fin cfg3.N) (p : Fin 5000) (q : Fin 128) :
    ((cfg3.win 6).blk t).view.emb (ix2 p q) = ix2 (rowOf t p) q := by
  obtain ⟨-, -, -, -, -, -, -, -, -, -, -, -, e0, e1⟩ := idx_facts t
  funext a; apply Fin.ext
  match a with
  | ⟨0, _⟩ => show win3_6.index t (0 : Fin 2) * 5000 + 1 * p.val = t.val * 5000 + p.val; rw [e0]; omega
  | ⟨1, _⟩ => show win3_6.index t (1 : Fin 2) * 128 + 1 * q.val = q.val; rw [e1]; omega

/-- The four one-row windows read their whole array at every block. -/
theorem emb_row (t : Fin cfg3.N) (q : Fin 128) :
    ((cfg3.win 1).blk t).view.emb (ix2 (0 : Fin 1) q) = ix2 (0 : Fin 1) q
    ∧ ((cfg3.win 2).blk t).view.emb (ix2 (0 : Fin 1) q) = ix2 (0 : Fin 1) q
    ∧ ((cfg3.win 3).blk t).view.emb (ix2 (0 : Fin 1) q) = ix2 (0 : Fin 1) q
    ∧ ((cfg3.win 4).blk t).view.emb (ix2 (0 : Fin 1) q) = ix2 (0 : Fin 1) q := by
  obtain ⟨-, -, a0, a1, b0, b1, c0, c1, d0, d1, -⟩ := idx_facts t
  refine ⟨?_, ?_, ?_, ?_⟩ <;> (funext a; apply Fin.ext)
  · match a with
    | ⟨0, _⟩ => show win3_1.index t (0 : Fin 2) * 1 + 1 * 0 = 0; rw [a0]
    | ⟨1, _⟩ => show win3_1.index t (1 : Fin 2) * 128 + 1 * q.val = q.val; rw [a1]; omega
  · match a with
    | ⟨0, _⟩ => show win3_2.index t (0 : Fin 2) * 1 + 1 * 0 = 0; rw [b0]
    | ⟨1, _⟩ => show win3_2.index t (1 : Fin 2) * 128 + 1 * q.val = q.val; rw [b1]; omega
  · match a with
    | ⟨0, _⟩ => show win3_3.index t (0 : Fin 2) * 1 + 1 * 0 = 0; rw [c0]
    | ⟨1, _⟩ => show win3_3.index t (1 : Fin 2) * 128 + 1 * q.val = q.val; rw [c1]; omega
  · match a with
    | ⟨0, _⟩ => show win3_4.index t (0 : Fin 2) * 1 + 1 * 0 = 0; rw [d0]
    | ⟨1, _⟩ => show win3_4.index t (1 : Fin 2) * 128 + 1 * q.val = q.val; rw [d1]; omega

/-- A one-row window's array holding a vector's one-row matrix reads, through its block, the vector. -/
theorem row_read (A : S1x128.Idx → Ideal .f32) (x : FVec Ideal Cert.ReferenceIdeal.S128 .f32)
    (hA : A = shapeCast S1x128 x shapeCasts_S128_S1x128) (i : S1x128.Idx) (q : Fin 128) (hi : i = ix2 (0 : Fin 1) q) :
    A i = x (ix1 q) := by
  subst hA hi; exact row_of_vector_apply x q

variable (mean var gamma beta : FVec Ideal Cert.ReferenceIdeal.S128 .f32)
  (hm : V c (Pipeline.arrRef spec3 1) = shapeCast S1x128 mean shapeCasts_S128_S1x128)
  (hv : V c (Pipeline.arrRef spec3 2) = shapeCast S1x128 var shapeCasts_S128_S1x128)
  (hg : V c (Pipeline.arrRef spec3 3) = shapeCast S1x128 gamma shapeCasts_S128_S1x128)
  (hbeta : V c (Pipeline.arrRef spec3 4) = shapeCast S1x128 beta shapeCasts_S128_S1x128)

set_option maxHeartbeats 2000000 in
include hm hv hg hbeta in
/-- THE BODY AT A POINT OF A BLOCK: what the body stores at row p, column q of block t, from the region's input
    blocks, is the normalised array at row 5000·t + p, column q. -/
theorem body_entry (t : Fin cfg3.N) (p : Fin 5000) (q : Fin 128) :
    k1_pay1 (F := Ideal) (iblk3 V c 2 t) (iblk3 V c 0 t) (iblk3 V c 1 t) (iblk3 V c 3 t) (iblk3 V c 4 t) (ix2 p q)
      = bn1 (V c (Pipeline.arrRef spec3 0)) mean var gamma beta (ix2 (rowOf t p) q) := by
  obtain ⟨r1, r2, r3, r4⟩ := emb_row t q
  refine block_entry (V c (Pipeline.arrRef spec3 0)) mean var gamma beta (iblk3 V c 0 t) (iblk3 V c 1 t) (iblk3 V c 2 t)
    (iblk3 V c 3 t) (iblk3 V c 4 t) p q (rowOf t p) ?_ ?_ ?_ ?_ ?_
  · show V c (Pipeline.arrRef spec3 0) (((cfg3.win 0).blk t).view.emb (ix2 p q)) = _
    rw [emb_in]
  · show V c (Pipeline.arrRef spec3 1) (((cfg3.win 1).blk t).view.emb (ix2 (0 : Fin 1) q)) = _
    exact row_read _ mean hm _ q r1
  · show V c (Pipeline.arrRef spec3 2) (((cfg3.win 2).blk t).view.emb (ix2 (0 : Fin 1) q)) = _
    exact row_read _ var hv _ q r2
  · show V c (Pipeline.arrRef spec3 3) (((cfg3.win 3).blk t).view.emb (ix2 (0 : Fin 1) q)) = _
    exact row_read _ gamma hg _ q r3
  · show V c (Pipeline.arrRef spec3 4) (((cfg3.win 4).blk t).view.emb (ix2 (0 : Fin 1) q)) = _
    exact row_read _ beta hbeta _ q r4

set_option maxHeartbeats 2000000 in
include hm hv hg hbeta in
/-- WHAT BLOCK t WRITES BACK to the first result array is block t of the normalised array. -/
theorem written_eq (t : Fin cfg3.N) :
    (dat3 V c).flushed 5 t
      = ((cfg3.win 5).blk t).view.read (Elt Ideal) (bn1 (V c (Pipeline.arrRef spec3 0)) mean var gamma beta) := by
  show (cfg3.win 5).cut (grid3.coords t) ((dat3 V c).after 5 t) = _
  rw [after3_5]
  unfold out3_5
  rw [View.canon_unit_zero zero_offsets]
  simp only [View.ld_unit_zero (S := S5000x128) zero_offsets, View.ld_unit_zero (S := S1x128) zero_offsets]
  refine block_ext _ _ (fun p q => ?_)
  show k3_pay1 (F := Ideal) (iblk3 V c 2 t) (iblk3 V c 0 t) (iblk3 V c 1 t) (iblk3 V c 3 t) (iblk3 V c 4 t) (ix2 p q)
    = bn1 (V c (Pipeline.arrRef spec3 0)) mean var gamma beta (((cfg3.win 5).blk t).view.emb (ix2 p q))
  rw [emb_out, k3_pay1_eq]
  exact body_entry V c mean var gamma beta hm hv hg hbeta t p q

set_option maxHeartbeats 2000000 in
include hm hv hg hbeta in
/-- The same for the second result array: its stored value is the first's in another format. -/
theorem written16_eq (t : Fin cfg3.N) :
    (dat3 V c).flushed 6 t
      = ((cfg3.win 6).blk t).view.read (Elt Ideal) (bn1 (V c (Pipeline.arrRef spec3 0)) mean var gamma beta) := by
  show (cfg3.win 6).cut (grid3.coords t) ((dat3 V c).after 6 t) = _
  rw [after3_6]
  unfold out3_6
  rw [View.canon_unit_zero zero_offsets]
  simp only [View.ld_unit_zero (S := S5000x128) zero_offsets, View.ld_unit_zero (S := S1x128) zero_offsets]
  refine block_ext _ _ (fun p q => ?_)
  show k3_pay1 (F := Ideal) (iblk3 V c 2 t) (iblk3 V c 0 t) (iblk3 V c 1 t) (iblk3 V c 3 t) (iblk3 V c 4 t) (ix2 p q)
    = bn1 (V c (Pipeline.arrRef spec3 0)) mean var gamma beta (((cfg3.win 6).blk t).view.emb (ix2 p q))
  rw [emb_out16, k3_pay1_eq]
  exact body_entry V c mean var gamma beta hm hv hg hbeta t p q

end

/-- An index of the first result array is in block t iff its row is one of the block's 5000 rows. -/
theorem mem_blk (t : Fin cfg3.N) (i : S50000x128.Idx) :
    i ∈ ((cfg3.win 5).blk t).view.set ↔ ∀ a : Fin 2, win3_5.index t a * S5000x128.size a ≤ (i a).val ∧ (i a).val < win3_5.index t a * S5000x128.size a + S5000x128.size a := by
  show i ∈ ((View.whole main_v150_0).slice (win3_5.rect t)).set ↔ _
  rw [View.set_slice_whole, Rect.mem_set_unit]
  exact Iff.rfl

theorem mem_blk16 (t : Fin cfg3.N) (i : S50000x128.Idx) :
    i ∈ ((cfg3.win 6).blk t).view.set ↔ ∀ a : Fin 2, win3_6.index t a * S5000x128.size a ≤ (i a).val ∧ (i a).val < win3_6.index t a * S5000x128.size a + S5000x128.size a := by
  show i ∈ ((View.whole main_v150_1).slice (win3_6.rect t)).set ↔ _
  rw [View.set_slice_whole, Rect.mem_set_unit]
  exact Iff.rfl

/-- The block that holds row r is block r / 5000. -/
theorem point_of_row (i : S50000x128.Idx) : ∃ t : Fin cfg3.N, t.val = (i 0).val / 5000 :=
  ⟨⟨(i 0).val / 5000, by have h : (i 0).val < 50000 := (i 0).isLt; show (i 0).val / 5000 < grid3.N; rw [N_3]; omega⟩, rfl⟩

/-- Every index of the first result array is in some block that is written back. -/
theorem covered (i : S50000x128.Idx) : ∃ t : Fin cfg3.N, (cfg3.win 5).flush t = true ∧ i ∈ ((cfg3.win 5).blk t).view.set := by
  have h0 : (i 0).val < 50000 := (i 0).isLt
  have h1 : (i 1).val < 128 := (i 1).isLt
  obtain ⟨t, ht⟩ := point_of_row i
  obtain ⟨-, -, -, -, -, -, -, -, -, -, e0, e1, -⟩ := idx_facts t
  refine ⟨t, flush3_5 t, ?_⟩
  rw [mem_blk]
  intro a
  match a with
  | ⟨0, _⟩ => show win3_5.index t (0 : Fin 2) * 5000 ≤ (i 0).val ∧ (i 0).val < win3_5.index t (0 : Fin 2) * 5000 + 5000; rw [e0, ht]; omega
  | ⟨1, _⟩ => show win3_5.index t (1 : Fin 2) * 128 ≤ (i 1).val ∧ (i 1).val < win3_5.index t (1 : Fin 2) * 128 + 128; rw [e1]; omega

/-- And of the second. -/
theorem covered16 (i : S50000x128.Idx) : ∃ t : Fin cfg3.N, (cfg3.win 6).flush t = true ∧ i ∈ ((cfg3.win 6).blk t).view.set := by
  have h0 : (i 0).val < 50000 := (i 0).isLt
  have h1 : (i 1).val < 128 := (i 1).isLt
  obtain ⟨t, ht⟩ := point_of_row i
  obtain ⟨-, -, -, -, -, -, -, -, -, -, -, -, e0, e1⟩ := idx_facts t
  refine ⟨t, flush3_6 t, ?_⟩
  rw [mem_blk16]
  intro a
  match a with
  | ⟨0, _⟩ => show win3_6.index t (0 : Fin 2) * 5000 ≤ (i 0).val ∧ (i 0).val < win3_6.index t (0 : Fin 2) * 5000 + 5000; rw [e0, ht]; omega
  | ⟨1, _⟩ => show win3_6.index t (1 : Fin 2) * 128 ≤ (i 1).val ∧ (i 1).val < win3_6.index t (1 : Fin 2) * 128 + 128; rw [e1]; omega

end Cert.RefForm.Region3

namespace Cert.RefForm

open Cert.KernelIdeal Cert.KernelIdeal.Gen

set_option maxHeartbeats 2000000 in
/-- THE REGION'S FIRST RESULT: after the ten blocks the array holds the normalised array of the region's activation
    input and of the four vectors whose one-row matrices the region reads. -/
theorem region3_value (V : (c : Dev nD) → (b : Ref sig .tc) → Buf (Elt Ideal) ((c : Thread nD τ).loc b)) (c : Dev nD)
    (mean var gamma beta : FVec Ideal Cert.ReferenceIdeal.S128 .f32)
    (hm : V c (Pipeline.arrRef spec3 1) = shapeCast S1x128 mean shapeCasts_S128_S1x128)
    (hv : V c (Pipeline.arrRef spec3 2) = shapeCast S1x128 var shapeCasts_S128_S1x128)
    (hg : V c (Pipeline.arrRef spec3 3) = shapeCast S1x128 gamma shapeCasts_S128_S1x128)
    (hbeta : V c (Pipeline.arrRef spec3 4) = shapeCast S1x128 beta shapeCasts_S128_S1x128) :
    (dat3 V c).arrAt 5 cfg3.N = bn1 (V c (Pipeline.arrRef spec3 0)) mean var gamma beta :=
  (dat3 V c).arrAt_eq_of_cover 5 (bn1 (V c (Pipeline.arrRef spec3 0)) mean var gamma beta)
    (fun t _ => Region3.written_eq V c mean var gamma beta hm hv hg hbeta t) Region3.covered

set_option maxHeartbeats 2000000 in
/-- THE REGION'S SECOND RESULT holds the same extended reals. -/
theorem region3_value_bf16 (V : (c : Dev nD) → (b : Ref sig .tc) → Buf (Elt Ideal) ((c : Thread nD τ).loc b)) (c : Dev nD)
    (mean var gamma beta : FVec Ideal Cert.ReferenceIdeal.S128 .f32)
    (hm : V c (Pipeline.arrRef spec3 1) = shapeCast S1x128 mean shapeCasts_S128_S1x128)
    (hv : V c (Pipeline.arrRef spec3 2) = shapeCast S1x128 var shapeCasts_S128_S1x128)
    (hg : V c (Pipeline.arrRef spec3 3) = shapeCast S1x128 gamma shapeCasts_S128_S1x128)
    (hbeta : V c (Pipeline.arrRef spec3 4) = shapeCast S1x128 beta shapeCasts_S128_S1x128) :
    (dat3 V c).arrAt 6 cfg3.N = bn1 (V c (Pipeline.arrRef spec3 0)) mean var gamma beta :=
  (dat3 V c).arrAt_eq_of_cover 6 (bn1 (V c (Pipeline.arrRef spec3 0)) mean var gamma beta)
    (fun t _ => Region3.written16_eq V c mean var gamma beta hm hv hg hbeta t) Region3.covered16

end Cert.RefForm

end
-- ==== Proof.Step2b.lean ====
/-
  The second batch normalization. The kernel program computes the column means and variances of the activated layer
  output by host operations, makes them and the two affine parameter vectors one-row matrices, and applies the
  normalization in a region, block of rows by block of rows; the reference applies the same host operations and then
  the normalization as whole-array host operations. Given that the two programs agree before it (`I10`), they agree
  after it (`I14`): each of the region's two output arrays is the normalized array of the region's input arrays (the
  region's value), those input arrays are the same host expressions of buffers on which the programs agree, and every
  other buffer carried along is written by neither program in this stretch.
-/
import proofs.«175070_j35072702939553_2_alg».proof.Proof.BridgeBase
import proofs.«175070_j35072702939553_2_alg».proof.Proof.RegionBn3

set_option maxRecDepth 16384

noncomputable section

namespace Cert.Bridge

open Idealize.ShloMosaic Idealize.ShloMosaic.TcCoe Idealize.ShloMosaic.StableHlo
open Idealize.SL Idealize.SL.Sem

section
variable (m : KMem) (ρ : Dev Cert.KernelIdeal.nD → PrngReg) (m' : RMem) (c : Dev Cert.KernelIdeal.nD)

/-- The region's one-row matrix of the mean vector is that vector's elements in the same order. -/
theorem row3_mean : Cert.KernelIdeal.Gen.W13 (F := Ideal) m ρ c (Proc.devRef .tc Cert.KernelIdeal.main_v146)
    = shapeCast Cert.KernelIdeal.S1x128 (Cert.KernelIdeal.Gen.W12 (F := Ideal) m ρ c (Proc.devRef .tc Cert.KernelIdeal.main_v144)) Cert.KernelIdeal.Gen.shapeCasts_S128_S1x128 := by
  after_results_simp <;> rfl

/-- The region's one-row matrix of the variance vector is that vector's elements in the same order. -/
theorem row3_var : Cert.KernelIdeal.Gen.W13 (F := Ideal) m ρ c (Proc.devRef .tc Cert.KernelIdeal.main_v147)
    = shapeCast Cert.KernelIdeal.S1x128 (Cert.KernelIdeal.Gen.W12 (F := Ideal) m ρ c (Proc.devRef .tc Cert.KernelIdeal.main_v145)) Cert.KernelIdeal.Gen.shapeCasts_S128_S1x128 := by
  after_results_simp <;> rfl

/-- The region's one-row matrix of the scale vector is that vector's elements in the same order. -/
theorem row3_gamma : Cert.KernelIdeal.Gen.W13 (F := Ideal) m ρ c (Proc.devRef .tc Cert.KernelIdeal.main_v148)
    = shapeCast Cert.KernelIdeal.S1x128 (Cert.KernelIdeal.Gen.W12 (F := Ideal) m ρ c (Proc.devRef .tc Cert.KernelIdeal.main_arg12)) Cert.KernelIdeal.Gen.shapeCasts_S128_S1x128 := by
  after_results_simp <;> rfl

/-- The region's one-row matrix of the shift vector is that vector's elements in the same order. -/
theorem row3_beta : Cert.KernelIdeal.Gen.W13 (F := Ideal) m ρ c (Proc.devRef .tc Cert.KernelIdeal.main_v149)
    = shapeCast Cert.KernelIdeal.S1x128 (Cert.KernelIdeal.Gen.W12 (F := Ideal) m ρ c (Proc.devRef .tc Cert.KernelIdeal.main_arg13)) Cert.KernelIdeal.Gen.shapeCasts_S128_S1x128 := by
  after_results_simp <;> rfl

/-- The normalized array of the kernel program's activation array, mean, variance and affine parameters is what the
    reference holds at its normalization's result: both are the same host expression of buffers on which the two
    programs agree (the activation array and the two affine parameter vectors). -/
theorem bn3_ref
    (h_h : Cert.KernelIdeal.Gen.W10 (F := Ideal) m ρ c (Proc.devRef .tc Cert.KernelIdeal.main_v141) = RW4 m' c (Proc.devRef .tc Cert.ReferenceIdeal.main_v180))
    (h_g : Cert.KernelIdeal.Gen.W10 (F := Ideal) m ρ c (Proc.devRef .tc Cert.KernelIdeal.main_arg12) = RW4 m' c (Proc.devRef .tc Cert.ReferenceIdeal.main_arg12))
    (h_b : Cert.KernelIdeal.Gen.W10 (F := Ideal) m ρ c (Proc.devRef .tc Cert.KernelIdeal.main_arg13) = RW4 m' c (Proc.devRef .tc Cert.ReferenceIdeal.main_arg13)) :
    Cert.RefForm.bn1 (Cert.KernelIdeal.Gen.V13 (F := Ideal) m ρ c (Pipeline.arrRef Cert.KernelIdeal.spec3 0))
      (Cert.KernelIdeal.Gen.W12 (F := Ideal) m ρ c (Proc.devRef .tc Cert.KernelIdeal.main_v144)) (Cert.KernelIdeal.Gen.W12 (F := Ideal) m ρ c (Proc.devRef .tc Cert.KernelIdeal.main_v145))
      (Cert.KernelIdeal.Gen.W12 (F := Ideal) m ρ c (Proc.devRef .tc Cert.KernelIdeal.main_arg12)) (Cert.KernelIdeal.Gen.W12 (F := Ideal) m ρ c (Proc.devRef .tc Cert.KernelIdeal.main_arg13))
      = RW5 m' c (Proc.devRef .tc Cert.ReferenceIdeal.main_v199) := by
  show Cert.RefForm.bn1 (Cert.KernelIdeal.Gen.W13 (F := Ideal) m ρ c (Proc.devRef .tc Cert.KernelIdeal.main_v141)) _ _ _ _ = _
  unfold RW5 Cert.RefForm.bn1
  after_results_simp
  rw [h_h, h_g, h_b]

end

set_option maxHeartbeats 4000000 in
theorem step2b (m : KMem) (ρ : Dev Cert.KernelIdeal.nD → PrngReg) (m' : RMem) (c : Dev Cert.KernelIdeal.nD)
    (h : I10 m ρ m' c) : I14 m ρ m' c := by
  unfold I10 at h
  obtain ⟨h_h, h_w, h_src, h_dst, h_a6, h_a7, h_a8, h_a9, h_a12, h_a13, h_a14, h_a15⟩ := h
  unfold I14
  refine ⟨?_, ?_, ?_, ?_, ?_, ?_, ?_, ?_, ?_, ?_, ?_⟩
  · -- hn: the region's value, then the same host expression on both sides
    refine (Cert.KernelIdeal.Gen.W14_arr m ρ c 5).trans ?_
    exact (Cert.RefForm.region3_value (Cert.KernelIdeal.Gen.V13 (F := Ideal) m ρ) c
      (Cert.KernelIdeal.Gen.W12 (F := Ideal) m ρ c (Proc.devRef .tc Cert.KernelIdeal.main_v144)) (Cert.KernelIdeal.Gen.W12 (F := Ideal) m ρ c (Proc.devRef .tc Cert.KernelIdeal.main_v145))
      (Cert.KernelIdeal.Gen.W12 (F := Ideal) m ρ c (Proc.devRef .tc Cert.KernelIdeal.main_arg12)) (Cert.KernelIdeal.Gen.W12 (F := Ideal) m ρ c (Proc.devRef .tc Cert.KernelIdeal.main_arg13))
      (row3_mean m ρ c) (row3_var m ρ c) (row3_gamma m ρ c) (row3_beta m ρ c)).trans (bn3_ref m ρ m' c h_h h_a12 h_a13)
  · -- hn16: the region's value, then the same host expression on both sides
    refine (Cert.KernelIdeal.Gen.W14_arr m ρ c 6).trans ?_
    exact (Cert.RefForm.region3_value_bf16 (Cert.KernelIdeal.Gen.V13 (F := Ideal) m ρ) c
      (Cert.KernelIdeal.Gen.W12 (F := Ideal) m ρ c (Proc.devRef .tc Cert.KernelIdeal.main_v144)) (Cert.KernelIdeal.Gen.W12 (F := Ideal) m ρ c (Proc.devRef .tc Cert.KernelIdeal.main_v145))
      (Cert.KernelIdeal.Gen.W12 (F := Ideal) m ρ c (Proc.devRef .tc Cert.KernelIdeal.main_arg12)) (Cert.KernelIdeal.Gen.W12 (F := Ideal) m ρ c (Proc.devRef .tc Cert.KernelIdeal.main_arg13))
      (row3_mean m ρ c) (row3_var m ρ c) (row3_gamma m ρ c) (row3_beta m ρ c)).trans (bn3_ref m ρ m' c h_h h_a12 h_a13)
  · -- w: written by neither program in this stretch
    refine (Cert.KernelIdeal.Gen.W14_of_ne m ρ c Cert.KernelIdeal.main_v33 (by decide)).trans (Eq.trans ?_ (h_w.trans ?_))
    · after_results_simp
    · unfold RW5; after_results_simp
  · -- src: written by neither program in this stretch
    refine (Cert.KernelIdeal.Gen.W14_of_ne m ρ c Cert.KernelIdeal.main_v1 (by decide)).trans (Eq.trans ?_ (h_src.trans ?_))
    · after_results_simp
    · unfold RW5; after_results_simp
  · -- dst: written by neither program in this stretch
    refine (Cert.KernelIdeal.Gen.W14_of_ne m ρ c Cert.KernelIdeal.main_v3 (by decide)).trans (Eq.trans ?_ (h_dst.trans ?_))
    · after_results_simp
    · unfold RW5; after_results_simp
  · -- a6: written by neither program in this stretch
    refine (Cert.KernelIdeal.Gen.W14_of_ne m ρ c Cert.KernelIdeal.main_arg6 (by decide)).trans (Eq.trans ?_ (h_a6.trans ?_))
    · after_results_simp
    · exact (Cert.ReferenceIdeal.Hand.after_low (Cert.ReferenceIdeal.Hand.opsC2b (F := Ideal)) Cert.ReferenceIdeal.Hand.opsC2b_high (RW4 m' c) (r := Cert.ReferenceIdeal.main_arg6) (by decide)).symm
  · -- a7: written by neither program in this stretch
    refine (Cert.KernelIdeal.Gen.W14_of_ne m ρ c Cert.KernelIdeal.main_arg7 (by decide)).trans (Eq.trans ?_ (h_a7.trans ?_))
    · after_results_simp
    · exact (Cert.ReferenceIdeal.Hand.after_low (Cert.ReferenceIdeal.Hand.opsC2b (F := Ideal)) Cert.ReferenceIdeal.Hand.opsC2b_high (RW4 m' c) (r := Cert.ReferenceIdeal.main_arg7) (by decide)).symm
  · -- a8: written by neither program in this stretch
    refine (Cert.KernelIdeal.Gen.W14_of_ne m ρ c Cert.KernelIdeal.main_arg8 (by decide)).trans (Eq.trans ?_ (h_a8.trans ?_))
    · after_results_simp
    · exact (Cert.ReferenceIdeal.Hand.after_low (Cert.ReferenceIdeal.Hand.opsC2b (F := Ideal)) Cert.ReferenceIdeal.Hand.opsC2b_high (RW4 m' c) (r := Cert.ReferenceIdeal.main_arg8) (by decide)).symm
  · -- a9: written by neither program in this stretch
    refine (Cert.KernelIdeal.Gen.W14_of_ne m ρ c Cert.KernelIdeal.main_arg9 (by decide)).trans (Eq.trans ?_ (h_a9.trans ?_))
    · after_results_simp
    · exact (Cert.ReferenceIdeal.Hand.after_low (Cert.ReferenceIdeal.Hand.opsC2b (F := Ideal)) Cert.ReferenceIdeal.Hand.opsC2b_high (RW4 m' c) (r := Cert.ReferenceIdeal.main_arg9) (by decide)).symm
  · -- a14: written by neither program in this stretch
    refine (Cert.KernelIdeal.Gen.W14_of_ne m ρ c Cert.KernelIdeal.main_arg14 (by decide)).trans (Eq.trans ?_ (h_a14.trans ?_))
    · after_results_simp
    · exact (Cert.ReferenceIdeal.Hand.after_low (Cert.ReferenceIdeal.Hand.opsC2b (F := Ideal)) Cert.ReferenceIdeal.Hand.opsC2b_high (RW4 m' c) (r := Cert.ReferenceIdeal.main_arg14) (by decide)).symm
  · -- a15: written by neither program in this stretch
    refine (Cert.KernelIdeal.Gen.W14_of_ne m ρ c Cert.KernelIdeal.main_arg15 (by decide)).trans (Eq.trans ?_ (h_a15.trans ?_))
    · after_results_simp
    · exact (Cert.ReferenceIdeal.Hand.after_low (Cert.ReferenceIdeal.Hand.opsC2b (F := Ideal)) Cert.ReferenceIdeal.Hand.opsC2b_high (RW4 m' c) (r := Cert.ReferenceIdeal.main_arg15) (by decide)).symm

end Cert.Bridge

end
-- ==== Proof.RegionLin4.lean ====
/- The value of matmul region 4 of the kernel program: its output array after the region is the reference's own
   expression for its third layer, of the four term arrays, the weight and the bias as the region finds them.

   Each grid point t computes, for rows 5000·t … 5000·t + 4999, the four products of the term blocks with the weight's
   slabs, added in order onto a zero block, plus the bias row, then the rectifier (the maximum with zero, the same operation on both sides). Element by element that is the reference's
   whole-array expression at the same row (RegionLinCore: both sides are the same four sums and bias).
   The ten row blocks tile the 50000 rows, so the array ends as that expression everywhere. -/
import proofs.«175070_j35072702939553_2_alg».proof.Proof.RegionLinCore

noncomputable section

open Idealize.ShloMosaic Idealize.ShloMosaic.ValueIdx Idealize.ShloMosaic.TcCoe Idealize.SL.Sem
open Idealize.ShloMosaic.Pipeline (Dat)
open scoped BigOperators

namespace Cert.RefForm

open Cert.ReferenceIdeal Cert.ReferenceIdeal.Facts₀ in
/-- The reference's third layer as one expression of its four terms, its weight and its bias: the four products with the
    weight's slabs added in order, the bias added on every row, then the rectifier (the maximum with zero). -/
noncomputable def layer4 (T0 T1 T2 T3 : FVec Ideal S50000x128 .f32) (Wt : FVec Ideal S4x128x128 .f32)
    (b : FVec Ideal S128 .f32) : FVec Ideal S50000x128 .f32 :=
  maximumf
    (addf (addf (addf (addf
      (Host.dotGeneral (F := Ideal) dot_S50000x128_S128x128_S50000x128_1_0_0_1_n_n none T0 (shapeCast S128x128 (extractStridedSlice S1x128x128 ![0, 0, 0] Wt slices_S4x128x128_S1x128x128_0_0_0) shapeCasts_S1x128x128_S128x128))
      (Host.dotGeneral (F := Ideal) dot_S50000x128_S128x128_S50000x128_1_0_0_1_n_n none T1 (shapeCast S128x128 (extractStridedSlice S1x128x128 ![1, 0, 0] Wt slices_S4x128x128_S1x128x128_1_0_0) shapeCasts_S1x128x128_S128x128)))
      (Host.dotGeneral (F := Ideal) dot_S50000x128_S128x128_S50000x128_1_0_0_1_n_n none T2 (shapeCast S128x128 (extractStridedSlice S1x128x128 ![2, 0, 0] Wt slices_S4x128x128_S1x128x128_2_0_0) shapeCasts_S1x128x128_S128x128)))
      (Host.dotGeneral (F := Ideal) dot_S50000x128_S128x128_S50000x128_1_0_0_1_n_n none T3 (shapeCast S128x128 (extractStridedSlice S1x128x128 ![3, 0, 0] Wt slices_S4x128x128_S1x128x128_3_0_0) shapeCasts_S1x128x128_S128x128)))
      (broadcastInDim S50000x128 ![0, 1] bcast_S1x128_S50000x128_0_1 (broadcastInDim S1x128 ![1] bcast_S128_S1x128_1 b)))
    (broadcastInDim S50000x128 ![] bcast_S_S50000x128 (constant (F := Ideal) S_ .f32 0x00000000#32))

namespace Lin
/-- It is the rectifier of the shared linear part. -/
theorem layer4_eq (T0 T1 T2 T3 : FVec Ideal Cert.ReferenceIdeal.S50000x128 .f32) (Wt : FVec Ideal Cert.ReferenceIdeal.S4x128x128 .f32) (b : FVec Ideal Cert.ReferenceIdeal.S128 .f32) :
    layer4 T0 T1 T2 T3 Wt b = maximumf (rpre128 T0 T1 T2 T3 Wt b) (broadcastInDim Cert.ReferenceIdeal.S50000x128 ![] Cert.ReferenceIdeal.Facts₀.bcast_S_S50000x128 (constant (F := Ideal) Cert.ReferenceIdeal.S_ .f32 0x00000000#32)) := rfl

section Kernel
open Cert.KernelIdeal Cert.KernelIdeal.Gen

/-- The kernel body's stored value is the rectifier (the maximum with zero) of the shared linear part of its loaded
    blocks. -/
theorem pay4_eq (x0 : Vec Ideal S5000x128 .f32) (w0 : Vec Ideal S1x128x128 .f32) (x1 : Vec Ideal S5000x128 .f32) (w1 : Vec Ideal S1x128x128 .f32)
    (x2 : Vec Ideal S5000x128 .f32) (w2 : Vec Ideal S1x128x128 .f32) (x3 : Vec Ideal S5000x128 .f32) (w3 : Vec Ideal S1x128x128 .f32)
    (x5 : Vec Ideal S1x128 .f32) :
    k4_pay1 (F := Ideal) (k4_pay2 x0 w0 x1 w1 x2 w2 x3 w3) x5
      = maximumf (kpre128 x0 w0 x1 w1 x2 w2 x3 w3 x5) (broadcast S5000x128 (Scalar.ofBits (F := Ideal) .f32 0x00000000#32)) := rfl

/-- One element of a block the body leaves is the reference layer's element at the row the block's row sits at, when the
    block's terms are the arrays' rows, the loaded weight the weight and the bias row the bias. -/
theorem out4_6_apply (x0 x1 x2 x3 : Vec Ideal S5000x128 .f32) (x4 : Vec Ideal S4x128x128 .f32) (x5 : Vec Ideal S1x128 .f32)
    (T0 T1 T2 T3 : FVec Ideal Cert.ReferenceIdeal.S50000x128 .f32) (W : FVec Ideal Cert.ReferenceIdeal.S4x128x128 .f32) (b : FVec Ideal Cert.ReferenceIdeal.S128 .f32)
    (r : Fin 5000) (i : Fin 50000) (j : Fin 128)
    (h0 : ∀ k, x0 (ix2 r k) = T0 (ix2 i k)) (h1 : ∀ k, x1 (ix2 r k) = T1 (ix2 i k))
    (h2 : ∀ k, x2 (ix2 r k) = T2 (ix2 i k)) (h3 : ∀ k, x3 (ix2 r k) = T3 (ix2 i k))
    (g : ∀ (q : Fin 4) (k : Fin 128), x4 (ix3 q k j) = W (ix3 q k j)) (hb : x5 (ix2 (0 : Fin 1) j) = b (ix1 j)) :
    out4_6 x0 x1 x2 x3 x4 x5 (ix2 r j) = layer4 T0 T1 T2 T3 W b (ix2 i j) := by
  unfold out4_6
  rw [View.canon_unit_zero zeros2]
  simp only [View.ld_unit_zero (S := S5000x128) zeros2, View.ld_unit_zero (S := S1x128) zeros2]
  rw [pay4_eq, layer4_eq]
  show max (kpre128 x0 (View.ld x4 r4_1) x1 (View.ld x4 r4_2) x2 (View.ld x4 r4_3) x3 (View.ld x4 r4_4) x5 (ix2 r j)) (Ideal.ofBits .f32 0x00000000#32)
    = max (rpre128 T0 T1 T2 T3 W b (ix2 i j)) (Ideal.ofBits .f32 0x00000000#32)
  rw [pre128_eq x0 (View.ld x4 r4_1) x1 (View.ld x4 r4_2) x2 (View.ld x4 r4_3) x3 (View.ld x4 r4_4) x5 T0 T1 T2 T3 W b r i j h0 h1 h2 h3
    (fun k => (ld_slab x4 0 ![0, 0, 0] rfl _ k j).trans (g 0 k)) (fun k => (ld_slab x4 1 ![1, 0, 0] rfl _ k j).trans (g 1 k))
    (fun k => (ld_slab x4 2 ![2, 0, 0] rfl _ k j).trans (g 2 k)) (fun k => (ld_slab x4 3 ![3, 0, 0] rfl _ k j).trans (g 3 k)) hb]

end Kernel

section Blocks
open Cert.KernelIdeal Cert.KernelIdeal.Gen

variable (V : (c : Dev nD) → (b : Ref sig .tc) → Buf (Elt Ideal) ((c : Thread nD τ).loc b))

/-- The printed index maps over the grid: the four term windows and the output window sit at row block t, the weight's
    and the bias's windows at their one block. -/
theorem idx4 : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = t.val ∧ win4_2.index t (1 : Fin 2) = 0
    ∧ win4_3.index t (0 : Fin 2) = t.val ∧ win4_3.index t (1 : Fin 2) = 0
    ∧ win4_4.index t (0 : Fin 3) = 0 ∧ win4_4.index t (1 : Fin 3) = 0 ∧ win4_4.index t (2 : Fin 3) = 0
    ∧ win4_5.index t (0 : Fin 2) = 0 ∧ win4_5.index t (1 : Fin 2) = 0
    ∧ win4_6.index t (0 : Fin 2) = t.val ∧ win4_6.index t (1 : Fin 2) = 0 :=
  (by decide +kernel : ∀ t : Fin grid4.N, _)

/-- Term window 0's block at point t is rows 5000·t … 5000·t + 4999 of its array. -/
theorem iblk4_0_apply (c : Dev nD) (t : Fin cfg4.N) (r : Fin 5000) (k : Fin 128) (i : Fin 50000) (hi : i.val = t.val * 5000 + r.val) :
    (iblk4 V c 0 t : Vec Ideal S5000x128 .f32) (ix2 r k) = (V c (Pipeline.arrRef spec4 0) : FVec Ideal S50000x128 .f32) (ix2 i k) := by
  have e0 : win4_0.index t (0 : Fin 2) = t.val := (idx4 t).1
  have e1 : win4_0.index t (1 : Fin 2) = 0 := (idx4 t).2.1
  unfold iblk4
  rw [View.read_apply]
  show V c (Pipeline.arrRef spec4 0) _ = V c (Pipeline.arrRef spec4 0) _
  refine congrArg (V c (Pipeline.arrRef spec4 0)) (funext fun a => Fin.ext ?_)
  match a with
  | ⟨0, _⟩ => show win4_0.index t (0 : Fin 2) * 5000 + 1 * r.val = i.val; omega
  | ⟨1, _⟩ => show win4_0.index t (1 : Fin 2) * 128 + 1 * k.val = k.val; omega

/-- Term window 1's block at point t is rows 5000·t … 5000·t + 4999 of its array. -/
theorem iblk4_1_apply (c : Dev nD) (t : Fin cfg4.N) (r : Fin 5000) (k : Fin 128) (i : Fin 50000) (hi : i.val = t.val * 5000 + r.val) :
    (iblk4 V c 1 t : Vec Ideal S5000x128 .f32) (ix2 r k) = (V c (Pipeline.arrRef spec4 1) : FVec Ideal S50000x128 .f32) (ix2 i k) := by
  have e0 : win4_1.index t (0 : Fin 2) = t.val := (idx4 t).2.2.1
  have e1 : win4_1.index t (1 : Fin 2) = 0 := (idx4 t).2.2.2.1
  unfold iblk4
  rw [View.read_apply]
  show V c (Pipeline.arrRef spec4 1) _ = V c (Pipeline.arrRef spec4 1) _
  refine congrArg (V c (Pipeline.arrRef spec4 1)) (funext fun a => Fin.ext ?_)
  match a with
  | ⟨0, _⟩ => show win4_1.index t (0 : Fin 2) * 5000 + 1 * r.val = i.val; omega
  | ⟨1, _⟩ => show win4_1.index t (1 : Fin 2) * 128 + 1 * k.val = k.val; omega

/-- Term window 2's block at point t is rows 5000·t … 5000·t + 4999 of its array. -/
theorem iblk4_2_apply (c : Dev nD) (t : Fin cfg4.N) (r : Fin 5000) (k : Fin 128) (i : Fin 50000) (hi : i.val = t.val * 5000 + r.val) :
    (iblk4 V c 2 t : Vec Ideal S5000x128 .f32) (ix2 r k) = (V c (Pipeline.arrRef spec4 2) : FVec Ideal S50000x128 .f32) (ix2 i k) := by
  have e0 : win4_2.index t (0 : Fin 2) = t.val := (idx4 t).2.2.2.2.1
  have e1 : win4_2.index t (1 : Fin 2) = 0 := (idx4 t).2.2.2.2.2.1
  unfold iblk4
  rw [View.read_apply]
  show V c (Pipeline.arrRef spec4 2) _ = V c (Pipeline.arrRef spec4 2) _
  refine congrArg (V c (Pipeline.arrRef spec4 2)) (funext fun a => Fin.ext ?_)
  match a with
  | ⟨0, _⟩ => show win4_2.index t (0 : Fin 2) * 5000 + 1 * r.val = i.val; omega
  | ⟨1, _⟩ => show win4_2.index t (1 : Fin 2) * 128 + 1 * k.val = k.val; omega

/-- Term window 3's block at point t is rows 5000·t … 5000·t + 4999 of its array. -/
theorem iblk4_3_apply (c : Dev nD) (t : Fin cfg4.N) (r : Fin 5000) (k : Fin 128) (i : Fin 50000) (hi : i.val = t.val * 5000 + r.val) :
    (iblk4 V c 3 t : Vec Ideal S5000x128 .f32) (ix2 r k) = (V c (Pipeline.arrRef spec4 3) : FVec Ideal S50000x128 .f32) (ix2 i k) := by
  have e0 : win4_3.index t (0 : Fin 2) = t.val := (idx4 t).2.2.2.2.2.2.1
  have e1 : win4_3.index t (1 : Fin 2) = 0 := (idx4 t).2.2.2.2.2.2.2.1
  unfold iblk4
  rw [View.read_apply]
  show V c (Pipeline.arrRef spec4 3) _ = V c (Pipeline.arrRef spec4 3) _
  refine congrArg (V c (Pipeline.arrRef spec4 3)) (funext fun a => Fin.ext ?_)
  match a with
  | ⟨0, _⟩ => show win4_3.index t (0 : Fin 2) * 5000 + 1 * r.val = i.val; omega
  | ⟨1, _⟩ => show win4_3.index t (1 : Fin 2) * 128 + 1 * k.val = k.val; omega

/-- The weight's window is the whole weight at every point. -/
theorem iblk4_4_apply (c : Dev nD) (t : Fin cfg4.N) (q : Fin 4) (k j : Fin 128) :
    (iblk4 V c 4 t : Vec Ideal S4x128x128 .f32) (ix3 q k j) = (V c (Pipeline.arrRef spec4 4) : FVec Ideal S4x128x128 .f32) (ix3 q k j) := by
  have e0 : win4_4.index t (0 : Fin 3) = 0 := (idx4 t).2.2.2.2.2.2.2.2.1
  have e1 : win4_4.index t (1 : Fin 3) = 0 := (idx4 t).2.2.2.2.2.2.2.2.2.1
  have e2 : win4_4.index t (2 : Fin 3) = 0 := (idx4 t).2.2.2.2.2.2.2.2.2.2.1
  unfold iblk4
  rw [View.read_apply]
  show V c (Pipeline.arrRef spec4 4) _ = V c (Pipeline.arrRef spec4 4) _
  refine congrArg (V c (Pipeline.arrRef spec4 4)) (funext fun a => Fin.ext ?_)
  match a with
  | ⟨0, _⟩ => show win4_4.index t (0 : Fin 3) * 4 + 1 * q.val = q.val; omega
  | ⟨1, _⟩ => show win4_4.index t (1 : Fin 3) * 128 + 1 * k.val = k.val; omega
  | ⟨2, _⟩ => show win4_4.index t (2 : Fin 3) * 128 + 1 * j.val = j.val; omega

/-- The bias row's window is the whole row at every point. -/
theorem iblk4_5_apply (c : Dev nD) (t : Fin cfg4.N) (j : Fin 128) :
    (iblk4 V c 5 t : Vec Ideal S1x128 .f32) (ix2 (0 : Fin 1) j) = (V c (Pipeline.arrRef spec4 5) : FVec Ideal S1x128 .f32) (ix2 (0 : Fin 1) j) := by
  have e0 : win4_5.index t (0 : Fin 2) = 0 := (idx4 t).2.2.2.2.2.2.2.2.2.2.2.1
  have e1 : win4_5.index t (1 : Fin 2) = 0 := (idx4 t).2.2.2.2.2.2.2.2.2.2.2.2.1
  unfold iblk4
  rw [View.read_apply]
  show V c (Pipeline.arrRef spec4 5) _ = V c (Pipeline.arrRef spec4 5) _
  refine congrArg (V c (Pipeline.arrRef spec4 5)) (funext fun a => Fin.ext ?_)
  match a with
  | ⟨0, _⟩ => show win4_5.index t (0 : Fin 2) * 1 + 1 * 0 = 0; omega
  | ⟨1, _⟩ => show win4_5.index t (1 : Fin 2) * 128 + 1 * j.val = j.val; omega

/-- WHAT POINT t WRITES BACK is block t of the reference layer of the arrays as the region finds them. -/
theorem flushed4_6 (c : Dev nD) (bias : FVec Ideal Cert.ReferenceIdeal.S128 .f32)
    (hb : V c (Pipeline.arrRef spec4 5) = shapeCast S1x128 bias Facts₀.shapeCasts_S128_S1x128) (t : Fin cfg4.N) :
    (dat4 V c).flushed 6 t = ((cfg4.win 6).blk t).view.read (Elt Ideal)
      (layer4 (V c (Pipeline.arrRef spec4 0)) (V c (Pipeline.arrRef spec4 1)) (V c (Pipeline.arrRef spec4 2)) (V c (Pipeline.arrRef spec4 3)) (V c (Pipeline.arrRef spec4 4)) bias) := by
  show (cfg4.win 6).cut (grid4.coords t) ((dat4 V c).after 6 t) = _
  rw [after4_6]
  have e0 : win4_6.index t (0 : Fin 2) = t.val := (idx4 t).2.2.2.2.2.2.2.2.2.2.2.2.2.1
  have e1 : win4_6.index t (1 : Fin 2) = 0 := (idx4 t).2.2.2.2.2.2.2.2.2.2.2.2.2.2
  have hN : cfg4.N = 10 := N_4
  have ht : t.val < 10 := by have := t.isLt; omega
  funext y
  have hy0 : (y 0).val < 5000 := (y 0).isLt
  have hy1 : (y 1).val < 128 := (y 1).isLt
  rw [View.read_apply]
  show out4_6 (iblk4 V c 0 t) (iblk4 V c 1 t) (iblk4 V c 2 t) (iblk4 V c 3 t) (iblk4 V c 4 t) (iblk4 V c 5 t) y
    = layer4 (V c (Pipeline.arrRef spec4 0)) (V c (Pipeline.arrRef spec4 1)) (V c (Pipeline.arrRef spec4 2)) (V c (Pipeline.arrRef spec4 3)) (V c (Pipeline.arrRef spec4 4)) bias
        (((cfg4.win 6).blk t).view.emb y)
  have ey : (y : S5000x128.Idx) = ix2 (⟨(y 0).val, hy0⟩ : Fin 5000) (⟨(y 1).val, hy1⟩ : Fin 128) :=
    funext fun a => by match a with | ⟨0, _⟩ => rfl | ⟨1, _⟩ => rfl
  have ee : (((cfg4.win 6).blk t).view.emb y : S50000x128.Idx)
      = ix2 (⟨t.val * 5000 + (y 0).val, by omega⟩ : Fin 50000) (⟨(y 1).val, hy1⟩ : Fin 128) :=
    funext fun a => Fin.ext (by
      match a with
      | ⟨0, _⟩ => show win4_6.index t (0 : Fin 2) * 5000 + 1 * (y 0).val = t.val * 5000 + (y 0).val; omega
      | ⟨1, _⟩ => show win4_6.index t (1 : Fin 2) * 128 + 1 * (y 1).val = (y 1).val; omega)
  rw [ee]
  refine (congrArg (out4_6 (iblk4 V c 0 t) (iblk4 V c 1 t) (iblk4 V c 2 t) (iblk4 V c 3 t) (iblk4 V c 4 t) (iblk4 V c 5 t)) ey).trans ?_
  exact out4_6_apply (iblk4 V c 0 t) (iblk4 V c 1 t) (iblk4 V c 2 t) (iblk4 V c 3 t) (iblk4 V c 4 t) (iblk4 V c 5 t)
    (V c (Pipeline.arrRef spec4 0)) (V c (Pipeline.arrRef spec4 1)) (V c (Pipeline.arrRef spec4 2)) (V c (Pipeline.arrRef spec4 3)) (V c (Pipeline.arrRef spec4 4)) bias
    ⟨(y 0).val, hy0⟩ ⟨t.val * 5000 + (y 0).val, by omega⟩ ⟨(y 1).val, hy1⟩
    (fun k => iblk4_0_apply V c t _ k _ rfl) (fun k => iblk4_1_apply V c t _ k _ rfl)
    (fun k => iblk4_2_apply V c t _ k _ rfl) (fun k => iblk4_3_apply V c t _ k _ rfl)
    (fun q k => iblk4_4_apply V c t q k _)
    ((iblk4_5_apply V c t _).trans ((congrFun hb _).trans (bias_row_apply bias _)))

/-- An index of the output array is in point t's block iff each coordinate is in the block's range on its axis. -/
theorem mem_blk4_6 (t : Fin cfg4.N) (i : S50000x128.Idx) :
    i ∈ ((cfg4.win 6).blk t).view.set ↔ ∀ a : Fin 2, win4_6.index t a * S5000x128.size a ≤ (i a).val ∧ (i a).val < win4_6.index t a * S5000x128.size a + S5000x128.size a := by
  show i ∈ ((View.whole main_v202).slice (win4_6.rect t)).set ↔ _
  rw [View.set_slice_whole, Rect.mem_set_unit]
  exact Iff.rfl

/-- Every row is covered: row r lies in the block of point r / 5000. -/
theorem covered4_6 (i : S50000x128.Idx) :
    ∃ t : Fin cfg4.N, (cfg4.win 6).flush t = true ∧ i ∈ ((cfg4.win 6).blk t).view.set := by
  have hi0 : (i 0).val < 50000 := (i 0).isLt
  have hi1 : (i 1).val < 128 := (i 1).isLt
  have hN : cfg4.N = 10 := N_4
  have hlt : (i 0).val / 5000 < cfg4.N := by rw [hN]; omega
  have e0 : win4_6.index ⟨(i 0).val / 5000, hlt⟩ (0 : Fin 2) = (i 0).val / 5000 := (idx4 ⟨(i 0).val / 5000, hlt⟩).2.2.2.2.2.2.2.2.2.2.2.2.2.1
  have e1 : win4_6.index ⟨(i 0).val / 5000, hlt⟩ (1 : Fin 2) = 0 := (idx4 ⟨(i 0).val / 5000, hlt⟩).2.2.2.2.2.2.2.2.2.2.2.2.2.2
  refine ⟨⟨(i 0).val / 5000, hlt⟩, flush4_6 _, ?_⟩
  rw [mem_blk4_6]
  intro a
  match a with
  | ⟨0, _⟩ =>
    show win4_6.index ⟨(i 0).val / 5000, hlt⟩ (0 : Fin 2) * 5000 ≤ (i 0).val ∧ (i 0).val < win4_6.index ⟨(i 0).val / 5000, hlt⟩ (0 : Fin 2) * 5000 + 5000
    rw [e0]; omega
  | ⟨1, _⟩ =>
    show win4_6.index ⟨(i 0).val / 5000, hlt⟩ (1 : Fin 2) * 128 ≤ (i 1).val ∧ (i 1).val < win4_6.index ⟨(i 0).val / 5000, hlt⟩ (1 : Fin 2) * 128 + 128
    rw [e1]; omega

/-- THE OUTPUT ARRAY after the region is the reference layer of the four term arrays, the weight and the bias as the
    region finds them. -/
theorem _root_.Cert.RefForm.region4_value (c : Dev nD) (bias : FVec Ideal Cert.ReferenceIdeal.S128 .f32)
    (hb : V c (Pipeline.arrRef spec4 5) = shapeCast S1x128 bias Facts₀.shapeCasts_S128_S1x128) :
    (dat4 V c).arrAt 6 cfg4.N
      = layer4 (V c (Pipeline.arrRef spec4 0)) (V c (Pipeline.arrRef spec4 1)) (V c (Pipeline.arrRef spec4 2)) (V c (Pipeline.arrRef spec4 3)) (V c (Pipeline.arrRef spec4 4)) bias :=
  (dat4 V c).arrAt_eq_of_cover 6 _ (fun t _ => flushed4_6 V c bias hb t) (covered4_6)

end Blocks

end Lin

end Cert.RefForm

end
-- ==== Proof.Step3a.lean ====
/-
  The third Chebyshev projection. The kernel program computes the layer's four Chebyshev terms by host
  operations (gathers along the edges' sources, products with the edge weights, scatter-adds at the edges' targets;
  in the wide layers through copies rounded to the narrower float format, the identity on the extended reals) and
  applies the four stacked matrix products, the bias and the rectifier in one region, block of rows by block of rows;
  the reference interleaves the same host operations with whole-array matrix products. Given that the two programs
  agree before it, they agree after it: the region's output array is the reference's expression of the region's input
  arrays (the region's value), those input arrays are the same host expressions of buffers on which the programs
  agree, and every other buffer carried along is written by neither program in this stretch.
-/
import proofs.«175070_j35072702939553_2_alg».proof.Proof.BridgeBase
import proofs.«175070_j35072702939553_2_alg».proof.Proof.RegionLin4

set_option maxRecDepth 16384

noncomputable section

namespace Cert.Bridge

open Idealize.ShloMosaic Idealize.ShloMosaic.TcCoe Idealize.ShloMosaic.StableHlo
open Idealize.SL Idealize.SL.Sem

set_option maxHeartbeats 4000000 in
theorem step3a (m : KMem) (ρ : Dev Cert.KernelIdeal.nD → PrngReg) (m' : RMem) (c : Dev Cert.KernelIdeal.nD) (h : I14 m ρ m' c) : I16 m ρ m' c := by
  obtain ⟨h_hn, h_hn16, h_w, h_src, h_dst, h_a6, h_a7, h_a8, h_a9, h_a14, h_a15⟩ := h
  refine ⟨?_, ?_, ?_, ?_, ?_, ?_, ?_, ?_⟩
  · -- the layer's output: the region's value, its inputs read through the host stretch, the leaves identified
    refine (Cert.KernelIdeal.Gen.W16_arr m ρ c 6).trans ?_
    refine (Cert.RefForm.region4_value (Cert.KernelIdeal.Gen.V15 (F := Ideal) m ρ) c (Cert.KernelIdeal.Gen.W14 m ρ c (Proc.devRef .tc Cert.KernelIdeal.main_arg7)) ?_).trans ?_
    · show Cert.KernelIdeal.Gen.W15 m ρ c (Proc.devRef .tc Cert.KernelIdeal.main_v201) = _
      after_results_simp <;> rfl
    · show Cert.RefForm.layer4 (Cert.KernelIdeal.Gen.W15 m ρ c (Proc.devRef .tc Cert.KernelIdeal.main_v150_0)) (Cert.KernelIdeal.Gen.W15 m ρ c (Proc.devRef .tc Cert.KernelIdeal.main_v164)) (Cert.KernelIdeal.Gen.W15 m ρ c (Proc.devRef .tc Cert.KernelIdeal.main_v182)) (Cert.KernelIdeal.Gen.W15 m ρ c (Proc.devRef .tc Cert.KernelIdeal.main_v200)) (Cert.KernelIdeal.Gen.W15 m ρ c (Proc.devRef .tc Cert.KernelIdeal.main_arg6)) _ = _
      unfold RW6 Cert.RefForm.layer4
      after_results_simp
      rw [h_hn, h_hn16, h_w, h_src, h_dst, h_a6, h_a7]
      rfl
  · -- w: written by neither program in this stretch
    refine (Cert.KernelIdeal.Gen.W16_of_ne m ρ c Cert.KernelIdeal.main_v33 (by decide)).trans (Eq.trans ?_ (h_w.trans ?_))
    · after_results_simp
    · unfold RW6; after_results_simp
  · -- src: written by neither program in this stretch
    refine (Cert.KernelIdeal.Gen.W16_of_ne m ρ c Cert.KernelIdeal.main_v1 (by decide)).trans (Eq.trans ?_ (h_src.trans ?_))
    · after_results_simp
    · unfold RW6; after_results_simp
  · -- dst: written by neither program in this stretch
    refine (Cert.KernelIdeal.Gen.W16_of_ne m ρ c Cert.KernelIdeal.main_v3 (by decide)).trans (Eq.trans ?_ (h_dst.trans ?_))
    · after_results_simp
    · unfold RW6; after_results_simp
  · -- a8: written by neither program in this stretch
    refine (Cert.KernelIdeal.Gen.W16_of_ne m ρ c Cert.KernelIdeal.main_arg8 (by decide)).trans (Eq.trans ?_ (h_a8.trans ?_))
    · after_results_simp
    · unfold RW6; after_results_simp
  · -- a9: written by neither program in this stretch
    refine (Cert.KernelIdeal.Gen.W16_of_ne m ρ c Cert.KernelIdeal.main_arg9 (by decide)).trans (Eq.trans ?_ (h_a9.trans ?_))
    · after_results_simp
    · unfold RW6; after_results_simp
  · -- a14: written by neither program in this stretch
    refine (Cert.KernelIdeal.Gen.W16_of_ne m ρ c Cert.KernelIdeal.main_arg14 (by decide)).trans (Eq.trans ?_ (h_a14.trans ?_))
    · after_results_simp
    · unfold RW6; after_results_simp
  · -- a15: written by neither program in this stretch
    refine (Cert.KernelIdeal.Gen.W16_of_ne m ρ c Cert.KernelIdeal.main_arg15 (by decide)).trans (Eq.trans ?_ (h_a15.trans ?_))
    · after_results_simp
    · unfold RW6; after_results_simp

end Cert.Bridge

end
-- ==== Proof.RegionBn5.lean ====
/- The value of the kernel program's third batch-normalisation region.

   The region walks the 50000 rows of the activation array in ten blocks of 5000 rows. At block t it holds rows
   5000·t … 5000·t + 4999 of the array and the four column vectors (mean, variance, gamma, beta) as one-row
   matrices, and writes, to the same rows of both result arrays, the normalised rows. Here: a row of a block is
   row 5000·t + p of the array (`emb_in`, `emb_out`, `emb_out16`), the one-row windows are read whole
   (`emb_row`), so what block t writes back is block t of the normalised array `bn1` (`written_eq`,
   `written16_eq`); row r lies in block r / 5000 (`covered`, `covered16`); hence each result array ends
   holding `bn1` of the region's inputs (`region5_value`, `region5_value_bf16`: the second result is the
   first rounded to another format, which changes no extended real). -/
import proofs.«175070_j35072702939553_2_alg».proof.Proof.Gen.KernelIdeal.Frame
import proofs.«175070_j35072702939553_2_alg».proof.Proof.BnForm
import Idealize.ShloMosaic.Lib.Pipeline.Value

noncomputable section

open Idealize.ShloMosaic Idealize.ShloMosaic.TcCoe Idealize.SL.Sem Idealize.ShloMosaic.ValueIdx
open Idealize.ShloMosaic.Pipeline (Dat)

namespace Cert.RefForm.Region5

open Cert.KernelIdeal Cert.KernelIdeal.Gen Cert.RefForm

/-- The printed index maps over the ten blocks: the activation window and the two result windows are at block t,
    the four one-row windows stay at block 0. -/
theorem idx_facts : ∀ t : Fin cfg5.N,
    win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = t.val ∧ win5_5.index t (1 : Fin 2) = 0
    ∧ win5_6.index t (0 : Fin 2) = t.val ∧ win5_6.index t (1 : Fin 2) = 0 :=
  (by decide +kernel : ∀ t : Fin grid5.N, _)

theorem point_lt (t : Fin cfg5.N) : t.val < 10 := lt_of_lt_of_eq t.isLt N_5

/-- Row p of block t is row 5000·t + p of the array. -/
def rowOf (t : Fin cfg5.N) (p : Fin 5000) : Fin 50000 := ⟨t.val * 5000 + p.val, by have := point_lt t; have := p.isLt; omega⟩

section
variable (V : (c : Dev nD) → (b : Ref sig .tc) → Buf (Elt Ideal) ((c : Thread nD τ).loc b)) (c : Dev nD)

/-- The activation window's block at t sits at rows 5000·t … of its array. -/
theorem emb_in (t : Fin cfg5.N) (p : Fin 5000) (q : Fin 128) :
    ((cfg5.win 0).blk t).view.emb (ix2 p q) = ix2 (rowOf t p) q := by
  obtain ⟨e0, e1, -⟩ := idx_facts t
  funext a; apply Fin.ext
  match a with
  | ⟨0, _⟩ => show win5_0.index t (0 : Fin 2) * 5000 + 1 * p.val = t.val * 5000 + p.val; rw [e0]; omega
  | ⟨1, _⟩ => show win5_0.index t (1 : Fin 2) * 128 + 1 * q.val = q.val; rw [e1]; omega

/-- So does the first result window's … -/
theorem emb_out (t : Fin cfg5.N) (p : Fin 5000) (q : Fin 128) :
    ((cfg5.win 5).blk t).view.emb (ix2 p q) = ix2 (rowOf t p) q := by
  obtain ⟨-, -, -, -, -, -, -, -, -, -, e0, e1, -⟩ := idx_facts t
  funext a; apply Fin.ext
  match a with
  | ⟨0, _⟩ => show win5_5.index t (0 : Fin 2) * 5000 + 1 * p.val = t.val * 5000 + p.val; rw [e0]; omega
  | ⟨1, _⟩ => show win5_5.index t (1 : Fin 2) * 128 + 1 * q.val = q.val; rw [e1]; omega

/-- … and the second's. -/
theorem emb_out16 (t : Fin cfg5.N) (p : Fin 5000) (q : Fin 128) :
    ((cfg5.win 6).blk t).view.emb (ix2 p q) = ix2 (rowOf t p) q := by
  obtain ⟨-, -, -, -, -, -, -, -, -, -, -, -, e0, e1⟩ := idx_facts t
  funext a; apply Fin.ext
  match a with
  | ⟨0, _⟩ => show win5_6.index t (0 : Fin 2) * 5000 + 1 * p.val = t.val * 5000 + p.val; rw [e0]; omega
  | ⟨1, _⟩ => show win5_6.index t (1 : Fin 2) * 128 + 1 * q.val = q.val; rw [e1]; omega

/-- The four one-row windows read their whole array at every block. -/
theorem emb_row (t : Fin cfg5.N) (q : Fin 128) :
    ((cfg5.win 1).blk t).view.emb (ix2 (0 : Fin 1) q) = ix2 (0 : Fin 1) q
    ∧ ((cfg5.win 2).blk t).view.emb (ix2 (0 : Fin 1) q) = ix2 (0 : Fin 1) q
    ∧ ((cfg5.win 3).blk t).view.emb (ix2 (0 : Fin 1) q) = ix2 (0 : Fin 1) q
    ∧ ((cfg5.win 4).blk t).view.emb (ix2 (0 : Fin 1) q) = ix2 (0 : Fin 1) q := by
  obtain ⟨-, -, a0, a1, b0, b1, c0, c1, d0, d1, -⟩ := idx_facts t
  refine ⟨?_, ?_, ?_, ?_⟩ <;> (funext a; apply Fin.ext)
  · match a with
    | ⟨0, _⟩ => show win5_1.index t (0 : Fin 2) * 1 + 1 * 0 = 0; rw [a0]
    | ⟨1, _⟩ => show win5_1.index t (1 : Fin 2) * 128 + 1 * q.val = q.val; rw [a1]; omega
  · match a with
    | ⟨0, _⟩ => show win5_2.index t (0 : Fin 2) * 1 + 1 * 0 = 0; rw [b0]
    | ⟨1, _⟩ => show win5_2.index t (1 : Fin 2) * 128 + 1 * q.val = q.val; rw [b1]; omega
  · match a with
    | ⟨0, _⟩ => show win5_3.index t (0 : Fin 2) * 1 + 1 * 0 = 0; rw [c0]
    | ⟨1, _⟩ => show win5_3.index t (1 : Fin 2) * 128 + 1 * q.val = q.val; rw [c1]; omega
  · match a with
    | ⟨0, _⟩ => show win5_4.index t (0 : Fin 2) * 1 + 1 * 0 = 0; rw [d0]
    | ⟨1, _⟩ => show win5_4.index t (1 : Fin 2) * 128 + 1 * q.val = q.val; rw [d1]; omega

/-- A one-row window's array holding a vector's one-row matrix reads, through its block, the vector. -/
theorem row_read (A : S1x128.Idx → Ideal .f32) (x : FVec Ideal Cert.ReferenceIdeal.S128 .f32)
    (hA : A = shapeCast S1x128 x shapeCasts_S128_S1x128) (i : S1x128.Idx) (q : Fin 128) (hi : i = ix2 (0 : Fin 1) q) :
    A i = x (ix1 q) := by
  subst hA hi; exact row_of_vector_apply x q

variable (mean var gamma beta : FVec Ideal Cert.ReferenceIdeal.S128 .f32)
  (hm : V c (Pipeline.arrRef spec5 1) = shapeCast S1x128 mean shapeCasts_S128_S1x128)
  (hv : V c (Pipeline.arrRef spec5 2) = shapeCast S1x128 var shapeCasts_S128_S1x128)
  (hg : V c (Pipeline.arrRef spec5 3) = shapeCast S1x128 gamma shapeCasts_S128_S1x128)
  (hbeta : V c (Pipeline.arrRef spec5 4) = shapeCast S1x128 beta shapeCasts_S128_S1x128)

set_option maxHeartbeats 2000000 in
include hm hv hg hbeta in
/-- THE BODY AT A POINT OF A BLOCK: what the body stores at row p, column q of block t, from the region's input
    blocks, is the normalised array at row 5000·t + p, column q. -/
theorem body_entry (t : Fin cfg5.N) (p : Fin 5000) (q : Fin 128) :
    k1_pay1 (F := Ideal) (iblk5 V c 2 t) (iblk5 V c 0 t) (iblk5 V c 1 t) (iblk5 V c 3 t) (iblk5 V c 4 t) (ix2 p q)
      = bn1 (V c (Pipeline.arrRef spec5 0)) mean var gamma beta (ix2 (rowOf t p) q) := by
  obtain ⟨r1, r2, r3, r4⟩ := emb_row t q
  refine block_entry (V c (Pipeline.arrRef spec5 0)) mean var gamma beta (iblk5 V c 0 t) (iblk5 V c 1 t) (iblk5 V c 2 t)
    (iblk5 V c 3 t) (iblk5 V c 4 t) p q (rowOf t p) ?_ ?_ ?_ ?_ ?_
  · show V c (Pipeline.arrRef spec5 0) (((cfg5.win 0).blk t).view.emb (ix2 p q)) = _
    rw [emb_in]
  · show V c (Pipeline.arrRef spec5 1) (((cfg5.win 1).blk t).view.emb (ix2 (0 : Fin 1) q)) = _
    exact row_read _ mean hm _ q r1
  · show V c (Pipeline.arrRef spec5 2) (((cfg5.win 2).blk t).view.emb (ix2 (0 : Fin 1) q)) = _
    exact row_read _ var hv _ q r2
  · show V c (Pipeline.arrRef spec5 3) (((cfg5.win 3).blk t).view.emb (ix2 (0 : Fin 1) q)) = _
    exact row_read _ gamma hg _ q r3
  · show V c (Pipeline.arrRef spec5 4) (((cfg5.win 4).blk t).view.emb (ix2 (0 : Fin 1) q)) = _
    exact row_read _ beta hbeta _ q r4

set_option maxHeartbeats 2000000 in
include hm hv hg hbeta in
/-- WHAT BLOCK t WRITES BACK to the first result array is block t of the normalised array. -/
theorem written_eq (t : Fin cfg5.N) :
    (dat5 V c).flushed 5 t
      = ((cfg5.win 5).blk t).view.read (Elt Ideal) (bn1 (V c (Pipeline.arrRef spec5 0)) mean var gamma beta) := by
  show (cfg5.win 5).cut (grid5.coords t) ((dat5 V c).after 5 t) = _
  rw [after5_5]
  unfold out5_5
  rw [View.canon_unit_zero zero_offsets]
  simp only [View.ld_unit_zero (S := S5000x128) zero_offsets, View.ld_unit_zero (S := S1x128) zero_offsets]
  refine block_ext _ _ (fun p q => ?_)
  show k5_pay1 (F := Ideal) (iblk5 V c 2 t) (iblk5 V c 0 t) (iblk5 V c 1 t) (iblk5 V c 3 t) (iblk5 V c 4 t) (ix2 p q)
    = bn1 (V c (Pipeline.arrRef spec5 0)) mean var gamma beta (((cfg5.win 5).blk t).view.emb (ix2 p q))
  rw [emb_out, k5_pay1_eq]
  exact body_entry V c mean var gamma beta hm hv hg hbeta t p q

set_option maxHeartbeats 2000000 in
include hm hv hg hbeta in
/-- The same for the second result array: its stored value is the first's in another format. -/
theorem written16_eq (t : Fin cfg5.N) :
    (dat5 V c).flushed 6 t
      = ((cfg5.win 6).blk t).view.read (Elt Ideal) (bn1 (V c (Pipeline.arrRef spec5 0)) mean var gamma beta) := by
  show (cfg5.win 6).cut (grid5.coords t) ((dat5 V c).after 6 t) = _
  rw [after5_6]
  unfold out5_6
  rw [View.canon_unit_zero zero_offsets]
  simp only [View.ld_unit_zero (S := S5000x128) zero_offsets, View.ld_unit_zero (S := S1x128) zero_offsets]
  refine block_ext _ _ (fun p q => ?_)
  show k5_pay1 (F := Ideal) (iblk5 V c 2 t) (iblk5 V c 0 t) (iblk5 V c 1 t) (iblk5 V c 3 t) (iblk5 V c 4 t) (ix2 p q)
    = bn1 (V c (Pipeline.arrRef spec5 0)) mean var gamma beta (((cfg5.win 6).blk t).view.emb (ix2 p q))
  rw [emb_out16, k5_pay1_eq]
  exact body_entry V c mean var gamma beta hm hv hg hbeta t p q

end

/-- An index of the first result array is in block t iff its row is one of the block's 5000 rows. -/
theorem mem_blk (t : Fin cfg5.N) (i : S50000x128.Idx) :
    i ∈ ((cfg5.win 5).blk t).view.set ↔ ∀ a : Fin 2, win5_5.index t a * S5000x128.size a ≤ (i a).val ∧ (i a).val < win5_5.index t a * S5000x128.size a + S5000x128.size a := by
  show i ∈ ((View.whole main_v211_0).slice (win5_5.rect t)).set ↔ _
  rw [View.set_slice_whole, Rect.mem_set_unit]
  exact Iff.rfl

theorem mem_blk16 (t : Fin cfg5.N) (i : S50000x128.Idx) :
    i ∈ ((cfg5.win 6).blk t).view.set ↔ ∀ a : Fin 2, win5_6.index t a * S5000x128.size a ≤ (i a).val ∧ (i a).val < win5_6.index t a * S5000x128.size a + S5000x128.size a := by
  show i ∈ ((View.whole main_v211_1).slice (win5_6.rect t)).set ↔ _
  rw [View.set_slice_whole, Rect.mem_set_unit]
  exact Iff.rfl

/-- The block that holds row r is block r / 5000. -/
theorem point_of_row (i : S50000x128.Idx) : ∃ t : Fin cfg5.N, t.val = (i 0).val / 5000 :=
  ⟨⟨(i 0).val / 5000, by have h : (i 0).val < 50000 := (i 0).isLt; show (i 0).val / 5000 < grid5.N; rw [N_5]; omega⟩, rfl⟩

/-- Every index of the first result array is in some block that is written back. -/
theorem covered (i : S50000x128.Idx) : ∃ t : Fin cfg5.N, (cfg5.win 5).flush t = true ∧ i ∈ ((cfg5.win 5).blk t).view.set := by
  have h0 : (i 0).val < 50000 := (i 0).isLt
  have h1 : (i 1).val < 128 := (i 1).isLt
  obtain ⟨t, ht⟩ := point_of_row i
  obtain ⟨-, -, -, -, -, -, -, -, -, -, e0, e1, -⟩ := idx_facts t
  refine ⟨t, flush5_5 t, ?_⟩
  rw [mem_blk]
  intro a
  match a with
  | ⟨0, _⟩ => show win5_5.index t (0 : Fin 2) * 5000 ≤ (i 0).val ∧ (i 0).val < win5_5.index t (0 : Fin 2) * 5000 + 5000; rw [e0, ht]; omega
  | ⟨1, _⟩ => show win5_5.index t (1 : Fin 2) * 128 ≤ (i 1).val ∧ (i 1).val < win5_5.index t (1 : Fin 2) * 128 + 128; rw [e1]; omega

/-- And of the second. -/
theorem covered16 (i : S50000x128.Idx) : ∃ t : Fin cfg5.N, (cfg5.win 6).flush t = true ∧ i ∈ ((cfg5.win 6).blk t).view.set := by
  have h0 : (i 0).val < 50000 := (i 0).isLt
  have h1 : (i 1).val < 128 := (i 1).isLt
  obtain ⟨t, ht⟩ := point_of_row i
  obtain ⟨-, -, -, -, -, -, -, -, -, -, -, -, e0, e1⟩ := idx_facts t
  refine ⟨t, flush5_6 t, ?_⟩
  rw [mem_blk16]
  intro a
  match a with
  | ⟨0, _⟩ => show win5_6.index t (0 : Fin 2) * 5000 ≤ (i 0).val ∧ (i 0).val < win5_6.index t (0 : Fin 2) * 5000 + 5000; rw [e0, ht]; omega
  | ⟨1, _⟩ => show win5_6.index t (1 : Fin 2) * 128 ≤ (i 1).val ∧ (i 1).val < win5_6.index t (1 : Fin 2) * 128 + 128; rw [e1]; omega

end Cert.RefForm.Region5

namespace Cert.RefForm

open Cert.KernelIdeal Cert.KernelIdeal.Gen

set_option maxHeartbeats 2000000 in
/-- THE REGION'S FIRST RESULT: after the ten blocks the array holds the normalised array of the region's activation
    input and of the four vectors whose one-row matrices the region reads. -/
theorem region5_value (V : (c : Dev nD) → (b : Ref sig .tc) → Buf (Elt Ideal) ((c : Thread nD τ).loc b)) (c : Dev nD)
    (mean var gamma beta : FVec Ideal Cert.ReferenceIdeal.S128 .f32)
    (hm : V c (Pipeline.arrRef spec5 1) = shapeCast S1x128 mean shapeCasts_S128_S1x128)
    (hv : V c (Pipeline.arrRef spec5 2) = shapeCast S1x128 var shapeCasts_S128_S1x128)
    (hg : V c (Pipeline.arrRef spec5 3) = shapeCast S1x128 gamma shapeCasts_S128_S1x128)
    (hbeta : V c (Pipeline.arrRef spec5 4) = shapeCast S1x128 beta shapeCasts_S128_S1x128) :
    (dat5 V c).arrAt 5 cfg5.N = bn1 (V c (Pipeline.arrRef spec5 0)) mean var gamma beta :=
  (dat5 V c).arrAt_eq_of_cover 5 (bn1 (V c (Pipeline.arrRef spec5 0)) mean var gamma beta)
    (fun t _ => Region5.written_eq V c mean var gamma beta hm hv hg hbeta t) Region5.covered

set_option maxHeartbeats 2000000 in
/-- THE REGION'S SECOND RESULT holds the same extended reals. -/
theorem region5_value_bf16 (V : (c : Dev nD) → (b : Ref sig .tc) → Buf (Elt Ideal) ((c : Thread nD τ).loc b)) (c : Dev nD)
    (mean var gamma beta : FVec Ideal Cert.ReferenceIdeal.S128 .f32)
    (hm : V c (Pipeline.arrRef spec5 1) = shapeCast S1x128 mean shapeCasts_S128_S1x128)
    (hv : V c (Pipeline.arrRef spec5 2) = shapeCast S1x128 var shapeCasts_S128_S1x128)
    (hg : V c (Pipeline.arrRef spec5 3) = shapeCast S1x128 gamma shapeCasts_S128_S1x128)
    (hbeta : V c (Pipeline.arrRef spec5 4) = shapeCast S1x128 beta shapeCasts_S128_S1x128) :
    (dat5 V c).arrAt 6 cfg5.N = bn1 (V c (Pipeline.arrRef spec5 0)) mean var gamma beta :=
  (dat5 V c).arrAt_eq_of_cover 6 (bn1 (V c (Pipeline.arrRef spec5 0)) mean var gamma beta)
    (fun t _ => Region5.written16_eq V c mean var gamma beta hm hv hg hbeta t) Region5.covered16

end Cert.RefForm

end
-- ==== Proof.Step3b.lean ====
/-
  The third batch normalization. The kernel program computes the column means and variances of the activated layer
  output by host operations, makes them and the two affine parameter vectors one-row matrices, and applies the
  normalization in a region, block of rows by block of rows; the reference applies the same host operations and then
  the normalization as whole-array host operations. Given that the two programs agree before it (`I16`), they agree
  after it (`I20`): each of the region's two output arrays is the normalized array of the region's input arrays (the
  region's value), those input arrays are the same host expressions of buffers on which the programs agree, and every
  other buffer carried along is written by neither program in this stretch.
-/
import proofs.«175070_j35072702939553_2_alg».proof.Proof.BridgeBase
import proofs.«175070_j35072702939553_2_alg».proof.Proof.RegionBn5

set_option maxRecDepth 16384

noncomputable section

namespace Cert.Bridge

open Idealize.ShloMosaic Idealize.ShloMosaic.TcCoe Idealize.ShloMosaic.StableHlo
open Idealize.SL Idealize.SL.Sem

section
variable (m : KMem) (ρ : Dev Cert.KernelIdeal.nD → PrngReg) (m' : RMem) (c : Dev Cert.KernelIdeal.nD)

/-- The region's one-row matrix of the mean vector is that vector's elements in the same order. -/
theorem row5_mean : Cert.KernelIdeal.Gen.W19 (F := Ideal) m ρ c (Proc.devRef .tc Cert.KernelIdeal.main_v207)
    = shapeCast Cert.KernelIdeal.S1x128 (Cert.KernelIdeal.Gen.W18 (F := Ideal) m ρ c (Proc.devRef .tc Cert.KernelIdeal.main_v205)) Cert.KernelIdeal.Gen.shapeCasts_S128_S1x128 := by
  after_results_simp <;> rfl

/-- The region's one-row matrix of the variance vector is that vector's elements in the same order. -/
theorem row5_var : Cert.KernelIdeal.Gen.W19 (F := Ideal) m ρ c (Proc.devRef .tc Cert.KernelIdeal.main_v208)
    = shapeCast Cert.KernelIdeal.S1x128 (Cert.KernelIdeal.Gen.W18 (F := Ideal) m ρ c (Proc.devRef .tc Cert.KernelIdeal.main_v206)) Cert.KernelIdeal.Gen.shapeCasts_S128_S1x128 := by
  after_results_simp <;> rfl

/-- The region's one-row matrix of the scale vector is that vector's elements in the same order. -/
theorem row5_gamma : Cert.KernelIdeal.Gen.W19 (F := Ideal) m ρ c (Proc.devRef .tc Cert.KernelIdeal.main_v209)
    = shapeCast Cert.KernelIdeal.S1x128 (Cert.KernelIdeal.Gen.W18 (F := Ideal) m ρ c (Proc.devRef .tc Cert.KernelIdeal.main_arg14)) Cert.KernelIdeal.Gen.shapeCasts_S128_S1x128 := by
  after_results_simp <;> rfl

/-- The region's one-row matrix of the shift vector is that vector's elements in the same order. -/
theorem row5_beta : Cert.KernelIdeal.Gen.W19 (F := Ideal) m ρ c (Proc.devRef .tc Cert.KernelIdeal.main_v210)
    = shapeCast Cert.KernelIdeal.S1x128 (Cert.KernelIdeal.Gen.W18 (F := Ideal) m ρ c (Proc.devRef .tc Cert.KernelIdeal.main_arg15)) Cert.KernelIdeal.Gen.shapeCasts_S128_S1x128 := by
  after_results_simp <;> rfl

/-- The normalized array of the kernel program's activation array, mean, variance and affine parameters is what the
    reference holds at its normalization's result: both are the same host expression of buffers on which the two
    programs agree (the activation array and the two affine parameter vectors). -/
theorem bn5_ref
    (h_h : Cert.KernelIdeal.Gen.W16 (F := Ideal) m ρ c (Proc.devRef .tc Cert.KernelIdeal.main_v202) = RW6 m' c (Proc.devRef .tc Cert.ReferenceIdeal.main_v263))
    (h_g : Cert.KernelIdeal.Gen.W16 (F := Ideal) m ρ c (Proc.devRef .tc Cert.KernelIdeal.main_arg14) = RW6 m' c (Proc.devRef .tc Cert.ReferenceIdeal.main_arg14))
    (h_b : Cert.KernelIdeal.Gen.W16 (F := Ideal) m ρ c (Proc.devRef .tc Cert.KernelIdeal.main_arg15) = RW6 m' c (Proc.devRef .tc Cert.ReferenceIdeal.main_arg15)) :
    Cert.RefForm.bn1 (Cert.KernelIdeal.Gen.V19 (F := Ideal) m ρ c (Pipeline.arrRef Cert.KernelIdeal.spec5 0))
      (Cert.KernelIdeal.Gen.W18 (F := Ideal) m ρ c (Proc.devRef .tc Cert.KernelIdeal.main_v205)) (Cert.KernelIdeal.Gen.W18 (F := Ideal) m ρ c (Proc.devRef .tc Cert.KernelIdeal.main_v206))
      (Cert.KernelIdeal.Gen.W18 (F := Ideal) m ρ c (Proc.devRef .tc Cert.KernelIdeal.main_arg14)) (Cert.KernelIdeal.Gen.W18 (F := Ideal) m ρ c (Proc.devRef .tc Cert.KernelIdeal.main_arg15))
      = RW7 m' c (Proc.devRef .tc Cert.ReferenceIdeal.main_v282) := by
  show Cert.RefForm.bn1 (Cert.KernelIdeal.Gen.W19 (F := Ideal) m ρ c (Proc.devRef .tc Cert.KernelIdeal.main_v202)) _ _ _ _ = _
  unfold RW7 Cert.RefForm.bn1
  after_results_simp
  rw [h_h, h_g, h_b]

end

set_option maxHeartbeats 4000000 in
theorem step3b (m : KMem) (ρ : Dev Cert.KernelIdeal.nD → PrngReg) (m' : RMem) (c : Dev Cert.KernelIdeal.nD)
    (h : I16 m ρ m' c) : I20 m ρ m' c := by
  unfold I16 at h
  obtain ⟨h_h, h_w, h_src, h_dst, h_a8, h_a9, h_a14, h_a15⟩ := h
  unfold I20
  refine ⟨?_, ?_, ?_, ?_, ?_, ?_, ?_⟩
  · -- hn: the region's value, then the same host expression on both sides
    refine (Cert.KernelIdeal.Gen.W20_arr m ρ c 5).trans ?_
    exact (Cert.RefForm.region5_value (Cert.KernelIdeal.Gen.V19 (F := Ideal) m ρ) c
      (Cert.KernelIdeal.Gen.W18 (F := Ideal) m ρ c (Proc.devRef .tc Cert.KernelIdeal.main_v205)) (Cert.KernelIdeal.Gen.W18 (F := Ideal) m ρ c (Proc.devRef .tc Cert.KernelIdeal.main_v206))
      (Cert.KernelIdeal.Gen.W18 (F := Ideal) m ρ c (Proc.devRef .tc Cert.KernelIdeal.main_arg14)) (Cert.KernelIdeal.Gen.W18 (F := Ideal) m ρ c (Proc.devRef .tc Cert.KernelIdeal.main_arg15))
      (row5_mean m ρ c) (row5_var m ρ c) (row5_gamma m ρ c) (row5_beta m ρ c)).trans (bn5_ref m ρ m' c h_h h_a14 h_a15)
  · -- hn16: the region's value, then the same host expression on both sides
    refine (Cert.KernelIdeal.Gen.W20_arr m ρ c 6).trans ?_
    exact (Cert.RefForm.region5_value_bf16 (Cert.KernelIdeal.Gen.V19 (F := Ideal) m ρ) c
      (Cert.KernelIdeal.Gen.W18 (F := Ideal) m ρ c (Proc.devRef .tc Cert.KernelIdeal.main_v205)) (Cert.KernelIdeal.Gen.W18 (F := Ideal) m ρ c (Proc.devRef .tc Cert.KernelIdeal.main_v206))
      (Cert.KernelIdeal.Gen.W18 (F := Ideal) m ρ c (Proc.devRef .tc Cert.KernelIdeal.main_arg14)) (Cert.KernelIdeal.Gen.W18 (F := Ideal) m ρ c (Proc.devRef .tc Cert.KernelIdeal.main_arg15))
      (row5_mean m ρ c) (row5_var m ρ c) (row5_gamma m ρ c) (row5_beta m ρ c)).trans (bn5_ref m ρ m' c h_h h_a14 h_a15)
  · -- w: written by neither program in this stretch
    refine (Cert.KernelIdeal.Gen.W20_of_ne m ρ c Cert.KernelIdeal.main_v33 (by decide)).trans (Eq.trans ?_ (h_w.trans ?_))
    · after_results_simp
    · unfold RW7; after_results_simp
  · -- src: written by neither program in this stretch
    refine (Cert.KernelIdeal.Gen.W20_of_ne m ρ c Cert.KernelIdeal.main_v1 (by decide)).trans (Eq.trans ?_ (h_src.trans ?_))
    · after_results_simp
    · unfold RW7; after_results_simp
  · -- dst: written by neither program in this stretch
    refine (Cert.KernelIdeal.Gen.W20_of_ne m ρ c Cert.KernelIdeal.main_v3 (by decide)).trans (Eq.trans ?_ (h_dst.trans ?_))
    · after_results_simp
    · unfold RW7; after_results_simp
  · -- a8: written by neither program in this stretch
    refine (Cert.KernelIdeal.Gen.W20_of_ne m ρ c Cert.KernelIdeal.main_arg8 (by decide)).trans (Eq.trans ?_ (h_a8.trans ?_))
    · after_results_simp
    · exact (Cert.ReferenceIdeal.Hand.after_low (Cert.ReferenceIdeal.Hand.opsC3b (F := Ideal)) Cert.ReferenceIdeal.Hand.opsC3b_high (RW6 m' c) (r := Cert.ReferenceIdeal.main_arg8) (by decide)).symm
  · -- a9: written by neither program in this stretch
    refine (Cert.KernelIdeal.Gen.W20_of_ne m ρ c Cert.KernelIdeal.main_arg9 (by decide)).trans (Eq.trans ?_ (h_a9.trans ?_))
    · after_results_simp
    · exact (Cert.ReferenceIdeal.Hand.after_low (Cert.ReferenceIdeal.Hand.opsC3b (F := Ideal)) Cert.ReferenceIdeal.Hand.opsC3b_high (RW6 m' c) (r := Cert.ReferenceIdeal.main_arg9) (by decide)).symm

end Cert.Bridge

end
-- ==== Proof.RegionLin6.lean ====
/- The value of matmul region 6 of the kernel program: its output array after the region is the reference's own
   expression for its fourth layer, of the four term arrays, the weight and the bias as the region finds them.

   Each grid point t computes, for rows 5000·t … 5000·t + 4999, the four products of the term blocks with the weight's
   slabs, added in order onto a zero block, plus the bias row, then each row divided by the larger of its norm and a floor (the same operations on both sides; a row's norm is a sum over the row's own columns, which lie in one block). Element by element that is the reference's
   whole-array expression at the same row (RegionLinCore: both sides are the same four sums and bias).
   The ten row blocks tile the 50000 rows, so the array ends as that expression everywhere. -/
import proofs.«175070_j35072702939553_2_alg».proof.Proof.RegionLinCore

noncomputable section

open Idealize.ShloMosaic Idealize.ShloMosaic.ValueIdx Idealize.ShloMosaic.TcCoe Idealize.SL.Sem
open Idealize.ShloMosaic.Pipeline (Dat)
open scoped BigOperators

namespace Cert.RefForm

open Cert.ReferenceIdeal Cert.ReferenceIdeal.Facts₀ in
/-- The reference's fourth layer as one expression of its four terms, its weight and its bias: the four products with the
    weight's slabs added in order, the bias added on every row, then each row divided by the larger of its norm (the
    square root of the sum of its squares) and the floor. -/
noncomputable def layer6 (T0 T1 T2 T3 : FVec Ideal S50000x128 .f32) (Wt : FVec Ideal S4x128x128 .f32)
    (b : FVec Ideal S128 .f32) : FVec Ideal S50000x128 .f32 :=
  Host.divf (F := Ideal)
    (addf (addf (addf (addf
      (Host.dotGeneral (F := Ideal) dot_S50000x128_S128x128_S50000x128_1_0_0_1_n_n none T0 (shapeCast S128x128 (extractStridedSlice S1x128x128 ![0, 0, 0] Wt slices_S4x128x128_S1x128x128_0_0_0) shapeCasts_S1x128x128_S128x128))
      (Host.dotGeneral (F := Ideal) dot_S50000x128_S128x128_S50000x128_1_0_0_1_n_n none T1 (shapeCast S128x128 (extractStridedSlice S1x128x128 ![1, 0, 0] Wt slices_S4x128x128_S1x128x128_1_0_0) shapeCasts_S1x128x128_S128x128)))
      (Host.dotGeneral (F := Ideal) dot_S50000x128_S128x128_S50000x128_1_0_0_1_n_n none T2 (shapeCast S128x128 (extractStridedSlice S1x128x128 ![2, 0, 0] Wt slices_S4x128x128_S1x128x128_2_0_0) shapeCasts_S1x128x128_S128x128)))
      (Host.dotGeneral (F := Ideal) dot_S50000x128_S128x128_S50000x128_1_0_0_1_n_n none T3 (shapeCast S128x128 (extractStridedSlice S1x128x128 ![3, 0, 0] Wt slices_S4x128x128_S1x128x128_3_0_0) shapeCasts_S1x128x128_S128x128)))
      (broadcastInDim S50000x128 ![0, 1] bcast_S1x128_S50000x128_0_1 (broadcastInDim S1x128 ![1] bcast_S128_S1x128_1 b)))
    (broadcastInDim S50000x128 ![0, 1] bcast_S50000x1_S50000x128_0_1
      (maximumf
        (Host.sqrt (F := Ideal) (broadcastInDim S50000x1 ![0] bcast_S50000_S50000x1_0
          (Host.reduceAdd (F := Ideal)
            (mulf
              (addf (addf (addf (addf
                (Host.dotGeneral (F := Ideal) dot_S50000x128_S128x128_S50000x128_1_0_0_1_n_n none T0 (shapeCast S128x128 (extractStridedSlice S1x128x128 ![0, 0, 0] Wt slices_S4x128x128_S1x128x128_0_0_0) shapeCasts_S1x128x128_S128x128))
                (Host.dotGeneral (F := Ideal) dot_S50000x128_S128x128_S50000x128_1_0_0_1_n_n none T1 (shapeCast S128x128 (extractStridedSlice S1x128x128 ![1, 0, 0] Wt slices_S4x128x128_S1x128x128_1_0_0) shapeCasts_S1x128x128_S128x128)))
                (Host.dotGeneral (F := Ideal) dot_S50000x128_S128x128_S50000x128_1_0_0_1_n_n none T2 (shapeCast S128x128 (extractStridedSlice S1x128x128 ![2, 0, 0] Wt slices_S4x128x128_S1x128x128_2_0_0) shapeCasts_S1x128x128_S128x128)))
                (Host.dotGeneral (F := Ideal) dot_S50000x128_S128x128_S50000x128_1_0_0_1_n_n none T3 (shapeCast S128x128 (extractStridedSlice S1x128x128 ![3, 0, 0] Wt slices_S4x128x128_S1x128x128_3_0_0) shapeCasts_S1x128x128_S128x128)))
                (broadcastInDim S50000x128 ![0, 1] bcast_S1x128_S50000x128_0_1 (broadcastInDim S1x128 ![1] bcast_S128_S1x128_1 b)))
              (addf (addf (addf (addf
                (Host.dotGeneral (F := Ideal) dot_S50000x128_S128x128_S50000x128_1_0_0_1_n_n none T0 (shapeCast S128x128 (extractStridedSlice S1x128x128 ![0, 0, 0] Wt slices_S4x128x128_S1x128x128_0_0_0) shapeCasts_S1x128x128_S128x128))
                (Host.dotGeneral (F := Ideal) dot_S50000x128_S128x128_S50000x128_1_0_0_1_n_n none T1 (shapeCast S128x128 (extractStridedSlice S1x128x128 ![1, 0, 0] Wt slices_S4x128x128_S1x128x128_1_0_0) shapeCasts_S1x128x128_S128x128)))
                (Host.dotGeneral (F := Ideal) dot_S50000x128_S128x128_S50000x128_1_0_0_1_n_n none T2 (shapeCast S128x128 (extractStridedSlice S1x128x128 ![2, 0, 0] Wt slices_S4x128x128_S1x128x128_2_0_0) shapeCasts_S1x128x128_S128x128)))
                (Host.dotGeneral (F := Ideal) dot_S50000x128_S128x128_S50000x128_1_0_0_1_n_n none T3 (shapeCast S128x128 (extractStridedSlice S1x128x128 ![3, 0, 0] Wt slices_S4x128x128_S1x128x128_3_0_0) shapeCasts_S1x128x128_S128x128)))
                (broadcastInDim S50000x128 ![0, 1] bcast_S1x128_S50000x128_0_1 (broadcastInDim S1x128 ![1] bcast_S128_S1x128_1 b))))
            (constant (F := Ideal) S_ .f32 0x00000000#32) reducesTo_S50000x128_S50000_d1 h_S_)))
        (broadcastInDim S50000x1 ![] bcast_S_S50000x1 (constant (F := Ideal) S_ .f32 0x2B8CBCCC#32))))

namespace Lin

/-! ## The row normalization, element by element on both sides -/

/-- The kernel body's normalization of a block: each element divided by the larger of its row's norm and the floor. -/
abbrev knorm (P : FVec Ideal Cert.KernelIdeal.S5000x128 .f32) : FVec Ideal Cert.KernelIdeal.S5000x128 .f32 :=
  divf P (broadcastTo Cert.KernelIdeal.S5000x128
    (maximumf
      (sqrt (shapeCast Cert.KernelIdeal.S5000x1 (multiReduction .add [1] Cert.KernelIdeal.S5000 (mulf P P) 0x00000000#32 Cert.KernelIdeal.Facts₀.reduces_S5000x128_S5000 (.inl rfl) rfl) Cert.KernelIdeal.Facts₀.shapeCasts_S5000_S5000x1))
      (broadcast Cert.KernelIdeal.S5000x1 (Scalar.ofBits (F := Ideal) .f32 0x2B8CBCCC#32)))
    Cert.KernelIdeal.Facts₀.broadcasts_S5000x1_S5000x128)

theorem knorm_apply (P : FVec Ideal Cert.KernelIdeal.S5000x128 .f32) (r : Fin 5000) (j : Fin 128) :
    knorm P (ix2 r j)
      = Ideal.div (P (ix2 r j)) (max (Ideal.sqrt (∑ k : Fin 128, P (ix2 r k) * P (ix2 r k))) (Ideal.ofBits .f32 0x2B8CBCCC#32)) := by
  show Ideal.div (P (ix2 r j)) (broadcastTo Cert.KernelIdeal.S5000x128
    (maximumf
      (sqrt (shapeCast Cert.KernelIdeal.S5000x1 (multiReduction .add [1] Cert.KernelIdeal.S5000 (mulf P P) 0x00000000#32 Cert.KernelIdeal.Facts₀.reduces_S5000x128_S5000 (.inl rfl) rfl) Cert.KernelIdeal.Facts₀.shapeCasts_S5000_S5000x1))
      (broadcast Cert.KernelIdeal.S5000x1 (Scalar.ofBits (F := Ideal) .f32 0x2B8CBCCC#32)))
    Cert.KernelIdeal.Facts₀.broadcasts_S5000x1_S5000x128 (ix2 r j)) = _
  refine congrArg (Ideal.div (P (ix2 r j))) ?_
  refine (broadcastTo_apply _ _ (ix2 r j) (ix2 r (0 : Fin 1)) fun a => ?_).trans ?_
  · match a with
    | ⟨0, _⟩ => rfl
    | ⟨1, _⟩ => rfl
  show max (Ideal.sqrt (shapeCast Cert.KernelIdeal.S5000x1 (multiReduction .add [1] Cert.KernelIdeal.S5000 (mulf P P) 0x00000000#32 Cert.KernelIdeal.Facts₀.reduces_S5000x128_S5000 (.inl rfl) rfl) Cert.KernelIdeal.Facts₀.shapeCasts_S5000_S5000x1 (ix2 r (0 : Fin 1))))
      (Ideal.ofBits .f32 0x2B8CBCCC#32) = _
  refine congrArg (fun z => max (Ideal.sqrt z) (Ideal.ofBits .f32 0x2B8CBCCC#32)) ?_
  refine (shapeCast_apply _ _ (ix2 r (0 : Fin 1)) (ix1 r) ?_).trans ?_
  · rw [Shape.rowMajor_val_one, Shape.rowMajor_val_two]
    show r.val = r.val * 1 + 0
    omega
  refine (Ideal.multiReduction_add_single (mulf P P) 0x00000000#32 Cert.KernelIdeal.Facts₀.reduces_S5000x128_S5000 (.inl rfl) rfl (ix1 r)).trans ?_
  refine Finset.sum_congr rfl fun k _ => ?_
  have e : Cert.KernelIdeal.Facts₀.reduces_S5000x128_S5000.lift (ix1 r) k = ix2 r k := funext fun a => Fin.ext (by
    match a with
    | ⟨0, _⟩ => rfl
    | ⟨1, _⟩ => rfl)
  exact congrArg₂ (fun a b : EReal => a * b) (congrArg P e) (congrArg P e)

/-- The whole array with its columns summed away is the array of its rows. -/
theorem rows_reduce : Cert.ReferenceIdeal.S50000x128.Reduces [1] Cert.ReferenceIdeal.S50000 := by decide

/-- The reference's normalization of the whole array: each element divided by the larger of its row's norm and the floor. -/
abbrev rnorm (Y : FVec Ideal Cert.ReferenceIdeal.S50000x128 .f32) : FVec Ideal Cert.ReferenceIdeal.S50000x128 .f32 :=
  Host.divf Y (broadcastInDim Cert.ReferenceIdeal.S50000x128 ![0, 1] Cert.ReferenceIdeal.Facts₀.bcast_S50000x1_S50000x128_0_1
    (maximumf
      (Host.sqrt (broadcastInDim Cert.ReferenceIdeal.S50000x1 ![0] Cert.ReferenceIdeal.Facts₀.bcast_S50000_S50000x1_0
        (Host.reduceAdd (mulf Y Y) (constant (F := Ideal) Cert.ReferenceIdeal.S_ .f32 0x00000000#32) Cert.ReferenceIdeal.Facts₀.reducesTo_S50000x128_S50000_d1 Cert.ReferenceIdeal.Facts₀.h_S_)))
      (broadcastInDim Cert.ReferenceIdeal.S50000x1 ![] Cert.ReferenceIdeal.Facts₀.bcast_S_S50000x1 (constant (F := Ideal) Cert.ReferenceIdeal.S_ .f32 0x2B8CBCCC#32))))

set_option maxRecDepth 65536 in
theorem rnorm_apply (Y : FVec Ideal Cert.ReferenceIdeal.S50000x128 .f32) (i : Fin 50000) (j : Fin 128) :
    rnorm Y (ix2 i j)
      = Ideal.div (Y (ix2 i j)) (max (Ideal.sqrt (∑ k : Fin 128, Y (ix2 i k) * Y (ix2 i k))) (Ideal.ofBits .f32 0x2B8CBCCC#32)) := by
  have hred : Cert.ReferenceIdeal.S50000x128.Reduces [1] Cert.ReferenceIdeal.S50000 := rows_reduce
  show Ideal.div (Y (ix2 i j)) (broadcastInDim Cert.ReferenceIdeal.S50000x128 ![0, 1] Cert.ReferenceIdeal.Facts₀.bcast_S50000x1_S50000x128_0_1
    (maximumf
      (Host.sqrt (broadcastInDim Cert.ReferenceIdeal.S50000x1 ![0] Cert.ReferenceIdeal.Facts₀.bcast_S50000_S50000x1_0
        (Host.reduceAdd (mulf Y Y) (constant (F := Ideal) Cert.ReferenceIdeal.S_ .f32 0x00000000#32) Cert.ReferenceIdeal.Facts₀.reducesTo_S50000x128_S50000_d1 Cert.ReferenceIdeal.Facts₀.h_S_)))
      (broadcastInDim Cert.ReferenceIdeal.S50000x1 ![] Cert.ReferenceIdeal.Facts₀.bcast_S_S50000x1 (constant (F := Ideal) Cert.ReferenceIdeal.S_ .f32 0x2B8CBCCC#32))) (ix2 i j)) = _
  refine congrArg (Ideal.div (Y (ix2 i j))) ?_
  refine (broadcastInDim_apply _ _ _ (ix2 i j) (ix2 i (0 : Fin 1)) fun a => ?_).trans ?_
  · match a with
    | ⟨0, _⟩ => rfl
    | ⟨1, _⟩ => rfl
  show max (Ideal.sqrt (broadcastInDim Cert.ReferenceIdeal.S50000x1 ![0] Cert.ReferenceIdeal.Facts₀.bcast_S50000_S50000x1_0
        (Host.reduceAdd (mulf Y Y) (constant (F := Ideal) Cert.ReferenceIdeal.S_ .f32 0x00000000#32) Cert.ReferenceIdeal.Facts₀.reducesTo_S50000x128_S50000_d1 Cert.ReferenceIdeal.Facts₀.h_S_) (ix2 i (0 : Fin 1))))
      (Ideal.ofBits .f32 0x2B8CBCCC#32) = _
  refine congrArg (fun z => max (Ideal.sqrt z) (Ideal.ofBits .f32 0x2B8CBCCC#32)) ?_
  refine (broadcastInDim_apply _ _ _ (ix2 i (0 : Fin 1)) (ix1 i) fun a => ?_).trans ?_
  · match a with
    | ⟨0, _⟩ => rfl
  show Ideal.hostReduceAdd Cert.ReferenceIdeal.Facts₀.reducesTo_S50000x128_S50000_d1 (mulf Y Y) (Ideal.ofBits .f32 0x00000000#32) (ix1 i) = _
  rw [Ideal.hostReduceAdd_single _ hred, Ideal.ofBits_zero_f32, zero_add]
  refine Finset.sum_congr rfl fun k _ => ?_
  have e : hred.lift (ix1 i) k = ix2 i k := funext fun a => Fin.ext (by
    match a with
    | ⟨0, _⟩ => rfl
    | ⟨1, _⟩ => rfl)
  exact congrArg₂ (fun a b : EReal => a * b) (congrArg Y e) (congrArg Y e)
/-- It is the row normalization of the shared linear part. -/
theorem layer6_eq (T0 T1 T2 T3 : FVec Ideal Cert.ReferenceIdeal.S50000x128 .f32) (Wt : FVec Ideal Cert.ReferenceIdeal.S4x128x128 .f32) (b : FVec Ideal Cert.ReferenceIdeal.S128 .f32) :
    layer6 T0 T1 T2 T3 Wt b = rnorm (rpre128 T0 T1 T2 T3 Wt b) := rfl

section Kernel
open Cert.KernelIdeal Cert.KernelIdeal.Gen

/-- The kernel body's stored value is the row normalization of the shared linear part of its loaded blocks. -/
theorem pay6_eq (x0 : Vec Ideal S5000x128 .f32) (w0 : Vec Ideal S1x128x128 .f32) (x1 : Vec Ideal S5000x128 .f32) (w1 : Vec Ideal S1x128x128 .f32)
    (x2 : Vec Ideal S5000x128 .f32) (w2 : Vec Ideal S1x128x128 .f32) (x3 : Vec Ideal S5000x128 .f32) (w3 : Vec Ideal S1x128x128 .f32)
    (x5 : Vec Ideal S1x128 .f32) :
    k6_pay1 (F := Ideal) (k6_pay2 x0 w0 x1 w1 x2 w2 x3 w3) x5 = knorm (kpre128 x0 w0 x1 w1 x2 w2 x3 w3 x5) := rfl

/-- One element of a block the body leaves is the reference layer's element at the row the block's row sits at, when the
    block's terms are the arrays' rows, the loaded weight the weight and the bias row the bias: the row's norm is a sum
    over the row's own 128 columns, all inside the block. -/
theorem out6_6_apply (x0 x1 x2 x3 : Vec Ideal S5000x128 .f32) (x4 : Vec Ideal S4x128x128 .f32) (x5 : Vec Ideal S1x128 .f32)
    (T0 T1 T2 T3 : FVec Ideal Cert.ReferenceIdeal.S50000x128 .f32) (W : FVec Ideal Cert.ReferenceIdeal.S4x128x128 .f32) (b : FVec Ideal Cert.ReferenceIdeal.S128 .f32)
    (r : Fin 5000) (i : Fin 50000) (j : Fin 128)
    (h0 : ∀ k, x0 (ix2 r k) = T0 (ix2 i k)) (h1 : ∀ k, x1 (ix2 r k) = T1 (ix2 i k))
    (h2 : ∀ k, x2 (ix2 r k) = T2 (ix2 i k)) (h3 : ∀ k, x3 (ix2 r k) = T3 (ix2 i k))
    (g : ∀ (q : Fin 4) (k j' : Fin 128), x4 (ix3 q k j') = W (ix3 q k j')) (hb : ∀ j' : Fin 128, x5 (ix2 (0 : Fin 1) j') = b (ix1 j')) :
    out6_6 x0 x1 x2 x3 x4 x5 (ix2 r j) = layer6 T0 T1 T2 T3 W b (ix2 i j) := by
  have hpre : ∀ j' : Fin 128, kpre128 x0 (View.ld x4 r6_1) x1 (View.ld x4 r6_2) x2 (View.ld x4 r6_3) x3 (View.ld x4 r6_4) x5 (ix2 r j')
      = rpre128 T0 T1 T2 T3 W b (ix2 i j') := fun j' =>
    pre128_eq x0 (View.ld x4 r6_1) x1 (View.ld x4 r6_2) x2 (View.ld x4 r6_3) x3 (View.ld x4 r6_4) x5 T0 T1 T2 T3 W b r i j' h0 h1 h2 h3
      (fun k => (ld_slab x4 0 ![0, 0, 0] rfl _ k j').trans (g 0 k j')) (fun k => (ld_slab x4 1 ![1, 0, 0] rfl _ k j').trans (g 1 k j'))
      (fun k => (ld_slab x4 2 ![2, 0, 0] rfl _ k j').trans (g 2 k j')) (fun k => (ld_slab x4 3 ![3, 0, 0] rfl _ k j').trans (g 3 k j')) (hb j')
  unfold out6_6
  rw [View.canon_unit_zero zeros2]
  simp only [View.ld_unit_zero (S := S5000x128) zeros2, View.ld_unit_zero (S := S1x128) zeros2]
  rw [pay6_eq, layer6_eq, knorm_apply, rnorm_apply, hpre j]
  refine congrArg (fun z => Ideal.div (rpre128 T0 T1 T2 T3 W b (ix2 i j)) (max (Ideal.sqrt z) (Ideal.ofBits .f32 0x2B8CBCCC#32))) ?_
  exact Finset.sum_congr rfl fun k _ => by rw [hpre k]

end Kernel

section Blocks
open Cert.KernelIdeal Cert.KernelIdeal.Gen

variable (V : (c : Dev nD) → (b : Ref sig .tc) → Buf (Elt Ideal) ((c : Thread nD τ).loc b))

/-- The printed index maps over the grid: the four term windows and the output window sit at row block t, the weight's
    and the bias's windows at their one block. -/
theorem idx6 : ∀ t : Fin cfg6.N,
    win6_0.index t (0 : Fin 2) = t.val ∧ win6_0.index t (1 : Fin 2) = 0
    ∧ win6_1.index t (0 : Fin 2) = t.val ∧ win6_1.index t (1 : Fin 2) = 0
    ∧ win6_2.index t (0 : Fin 2) = t.val ∧ win6_2.index t (1 : Fin 2) = 0
    ∧ win6_3.index t (0 : Fin 2) = t.val ∧ win6_3.index t (1 : Fin 2) = 0
    ∧ win6_4.index t (0 : Fin 3) = 0 ∧ win6_4.index t (1 : Fin 3) = 0 ∧ win6_4.index t (2 : Fin 3) = 0
    ∧ win6_5.index t (0 : Fin 2) = 0 ∧ win6_5.index t (1 : Fin 2) = 0
    ∧ win6_6.index t (0 : Fin 2) = t.val ∧ win6_6.index t (1 : Fin 2) = 0 :=
  (by decide +kernel : ∀ t : Fin grid6.N, _)

/-- Term window 0's block at point t is rows 5000·t … 5000·t + 4999 of its array. -/
theorem iblk6_0_apply (c : Dev nD) (t : Fin cfg6.N) (r : Fin 5000) (k : Fin 128) (i : Fin 50000) (hi : i.val = t.val * 5000 + r.val) :
    (iblk6 V c 0 t : Vec Ideal S5000x128 .f32) (ix2 r k) = (V c (Pipeline.arrRef spec6 0) : FVec Ideal S50000x128 .f32) (ix2 i k) := by
  have e0 : win6_0.index t (0 : Fin 2) = t.val := (idx6 t).1
  have e1 : win6_0.index t (1 : Fin 2) = 0 := (idx6 t).2.1
  unfold iblk6
  rw [View.read_apply]
  show V c (Pipeline.arrRef spec6 0) _ = V c (Pipeline.arrRef spec6 0) _
  refine congrArg (V c (Pipeline.arrRef spec6 0)) (funext fun a => Fin.ext ?_)
  match a with
  | ⟨0, _⟩ => show win6_0.index t (0 : Fin 2) * 5000 + 1 * r.val = i.val; omega
  | ⟨1, _⟩ => show win6_0.index t (1 : Fin 2) * 128 + 1 * k.val = k.val; omega

/-- Term window 1's block at point t is rows 5000·t … 5000·t + 4999 of its array. -/
theorem iblk6_1_apply (c : Dev nD) (t : Fin cfg6.N) (r : Fin 5000) (k : Fin 128) (i : Fin 50000) (hi : i.val = t.val * 5000 + r.val) :
    (iblk6 V c 1 t : Vec Ideal S5000x128 .f32) (ix2 r k) = (V c (Pipeline.arrRef spec6 1) : FVec Ideal S50000x128 .f32) (ix2 i k) := by
  have e0 : win6_1.index t (0 : Fin 2) = t.val := (idx6 t).2.2.1
  have e1 : win6_1.index t (1 : Fin 2) = 0 := (idx6 t).2.2.2.1
  unfold iblk6
  rw [View.read_apply]
  show V c (Pipeline.arrRef spec6 1) _ = V c (Pipeline.arrRef spec6 1) _
  refine congrArg (V c (Pipeline.arrRef spec6 1)) (funext fun a => Fin.ext ?_)
  match a with
  | ⟨0, _⟩ => show win6_1.index t (0 : Fin 2) * 5000 + 1 * r.val = i.val; omega
  | ⟨1, _⟩ => show win6_1.index t (1 : Fin 2) * 128 + 1 * k.val = k.val; omega

/-- Term window 2's block at point t is rows 5000·t … 5000·t + 4999 of its array. -/
theorem iblk6_2_apply (c : Dev nD) (t : Fin cfg6.N) (r : Fin 5000) (k : Fin 128) (i : Fin 50000) (hi : i.val = t.val * 5000 + r.val) :
    (iblk6 V c 2 t : Vec Ideal S5000x128 .f32) (ix2 r k) = (V c (Pipeline.arrRef spec6 2) : FVec Ideal S50000x128 .f32) (ix2 i k) := by
  have e0 : win6_2.index t (0 : Fin 2) = t.val := (idx6 t).2.2.2.2.1
  have e1 : win6_2.index t (1 : Fin 2) = 0 := (idx6 t).2.2.2.2.2.1
  unfold iblk6
  rw [View.read_apply]
  show V c (Pipeline.arrRef spec6 2) _ = V c (Pipeline.arrRef spec6 2) _
  refine congrArg (V c (Pipeline.arrRef spec6 2)) (funext fun a => Fin.ext ?_)
  match a with
  | ⟨0, _⟩ => show win6_2.index t (0 : Fin 2) * 5000 + 1 * r.val = i.val; omega
  | ⟨1, _⟩ => show win6_2.index t (1 : Fin 2) * 128 + 1 * k.val = k.val; omega

/-- Term window 3's block at point t is rows 5000·t … 5000·t + 4999 of its array. -/
theorem iblk6_3_apply (c : Dev nD) (t : Fin cfg6.N) (r : Fin 5000) (k : Fin 128) (i : Fin 50000) (hi : i.val = t.val * 5000 + r.val) :
    (iblk6 V c 3 t : Vec Ideal S5000x128 .f32) (ix2 r k) = (V c (Pipeline.arrRef spec6 3) : FVec Ideal S50000x128 .f32) (ix2 i k) := by
  have e0 : win6_3.index t (0 : Fin 2) = t.val := (idx6 t).2.2.2.2.2.2.1
  have e1 : win6_3.index t (1 : Fin 2) = 0 := (idx6 t).2.2.2.2.2.2.2.1
  unfold iblk6
  rw [View.read_apply]
  show V c (Pipeline.arrRef spec6 3) _ = V c (Pipeline.arrRef spec6 3) _
  refine congrArg (V c (Pipeline.arrRef spec6 3)) (funext fun a => Fin.ext ?_)
  match a with
  | ⟨0, _⟩ => show win6_3.index t (0 : Fin 2) * 5000 + 1 * r.val = i.val; omega
  | ⟨1, _⟩ => show win6_3.index t (1 : Fin 2) * 128 + 1 * k.val = k.val; omega

/-- The weight's window is the whole weight at every point. -/
theorem iblk6_4_apply (c : Dev nD) (t : Fin cfg6.N) (q : Fin 4) (k j : Fin 128) :
    (iblk6 V c 4 t : Vec Ideal S4x128x128 .f32) (ix3 q k j) = (V c (Pipeline.arrRef spec6 4) : FVec Ideal S4x128x128 .f32) (ix3 q k j) := by
  have e0 : win6_4.index t (0 : Fin 3) = 0 := (idx6 t).2.2.2.2.2.2.2.2.1
  have e1 : win6_4.index t (1 : Fin 3) = 0 := (idx6 t).2.2.2.2.2.2.2.2.2.1
  have e2 : win6_4.index t (2 : Fin 3) = 0 := (idx6 t).2.2.2.2.2.2.2.2.2.2.1
  unfold iblk6
  rw [View.read_apply]
  show V c (Pipeline.arrRef spec6 4) _ = V c (Pipeline.arrRef spec6 4) _
  refine congrArg (V c (Pipeline.arrRef spec6 4)) (funext fun a => Fin.ext ?_)
  match a with
  | ⟨0, _⟩ => show win6_4.index t (0 : Fin 3) * 4 + 1 * q.val = q.val; omega
  | ⟨1, _⟩ => show win6_4.index t (1 : Fin 3) * 128 + 1 * k.val = k.val; omega
  | ⟨2, _⟩ => show win6_4.index t (2 : Fin 3) * 128 + 1 * j.val = j.val; omega

/-- The bias row's window is the whole row at every point. -/
theorem iblk6_5_apply (c : Dev nD) (t : Fin cfg6.N) (j : Fin 128) :
    (iblk6 V c 5 t : Vec Ideal S1x128 .f32) (ix2 (0 : Fin 1) j) = (V c (Pipeline.arrRef spec6 5) : FVec Ideal S1x128 .f32) (ix2 (0 : Fin 1) j) := by
  have e0 : win6_5.index t (0 : Fin 2) = 0 := (idx6 t).2.2.2.2.2.2.2.2.2.2.2.1
  have e1 : win6_5.index t (1 : Fin 2) = 0 := (idx6 t).2.2.2.2.2.2.2.2.2.2.2.2.1
  unfold iblk6
  rw [View.read_apply]
  show V c (Pipeline.arrRef spec6 5) _ = V c (Pipeline.arrRef spec6 5) _
  refine congrArg (V c (Pipeline.arrRef spec6 5)) (funext fun a => Fin.ext ?_)
  match a with
  | ⟨0, _⟩ => show win6_5.index t (0 : Fin 2) * 1 + 1 * 0 = 0; omega
  | ⟨1, _⟩ => show win6_5.index t (1 : Fin 2) * 128 + 1 * j.val = j.val; omega

/-- WHAT POINT t WRITES BACK is block t of the reference layer of the arrays as the region finds them. -/
theorem flushed6_6 (c : Dev nD) (bias : FVec Ideal Cert.ReferenceIdeal.S128 .f32)
    (hb : V c (Pipeline.arrRef spec6 5) = shapeCast S1x128 bias Facts₀.shapeCasts_S128_S1x128) (t : Fin cfg6.N) :
    (dat6 V c).flushed 6 t = ((cfg6.win 6).blk t).view.read (Elt Ideal)
      (layer6 (V c (Pipeline.arrRef spec6 0)) (V c (Pipeline.arrRef spec6 1)) (V c (Pipeline.arrRef spec6 2)) (V c (Pipeline.arrRef spec6 3)) (V c (Pipeline.arrRef spec6 4)) bias) := by
  show (cfg6.win 6).cut (grid6.coords t) ((dat6 V c).after 6 t) = _
  rw [after6_6]
  have e0 : win6_6.index t (0 : Fin 2) = t.val := (idx6 t).2.2.2.2.2.2.2.2.2.2.2.2.2.1
  have e1 : win6_6.index t (1 : Fin 2) = 0 := (idx6 t).2.2.2.2.2.2.2.2.2.2.2.2.2.2
  have hN : cfg6.N = 10 := N_6
  have ht : t.val < 10 := by have := t.isLt; omega
  funext y
  have hy0 : (y 0).val < 5000 := (y 0).isLt
  have hy1 : (y 1).val < 128 := (y 1).isLt
  rw [View.read_apply]
  show out6_6 (iblk6 V c 0 t) (iblk6 V c 1 t) (iblk6 V c 2 t) (iblk6 V c 3 t) (iblk6 V c 4 t) (iblk6 V c 5 t) y
    = layer6 (V c (Pipeline.arrRef spec6 0)) (V c (Pipeline.arrRef spec6 1)) (V c (Pipeline.arrRef spec6 2)) (V c (Pipeline.arrRef spec6 3)) (V c (Pipeline.arrRef spec6 4)) bias
        (((cfg6.win 6).blk t).view.emb y)
  have ey : (y : S5000x128.Idx) = ix2 (⟨(y 0).val, hy0⟩ : Fin 5000) (⟨(y 1).val, hy1⟩ : Fin 128) :=
    funext fun a => by match a with | ⟨0, _⟩ => rfl | ⟨1, _⟩ => rfl
  have ee : (((cfg6.win 6).blk t).view.emb y : S50000x128.Idx)
      = ix2 (⟨t.val * 5000 + (y 0).val, by omega⟩ : Fin 50000) (⟨(y 1).val, hy1⟩ : Fin 128) :=
    funext fun a => Fin.ext (by
      match a with
      | ⟨0, _⟩ => show win6_6.index t (0 : Fin 2) * 5000 + 1 * (y 0).val = t.val * 5000 + (y 0).val; omega
      | ⟨1, _⟩ => show win6_6.index t (1 : Fin 2) * 128 + 1 * (y 1).val = (y 1).val; omega)
  rw [ee]
  refine (congrArg (out6_6 (iblk6 V c 0 t) (iblk6 V c 1 t) (iblk6 V c 2 t) (iblk6 V c 3 t) (iblk6 V c 4 t) (iblk6 V c 5 t)) ey).trans ?_
  exact out6_6_apply (iblk6 V c 0 t) (iblk6 V c 1 t) (iblk6 V c 2 t) (iblk6 V c 3 t) (iblk6 V c 4 t) (iblk6 V c 5 t)
    (V c (Pipeline.arrRef spec6 0)) (V c (Pipeline.arrRef spec6 1)) (V c (Pipeline.arrRef spec6 2)) (V c (Pipeline.arrRef spec6 3)) (V c (Pipeline.arrRef spec6 4)) bias
    ⟨(y 0).val, hy0⟩ ⟨t.val * 5000 + (y 0).val, by omega⟩ ⟨(y 1).val, hy1⟩
    (fun k => iblk6_0_apply V c t _ k _ rfl) (fun k => iblk6_1_apply V c t _ k _ rfl)
    (fun k => iblk6_2_apply V c t _ k _ rfl) (fun k => iblk6_3_apply V c t _ k _ rfl)
    (fun q k j' => iblk6_4_apply V c t q k j')
    (fun j' => (iblk6_5_apply V c t j').trans ((congrFun hb _).trans (bias_row_apply bias j')))

/-- An index of the output array is in point t's block iff each coordinate is in the block's range on its axis. -/
theorem mem_blk6_6 (t : Fin cfg6.N) (i : S50000x128.Idx) :
    i ∈ ((cfg6.win 6).blk t).view.set ↔ ∀ a : Fin 2, win6_6.index t a * S5000x128.size a ≤ (i a).val ∧ (i a).val < win6_6.index t a * S5000x128.size a + S5000x128.size a := by
  show i ∈ ((View.whole main_v263).slice (win6_6.rect t)).set ↔ _
  rw [View.set_slice_whole, Rect.mem_set_unit]
  exact Iff.rfl

/-- Every row is covered: row r lies in the block of point r / 5000. -/
theorem covered6_6 (i : S50000x128.Idx) :
    ∃ t : Fin cfg6.N, (cfg6.win 6).flush t = true ∧ i ∈ ((cfg6.win 6).blk t).view.set := by
  have hi0 : (i 0).val < 50000 := (i 0).isLt
  have hi1 : (i 1).val < 128 := (i 1).isLt
  have hN : cfg6.N = 10 := N_6
  have hlt : (i 0).val / 5000 < cfg6.N := by rw [hN]; omega
  have e0 : win6_6.index ⟨(i 0).val / 5000, hlt⟩ (0 : Fin 2) = (i 0).val / 5000 := (idx6 ⟨(i 0).val / 5000, hlt⟩).2.2.2.2.2.2.2.2.2.2.2.2.2.1
  have e1 : win6_6.index ⟨(i 0).val / 5000, hlt⟩ (1 : Fin 2) = 0 := (idx6 ⟨(i 0).val / 5000, hlt⟩).2.2.2.2.2.2.2.2.2.2.2.2.2.2
  refine ⟨⟨(i 0).val / 5000, hlt⟩, flush6_6 _, ?_⟩
  rw [mem_blk6_6]
  intro a
  match a with
  | ⟨0, _⟩ =>
    show win6_6.index ⟨(i 0).val / 5000, hlt⟩ (0 : Fin 2) * 5000 ≤ (i 0).val ∧ (i 0).val < win6_6.index ⟨(i 0).val / 5000, hlt⟩ (0 : Fin 2) * 5000 + 5000
    rw [e0]; omega
  | ⟨1, _⟩ =>
    show win6_6.index ⟨(i 0).val / 5000, hlt⟩ (1 : Fin 2) * 128 ≤ (i 1).val ∧ (i 1).val < win6_6.index ⟨(i 0).val / 5000, hlt⟩ (1 : Fin 2) * 128 + 128
    rw [e1]; omega

/-- THE OUTPUT ARRAY after the region is the reference layer of the four term arrays, the weight and the bias as the
    region finds them. -/
theorem _root_.Cert.RefForm.region6_value (c : Dev nD) (bias : FVec Ideal Cert.ReferenceIdeal.S128 .f32)
    (hb : V c (Pipeline.arrRef spec6 5) = shapeCast S1x128 bias Facts₀.shapeCasts_S128_S1x128) :
    (dat6 V c).arrAt 6 cfg6.N
      = layer6 (V c (Pipeline.arrRef spec6 0)) (V c (Pipeline.arrRef spec6 1)) (V c (Pipeline.arrRef spec6 2)) (V c (Pipeline.arrRef spec6 3)) (V c (Pipeline.arrRef spec6 4)) bias :=
  (dat6 V c).arrAt_eq_of_cover 6 _ (fun t _ => flushed6_6 V c bias hb t) (covered6_6)

end Blocks

end Lin

end Cert.RefForm

end
-- ==== Proof.Step4.lean ====
/-
  The fourth Chebyshev projection and the row normalization. The kernel program computes the layer's four Chebyshev
  terms by host operations and applies the four stacked matrix products, the bias and the division of every row by
  the larger of its Euclidean norm and a small constant in its last region; the reference interleaves the same host
  operations with whole-array matrix products and normalizes by whole-array host operations. Given that the two
  programs agree before it, their result arrays are equal.
-/
import proofs.«175070_j35072702939553_2_alg».proof.Proof.BridgeBase
import proofs.«175070_j35072702939553_2_alg».proof.Proof.RegionLin6

set_option maxRecDepth 16384

noncomputable section

namespace Cert.Bridge

open Idealize.ShloMosaic Idealize.ShloMosaic.TcCoe Idealize.ShloMosaic.StableHlo
open Idealize.SL Idealize.SL.Sem

set_option maxHeartbeats 4000000 in
theorem step4 (m : KMem) (ρ : Dev Cert.KernelIdeal.nD → PrngReg) (m' : RMem) (c : Dev Cert.KernelIdeal.nD) (h : I20 m ρ m' c) :
    Cert.KernelIdeal.Gen.W22 (F := Ideal) m ρ c (Proc.devRef .tc Cert.KernelIdeal.main_v263) = RW8 m' c (Proc.devRef .tc Cert.ReferenceIdeal.main_v353) := by
  obtain ⟨h_hn, h_hn16, h_w, h_src, h_dst, h_a8, h_a9⟩ := h
  refine (Cert.KernelIdeal.Gen.W22_arr m ρ c 6).trans ?_
  refine (Cert.RefForm.region6_value (Cert.KernelIdeal.Gen.V21 (F := Ideal) m ρ) c (Cert.KernelIdeal.Gen.W20 m ρ c (Proc.devRef .tc Cert.KernelIdeal.main_arg9)) ?_).trans ?_
  · show Cert.KernelIdeal.Gen.W21 m ρ c (Proc.devRef .tc Cert.KernelIdeal.main_v262) = _
    after_results_simp <;> rfl
  · show Cert.RefForm.layer6 (Cert.KernelIdeal.Gen.W21 m ρ c (Proc.devRef .tc Cert.KernelIdeal.main_v211_0)) (Cert.KernelIdeal.Gen.W21 m ρ c (Proc.devRef .tc Cert.KernelIdeal.main_v225)) (Cert.KernelIdeal.Gen.W21 m ρ c (Proc.devRef .tc Cert.KernelIdeal.main_v243)) (Cert.KernelIdeal.Gen.W21 m ρ c (Proc.devRef .tc Cert.KernelIdeal.main_v261)) (Cert.KernelIdeal.Gen.W21 m ρ c (Proc.devRef .tc Cert.KernelIdeal.main_arg8)) _ = _
    unfold RW8 Cert.RefForm.layer6
    after_results_simp
    rw [h_hn, h_hn16, h_w, h_src, h_dst, h_a8, h_a9]
    rfl

end Cert.Bridge

end
-- ==== Proof.Chain.lean ====
/-
  The chain: from launch memories that agree on the sixteen arguments, the two programs agree after the edge weights
  and the first projection, after each batch normalization and each further projection in turn, and so their result
  arrays are equal.
-/
import proofs.«175070_j35072702939553_2_alg».proof.Proof.Step1a
import proofs.«175070_j35072702939553_2_alg».proof.Proof.Step1b
import proofs.«175070_j35072702939553_2_alg».proof.Proof.Step2a
import proofs.«175070_j35072702939553_2_alg».proof.Proof.Step2b
import proofs.«175070_j35072702939553_2_alg».proof.Proof.Step3a
import proofs.«175070_j35072702939553_2_alg».proof.Proof.Step3b
import proofs.«175070_j35072702939553_2_alg».proof.Proof.Step4

noncomputable section

namespace Cert.Bridge

open Idealize.ShloMosaic Idealize.ShloMosaic.TcCoe Idealize.SL.Sem

/-- The kernel program's result array after its last region is the reference's result after its last host operation. -/
theorem final_eq (m : KMem) (ρ : Dev Cert.KernelIdeal.nD → PrngReg) (m' : RMem) (c : Dev Cert.KernelIdeal.nD) (h0 : I0 m m' c) :
    Cert.KernelIdeal.Gen.W22 (F := Ideal) m ρ c (Proc.devRef .tc Cert.KernelIdeal.main_v263) = RW8 m' c (Proc.devRef .tc Cert.ReferenceIdeal.main_v353) :=
  step4 m ρ m' c (step3b m ρ m' c (step3a m ρ m' c (step2b m ρ m' c (step2a m ρ m' c (step1b m ρ m' c (step1a m ρ m' c h0))))))

end Cert.Bridge

end
-- ==== Proof.lean ====
/- The certificate of the graph network's forward pass: four Chebyshev graph convolutions, the first two each followed by
   a leaky rectifier and the third by a rectifier (the maximum with zero), each of these three then by a batch
   normalisation over the 50000 nodes, the last by a row normalisation.

   Three programs are compared. The kernel program runs seven blocked regions (projection, normalisation, projection,
   normalisation, projection, normalisation, projection with the row normalisation) between stretches of host operations;
   its reading at the extended reals is the same text with every float operation exact; the reference is one straight
   line of host operations. The claims:
   * each program runs to the end from any memory and leaves its sixteen argument arrays as it found them (for the two
     kernel programs this is the run of the regions and host stretches with each argument read back at the last
     boundary; for the reference it is the run of its operations, none of which writes an argument);
   * the reading at the extended reals rewrites no operation of the kernel program, so nothing is to be preserved;
   * at the extended reals, from memories that agree on the sixteen arguments, the kernel program's result array and the
     reference's hold the same extended reals: the kernel program's last boundary contents and the reference's
     contents after its last operation agree on the result buffers, which is followed layer by layer through the two
     programs (the equality of the two final contents is the theorem `Cert.Bridge.final_eq`); the two runs are then
     stated with that one array as the common result. -/
import proofs.«175070_j35072702939553_2_alg».proof.Defs
import proofs.«175070_j35072702939553_2_alg».proof.Proof.Gen.Kernel.Frame
import proofs.«175070_j35072702939553_2_alg».proof.Proof.Gen.KernelIdeal.Frame
import proofs.«175070_j35072702939553_2_alg».proof.Proof.Gen.ReferenceIdeal
import proofs.«175070_j35072702939553_2_alg».proof.Proof.Gen.Pre_finite_inputs
import proofs.«175070_j35072702939553_2_alg».proof.Proof.KRun
import proofs.«175070_j35072702939553_2_alg».proof.Proof.RefRun
import proofs.«175070_j35072702939553_2_alg».proof.Proof.BridgeBase
import proofs.«175070_j35072702939553_2_alg».proof.Proof.Chain
import Idealize.ShloMosaic.Adequacy
import Idealize.ShloMosaic.Init

noncomputable section

namespace Cert.Proof

open Idealize.ShloMosaic Idealize.ShloMosaic.TcCoe Idealize.SL.Sem

/-- The kernel program runs and keeps its arguments. -/
theorem frame_p : Cert.frame_Kernel := fun m ρ _ => Cert.Kernel.Gen.frame m ρ

/-- So does its reading at the extended reals. -/
theorem frame_pi : Cert.frame_KernelIdeal := fun m ρ _ => Cert.KernelIdeal.Gen.frame m ρ

/-- The reference runs, and none of its operations writes an argument's buffer. -/
theorem frame_ri : Cert.frame_ReferenceIdeal := fun m ρ _ =>
  (θ_run (Cert.ReferenceIdeal.defs (F := Ideal)) _ _).mono (fun _ h c =>
      ⟨(h c Cert.ReferenceIdeal.main_arg0).trans (Cert.ReferenceIdeal.Hand.arg_kept0 _),
       (h c Cert.ReferenceIdeal.main_arg1).trans (Cert.ReferenceIdeal.Hand.arg_kept1 _),
       (h c Cert.ReferenceIdeal.main_arg2).trans (Cert.ReferenceIdeal.Hand.arg_kept2 _),
       (h c Cert.ReferenceIdeal.main_arg3).trans (Cert.ReferenceIdeal.Hand.arg_kept3 _),
       (h c Cert.ReferenceIdeal.main_arg4).trans (Cert.ReferenceIdeal.Hand.arg_kept4 _),
       (h c Cert.ReferenceIdeal.main_arg5).trans (Cert.ReferenceIdeal.Hand.arg_kept5 _),
       (h c Cert.ReferenceIdeal.main_arg6).trans (Cert.ReferenceIdeal.Hand.arg_kept6 _),
       (h c Cert.ReferenceIdeal.main_arg7).trans (Cert.ReferenceIdeal.Hand.arg_kept7 _),
       (h c Cert.ReferenceIdeal.main_arg8).trans (Cert.ReferenceIdeal.Hand.arg_kept8 _),
       (h c Cert.ReferenceIdeal.main_arg9).trans (Cert.ReferenceIdeal.Hand.arg_kept9 _),
       (h c Cert.ReferenceIdeal.main_arg10).trans (Cert.ReferenceIdeal.Hand.arg_kept10 _),
       (h c Cert.ReferenceIdeal.main_arg11).trans (Cert.ReferenceIdeal.Hand.arg_kept11 _),
       (h c Cert.ReferenceIdeal.main_arg12).trans (Cert.ReferenceIdeal.Hand.arg_kept12 _),
       (h c Cert.ReferenceIdeal.main_arg13).trans (Cert.ReferenceIdeal.Hand.arg_kept13 _),
       (h c Cert.ReferenceIdeal.main_arg14).trans (Cert.ReferenceIdeal.Hand.arg_kept14 _),
       (h c Cert.ReferenceIdeal.main_arg15).trans (Cert.ReferenceIdeal.Hand.arg_kept15 _)⟩)
    (Cert.ReferenceIdeal.Hand.run_main (F := Ideal) m ρ)

/-- The reading at the extended reals rewrote nothing. -/
theorem preserves : Cert.preserves_Kernel_KernelIdeal := trivial

/-- From memories that agree on the arguments both programs end with the same result array: the kernel program's last
    boundary contents at its result buffer, which are the reference's final contents at its own. -/
theorem algebraic : Cert.algebraic_KernelIdeal_ReferenceIdeal := by
  intro m ρ m' ρ' _ hagree
  refine ⟨fun c => Cert.KernelIdeal.Gen.W22 (F := Ideal) m ρ c (Proc.devRef .tc Cert.KernelIdeal.main_v263), ?_, ?_⟩
  · exact (θ_run (Cert.KernelIdeal.defs (F := Ideal)) _ _).mono (fun _ h c =>
      ⟨h c _ (Cert.KernelIdeal.Gen.mem_uc Cert.KernelIdeal.main_v263 (by decide)),
       (h c _ (Cert.KernelIdeal.Gen.mem_uc Cert.KernelIdeal.main_arg0 (by decide))).trans (Cert.KernelIdeal.Gen.W22_main_arg0 m ρ c),
       (h c _ (Cert.KernelIdeal.Gen.mem_uc Cert.KernelIdeal.main_arg1 (by decide))).trans (Cert.KernelIdeal.Gen.W22_main_arg1 m ρ c),
       (h c _ (Cert.KernelIdeal.Gen.mem_uc Cert.KernelIdeal.main_arg2 (by decide))).trans (Cert.KernelIdeal.Gen.W22_main_arg2 m ρ c),
       (h c _ (Cert.KernelIdeal.Gen.mem_uc Cert.KernelIdeal.main_arg3 (by decide))).trans (Cert.KernelIdeal.Gen.W22_main_arg3 m ρ c),
       (h c _ (Cert.KernelIdeal.Gen.mem_uc Cert.KernelIdeal.main_arg4 (by decide))).trans (Cert.KernelIdeal.Gen.W22_main_arg4 m ρ c),
       (h c _ (Cert.KernelIdeal.Gen.mem_uc Cert.KernelIdeal.main_arg5 (by decide))).trans (Cert.KernelIdeal.Gen.W22_main_arg5 m ρ c),
       (h c _ (Cert.KernelIdeal.Gen.mem_uc Cert.KernelIdeal.main_arg6 (by decide))).trans (Cert.KernelIdeal.Gen.W22_main_arg6 m ρ c),
       (h c _ (Cert.KernelIdeal.Gen.mem_uc Cert.KernelIdeal.main_arg7 (by decide))).trans (Cert.KernelIdeal.Gen.W22_main_arg7 m ρ c),
       (h c _ (Cert.KernelIdeal.Gen.mem_uc Cert.KernelIdeal.main_arg8 (by decide))).trans (Cert.KernelIdeal.Gen.W22_main_arg8 m ρ c),
       (h c _ (Cert.KernelIdeal.Gen.mem_uc Cert.KernelIdeal.main_arg9 (by decide))).trans (Cert.KernelIdeal.Gen.W22_main_arg9 m ρ c),
       (h c _ (Cert.KernelIdeal.Gen.mem_uc Cert.KernelIdeal.main_arg10 (by decide))).trans (Cert.KernelIdeal.Gen.W22_main_arg10 m ρ c),
       (h c _ (Cert.KernelIdeal.Gen.mem_uc Cert.KernelIdeal.main_arg11 (by decide))).trans (Cert.KernelIdeal.Gen.W22_main_arg11 m ρ c),
       (h c _ (Cert.KernelIdeal.Gen.mem_uc Cert.KernelIdeal.main_arg12 (by decide))).trans (Cert.KernelIdeal.Gen.W22_main_arg12 m ρ c),
       (h c _ (Cert.KernelIdeal.Gen.mem_uc Cert.KernelIdeal.main_arg13 (by decide))).trans (Cert.KernelIdeal.Gen.W22_main_arg13 m ρ c),
       (h c _ (Cert.KernelIdeal.Gen.mem_uc Cert.KernelIdeal.main_arg14 (by decide))).trans (Cert.KernelIdeal.Gen.W22_main_arg14 m ρ c),
       (h c _ (Cert.KernelIdeal.Gen.mem_uc Cert.KernelIdeal.main_arg15 (by decide))).trans (Cert.KernelIdeal.Gen.W22_main_arg15 m ρ c)⟩)
      (Cert.KernelIdeal.Hand.run_valued (F := Ideal) m ρ)
  · exact (θ_run (Cert.ReferenceIdeal.defs (F := Ideal)) _ _).mono (fun _ h c =>
      ⟨(h c Cert.ReferenceIdeal.main_v353).trans ((congrFun (Cert.Bridge.RW8_eq m' c) _).symm.trans (Cert.Bridge.final_eq m ρ m' c (hagree c)).symm),
       (h c Cert.ReferenceIdeal.main_arg0).trans (Cert.ReferenceIdeal.Hand.arg_kept0 _),
       (h c Cert.ReferenceIdeal.main_arg1).trans (Cert.ReferenceIdeal.Hand.arg_kept1 _),
       (h c Cert.ReferenceIdeal.main_arg2).trans (Cert.ReferenceIdeal.Hand.arg_kept2 _),
       (h c Cert.ReferenceIdeal.main_arg3).trans (Cert.ReferenceIdeal.Hand.arg_kept3 _),
       (h c Cert.ReferenceIdeal.main_arg4).trans (Cert.ReferenceIdeal.Hand.arg_kept4 _),
       (h c Cert.ReferenceIdeal.main_arg5).trans (Cert.ReferenceIdeal.Hand.arg_kept5 _),
       (h c Cert.ReferenceIdeal.main_arg6).trans (Cert.ReferenceIdeal.Hand.arg_kept6 _),
       (h c Cert.ReferenceIdeal.main_arg7).trans (Cert.ReferenceIdeal.Hand.arg_kept7 _),
       (h c Cert.ReferenceIdeal.main_arg8).trans (Cert.ReferenceIdeal.Hand.arg_kept8 _),
       (h c Cert.ReferenceIdeal.main_arg9).trans (Cert.ReferenceIdeal.Hand.arg_kept9 _),
       (h c Cert.ReferenceIdeal.main_arg10).trans (Cert.ReferenceIdeal.Hand.arg_kept10 _),
       (h c Cert.ReferenceIdeal.main_arg11).trans (Cert.ReferenceIdeal.Hand.arg_kept11 _),
       (h c Cert.ReferenceIdeal.main_arg12).trans (Cert.ReferenceIdeal.Hand.arg_kept12 _),
       (h c Cert.ReferenceIdeal.main_arg13).trans (Cert.ReferenceIdeal.Hand.arg_kept13 _),
       (h c Cert.ReferenceIdeal.main_arg14).trans (Cert.ReferenceIdeal.Hand.arg_kept14 _),
       (h c Cert.ReferenceIdeal.main_arg15).trans (Cert.ReferenceIdeal.Hand.arg_kept15 _)⟩)
      (Cert.ReferenceIdeal.Hand.run_main (F := Ideal) m' ρ')

theorem claim : Cert.Claim :=
  ⟨Cert.Kernel.Gen.facts, Cert.KernelIdeal.Gen.facts, Cert.ReferenceIdeal.Gen.facts, Cert.Pre_finite_inputs.Gen.facts,
    frame_p, frame_pi, frame_ri, preserves, algebraic⟩

end Cert.Proof

end
